-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x64 : Shape := ⟨2, ![512, 64]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S512x2048 .f32) (main_arg12 : FVec F S2048 .f32) (main_arg13 : FVec F S2048x512 .f32) (main_arg14 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x2048 .f32 := Host.absf main_arg11
  let main_cst_20 : FVec F S_ .f32 := constant S_ .f32 0x7F800000#32
  let main_v55 : FVec F S512x2048 .f32 := broadcastInDim S512x2048 ![] bcast_S_S512x2048 main_cst_20
  let main_v56 : IVec S512x2048 1 := cmpf .olt main_v54 main_v55
  let main_c_21 : IVec S_ 1 := constantI S_ 1 1#1
  let main_v57 : IVec S_ 1 := (fun x v => Host.reduce IntOp.andi x v reducesTo_S512x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x512 .f32 := Host.absf main_arg13
  let main_cst_24 : FVec F S_ .f32 := constant S_ .f32 0x7F800000#32
  let main_v65 : FVec F S2048x512 .f32 := broadcastInDim S2048x512 ![] bcast_S_S2048x512 main_cst_24
  let main_v66 : IVec S2048x512 1 := cmpf .olt main_v64 main_v65
  let main_c_25 : IVec S_ 1 := constantI S_ 1 1#1
  let main_v67 : IVec S_ 1 := (fun x v => Host.reduce IntOp.andi x v reducesTo_S2048x512_S_d0_1 h_S_) main_v66 main_c_25
  fn_part4 (F := F) main_arg14 main_v63 main_v67

def fn_part2 {F : FTy → Type} [FloatOps F] (main_arg7 : FVec F S512x64 .f32) (main_arg8 : FVec F S512x512 .f32) (main_arg9 : FVec F S512 .f32) (main_arg10 : FVec F S512 .f32) (main_arg11 : FVec F S512x2048 .f32) (main_arg12 : FVec F S2048 .f32) (main_arg13 : FVec F S2048x512 .f32) (main_arg14 : FVec F S512 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512x64 .f32) (main_arg5 : FVec F S512x64 .f32) (main_arg6 : FVec F S512x64 .f32) (main_arg7 : FVec F S512x64 .f32) (main_arg8 : FVec F S512x512 .f32) (main_arg9 : FVec F S512 .f32) (main_arg10 : FVec F S512 .f32) (main_arg11 : FVec F S512x2048 .f32) (main_arg12 : FVec F S2048 .f32) (main_arg13 : FVec F S2048x512 .f32) (main_arg14 : FVec F S512 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S512x64 .f32 := Host.absf main_arg6
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S8192x512 .f32) (main_arg2 : FVec F S512x64 .f32) (main_arg3 : FVec F S512x64 .f32) (main_arg4 : FVec F S512x64 .f32) (main_arg5 : FVec F S512x64 .f32) (main_arg6 : FVec F S512x64 .f32) (main_arg7 : FVec F S512x64 .f32) (main_arg8 : FVec F S512x512 .f32) (main_arg9 : FVec F S512 .f32) (main_arg10 : FVec F S512 .f32) (main_arg11 : FVec F S512x2048 .f32) (main_arg12 : FVec F S2048 .f32) (main_arg13 : FVec F S2048x512 .f32) (main_arg14 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x512 : Shape := ⟨2, ![8192, 512]⟩
abbrev S512x64 : Shape := ⟨2, ![512, 64]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S512x192 : Shape := ⟨2, ![512, 192]⟩
abbrev S512x128 : Shape := ⟨2, ![512, 128]⟩
abbrev S8x64x512 : Shape := ⟨3, ![8, 64, 512]⟩
abbrev S_ : Shape := ⟨0, ![]⟩
abbrev S64x512 : Shape := ⟨2, ![64, 512]⟩
abbrev S192 : Shape := ⟨1, ![192]⟩
abbrev S128 : Shape := ⟨1, ![128]⟩
abbrev S64 : Shape := ⟨1, ![64]⟩
abbrev S1x192 : Shape := ⟨2, ![1, 192]⟩
abbrev S8192x192 : Shape := ⟨2, ![8192, 192]⟩
abbrev S1024x512 : Shape := ⟨2, ![1024, 512]⟩
abbrev S1024x192 : Shape := ⟨2, ![1024, 192]⟩
abbrev S8192x64 : Shape := ⟨2, ![8192, 64]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩
abbrev S1x512 : Shape := ⟨2, ![1, 512]⟩
abbrev S1x128 : Shape := ⟨2, ![1, 128]⟩
abbrev S8192x128 : Shape := ⟨2, ![8192, 128]⟩
abbrev S1024x128 : Shape := ⟨2, ![1024, 128]⟩
abbrev S1x64 : Shape := ⟨2, ![1, 64]⟩
abbrev S64x8192 : Shape := ⟨2, ![64, 8192]⟩
abbrev S512x8192 : Shape := ⟨2, ![512, 8192]⟩
abbrev S512x1 : Shape := ⟨2, ![512, 1]⟩
abbrev S1x2048 : Shape := ⟨2, ![1, 2048]⟩
abbrev S1024x2048 : Shape := ⟨2, ![1024, 2048]⟩

abbrev nBuf : Space → Nat
  | .hbm => 57
  | .vmem => 60
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512x2048, .f32⟩
  | .hbm, ⟨12, _⟩ => ⟨S2048, .f32⟩
  | .hbm, ⟨13, _⟩ => ⟨S2048x512, .f32⟩
  | .hbm, ⟨14, _⟩ => ⟨S512, .f32⟩
  | .hbm, ⟨15, _⟩ => ⟨S512x192, .f32⟩
  | .hbm, ⟨16, _⟩ => ⟨S512x192, .bf16⟩
  | .hbm, ⟨17, _⟩ => ⟨S512x128, .f32⟩
  | .hbm, ⟨18, _⟩ => ⟨S512x128, .bf16⟩
  | .hbm, ⟨19, _⟩ => ⟨S512x64, .bf16⟩
  | .hbm, ⟨20, _⟩ => ⟨S8x64x512, .f32⟩
  | .hbm, ⟨21, _⟩ => ⟨S_, .f32⟩
  | .hbm, ⟨22, _⟩ => ⟨S64x512, .f32⟩
  | .hbm, ⟨23, _⟩ => ⟨S64x512, .bf16⟩
  | .hbm, ⟨24, _⟩ => ⟨S512x2048, .bf16⟩
  | .hbm, ⟨25, _⟩ => ⟨S2048x512, .bf16⟩
  | .hbm, ⟨26, _⟩ => ⟨S_, .f32⟩
  | .hbm, ⟨27, _⟩ => ⟨S192, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S512, .f32⟩
  | .hbm, ⟨34, _⟩ => ⟨S1x192, .f32⟩
  | .hbm, ⟨35, _⟩ => ⟨S8192x192, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S1x512, .f32⟩
  | .hbm, ⟨41, _⟩ => ⟨S8192x512, .f32⟩
  | .hbm, ⟨42, _⟩ => ⟨S1x128, .f32⟩
  | .hbm, ⟨43, _⟩ => ⟨S8192x128, .f32⟩
  | .hbm, ⟨44, _⟩ => ⟨S8192x64, .f32⟩
  | .hbm, ⟨45, _⟩ => ⟨S8192x64, .f32⟩
  | .hbm, ⟨46, _⟩ => ⟨S1x64, .f32⟩
  | .hbm, ⟨47, _⟩ => ⟨S8192x64, .f32⟩
  | .hbm, ⟨48, _⟩ => ⟨S8192x64, .f32⟩
  | .hbm, ⟨49, _⟩ => ⟨S1x512, .f32⟩
  | .hbm, ⟨50, _⟩ => ⟨S1x512, .f32⟩
  | .hbm, ⟨51, _⟩ => ⟨S8192x512, .f32⟩
  | .hbm, ⟨52, _⟩ => ⟨S1x2048, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x192, .bf16⟩
  | .local _ .vmem, ⟨3, _⟩ => ⟨S1x192, .f32⟩
  | .local _ .vmem, ⟨4, _⟩ => ⟨S1024x192, .f32⟩
  | .local _ .vmem, ⟨5, _⟩ => ⟨S1024x192, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x1, .f32⟩
  | .local _ .vmem, ⟨15, _⟩ => ⟨S1024x1, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S64x512, .bf16⟩
  | .local _ .vmem, ⟨20, _⟩ => ⟨S1x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S512x128, .bf16⟩
  | .local _ .vmem, ⟨26, _⟩ => ⟨S1x128, .f32⟩
  | .local _ .vmem, ⟨27, _⟩ => ⟨S1024x128, .f32⟩
  | .local _ .vmem, ⟨28, _⟩ => ⟨S1024x128, .f32⟩
  | .local _ .vmem, ⟨29, _⟩ => ⟨S1024x512, .f32⟩
  | .local _ .vmem, ⟨30, _⟩ => ⟨S1024x512, .f32⟩
  | .local _ .vmem, ⟨31, _⟩ => ⟨S512x64, .bf16⟩
  | .local _ .vmem, ⟨32, _⟩ => ⟨S1x64, .f32⟩
  | .local _ .vmem, ⟨33, _⟩ => ⟨S1024x64, .f32⟩
  | .local _ .vmem, ⟨34, _⟩ => ⟨S1024x64, .f32⟩
  | .local _ .vmem, ⟨35, _⟩ => ⟨S512x64, .f32⟩
  | .local _ .vmem, ⟨36, _⟩ => ⟨S512x64, .f32⟩
  | .local _ .vmem, ⟨37, _⟩ => ⟨S8192x64, .f32⟩
  | .local _ .vmem, ⟨38, _⟩ => ⟨S8192x64, .f32⟩
  | .local _ .vmem, ⟨39, _⟩ => ⟨S512x64, .f32⟩
  | .local _ .vmem, ⟨40, _⟩ => ⟨S512x64, .f32⟩
  | .local _ .vmem, ⟨41, _⟩ => ⟨S1024x64, .f32⟩
  | .local _ .vmem, ⟨42, _⟩ => ⟨S1024x64, .f32⟩
  | .local _ .vmem, ⟨43, _⟩ => ⟨S64x512, .bf16⟩
  | .local _ .vmem, ⟨44, _⟩ => ⟨S1024x512, .f32⟩
  | .local _ .vmem, ⟨45, _⟩ => ⟨S1024x512, .f32⟩
  | .local _ .vmem, ⟨46, _⟩ => ⟨S1x512, .f32⟩
  | .local _ .vmem, ⟨47, _⟩ => ⟨S1x512, .f32⟩
  | .local _ .vmem, ⟨48, _⟩ => ⟨S1024x512, .f32⟩
  | .local _ .vmem, ⟨49, _⟩ => ⟨S1024x512, .f32⟩
  | .local _ .vmem, ⟨50, _⟩ => ⟨S1024x512, .f32⟩
  | .local _ .vmem, ⟨51, _⟩ => ⟨S1024x512, .f32⟩
  | .local _ .vmem, ⟨52, _⟩ => ⟨S512x2048, .bf16⟩
  | .local _ .vmem, ⟨53, _⟩ => ⟨S1x2048, .f32⟩
  | .local _ .vmem, ⟨54, _⟩ => ⟨S2048x512, .bf16⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1024x512, .f32⟩
  | .local _ .vmem, ⟨59, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg5_0 : Ref sig .tc := ⟨.vmem, 56, rfl⟩
abbrev cc7_stg6_0 : Ref sig .tc := ⟨.vmem, 57, rfl⟩
abbrev cc7_stg7_0 : Ref sig .tc := ⟨.vmem, 58, rfl⟩
abbrev cc7_stg7_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc6_sem3_0 : DmaSem sig := 43
abbrev cc6_sem4_0 : DmaSem sig := 44
abbrev cc6_sem5_0 : DmaSem sig := 45
abbrev cc6_sem5_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem3_0 : DmaSem sig := 51
abbrev cc7_sem4_0 : DmaSem sig := 52
abbrev cc7_sem5_0 : DmaSem sig := 53
abbrev cc7_sem6_0 : DmaSem sig := 54
abbrev cc7_sem7_0 : DmaSem sig := 55
abbrev cc7_sem7_1 : DmaSem sig := 56

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond3 (i : grid1.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_2 : BitVec 32 := 0#32
  let v8 : BitVec 1 := Scalar.cmpi .ne v7 c0_i32_2
  v8

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let v0 : BitVec 32 := Scalar.minsi arg0 arg1
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let v0 : BitVec 32 := Scalar.minsi arg0 arg1
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S8192x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1024x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2048x512 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x512 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x512 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S1024x512 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  concatenates_S512x64_S512x64_S512x64_S512x192_d1 : Shape.Concatenates [S512x64, S512x64, S512x64] S512x192 1
  bitsLt_bf16_f32 : FTy.bits .bf16 < FTy.bits .f32
  concatenates_S512x64_S512x64_S512x128_d1 : Shape.Concatenates [S512x64, S512x64] S512x128 1
  shapeCasts_S512x512_S8x64x512 : S512x512.ShapeCasts S8x64x512
  reducesTo_S8x64x512_S64x512_d0 : S8x64x512.ReducesTo [0] S64x512
  h_S_ : 0 < S_.numel
  bcast_S_S192 : S_.BroadcastsInDim S192 (![] : Fin 0 → Fin S192.rank)
  bcast_S_S128 : S_.BroadcastsInDim S128 (![] : Fin 0 → Fin S128.rank)
  bcast_S_S64 : S_.BroadcastsInDim S64 (![] : Fin 0 → Fin S64.rank)
  bcast_S_S512 : S_.BroadcastsInDim S512 (![] : Fin 0 → Fin S512.rank)
  shapeCasts_S192_S1x192 : S192.ShapeCasts S1x192
  inb_S1024x512_S1024x512_0_0 : ∀ a, (![0, 0] : Fin 2 → Nat) a + S1024x512.size a ≤ S1024x512.size a
  h_S1024x512 : 0 < S1024x512.numel
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1024x192 : S1x192.Broadcasts S1024x192
  inb_S1024x192_S1024x192_0_0 : ∀ a, (![0, 0] : Fin 2 → Nat) a + S1024x192.size a ≤ S1024x192.size a
  h_S1024x192 : 0 < S1024x192.numel
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S512_S1x512 : S512.ShapeCasts S1x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S8192x128_S8192x64_0_0 : S8192x128.Slices ![0, 0] S8192x64
  slices_S8192x128_S8192x64_0_64 : S8192x128.Slices ![0, 64] S8192x64
  shapeCasts_S64_S1x64 : S64.ShapeCasts S1x64
  shapeCasts_S1024x512_S1024x512 : S1024x512.ShapeCasts S1024x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  transposes_S8192x64_p1_0_S64x8192 : S8192x64.Transposes [1, 0] S64x8192
  reduces_S512x8192_S512 : S512x8192.Reduces [1] S512
  shapeCasts_S512_S512x1 : S512.ShapeCasts S512x1
  broadcasts_S512x1_S512x8192 : S512x1.Broadcasts S512x8192
  broadcasts_S512x1_S512x64 : S512x1.Broadcasts S512x64
  reduces_S1024x512_S1024 : S1024x512.Reduces [1] S1024
  broadcasts_S1024x1_S1024x512 : S1024x1.Broadcasts S1024x512
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S1024x512_S512x192_S1024x192_1_0_0_1_n_n_wf : DotDims.WF S1024x512 S512x192 S1024x192 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S1024x64_S64x512_S1024x512_1_0_0_1_n_n_wf : DotDims.WF S1024x64 S64x512 S1024x512 [1] [0] [0] [1] [] []
  dot_S1024x512_S512x128_S1024x128_1_0_0_1_n_n_wf : DotDims.WF S1024x512 S512x128 S1024x128 [1] [0] [0] [1] [] []
  dot_S1024x512_S512x64_S1024x64_1_0_0_1_n_n_wf : DotDims.WF S1024x512 S512x64 S1024x64 [1] [0] [0] [1] [] []
  dot_S512x64_S64x8192_S512x8192_1_0_0_1_n_n_wf : DotDims.WF S512x64 S64x8192 S512x8192 [1] [0] [0] [1] [] []
  dot_S512x8192_S8192x64_S512x64_1_0_0_1_n_n_wf : DotDims.WF S512x8192 S8192x64 S512x64 [1] [0] [0] [1] [] []
  dot_S1024x512_S512x2048_S1024x2048_1_0_0_1_n_n_wf : DotDims.WF S1024x512 S512x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x192.size a ≤ S512x192.size a
  hwx0_1 : ∀ i : grid0.Coords, EltTy.bits .bf16 = 32 ∨ (Rect.block (s := S512x192) S512x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x192.size a ≤ S8192x192.size a
  hwx0_3 : ∀ i : grid0.Coords, EltTy.bits .f32 = 32 ∨ (Rect.block (s := S8192x192) S1024x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S64x512.size a
  hwx2_1 : ∀ i : grid2.Coords, EltTy.bits .bf16 = 32 ∨ (Rect.block (s := S64x512) S64x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .f32 = 32 ∨ (Rect.block (s := S8192x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .f32 = 32 ∨ (Rect.block (s := S8192x512) S1024x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S512x128.size a
  hwx3_1 : ∀ i : grid3.Coords, EltTy.bits .bf16 = 32 ∨ (Rect.block (s := S512x128) S512x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S8192x128.size a
  hwx3_3 : ∀ i : grid3.Coords, EltTy.bits .f32 = 32 ∨ (Rect.block (s := S8192x128) S1024x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .f32 = 32 ∨ (Rect.block (s := S8192x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x64.size a ≤ S512x64.size a
  hwx4_1 : ∀ i : grid4.Coords, EltTy.bits .bf16 = 32 ∨ (Rect.block (s := S512x64) S512x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x64.size a ≤ S8192x64.size a
  hwx4_3 : ∀ i : grid4.Coords, EltTy.bits .f32 = 32 ∨ (Rect.block (s := S8192x64) S1024x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x64.size a ≤ S8192x64.size a
  hwx5_0 : ∀ i : grid5.Coords, EltTy.bits .f32 = 32 ∨ (Rect.block (s := S8192x64) S512x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x64.size a ≤ S8192x64.size a
  hwx5_1 : ∀ i : grid5.Coords, EltTy.bits .f32 = 32 ∨ (Rect.block (s := S8192x64) S8192x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8192x64.size a ≤ S8192x64.size a
  hwx5_2 : ∀ i : grid5.Coords, EltTy.bits .f32 = 32 ∨ (Rect.block (s := S8192x64) S8192x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x64.size a ≤ S8192x64.size a
  hwx5_3 : ∀ i : grid5.Coords, EltTy.bits .f32 = 32 ∨ (Rect.block (s := S8192x64) S512x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S8192x64.size a
  hwx6_0 : ∀ i : grid6.Coords, EltTy.bits .f32 = 32 ∨ (Rect.block (s := S8192x64) S1024x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x512.size a ≤ S64x512.size a
  hwx6_1 : ∀ i : grid6.Coords, EltTy.bits .bf16 = 32 ∨ (Rect.block (s := S64x512) S64x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S8192x512.size a
  hwx6_2 : ∀ i : grid6.Coords, EltTy.bits .f32 = 32 ∨ (Rect.block (s := S8192x512) S1024x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x512.size a ≤ S1x512.size a
  hwx6_3 : ∀ i : grid6.Coords, EltTy.bits .f32 = 32 ∨ (Rect.block (s := S1x512) S1x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x512.size a ≤ S8192x512.size a
  hwx6_5 : ∀ i : grid6.Coords, EltTy.bits .f32 = 32 ∨ (Rect.block (s := S8192x512) S1024x512.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x512.size a ≤ S8192x512.size a
  hwx7_0 : ∀ i : grid7.Coords, EltTy.bits .f32 = 32 ∨ (Rect.block (s := S8192x512) S1024x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x2048.size a ≤ S512x2048.size a
  hwx7_1 : ∀ i : grid7.Coords, EltTy.bits .bf16 = 32 ∨ (Rect.block (s := S512x2048) S512x2048.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2048.size a ≤ S1x2048.size a
  hwx7_2 : ∀ i : grid7.Coords, EltTy.bits .f32 = 32 ∨ (Rect.block (s := S1x2048) S1x2048.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2048x512.size a ≤ S2048x512.size a
  hwx7_3 : ∀ i : grid7.Coords, EltTy.bits .bf16 = 32 ∨ (Rect.block (s := S2048x512) S2048x512.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x512.size a ≤ S1x512.size a
  hwx7_5 : ∀ i : grid7.Coords, EltTy.bits .f32 = 32 ∨ (Rect.block (s := S1x512) S1x512.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x512.size a ≤ S1x512.size a
  hwx7_6 : ∀ i : grid7.Coords, EltTy.bits .f32 = 32 ∨ (Rect.block (s := S1x512) S1x512.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S1024x512.size a ≤ S8192x512.size a
  hwx7_7 : ∀ i : grid7.Coords, EltTy.bits .f32 = 32 ∨ (Rect.block (s := S8192x512) S1024x512.size (cc7_transform_7 i) (hinb7_7 i)).WholeWords (EltTy.packing .f32)

variable [Facts₀]

def dot_S1024x512_S512x192_S1024x192_1_0_0_1_n_n : DotDims S1024x512 S512x192 S1024x192 where
  lhsContracting := [1]
  rhsContracting := [0]
  lhsNonContracting := [0]
  rhsNonContracting := [1]
  lhsBatch := []
  rhsBatch := []
  wf := dot_S1024x512_S512x192_S1024x192_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S512x64_S64x8192_S512x8192_1_0_0_1_n_n : DotDims S512x64 S64x8192 S512x8192 where
  lhsContracting := [1]
  rhsContracting := [0]
  lhsNonContracting := [0]
  rhsNonContracting := [1]
  lhsBatch := []
  rhsBatch := []
  wf := dot_S512x64_S64x8192_S512x8192_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v19) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S64x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S512x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v21) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S512x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v27) S1024x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v27) S512x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S8192x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v25) S8192x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v28) S512x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v28) S1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S64x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg1) S1024x512.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v29) S1x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v30) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v31) S1024x512.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v31) S1024x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S512x2048.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v32) S1x2048.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v9) S2048x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v33) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v34) S1x512.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v35) S1x512.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v36) S1024x512.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S8192x512 : Shape := ⟨2, ![8192, 512]⟩
abbrev S512x64 : Shape := ⟨2, ![512, 64]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192x1x64 : Shape := ⟨4, ![1, 8192, 1, 64]⟩
abbrev S1x8192x8x64 : Shape := ⟨4, ![1, 8192, 8, 64]⟩
abbrev S1x512 : Shape := ⟨2, ![1, 512]⟩
abbrev S8192x2048 : Shape := ⟨2, ![8192, 2048]⟩
abbrev S1x2048 : Shape := ⟨2, ![1, 2048]⟩

abbrev nBuf : Space → Nat
  | .hbm => 189
  | .vmem => 0
  | .smem => 0
  | _ => 0

abbrev hbmTy0_0 (i : Nat) : BufTy := match i % 128 with
  | 0 => ⟨S8192x512, .f32⟩
  | 1 => ⟨S8192x512, .f32⟩
  | 2 => ⟨S512x64, .f32⟩
  | 3 => ⟨S512x64, .f32⟩
  | 4 => ⟨S512x64, .f32⟩
  | 5 => ⟨S512x64, .f32⟩
  | 6 => ⟨S512x64, .f32⟩
  | 7 => ⟨S512x64, .f32⟩
  | 8 => ⟨S512x512, .f32⟩
  | 9 => ⟨S512, .f32⟩
  | 10 => ⟨S512, .f32⟩
  | 11 => ⟨S512x2048, .f32⟩
  | 12 => ⟨S2048, .f32⟩
  | 13 => ⟨S2048x512, .f32⟩
  | 14 => ⟨S512, .f32⟩
  | 15 => ⟨S8192x64, .f32⟩
  | 16 => ⟨S8192x64, .f32⟩
  | 17 => ⟨S8192x64, .f32⟩
  | 18 => ⟨S64x8192, .f32⟩
  | 19 => ⟨S8192x8192, .f32⟩
  | 20 => ⟨S_, .f32⟩
  | 21 => ⟨S8192x8192, .f32⟩
  | 22 => ⟨S8192x8192, .f32⟩
  | 23 => ⟨S_, .i1⟩
  | 24 => ⟨S8192x8192, .i1⟩
  | 25 => ⟨S8192x8192, .i32⟩
  | 26 => ⟨S_, .i32⟩
  | 27 => ⟨S8192x8192, .i32⟩
  | 28 => ⟨S8192x8192, .i32⟩
  | 29 => ⟨S8192x8192, .i32⟩
  | 30 => ⟨S8192x8192, .i1⟩
  | 31 => ⟨S_, .i1⟩
  | 32 => ⟨S8192x8192, .i1⟩
  | 33 => ⟨S8192x8192, .i1⟩
  | 34 => ⟨S_, .f32⟩
  | 35 => ⟨S_, .f32⟩
  | 36 => ⟨S8192x8192, .f32⟩
  | 37 => ⟨S8192x8192, .f32⟩
  | 38 => ⟨S_, .f32⟩
  | 39 => ⟨S8192, .f32⟩
  | 40 => ⟨S_, .f32⟩
  | 41 => ⟨S8192, .f32⟩
  | 42 => ⟨S8192, .f32⟩
  | 43 => ⟨S8192x1, .f32⟩
  | 44 => ⟨S8192x8192, .f32⟩
  | 45 => ⟨S8192x8192, .f32⟩
  | 46 => ⟨S8192x8192, .f32⟩
  | 47 => ⟨S_, .f32⟩
  | 48 => ⟨S8192, .f32⟩
  | 49 => ⟨S8192x1, .f32⟩
  | 50 => ⟨S8192x8192, .f32⟩
  | 51 => ⟨S8192x8192, .f32⟩
  | 52 => ⟨S8192x64, .f32⟩
  | 53 => ⟨S1x8192x1x64, .f32⟩
  | 54 => ⟨S1x8192x8x64, .f32⟩
  | 55 => ⟨S8192x512, .f32⟩
  | 56 => ⟨S8192x512, .f32⟩
  | 57 => ⟨S8192x64, .f32⟩
  | 58 => ⟨S8192x64, .f32⟩
  | 59 => ⟨S8192x64, .f32⟩
  | 60 => ⟨S64x8192, .f32⟩
  | 61 => ⟨S8192x8192, .f32⟩
  | 62 => ⟨S_, .f32⟩
  | 63 => ⟨S8192x8192, .f32⟩
  | 64 => ⟨S8192x8192, .f32⟩
  | 65 => ⟨S_, .f32⟩
  | 66 => ⟨S8192, .f32⟩
  | 67 => ⟨S_, .f32⟩
  | 68 => ⟨S8192, .f32⟩
  | 69 => ⟨S8192, .f32⟩
  | 70 => ⟨S8192x1, .f32⟩
  | 71 => ⟨S8192x8192, .f32⟩
  | 72 => ⟨S8192x8192, .f32⟩
  | 73 => ⟨S8192x8192, .f32⟩
  | 74 => ⟨S_, .f32⟩
  | 75 => ⟨S8192, .f32⟩
  | 76 => ⟨S8192x1, .f32⟩
  | 77 => ⟨S8192x8192, .f32⟩
  | 78 => ⟨S8192x8192, .f32⟩
  | 79 => ⟨S8192x64, .f32⟩
  | 80 => ⟨S1x8192x1x64, .f32⟩
  | 81 => ⟨S1x8192x8x64, .f32⟩
  | 82 => ⟨S8192x512, .f32⟩
  | 83 => ⟨S8192x512, .f32⟩
  | 84 => ⟨S8192x512, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .i32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x512, .f32⟩
  | 99 => ⟨S8192x512, .f32⟩
  | 100 => ⟨S8192x512, .f32⟩
  | 101 => ⟨S_, .f32⟩
  | 102 => ⟨S_, .f32⟩
  | 103 => ⟨S_, .f32⟩
  | 104 => ⟨S_, .f32⟩
  | 105 => ⟨S8192, .f32⟩
  | 106 => ⟨S8192x1, .f32⟩
  | 107 => ⟨S8192x1, .f32⟩
  | 108 => ⟨S8192x1, .f32⟩
  | 109 => ⟨S_, .f32⟩
  | 110 => ⟨S_, .i1⟩
  | 111 => ⟨S_, .f32⟩
  | 112 => ⟨S_, .f32⟩
  | 113 => ⟨S8192x1, .f32⟩
  | 114 => ⟨S8192x1, .f32⟩
  | 115 => ⟨S8192x512, .f32⟩
  | 116 => ⟨S8192x512, .f32⟩
  | 117 => ⟨S_, .f32⟩
  | 118 => ⟨S8192x1, .f32⟩
  | 119 => ⟨S8192x1, .f32⟩
  | 120 => ⟨S8192x1, .f32⟩
  | 121 => ⟨S8192x512, .f32⟩
  | 122 => ⟨S8192x512, .f32⟩
  | 123 => ⟨S1x512, .f32⟩
  | 124 => ⟨S8192x512, .f32⟩
  | 125 => ⟨S8192x512, .f32⟩
  | 126 => ⟨S1x512, .f32⟩
  | 127 => ⟨S8192x512, .f32⟩
  | _ => ⟨S8192x512, .f32⟩

abbrev hbmTy0_1 (i : Nat) : BufTy := match i % 128 with
  | 0 => ⟨S8192x512, .f32⟩
  | 1 => ⟨S8192x2048, .f32⟩
  | 2 => ⟨S1x2048, .f32⟩
  | 3 => ⟨S8192x2048, .f32⟩
  | 4 => ⟨S8192x2048, .f32⟩
  | 5 => ⟨S_, .f32⟩
  | 6 => ⟨S8192x2048, .f32⟩
  | 7 => ⟨S8192x2048, .i1⟩
  | 8 => ⟨S_, .f32⟩
  | 9 => ⟨S8192x2048, .f32⟩
  | 10 => ⟨S8192x2048, .f32⟩
  | 11 => ⟨S8192x2048, .f32⟩
  | 12 => ⟨S8192x512, .f32⟩
  | 13 => ⟨S1x512, .f32⟩
  | 14 => ⟨S8192x512, .f32⟩
  | 15 => ⟨S8192x512, .f32⟩
  | 16 => ⟨S8192x512, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .i32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x512, .f32⟩
  | 31 => ⟨S8192x512, .f32⟩
  | 32 => ⟨S8192x512, .f32⟩
  | 33 => ⟨S_, .f32⟩
  | 34 => ⟨S_, .f32⟩
  | 35 => ⟨S_, .f32⟩
  | 36 => ⟨S_, .f32⟩
  | 37 => ⟨S8192, .f32⟩
  | 38 => ⟨S8192x1, .f32⟩
  | 39 => ⟨S8192x1, .f32⟩
  | 40 => ⟨S8192x1, .f32⟩
  | 41 => ⟨S_, .f32⟩
  | 42 => ⟨S_, .i1⟩
  | 43 => ⟨S_, .f32⟩
  | 44 => ⟨S_, .f32⟩
  | 45 => ⟨S8192x1, .f32⟩
  | 46 => ⟨S8192x1, .f32⟩
  | 47 => ⟨S8192x512, .f32⟩
  | 48 => ⟨S8192x512, .f32⟩
  | 49 => ⟨S_, .f32⟩
  | 50 => ⟨S8192x1, .f32⟩
  | 51 => ⟨S8192x1, .f32⟩
  | 52 => ⟨S8192x1, .f32⟩
  | 53 => ⟨S8192x512, .f32⟩
  | 54 => ⟨S8192x512, .f32⟩
  | 55 => ⟨S1x512, .f32⟩
  | 56 => ⟨S8192x512, .f32⟩
  | 57 => ⟨S8192x512, .f32⟩
  | 58 => ⟨S1x512, .f32⟩
  | 59 => ⟨S8192x512, .f32⟩
  | 60 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v8 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_cst_6 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_8 : Ref sig .tc := ⟨.hbm, 85, rfl⟩
abbrev main_v50 : Ref sig .tc := ⟨.hbm, 86, rfl⟩
abbrev main_v51 : Ref sig .tc := ⟨.hbm, 87, rfl⟩
abbrev main_cst_9 : Ref sig .tc := ⟨.hbm, 88, rfl⟩
abbrev main_v52 : Ref sig .tc := ⟨.hbm, 89, rfl⟩
abbrev main_v53 : Ref sig .tc := ⟨.hbm, 90, rfl⟩
abbrev main_c_10 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_v12 : Ref sig .tc := ⟨.hbm, 108, rfl⟩
abbrev main_call2_cst_3 : Ref sig .tc := ⟨.hbm, 109, rfl⟩
abbrev main_call2_v13 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_cst_11 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_12 : Ref sig .tc := ⟨.hbm, 133, rfl⟩
abbrev main_v72 : Ref sig .tc := ⟨.hbm, 134, rfl⟩
abbrev main_v73 : Ref sig .tc := ⟨.hbm, 135, rfl⟩
abbrev main_cst_13 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_14 : Ref sig .tc := ⟨.hbm, 145, rfl⟩
abbrev main_v82 : Ref sig .tc := ⟨.hbm, 146, rfl⟩
abbrev main_v83 : Ref sig .tc := ⟨.hbm, 147, rfl⟩
abbrev main_cst_15 : Ref sig .tc := ⟨.hbm, 148, rfl⟩
abbrev main_v84 : Ref sig .tc := ⟨.hbm, 149, rfl⟩
abbrev main_v85 : Ref sig .tc := ⟨.hbm, 150, rfl⟩
abbrev main_c_16 : Ref sig .tc := ⟨.hbm, 151, rfl⟩
abbrev main_call4_cst : Ref sig .tc := ⟨.hbm, 152, rfl⟩
abbrev main_call4_v0 : Ref sig .tc := ⟨.hbm, 153, rfl⟩
abbrev main_call4_v1 : Ref sig .tc := ⟨.hbm, 154, rfl⟩
abbrev main_call4_cst_0 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_call4_v5 : Ref sig .tc := ⟨.hbm, 159, rfl⟩
abbrev main_call4_v6 : Ref sig .tc := ⟨.hbm, 160, rfl⟩
abbrev main_call4_v7 : Ref sig .tc := ⟨.hbm, 161, rfl⟩
abbrev main_call4_cst_1 : Ref sig .tc := ⟨.hbm, 162, rfl⟩
abbrev main_call4_v8 : Ref sig .tc := ⟨.hbm, 163, rfl⟩
abbrev main_call4_cst_2 : Ref sig .tc := ⟨.hbm, 164, rfl⟩
abbrev main_call4_v9 : Ref sig .tc := ⟨.hbm, 165, rfl⟩
abbrev main_call4_v10 : Ref sig .tc := ⟨.hbm, 166, rfl⟩
abbrev main_call4_v11 : Ref sig .tc := ⟨.hbm, 167, rfl⟩
abbrev main_call4_v12 : Ref sig .tc := ⟨.hbm, 168, rfl⟩
abbrev main_call4_cst_3 : Ref sig .tc := ⟨.hbm, 169, rfl⟩
abbrev main_call4_v13 : Ref sig .tc := ⟨.hbm, 170, rfl⟩
abbrev main_call4_cst_4 : Ref sig .tc := ⟨.hbm, 171, rfl⟩
abbrev main_call4_call0_v0 : Ref sig .tc := ⟨.hbm, 172, rfl⟩
abbrev main_call4_call0_v1 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_cst_17 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  shapeCasts_S8192x64_S1x8192x1x64 : S8192x64.ShapeCasts S1x8192x1x64
  bcast_S1x8192x1x64_S1x8192x8x64_0_1_2_3 : S1x8192x1x64.BroadcastsInDim S1x8192x8x64 (![0, 1, 2, 3] : Fin 4 → Fin S1x8192x8x64.rank)
  shapeCasts_S1x8192x8x64_S8192x512 : S1x8192x8x64.ShapeCasts S8192x512
  reducesTo_S8192x512_S8192_d1 : S8192x512.ReducesTo [1] S8192
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x512_S512x64_S8192x64_1_0_0_1_n_n_wf : DotDims.WF S8192x512 S512x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []
  dot_S8192x512_S512x512_S8192x512_1_0_0_1_n_n_wf : DotDims.WF S8192x512 S512x512 S8192x512 [1] [0] [0] [1] [] []
  dot_S8192x512_S512x2048_S8192x2048_1_0_0_1_n_n_wf : DotDims.WF S8192x512 S512x2048 S8192x2048 [1] [0] [0] [1] [] []
  dot_S8192x2048_S2048x512_S8192x512_1_0_0_1_n_n_wf : DotDims.WF S8192x2048 S2048x512 S8192x512 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.Preserves.lean ====
/-
  The idealized kernel differs from the printed one at two constants: the finite stand-in -1e30 that seeds the running
  maximum and the same stand-in that fills the masked scores are both read as -∞. Each rewrite's statement is that the
  table of named constants gives the name that value.
-/
import proofs.«172065_j32710470926956_2_alg».proof.Defs

noncomputable section

namespace Cert.Proof.Parts

open Idealize.ShloMosaic

theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

end Cert.Proof.Parts

end
-- ==== Proof.Ref.Writes.lean ====
/-
  One fact about a single whole-array operation, used once per operation of the reference block's two lines: an
  operation that writes exactly one buffer, and that buffer a reference of a given list, writes inside the list.
-/
import proofs.«172065_j32710470926956_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-- An operation whose one written buffer is a reference of the list writes inside the list. -/
theorem writes_sub_of {op : HloOp τ sig (Elt F)} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

end Cert.ReferenceIdeal.RefRun

end
-- ==== Proof.Ref.Ops0.lean ====
/-
  The reference block's first window as one straight line of whole-array operations, every call replaced by the
  operations of the function it calls, in order:
  * the three self-attention projections of the previous stage's output, the scores q kᵀ divided by 8;
  * the causal mask: row index ≥ column index over the 8192 × 8192 positions (nine operations of the lower-triangle
    function), and the masked scores, -∞ where the mask is false (three operations of the selection function);
  * the softmax by rows: row maximum, subtraction, exponential, row sum, quotient; its product with the values;
  * the head tiled eight times (a reshape, a broadcast along the new axis, a reshape back) against the output matrix;
  * the cross-attention of that result against the encoder's output, the same way without a mask;
  * the first residual sum.
  Seventy operations: fifty-eight of the block itself, nine and three of the two functions.
-/
import proofs.«172065_j32710470926956_2_alg».proof.Proof.Ref.Writes
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The first window's seventy operations, in order, the two calls unfolded at their buffers. -/
abbrev ops0 : List (HloOp τ sig (Elt F)) :=
  [ StableHlo.binary main_arg1 main_arg2 main_v0 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    StableHlo.binary main_arg1 main_arg3 main_v1 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    StableHlo.binary main_arg1 main_arg4 main_v2 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    StableHlo.unary main_v1 main_v3 ((transpose S64x8192 [1, 0] · transposes_S8192x64_S64x8192_1_0) : (⟨S8192x64, .f32⟩ : BufTy).Contents (Elt F) → (⟨S64x8192, .f32⟩ : BufTy).Contents (Elt F)),
    StableHlo.binary main_v0 main_v3 main_v4 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst (constant S_ .f32 0x41000000#32),
    StableHlo.unary main_cst main_v5 (broadcastInDim S8192x8192 ![] bcast_S_S8192x8192 : (⟨S_, .f32⟩ : BufTy).Contents (Elt F) → (⟨S8192x8192, .f32⟩ : BufTy).Contents (Elt F)),
    StableHlo.binary main_v4 main_v5 main_v6 (Host.divf : (⟨S8192x8192, .f32⟩ : BufTy).Contents (Elt F) → (⟨S8192x8192, .f32⟩ : BufTy).Contents (Elt F) → (⟨S8192x8192, .f32⟩ : BufTy).Contents (Elt F)),
    StableHlo.nullary main_c (constantI S_ 1 1#1),
    StableHlo.unary main_c main_v7 (broadcastInDim S8192x8192 ![] bcast_S_S8192x8192 : (⟨S_, .i1⟩ : BufTy).Contents (Elt F) → (⟨S8192x8192, .i1⟩ : BufTy).Contents (Elt F)),
    StableHlo.TRef.nullary main_call0.v0 (iotaInDim S8192x8192 32 0),
    StableHlo.TRef.nullary main_call0.c (constantI S_ 32 0#32),
    StableHlo.TRef.unary main_call0.c main_call0.v1 (broadcastInDim S8192x8192 ![] bcast_S_S8192x8192),
    StableHlo.TRef.binary main_call0.v0 main_call0.v1 main_call0.v2 addi,
    StableHlo.TRef.nullary main_call0.v3 (iotaInDim S8192x8192 32 1),
    StableHlo.TRef.binary main_call0.v2 main_call0.v3 main_call0.v4 (cmpi .sge),
    StableHlo.TRef.nullary main_call0.c_0 (constantI S_ 1 0#1),
    StableHlo.TRef.unary main_call0.c_0 main_call0.v5 (broadcastInDim S8192x8192 ![] bcast_S_S8192x8192),
    StableHlo.TRef.ternary main_call0.v4 (.of main_v7 : StableHlo.TRef sig ⟨S8192x8192, .i1⟩) main_call0.v5 main_call0.v6 select,
    StableHlo.nullary main_cst_0 (constant S_ .f32 0xFF800000#32),
    StableHlo.TRef.unary (.of main_cst_0 : StableHlo.TRef sig ⟨S_, .f32⟩) main_call1.v0 id,
    StableHlo.TRef.unary main_call1.v0 main_call1.v1 (broadcastInDim S8192x8192 ![] bcast_S_S8192x8192),
    StableHlo.TRef.ternary (.of main_v8 : StableHlo.TRef sig ⟨S8192x8192, .i1⟩) (.of main_v6 : StableHlo.TRef sig ⟨S8192x8192, .f32⟩) main_call1.v1 main_call1.v2 select,
    StableHlo.nullary main_cst_1 (constant S_ .f32 0xFF800000#32),
    StableHlo.binary main_v9 main_cst_1 main_v10 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_2 (constant S_ .f32 0xFF800000#32),
    StableHlo.unary main_cst_2 main_v11 (broadcastInDim S8192 ![] bcast_S_S8192 : (⟨S_, .f32⟩ : BufTy).Contents (Elt F) → (⟨S8192, .f32⟩ : BufTy).Contents (Elt F)),
    StableHlo.binary main_v11 main_v10 main_v12 (maximumf : (⟨S8192, .f32⟩ : BufTy).Contents (Elt F) → (⟨S8192, .f32⟩ : BufTy).Contents (Elt F) → (⟨S8192, .f32⟩ : BufTy).Contents (Elt F)),
    StableHlo.unary main_v12 main_v13 (broadcastInDim S8192x1 ![0] bcast_S8192_S8192x1_0 : (⟨S8192, .f32⟩ : BufTy).Contents (Elt F) → (⟨S8192x1, .f32⟩ : BufTy).Contents (Elt F)),
    StableHlo.unary main_v13 main_v14 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v9 main_v14 main_v15 (subf : (⟨S8192x8192, .f32⟩ : BufTy).Contents (Elt F) → (⟨S8192x8192, .f32⟩ : BufTy).Contents (Elt F) → (⟨S8192x8192, .f32⟩ : BufTy).Contents (Elt F)),
    StableHlo.unary main_v15 main_v16 (Host.exp : (⟨S8192x8192, .f32⟩ : BufTy).Contents (Elt F) → (⟨S8192x8192, .f32⟩ : BufTy).Contents (Elt F)),
    StableHlo.nullary main_cst_3 (constant S_ .f32 0x00000000#32),
    StableHlo.binary main_v16 main_cst_3 main_v17 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v17 main_v18 (broadcastInDim S8192x1 ![0] bcast_S8192_S8192x1_0 : (⟨S8192, .f32⟩ : BufTy).Contents (Elt F) → (⟨S8192x1, .f32⟩ : BufTy).Contents (Elt F)),
    StableHlo.unary main_v18 main_v19 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v16 main_v19 main_v20 (Host.divf : (⟨S8192x8192, .f32⟩ : BufTy).Contents (Elt F) → (⟨S8192x8192, .f32⟩ : BufTy).Contents (Elt F) → (⟨S8192x8192, .f32⟩ : BufTy).Contents (Elt F)),
    StableHlo.binary main_v20 main_v2 main_v21 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    StableHlo.reshape main_v21 main_v22 rfl shapeCasts_S8192x64_S1x8192x1x64,
    StableHlo.unary main_v22 main_v23 (broadcastInDim S1x8192x8x64 ![0, 1, 2, 3] bcast_S1x8192x1x64_S1x8192x8x64_0_1_2_3 : (⟨S1x8192x1x64, .f32⟩ : BufTy).Contents (Elt F) → (⟨S1x8192x8x64, .f32⟩ : BufTy).Contents (Elt F)),
    StableHlo.reshape main_v23 main_v24 rfl shapeCasts_S1x8192x8x64_S8192x512,
    StableHlo.binary main_v24 main_arg8 main_v25 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    StableHlo.binary main_v25 main_arg5 main_v26 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    StableHlo.binary main_arg0 main_arg6 main_v27 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    StableHlo.binary main_arg0 main_arg7 main_v28 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    StableHlo.unary main_v27 main_v29 ((transpose S64x8192 [1, 0] · transposes_S8192x64_S64x8192_1_0) : (⟨S8192x64, .f32⟩ : BufTy).Contents (Elt F) → (⟨S64x8192, .f32⟩ : BufTy).Contents (Elt F)),
    StableHlo.binary main_v26 main_v29 main_v30 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_4 (constant S_ .f32 0x41000000#32),
    StableHlo.unary main_cst_4 main_v31 (broadcastInDim S8192x8192 ![] bcast_S_S8192x8192 : (⟨S_, .f32⟩ : BufTy).Contents (Elt F) → (⟨S8192x8192, .f32⟩ : BufTy).Contents (Elt F)),
    StableHlo.binary main_v30 main_v31 main_v32 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_5 (constant S_ .f32 0xFF800000#32),
    StableHlo.binary main_v32 main_cst_5 main_v33 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_6 (constant S_ .f32 0xFF800000#32),
    StableHlo.unary main_cst_6 main_v34 (broadcastInDim S8192 ![] bcast_S_S8192 : (⟨S_, .f32⟩ : BufTy).Contents (Elt F) → (⟨S8192, .f32⟩ : BufTy).Contents (Elt F)),
    StableHlo.binary main_v34 main_v33 main_v35 (maximumf : (⟨S8192, .f32⟩ : BufTy).Contents (Elt F) → (⟨S8192, .f32⟩ : BufTy).Contents (Elt F) → (⟨S8192, .f32⟩ : BufTy).Contents (Elt F)),
    StableHlo.unary main_v35 main_v36 (broadcastInDim S8192x1 ![0] bcast_S8192_S8192x1_0 : (⟨S8192, .f32⟩ : BufTy).Contents (Elt F) → (⟨S8192x1, .f32⟩ : BufTy).Contents (Elt F)),
    StableHlo.unary main_v36 main_v37 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v32 main_v37 main_v38 (subf : (⟨S8192x8192, .f32⟩ : BufTy).Contents (Elt F) → (⟨S8192x8192, .f32⟩ : BufTy).Contents (Elt F) → (⟨S8192x8192, .f32⟩ : BufTy).Contents (Elt F)),
    StableHlo.unary main_v38 main_v39 (Host.exp : (⟨S8192x8192, .f32⟩ : BufTy).Contents (Elt F) → (⟨S8192x8192, .f32⟩ : BufTy).Contents (Elt F)),
    StableHlo.nullary main_cst_7 (constant S_ .f32 0x00000000#32),
    StableHlo.binary main_v39 main_cst_7 main_v40 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v40 main_v41 (broadcastInDim S8192x1 ![0] bcast_S8192_S8192x1_0 : (⟨S8192, .f32⟩ : BufTy).Contents (Elt F) → (⟨S8192x1, .f32⟩ : BufTy).Contents (Elt F)),
    StableHlo.unary main_v41 main_v42 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v39 main_v42 main_v43 (Host.divf : (⟨S8192x8192, .f32⟩ : BufTy).Contents (Elt F) → (⟨S8192x8192, .f32⟩ : BufTy).Contents (Elt F) → (⟨S8192x8192, .f32⟩ : BufTy).Contents (Elt F)),
    StableHlo.binary main_v43 main_v28 main_v44 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    StableHlo.reshape main_v44 main_v45 rfl shapeCasts_S8192x64_S1x8192x1x64,
    StableHlo.unary main_v45 main_v46 (broadcastInDim S1x8192x8x64 ![0, 1, 2, 3] bcast_S1x8192x1x64_S1x8192x8x64_0_1_2_3 : (⟨S1x8192x1x64, .f32⟩ : BufTy).Contents (Elt F) → (⟨S1x8192x8x64, .f32⟩ : BufTy).Contents (Elt F)),
    StableHlo.reshape main_v46 main_v47 rfl shapeCasts_S1x8192x8x64_S8192x512,
    StableHlo.binary main_v47 main_arg8 main_v48 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    StableHlo.binary main_v48 main_arg1 main_v49 (addf : (⟨S8192x512, .f32⟩ : BufTy).Contents (Elt F) → (⟨S8192x512, .f32⟩ : BufTy).Contents (Elt F) → (⟨S8192x512, .f32⟩ : BufTy).Contents (Elt F)) ]

/-! ## What the line touches and writes: one entry per operation, by its arity and its result buffer -/

/-- Every operation of the line touches TensorCore references only. -/
theorem ops0_sub : (ops0 : List (HloOp τ sig (Elt F))).Forall fun op => op.bufs ⊆ tcRefs τ sig :=
  ⟨binary_bufs_sub .., binary_bufs_sub .., binary_bufs_sub .., unary_bufs_sub .., binary_bufs_sub .., nullary_bufs_sub ..,
    unary_bufs_sub .., binary_bufs_sub .., nullary_bufs_sub .., unary_bufs_sub .., nullary_bufs_sub .., nullary_bufs_sub ..,
    unary_bufs_sub .., binary_bufs_sub .., nullary_bufs_sub .., binary_bufs_sub .., nullary_bufs_sub .., unary_bufs_sub ..,
    ternary_bufs_sub .., nullary_bufs_sub .., unary_bufs_sub .., unary_bufs_sub .., ternary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., reshape_bufs_sub .., unary_bufs_sub .., reshape_bufs_sub .., binary_bufs_sub ..,
    binary_bufs_sub .., binary_bufs_sub .., binary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., reshape_bufs_sub ..,
    unary_bufs_sub .., reshape_bufs_sub .., binary_bufs_sub .., binary_bufs_sub ..⟩

/-- Every operation of the line determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- The references the line's operations write, in order: one each, all distinct, none an argument of the block. -/
abbrev W0 : List (Ref sig .tc) :=
  [main_v0, main_v1, main_v2, main_v3, main_v4, main_cst, main_v5, main_v6,
    main_c, main_v7, main_call0_v0, main_call0_c, main_call0_v1, main_call0_v2, main_call0_v3, main_call0_v4,
    main_call0_c_0, main_call0_v5, main_v8, main_cst_0, main_call1_v0, main_call1_v1, main_v9, main_cst_1,
    main_v10, main_cst_2, main_v11, main_v12, main_v13, main_v14, main_v15, main_v16,
    main_cst_3, main_v17, main_v18, main_v19, main_v20, main_v21, main_v22, main_v23,
    main_v24, main_v25, main_v26, main_v27, main_v28, main_v29, main_v30, main_cst_4,
    main_v31, main_v32, main_cst_5, main_v33, main_cst_6, main_v34, main_v35, main_v36,
    main_v37, main_v38, main_v39, main_cst_7, main_v40, main_v41, main_v42, main_v43,
    main_v44, main_v45, main_v46, main_v47, main_v48, main_v49]

/-- Each operation writes its own entry of that list and nothing else. -/
theorem ops0_writes : (ops0 : List (HloOp τ sig (Elt F))).Forall fun op =>
    op.writes ⊆ (W0.map (Proc.devRef (τ := τ) .tc)).toFinset :=
  ⟨writes_sub_of (y := main_v0) rfl (by decide), writes_sub_of (y := main_v1) rfl (by decide), writes_sub_of (y := main_v2) rfl (by decide),
    writes_sub_of (y := main_v3) rfl (by decide), writes_sub_of (y := main_v4) rfl (by decide), writes_sub_of (y := main_cst) rfl (by decide),
    writes_sub_of (y := main_v5) rfl (by decide), writes_sub_of (y := main_v6) rfl (by decide), writes_sub_of (y := main_c) rfl (by decide),
    writes_sub_of (y := main_v7) rfl (by decide), writes_sub_of (y := main_call0_v0) rfl (by decide), writes_sub_of (y := main_call0_c) rfl (by decide),
    writes_sub_of (y := main_call0_v1) rfl (by decide), writes_sub_of (y := main_call0_v2) rfl (by decide), writes_sub_of (y := main_call0_v3) rfl (by decide),
    writes_sub_of (y := main_call0_v4) rfl (by decide), writes_sub_of (y := main_call0_c_0) rfl (by decide), writes_sub_of (y := main_call0_v5) rfl (by decide),
    writes_sub_of (y := main_v8) rfl (by decide), writes_sub_of (y := main_cst_0) rfl (by decide), writes_sub_of (y := main_call1_v0) rfl (by decide),
    writes_sub_of (y := main_call1_v1) rfl (by decide), writes_sub_of (y := main_v9) rfl (by decide), writes_sub_of (y := main_cst_1) rfl (by decide),
    writes_sub_of (y := main_v10) rfl (by decide), writes_sub_of (y := main_cst_2) rfl (by decide), writes_sub_of (y := main_v11) rfl (by decide),
    writes_sub_of (y := main_v12) rfl (by decide), writes_sub_of (y := main_v13) rfl (by decide), writes_sub_of (y := main_v14) rfl (by decide),
    writes_sub_of (y := main_v15) rfl (by decide), writes_sub_of (y := main_v16) rfl (by decide), writes_sub_of (y := main_cst_3) rfl (by decide),
    writes_sub_of (y := main_v17) rfl (by decide), writes_sub_of (y := main_v18) rfl (by decide), writes_sub_of (y := main_v19) rfl (by decide),
    writes_sub_of (y := main_v20) rfl (by decide), writes_sub_of (y := main_v21) rfl (by decide), writes_sub_of (y := main_v22) rfl (by decide),
    writes_sub_of (y := main_v23) rfl (by decide), writes_sub_of (y := main_v24) rfl (by decide), writes_sub_of (y := main_v25) rfl (by decide),
    writes_sub_of (y := main_v26) rfl (by decide), writes_sub_of (y := main_v27) rfl (by decide), writes_sub_of (y := main_v28) rfl (by decide),
    writes_sub_of (y := main_v29) rfl (by decide), writes_sub_of (y := main_v30) rfl (by decide), writes_sub_of (y := main_cst_4) rfl (by decide),
    writes_sub_of (y := main_v31) rfl (by decide), writes_sub_of (y := main_v32) rfl (by decide), writes_sub_of (y := main_cst_5) rfl (by decide),
    writes_sub_of (y := main_v33) rfl (by decide), writes_sub_of (y := main_cst_6) rfl (by decide), writes_sub_of (y := main_v34) rfl (by decide),
    writes_sub_of (y := main_v35) rfl (by decide), writes_sub_of (y := main_v36) rfl (by decide), writes_sub_of (y := main_v37) rfl (by decide),
    writes_sub_of (y := main_v38) rfl (by decide), writes_sub_of (y := main_v39) rfl (by decide), writes_sub_of (y := main_cst_7) rfl (by decide),
    writes_sub_of (y := main_v40) rfl (by decide), writes_sub_of (y := main_v41) rfl (by decide), writes_sub_of (y := main_v42) rfl (by decide),
    writes_sub_of (y := main_v43) rfl (by decide), writes_sub_of (y := main_v44) rfl (by decide), writes_sub_of (y := main_v45) rfl (by decide),
    writes_sub_of (y := main_v46) rfl (by decide), writes_sub_of (y := main_v47) rfl (by decide), writes_sub_of (y := main_v48) rfl (by decide),
    writes_sub_of (y := main_v49) rfl (by decide)⟩

/-- Operation k of the line writes exactly the k-th reference of that list. -/
theorem ops0_aligned : List.Forall₂ (fun op y => op.writes = {Proc.devRef (τ := τ) .tc y})
    (ops0 : List (HloOp τ sig (Elt F))) W0 :=
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .nil

end Cert.ReferenceIdeal.RefRun

end
-- ==== Proof.Ref.Ops1.lean ====
/-
  The reference block's second window as one straight line of whole-array operations, every call replaced by the
  operations of the function it calls, in order:
  * the first layer norm of the residual sum x: the row mean (row sum divided by 512), the row variance (twenty
    operations of the variance function: the mean again, the squared deviations, their row sum divided by 512 - 0,
    and three of the selection it ends with, which keeps that quotient because 512 - 0 > 0), then
    (x - mean) / sqrt(variance + a small positive constant), scaled and shifted by the norm's two vectors;
  * the feed-forward layer: a product with the 512 × 2048 matrix plus its bias, the leaky rectifier (the value where
    it is ≥ 0 and 0.01 times it elsewhere: one operation of the second selection function), a product with the
    2048 × 512 matrix plus its bias;
  * the second residual sum and the second layer norm, the same way, with the same two vectors.
  One hundred and four operations: fifty-seven of the block itself, twenty-three for each variance, one selection.
-/
import proofs.«172065_j32710470926956_2_alg».proof.Proof.Ref.Ops0
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The second window's one hundred and four operations, in order, the three calls (and the call inside each variance)
    unfolded at their buffers. -/
abbrev ops1 : List (HloOp τ sig (Elt F)) :=
  [ StableHlo.nullary main_cst_8 (constant S_ .f32 0x00000000#32),
    StableHlo.binary main_v49 main_cst_8 main_v50 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.unary main_v50 main_v51 (broadcastInDim S8192x1 ![0] bcast_S8192_S8192x1_0 : (⟨S8192, .f32⟩ : BufTy).Contents (Elt F) → (⟨S8192x1, .f32⟩ : BufTy).Contents (Elt F)),
    StableHlo.nullary main_cst_9 (constant S_ .f32 0x44000000#32),
    StableHlo.unary main_cst_9 main_v52 (broadcastInDim S8192x1 ![] bcast_S_S8192x1 : (⟨S_, .f32⟩ : BufTy).Contents (Elt F) → (⟨S8192x1, .f32⟩ : BufTy).Contents (Elt F)),
    StableHlo.binary main_v51 main_v52 main_v53 (Host.divf : (⟨S8192x1, .f32⟩ : BufTy).Contents (Elt F) → (⟨S8192x1, .f32⟩ : BufTy).Contents (Elt F) → (⟨S8192x1, .f32⟩ : BufTy).Contents (Elt F)),
    StableHlo.nullary main_c_10 (constantI S_ 32 0#32),
    StableHlo.TRef.nullary main_call2.cst (constant S_ .f32 0x00000000#32),
    StableHlo.TRef.binary (.of main_v49 : StableHlo.TRef sig ⟨S8192x512, .f32⟩) main_call2.cst main_call2.v0 (fun x v => Host.reduceAdd x v reducesTo_S8192x512_S8192_d1 h_S_),
    StableHlo.TRef.unary main_call2.v0 main_call2.v1 (broadcastInDim S8192x1 ![0] bcast_S8192_S8192x1_0),
    StableHlo.TRef.nullary main_call2.cst_0 (constant S_ .f32 0x44000000#32),
    StableHlo.TRef.unary main_call2.cst_0 main_call2.v2 (broadcastInDim S8192x1 ![] bcast_S_S8192x1),
    StableHlo.TRef.binary main_call2.v1 main_call2.v2 main_call2.v3 Host.divf,
    StableHlo.TRef.unary main_call2.v3 main_call2.v4 (broadcastInDim S8192x512 ![0, 1] bcast_S8192x1_S8192x512_0_1),
    StableHlo.TRef.binary (.of main_v49 : StableHlo.TRef sig ⟨S8192x512, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x44000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8192x512_S8192_d1 h_S_),
    StableHlo.TRef.unary main_call2.v9 main_call2.v10 (broadcastInDim S8192x1 ![0] bcast_S8192_S8192x1_0),
    StableHlo.TRef.unary main_call2.v8 main_call2.v11 (broadcastInDim S8192x1 ![] bcast_S_S8192x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S8192x1 ![] bcast_S_S8192x1),
    StableHlo.TRef.ternary main_call2.v13 main_call2.v12 main_call2.call0.v1 main_call2.call0.v2 (fun p a b => select (broadcastInDim S8192x1 ![] bcast_S_S8192x1 p) a b),
    StableHlo.unary main_v53 main_v55 (broadcastInDim S8192x512 ![0, 1] bcast_S8192x1_S8192x512_0_1 : (⟨S8192x1, .f32⟩ : BufTy).Contents (Elt F) → (⟨S8192x512, .f32⟩ : BufTy).Contents (Elt F)),
    StableHlo.binary main_v49 main_v55 main_v56 (subf : (⟨S8192x512, .f32⟩ : BufTy).Contents (Elt F) → (⟨S8192x512, .f32⟩ : BufTy).Contents (Elt F) → (⟨S8192x512, .f32⟩ : BufTy).Contents (Elt F)),
    StableHlo.nullary main_cst_11 (constant S_ .f32 0x3727C5AC#32),
    StableHlo.unary main_cst_11 main_v57 (broadcastInDim S8192x1 ![] bcast_S_S8192x1 : (⟨S_, .f32⟩ : BufTy).Contents (Elt F) → (⟨S8192x1, .f32⟩ : BufTy).Contents (Elt F)),
    StableHlo.binary main_v54 main_v57 main_v58 (addf : (⟨S8192x1, .f32⟩ : BufTy).Contents (Elt F) → (⟨S8192x1, .f32⟩ : BufTy).Contents (Elt F) → (⟨S8192x1, .f32⟩ : BufTy).Contents (Elt F)),
    StableHlo.unary main_v58 main_v59 (Host.rsqrt : (⟨S8192x1, .f32⟩ : BufTy).Contents (Elt F) → (⟨S8192x1, .f32⟩ : BufTy).Contents (Elt F)),
    StableHlo.unary main_v59 main_v60 (broadcastInDim S8192x512 ![0, 1] bcast_S8192x1_S8192x512_0_1 : (⟨S8192x1, .f32⟩ : BufTy).Contents (Elt F) → (⟨S8192x512, .f32⟩ : BufTy).Contents (Elt F)),
    StableHlo.binary main_v56 main_v60 main_v61 (mulf : (⟨S8192x512, .f32⟩ : BufTy).Contents (Elt F) → (⟨S8192x512, .f32⟩ : BufTy).Contents (Elt F) → (⟨S8192x512, .f32⟩ : BufTy).Contents (Elt F)),
    StableHlo.unary main_arg9 main_v62 (broadcastInDim S1x512 ![1] bcast_S512_S1x512_1 : (⟨S512, .f32⟩ : BufTy).Contents (Elt F) → (⟨S1x512, .f32⟩ : BufTy).Contents (Elt F)),
    StableHlo.unary main_v62 main_v63 (broadcastInDim S8192x512 ![0, 1] bcast_S1x512_S8192x512_0_1 : (⟨S1x512, .f32⟩ : BufTy).Contents (Elt F) → (⟨S8192x512, .f32⟩ : BufTy).Contents (Elt F)),
    StableHlo.binary main_v61 main_v63 main_v64 (mulf : (⟨S8192x512, .f32⟩ : BufTy).Contents (Elt F) → (⟨S8192x512, .f32⟩ : BufTy).Contents (Elt F) → (⟨S8192x512, .f32⟩ : BufTy).Contents (Elt F)),
    StableHlo.unary main_arg10 main_v65 (broadcastInDim S1x512 ![1] bcast_S512_S1x512_1 : (⟨S512, .f32⟩ : BufTy).Contents (Elt F) → (⟨S1x512, .f32⟩ : BufTy).Contents (Elt F)),
    StableHlo.unary main_v65 main_v66 (broadcastInDim S8192x512 ![0, 1] bcast_S1x512_S8192x512_0_1 : (⟨S1x512, .f32⟩ : BufTy).Contents (Elt F) → (⟨S8192x512, .f32⟩ : BufTy).Contents (Elt F)),
    StableHlo.binary main_v64 main_v66 main_v67 (addf : (⟨S8192x512, .f32⟩ : BufTy).Contents (Elt F) → (⟨S8192x512, .f32⟩ : BufTy).Contents (Elt F) → (⟨S8192x512, .f32⟩ : BufTy).Contents (Elt F)),
    StableHlo.binary main_v67 main_arg11 main_v68 ((fun l r => Host.dotGeneral dot_S8192x512_S512x2048_S8192x2048_1_0_0_1_n_n none l r) : (⟨S8192x512, .f32⟩ : BufTy).Contents (Elt F) → (⟨S512x2048, .f32⟩ : BufTy).Contents (Elt F) → (⟨S8192x2048, .f32⟩ : BufTy).Contents (Elt F)),
    StableHlo.unary main_arg12 main_v69 (broadcastInDim S1x2048 ![1] bcast_S2048_S1x2048_1 : (⟨S2048, .f32⟩ : BufTy).Contents (Elt F) → (⟨S1x2048, .f32⟩ : BufTy).Contents (Elt F)),
    StableHlo.unary main_v69 main_v70 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v68 main_v70 main_v71 (addf : (⟨S8192x2048, .f32⟩ : BufTy).Contents (Elt F) → (⟨S8192x2048, .f32⟩ : BufTy).Contents (Elt F) → (⟨S8192x2048, .f32⟩ : BufTy).Contents (Elt F)),
    StableHlo.nullary main_cst_12 (constant S_ .f32 0x00000000#32),
    StableHlo.unary main_cst_12 main_v72 (broadcastInDim S8192x2048 ![] bcast_S_S8192x2048 : (⟨S_, .f32⟩ : BufTy).Contents (Elt F) → (⟨S8192x2048, .f32⟩ : BufTy).Contents (Elt F)),
    StableHlo.binary main_v71 main_v72 main_v73 (cmpf .oge : (⟨S8192x2048, .f32⟩ : BufTy).Contents (Elt F) → (⟨S8192x2048, .f32⟩ : BufTy).Contents (Elt F) → (⟨S8192x2048, .i1⟩ : BufTy).Contents (Elt F)),
    StableHlo.nullary main_cst_13 (constant S_ .f32 0x3C23D70A#32),
    StableHlo.unary main_cst_13 main_v74 (broadcastInDim S8192x2048 ![] bcast_S_S8192x2048 : (⟨S_, .f32⟩ : BufTy).Contents (Elt F) → (⟨S8192x2048, .f32⟩ : BufTy).Contents (Elt F)),
    StableHlo.binary main_v74 main_v71 main_v75 (mulf : (⟨S8192x2048, .f32⟩ : BufTy).Contents (Elt F) → (⟨S8192x2048, .f32⟩ : BufTy).Contents (Elt F) → (⟨S8192x2048, .f32⟩ : BufTy).Contents (Elt F)),
    StableHlo.TRef.ternary (.of main_v73 : StableHlo.TRef sig ⟨S8192x2048, .i1⟩) (.of main_v71 : StableHlo.TRef sig ⟨S8192x2048, .f32⟩) (.of main_v75 : StableHlo.TRef sig ⟨S8192x2048, .f32⟩) main_call3.v0 select,
    StableHlo.binary main_v76 main_arg13 main_v77 ((fun l r => Host.dotGeneral dot_S8192x2048_S2048x512_S8192x512_1_0_0_1_n_n none l r) : (⟨S8192x2048, .f32⟩ : BufTy).Contents (Elt F) → (⟨S2048x512, .f32⟩ : BufTy).Contents (Elt F) → (⟨S8192x512, .f32⟩ : BufTy).Contents (Elt F)),
    StableHlo.unary main_arg14 main_v78 (broadcastInDim S1x512 ![1] bcast_S512_S1x512_1 : (⟨S512, .f32⟩ : BufTy).Contents (Elt F) → (⟨S1x512, .f32⟩ : BufTy).Contents (Elt F)),
    StableHlo.unary main_v78 main_v79 (broadcastInDim S8192x512 ![0, 1] bcast_S1x512_S8192x512_0_1 : (⟨S1x512, .f32⟩ : BufTy).Contents (Elt F) → (⟨S8192x512, .f32⟩ : BufTy).Contents (Elt F)),
    StableHlo.binary main_v77 main_v79 main_v80 (addf : (⟨S8192x512, .f32⟩ : BufTy).Contents (Elt F) → (⟨S8192x512, .f32⟩ : BufTy).Contents (Elt F) → (⟨S8192x512, .f32⟩ : BufTy).Contents (Elt F)),
    StableHlo.binary main_v80 main_v67 main_v81 (addf : (⟨S8192x512, .f32⟩ : BufTy).Contents (Elt F) → (⟨S8192x512, .f32⟩ : BufTy).Contents (Elt F) → (⟨S8192x512, .f32⟩ : BufTy).Contents (Elt F)),
    StableHlo.nullary main_cst_14 (constant S_ .f32 0x00000000#32),
    StableHlo.binary main_v81 main_cst_14 main_v82 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.unary main_v82 main_v83 (broadcastInDim S8192x1 ![0] bcast_S8192_S8192x1_0 : (⟨S8192, .f32⟩ : BufTy).Contents (Elt F) → (⟨S8192x1, .f32⟩ : BufTy).Contents (Elt F)),
    StableHlo.nullary main_cst_15 (constant S_ .f32 0x44000000#32),
    StableHlo.unary main_cst_15 main_v84 (broadcastInDim S8192x1 ![] bcast_S_S8192x1 : (⟨S_, .f32⟩ : BufTy).Contents (Elt F) → (⟨S8192x1, .f32⟩ : BufTy).Contents (Elt F)),
    StableHlo.binary main_v83 main_v84 main_v85 (Host.divf : (⟨S8192x1, .f32⟩ : BufTy).Contents (Elt F) → (⟨S8192x1, .f32⟩ : BufTy).Contents (Elt F) → (⟨S8192x1, .f32⟩ : BufTy).Contents (Elt F)),
    StableHlo.nullary main_c_16 (constantI S_ 32 0#32),
    StableHlo.TRef.nullary main_call4.cst (constant S_ .f32 0x00000000#32),
    StableHlo.TRef.binary (.of main_v81 : StableHlo.TRef sig ⟨S8192x512, .f32⟩) main_call4.cst main_call4.v0 (fun x v => Host.reduceAdd x v reducesTo_S8192x512_S8192_d1 h_S_),
    StableHlo.TRef.unary main_call4.v0 main_call4.v1 (broadcastInDim S8192x1 ![0] bcast_S8192_S8192x1_0),
    StableHlo.TRef.nullary main_call4.cst_0 (constant S_ .f32 0x44000000#32),
    StableHlo.TRef.unary main_call4.cst_0 main_call4.v2 (broadcastInDim S8192x1 ![] bcast_S_S8192x1),
    StableHlo.TRef.binary main_call4.v1 main_call4.v2 main_call4.v3 Host.divf,
    StableHlo.TRef.unary main_call4.v3 main_call4.v4 (broadcastInDim S8192x512 ![0, 1] bcast_S8192x1_S8192x512_0_1),
    StableHlo.TRef.binary (.of main_v81 : StableHlo.TRef sig ⟨S8192x512, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x44000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S8192x512_S8192_d1 h_S_),
    StableHlo.TRef.unary main_call4.v9 main_call4.v10 (broadcastInDim S8192x1 ![0] bcast_S8192_S8192x1_0),
    StableHlo.TRef.unary main_call4.v8 main_call4.v11 (broadcastInDim S8192x1 ![] bcast_S_S8192x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S8192x1 ![] bcast_S_S8192x1),
    StableHlo.TRef.ternary main_call4.v13 main_call4.v12 main_call4.call0.v1 main_call4.call0.v2 (fun p a b => select (broadcastInDim S8192x1 ![] bcast_S_S8192x1 p) a b),
    StableHlo.unary main_v85 main_v87 (broadcastInDim S8192x512 ![0, 1] bcast_S8192x1_S8192x512_0_1 : (⟨S8192x1, .f32⟩ : BufTy).Contents (Elt F) → (⟨S8192x512, .f32⟩ : BufTy).Contents (Elt F)),
    StableHlo.binary main_v81 main_v87 main_v88 (subf : (⟨S8192x512, .f32⟩ : BufTy).Contents (Elt F) → (⟨S8192x512, .f32⟩ : BufTy).Contents (Elt F) → (⟨S8192x512, .f32⟩ : BufTy).Contents (Elt F)),
    StableHlo.nullary main_cst_17 (constant S_ .f32 0x3727C5AC#32),
    StableHlo.unary main_cst_17 main_v89 (broadcastInDim S8192x1 ![] bcast_S_S8192x1 : (⟨S_, .f32⟩ : BufTy).Contents (Elt F) → (⟨S8192x1, .f32⟩ : BufTy).Contents (Elt F)),
    StableHlo.binary main_v86 main_v89 main_v90 (addf : (⟨S8192x1, .f32⟩ : BufTy).Contents (Elt F) → (⟨S8192x1, .f32⟩ : BufTy).Contents (Elt F) → (⟨S8192x1, .f32⟩ : BufTy).Contents (Elt F)),
    StableHlo.unary main_v90 main_v91 (Host.rsqrt : (⟨S8192x1, .f32⟩ : BufTy).Contents (Elt F) → (⟨S8192x1, .f32⟩ : BufTy).Contents (Elt F)),
    StableHlo.unary main_v91 main_v92 (broadcastInDim S8192x512 ![0, 1] bcast_S8192x1_S8192x512_0_1 : (⟨S8192x1, .f32⟩ : BufTy).Contents (Elt F) → (⟨S8192x512, .f32⟩ : BufTy).Contents (Elt F)),
    StableHlo.binary main_v88 main_v92 main_v93 (mulf : (⟨S8192x512, .f32⟩ : BufTy).Contents (Elt F) → (⟨S8192x512, .f32⟩ : BufTy).Contents (Elt F) → (⟨S8192x512, .f32⟩ : BufTy).Contents (Elt F)),
    StableHlo.unary main_arg9 main_v94 (broadcastInDim S1x512 ![1] bcast_S512_S1x512_1 : (⟨S512, .f32⟩ : BufTy).Contents (Elt F) → (⟨S1x512, .f32⟩ : BufTy).Contents (Elt F)),
    StableHlo.unary main_v94 main_v95 (broadcastInDim S8192x512 ![0, 1] bcast_S1x512_S8192x512_0_1 : (⟨S1x512, .f32⟩ : BufTy).Contents (Elt F) → (⟨S8192x512, .f32⟩ : BufTy).Contents (Elt F)),
    StableHlo.binary main_v93 main_v95 main_v96 (mulf : (⟨S8192x512, .f32⟩ : BufTy).Contents (Elt F) → (⟨S8192x512, .f32⟩ : BufTy).Contents (Elt F) → (⟨S8192x512, .f32⟩ : BufTy).Contents (Elt F)),
    StableHlo.unary main_arg10 main_v97 (broadcastInDim S1x512 ![1] bcast_S512_S1x512_1 : (⟨S512, .f32⟩ : BufTy).Contents (Elt F) → (⟨S1x512, .f32⟩ : BufTy).Contents (Elt F)),
    StableHlo.unary main_v97 main_v98 (broadcastInDim S8192x512 ![0, 1] bcast_S1x512_S8192x512_0_1 : (⟨S1x512, .f32⟩ : BufTy).Contents (Elt F) → (⟨S8192x512, .f32⟩ : BufTy).Contents (Elt F)),
    StableHlo.binary main_v96 main_v98 main_v99 (addf : (⟨S8192x512, .f32⟩ : BufTy).Contents (Elt F) → (⟨S8192x512, .f32⟩ : BufTy).Contents (Elt F) → (⟨S8192x512, .f32⟩ : BufTy).Contents (Elt F)) ]

/-! ## What the line touches and writes: one entry per operation, by its arity and its result buffer -/

/-- Every operation of the line touches TensorCore references only. -/
theorem ops1_sub : (ops1 : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub .., unary_bufs_sub .., unary_bufs_sub .., binary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every operation of the line determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

/-- The references the line's operations write, in order: one each, all distinct, none an argument of the block. -/
abbrev W1 : List (Ref sig .tc) :=
  [main_cst_8, main_v50, main_v51, main_cst_9, main_v52, main_v53, main_c_10, main_call2_cst,
    main_call2_v0, main_call2_v1, main_call2_cst_0, main_call2_v2, main_call2_v3, main_call2_v4, main_call2_v5, main_call2_v6,
    main_call2_v7, main_call2_cst_1, main_call2_v8, main_call2_cst_2, main_call2_v9, main_call2_v10, main_call2_v11, main_call2_v12,
    main_call2_cst_3, main_call2_v13, main_call2_cst_4, main_call2_call0_v0, main_call2_call0_v1, main_v54, main_v55, main_v56,
    main_cst_11, main_v57, main_v58, main_v59, main_v60, main_v61, main_v62, main_v63,
    main_v64, main_v65, main_v66, main_v67, main_v68, main_v69, main_v70, main_v71,
    main_cst_12, main_v72, main_v73, main_cst_13, main_v74, main_v75, main_v76, main_v77,
    main_v78, main_v79, main_v80, main_v81, main_cst_14, main_v82, main_v83, main_cst_15,
    main_v84, main_v85, main_c_16, main_call4_cst, main_call4_v0, main_call4_v1, main_call4_cst_0, main_call4_v2,
    main_call4_v3, main_call4_v4, main_call4_v5, main_call4_v6, main_call4_v7, main_call4_cst_1, main_call4_v8, main_call4_cst_2,
    main_call4_v9, main_call4_v10, main_call4_v11, main_call4_v12, main_call4_cst_3, main_call4_v13, main_call4_cst_4, main_call4_call0_v0,
    main_call4_call0_v1, main_v86, main_v87, main_v88, main_cst_17, main_v89, main_v90, main_v91,
    main_v92, main_v93, main_v94, main_v95, main_v96, main_v97, main_v98, main_v99]

/-- Each operation writes its own entry of that list and nothing else. -/
theorem ops1_writes : (ops1 : List (HloOp τ sig (Elt F))).Forall fun op =>
    op.writes ⊆ (W1.map (Proc.devRef (τ := τ) .tc)).toFinset :=
  ⟨writes_sub_of (y := main_cst_8) rfl (by decide), writes_sub_of (y := main_v50) rfl (by decide), writes_sub_of (y := main_v51) rfl (by decide),
    writes_sub_of (y := main_cst_9) rfl (by decide), writes_sub_of (y := main_v52) rfl (by decide), writes_sub_of (y := main_v53) rfl (by decide),
    writes_sub_of (y := main_c_10) rfl (by decide), writes_sub_of (y := main_call2_cst) rfl (by decide), writes_sub_of (y := main_call2_v0) rfl (by decide),
    writes_sub_of (y := main_call2_v1) rfl (by decide), writes_sub_of (y := main_call2_cst_0) rfl (by decide), writes_sub_of (y := main_call2_v2) rfl (by decide),
    writes_sub_of (y := main_call2_v3) rfl (by decide), writes_sub_of (y := main_call2_v4) rfl (by decide), writes_sub_of (y := main_call2_v5) rfl (by decide),
    writes_sub_of (y := main_call2_v6) rfl (by decide), writes_sub_of (y := main_call2_v7) rfl (by decide), writes_sub_of (y := main_call2_cst_1) rfl (by decide),
    writes_sub_of (y := main_call2_v8) rfl (by decide), writes_sub_of (y := main_call2_cst_2) rfl (by decide), writes_sub_of (y := main_call2_v9) rfl (by decide),
    writes_sub_of (y := main_call2_v10) rfl (by decide), writes_sub_of (y := main_call2_v11) rfl (by decide), writes_sub_of (y := main_call2_v12) rfl (by decide),
    writes_sub_of (y := main_call2_cst_3) rfl (by decide), writes_sub_of (y := main_call2_v13) rfl (by decide), writes_sub_of (y := main_call2_cst_4) rfl (by decide),
    writes_sub_of (y := main_call2_call0_v0) rfl (by decide), writes_sub_of (y := main_call2_call0_v1) rfl (by decide), writes_sub_of (y := main_v54) rfl (by decide),
    writes_sub_of (y := main_v55) rfl (by decide), writes_sub_of (y := main_v56) rfl (by decide), writes_sub_of (y := main_cst_11) rfl (by decide),
    writes_sub_of (y := main_v57) rfl (by decide), writes_sub_of (y := main_v58) rfl (by decide), writes_sub_of (y := main_v59) rfl (by decide),
    writes_sub_of (y := main_v60) rfl (by decide), writes_sub_of (y := main_v61) rfl (by decide), writes_sub_of (y := main_v62) rfl (by decide),
    writes_sub_of (y := main_v63) rfl (by decide), writes_sub_of (y := main_v64) rfl (by decide), writes_sub_of (y := main_v65) rfl (by decide),
    writes_sub_of (y := main_v66) rfl (by decide), writes_sub_of (y := main_v67) rfl (by decide), writes_sub_of (y := main_v68) rfl (by decide),
    writes_sub_of (y := main_v69) rfl (by decide), writes_sub_of (y := main_v70) rfl (by decide), writes_sub_of (y := main_v71) rfl (by decide),
    writes_sub_of (y := main_cst_12) rfl (by decide), writes_sub_of (y := main_v72) rfl (by decide), writes_sub_of (y := main_v73) rfl (by decide),
    writes_sub_of (y := main_cst_13) rfl (by decide), writes_sub_of (y := main_v74) rfl (by decide), writes_sub_of (y := main_v75) rfl (by decide),
    writes_sub_of (y := main_v76) rfl (by decide), writes_sub_of (y := main_v77) rfl (by decide), writes_sub_of (y := main_v78) rfl (by decide),
    writes_sub_of (y := main_v79) rfl (by decide), writes_sub_of (y := main_v80) rfl (by decide), writes_sub_of (y := main_v81) rfl (by decide),
    writes_sub_of (y := main_cst_14) rfl (by decide), writes_sub_of (y := main_v82) rfl (by decide), writes_sub_of (y := main_v83) rfl (by decide),
    writes_sub_of (y := main_cst_15) rfl (by decide), writes_sub_of (y := main_v84) rfl (by decide), writes_sub_of (y := main_v85) rfl (by decide),
    writes_sub_of (y := main_c_16) rfl (by decide), writes_sub_of (y := main_call4_cst) rfl (by decide), writes_sub_of (y := main_call4_v0) rfl (by decide),
    writes_sub_of (y := main_call4_v1) rfl (by decide), writes_sub_of (y := main_call4_cst_0) rfl (by decide), writes_sub_of (y := main_call4_v2) rfl (by decide),
    writes_sub_of (y := main_call4_v3) rfl (by decide), writes_sub_of (y := main_call4_v4) rfl (by decide), writes_sub_of (y := main_call4_v5) rfl (by decide),
    writes_sub_of (y := main_call4_v6) rfl (by decide), writes_sub_of (y := main_call4_v7) rfl (by decide), writes_sub_of (y := main_call4_cst_1) rfl (by decide),
    writes_sub_of (y := main_call4_v8) rfl (by decide), writes_sub_of (y := main_call4_cst_2) rfl (by decide), writes_sub_of (y := main_call4_v9) rfl (by decide),
    writes_sub_of (y := main_call4_v10) rfl (by decide), writes_sub_of (y := main_call4_v11) rfl (by decide), writes_sub_of (y := main_call4_v12) rfl (by decide),
    writes_sub_of (y := main_call4_cst_3) rfl (by decide), writes_sub_of (y := main_call4_v13) rfl (by decide), writes_sub_of (y := main_call4_cst_4) rfl (by decide),
    writes_sub_of (y := main_call4_call0_v0) rfl (by decide), writes_sub_of (y := main_call4_call0_v1) rfl (by decide), writes_sub_of (y := main_v86) rfl (by decide),
    writes_sub_of (y := main_v87) rfl (by decide), writes_sub_of (y := main_v88) rfl (by decide), writes_sub_of (y := main_cst_17) rfl (by decide),
    writes_sub_of (y := main_v89) rfl (by decide), writes_sub_of (y := main_v90) rfl (by decide), writes_sub_of (y := main_v91) rfl (by decide),
    writes_sub_of (y := main_v92) rfl (by decide), writes_sub_of (y := main_v93) rfl (by decide), writes_sub_of (y := main_v94) rfl (by decide),
    writes_sub_of (y := main_v95) rfl (by decide), writes_sub_of (y := main_v96) rfl (by decide), writes_sub_of (y := main_v97) rfl (by decide),
    writes_sub_of (y := main_v98) rfl (by decide), writes_sub_of (y := main_v99) rfl (by decide)⟩

/-- Operation k of the line writes exactly the k-th reference of that list. -/
theorem ops1_aligned : List.Forall₂ (fun op y => op.writes = {Proc.devRef (τ := τ) .tc y})
    (ops1 : List (HloOp τ sig (Elt F))) W1 :=
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <|
  .cons rfl <| .cons rfl <| .cons rfl <| .cons rfl <| .nil

end Cert.ReferenceIdeal.RefRun

end
-- ==== Proof.Ref.Parts.lean ====
/-
  The reference block's two windows are their straight lines. A window is a chain of steps in which a call stands for
  the called function's own chain (ending in a return that does nothing); the line is the same steps listed flat.
  Unfolding the functions at their calls and re-associating the sequencing (a chain inside a chain is one chain, a
  return in the middle does nothing) turns the window into the flat chain, step for step.
-/
import proofs.«172065_j32710470926956_2_alg».proof.Proof.Ref.Ops1

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

-- seventy binds re-associated: the rewrite under the chain recurses once per statement
set_option maxRecDepth 8192 in
/-- The first window is its line: the lower-triangle and selection functions unfolded at their calls, both sides are
    one chain of seventy steps. -/
theorem main_part0_eq (c : Dev nD) : main_part0 (F := F) c = seq ops0 := by
  simp only [main_part0, fn_tril.body, fn_where.body, seq, bind_assoc, pure_bind]
  rfl

-- one hundred and four binds re-associated
set_option maxRecDepth 16384 in
/-- The second window is its line: the variance function (and the selection it calls) and the second selection
    function unfolded at their calls, both sides are one chain of one hundred and four steps. -/
theorem main_part1_eq (c : Dev nD) : main_part1 (F := F) c = seq ops1 := by
  simp only [main_part1, fn_var.body, fn_where_0.body, fn_where_1.body, seq, bind_assoc, pure_bind]
  rfl

end Cert.ReferenceIdeal.RefRun

end
-- ==== Proof.Ref.Run.lean ====
/-
  The run of the reference block. Its program is three windows run in order: the first two are straight lines of
  whole-array operations (seventy and one hundred and four, the calls unfolded), the third is empty. So the whole
  program is the straight line of the one hundred and seventy-four operations, and a straight line over a signature
  that scopes no buffer and no semaphore runs to its end from any memory: every weakly fair execution terminates,
  nothing faults, and every buffer ends at the fold of the operations' results over the launch contents.

  Each operation writes exactly one buffer, the one hundred and seventy-four written buffers are pairwise distinct,
  and none of them is one of the block's fifteen arguments (the two activations, the six projection matrices, the
  output matrix, the norm's two vectors, the feed-forward layer's two matrices and two biases): the fold leaves every
  argument as it was launched, which is the frame claim.
-/
import proofs.«172065_j32710470926956_2_alg».proof.Defs
import proofs.«172065_j32710470926956_2_alg».proof.Proof.Ref.Parts
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

/-- The signature scopes no TensorCore buffer: every buffer is a tensor value's, live across the whole program. -/
theorem scopedRefs_eq : (Finset.univ.filter fun b : Ref sig .tc => b.isScoped) = ∅ := by decide
/-- The signature has no semaphore, scoped or not. -/
theorem scopedSems_eq : (Finset.univ.filter fun sm : SemLoc sig => sm.isScoped .tc) = ∅ := by decide

variable {F : FTy → Type} [FloatOps F] [Cert.ReferenceIdeal.Facts]

/-! ## The program as one straight line -/

/-- All of the block's one hundred and seventy-four operations, in order, the calls unfolded: the first window's, then
    the second's. -/
abbrev ops : List (HloOp τ sig (Elt F)) := ops0 ++ ops1

/-- The program is that straight line: its first two windows are their lines, two lines run one after the other are
    their concatenation run as one, and the third window does nothing. -/
theorem main_eq (c : Dev nD) : main (F := F) c = seq ops := by
  have h : main (F := F) c = (main_part0 c >>= fun _ => main_part1 c >>= fun _ => main_part2 c) := rfl
  rw [h, main_part0_eq, main_part1_eq]
  show _ = seq (ops0 ++ ops1)
  rw [seq_append]
  refine congrArg (fun k => seq ops0 >>= k) (funext fun _ => ?_)
  exact bind_pure (seq ops1)

/-- Every operation touches TensorCore references only. -/
theorem ops_sub : (ops : List (HloOp τ sig (Elt F))).Forall fun op => op.bufs ⊆ tcRefs τ sig :=
  List.forall_append.mpr ⟨ops0_sub, ops1_sub⟩

/-- Every operation determines its result. -/
theorem ops_fresh : (ops : List (HloOp τ sig (Elt F))).Forall fun op => op.fresh = ∅ :=
  List.forall_append.mpr ⟨ops0_fresh, ops1_fresh⟩

/-! ## The run -/

/-- At the compiled mesh, for any float values, from any memory with zero counters: every weakly fair execution of the
    block on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## The arguments are kept -/

/-- The references the operations write: the first window's, then the second's. -/
abbrev W : List (Ref sig .tc) := W0 ++ W1

/-- Writing inside a list of references is writing inside any list that contains it. -/
theorem writes_mono {l : List (HloOp τ sig (Elt F))} {U U' : List (Ref sig .tc)} (hU : ∀ r ∈ U, r ∈ U')
    (h : l.Forall fun op => op.writes ⊆ (U.map (Proc.devRef (τ := τ) .tc)).toFinset) :
    l.Forall fun op => op.writes ⊆ (U'.map (Proc.devRef (τ := τ) .tc)).toFinset := by
  rw [List.forall_iff_forall_mem] at h ⊢
  intro op hop x hx
  obtain ⟨r, hr, rfl⟩ := List.mem_map.mp (List.mem_toFinset.mp (h op hop hx))
  exact List.mem_toFinset.mpr (List.mem_map_of_mem (hU r hr))

/-- Every operation writes inside that list. -/
theorem ops_writes : (ops : List (HloOp τ sig (Elt F))).Forall fun op =>
    op.writes ⊆ (W.map (Proc.devRef (τ := τ) .tc)).toFinset :=
  List.forall_append.mpr ⟨writes_mono (fun _ hr => List.mem_append_left _ hr) ops0_writes,
    writes_mono (fun _ hr => List.mem_append_right _ hr) ops1_writes⟩

/-- No operation writes the previous stage's output (argument 0): the fold leaves it as it was. -/
theorem arg0_kept (V : Valuation τ sig (Elt F)) :
    after ops V (main_arg0 : DevRef τ sig) = V (main_arg0 : DevRef τ sig) :=
  after_of_writes_sub ops V ops_writes (by decide)
/-- No operation writes argument 1. -/
theorem arg1_kept (V : Valuation τ sig (Elt F)) :
    after ops V (main_arg1 : DevRef τ sig) = V (main_arg1 : DevRef τ sig) :=
  after_of_writes_sub ops V ops_writes (by decide)
/-- No operation writes argument 2. -/
theorem arg2_kept (V : Valuation τ sig (Elt F)) :
    after ops V (main_arg2 : DevRef τ sig) = V (main_arg2 : DevRef τ sig) :=
  after_of_writes_sub ops V ops_writes (by decide)
/-- No operation writes argument 3. -/
theorem arg3_kept (V : Valuation τ sig (Elt F)) :
    after ops V (main_arg3 : DevRef τ sig) = V (main_arg3 : DevRef τ sig) :=
  after_of_writes_sub ops V ops_writes (by decide)
/-- No operation writes argument 4. -/
theorem arg4_kept (V : Valuation τ sig (Elt F)) :
    after ops V (main_arg4 : DevRef τ sig) = V (main_arg4 : DevRef τ sig) :=
  after_of_writes_sub ops V ops_writes (by decide)
/-- No operation writes argument 5. -/
theorem arg5_kept (V : Valuation τ sig (Elt F)) :
    after ops V (main_arg5 : DevRef τ sig) = V (main_arg5 : DevRef τ sig) :=
  after_of_writes_sub ops V ops_writes (by decide)
/-- No operation writes argument 6. -/
theorem arg6_kept (V : Valuation τ sig (Elt F)) :
    after ops V (main_arg6 : DevRef τ sig) = V (main_arg6 : DevRef τ sig) :=
  after_of_writes_sub ops V ops_writes (by decide)
/-- No operation writes argument 7. -/
theorem arg7_kept (V : Valuation τ sig (Elt F)) :
    after ops V (main_arg7 : DevRef τ sig) = V (main_arg7 : DevRef τ sig) :=
  after_of_writes_sub ops V ops_writes (by decide)
/-- No operation writes argument 8. -/
theorem arg8_kept (V : Valuation τ sig (Elt F)) :
    after ops V (main_arg8 : DevRef τ sig) = V (main_arg8 : DevRef τ sig) :=
  after_of_writes_sub ops V ops_writes (by decide)
/-- No operation writes argument 9. -/
theorem arg9_kept (V : Valuation τ sig (Elt F)) :
    after ops V (main_arg9 : DevRef τ sig) = V (main_arg9 : DevRef τ sig) :=
  after_of_writes_sub ops V ops_writes (by decide)
/-- No operation writes argument 10. -/
theorem arg10_kept (V : Valuation τ sig (Elt F)) :
    after ops V (main_arg10 : DevRef τ sig) = V (main_arg10 : DevRef τ sig) :=
  after_of_writes_sub ops V ops_writes (by decide)
/-- No operation writes argument 11. -/
theorem arg11_kept (V : Valuation τ sig (Elt F)) :
    after ops V (main_arg11 : DevRef τ sig) = V (main_arg11 : DevRef τ sig) :=
  after_of_writes_sub ops V ops_writes (by decide)
/-- No operation writes argument 12. -/
theorem arg12_kept (V : Valuation τ sig (Elt F)) :
    after ops V (main_arg12 : DevRef τ sig) = V (main_arg12 : DevRef τ sig) :=
  after_of_writes_sub ops V ops_writes (by decide)
/-- No operation writes argument 13. -/
theorem arg13_kept (V : Valuation τ sig (Elt F)) :
    after ops V (main_arg13 : DevRef τ sig) = V (main_arg13 : DevRef τ sig) :=
  after_of_writes_sub ops V ops_writes (by decide)
/-- No operation writes argument 14. -/
theorem arg14_kept (V : Valuation τ sig (Elt F)) :
    after ops V (main_arg14 : DevRef τ sig) = V (main_arg14 : DevRef τ sig) :=
  after_of_writes_sub ops V ops_writes (by decide)

/-! ## The frame claim -/

/-- The reference block runs — terminates, faults nowhere — and its fifteen argument arrays end unchanged (at the
    extended reals; the precondition on the inputs is not used). -/
theorem frame [Cert.Pre_finite_inputs.Facts] : Cert.frame_ReferenceIdeal := by
  intro m g _
  exact (θ_run _ _ _).mono (fun _ h c =>
    ⟨(h c main_arg0).trans (arg0_kept _),
     (h c main_arg1).trans (arg1_kept _),
     (h c main_arg2).trans (arg2_kept _),
     (h c main_arg3).trans (arg3_kept _),
     (h c main_arg4).trans (arg4_kept _),
     (h c main_arg5).trans (arg5_kept _),
     (h c main_arg6).trans (arg6_kept _),
     (h c main_arg7).trans (arg7_kept _),
     (h c main_arg8).trans (arg8_kept _),
     (h c main_arg9).trans (arg9_kept _),
     (h c main_arg10).trans (arg10_kept _),
     (h c main_arg11).trans (arg11_kept _),
     (h c main_arg12).trans (arg12_kept _),
     (h c main_arg13).trans (arg13_kept _),
     (h c main_arg14).trans (arg14_kept _)⟩)
    (run_main (F := Ideal) m g)

end Cert.ReferenceIdeal.RefRun

end
-- ==== Proof.KI.R0.lean ====
/-
  Region 0: the fused projection of the previous stage's output, one grid point per 1024 rows. At a point the body
  reads the point's 1024 × 512 rows, the whole 512 × 192 weight (the three projections' columns side by side) and the
  1 × 192 bias, and stores into the point's 1024 × 192 output block the product plus the bias broadcast along the rows.
  What the output's buffer holds after the body is that one store's value of the three input blocks.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: each buffer whole. -/
abbrev r0_x : Rect S1024x512 := Rect.unit (s := S1024x512) ![0, 0] S1024x512.size inb_S1024x512_S1024x512_0_0
abbrev r0_w : Rect S512x192 := Rect.unit (s := S512x192) ![0, 0] S512x192.size inb_S512x192_S512x192_0_0
abbrev r0_b : Rect S1x192 := Rect.unit (s := S1x192) ![0, 0] S1x192.size inb_S1x192_S1x192_0_0
abbrev r0_o : Rect S1024x192 := Rect.unit (s := S1024x192) ![0, 0] S1024x192.size inb_S1024x192_S1024x192_0_0

/-- The output's buffer after the body: its one store, of the product plus the bias, over the three input blocks. -/
def out0_3 (x0 : Vec F S1024x512 .f32) (x1 : Vec F S512x192 .bf16) (x2 : Vec F S1x192 .f32) : Vec F S1024x192 .f32 :=
  View.canon [⟨r0_o, k0_pay1 (View.ld x0 r0_x) (View.ld x1 r0_w) (View.ld x2 r0_b)⟩]

/-- The store is of the whole buffer, so it covers it. -/
theorem cover0_3 (p0 : Vec F S1024x192 .f32) (y : S1024x192.Idx) :
    ∃ pc ∈ ([⟨r0_o, p0⟩] : List (View.Piece (Elt F) S1024x192 .f32)), y ∈ pc.1.set :=
  View.cover_of_tiled [⟨r0_o, p0⟩] S1024x192.size (by rfl) y

set_option maxHeartbeats 1000000 in
/-- The body on whole staging memrefs, the inputs' at read contents and the output's at anything, runs to the continuation
    holding the inputs' as they were and the output's at out0_3 of them. -/
theorem sound_kernel0 (c : Dev nD) (E : Set ℕ) (i : grid0.Coords)
    (arg1 : Memref sig .tc .vmem S1024x512 .f32) (harg1 : arg1.IsWhole) (arg2 : Memref sig .tc .vmem S512x192 .bf16) (harg2 : arg2.IsWhole)
    (arg3 : Memref sig .tc .vmem S1x192 .f32) (harg3 : arg3.IsWhole) (arg4 : Memref sig .tc .vmem S1024x192 .f32) (harg4 : arg4.IsWhole)
    (x0 : Vec F S1024x512 .f32) (x1 : Vec F S512x192 .bf16) (x2 : Vec F S1x192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- Region 0's proof data on core c: the arrays as the region finds them; after the body at point t each input's buffer
    at its block and the output's at out0_3 of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so sound_kernel0 applies; the invariant and the core's
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.Shared.lean ====
/-
  Region 1, the causal attention, on an 8 × 8 grid: point (i, j) pairs query block i with key/value block min(i, j). The
  body keeps three scratch buffers between points — the running row maximum m, the running denominator l and the running
  numerator acc — and branches on three conditions of the coordinates: at j = 0 it seeds them (m at the stand-in for -∞,
  l and acc at zero); at j ≤ i it folds block j into them; at j = 7 it stores acc / l into the output block. The other
  points leave everything as it was. This module: the conditions in closed form over the grid, where the output window is
  idle (everywhere but j = 7), the blocks, and the invariant with the three scratch buffers as owned memrefs.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := (Scalar.cmpi .ne (Scalar.extui (Scalar.cmpi .sle (BitVec.ofNat 32 (i 1).val) (BitVec.ofNat 32 (i 0).val))) 0#32) = 1#1
theorem hcond1_1 : ∀ t : Fin cfg1.N, cond1_1 (grid1.coords t) ↔ t.val % 8 ≤ t.val / 8 :=
  (by decide +kernel : ∀ t : Fin grid1.N, cond1_1 (grid1.coords t) ↔ t.val % 8 ≤ t.val / 8)

abbrev cond1_2 (i : grid1.Coords) : Prop := k1_cond3 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off j = 7 the body stores nothing into the output block: the window is idle there and not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs, the scratch, and the invariant with the scratch owned -/

/-- One staging buffer of the output window, through which its contents are stated. -/
abbrev VO1_3 : View sig .tc .vmem S1024x64 .f32 := (Memref.whole cc1_stg3_0 : Memref sig .tc .vmem S1024x64 .f32).view
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The scratch operands: whole scoped buffers of the kernel's own (the running maximum, denominator, numerator). -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-- What the rest of the scoped buffers is, beside the three scratch buffers. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
          ∗ (∃ d, owns (c : Thread nD τ) scM1_2 fullShare d)) ∗ rest1 c) ∗ (∃ r, prngReg c r)) := by
  unfold Pipeline.ΦA; rw [scopedRest1_split]; simp only [scM1_0, scM1_1, scM1_2, owns_whole]; try rfl

end Cert.KernelIdeal.Hand

end
-- ==== Proof.KI.R1.RunB.lean ====
/-
  The flash body at a point with 0 < j ≤ i and j < 7: the seeding and the final division are skipped; block j is folded into
  the carried maximum, denominator and numerator. The body's triple, with the pieces each scratch buffer ends with found by
  running it.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R1.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i) (hc2 : ¬cond1_2 i)
    (x0 x1 x2 : Vec F S1024x64 .f32) (xs0 xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton, k1_part1_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.R1.RunA.lean ====
/-
  The flash body at j = 0: it seeds the running maximum at the stand-in for -∞ and the denominator and numerator at zero, then
  (0 ≤ i always) folds block 0 into them. The scratch buffers may hold anything before.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R1.RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : cond1_1 i) (hc2 : ¬cond1_2 i)
    (x0 x1 x2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton, k1_part1_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.R1.RunC.lean ====
/-
  The flash body at a point with i < j < 7: all three branches are skipped; every buffer is handed back as found.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R1.RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
theorem kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i) (hc2 : ¬cond1_2 i)
    (x0 x1 x2 xi3 : Vec F S1024x64 .f32) (xs0 xs1 : Vec F S1024x1 .f32) (xs2 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton, k1_part1_eq_skeleton]; unfold cc1__flash_kernel_skel
  iintro ⟨H0, H1, H2, H3, HS0, HS1, HS2, Hk⟩
  sl_exec (disch := first | exact hc0 | exact hc1 | exact hc2)
  sl_step
  iapply Hk
  isplitl [H0]; · iexact H0
  isplitl [H1]; · iexact H1
  isplitl [H2]; · iexact H2
  isplitl [H3]; · iexact H3
  isplitl [HS0]; · iexact HS0
  isplitl [HS1]; · iexact HS1
  iexact HS2

end Cert.KernelIdeal.Hand

end
-- ==== Proof.KI.R1.RunD.lean ====
/-
  The flash body at the last point of the last row, (7, 7): block 7 is folded into the carried state, and the numerator over the
  denominator is stored into the output block.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R1.RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun1_D (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i) (hc2 : cond1_2 i)
    (x0 x1 x2 : Vec F S1024x64 .f32) (xs0 xs1 : Vec F S1024x1 .f32) (xs2 : Vec F S1024x64 .f32) :
    Σ' (L3 : List (View.Piece (Elt F) S1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton, k1_part1_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1.RunE.lean ====
/-
  The flash body at j = 7 in a row i < 7: block 7 lies wholly after the row's positions and is skipped; the numerator over the
  denominator, as the earlier points left them, is stored into the output block. The scratch buffers are read, not written.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R1.RunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun1_E (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i) (hc2 : cond1_2 i)
    (x0 x1 x2 : Vec F S1024x64 .f32) (xs0 xs1 : Vec F S1024x1 .f32) (xs2 : Vec F S1024x64 .f32) :
    { L3 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, fun E K => ?run⟩
  case run =>
    simp only [cc1__flash_kernel_eq_skeleton, k1_part1_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.KernelIdeal.Hand

end
-- ==== Proof.KI.R1.Data.lean ====
/-
  Region 1, the causal attention: what the output block and the three scratch buffers hold after each grid point, the proof
  data, and the body obligation.

  Point t of the 64 is (i, j) = (t / 8, t % 8). The carried state after point t is the case's at t: at j = 0 the seeded state
  with block 0 folded in; at 0 < j ≤ i the previous state with block j folded in; at i < j < 7 the previous state; at j = 7 the
  output block receives numerator over denominator (after folding block 7 when i = 7). The output window is idle off j = 7.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R1.RunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The output block and the scratch buffers (maximum, denominator, numerator). -/
abbrev St1 (F : FTy → Type) [FloatOps F] : Type :=
  Vec F S1024x64 .f32 × Vec F S1024x1 .f32 × Vec F S1024x1 .f32 × Vec F S1024x64 .f32

/-! ## The cases' runs at a grid point's memrefs -/

theorem c1_of_c0 {n : ℕ} (h0 : n % 8 = 0) : n % 8 ≤ n / 8 := by omega
theorem nc2_of_c0 {n : ℕ} (h0 : n % 8 = 0) : ¬ n % 8 = 7 := by omega

noncomputable def runA (c : Dev nD) (t : Fin cfg1.N) (h0 : t.val % 8 = 0) (x0 x1 x2 : Vec F S1024x64 .f32) :=
  kernelRun1_A (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    ((hcond1_0 t).mpr h0) ((hcond1_1 t).mpr (c1_of_c0 h0)) (fun h => nc2_of_c0 h0 ((hcond1_2 t).mp h)) x0 x1 x2

noncomputable def runB (c : Dev nD) (t : Fin cfg1.N) (h0 : ¬t.val % 8 = 0) (h1 : t.val % 8 ≤ t.val / 8) (h2 : ¬t.val % 8 = 7)
    (x0 x1 x2 : Vec F S1024x64 .f32) (xs0 xs1 : Vec F S1024x1 .f32) (xs2 : Vec F S1024x64 .f32) :=
  kernelRun1_B (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    (fun h => h0 ((hcond1_0 t).mp h)) ((hcond1_1 t).mpr h1) (fun h => h2 ((hcond1_2 t).mp h)) x0 x1 x2 xs0 xs1 xs2

noncomputable def runD (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) :=
  kernelRun1_D (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    (fun h => h0 ((hcond1_0 t).mp h)) ((hcond1_1 t).mpr h1) ((hcond1_2 t).mpr h2) x0 x1 x2 xs0 xs1 xs2

noncomputable def runE (c : Dev nD) (t : Fin cfg1.N) (h0 : ¬t.val % 8 = 0) (h1 : ¬t.val % 8 ≤ t.val / 8) (h2 : t.val % 8 = 7)
    (x0 x1 x2 : Vec F S1024x64 .f32) (xs0 xs1 : Vec F S1024x1 .f32) (xs2 : Vec F S1024x64 .f32) :=
  kernelRun1_E (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    (fun h => h0 ((hcond1_0 t).mp h)) (fun h => h1 ((hcond1_1 t).mp h)) ((hcond1_2 t).mpr h2) x0 x1 x2 xs0 xs1 xs2

/-! ## What each case leaves: its pieces read back -/

/-- The output block at a point where the window is idle: a placeholder nothing consults. -/
def outIdle1 : Vec F S1024x64 .f32 := VO1_3.read (Elt F) (VO1_3.writes (Elt F) VO1_3.junk [])

def stA (c : Dev nD) (t : Fin cfg1.N) (h0 : t.val % 8 = 0) : St1 F :=
  (outIdle1,
   VS1_0.read (Elt F) (VS1_0.writes (Elt F) VS1_0.junk (runA c t h0 (iblk1 V c 0 t) (iblk1 V c 1 t) (iblk1 V c 2 t)).1),
   VS1_1.read (Elt F) (VS1_1.writes (Elt F) VS1_1.junk (runA c t h0 (iblk1 V c 0 t) (iblk1 V c 1 t) (iblk1 V c 2 t)).2.1),
   VS1_2.read (Elt F) (VS1_2.writes (Elt F) VS1_2.junk (runA c t h0 (iblk1 V c 0 t) (iblk1 V c 1 t) (iblk1 V c 2 t)).2.2.1))

def stB (c : Dev nD) (t : Fin cfg1.N) (h0 : ¬t.val % 8 = 0) (h1 : t.val % 8 ≤ t.val / 8) (h2 : ¬t.val % 8 = 7) (p : St1 F) : St1 F :=
  (outIdle1,
   VS1_0.read (Elt F) (VS1_0.writes (Elt F) VS1_0.junk (runB c t h0 h1 h2 (iblk1 V c 0 t) (iblk1 V c 1 t) (iblk1 V c 2 t) p.2.1 p.2.2.1 p.2.2.2).1),
   VS1_1.read (Elt F) (VS1_1.writes (Elt F) VS1_1.junk (runB c t h0 h1 h2 (iblk1 V c 0 t) (iblk1 V c 1 t) (iblk1 V c 2 t) p.2.1 p.2.2.1 p.2.2.2).2.1),
   VS1_2.read (Elt F) (VS1_2.writes (Elt F) VS1_2.junk (runB c t h0 h1 h2 (iblk1 V c 0 t) (iblk1 V c 1 t) (iblk1 V c 2 t) p.2.1 p.2.2.1 p.2.2.2).2.2.1))

def stC (p : St1 F) : St1 F := (outIdle1, p.2.1, p.2.2.1, p.2.2.2)

def stD (c : Dev nD) (t : Fin cfg1.N) (h0 : ¬t.val % 8 = 0) (h1 : t.val % 8 ≤ t.val / 8) (h2 : t.val % 8 = 7) (p : St1 F) : St1 F :=
  (VO1_3.read (Elt F) (VO1_3.writes (Elt F) VO1_3.junk (runD c t h0 h1 h2 (iblk1 V c 0 t) (iblk1 V c 1 t) (iblk1 V c 2 t) p.2.1 p.2.2.1 p.2.2.2).1),
   VS1_0.read (Elt F) (VS1_0.writes (Elt F) VS1_0.junk (runD c t h0 h1 h2 (iblk1 V c 0 t) (iblk1 V c 1 t) (iblk1 V c 2 t) p.2.1 p.2.2.1 p.2.2.2).2.1),
   VS1_1.read (Elt F) (VS1_1.writes (Elt F) VS1_1.junk (runD c t h0 h1 h2 (iblk1 V c 0 t) (iblk1 V c 1 t) (iblk1 V c 2 t) p.2.1 p.2.2.1 p.2.2.2).2.2.1),
   VS1_2.read (Elt F) (VS1_2.writes (Elt F) VS1_2.junk (runD c t h0 h1 h2 (iblk1 V c 0 t) (iblk1 V c 1 t) (iblk1 V c 2 t) p.2.1 p.2.2.1 p.2.2.2).2.2.2.1))

def stE (c : Dev nD) (t : Fin cfg1.N) (h0 : ¬t.val % 8 = 0) (h1 : ¬t.val % 8 ≤ t.val / 8) (h2 : t.val % 8 = 7) (p : St1 F) : St1 F :=
  (VO1_3.read (Elt F) (VO1_3.writes (Elt F) VO1_3.junk (runE c t h0 h1 h2 (iblk1 V c 0 t) (iblk1 V c 1 t) (iblk1 V c 2 t) p.2.1 p.2.2.1 p.2.2.2).1),
   p.2.1, p.2.2.1, p.2.2.2)

/-! ## The state after each point -/

def outsAt1 (c : Dev nD) : (n : ℕ) → n < cfg1.N → St1 F
  | 0, hn => stA V c ⟨0, hn⟩ (Nat.zero_mod 8)
  | n + 1, hn =>
    if h0 : (n + 1) % 8 = 0 then stA V c ⟨n + 1, hn⟩ h0
    else if h1 : (n + 1) % 8 ≤ (n + 1) / 8 then
      if h2 : (n + 1) % 8 = 7 then stD V c ⟨n + 1, hn⟩ h0 h1 h2 (outsAt1 c n (Nat.lt_of_succ_lt hn))
      else stB V c ⟨n + 1, hn⟩ h0 h1 h2 (outsAt1 c n (Nat.lt_of_succ_lt hn))
    else
      if h2 : (n + 1) % 8 = 7 then stE V c ⟨n + 1, hn⟩ h0 h1 h2 (outsAt1 c n (Nat.lt_of_succ_lt hn))
      else stC (outsAt1 c n (Nat.lt_of_succ_lt hn))

/-- The state before point t, for t not the first. -/
abbrev prev1 (c : Dev nD) (t : Fin cfg1.N) : St1 F :=
  outsAt1 V c (t.val - 1) (Nat.lt_of_le_of_lt (Nat.sub_le _ _) t.isLt)

theorem outsAt1_A (c : Dev nD) (t : Fin cfg1.N) (h0 : t.val % 8 = 0) : outsAt1 V c t.val t.isLt = stA V c t h0 := by
  obtain ⟨n, hn⟩ := t
  cases n with
  | zero => rfl
  | succ n => exact dif_pos h0

theorem outsAt1_B (c : Dev nD) (t : Fin cfg1.N) (h0 : ¬t.val % 8 = 0) (h1 : t.val % 8 ≤ t.val / 8) (h2 : ¬t.val % 8 = 7) :
    outsAt1 V c t.val t.isLt = stB V c t h0 h1 h2 (prev1 V c t) := by
  obtain ⟨n, hn⟩ := t
  cases n with
  | zero => exact absurd (Nat.zero_mod 8) h0
  | succ n => exact (dif_neg h0).trans ((dif_pos h1).trans (dif_neg h2))

theorem outsAt1_C (c : Dev nD) (t : Fin cfg1.N) (h0 : ¬t.val % 8 = 0) (h1 : ¬t.val % 8 ≤ t.val / 8) (h2 : ¬t.val % 8 = 7) :
    outsAt1 V c t.val t.isLt = stC (prev1 V c t) := by
  obtain ⟨n, hn⟩ := t
  cases n with
  | zero => exact absurd (Nat.zero_mod 8) h0
  | succ n => exact (dif_neg h0).trans ((dif_neg h1).trans (dif_neg h2))

theorem outsAt1_D (c : Dev nD) (t : Fin cfg1.N) (h0 : ¬t.val % 8 = 0) (h1 : t.val % 8 ≤ t.val / 8) (h2 : t.val % 8 = 7) :
    outsAt1 V c t.val t.isLt = stD V c t h0 h1 h2 (prev1 V c t) := by
  obtain ⟨n, hn⟩ := t
  cases n with
  | zero => exact absurd (Nat.zero_mod 8) h0
  | succ n => exact (dif_neg h0).trans ((dif_pos h1).trans (dif_pos h2))

theorem outsAt1_E (c : Dev nD) (t : Fin cfg1.N) (h0 : ¬t.val % 8 = 0) (h1 : ¬t.val % 8 ≤ t.val / 8) (h2 : t.val % 8 = 7) :
    outsAt1 V c t.val t.isLt = stE V c t h0 h1 h2 (prev1 V c t) := by
  obtain ⟨n, hn⟩ := t
  cases n with
  | zero => exact absurd (Nat.zero_mod 8) h0
  | succ n => exact (dif_neg h0).trans ((dif_neg h1).trans (dif_pos h2))

/-! ## The invariant: the scratch buffers at the state the point before left -/

def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1
        ∗ owns (c : Thread nD τ) scM1_1 fullShare (outsAt1 V c n hn).2.2.1
        ∗ owns (c : Thread nD τ) scM1_2 fullShare (outsAt1 V c n hn).2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.1
        ∗ owns (c : Thread nD τ) scM1_1 fullShare (outsAt1 V c n hn).2.2.1
        ∗ owns (c : Thread nD τ) scM1_2 fullShare (outsAt1 V c n hn).2.2.2) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1
        ∗ owns (c : Thread nD τ) scM1_1 fullShare (outsAt1 V c (n - 1) (by omega)).2.2.1
        ∗ owns (c : Thread nD τ) scM1_2 fullShare (outsAt1 V c (n - 1) (by omega)).2.2.2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KI.R1.Body.lean ====
/-
  Region 1: the pieces each case stores cover the buffers they are stored into, and the body obligation at every point — by
  cases on the three conditions' closed forms; the invariant hands the body the scratch buffers at what the point before left
  (at anything before the first point) and takes them back at this point's state.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R1.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The stores cover the buffers -/

theorem scoverA_0 (c : Dev nD) (t : Fin cfg1.N) (h0 : t.val % 8 = 0) (x0 x1 x2 : Vec F S1024x64 .f32) (y : S1024x1.Idx) :
    ∃ pc ∈ (runA (F := F) c t h0 x0 x1 x2).1, y ∈ pc.1.set :=
  View.cover_of_tiledL (runA (F := F) c t h0 x0 x1 x2).1 S1024x1.size (by sl_kernel_rfl) y
theorem scoverA_1 (c : Dev nD) (t : Fin cfg1.N) (h0 : t.val % 8 = 0) (x0 x1 x2 : Vec F S1024x64 .f32) (y : S1024x1.Idx) :
    ∃ pc ∈ (runA (F := F) c t h0 x0 x1 x2).2.1, y ∈ pc.1.set :=
  View.cover_of_tiledL (runA (F := F) c t h0 x0 x1 x2).2.1 S1024x1.size (by sl_kernel_rfl) y
theorem scoverA_2 (c : Dev nD) (t : Fin cfg1.N) (h0 : t.val % 8 = 0) (x0 x1 x2 : Vec F S1024x64 .f32) (y : S1024x64.Idx) :
    ∃ pc ∈ (runA (F := F) c t h0 x0 x1 x2).2.2.1, y ∈ pc.1.set :=
  View.cover_of_tiledL (runA (F := F) c t h0 x0 x1 x2).2.2.1 S1024x64.size (by sl_kernel_rfl) y

theorem scoverB_0 (c : Dev nD) (t : Fin cfg1.N) (h0 : ¬t.val % 8 = 0) (h1 : t.val % 8 ≤ t.val / 8) (h2 : ¬t.val % 8 = 7)
    (x0 x1 x2 : Vec F S1024x64 .f32) (xs0 xs1 : Vec F S1024x1 .f32) (xs2 : Vec F S1024x64 .f32) (y : S1024x1.Idx) :
    ∃ pc ∈ (runB (F := F) c t h0 h1 h2 x0 x1 x2 xs0 xs1 xs2).1, y ∈ pc.1.set :=
  View.cover_of_tiledL (runB (F := F) c t h0 h1 h2 x0 x1 x2 xs0 xs1 xs2).1 S1024x1.size (by sl_kernel_rfl) y
theorem scoverB_1 (c : Dev nD) (t : Fin cfg1.N) (h0 : ¬t.val % 8 = 0) (h1 : t.val % 8 ≤ t.val / 8) (h2 : ¬t.val % 8 = 7)
    (x0 x1 x2 : Vec F S1024x64 .f32) (xs0 xs1 : Vec F S1024x1 .f32) (xs2 : Vec F S1024x64 .f32) (y : S1024x1.Idx) :
    ∃ pc ∈ (runB (F := F) c t h0 h1 h2 x0 x1 x2 xs0 xs1 xs2).2.1, y ∈ pc.1.set :=
  View.cover_of_tiledL (runB (F := F) c t h0 h1 h2 x0 x1 x2 xs0 xs1 xs2).2.1 S1024x1.size (by sl_kernel_rfl) y
theorem scoverB_2 (c : Dev nD) (t : Fin cfg1.N) (h0 : ¬t.val % 8 = 0) (h1 : t.val % 8 ≤ t.val / 8) (h2 : ¬t.val % 8 = 7)
    (x0 x1 x2 : Vec F S1024x64 .f32) (xs0 xs1 : Vec F S1024x1 .f32) (xs2 : Vec F S1024x64 .f32) (y : S1024x64.Idx) :
    ∃ pc ∈ (runB (F := F) c t h0 h1 h2 x0 x1 x2 xs0 xs1 xs2).2.2.1, y ∈ pc.1.set :=
  View.cover_of_tiledL (runB (F := F) c t h0 h1 h2 x0 x1 x2 xs0 xs1 xs2).2.2.1 S1024x64.size (by sl_kernel_rfl) y

theorem coverD_3 (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) (y : S1024x64.Idx) :
    ∃ pc ∈ (runD (F := F) c t h0 h1 h2 x0 x1 x2 xs0 xs1 xs2).1, y ∈ pc.1.set :=
  View.cover_of_tiledL (runD (F := F) c t h0 h1 h2 x0 x1 x2 xs0 xs1 xs2).1 S1024x64.size (by sl_kernel_rfl) y
theorem scoverD_0 (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) (y : S1024x1.Idx) :
    ∃ pc ∈ (runD (F := F) c t h0 h1 h2 x0 x1 x2 xs0 xs1 xs2).2.1, y ∈ pc.1.set :=
  View.cover_of_tiledL (runD (F := F) c t h0 h1 h2 x0 x1 x2 xs0 xs1 xs2).2.1 S1024x1.size (by sl_kernel_rfl) y
theorem scoverD_1 (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) (y : S1024x1.Idx) :
    ∃ pc ∈ (runD (F := F) c t h0 h1 h2 x0 x1 x2 xs0 xs1 xs2).2.2.1, y ∈ pc.1.set :=
  View.cover_of_tiledL (runD (F := F) c t h0 h1 h2 x0 x1 x2 xs0 xs1 xs2).2.2.1 S1024x1.size (by sl_kernel_rfl) y
theorem scoverD_2 (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) (y : S1024x64.Idx) :
    ∃ pc ∈ (runD (F := F) c t h0 h1 h2 x0 x1 x2 xs0 xs1 xs2).2.2.2.1, y ∈ pc.1.set :=
  View.cover_of_tiledL (runD (F := F) c t h0 h1 h2 x0 x1 x2 xs0 xs1 xs2).2.2.2.1 S1024x64.size (by sl_kernel_rfl) y

theorem coverE_3 (c : Dev nD) (t : Fin cfg1.N) (h0 : ¬t.val % 8 = 0) (h1 : ¬t.val % 8 ≤ t.val / 8) (h2 : t.val % 8 = 7)
    (x0 x1 x2 : Vec F S1024x64 .f32) (xs0 xs1 : Vec F S1024x1 .f32) (xs2 : Vec F S1024x64 .f32) (y : S1024x64.Idx) :
    ∃ pc ∈ (runE (F := F) c t h0 h1 h2 x0 x1 x2 xs0 xs1 xs2).1, y ∈ pc.1.set :=
  View.cover_of_tiledL (runE (F := F) c t h0 h1 h2 x0 x1 x2 xs0 xs1 xs2).1 S1024x64.size (by sl_kernel_rfl) y

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · -- j = 0: seed, then fold block 0
    have hnc2 : ¬cond1_2 (grid1.coords t) := fun h => nc2_of_c0 h0 ((hcond1_2 t).mp h)
    rw [Dat.leavesExact_idle (dat1 V c) 3 t (idleAt1_3 t hnc2) (noFlush1_3 t hnc2)]
    rw [outsAt1_A V c t h0]
    unfold stA; (try dsimp only)
    by_cases hz : t.val = 0
    · rw [PhiS1_castSucc V c t, PhiS1_zero V c _ _ hz, PhiA1_eq]
      iintro ⟨⟨⟨⟨HS0, HS1, HS2⟩, Hrest⟩, Hg⟩, Ho, ⟨%d0, H0⟩, ⟨%d1, H1⟩, ⟨%d2, H2⟩, ⟨%d3, H3⟩⟩
      iapply ((runA (F := F) c t h0 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverA_0 c t h0 _ _ _)
            isplitl [HS1]
            · unfold owns; iexists _; isplitr
              swap; · iexact HS1
              ipureintro; exact View.read_writes_of_cover _ _ _ _ _ (scoverA_1 c t h0 _ _ _)
            unfold owns; iexists _; isplitr
            swap; · iexact HS2
            ipureintro; exact View.read_writes_of_cover _ _ _ _ _ (scoverA_2 c t h0 _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((runA (F := F) c t h0 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverA_0 c t h0 _ _ _)
            isplitl [HS1]
            · unfold owns; iexists _; isplitr
              swap; · iexact HS1
              ipureintro; exact View.read_writes_of_cover _ _ _ _ _ (scoverA_1 c t h0 _ _ _)
            unfold owns; iexists _; isplitr
            swap; · iexact HS2
            ipureintro; exact View.read_writes_of_cover _ _ _ _ _ (scoverA_2 c t h0 _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS1_castSucc V c t, PhiS1_pos V c _ _ hz]
    by_cases h1 : t.val % 8 ≤ t.val / 8
    · by_cases h2 : t.val % 8 = 7
      · -- (7, 7): fold block 7, then divide into the output block
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h1 h2]
        unfold stD; (try dsimp only)
        iintro ⟨⟨⟨⟨HS0, HS1, HS2⟩, Hrest⟩, Hg⟩, Ho, ⟨%d0, H0⟩, ⟨%d1, H1⟩, ⟨%d2, H2⟩, ⟨%d3, H3⟩⟩
        iapply ((runD (F := F) c t h0 h1 h2 (iblk1 V c 0 t) (iblk1 V c 1 t) (iblk1 V c 2 t) (prev1 V c t).2.1 (prev1 V c t).2.2.1 (prev1 V c t).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scoverD_0 c t h0 h1 h2 _ _ _ _ _ _)
              isplitl [HS1]
              · unfold owns; iexists _; isplitr
                swap; · iexact HS1
                ipureintro; exact View.read_writes_of_cover _ _ _ _ _ (scoverD_1 c t h0 h1 h2 _ _ _ _ _ _)
              unfold owns; iexists _; isplitr
              swap; · iexact HS2
              ipureintro; exact View.read_writes_of_cover _ _ _ _ _ (scoverD_2 c t h0 h1 h2 _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_3 c t h0 h1 h2 _ _ _ _ _ _)
      · -- 0 < j ≤ i, j < 7: fold block j
        have hnc2 : ¬cond1_2 (grid1.coords t) := fun h => h2 ((hcond1_2 t).mp h)
        rw [Dat.leavesExact_idle (dat1 V c) 3 t (idleAt1_3 t hnc2) (noFlush1_3 t hnc2)]
        rw [outsAt1_B V c t h0 h1 h2]
        unfold stB; (try dsimp only)
        iintro ⟨⟨⟨⟨HS0, HS1, HS2⟩, Hrest⟩, Hg⟩, Ho, ⟨%d0, H0⟩, ⟨%d1, H1⟩, ⟨%d2, H2⟩, ⟨%d3, H3⟩⟩
        iapply ((runB (F := F) c t h0 h1 h2 (iblk1 V c 0 t) (iblk1 V c 1 t) (iblk1 V c 2 t) (prev1 V c t).2.1 (prev1 V c t).2.2.1 (prev1 V c t).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scoverB_0 c t h0 h1 h2 _ _ _ _ _ _)
              isplitl [HS1]
              · unfold owns; iexists _; isplitr
                swap; · iexact HS1
                ipureintro; exact View.read_writes_of_cover _ _ _ _ _ (scoverB_1 c t h0 h1 h2 _ _ _ _ _ _)
              unfold owns; iexists _; isplitr
              swap; · iexact HS2
              ipureintro; exact View.read_writes_of_cover _ _ _ _ _ (scoverB_2 c t h0 h1 h2 _ _ _ _ _ _)
            iexact Hrest
          iexact Hg
        isplitl [Ho]; · iexact Ho
        isplitl [H0]; · iexact H0
        isplitl [H1]; · iexact H1
        isplitl [H2]; · iexact H2
        iexists _; iexact H3
    · by_cases h2 : t.val % 8 = 7
      · -- j = 7 > i: divide into the output block; the scratch is only read
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold stE; (try dsimp only)
        iintro ⟨⟨⟨⟨HS0, HS1, HS2⟩, Hrest⟩, Hg⟩, Ho, ⟨%d0, H0⟩, ⟨%d1, H1⟩, ⟨%d2, H2⟩, ⟨%d3, H3⟩⟩
        iapply ((runE (F := F) c t h0 h1 h2 (iblk1 V c 0 t) (iblk1 V c 1 t) (iblk1 V c 2 t) (prev1 V c t).2.1 (prev1 V c t).2.2.1 (prev1 V c t).2.2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HS0 HS1 HS2 Hrest Hg]
        · isplitl [HS0 HS1 HS2 Hrest]
          · isplitl [HS0 HS1 HS2]
            · isplitl [HS0]; · iexact HS0
              isplitl [HS1]; · iexact HS1
              iexact HS2
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverE_3 c t h0 h1 h2 _ _ _ _ _ _)
      · -- i < j < 7: nothing happens
        have hnc2 : ¬cond1_2 (grid1.coords t) := fun h => h2 ((hcond1_2 t).mp h)
        rw [Dat.leavesExact_idle (dat1 V c) 3 t (idleAt1_3 t hnc2) (noFlush1_3 t hnc2)]
        rw [outsAt1_C V c t h0 h1 h2]
        unfold stC; (try dsimp only)
        iintro ⟨⟨⟨⟨HS0, HS1, HS2⟩, Hrest⟩, Hg⟩, Ho, ⟨%d0, H0⟩, ⟨%d1, H1⟩, ⟨%d2, H2⟩, ⟨%d3, H3⟩⟩
        iapply (kernelRun1_C (F := F) c (grid1.coords t) _ _ _ _ _ _ _ _ _ _ _ _ _ _ (fun h => h0 ((hcond1_0 t).mp h))
          (fun h => h1 ((hcond1_1 t).mp h)) hnc2 (iblk1 V c 0 t) (iblk1 V c 1 t) (iblk1 V c 2 t) _ (prev1 V c t).2.1 (prev1 V c t).2.2.1 (prev1 V c t).2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hrest Hg]
        · isplitl [HS0 HS1 HS2 Hrest]
          · isplitl [HS0 HS1 HS2]
            · isplitl [HS0]; · iexact HS0
              isplitl [HS1]; · iexact HS1
              iexact HS2
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.R2.lean ====
/-
  Region 2: a matrix product with bias, one grid point per 1024 rows. At a point the body reads the point's 1024 × 64
  rows, the whole 64 × 512 weight and the 1 × 512 bias, and stores into the point's 1024 × 512 output block the product
  of the rows (rounded to bf16) with the weight, accumulated in f32, plus the bias broadcast along the rows. What the
  output's buffer holds after the body is that one store's value of the three input blocks.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: each buffer whole. -/
abbrev r2_x : Rect S1024x64 := Rect.unit (s := S1024x64) ![0, 0] S1024x64.size inb_S1024x64_S1024x64_0_0
abbrev r2_w : Rect S64x512 := Rect.unit (s := S64x512) ![0, 0] S64x512.size inb_S64x512_S64x512_0_0
abbrev r2_b : Rect S1x512 := Rect.unit (s := S1x512) ![0, 0] S1x512.size inb_S1x512_S1x512_0_0
abbrev r2_o : Rect S1024x512 := Rect.unit (s := S1024x512) ![0, 0] S1024x512.size inb_S1024x512_S1024x512_0_0

/-- The output's buffer after the body: its one store, of the product plus the bias, over the three input blocks. -/
def out2_3 (x0 : Vec F S1024x64 .f32) (x1 : Vec F S64x512 .bf16) (x2 : Vec F S1x512 .f32) : Vec F S1024x512 .f32 :=
  View.canon [⟨r2_o, k2_pay1 (View.ld x0 r2_x) (View.ld x1 r2_w) (View.ld x2 r2_b)⟩]

/-- The store is of the whole buffer, so it covers it. -/
theorem cover2_3 (p0 : Vec F S1024x512 .f32) (y : S1024x512.Idx) :
    ∃ pc ∈ ([⟨r2_o, p0⟩] : List (View.Piece (Elt F) S1024x512 .f32)), y ∈ pc.1.set :=
  View.cover_of_tiled [⟨r2_o, p0⟩] S1024x512.size (by rfl) y

set_option maxHeartbeats 1000000 in
/-- The body on whole staging memrefs, the inputs' at read contents and the output's at anything, runs to the continuation
    holding the inputs' as they were and the output's at out2_3 of them. -/
theorem sound_kernel2 (c : Dev nD) (E : Set ℕ) (i : grid2.Coords)
    (arg1 : Memref sig .tc .vmem S1024x64 .f32) (harg1 : arg1.IsWhole) (arg2 : Memref sig .tc .vmem S64x512 .bf16) (harg2 : arg2.IsWhole)
    (arg3 : Memref sig .tc .vmem S1x512 .f32) (harg3 : arg3.IsWhole) (arg4 : Memref sig .tc .vmem S1024x512 .f32) (harg4 : arg4.IsWhole)
    (x0 : Vec F S1024x64 .f32) (x1 : Vec F S64x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__mm_kernel i arg1 harg1 arg2 harg2 arg3 harg3 arg4 harg4) K := by
  simp only [cc2__mm_kernel_eq_skeleton]; unfold cc2__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- Region 2's proof data on core c: the arrays as the region finds them; after the body at point t each input's buffer
    at its block and the output's at out2_3 of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so sound_kernel2 applies; the invariant and the core's
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3: a matrix product with bias, one grid point per 1024 rows. At a point the body reads the point's 1024 × 512
  rows, the whole 512 × 128 weight and the 1 × 128 bias, and stores into the point's 1024 × 128 output block the product
  of the rows (rounded to bf16) with the weight, accumulated in f32, plus the bias broadcast along the rows. What the
  output's buffer holds after the body is that one store's value of the three input blocks.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! The body's accesses: each buffer whole. -/
abbrev r3_x : Rect S1024x512 := Rect.unit (s := S1024x512) ![0, 0] S1024x512.size inb_S1024x512_S1024x512_0_0
abbrev r3_w : Rect S512x128 := Rect.unit (s := S512x128) ![0, 0] S512x128.size inb_S512x128_S512x128_0_0
abbrev r3_b : Rect S1x128 := Rect.unit (s := S1x128) ![0, 0] S1x128.size inb_S1x128_S1x128_0_0
abbrev r3_o : Rect S1024x128 := Rect.unit (s := S1024x128) ![0, 0] S1024x128.size inb_S1024x128_S1024x128_0_0

/-- The output's buffer after the body: its one store, of the product plus the bias, over the three input blocks. -/
def out3_3 (x0 : Vec F S1024x512 .f32) (x1 : Vec F S512x128 .bf16) (x2 : Vec F S1x128 .f32) : Vec F S1024x128 .f32 :=
  View.canon [⟨r3_o, k3_pay1 (View.ld x0 r3_x) (View.ld x1 r3_w) (View.ld x2 r3_b)⟩]

/-- The store is of the whole buffer, so it covers it. -/
theorem cover3_3 (p0 : Vec F S1024x128 .f32) (y : S1024x128.Idx) :
    ∃ pc ∈ ([⟨r3_o, p0⟩] : List (View.Piece (Elt F) S1024x128 .f32)), y ∈ pc.1.set :=
  View.cover_of_tiled [⟨r3_o, p0⟩] S1024x128.size (by rfl) y

set_option maxHeartbeats 1000000 in
/-- The body on whole staging memrefs, the inputs' at read contents and the output's at anything, runs to the continuation
    holding the inputs' as they were and the output's at out3_3 of them. -/
theorem sound_kernel3 (c : Dev nD) (E : Set ℕ) (i : grid3.Coords)
    (arg1 : Memref sig .tc .vmem S1024x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S1024x128 .f32) (harg4 : arg4.IsWhole)
    (x0 : Vec F S1024x512 .f32) (x1 : Vec F S512x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__mm_kernel i arg1 harg1 arg2 harg2 arg3 harg3 arg4 harg4) K := by
  simp only [cc3__mm_kernel_eq_skeleton]; unfold cc3__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The proof data -/

/-- Region 3's proof data on core c: the arrays as the region finds them; after the body at point t each input's buffer
    at its block and the output's at out3_3 of the input blocks; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so sound_kernel3 applies; the invariant and the core's
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/-
  Region 4: a matrix product with bias, one grid point per 1024 rows. At a point the body reads the point's 1024 × 512
  rows, the whole 512 × 64 weight and the 1 × 64 bias, and stores into the point's 1024 × 64 output block the product
  of the rows (rounded to bf16) with the weight, accumulated in f32, plus the bias broadcast along the rows. What the
  output's buffer holds after the body is that one store's value of the three input blocks.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! The body's accesses: each buffer whole. -/
abbrev r4_x : Rect S1024x512 := Rect.unit (s := S1024x512) ![0, 0] S1024x512.size inb_S1024x512_S1024x512_0_0
abbrev r4_w : Rect S512x64 := Rect.unit (s := S512x64) ![0, 0] S512x64.size inb_S512x64_S512x64_0_0
abbrev r4_b : Rect S1x64 := Rect.unit (s := S1x64) ![0, 0] S1x64.size inb_S1x64_S1x64_0_0
abbrev r4_o : Rect S1024x64 := Rect.unit (s := S1024x64) ![0, 0] S1024x64.size inb_S1024x64_S1024x64_0_0

/-- The output's buffer after the body: its one store, of the product plus the bias, over the three input blocks. -/
def out4_3 (x0 : Vec F S1024x512 .f32) (x1 : Vec F S512x64 .bf16) (x2 : Vec F S1x64 .f32) : Vec F S1024x64 .f32 :=
  View.canon [⟨r4_o, k4_pay1 (View.ld x0 r4_x) (View.ld x1 r4_w) (View.ld x2 r4_b)⟩]

/-- The store is of the whole buffer, so it covers it. -/
theorem cover4_3 (p0 : Vec F S1024x64 .f32) (y : S1024x64.Idx) :
    ∃ pc ∈ ([⟨r4_o, p0⟩] : List (View.Piece (Elt F) S1024x64 .f32)), y ∈ pc.1.set :=
  View.cover_of_tiled [⟨r4_o, p0⟩] S1024x64.size (by rfl) y

set_option maxHeartbeats 1000000 in
/-- The body on whole staging memrefs, the inputs' at read contents and the output's at anything, runs to the continuation
    holding the inputs' as they were and the output's at out4_3 of them. -/
theorem sound_kernel4 (c : Dev nD) (E : Set ℕ) (i : grid4.Coords)
    (arg1 : Memref sig .tc .vmem S1024x512 .f32) (harg1 : arg1.IsWhole) (arg2 : Memref sig .tc .vmem S512x64 .bf16) (harg2 : arg2.IsWhole)
    (arg3 : Memref sig .tc .vmem S1x64 .f32) (harg3 : arg3.IsWhole) (arg4 : Memref sig .tc .vmem S1024x64 .f32) (harg4 : arg4.IsWhole)
    (x0 : Vec F S1024x512 .f32) (x1 : Vec F S512x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__mm_kernel i arg1 harg1 arg2 harg2 arg3 harg3 arg4 harg4) K := by
  simp only [cc4__mm_kernel_eq_skeleton]; unfold cc4__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The proof data -/

/-- Region 4's proof data on core c: the arrays as the region finds them; after the body at point t each input's buffer
    at its block and the output's at out4_3 of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so sound_kernel4 applies; the invariant and the core's
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/-
  Region 5: attention of a block of queries over the whole of the keys and values, one grid point per 512 query rows. At
  a point the body reads the point's 512 × 64 queries and the whole 8192 × 64 keys and 8192 × 64 values, and stores into
  the point's 512 × 64 output block the softmax-weighted sum: the scores are the queries times the transposed keys (both
  rounded to bf16) scaled by 1/8; each row's scores have the row's maximum subtracted and are exponentiated; the
  exponentials (rounded to bf16) times the values (rounded to bf16) are divided by the row's sum of exponentials. What
  the output's buffer holds after the body is that one store's value of the three input blocks.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! The body's accesses: each buffer whole. -/
abbrev r5_q : Rect S512x64 := Rect.unit (s := S512x64) ![0, 0] S512x64.size inb_S512x64_S512x64_0_0
abbrev r5_k : Rect S8192x64 := Rect.unit (s := S8192x64) ![0, 0] S8192x64.size inb_S8192x64_S8192x64_0_0
abbrev r5_v : Rect S8192x64 := Rect.unit (s := S8192x64) ![0, 0] S8192x64.size inb_S8192x64_S8192x64_0_0
abbrev r5_o : Rect S512x64 := Rect.unit (s := S512x64) ![0, 0] S512x64.size inb_S512x64_S512x64_0_0

/-- The output's buffer after the body: its one store, of the softmax-weighted sum of the values, over the three input blocks. -/
def out5_3 (x0 : Vec F S512x64 .f32) (x1 : Vec F S8192x64 .f32) (x2 : Vec F S8192x64 .f32) : Vec F S512x64 .f32 :=
  View.canon [⟨r5_o, k5_pay1 (View.ld x0 r5_q) (View.ld x1 r5_k) (View.ld x2 r5_v)⟩]

/-- The store is of the whole buffer, so it covers it. -/
theorem cover5_3 (p0 : Vec F S512x64 .f32) (y : S512x64.Idx) :
    ∃ pc ∈ ([⟨r5_o, p0⟩] : List (View.Piece (Elt F) S512x64 .f32)), y ∈ pc.1.set :=
  View.cover_of_tiled [⟨r5_o, p0⟩] S512x64.size (by rfl) y

set_option maxHeartbeats 1000000 in
/-- The body on whole staging memrefs, the inputs' at read contents and the output's at anything, runs to the continuation
    holding the inputs' as they were and the output's at out5_3 of them. -/
theorem sound_kernel5 (c : Dev nD) (E : Set ℕ) (i : grid5.Coords)
    (arg1 : Memref sig .tc .vmem S512x64 .f32) (harg1 : arg1.IsWhole) (arg2 : Memref sig .tc .vmem S8192x64 .f32) (harg2 : arg2.IsWhole)
    (arg3 : Memref sig .tc .vmem S8192x64 .f32) (harg3 : arg3.IsWhole) (arg4 : Memref sig .tc .vmem S512x64 .f32) (harg4 : arg4.IsWhole)
    (x0 : Vec F S512x64 .f32) (x1 : Vec F S8192x64 .f32) (x2 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__xattn_kernel i arg1 harg1 arg2 harg2 arg3 harg3 arg4 harg4) K := by
  simp only [cc5__xattn_kernel_eq_skeleton]; unfold cc5__xattn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The proof data -/

/-- Region 5's proof data on core c: the arrays as the region finds them; after the body at point t each input's buffer
    at its block and the output's at out5_3 of the input blocks; the invariant the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so sound_kernel5 applies; the invariant and the core's
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/-
  Region 6: a projection added to a residual, then layer-normalised, one grid point per 1024 rows. At a point the body
  reads the point's 1024 × 64 rows, the whole 64 × 512 weight, the point's 1024 × 512 residual rows and the 1 × 512 scale
  and 1 × 512 shift, and stores into the point's 1024 × 512 output block: y = rows (rounded to bf16) times the weight,
  accumulated in f32, plus the residual; each row of y has its mean (sum over 512) subtracted, is multiplied by the
  reciprocal square root of its variance (sum of squared deviations over 512) plus 1e-5, then by the scale, and has the
  shift added, scale and shift broadcast along the rows. What the output's buffer holds after the body is that one
  store's value of the five input blocks.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! The body's accesses: each buffer whole. -/
abbrev r6_x : Rect S1024x64 := Rect.unit (s := S1024x64) ![0, 0] S1024x64.size inb_S1024x64_S1024x64_0_0
abbrev r6_w : Rect S64x512 := Rect.unit (s := S64x512) ![0, 0] S64x512.size inb_S64x512_S64x512_0_0
abbrev r6_r : Rect S1024x512 := Rect.unit (s := S1024x512) ![0, 0] S1024x512.size inb_S1024x512_S1024x512_0_0
abbrev r6_g : Rect S1x512 := Rect.unit (s := S1x512) ![0, 0] S1x512.size inb_S1x512_S1x512_0_0
abbrev r6_b : Rect S1x512 := Rect.unit (s := S1x512) ![0, 0] S1x512.size inb_S1x512_S1x512_0_0
abbrev r6_o : Rect S1024x512 := Rect.unit (s := S1024x512) ![0, 0] S1024x512.size inb_S1024x512_S1024x512_0_0

/-- The output's buffer after the body: its one store, of the normalised projection plus residual, over the five input
    blocks. -/
def out6_5 (x0 : Vec F S1024x64 .f32) (x1 : Vec F S64x512 .bf16) (x2 : Vec F S1024x512 .f32) (x3 : Vec F S1x512 .f32)
    (x4 : Vec F S1x512 .f32) : Vec F S1024x512 .f32 :=
  View.canon [⟨r6_o, k6_pay1 (View.ld x0 r6_x) (View.ld x1 r6_w) (View.ld x2 r6_r) (View.ld x3 r6_g) (View.ld x4 r6_b)⟩]

/-- The store is of the whole buffer, so it covers it. -/
theorem cover6_5 (p0 : Vec F S1024x512 .f32) (y : S1024x512.Idx) :
    ∃ pc ∈ ([⟨r6_o, p0⟩] : List (View.Piece (Elt F) S1024x512 .f32)), y ∈ pc.1.set :=
  View.cover_of_tiled [⟨r6_o, p0⟩] S1024x512.size (by rfl) y

set_option maxHeartbeats 1000000 in
/-- The body on whole staging memrefs, the inputs' at read contents and the output's at anything, runs to the continuation
    holding the inputs' as they were and the output's at out6_5 of them. -/
theorem sound_kernel6 (c : Dev nD) (E : Set ℕ) (i : grid6.Coords)
    (arg1 : Memref sig .tc .vmem S1024x64 .f32) (harg1 : arg1.IsWhole) (arg2 : Memref sig .tc .vmem S64x512 .bf16) (harg2 : arg2.IsWhole)
    (arg3 : Memref sig .tc .vmem S1024x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1024x512 .f32) (harg6 : arg6.IsWhole)
    (x0 : Vec F S1024x64 .f32) (x1 : Vec F S64x512 .bf16) (x2 : Vec F S1024x512 .f32) (x3 : Vec F S1x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__proj_ln_kernel i arg1 harg1 arg2 harg2 arg3 harg3 arg4 harg4 arg5 harg5 arg6 harg6) K := by
  simp only [cc6__proj_ln_kernel_eq_skeleton]; unfold cc6__proj_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The proof data -/

/-- Region 6's proof data on core c: the arrays as the region finds them; after the body at point t each input's buffer
    at its block and the output's at out6_5 of the input blocks; the invariant the scoped rest and the generator
    register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so sound_kernel6 applies; the invariant and the core's
    owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/-
  Region 7: a two-layer feed-forward block added to its input, then layer-normalised, one grid point per 1024 rows. At a
  point the body reads the point's 1024 × 512 rows x, the whole 512 × 2048 first weight and 1 × 2048 first bias, the
  whole 2048 × 512 second weight and 1 × 512 second bias, and the 1 × 512 scale and 1 × 512 shift, and stores into the
  point's 1024 × 512 output block: h = x (rounded to bf16) times the first weight, accumulated in f32, plus the first
  bias, with each negative entry multiplied by 0.01; y = h (rounded to bf16) times the second weight, accumulated in
  f32, plus the second bias, plus x; each row of y has its mean (sum over 512) subtracted, is multiplied by the
  reciprocal square root of its variance (sum of squared deviations over 512) plus 1e-5, then by the scale, and has the
  shift added, the biases, scale and shift broadcast along the rows. The centred rows and the reciprocal square roots
  are computed by the body's first part from the first five inputs; the store's value takes them and the last two
  inputs. What the output's buffer holds after the body is that one store's value of the seven input blocks.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! The body's accesses: each buffer whole. -/
abbrev r7_x : Rect S1024x512 := Rect.unit (s := S1024x512) ![0, 0] S1024x512.size inb_S1024x512_S1024x512_0_0
abbrev r7_w1 : Rect S512x2048 := Rect.unit (s := S512x2048) ![0, 0] S512x2048.size inb_S512x2048_S512x2048_0_0
abbrev r7_b1 : Rect S1x2048 := Rect.unit (s := S1x2048) ![0, 0] S1x2048.size inb_S1x2048_S1x2048_0_0
abbrev r7_w2 : Rect S2048x512 := Rect.unit (s := S2048x512) ![0, 0] S2048x512.size inb_S2048x512_S2048x512_0_0
abbrev r7_b2 : Rect S1x512 := Rect.unit (s := S1x512) ![0, 0] S1x512.size inb_S1x512_S1x512_0_0
abbrev r7_g : Rect S1x512 := Rect.unit (s := S1x512) ![0, 0] S1x512.size inb_S1x512_S1x512_0_0
abbrev r7_b : Rect S1x512 := Rect.unit (s := S1x512) ![0, 0] S1x512.size inb_S1x512_S1x512_0_0
abbrev r7_o : Rect S1024x512 := Rect.unit (s := S1024x512) ![0, 0] S1024x512.size inb_S1024x512_S1024x512_0_0

/-- The output's buffer after the body: its one store, of the normalised feed-forward block plus input, over the seven
    input blocks: the centred rows and the reciprocal square roots of the first five, then the scale and the shift. -/
def out7_7 (x0 : Vec F S1024x512 .f32) (x1 : Vec F S512x2048 .bf16) (x2 : Vec F S1x2048 .f32) (x3 : Vec F S2048x512 .bf16)
    (x4 : Vec F S1x512 .f32) (x5 : Vec F S1x512 .f32) (x6 : Vec F S1x512 .f32) : Vec F S1024x512 .f32 :=
  View.canon [⟨r7_o, k7_pay1
    (k7_pay4 (View.ld x0 r7_x) (View.ld x1 r7_w1) (View.ld x2 r7_b1) (View.ld x3 r7_w2) (View.ld x4 r7_b2))
    (k7_pay5 (View.ld x0 r7_x) (View.ld x1 r7_w1) (View.ld x2 r7_b1) (View.ld x3 r7_w2) (View.ld x4 r7_b2))
    (View.ld x5 r7_g) (View.ld x6 r7_b)⟩]

/-- The store is of the whole buffer, so it covers it. -/
theorem cover7_7 (p0 : Vec F S1024x512 .f32) (y : S1024x512.Idx) :
    ∃ pc ∈ ([⟨r7_o, p0⟩] : List (View.Piece (Elt F) S1024x512 .f32)), y ∈ pc.1.set :=
  View.cover_of_tiled [⟨r7_o, p0⟩] S1024x512.size (by rfl) y

set_option maxHeartbeats 1000000 in
/-- The body on whole staging memrefs, the inputs' at read contents and the output's at anything, runs to the continuation
    holding the inputs' as they were and the output's at out7_7 of them. -/
theorem sound_kernel7 (c : Dev nD) (E : Set ℕ) (i : grid7.Coords)
    (arg1 : Memref sig .tc .vmem S1024x512 .f32) (harg1 : arg1.IsWhole) (arg2 : Memref sig .tc .vmem S512x2048 .bf16) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1024x512 .f32) (harg8 : arg8.IsWhole)
    (x0 : Vec F S1024x512 .f32) (x1 : Vec F S512x2048 .bf16) (x2 : Vec F S1x2048 .f32) (x3 : Vec F S2048x512 .bf16)
    (x4 : Vec F S1x512 .f32) (x5 : Vec F S1x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out7_7 x0 x1 x2 x3 x4 x5 x6)) -∗ K ⟨⟩))
      ⊢ wp frame (wpE (defs₀ (F := F)) Variants.none c none) E
          (cc7__ffn_ln_kernel i arg1 harg1 arg2 harg2 arg3 harg3 arg4 harg4 arg5 harg5 arg6 harg6 arg7 harg7 arg8 harg8) K := by
  simp only [cc7__ffn_ln_kernel_eq_skeleton]; unfold cc7__ffn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The proof data -/

/-- Region 7's proof data on core c: the arrays as the region finds them; after the body at point t each input's buffer
    at its block and the output's at out7_7 of the input blocks; the invariant the scoped rest and the generator
    register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t)
        (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) :
    (dat7 V c).after 7 t = out7_7 (iblk7 V c 0 t) (iblk7 V c 1 t) (iblk7 V c 2 t) (iblk7 V c 3 t) (iblk7 V c 4 t) (iblk7 V c 5 t)
      (iblk7 V c 6 t) := by
  dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks, so sound_kernel7 applies; the invariant and the core's
    owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _
    (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Chain.lean ====
/-
  What every unscoped buffer of a core holds at each boundary between two items of the program — the launch memory, then each
  stretch of host operations applied in order, and at a region's exit its arrays at what the region's write-backs leave
  (an input array as entered, an output array with every written block in place) and every other buffer as entered.
  W0 is the launch; W1 … W15 the fifteen items' exits.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R0
import proofs.«172065_j32710470926956_2_alg».proof.Proof.KI.R1.Body
import proofs.«172065_j32710470926956_2_alg».proof.Proof.KI.R2
import proofs.«172065_j32710470926956_2_alg».proof.Proof.KI.R3
import proofs.«172065_j32710470926956_2_alg».proof.Proof.KI.R4
import proofs.«172065_j32710470926956_2_alg».proof.Proof.KI.R5
import proofs.«172065_j32710470926956_2_alg».proof.Proof.KI.R6
import proofs.«172065_j32710470926956_2_alg».proof.Proof.KI.R7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host operations before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host operations before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, the output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host operations before region 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves (the inputs as entered, the output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host operations before region 4. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves (the inputs as entered, the output's write-backs folded), every
    other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- At region 5's exit: its arrays at what the pipeline leaves (the inputs as entered, the output's write-backs folded), every
    other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- After the host operations before region 6. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b
/-- At region 6's exit: its arrays at what the pipeline leaves (the inputs as entered, the output's write-backs folded), every
    other buffer as entered. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)
/-- After the host operations before region 7. -/
abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b
/-- At region 7's exit: its arrays at what the pipeline leaves (the inputs as entered, the output's write-backs folded), every
    other buffer as entered. -/
def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
abbrev V15 : (c : Dev nD) → (b : Ref sig .tc) → Buf (Elt F) ((c : Thread nD τ).loc b) := fun c b => W15 m ρ c b
theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

end Cert.KernelIdeal.Hand

end
-- ==== Proof.KI.Recs.lean ====
/-
  The proof data of all eight regions, each at its region's entry contents, and each region as a segment of the program over
  one thread state: every unscoped buffer at the boundary's contents, the generator register at some state, nothing owed.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V10 m ρ) c
  | ⟨6, _⟩ => fun c => dat6 (V12 m ρ) c
  | ⟨7, _⟩ => fun c => dat7 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- Region 0 over the thread state: entered from every unscoped buffer at W1, left at W2. Its arrays are split out of the
    unscoped buffers and put back at the exit contents; the generator register goes into the invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at W3, left at W4. Its arrays are split out of the
    unscoped buffers and put back at the exit contents; the generator register goes into the invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at W5, left at W6. Its arrays are split out of the
    unscoped buffers and put back at the exit contents; the generator register goes into the invariant and comes out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at W7, left at W8. Its arrays are split out of the
    unscoped buffers and put back at the exit contents; the generator register goes into the invariant and comes out;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at W9, left at W10. Its arrays are split out of the
    unscoped buffers and put back at the exit contents; the generator register goes into the invariant and comes out;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 over the thread state: entered from every unscoped buffer at W10, left at W11. Its arrays are split out of the
    unscoped buffers and put back at the exit contents; the generator register goes into the invariant and comes out;
    nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 over the thread state: entered from every unscoped buffer at W12, left at W13. Its arrays are split out of the
    unscoped buffers and put back at the exit contents; the generator register goes into the invariant and comes out;
    nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 over the thread state: entered from every unscoped buffer at W14, left at W15. Its arrays are split out of the
    unscoped buffers and put back at the exit contents; the generator register goes into the invariant and comes out;
    nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Main.lean ====
/-
  The program as fifteen segments — seven stretches of host operations and eight regions — and its run: every weakly fair
  execution terminates, nothing faulting, with every unscoped buffer of every core at the last boundary's contents W15.
  Read at an argument that is the launch memory (no stretch writes an argument and no region's output is one); read at the
  result it is the last region's output array.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.Recs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host stretches as segments -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor

/-- A host stretch as a segment over the unscoped references from the contents W, the generator register and the empty debt
    riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every unscoped buffer at W15, the generator register at some state. -/
abbrev Tₙ (c : Dev nD) : sProp 𝕄 := iprop(StableHlo.held (c : Thread nD τ) (Pipeline.ucRefs τ sig) (W15 m ρ c) ∗ ∃ r, prngReg c r)

/-- The program's fifteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .region (reg5 m ρ),
    .host (hseg hostOps6 hostOps6_sub hostOps6_fresh (W11 m ρ)),
    .region (reg6 m ρ),
    .host (hseg hostOps7 hostOps7_sub hostOps7_fresh (W13 m ρ)),
    .region (reg7 m ρ) ]

/-- The program is the run of the segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting, and
    in every final state every unscoped buffer of every core holds the last boundary's contents. -/
theorem run_all : θ_run defs (onTc (τ := τ) (main (F := F))) ⟨m, fun _ => 0, ρ⟩ (fun r => ∀ (c : Dev nD),
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => by
        show iprop(StableHlo.held (c : Thread nD τ) (Pipeline.ucRefs τ sig) (W15 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Hand

end
-- ==== Proof.KI.Frame.lean ====
/-
  The frame of the idealized kernel: a buffer that no stretch of host operations writes and that is no region's output array
  holds at the last boundary what it held at launch — each region reads its input arrays back as entered and touches nothing
  else, each host operation writes only its own result. The fifteen arguments are such buffers.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.Main
import proofs.«172065_j32710470926956_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem keepH0 (c : Dev nD) (b : Ref sig .tc) (hb : b ∉ Cert.KernelIdeal.Gen.hostOps0_W) :
    W1 m ρ c (Proc.devRef .tc b) = W0 m ρ c (Proc.devRef .tc b) :=
  StableHlo.after_of_writes_sub hostOps0 _ Cert.KernelIdeal.Gen.hostOps0_writes hb
/-- Region 0 leaves every buffer but its output array as entered: an input array is read back as entered, and a buffer that is
    no array of the region is untouched. -/
theorem keepR0 (c : Dev nD) (b : Ref sig .tc) (hb : b ≠ main_v15) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W2_arr m ρ c w).trans (((dat0 (Hand.V1 m ρ) c).arrAt_in w hw _).trans (A_eq0 (Hand.V1 m ρ) c w))
  · exact W2_of_ne m ρ c b fun w e => h ⟨w, e⟩
theorem keepH1 (c : Dev nD) (b : Ref sig .tc) (hb : b ∉ Cert.KernelIdeal.Gen.hostOps1_W) :
    W3 m ρ c (Proc.devRef .tc b) = W2 m ρ c (Proc.devRef .tc b) :=
  StableHlo.after_of_writes_sub hostOps1 _ Cert.KernelIdeal.Gen.hostOps1_writes hb
/-- Region 1 leaves every buffer but its output array as entered: an input array is read back as entered, and a buffer that is
    no array of the region is untouched. -/
theorem keepR1 (c : Dev nD) (b : Ref sig .tc) (hb : b ≠ main_v19) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W4_arr m ρ c w).trans (((dat1 (Hand.V3 m ρ) c).arrAt_in w hw _).trans (A_eq1 (Hand.V3 m ρ) c w))
  · exact W4_of_ne m ρ c b fun w e => h ⟨w, e⟩
theorem keepH2 (c : Dev nD) (b : Ref sig .tc) (hb : b ∉ Cert.KernelIdeal.Gen.hostOps2_W) :
    W5 m ρ c (Proc.devRef .tc b) = W4 m ρ c (Proc.devRef .tc b) :=
  StableHlo.after_of_writes_sub hostOps2 _ Cert.KernelIdeal.Gen.hostOps2_writes hb
/-- Region 2 leaves every buffer but its output array as entered: an input array is read back as entered, and a buffer that is
    no array of the region is untouched. -/
theorem keepR2 (c : Dev nD) (b : Ref sig .tc) (hb : b ≠ main_v21) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W6_arr m ρ c w).trans (((dat2 (Hand.V5 m ρ) c).arrAt_in w hw _).trans (A_eq2 (Hand.V5 m ρ) c w))
  · exact W6_of_ne m ρ c b fun w e => h ⟨w, e⟩
theorem keepH3 (c : Dev nD) (b : Ref sig .tc) (hb : b ∉ Cert.KernelIdeal.Gen.hostOps3_W) :
    W7 m ρ c (Proc.devRef .tc b) = W6 m ρ c (Proc.devRef .tc b) :=
  StableHlo.after_of_writes_sub hostOps3 _ Cert.KernelIdeal.Gen.hostOps3_writes hb
/-- Region 3 leaves every buffer but its output array as entered: an input array is read back as entered, and a buffer that is
    no array of the region is untouched. -/
theorem keepR3 (c : Dev nD) (b : Ref sig .tc) (hb : b ≠ main_v23) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W8_arr m ρ c w).trans (((dat3 (Hand.V7 m ρ) c).arrAt_in w hw _).trans (A_eq3 (Hand.V7 m ρ) c w))
  · exact W8_of_ne m ρ c b fun w e => h ⟨w, e⟩
theorem keepH4 (c : Dev nD) (b : Ref sig .tc) (hb : b ∉ Cert.KernelIdeal.Gen.hostOps4_W) :
    W9 m ρ c (Proc.devRef .tc b) = W8 m ρ c (Proc.devRef .tc b) :=
  StableHlo.after_of_writes_sub hostOps4 _ Cert.KernelIdeal.Gen.hostOps4_writes hb
/-- Region 4 leaves every buffer but its output array as entered: an input array is read back as entered, and a buffer that is
    no array of the region is untouched. -/
theorem keepR4 (c : Dev nD) (b : Ref sig .tc) (hb : b ≠ main_v27) :
    W10 m ρ c (Proc.devRef .tc b) = W9 m ρ c (Proc.devRef .tc b) := by
  by_cases h : ∃ w, Pipeline.arrRef spec4 w = b
  · obtain ⟨w, rfl⟩ := h
    have hw : (cfg4.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W10_arr m ρ c w).trans (((dat4 (Hand.V9 m ρ) c).arrAt_in w hw _).trans (A_eq4 (Hand.V9 m ρ) c w))
  · exact W10_of_ne m ρ c b fun w e => h ⟨w, e⟩
/-- Region 5 leaves every buffer but its output array as entered: an input array is read back as entered, and a buffer that is
    no array of the region is untouched. -/
theorem keepR5 (c : Dev nD) (b : Ref sig .tc) (hb : b ≠ main_v28) :
    W11 m ρ c (Proc.devRef .tc b) = W10 m ρ c (Proc.devRef .tc b) := by
  by_cases h : ∃ w, Pipeline.arrRef spec5 w = b
  · obtain ⟨w, rfl⟩ := h
    have hw : (cfg5.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W11_arr m ρ c w).trans (((dat5 (Hand.V10 m ρ) c).arrAt_in w hw _).trans (A_eq5 (Hand.V10 m ρ) c w))
  · exact W11_of_ne m ρ c b fun w e => h ⟨w, e⟩
theorem keepH6 (c : Dev nD) (b : Ref sig .tc) (hb : b ∉ Cert.KernelIdeal.Gen.hostOps6_W) :
    W12 m ρ c (Proc.devRef .tc b) = W11 m ρ c (Proc.devRef .tc b) :=
  StableHlo.after_of_writes_sub hostOps6 _ Cert.KernelIdeal.Gen.hostOps6_writes hb
/-- Region 6 leaves every buffer but its output array as entered. -/
theorem keepR6 (c : Dev nD) (b : Ref sig .tc) (hb : b ≠ main_v31) :
    W13 m ρ c (Proc.devRef .tc b) = W12 m ρ c (Proc.devRef .tc b) := by
  by_cases h : ∃ w, Pipeline.arrRef spec6 w = b
  · obtain ⟨w, rfl⟩ := h
    have hw : (cfg6.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
      | ⟨_ + 6, h⟩, _ => exact absurd h (Nat.not_lt.2 (Nat.le_add_left _ _))
    exact (W13_arr m ρ c w).trans (((dat6 (Hand.V12 m ρ) c).arrAt_in w hw _).trans (A_eq6 (Hand.V12 m ρ) c w))
  · exact W13_of_ne m ρ c b fun w e => h ⟨w, e⟩
theorem keepH7 (c : Dev nD) (b : Ref sig .tc) (hb : b ∉ Cert.KernelIdeal.Gen.hostOps7_W) :
    W14 m ρ c (Proc.devRef .tc b) = W13 m ρ c (Proc.devRef .tc b) :=
  StableHlo.after_of_writes_sub hostOps7 _ Cert.KernelIdeal.Gen.hostOps7_writes hb
/-- Region 7 leaves every buffer but its output array as entered. -/
theorem keepR7 (c : Dev nD) (b : Ref sig .tc) (hb : b ≠ main_v36) :
    W15 m ρ c (Proc.devRef .tc b) = W14 m ρ c (Proc.devRef .tc b) := by
  by_cases h : ∃ w, Pipeline.arrRef spec7 w = b
  · obtain ⟨w, rfl⟩ := h
    have hw : (cfg7.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
      | ⟨_ + 8, h⟩, _ => exact absurd h (Nat.not_lt.2 (Nat.le_add_left _ _))
    exact (W15_arr m ρ c w).trans (((dat7 (Hand.V14 m ρ) c).arrAt_in w hw _).trans (A_eq7 (Hand.V14 m ρ) c w))
  · exact W15_of_ne m ρ c b fun w e => h ⟨w, e⟩

/-- A buffer none of the fifteen items writes holds at the end what it held at launch. -/
theorem kept (c : Dev nD) (b : Ref sig .tc)
    (h0 : b ∉ Cert.KernelIdeal.Gen.hostOps0_W) (h1 : b ≠ main_v15) (h2 : b ∉ Cert.KernelIdeal.Gen.hostOps1_W) (h3 : b ≠ main_v19)
    (h4 : b ∉ Cert.KernelIdeal.Gen.hostOps2_W) (h5 : b ≠ main_v21) (h6 : b ∉ Cert.KernelIdeal.Gen.hostOps3_W) (h7 : b ≠ main_v23)
    (h8 : b ∉ Cert.KernelIdeal.Gen.hostOps4_W) (h9 : b ≠ main_v27) (h10 : b ≠ main_v28) (h11 : b ∉ Cert.KernelIdeal.Gen.hostOps6_W)
    (h12 : b ≠ main_v31) (h13 : b ∉ Cert.KernelIdeal.Gen.hostOps7_W) (h14 : b ≠ main_v36) :
    W15 m ρ c (Proc.devRef .tc b) = m ((c : Thread nD τ).loc b) :=
  (keepR7 m ρ c b h14).trans <| (keepH7 m ρ c b h13).trans <| (keepR6 m ρ c b h12).trans <| (keepH6 m ρ c b h11).trans <|
  (keepR5 m ρ c b h10).trans <| (keepR4 m ρ c b h9).trans <| (keepH4 m ρ c b h8).trans <| (keepR3 m ρ c b h7).trans <|
  (keepH3 m ρ c b h6).trans <| (keepR2 m ρ c b h5).trans <| (keepH2 m ρ c b h4).trans <| (keepR1 m ρ c b h3).trans <|
  (keepH1 m ρ c b h2).trans <| (keepR0 m ρ c b h1).trans <| (keepH0 m ρ c b h0).trans rfl

/-- The result buffer at the last boundary is the last region's output array. -/
theorem W15_out (c : Dev nD) : W15 m ρ c (Proc.devRef .tc main_v36) = (dat7 (Hand.V14 m ρ) c).arrAt 7 cfg7.N :=
  W15_arr m ρ c 7

/-- THE FRAME of the idealized kernel, at any float values: every weakly fair execution terminates, nothing faulting, and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
        (h c _ (mem_uc main_arg0 (by decide))).trans (kept m ρ c main_arg0 (by decide) (by decide) (by decide) (by decide) (by decide) (by decide) (by decide) (by decide) (by decide) (by decide) (by decide) (by decide) (by decide) (by decide) (by decide)),
        (h c _ (mem_uc main_arg1 (by decide))).trans (kept m ρ c main_arg1 (by decide) (by decide) (by decide) (by decide) (by decide) (by decide) (by decide) (by decide) (by decide) (by decide) (by decide) (by decide) (by decide) (by decide) (by decide)),
        (h c _ (mem_uc main_arg2 (by decide))).trans (kept m ρ c main_arg2 (by decide) (by decide) (by decide) (by decide) (by decide) (by decide) (by decide) (by decide) (by decide) (by decide) (by decide) (by decide) (by decide) (by decide) (by decide)),
        (h c _ (mem_uc main_arg3 (by decide))).trans (kept m ρ c main_arg3 (by decide) (by decide) (by decide) (by decide) (by decide) (by decide) (by decide) (by decide) (by decide) (by decide) (by decide) (by decide) (by decide) (by decide) (by decide)),
        (h c _ (mem_uc main_arg4 (by decide))).trans (kept m ρ c main_arg4 (by decide) (by decide) (by decide) (by decide) (by decide) (by decide) (by decide) (by decide) (by decide) (by decide) (by decide) (by decide) (by decide) (by decide) (by decide)),
        (h c _ (mem_uc main_arg5 (by decide))).trans (kept m ρ c main_arg5 (by decide) (by decide) (by decide) (by decide) (by decide) (by decide) (by decide) (by decide) (by decide) (by decide) (by decide) (by decide) (by decide) (by decide) (by decide)),
        (h c _ (mem_uc main_arg6 (by decide))).trans (kept m ρ c main_arg6 (by decide) (by decide) (by decide) (by decide) (by decide) (by decide) (by decide) (by decide) (by decide) (by decide) (by decide) (by decide) (by decide) (by decide) (by decide)),
        (h c _ (mem_uc main_arg7 (by decide))).trans (kept m ρ c main_arg7 (by decide) (by decide) (by decide) (by decide) (by decide) (by decide) (by decide) (by decide) (by decide) (by decide) (by decide) (by decide) (by decide) (by decide) (by decide)),
        (h c _ (mem_uc main_arg8 (by decide))).trans (kept m ρ c main_arg8 (by decide) (by decide) (by decide) (by decide) (by decide) (by decide) (by decide) (by decide) (by decide) (by decide) (by decide) (by decide) (by decide) (by decide) (by decide)),
        (h c _ (mem_uc main_arg9 (by decide))).trans (kept m ρ c main_arg9 (by decide) (by decide) (by decide) (by decide) (by decide) (by decide) (by decide) (by decide) (by decide) (by decide) (by decide) (by decide) (by decide) (by decide) (by decide)),
        (h c _ (mem_uc main_arg10 (by decide))).trans (kept m ρ c main_arg10 (by decide) (by decide) (by decide) (by decide) (by decide) (by decide) (by decide) (by decide) (by decide) (by decide) (by decide) (by decide) (by decide) (by decide) (by decide)),
        (h c _ (mem_uc main_arg11 (by decide))).trans (kept m ρ c main_arg11 (by decide) (by decide) (by decide) (by decide) (by decide) (by decide) (by decide) (by decide) (by decide) (by decide) (by decide) (by decide) (by decide) (by decide) (by decide)),
        (h c _ (mem_uc main_arg12 (by decide))).trans (kept m ρ c main_arg12 (by decide) (by decide) (by decide) (by decide) (by decide) (by decide) (by decide) (by decide) (by decide) (by decide) (by decide) (by decide) (by decide) (by decide) (by decide)),
        (h c _ (mem_uc main_arg13 (by decide))).trans (kept m ρ c main_arg13 (by decide) (by decide) (by decide) (by decide) (by decide) (by decide) (by decide) (by decide) (by decide) (by decide) (by decide) (by decide) (by decide) (by decide) (by decide)),
        (h c _ (mem_uc main_arg14 (by decide))).trans (kept m ρ c main_arg14 (by decide) (by decide) (by decide) (by decide) (by decide) (by decide) (by decide) (by decide) (by decide) (by decide) (by decide) (by decide) (by decide) (by decide) (by decide))⟩) (run_all m ρ)

end Cert.KernelIdeal.Hand

end
-- ==== Proof.K.R0.lean ====
/-
  Region 0: the fused projection of the previous stage's output, one grid point per 1024 rows. At a point the body
  reads the point's 1024 × 512 rows, the whole 512 × 192 weight (the three projections' columns side by side) and the
  1 × 192 bias, and stores into the point's 1024 × 192 output block the product plus the bias broadcast along the rows.
  What the output's buffer holds after the body is that one store's value of the three input blocks.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: each buffer whole. -/
abbrev r0_x : Rect S1024x512 := Rect.unit (s := S1024x512) ![0, 0] S1024x512.size inb_S1024x512_S1024x512_0_0
abbrev r0_w : Rect S512x192 := Rect.unit (s := S512x192) ![0, 0] S512x192.size inb_S512x192_S512x192_0_0
abbrev r0_b : Rect S1x192 := Rect.unit (s := S1x192) ![0, 0] S1x192.size inb_S1x192_S1x192_0_0
abbrev r0_o : Rect S1024x192 := Rect.unit (s := S1024x192) ![0, 0] S1024x192.size inb_S1024x192_S1024x192_0_0

/-- The output's buffer after the body: its one store, of the product plus the bias, over the three input blocks. -/
def out0_3 (x0 : Vec F S1024x512 .f32) (x1 : Vec F S512x192 .bf16) (x2 : Vec F S1x192 .f32) : Vec F S1024x192 .f32 :=
  View.canon [⟨r0_o, k0_pay1 (View.ld x0 r0_x) (View.ld x1 r0_w) (View.ld x2 r0_b)⟩]

/-- The store is of the whole buffer, so it covers it. -/
theorem cover0_3 (p0 : Vec F S1024x192 .f32) (y : S1024x192.Idx) :
    ∃ pc ∈ ([⟨r0_o, p0⟩] : List (View.Piece (Elt F) S1024x192 .f32)), y ∈ pc.1.set :=
  View.cover_of_tiled [⟨r0_o, p0⟩] S1024x192.size (by rfl) y

set_option maxHeartbeats 1000000 in
/-- The body on whole staging memrefs, the inputs' at read contents and the output's at anything, runs to the continuation
    holding the inputs' as they were and the output's at out0_3 of them. -/
theorem sound_kernel0 (c : Dev nD) (E : Set ℕ) (i : grid0.Coords)
    (arg1 : Memref sig .tc .vmem S1024x512 .f32) (harg1 : arg1.IsWhole) (arg2 : Memref sig .tc .vmem S512x192 .bf16) (harg2 : arg2.IsWhole)
    (arg3 : Memref sig .tc .vmem S1x192 .f32) (harg3 : arg3.IsWhole) (arg4 : Memref sig .tc .vmem S1024x192 .f32) (harg4 : arg4.IsWhole)
    (x0 : Vec F S1024x512 .f32) (x1 : Vec F S512x192 .bf16) (x2 : Vec F S1x192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- Region 0's proof data on core c: the arrays as the region finds them; after the body at point t each input's buffer
    at its block and the output's at out0_3 of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so sound_kernel0 applies; the invariant and the core's
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.Shared.lean ====
/-
  Region 1, the causal attention, on an 8 × 8 grid: point (i, j) pairs query block i with key/value block min(i, j). The
  body keeps three scratch buffers between points — the running row maximum m, the running denominator l and the running
  numerator acc — and branches on three conditions of the coordinates: at j = 0 it seeds them (m at the stand-in for -∞,
  l and acc at zero); at j ≤ i it folds block j into them; at j = 7 it stores acc / l into the output block. The other
  points leave everything as it was. This module: the conditions in closed form over the grid, where the output window is
  idle (everywhere but j = 7), the blocks, and the invariant with the three scratch buffers as owned memrefs.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := (Scalar.cmpi .ne (Scalar.extui (Scalar.cmpi .sle (BitVec.ofNat 32 (i 1).val) (BitVec.ofNat 32 (i 0).val))) 0#32) = 1#1
theorem hcond1_1 : ∀ t : Fin cfg1.N, cond1_1 (grid1.coords t) ↔ t.val % 8 ≤ t.val / 8 :=
  (by decide +kernel : ∀ t : Fin grid1.N, cond1_1 (grid1.coords t) ↔ t.val % 8 ≤ t.val / 8)

abbrev cond1_2 (i : grid1.Coords) : Prop := k1_cond3 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off j = 7 the body stores nothing into the output block: the window is idle there and not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs, the scratch, and the invariant with the scratch owned -/

/-- One staging buffer of the output window, through which its contents are stated. -/
abbrev VO1_3 : View sig .tc .vmem S1024x64 .f32 := (Memref.whole cc1_stg3_0 : Memref sig .tc .vmem S1024x64 .f32).view
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The scratch operands: whole scoped buffers of the kernel's own (the running maximum, denominator, numerator). -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-- What the rest of the scoped buffers is, beside the three scratch buffers. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
          ∗ (∃ d, owns (c : Thread nD τ) scM1_2 fullShare d)) ∗ rest1 c) ∗ (∃ r, prngReg c r)) := by
  unfold Pipeline.ΦA; rw [scopedRest1_split]; simp only [scM1_0, scM1_1, scM1_2, owns_whole]; try rfl

end Cert.Kernel.Hand

end
-- ==== Proof.K.R1.RunB.lean ====
/-
  The flash body at a point with 0 < j ≤ i and j < 7: the seeding and the final division are skipped; block j is folded into
  the carried maximum, denominator and numerator. The body's triple, with the pieces each scratch buffer ends with found by
  running it.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.R1.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i) (hc2 : ¬cond1_2 i)
    (x0 x1 x2 : Vec F S1024x64 .f32) (xs0 xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton, k1_part1_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.R1.RunA.lean ====
/-
  The flash body at j = 0: it seeds the running maximum at the stand-in for -∞ and the denominator and numerator at zero, then
  (0 ≤ i always) folds block 0 into them. The scratch buffers may hold anything before.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.R1.RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond1_0 i) (hc1 : cond1_1 i) (hc2 : ¬cond1_2 i)
    (x0 x1 x2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton, k1_part1_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.R1.RunC.lean ====
/-
  The flash body at a point with i < j < 7: all three branches are skipped; every buffer is handed back as found.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.R1.RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
theorem kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i) (hc2 : ¬cond1_2 i)
    (x0 x1 x2 xi3 : Vec F S1024x64 .f32) (xs0 xs1 : Vec F S1024x1 .f32) (xs2 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton, k1_part1_eq_skeleton]; unfold cc1__flash_kernel_skel
  iintro ⟨H0, H1, H2, H3, HS0, HS1, HS2, Hk⟩
  sl_exec (disch := first | exact hc0 | exact hc1 | exact hc2)
  sl_step
  iapply Hk
  isplitl [H0]; · iexact H0
  isplitl [H1]; · iexact H1
  isplitl [H2]; · iexact H2
  isplitl [H3]; · iexact H3
  isplitl [HS0]; · iexact HS0
  isplitl [HS1]; · iexact HS1
  iexact HS2

end Cert.Kernel.Hand

end
-- ==== Proof.K.R1.RunD.lean ====
/-
  The flash body at the last point of the last row, (7, 7): block 7 is folded into the carried state, and the numerator over the
  denominator is stored into the output block.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.R1.RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun1_D (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : cond1_1 i) (hc2 : cond1_2 i)
    (x0 x1 x2 : Vec F S1024x64 .f32) (xs0 xs1 : Vec F S1024x1 .f32) (xs2 : Vec F S1024x64 .f32) :
    Σ' (L3 : List (View.Piece (Elt F) S1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton, k1_part1_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1.RunE.lean ====
/-
  The flash body at j = 7 in a row i < 7: block 7 lies wholly after the row's positions and is skipped; the numerator over the
  denominator, as the earlier points left them, is stored into the output block. The scratch buffers are read, not written.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.R1.RunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
noncomputable def kernelRun1_E (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond1_0 i) (hc1 : ¬cond1_1 i) (hc2 : cond1_2 i)
    (x0 x1 x2 : Vec F S1024x64 .f32) (xs0 xs1 : Vec F S1024x1 .f32) (xs2 : Vec F S1024x64 .f32) :
    { L3 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, fun E K => ?run⟩
  case run =>
    simp only [cc1__flash_kernel_eq_skeleton, k1_part1_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.Kernel.Hand

end
-- ==== Proof.K.R1.Data.lean ====
/-
  Region 1, the causal attention: what the output block and the three scratch buffers hold after each grid point, the proof
  data, and the body obligation.

  Point t of the 64 is (i, j) = (t / 8, t % 8). The carried state after point t is the case's at t: at j = 0 the seeded state
  with block 0 folded in; at 0 < j ≤ i the previous state with block j folded in; at i < j < 7 the previous state; at j = 7 the
  output block receives numerator over denominator (after folding block 7 when i = 7). The output window is idle off j = 7.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.R1.RunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The output block and the scratch buffers (maximum, denominator, numerator). -/
abbrev St1 (F : FTy → Type) [FloatOps F] : Type :=
  Vec F S1024x64 .f32 × Vec F S1024x1 .f32 × Vec F S1024x1 .f32 × Vec F S1024x64 .f32

/-! ## The cases' runs at a grid point's memrefs -/

theorem c1_of_c0 {n : ℕ} (h0 : n % 8 = 0) : n % 8 ≤ n / 8 := by omega
theorem nc2_of_c0 {n : ℕ} (h0 : n % 8 = 0) : ¬ n % 8 = 7 := by omega

noncomputable def runA (c : Dev nD) (t : Fin cfg1.N) (h0 : t.val % 8 = 0) (x0 x1 x2 : Vec F S1024x64 .f32) :=
  kernelRun1_A (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    ((hcond1_0 t).mpr h0) ((hcond1_1 t).mpr (c1_of_c0 h0)) (fun h => nc2_of_c0 h0 ((hcond1_2 t).mp h)) x0 x1 x2

noncomputable def runB (c : Dev nD) (t : Fin cfg1.N) (h0 : ¬t.val % 8 = 0) (h1 : t.val % 8 ≤ t.val / 8) (h2 : ¬t.val % 8 = 7)
    (x0 x1 x2 : Vec F S1024x64 .f32) (xs0 xs1 : Vec F S1024x1 .f32) (xs2 : Vec F S1024x64 .f32) :=
  kernelRun1_B (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    (fun h => h0 ((hcond1_0 t).mp h)) ((hcond1_1 t).mpr h1) (fun h => h2 ((hcond1_2 t).mp h)) x0 x1 x2 xs0 xs1 xs2

noncomputable def runD (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) :=
  kernelRun1_D (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    (fun h => h0 ((hcond1_0 t).mp h)) ((hcond1_1 t).mpr h1) ((hcond1_2 t).mpr h2) x0 x1 x2 xs0 xs1 xs2

noncomputable def runE (c : Dev nD) (t : Fin cfg1.N) (h0 : ¬t.val % 8 = 0) (h1 : ¬t.val % 8 ≤ t.val / 8) (h2 : t.val % 8 = 7)
    (x0 x1 x2 : Vec F S1024x64 .f32) (xs0 xs1 : Vec F S1024x1 .f32) (xs2 : Vec F S1024x64 .f32) :=
  kernelRun1_E (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    (fun h => h0 ((hcond1_0 t).mp h)) (fun h => h1 ((hcond1_1 t).mp h)) ((hcond1_2 t).mpr h2) x0 x1 x2 xs0 xs1 xs2

/-! ## What each case leaves: its pieces read back -/

/-- The output block at a point where the window is idle: a placeholder nothing consults. -/
def outIdle1 : Vec F S1024x64 .f32 := VO1_3.read (Elt F) (VO1_3.writes (Elt F) VO1_3.junk [])

def stA (c : Dev nD) (t : Fin cfg1.N) (h0 : t.val % 8 = 0) : St1 F :=
  (outIdle1,
   VS1_0.read (Elt F) (VS1_0.writes (Elt F) VS1_0.junk (runA c t h0 (iblk1 V c 0 t) (iblk1 V c 1 t) (iblk1 V c 2 t)).1),
   VS1_1.read (Elt F) (VS1_1.writes (Elt F) VS1_1.junk (runA c t h0 (iblk1 V c 0 t) (iblk1 V c 1 t) (iblk1 V c 2 t)).2.1),
   VS1_2.read (Elt F) (VS1_2.writes (Elt F) VS1_2.junk (runA c t h0 (iblk1 V c 0 t) (iblk1 V c 1 t) (iblk1 V c 2 t)).2.2.1))

def stB (c : Dev nD) (t : Fin cfg1.N) (h0 : ¬t.val % 8 = 0) (h1 : t.val % 8 ≤ t.val / 8) (h2 : ¬t.val % 8 = 7) (p : St1 F) : St1 F :=
  (outIdle1,
   VS1_0.read (Elt F) (VS1_0.writes (Elt F) VS1_0.junk (runB c t h0 h1 h2 (iblk1 V c 0 t) (iblk1 V c 1 t) (iblk1 V c 2 t) p.2.1 p.2.2.1 p.2.2.2).1),
   VS1_1.read (Elt F) (VS1_1.writes (Elt F) VS1_1.junk (runB c t h0 h1 h2 (iblk1 V c 0 t) (iblk1 V c 1 t) (iblk1 V c 2 t) p.2.1 p.2.2.1 p.2.2.2).2.1),
   VS1_2.read (Elt F) (VS1_2.writes (Elt F) VS1_2.junk (runB c t h0 h1 h2 (iblk1 V c 0 t) (iblk1 V c 1 t) (iblk1 V c 2 t) p.2.1 p.2.2.1 p.2.2.2).2.2.1))

def stC (p : St1 F) : St1 F := (outIdle1, p.2.1, p.2.2.1, p.2.2.2)

def stD (c : Dev nD) (t : Fin cfg1.N) (h0 : ¬t.val % 8 = 0) (h1 : t.val % 8 ≤ t.val / 8) (h2 : t.val % 8 = 7) (p : St1 F) : St1 F :=
  (VO1_3.read (Elt F) (VO1_3.writes (Elt F) VO1_3.junk (runD c t h0 h1 h2 (iblk1 V c 0 t) (iblk1 V c 1 t) (iblk1 V c 2 t) p.2.1 p.2.2.1 p.2.2.2).1),
   VS1_0.read (Elt F) (VS1_0.writes (Elt F) VS1_0.junk (runD c t h0 h1 h2 (iblk1 V c 0 t) (iblk1 V c 1 t) (iblk1 V c 2 t) p.2.1 p.2.2.1 p.2.2.2).2.1),
   VS1_1.read (Elt F) (VS1_1.writes (Elt F) VS1_1.junk (runD c t h0 h1 h2 (iblk1 V c 0 t) (iblk1 V c 1 t) (iblk1 V c 2 t) p.2.1 p.2.2.1 p.2.2.2).2.2.1),
   VS1_2.read (Elt F) (VS1_2.writes (Elt F) VS1_2.junk (runD c t h0 h1 h2 (iblk1 V c 0 t) (iblk1 V c 1 t) (iblk1 V c 2 t) p.2.1 p.2.2.1 p.2.2.2).2.2.2.1))

def stE (c : Dev nD) (t : Fin cfg1.N) (h0 : ¬t.val % 8 = 0) (h1 : ¬t.val % 8 ≤ t.val / 8) (h2 : t.val % 8 = 7) (p : St1 F) : St1 F :=
  (VO1_3.read (Elt F) (VO1_3.writes (Elt F) VO1_3.junk (runE c t h0 h1 h2 (iblk1 V c 0 t) (iblk1 V c 1 t) (iblk1 V c 2 t) p.2.1 p.2.2.1 p.2.2.2).1),
   p.2.1, p.2.2.1, p.2.2.2)

/-! ## The state after each point -/

def outsAt1 (c : Dev nD) : (n : ℕ) → n < cfg1.N → St1 F
  | 0, hn => stA V c ⟨0, hn⟩ (Nat.zero_mod 8)
  | n + 1, hn =>
    if h0 : (n + 1) % 8 = 0 then stA V c ⟨n + 1, hn⟩ h0
    else if h1 : (n + 1) % 8 ≤ (n + 1) / 8 then
      if h2 : (n + 1) % 8 = 7 then stD V c ⟨n + 1, hn⟩ h0 h1 h2 (outsAt1 c n (Nat.lt_of_succ_lt hn))
      else stB V c ⟨n + 1, hn⟩ h0 h1 h2 (outsAt1 c n (Nat.lt_of_succ_lt hn))
    else
      if h2 : (n + 1) % 8 = 7 then stE V c ⟨n + 1, hn⟩ h0 h1 h2 (outsAt1 c n (Nat.lt_of_succ_lt hn))
      else stC (outsAt1 c n (Nat.lt_of_succ_lt hn))

/-- The state before point t, for t not the first. -/
abbrev prev1 (c : Dev nD) (t : Fin cfg1.N) : St1 F :=
  outsAt1 V c (t.val - 1) (Nat.lt_of_le_of_lt (Nat.sub_le _ _) t.isLt)

theorem outsAt1_A (c : Dev nD) (t : Fin cfg1.N) (h0 : t.val % 8 = 0) : outsAt1 V c t.val t.isLt = stA V c t h0 := by
  obtain ⟨n, hn⟩ := t
  cases n with
  | zero => rfl
  | succ n => exact dif_pos h0

theorem outsAt1_B (c : Dev nD) (t : Fin cfg1.N) (h0 : ¬t.val % 8 = 0) (h1 : t.val % 8 ≤ t.val / 8) (h2 : ¬t.val % 8 = 7) :
    outsAt1 V c t.val t.isLt = stB V c t h0 h1 h2 (prev1 V c t) := by
  obtain ⟨n, hn⟩ := t
  cases n with
  | zero => exact absurd (Nat.zero_mod 8) h0
  | succ n => exact (dif_neg h0).trans ((dif_pos h1).trans (dif_neg h2))

theorem outsAt1_C (c : Dev nD) (t : Fin cfg1.N) (h0 : ¬t.val % 8 = 0) (h1 : ¬t.val % 8 ≤ t.val / 8) (h2 : ¬t.val % 8 = 7) :
    outsAt1 V c t.val t.isLt = stC (prev1 V c t) := by
  obtain ⟨n, hn⟩ := t
  cases n with
  | zero => exact absurd (Nat.zero_mod 8) h0
  | succ n => exact (dif_neg h0).trans ((dif_neg h1).trans (dif_neg h2))

theorem outsAt1_D (c : Dev nD) (t : Fin cfg1.N) (h0 : ¬t.val % 8 = 0) (h1 : t.val % 8 ≤ t.val / 8) (h2 : t.val % 8 = 7) :
    outsAt1 V c t.val t.isLt = stD V c t h0 h1 h2 (prev1 V c t) := by
  obtain ⟨n, hn⟩ := t
  cases n with
  | zero => exact absurd (Nat.zero_mod 8) h0
  | succ n => exact (dif_neg h0).trans ((dif_pos h1).trans (dif_pos h2))

theorem outsAt1_E (c : Dev nD) (t : Fin cfg1.N) (h0 : ¬t.val % 8 = 0) (h1 : ¬t.val % 8 ≤ t.val / 8) (h2 : t.val % 8 = 7) :
    outsAt1 V c t.val t.isLt = stE V c t h0 h1 h2 (prev1 V c t) := by
  obtain ⟨n, hn⟩ := t
  cases n with
  | zero => exact absurd (Nat.zero_mod 8) h0
  | succ n => exact (dif_neg h0).trans ((dif_neg h1).trans (dif_pos h2))

/-! ## The invariant: the scratch buffers at the state the point before left -/

def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1
        ∗ owns (c : Thread nD τ) scM1_1 fullShare (outsAt1 V c n hn).2.2.1
        ∗ owns (c : Thread nD τ) scM1_2 fullShare (outsAt1 V c n hn).2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.1
        ∗ owns (c : Thread nD τ) scM1_1 fullShare (outsAt1 V c n hn).2.2.1
        ∗ owns (c : Thread nD τ) scM1_2 fullShare (outsAt1 V c n hn).2.2.2) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1
        ∗ owns (c : Thread nD τ) scM1_1 fullShare (outsAt1 V c (n - 1) (by omega)).2.2.1
        ∗ owns (c : Thread nD τ) scM1_2 fullShare (outsAt1 V c (n - 1) (by omega)).2.2.2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.K.R1.Body.lean ====
/-
  Region 1: the pieces each case stores cover the buffers they are stored into, and the body obligation at every point — by
  cases on the three conditions' closed forms; the invariant hands the body the scratch buffers at what the point before left
  (at anything before the first point) and takes them back at this point's state.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.R1.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The stores cover the buffers -/

theorem scoverA_0 (c : Dev nD) (t : Fin cfg1.N) (h0 : t.val % 8 = 0) (x0 x1 x2 : Vec F S1024x64 .f32) (y : S1024x1.Idx) :
    ∃ pc ∈ (runA (F := F) c t h0 x0 x1 x2).1, y ∈ pc.1.set :=
  View.cover_of_tiledL (runA (F := F) c t h0 x0 x1 x2).1 S1024x1.size (by sl_kernel_rfl) y
theorem scoverA_1 (c : Dev nD) (t : Fin cfg1.N) (h0 : t.val % 8 = 0) (x0 x1 x2 : Vec F S1024x64 .f32) (y : S1024x1.Idx) :
    ∃ pc ∈ (runA (F := F) c t h0 x0 x1 x2).2.1, y ∈ pc.1.set :=
  View.cover_of_tiledL (runA (F := F) c t h0 x0 x1 x2).2.1 S1024x1.size (by sl_kernel_rfl) y
theorem scoverA_2 (c : Dev nD) (t : Fin cfg1.N) (h0 : t.val % 8 = 0) (x0 x1 x2 : Vec F S1024x64 .f32) (y : S1024x64.Idx) :
    ∃ pc ∈ (runA (F := F) c t h0 x0 x1 x2).2.2.1, y ∈ pc.1.set :=
  View.cover_of_tiledL (runA (F := F) c t h0 x0 x1 x2).2.2.1 S1024x64.size (by sl_kernel_rfl) y

theorem scoverB_0 (c : Dev nD) (t : Fin cfg1.N) (h0 : ¬t.val % 8 = 0) (h1 : t.val % 8 ≤ t.val / 8) (h2 : ¬t.val % 8 = 7)
    (x0 x1 x2 : Vec F S1024x64 .f32) (xs0 xs1 : Vec F S1024x1 .f32) (xs2 : Vec F S1024x64 .f32) (y : S1024x1.Idx) :
    ∃ pc ∈ (runB (F := F) c t h0 h1 h2 x0 x1 x2 xs0 xs1 xs2).1, y ∈ pc.1.set :=
  View.cover_of_tiledL (runB (F := F) c t h0 h1 h2 x0 x1 x2 xs0 xs1 xs2).1 S1024x1.size (by sl_kernel_rfl) y
theorem scoverB_1 (c : Dev nD) (t : Fin cfg1.N) (h0 : ¬t.val % 8 = 0) (h1 : t.val % 8 ≤ t.val / 8) (h2 : ¬t.val % 8 = 7)
    (x0 x1 x2 : Vec F S1024x64 .f32) (xs0 xs1 : Vec F S1024x1 .f32) (xs2 : Vec F S1024x64 .f32) (y : S1024x1.Idx) :
    ∃ pc ∈ (runB (F := F) c t h0 h1 h2 x0 x1 x2 xs0 xs1 xs2).2.1, y ∈ pc.1.set :=
  View.cover_of_tiledL (runB (F := F) c t h0 h1 h2 x0 x1 x2 xs0 xs1 xs2).2.1 S1024x1.size (by sl_kernel_rfl) y
theorem scoverB_2 (c : Dev nD) (t : Fin cfg1.N) (h0 : ¬t.val % 8 = 0) (h1 : t.val % 8 ≤ t.val / 8) (h2 : ¬t.val % 8 = 7)
    (x0 x1 x2 : Vec F S1024x64 .f32) (xs0 xs1 : Vec F S1024x1 .f32) (xs2 : Vec F S1024x64 .f32) (y : S1024x64.Idx) :
    ∃ pc ∈ (runB (F := F) c t h0 h1 h2 x0 x1 x2 xs0 xs1 xs2).2.2.1, y ∈ pc.1.set :=
  View.cover_of_tiledL (runB (F := F) c t h0 h1 h2 x0 x1 x2 xs0 xs1 xs2).2.2.1 S1024x64.size (by sl_kernel_rfl) y

theorem coverD_3 (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) (y : S1024x64.Idx) :
    ∃ pc ∈ (runD (F := F) c t h0 h1 h2 x0 x1 x2 xs0 xs1 xs2).1, y ∈ pc.1.set :=
  View.cover_of_tiledL (runD (F := F) c t h0 h1 h2 x0 x1 x2 xs0 xs1 xs2).1 S1024x64.size (by sl_kernel_rfl) y
theorem scoverD_0 (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) (y : S1024x1.Idx) :
    ∃ pc ∈ (runD (F := F) c t h0 h1 h2 x0 x1 x2 xs0 xs1 xs2).2.1, y ∈ pc.1.set :=
  View.cover_of_tiledL (runD (F := F) c t h0 h1 h2 x0 x1 x2 xs0 xs1 xs2).2.1 S1024x1.size (by sl_kernel_rfl) y
theorem scoverD_1 (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) (y : S1024x1.Idx) :
    ∃ pc ∈ (runD (F := F) c t h0 h1 h2 x0 x1 x2 xs0 xs1 xs2).2.2.1, y ∈ pc.1.set :=
  View.cover_of_tiledL (runD (F := F) c t h0 h1 h2 x0 x1 x2 xs0 xs1 xs2).2.2.1 S1024x1.size (by sl_kernel_rfl) y
theorem scoverD_2 (c : Dev nD) (t : Fin cfg1.N) (h0 : ¬t.val % 8 = 0) (h1 : t.val % 8 ≤ t.val / 8) (h2 : t.val % 8 = 7)
    (x0 x1 x2 : Vec F S1024x64 .f32) (xs0 xs1 : Vec F S1024x1 .f32) (xs2 : Vec F S1024x64 .f32) (y : S1024x64.Idx) :
    ∃ pc ∈ (runD (F := F) c t h0 h1 h2 x0 x1 x2 xs0 xs1 xs2).2.2.2.1, y ∈ pc.1.set :=
  View.cover_of_tiledL (runD (F := F) c t h0 h1 h2 x0 x1 x2 xs0 xs1 xs2).2.2.2.1 S1024x64.size (by sl_kernel_rfl) y

theorem coverE_3 (c : Dev nD) (t : Fin cfg1.N) (h0 : ¬t.val % 8 = 0) (h1 : ¬t.val % 8 ≤ t.val / 8) (h2 : t.val % 8 = 7)
    (x0 x1 x2 : Vec F S1024x64 .f32) (xs0 xs1 : Vec F S1024x1 .f32) (xs2 : Vec F S1024x64 .f32) (y : S1024x64.Idx) :
    ∃ pc ∈ (runE (F := F) c t h0 h1 h2 x0 x1 x2 xs0 xs1 xs2).1, y ∈ pc.1.set :=
  View.cover_of_tiledL (runE (F := F) c t h0 h1 h2 x0 x1 x2 xs0 xs1 xs2).1 S1024x64.size (by sl_kernel_rfl) y

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · -- j = 0: seed, then fold block 0
    have hnc2 : ¬cond1_2 (grid1.coords t) := fun h => nc2_of_c0 h0 ((hcond1_2 t).mp h)
    rw [Dat.leavesExact_idle (dat1 V c) 3 t (idleAt1_3 t hnc2) (noFlush1_3 t hnc2)]
    rw [outsAt1_A V c t h0]
    unfold stA; (try dsimp only)
    by_cases hz : t.val = 0
    · rw [PhiS1_castSucc V c t, PhiS1_zero V c _ _ hz, PhiA1_eq]
      iintro ⟨⟨⟨⟨HS0, HS1, HS2⟩, Hrest⟩, Hg⟩, Ho, ⟨%d0, H0⟩, ⟨%d1, H1⟩, ⟨%d2, H2⟩, ⟨%d3, H3⟩⟩
      iapply ((runA (F := F) c t h0 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverA_0 c t h0 _ _ _)
            isplitl [HS1]
            · unfold owns; iexists _; isplitr
              swap; · iexact HS1
              ipureintro; exact View.read_writes_of_cover _ _ _ _ _ (scoverA_1 c t h0 _ _ _)
            unfold owns; iexists _; isplitr
            swap; · iexact HS2
            ipureintro; exact View.read_writes_of_cover _ _ _ _ _ (scoverA_2 c t h0 _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((runA (F := F) c t h0 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverA_0 c t h0 _ _ _)
            isplitl [HS1]
            · unfold owns; iexists _; isplitr
              swap; · iexact HS1
              ipureintro; exact View.read_writes_of_cover _ _ _ _ _ (scoverA_1 c t h0 _ _ _)
            unfold owns; iexists _; isplitr
            swap; · iexact HS2
            ipureintro; exact View.read_writes_of_cover _ _ _ _ _ (scoverA_2 c t h0 _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS1_castSucc V c t, PhiS1_pos V c _ _ hz]
    by_cases h1 : t.val % 8 ≤ t.val / 8
    · by_cases h2 : t.val % 8 = 7
      · -- (7, 7): fold block 7, then divide into the output block
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h1 h2]
        unfold stD; (try dsimp only)
        iintro ⟨⟨⟨⟨HS0, HS1, HS2⟩, Hrest⟩, Hg⟩, Ho, ⟨%d0, H0⟩, ⟨%d1, H1⟩, ⟨%d2, H2⟩, ⟨%d3, H3⟩⟩
        iapply ((runD (F := F) c t h0 h1 h2 (iblk1 V c 0 t) (iblk1 V c 1 t) (iblk1 V c 2 t) (prev1 V c t).2.1 (prev1 V c t).2.2.1 (prev1 V c t).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scoverD_0 c t h0 h1 h2 _ _ _ _ _ _)
              isplitl [HS1]
              · unfold owns; iexists _; isplitr
                swap; · iexact HS1
                ipureintro; exact View.read_writes_of_cover _ _ _ _ _ (scoverD_1 c t h0 h1 h2 _ _ _ _ _ _)
              unfold owns; iexists _; isplitr
              swap; · iexact HS2
              ipureintro; exact View.read_writes_of_cover _ _ _ _ _ (scoverD_2 c t h0 h1 h2 _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_3 c t h0 h1 h2 _ _ _ _ _ _)
      · -- 0 < j ≤ i, j < 7: fold block j
        have hnc2 : ¬cond1_2 (grid1.coords t) := fun h => h2 ((hcond1_2 t).mp h)
        rw [Dat.leavesExact_idle (dat1 V c) 3 t (idleAt1_3 t hnc2) (noFlush1_3 t hnc2)]
        rw [outsAt1_B V c t h0 h1 h2]
        unfold stB; (try dsimp only)
        iintro ⟨⟨⟨⟨HS0, HS1, HS2⟩, Hrest⟩, Hg⟩, Ho, ⟨%d0, H0⟩, ⟨%d1, H1⟩, ⟨%d2, H2⟩, ⟨%d3, H3⟩⟩
        iapply ((runB (F := F) c t h0 h1 h2 (iblk1 V c 0 t) (iblk1 V c 1 t) (iblk1 V c 2 t) (prev1 V c t).2.1 (prev1 V c t).2.2.1 (prev1 V c t).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scoverB_0 c t h0 h1 h2 _ _ _ _ _ _)
              isplitl [HS1]
              · unfold owns; iexists _; isplitr
                swap; · iexact HS1
                ipureintro; exact View.read_writes_of_cover _ _ _ _ _ (scoverB_1 c t h0 h1 h2 _ _ _ _ _ _)
              unfold owns; iexists _; isplitr
              swap; · iexact HS2
              ipureintro; exact View.read_writes_of_cover _ _ _ _ _ (scoverB_2 c t h0 h1 h2 _ _ _ _ _ _)
            iexact Hrest
          iexact Hg
        isplitl [Ho]; · iexact Ho
        isplitl [H0]; · iexact H0
        isplitl [H1]; · iexact H1
        isplitl [H2]; · iexact H2
        iexists _; iexact H3
    · by_cases h2 : t.val % 8 = 7
      · -- j = 7 > i: divide into the output block; the scratch is only read
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold stE; (try dsimp only)
        iintro ⟨⟨⟨⟨HS0, HS1, HS2⟩, Hrest⟩, Hg⟩, Ho, ⟨%d0, H0⟩, ⟨%d1, H1⟩, ⟨%d2, H2⟩, ⟨%d3, H3⟩⟩
        iapply ((runE (F := F) c t h0 h1 h2 (iblk1 V c 0 t) (iblk1 V c 1 t) (iblk1 V c 2 t) (prev1 V c t).2.1 (prev1 V c t).2.2.1 (prev1 V c t).2.2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HS0 HS1 HS2 Hrest Hg]
        · isplitl [HS0 HS1 HS2 Hrest]
          · isplitl [HS0 HS1 HS2]
            · isplitl [HS0]; · iexact HS0
              isplitl [HS1]; · iexact HS1
              iexact HS2
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverE_3 c t h0 h1 h2 _ _ _ _ _ _)
      · -- i < j < 7: nothing happens
        have hnc2 : ¬cond1_2 (grid1.coords t) := fun h => h2 ((hcond1_2 t).mp h)
        rw [Dat.leavesExact_idle (dat1 V c) 3 t (idleAt1_3 t hnc2) (noFlush1_3 t hnc2)]
        rw [outsAt1_C V c t h0 h1 h2]
        unfold stC; (try dsimp only)
        iintro ⟨⟨⟨⟨HS0, HS1, HS2⟩, Hrest⟩, Hg⟩, Ho, ⟨%d0, H0⟩, ⟨%d1, H1⟩, ⟨%d2, H2⟩, ⟨%d3, H3⟩⟩
        iapply (kernelRun1_C (F := F) c (grid1.coords t) _ _ _ _ _ _ _ _ _ _ _ _ _ _ (fun h => h0 ((hcond1_0 t).mp h))
          (fun h => h1 ((hcond1_1 t).mp h)) hnc2 (iblk1 V c 0 t) (iblk1 V c 1 t) (iblk1 V c 2 t) _ (prev1 V c t).2.1 (prev1 V c t).2.2.1 (prev1 V c t).2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hrest Hg]
        · isplitl [HS0 HS1 HS2 Hrest]
          · isplitl [HS0 HS1 HS2]
            · isplitl [HS0]; · iexact HS0
              isplitl [HS1]; · iexact HS1
              iexact HS2
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.R2.lean ====
/-
  Region 2: a matrix product with bias, one grid point per 1024 rows. At a point the body reads the point's 1024 × 64
  rows, the whole 64 × 512 weight and the 1 × 512 bias, and stores into the point's 1024 × 512 output block the product
  of the rows (rounded to bf16) with the weight, accumulated in f32, plus the bias broadcast along the rows. What the
  output's buffer holds after the body is that one store's value of the three input blocks.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: each buffer whole. -/
abbrev r2_x : Rect S1024x64 := Rect.unit (s := S1024x64) ![0, 0] S1024x64.size inb_S1024x64_S1024x64_0_0
abbrev r2_w : Rect S64x512 := Rect.unit (s := S64x512) ![0, 0] S64x512.size inb_S64x512_S64x512_0_0
abbrev r2_b : Rect S1x512 := Rect.unit (s := S1x512) ![0, 0] S1x512.size inb_S1x512_S1x512_0_0
abbrev r2_o : Rect S1024x512 := Rect.unit (s := S1024x512) ![0, 0] S1024x512.size inb_S1024x512_S1024x512_0_0

/-- The output's buffer after the body: its one store, of the product plus the bias, over the three input blocks. -/
def out2_3 (x0 : Vec F S1024x64 .f32) (x1 : Vec F S64x512 .bf16) (x2 : Vec F S1x512 .f32) : Vec F S1024x512 .f32 :=
  View.canon [⟨r2_o, k2_pay1 (View.ld x0 r2_x) (View.ld x1 r2_w) (View.ld x2 r2_b)⟩]

/-- The store is of the whole buffer, so it covers it. -/
theorem cover2_3 (p0 : Vec F S1024x512 .f32) (y : S1024x512.Idx) :
    ∃ pc ∈ ([⟨r2_o, p0⟩] : List (View.Piece (Elt F) S1024x512 .f32)), y ∈ pc.1.set :=
  View.cover_of_tiled [⟨r2_o, p0⟩] S1024x512.size (by rfl) y

set_option maxHeartbeats 1000000 in
/-- The body on whole staging memrefs, the inputs' at read contents and the output's at anything, runs to the continuation
    holding the inputs' as they were and the output's at out2_3 of them. -/
theorem sound_kernel2 (c : Dev nD) (E : Set ℕ) (i : grid2.Coords)
    (arg1 : Memref sig .tc .vmem S1024x64 .f32) (harg1 : arg1.IsWhole) (arg2 : Memref sig .tc .vmem S64x512 .bf16) (harg2 : arg2.IsWhole)
    (arg3 : Memref sig .tc .vmem S1x512 .f32) (harg3 : arg3.IsWhole) (arg4 : Memref sig .tc .vmem S1024x512 .f32) (harg4 : arg4.IsWhole)
    (x0 : Vec F S1024x64 .f32) (x1 : Vec F S64x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__mm_kernel i arg1 harg1 arg2 harg2 arg3 harg3 arg4 harg4) K := by
  simp only [cc2__mm_kernel_eq_skeleton]; unfold cc2__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- Region 2's proof data on core c: the arrays as the region finds them; after the body at point t each input's buffer
    at its block and the output's at out2_3 of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so sound_kernel2 applies; the invariant and the core's
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3: a matrix product with bias, one grid point per 1024 rows. At a point the body reads the point's 1024 × 512
  rows, the whole 512 × 128 weight and the 1 × 128 bias, and stores into the point's 1024 × 128 output block the product
  of the rows (rounded to bf16) with the weight, accumulated in f32, plus the bias broadcast along the rows. What the
  output's buffer holds after the body is that one store's value of the three input blocks.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! The body's accesses: each buffer whole. -/
abbrev r3_x : Rect S1024x512 := Rect.unit (s := S1024x512) ![0, 0] S1024x512.size inb_S1024x512_S1024x512_0_0
abbrev r3_w : Rect S512x128 := Rect.unit (s := S512x128) ![0, 0] S512x128.size inb_S512x128_S512x128_0_0
abbrev r3_b : Rect S1x128 := Rect.unit (s := S1x128) ![0, 0] S1x128.size inb_S1x128_S1x128_0_0
abbrev r3_o : Rect S1024x128 := Rect.unit (s := S1024x128) ![0, 0] S1024x128.size inb_S1024x128_S1024x128_0_0

/-- The output's buffer after the body: its one store, of the product plus the bias, over the three input blocks. -/
def out3_3 (x0 : Vec F S1024x512 .f32) (x1 : Vec F S512x128 .bf16) (x2 : Vec F S1x128 .f32) : Vec F S1024x128 .f32 :=
  View.canon [⟨r3_o, k3_pay1 (View.ld x0 r3_x) (View.ld x1 r3_w) (View.ld x2 r3_b)⟩]

/-- The store is of the whole buffer, so it covers it. -/
theorem cover3_3 (p0 : Vec F S1024x128 .f32) (y : S1024x128.Idx) :
    ∃ pc ∈ ([⟨r3_o, p0⟩] : List (View.Piece (Elt F) S1024x128 .f32)), y ∈ pc.1.set :=
  View.cover_of_tiled [⟨r3_o, p0⟩] S1024x128.size (by rfl) y

set_option maxHeartbeats 1000000 in
/-- The body on whole staging memrefs, the inputs' at read contents and the output's at anything, runs to the continuation
    holding the inputs' as they were and the output's at out3_3 of them. -/
theorem sound_kernel3 (c : Dev nD) (E : Set ℕ) (i : grid3.Coords)
    (arg1 : Memref sig .tc .vmem S1024x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S1024x128 .f32) (harg4 : arg4.IsWhole)
    (x0 : Vec F S1024x512 .f32) (x1 : Vec F S512x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__mm_kernel i arg1 harg1 arg2 harg2 arg3 harg3 arg4 harg4) K := by
  simp only [cc3__mm_kernel_eq_skeleton]; unfold cc3__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The proof data -/

/-- Region 3's proof data on core c: the arrays as the region finds them; after the body at point t each input's buffer
    at its block and the output's at out3_3 of the input blocks; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so sound_kernel3 applies; the invariant and the core's
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/-
  Region 4: a matrix product with bias, one grid point per 1024 rows. At a point the body reads the point's 1024 × 512
  rows, the whole 512 × 64 weight and the 1 × 64 bias, and stores into the point's 1024 × 64 output block the product
  of the rows (rounded to bf16) with the weight, accumulated in f32, plus the bias broadcast along the rows. What the
  output's buffer holds after the body is that one store's value of the three input blocks.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! The body's accesses: each buffer whole. -/
abbrev r4_x : Rect S1024x512 := Rect.unit (s := S1024x512) ![0, 0] S1024x512.size inb_S1024x512_S1024x512_0_0
abbrev r4_w : Rect S512x64 := Rect.unit (s := S512x64) ![0, 0] S512x64.size inb_S512x64_S512x64_0_0
abbrev r4_b : Rect S1x64 := Rect.unit (s := S1x64) ![0, 0] S1x64.size inb_S1x64_S1x64_0_0
abbrev r4_o : Rect S1024x64 := Rect.unit (s := S1024x64) ![0, 0] S1024x64.size inb_S1024x64_S1024x64_0_0

/-- The output's buffer after the body: its one store, of the product plus the bias, over the three input blocks. -/
def out4_3 (x0 : Vec F S1024x512 .f32) (x1 : Vec F S512x64 .bf16) (x2 : Vec F S1x64 .f32) : Vec F S1024x64 .f32 :=
  View.canon [⟨r4_o, k4_pay1 (View.ld x0 r4_x) (View.ld x1 r4_w) (View.ld x2 r4_b)⟩]

/-- The store is of the whole buffer, so it covers it. -/
theorem cover4_3 (p0 : Vec F S1024x64 .f32) (y : S1024x64.Idx) :
    ∃ pc ∈ ([⟨r4_o, p0⟩] : List (View.Piece (Elt F) S1024x64 .f32)), y ∈ pc.1.set :=
  View.cover_of_tiled [⟨r4_o, p0⟩] S1024x64.size (by rfl) y

set_option maxHeartbeats 1000000 in
/-- The body on whole staging memrefs, the inputs' at read contents and the output's at anything, runs to the continuation
    holding the inputs' as they were and the output's at out4_3 of them. -/
theorem sound_kernel4 (c : Dev nD) (E : Set ℕ) (i : grid4.Coords)
    (arg1 : Memref sig .tc .vmem S1024x512 .f32) (harg1 : arg1.IsWhole) (arg2 : Memref sig .tc .vmem S512x64 .bf16) (harg2 : arg2.IsWhole)
    (arg3 : Memref sig .tc .vmem S1x64 .f32) (harg3 : arg3.IsWhole) (arg4 : Memref sig .tc .vmem S1024x64 .f32) (harg4 : arg4.IsWhole)
    (x0 : Vec F S1024x512 .f32) (x1 : Vec F S512x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__mm_kernel i arg1 harg1 arg2 harg2 arg3 harg3 arg4 harg4) K := by
  simp only [cc4__mm_kernel_eq_skeleton]; unfold cc4__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The proof data -/

/-- Region 4's proof data on core c: the arrays as the region finds them; after the body at point t each input's buffer
    at its block and the output's at out4_3 of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so sound_kernel4 applies; the invariant and the core's
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/-
  Region 5: attention of a block of queries over the whole of the keys and values, one grid point per 512 query rows. At
  a point the body reads the point's 512 × 64 queries and the whole 8192 × 64 keys and 8192 × 64 values, and stores into
  the point's 512 × 64 output block the softmax-weighted sum: the scores are the queries times the transposed keys (both
  rounded to bf16) scaled by 1/8; each row's scores have the row's maximum subtracted and are exponentiated; the
  exponentials (rounded to bf16) times the values (rounded to bf16) are divided by the row's sum of exponentials. What
  the output's buffer holds after the body is that one store's value of the three input blocks.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! The body's accesses: each buffer whole. -/
abbrev r5_q : Rect S512x64 := Rect.unit (s := S512x64) ![0, 0] S512x64.size inb_S512x64_S512x64_0_0
abbrev r5_k : Rect S8192x64 := Rect.unit (s := S8192x64) ![0, 0] S8192x64.size inb_S8192x64_S8192x64_0_0
abbrev r5_v : Rect S8192x64 := Rect.unit (s := S8192x64) ![0, 0] S8192x64.size inb_S8192x64_S8192x64_0_0
abbrev r5_o : Rect S512x64 := Rect.unit (s := S512x64) ![0, 0] S512x64.size inb_S512x64_S512x64_0_0

/-- The output's buffer after the body: its one store, of the softmax-weighted sum of the values, over the three input blocks. -/
def out5_3 (x0 : Vec F S512x64 .f32) (x1 : Vec F S8192x64 .f32) (x2 : Vec F S8192x64 .f32) : Vec F S512x64 .f32 :=
  View.canon [⟨r5_o, k5_pay1 (View.ld x0 r5_q) (View.ld x1 r5_k) (View.ld x2 r5_v)⟩]

/-- The store is of the whole buffer, so it covers it. -/
theorem cover5_3 (p0 : Vec F S512x64 .f32) (y : S512x64.Idx) :
    ∃ pc ∈ ([⟨r5_o, p0⟩] : List (View.Piece (Elt F) S512x64 .f32)), y ∈ pc.1.set :=
  View.cover_of_tiled [⟨r5_o, p0⟩] S512x64.size (by rfl) y

set_option maxHeartbeats 1000000 in
/-- The body on whole staging memrefs, the inputs' at read contents and the output's at anything, runs to the continuation
    holding the inputs' as they were and the output's at out5_3 of them. -/
theorem sound_kernel5 (c : Dev nD) (E : Set ℕ) (i : grid5.Coords)
    (arg1 : Memref sig .tc .vmem S512x64 .f32) (harg1 : arg1.IsWhole) (arg2 : Memref sig .tc .vmem S8192x64 .f32) (harg2 : arg2.IsWhole)
    (arg3 : Memref sig .tc .vmem S8192x64 .f32) (harg3 : arg3.IsWhole) (arg4 : Memref sig .tc .vmem S512x64 .f32) (harg4 : arg4.IsWhole)
    (x0 : Vec F S512x64 .f32) (x1 : Vec F S8192x64 .f32) (x2 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__xattn_kernel i arg1 harg1 arg2 harg2 arg3 harg3 arg4 harg4) K := by
  simp only [cc5__xattn_kernel_eq_skeleton]; unfold cc5__xattn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The proof data -/

/-- Region 5's proof data on core c: the arrays as the region finds them; after the body at point t each input's buffer
    at its block and the output's at out5_3 of the input blocks; the invariant the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so sound_kernel5 applies; the invariant and the core's
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/-
  Region 6: a projection added to a residual, then layer-normalised, one grid point per 1024 rows. At a point the body
  reads the point's 1024 × 64 rows, the whole 64 × 512 weight, the point's 1024 × 512 residual rows and the 1 × 512 scale
  and 1 × 512 shift, and stores into the point's 1024 × 512 output block: y = rows (rounded to bf16) times the weight,
  accumulated in f32, plus the residual; each row of y has its mean (sum over 512) subtracted, is multiplied by the
  reciprocal square root of its variance (sum of squared deviations over 512) plus 1e-5, then by the scale, and has the
  shift added, scale and shift broadcast along the rows. What the output's buffer holds after the body is that one
  store's value of the five input blocks.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! The body's accesses: each buffer whole. -/
abbrev r6_x : Rect S1024x64 := Rect.unit (s := S1024x64) ![0, 0] S1024x64.size inb_S1024x64_S1024x64_0_0
abbrev r6_w : Rect S64x512 := Rect.unit (s := S64x512) ![0, 0] S64x512.size inb_S64x512_S64x512_0_0
abbrev r6_r : Rect S1024x512 := Rect.unit (s := S1024x512) ![0, 0] S1024x512.size inb_S1024x512_S1024x512_0_0
abbrev r6_g : Rect S1x512 := Rect.unit (s := S1x512) ![0, 0] S1x512.size inb_S1x512_S1x512_0_0
abbrev r6_b : Rect S1x512 := Rect.unit (s := S1x512) ![0, 0] S1x512.size inb_S1x512_S1x512_0_0
abbrev r6_o : Rect S1024x512 := Rect.unit (s := S1024x512) ![0, 0] S1024x512.size inb_S1024x512_S1024x512_0_0

/-- The output's buffer after the body: its one store, of the normalised projection plus residual, over the five input
    blocks. -/
def out6_5 (x0 : Vec F S1024x64 .f32) (x1 : Vec F S64x512 .bf16) (x2 : Vec F S1024x512 .f32) (x3 : Vec F S1x512 .f32)
    (x4 : Vec F S1x512 .f32) : Vec F S1024x512 .f32 :=
  View.canon [⟨r6_o, k6_pay1 (View.ld x0 r6_x) (View.ld x1 r6_w) (View.ld x2 r6_r) (View.ld x3 r6_g) (View.ld x4 r6_b)⟩]

/-- The store is of the whole buffer, so it covers it. -/
theorem cover6_5 (p0 : Vec F S1024x512 .f32) (y : S1024x512.Idx) :
    ∃ pc ∈ ([⟨r6_o, p0⟩] : List (View.Piece (Elt F) S1024x512 .f32)), y ∈ pc.1.set :=
  View.cover_of_tiled [⟨r6_o, p0⟩] S1024x512.size (by rfl) y

set_option maxHeartbeats 1000000 in
/-- The body on whole staging memrefs, the inputs' at read contents and the output's at anything, runs to the continuation
    holding the inputs' as they were and the output's at out6_5 of them. -/
theorem sound_kernel6 (c : Dev nD) (E : Set ℕ) (i : grid6.Coords)
    (arg1 : Memref sig .tc .vmem S1024x64 .f32) (harg1 : arg1.IsWhole) (arg2 : Memref sig .tc .vmem S64x512 .bf16) (harg2 : arg2.IsWhole)
    (arg3 : Memref sig .tc .vmem S1024x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1024x512 .f32) (harg6 : arg6.IsWhole)
    (x0 : Vec F S1024x64 .f32) (x1 : Vec F S64x512 .bf16) (x2 : Vec F S1024x512 .f32) (x3 : Vec F S1x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__proj_ln_kernel i arg1 harg1 arg2 harg2 arg3 harg3 arg4 harg4 arg5 harg5 arg6 harg6) K := by
  simp only [cc6__proj_ln_kernel_eq_skeleton]; unfold cc6__proj_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The proof data -/

/-- Region 6's proof data on core c: the arrays as the region finds them; after the body at point t each input's buffer
    at its block and the output's at out6_5 of the input blocks; the invariant the scoped rest and the generator
    register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so sound_kernel6 applies; the invariant and the core's
    owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/-
  Region 7: a two-layer feed-forward block added to its input, then layer-normalised, one grid point per 1024 rows. At a
  point the body reads the point's 1024 × 512 rows x, the whole 512 × 2048 first weight and 1 × 2048 first bias, the
  whole 2048 × 512 second weight and 1 × 512 second bias, and the 1 × 512 scale and 1 × 512 shift, and stores into the
  point's 1024 × 512 output block: h = x (rounded to bf16) times the first weight, accumulated in f32, plus the first
  bias, with each negative entry multiplied by 0.01; y = h (rounded to bf16) times the second weight, accumulated in
  f32, plus the second bias, plus x; each row of y has its mean (sum over 512) subtracted, is multiplied by the
  reciprocal square root of its variance (sum of squared deviations over 512) plus 1e-5, then by the scale, and has the
  shift added, the biases, scale and shift broadcast along the rows. The centred rows and the reciprocal square roots
  are computed by the body's first part from the first five inputs; the store's value takes them and the last two
  inputs. What the output's buffer holds after the body is that one store's value of the seven input blocks.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! The body's accesses: each buffer whole. -/
abbrev r7_x : Rect S1024x512 := Rect.unit (s := S1024x512) ![0, 0] S1024x512.size inb_S1024x512_S1024x512_0_0
abbrev r7_w1 : Rect S512x2048 := Rect.unit (s := S512x2048) ![0, 0] S512x2048.size inb_S512x2048_S512x2048_0_0
abbrev r7_b1 : Rect S1x2048 := Rect.unit (s := S1x2048) ![0, 0] S1x2048.size inb_S1x2048_S1x2048_0_0
abbrev r7_w2 : Rect S2048x512 := Rect.unit (s := S2048x512) ![0, 0] S2048x512.size inb_S2048x512_S2048x512_0_0
abbrev r7_b2 : Rect S1x512 := Rect.unit (s := S1x512) ![0, 0] S1x512.size inb_S1x512_S1x512_0_0
abbrev r7_g : Rect S1x512 := Rect.unit (s := S1x512) ![0, 0] S1x512.size inb_S1x512_S1x512_0_0
abbrev r7_b : Rect S1x512 := Rect.unit (s := S1x512) ![0, 0] S1x512.size inb_S1x512_S1x512_0_0
abbrev r7_o : Rect S1024x512 := Rect.unit (s := S1024x512) ![0, 0] S1024x512.size inb_S1024x512_S1024x512_0_0

/-- The output's buffer after the body: its one store, of the normalised feed-forward block plus input, over the seven
    input blocks: the centred rows and the reciprocal square roots of the first five, then the scale and the shift. -/
def out7_7 (x0 : Vec F S1024x512 .f32) (x1 : Vec F S512x2048 .bf16) (x2 : Vec F S1x2048 .f32) (x3 : Vec F S2048x512 .bf16)
    (x4 : Vec F S1x512 .f32) (x5 : Vec F S1x512 .f32) (x6 : Vec F S1x512 .f32) : Vec F S1024x512 .f32 :=
  View.canon [⟨r7_o, k7_pay1
    (k7_pay4 (View.ld x0 r7_x) (View.ld x1 r7_w1) (View.ld x2 r7_b1) (View.ld x3 r7_w2) (View.ld x4 r7_b2))
    (k7_pay5 (View.ld x0 r7_x) (View.ld x1 r7_w1) (View.ld x2 r7_b1) (View.ld x3 r7_w2) (View.ld x4 r7_b2))
    (View.ld x5 r7_g) (View.ld x6 r7_b)⟩]

/-- The store is of the whole buffer, so it covers it. -/
theorem cover7_7 (p0 : Vec F S1024x512 .f32) (y : S1024x512.Idx) :
    ∃ pc ∈ ([⟨r7_o, p0⟩] : List (View.Piece (Elt F) S1024x512 .f32)), y ∈ pc.1.set :=
  View.cover_of_tiled [⟨r7_o, p0⟩] S1024x512.size (by rfl) y

set_option maxHeartbeats 1000000 in
/-- The body on whole staging memrefs, the inputs' at read contents and the output's at anything, runs to the continuation
    holding the inputs' as they were and the output's at out7_7 of them. -/
theorem sound_kernel7 (c : Dev nD) (E : Set ℕ) (i : grid7.Coords)
    (arg1 : Memref sig .tc .vmem S1024x512 .f32) (harg1 : arg1.IsWhole) (arg2 : Memref sig .tc .vmem S512x2048 .bf16) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1024x512 .f32) (harg8 : arg8.IsWhole)
    (x0 : Vec F S1024x512 .f32) (x1 : Vec F S512x2048 .bf16) (x2 : Vec F S1x2048 .f32) (x3 : Vec F S2048x512 .bf16)
    (x4 : Vec F S1x512 .f32) (x5 : Vec F S1x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out7_7 x0 x1 x2 x3 x4 x5 x6)) -∗ K ⟨⟩))
      ⊢ wp frame (wpE (defs₀ (F := F)) Variants.none c none) E
          (cc7__ffn_ln_kernel i arg1 harg1 arg2 harg2 arg3 harg3 arg4 harg4 arg5 harg5 arg6 harg6 arg7 harg7 arg8 harg8) K := by
  simp only [cc7__ffn_ln_kernel_eq_skeleton]; unfold cc7__ffn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The proof data -/

/-- Region 7's proof data on core c: the arrays as the region finds them; after the body at point t each input's buffer
    at its block and the output's at out7_7 of the input blocks; the invariant the scoped rest and the generator
    register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t)
        (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) :
    (dat7 V c).after 7 t = out7_7 (iblk7 V c 0 t) (iblk7 V c 1 t) (iblk7 V c 2 t) (iblk7 V c 3 t) (iblk7 V c 4 t) (iblk7 V c 5 t)
      (iblk7 V c 6 t) := by
  dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks, so sound_kernel7 applies; the invariant and the core's
    owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _
    (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Chain.lean ====
/-
  What every unscoped buffer of a core holds at each boundary between two items of the program — the launch memory, then each
  stretch of host operations applied in order, and at a region's exit its arrays at what the region's write-backs leave
  (an input array as entered, an output array with every written block in place) and every other buffer as entered.
  W0 is the launch; W1 … W15 the fifteen items' exits.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.R0
import proofs.«172065_j32710470926956_2_alg».proof.Proof.K.R1.Body
import proofs.«172065_j32710470926956_2_alg».proof.Proof.K.R2
import proofs.«172065_j32710470926956_2_alg».proof.Proof.K.R3
import proofs.«172065_j32710470926956_2_alg».proof.Proof.K.R4
import proofs.«172065_j32710470926956_2_alg».proof.Proof.K.R5
import proofs.«172065_j32710470926956_2_alg».proof.Proof.K.R6
import proofs.«172065_j32710470926956_2_alg».proof.Proof.K.R7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host operations before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host operations before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, the output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host operations before region 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves (the inputs as entered, the output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host operations before region 4. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves (the inputs as entered, the output's write-backs folded), every
    other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- At region 5's exit: its arrays at what the pipeline leaves (the inputs as entered, the output's write-backs folded), every
    other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- After the host operations before region 6. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b
/-- At region 6's exit: its arrays at what the pipeline leaves (the inputs as entered, the output's write-backs folded), every
    other buffer as entered. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)
/-- After the host operations before region 7. -/
abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b
/-- At region 7's exit: its arrays at what the pipeline leaves (the inputs as entered, the output's write-backs folded), every
    other buffer as entered. -/
def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
abbrev V15 : (c : Dev nD) → (b : Ref sig .tc) → Buf (Elt F) ((c : Thread nD τ).loc b) := fun c b => W15 m ρ c b
theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

end Cert.Kernel.Hand

end
-- ==== Proof.K.Recs.lean ====
/-
  The proof data of all eight regions, each at its region's entry contents, and each region as a segment of the program over
  one thread state: every unscoped buffer at the boundary's contents, the generator register at some state, nothing owed.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V10 m ρ) c
  | ⟨6, _⟩ => fun c => dat6 (V12 m ρ) c
  | ⟨7, _⟩ => fun c => dat7 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- Region 0 over the thread state: entered from every unscoped buffer at W1, left at W2. Its arrays are split out of the
    unscoped buffers and put back at the exit contents; the generator register goes into the invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at W3, left at W4. Its arrays are split out of the
    unscoped buffers and put back at the exit contents; the generator register goes into the invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at W5, left at W6. Its arrays are split out of the
    unscoped buffers and put back at the exit contents; the generator register goes into the invariant and comes out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at W7, left at W8. Its arrays are split out of the
    unscoped buffers and put back at the exit contents; the generator register goes into the invariant and comes out;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at W9, left at W10. Its arrays are split out of the
    unscoped buffers and put back at the exit contents; the generator register goes into the invariant and comes out;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 over the thread state: entered from every unscoped buffer at W10, left at W11. Its arrays are split out of the
    unscoped buffers and put back at the exit contents; the generator register goes into the invariant and comes out;
    nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 over the thread state: entered from every unscoped buffer at W12, left at W13. Its arrays are split out of the
    unscoped buffers and put back at the exit contents; the generator register goes into the invariant and comes out;
    nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 over the thread state: entered from every unscoped buffer at W14, left at W15. Its arrays are split out of the
    unscoped buffers and put back at the exit contents; the generator register goes into the invariant and comes out;
    nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Main.lean ====
/-
  The program as fifteen segments — seven stretches of host operations and eight regions — and its run: every weakly fair
  execution terminates, nothing faulting, with every unscoped buffer of every core at the last boundary's contents W15.
  Read at an argument that is the launch memory (no stretch writes an argument and no region's output is one); read at the
  result it is the last region's output array.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.Recs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches as segments -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor

/-- A host stretch as a segment over the unscoped references from the contents W, the generator register and the empty debt
    riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every unscoped buffer at W15, the generator register at some state. -/
abbrev Tₙ (c : Dev nD) : sProp 𝕄 := iprop(StableHlo.held (c : Thread nD τ) (Pipeline.ucRefs τ sig) (W15 m ρ c) ∗ ∃ r, prngReg c r)

/-- The program's fifteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .region (reg5 m ρ),
    .host (hseg hostOps6 hostOps6_sub hostOps6_fresh (W11 m ρ)),
    .region (reg6 m ρ),
    .host (hseg hostOps7 hostOps7_sub hostOps7_fresh (W13 m ρ)),
    .region (reg7 m ρ) ]

/-- The program is the run of the segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting, and
    in every final state every unscoped buffer of every core holds the last boundary's contents. -/
theorem run_all : θ_run defs (onTc (τ := τ) (main (F := F))) ⟨m, fun _ => 0, ρ⟩ (fun r => ∀ (c : Dev nD),
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => by
        show iprop(StableHlo.held (c : Thread nD τ) (Pipeline.ucRefs τ sig) (W15 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.Kernel.Hand

end
-- ==== Proof.K.Frame.lean ====
/-
  The frame of the kernel at the word level: a buffer that no stretch of host operations writes and that is no region's output array
  holds at the last boundary what it held at launch — each region reads its input arrays back as entered and touches nothing
  else, each host operation writes only its own result. The fifteen arguments are such buffers.
-/
import proofs.«172065_j32710470926956_2_alg».proof.Proof.Gen.Kernel.Launch
import proofs.«172065_j32710470926956_2_alg».proof.Proof.Gen.Kernel.Skeleton
import proofs.«172065_j32710470926956_2_alg».proof.Proof.Gen.Kernel.Points
import proofs.«172065_j32710470926956_2_alg».proof.Proof.K.Main
import proofs.«172065_j32710470926956_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keepH0 (c : Dev nD) (b : Ref sig .tc) (hb : b ∉ Cert.Kernel.Gen.hostOps0_W) :
    W1 m ρ c (Proc.devRef .tc b) = W0 m ρ c (Proc.devRef .tc b) :=
  StableHlo.after_of_writes_sub hostOps0 _ Cert.Kernel.Gen.hostOps0_writes hb
/-- Region 0 leaves every buffer but its output array as entered: an input array is read back as entered, and a buffer that is
    no array of the region is untouched. -/
theorem keepR0 (c : Dev nD) (b : Ref sig .tc) (hb : b ≠ main_v15) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W2_arr m ρ c w).trans (((dat0 (Hand.V1 m ρ) c).arrAt_in w hw _).trans (A_eq0 (Hand.V1 m ρ) c w))
  · exact W2_of_ne m ρ c b fun w e => h ⟨w, e⟩
theorem keepH1 (c : Dev nD) (b : Ref sig .tc) (hb : b ∉ Cert.Kernel.Gen.hostOps1_W) :
    W3 m ρ c (Proc.devRef .tc b) = W2 m ρ c (Proc.devRef .tc b) :=
  StableHlo.after_of_writes_sub hostOps1 _ Cert.Kernel.Gen.hostOps1_writes hb
/-- Region 1 leaves every buffer but its output array as entered: an input array is read back as entered, and a buffer that is
    no array of the region is untouched. -/
theorem keepR1 (c : Dev nD) (b : Ref sig .tc) (hb : b ≠ main_v19) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W4_arr m ρ c w).trans (((dat1 (Hand.V3 m ρ) c).arrAt_in w hw _).trans (A_eq1 (Hand.V3 m ρ) c w))
  · exact W4_of_ne m ρ c b fun w e => h ⟨w, e⟩
theorem keepH2 (c : Dev nD) (b : Ref sig .tc) (hb : b ∉ Cert.Kernel.Gen.hostOps2_W) :
    W5 m ρ c (Proc.devRef .tc b) = W4 m ρ c (Proc.devRef .tc b) :=
  StableHlo.after_of_writes_sub hostOps2 _ Cert.Kernel.Gen.hostOps2_writes hb
/-- Region 2 leaves every buffer but its output array as entered: an input array is read back as entered, and a buffer that is
    no array of the region is untouched. -/
theorem keepR2 (c : Dev nD) (b : Ref sig .tc) (hb : b ≠ main_v21) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W6_arr m ρ c w).trans (((dat2 (Hand.V5 m ρ) c).arrAt_in w hw _).trans (A_eq2 (Hand.V5 m ρ) c w))
  · exact W6_of_ne m ρ c b fun w e => h ⟨w, e⟩
theorem keepH3 (c : Dev nD) (b : Ref sig .tc) (hb : b ∉ Cert.Kernel.Gen.hostOps3_W) :
    W7 m ρ c (Proc.devRef .tc b) = W6 m ρ c (Proc.devRef .tc b) :=
  StableHlo.after_of_writes_sub hostOps3 _ Cert.Kernel.Gen.hostOps3_writes hb
/-- Region 3 leaves every buffer but its output array as entered: an input array is read back as entered, and a buffer that is
    no array of the region is untouched. -/
theorem keepR3 (c : Dev nD) (b : Ref sig .tc) (hb : b ≠ main_v23) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W8_arr m ρ c w).trans (((dat3 (Hand.V7 m ρ) c).arrAt_in w hw _).trans (A_eq3 (Hand.V7 m ρ) c w))
  · exact W8_of_ne m ρ c b fun w e => h ⟨w, e⟩
theorem keepH4 (c : Dev nD) (b : Ref sig .tc) (hb : b ∉ Cert.Kernel.Gen.hostOps4_W) :
    W9 m ρ c (Proc.devRef .tc b) = W8 m ρ c (Proc.devRef .tc b) :=
  StableHlo.after_of_writes_sub hostOps4 _ Cert.Kernel.Gen.hostOps4_writes hb
/-- Region 4 leaves every buffer but its output array as entered: an input array is read back as entered, and a buffer that is
    no array of the region is untouched. -/
theorem keepR4 (c : Dev nD) (b : Ref sig .tc) (hb : b ≠ main_v27) :
    W10 m ρ c (Proc.devRef .tc b) = W9 m ρ c (Proc.devRef .tc b) := by
  by_cases h : ∃ w, Pipeline.arrRef spec4 w = b
  · obtain ⟨w, rfl⟩ := h
    have hw : (cfg4.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W10_arr m ρ c w).trans (((dat4 (Hand.V9 m ρ) c).arrAt_in w hw _).trans (A_eq4 (Hand.V9 m ρ) c w))
  · exact W10_of_ne m ρ c b fun w e => h ⟨w, e⟩
/-- Region 5 leaves every buffer but its output array as entered: an input array is read back as entered, and a buffer that is
    no array of the region is untouched. -/
theorem keepR5 (c : Dev nD) (b : Ref sig .tc) (hb : b ≠ main_v28) :
    W11 m ρ c (Proc.devRef .tc b) = W10 m ρ c (Proc.devRef .tc b) := by
  by_cases h : ∃ w, Pipeline.arrRef spec5 w = b
  · obtain ⟨w, rfl⟩ := h
    have hw : (cfg5.win w).isOut = false := by
      match w, hb with
      | ⟨0, _⟩, _ => rfl
      | ⟨1, _⟩, _ => rfl
      | ⟨2, _⟩, _ => rfl
      | ⟨3, _⟩, hb => exact absurd rfl hb
      | ⟨_ + 4, h⟩, _ => exact absurd h (Nat.not_lt.2 (Nat.le_add_left _ _))
    exact (W11_arr m ρ c w).trans (((dat5 (Hand.V10 m ρ) c).arrAt_in w hw _).trans (A_eq5 (Hand.V10 m ρ) c w))
  · exact W11_of_ne m ρ c b fun w e => h ⟨w, e⟩
theorem keepH6 (c : Dev nD) (b : Ref sig .tc) (hb : b ∉ Cert.Kernel.Gen.hostOps6_W) :
    W12 m ρ c (Proc.devRef .tc b) = W11 m ρ c (Proc.devRef .tc b) :=
  StableHlo.after_of_writes_sub hostOps6 _ Cert.Kernel.Gen.hostOps6_writes hb
/-- Region 6 leaves every buffer but its output array as entered. -/
theorem keepR6 (c : Dev nD) (b : Ref sig .tc) (hb : b ≠ main_v31) :
    W13 m ρ c (Proc.devRef .tc b) = W12 m ρ c (Proc.devRef .tc b) := by
  by_cases h : ∃ w, Pipeline.arrRef spec6 w = b
  · obtain ⟨w, rfl⟩ := h
    have hw : (cfg6.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
      | ⟨_ + 6, h⟩, _ => exact absurd h (Nat.not_lt.2 (Nat.le_add_left _ _))
    exact (W13_arr m ρ c w).trans (((dat6 (Hand.V12 m ρ) c).arrAt_in w hw _).trans (A_eq6 (Hand.V12 m ρ) c w))
  · exact W13_of_ne m ρ c b fun w e => h ⟨w, e⟩
theorem keepH7 (c : Dev nD) (b : Ref sig .tc) (hb : b ∉ Cert.Kernel.Gen.hostOps7_W) :
    W14 m ρ c (Proc.devRef .tc b) = W13 m ρ c (Proc.devRef .tc b) :=
  StableHlo.after_of_writes_sub hostOps7 _ Cert.Kernel.Gen.hostOps7_writes hb
/-- Region 7 leaves every buffer but its output array as entered. -/
theorem keepR7 (c : Dev nD) (b : Ref sig .tc) (hb : b ≠ main_v36) :
    W15 m ρ c (Proc.devRef .tc b) = W14 m ρ c (Proc.devRef .tc b) := by
  by_cases h : ∃ w, Pipeline.arrRef spec7 w = b
  · obtain ⟨w, rfl⟩ := h
    have hw : (cfg7.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
      | ⟨_ + 8, h⟩, _ => exact absurd h (Nat.not_lt.2 (Nat.le_add_left _ _))
    exact (W15_arr m ρ c w).trans (((dat7 (Hand.V14 m ρ) c).arrAt_in w hw _).trans (A_eq7 (Hand.V14 m ρ) c w))
  · exact W15_of_ne m ρ c b fun w e => h ⟨w, e⟩

/-- A buffer none of the fifteen items writes holds at the end what it held at launch. -/
theorem kept (c : Dev nD) (b : Ref sig .tc)
    (h0 : b ∉ Cert.Kernel.Gen.hostOps0_W) (h1 : b ≠ main_v15) (h2 : b ∉ Cert.Kernel.Gen.hostOps1_W) (h3 : b ≠ main_v19)
    (h4 : b ∉ Cert.Kernel.Gen.hostOps2_W) (h5 : b ≠ main_v21) (h6 : b ∉ Cert.Kernel.Gen.hostOps3_W) (h7 : b ≠ main_v23)
    (h8 : b ∉ Cert.Kernel.Gen.hostOps4_W) (h9 : b ≠ main_v27) (h10 : b ≠ main_v28) (h11 : b ∉ Cert.Kernel.Gen.hostOps6_W)
    (h12 : b ≠ main_v31) (h13 : b ∉ Cert.Kernel.Gen.hostOps7_W) (h14 : b ≠ main_v36) :
    W15 m ρ c (Proc.devRef .tc b) = m ((c : Thread nD τ).loc b) :=
  (keepR7 m ρ c b h14).trans <| (keepH7 m ρ c b h13).trans <| (keepR6 m ρ c b h12).trans <| (keepH6 m ρ c b h11).trans <|
  (keepR5 m ρ c b h10).trans <| (keepR4 m ρ c b h9).trans <| (keepH4 m ρ c b h8).trans <| (keepR3 m ρ c b h7).trans <|
  (keepH3 m ρ c b h6).trans <| (keepR2 m ρ c b h5).trans <| (keepH2 m ρ c b h4).trans <| (keepR1 m ρ c b h3).trans <|
  (keepH1 m ρ c b h2).trans <| (keepR0 m ρ c b h1).trans <| (keepH0 m ρ c b h0).trans rfl

/-- The result buffer at the last boundary is the last region's output array. -/
theorem W15_out (c : Dev nD) : W15 m ρ c (Proc.devRef .tc main_v36) = (dat7 (Hand.V14 m ρ) c).arrAt 7 cfg7.N :=
  W15_arr m ρ c 7

/-- THE FRAME of the kernel, at any float values (cited at the word-level instance): every weakly fair execution terminates, nothing faulting, and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
        (h c _ (mem_uc main_arg0 (by decide))).trans (kept m ρ c main_arg0 (by decide) (by decide) (by decide) (by decide) (by decide) (by decide) (by decide) (by decide) (by decide) (by decide) (by decide) (by decide) (by decide) (by decide) (by decide)),
        (h c _ (mem_uc main_arg1 (by decide))).trans (kept m ρ c main_arg1 (by decide) (by decide) (by decide) (by decide) (by decide) (by decide) (by decide) (by decide) (by decide) (by decide) (by decide) (by decide) (by decide) (by decide) (by decide)),
        (h c _ (mem_uc main_arg2 (by decide))).trans (kept m ρ c main_arg2 (by decide) (by decide) (by decide) (by decide) (by decide) (by decide) (by decide) (by decide) (by decide) (by decide) (by decide) (by decide) (by decide) (by decide) (by decide)),
        (h c _ (mem_uc main_arg3 (by decide))).trans (kept m ρ c main_arg3 (by decide) (by decide) (by decide) (by decide) (by decide) (by decide) (by decide) (by decide) (by decide) (by decide) (by decide) (by decide) (by decide) (by decide) (by decide)),
        (h c _ (mem_uc main_arg4 (by decide))).trans (kept m ρ c main_arg4 (by decide) (by decide) (by decide) (by decide) (by decide) (by decide) (by decide) (by decide) (by decide) (by decide) (by decide) (by decide) (by decide) (by decide) (by decide)),
        (h c _ (mem_uc main_arg5 (by decide))).trans (kept m ρ c main_arg5 (by decide) (by decide) (by decide) (by decide) (by decide) (by decide) (by decide) (by decide) (by decide) (by decide) (by decide) (by decide) (by decide) (by decide) (by decide)),
        (h c _ (mem_uc main_arg6 (by decide))).trans (kept m ρ c main_arg6 (by decide) (by decide) (by decide) (by decide) (by decide) (by decide) (by decide) (by decide) (by decide) (by decide) (by decide) (by decide) (by decide) (by decide) (by decide)),
        (h c _ (mem_uc main_arg7 (by decide))).trans (kept m ρ c main_arg7 (by decide) (by decide) (by decide) (by decide) (by decide) (by decide) (by decide) (by decide) (by decide) (by decide) (by decide) (by decide) (by decide) (by decide) (by decide)),
        (h c _ (mem_uc main_arg8 (by decide))).trans (kept m ρ c main_arg8 (by decide) (by decide) (by decide) (by decide) (by decide) (by decide) (by decide) (by decide) (by decide) (by decide) (by decide) (by decide) (by decide) (by decide) (by decide)),
        (h c _ (mem_uc main_arg9 (by decide))).trans (kept m ρ c main_arg9 (by decide) (by decide) (by decide) (by decide) (by decide) (by decide) (by decide) (by decide) (by decide) (by decide) (by decide) (by decide) (by decide) (by decide) (by decide)),
        (h c _ (mem_uc main_arg10 (by decide))).trans (kept m ρ c main_arg10 (by decide) (by decide) (by decide) (by decide) (by decide) (by decide) (by decide) (by decide) (by decide) (by decide) (by decide) (by decide) (by decide) (by decide) (by decide)),
        (h c _ (mem_uc main_arg11 (by decide))).trans (kept m ρ c main_arg11 (by decide) (by decide) (by decide) (by decide) (by decide) (by decide) (by decide) (by decide) (by decide) (by decide) (by decide) (by decide) (by decide) (by decide) (by decide)),
        (h c _ (mem_uc main_arg12 (by decide))).trans (kept m ρ c main_arg12 (by decide) (by decide) (by decide) (by decide) (by decide) (by decide) (by decide) (by decide) (by decide) (by decide) (by decide) (by decide) (by decide) (by decide) (by decide)),
        (h c _ (mem_uc main_arg13 (by decide))).trans (kept m ρ c main_arg13 (by decide) (by decide) (by decide) (by decide) (by decide) (by decide) (by decide) (by decide) (by decide) (by decide) (by decide) (by decide) (by decide) (by decide) (by decide)),
        (h c _ (mem_uc main_arg14 (by decide))).trans (kept m ρ c main_arg14 (by decide) (by decide) (by decide) (by decide) (by decide) (by decide) (by decide) (by decide) (by decide) (by decide) (by decide) (by decide) (by decide) (by decide) (by decide))⟩) (run_all m ρ)

end Cert.Kernel.Hand

end
-- ==== Proof.LibLayout.lean ====
/-
  A vector laid out as a one-column or a one-row matrix.

  Reshaping a length-N vector to [N, 1], or broadcasting it there along axis 0, gives the matrix whose entry (r, 0) is the
  vector's entry r; reshaping a length-M vector to [1, M], or broadcasting it there along axis 1, gives the matrix whose
  entry (0, j) is the vector's entry j. A one-column matrix broadcast across columns reads its entry (r, 0) at (r, j), a
  one-row matrix broadcast down rows its entry (0, j), and a scalar broadcast anywhere reads the scalar.
-/
import Idealize.ShloMosaic.Lib.ValueIdx
import Idealize.ShloMosaic.Lib.Pipeline.Value

noncomputable section

namespace Cert.LibLayout

open Idealize.ShloMosaic Idealize.ShloMosaic.ValueIdx

variable {α : Type} {N M : Nat}

/-- A vector as a one-column matrix: entry (r, 0) is the vector's entry r. -/
def asCol (y : (⟨1, ![N]⟩ : Shape).Idx → α) : (⟨2, ![N, 1]⟩ : Shape).Idx → α := fun i => y (ix1 (i 0))

/-- A vector as a one-row matrix: entry (0, j) is the vector's entry j. -/
def asRow (y : (⟨1, ![M]⟩ : Shape).Idx → α) : (⟨2, ![1, M]⟩ : Shape).Idx → α := fun i => y (ix1 (i 1))

theorem asCol_apply (y : (⟨1, ![N]⟩ : Shape).Idx → α) (r : Fin N) (z : Fin 1) : asCol y (ix2 r z) = y (ix1 r) := rfl

theorem asRow_apply (y : (⟨1, ![M]⟩ : Shape).Idx → α) (z : Fin 1) (j : Fin M) : asRow y (ix2 z j) = y (ix1 j) := rfl

/-- Reshaping a vector to one column. -/
theorem shapeCast_col (y : (⟨1, ![N]⟩ : Shape).Idx → α) (h : (⟨1, ![N]⟩ : Shape).ShapeCasts ⟨2, ![N, 1]⟩) :
    shapeCast ⟨2, ![N, 1]⟩ y h = asCol y := by
  funext j
  refine shapeCast_apply y h j (ix1 (j 0)) ?_
  rw [Shape.rowMajor_val_one, Shape.rowMajor_val_two]
  have h1 : (j 1).val < 1 := (j 1).isLt
  show (j 0).val = (j 0).val * 1 + (j 1).val
  omega

/-- Reshaping a vector to one row. -/
theorem shapeCast_row (y : (⟨1, ![M]⟩ : Shape).Idx → α) (h : (⟨1, ![M]⟩ : Shape).ShapeCasts ⟨2, ![1, M]⟩) :
    shapeCast ⟨2, ![1, M]⟩ y h = asRow y := by
  funext j
  refine shapeCast_apply y h j (ix1 (j 1)) ?_
  rw [Shape.rowMajor_val_one, Shape.rowMajor_val_two]
  have h0 : (j 0).val < 1 := (j 0).isLt
  have h0' : (j 0).val = 0 := by omega
  show (j 1).val = (j 0).val * M + (j 1).val
  rw [h0']; omega

/-- Broadcasting a vector along axis 0 into one column. -/
theorem broadcastInDim_col (y : (⟨1, ![N]⟩ : Shape).Idx → α) (h : (⟨1, ![N]⟩ : Shape).BroadcastsInDim ⟨2, ![N, 1]⟩ ![0]) :
    broadcastInDim ⟨2, ![N, 1]⟩ ![0] h y = asCol y := by
  funext j
  refine broadcastInDim_apply ![0] h y j (ix1 (j 0)) fun a => ?_
  match a with
  | ⟨0, _⟩ =>
    show (j 0).val = if N = 1 then 0 else (j 0).val
    split
    · next hN => subst hN; have h1 : (j 0).val < 1 := (j 0).isLt; show (j 0).val = 0; omega
    · rfl

/-- Broadcasting a vector along axis 1 into one row. -/
theorem broadcastInDim_row (y : (⟨1, ![M]⟩ : Shape).Idx → α) (h : (⟨1, ![M]⟩ : Shape).BroadcastsInDim ⟨2, ![1, M]⟩ ![1]) :
    broadcastInDim ⟨2, ![1, M]⟩ ![1] h y = asRow y := by
  funext j
  refine broadcastInDim_apply ![1] h y j (ix1 (j 1)) fun a => ?_
  match a with
  | ⟨0, _⟩ =>
    show (j 1).val = if M = 1 then 0 else (j 1).val
    split
    · next hM => subst hM; have h1 : (j 1).val < 1 := (j 1).isLt; show (j 1).val = 0; omega
    · rfl

/-- A one-column matrix broadcast across M columns, read at (r, j): its entry (r, 0). -/
theorem broadcastInDim_cols_apply (g : (⟨2, ![N, 1]⟩ : Shape).Idx → α)
    (h : (⟨2, ![N, 1]⟩ : Shape).BroadcastsInDim ⟨2, ![N, M]⟩ ![0, 1]) (r : Fin N) (j : Fin M) :
    broadcastInDim ⟨2, ![N, M]⟩ ![0, 1] h g (ix2 r j) = g (ix2 r (0 : Fin 1)) :=
  broadcastInDim_apply ![0, 1] h g (ix2 r j) (ix2 r (0 : Fin 1)) fun a => by
    match a with
    | ⟨0, _⟩ =>
      show r.val = if N = 1 then 0 else r.val
      split
      · next hN => subst hN; omega
      · rfl
    | ⟨1, _⟩ => exact (if_pos rfl).symm

/-- A one-row matrix broadcast down N rows, read at (r, j): its entry (0, j). -/
theorem broadcastInDim_rows_apply (b : (⟨2, ![1, M]⟩ : Shape).Idx → α)
    (h : (⟨2, ![1, M]⟩ : Shape).BroadcastsInDim ⟨2, ![N, M]⟩ ![0, 1]) (r : Fin N) (j : Fin M) :
    broadcastInDim ⟨2, ![N, M]⟩ ![0, 1] h b (ix2 r j) = b (ix2 (0 : Fin 1) j) :=
  broadcastInDim_apply ![0, 1] h b (ix2 r j) (ix2 (0 : Fin 1) j) fun a => by
    match a with
    | ⟨0, _⟩ => exact (if_pos rfl).symm
    | ⟨1, _⟩ =>
      show j.val = if M = 1 then 0 else j.val
      split
      · next hM => subst hM; omega
      · rfl

/-- A scalar broadcast to any shape reads the scalar everywhere. -/
theorem broadcastInDim_scalar_apply {t : Shape} (x : (⟨0, ![]⟩ : Shape).Idx → α)
    (h : (⟨0, ![]⟩ : Shape).BroadcastsInDim t ![]) (i : t.Idx) :
    broadcastInDim t ![] h x i = x ix0 :=
  broadcastInDim_apply ![] h x i ix0 fun a => a.elim0

end Cert.LibLayout

end
-- ==== Proof.KI.Glue.lean ====
/-
  The host operations between the regions, read at an index (over the extended reals, where a change of float format is the
  identity): the weights' side-by-side joins, the zero biases, the sum of the output matrix's eight row blocks, the column
  slices of the fused projections, and the vectors laid out as one-row matrices.
-/
import proofs.«172065_j32710470926956_2_alg».proof.Proof.KI.Frame
import proofs.«172065_j32710470926956_2_alg».proof.Proof.LibLayout
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Before region 0 -/

/-- The converted weights are the weights. -/
theorem g_v4 (c : Dev nD) : W1 m ρ c (Proc.devRef .tc main_v4) = m ((c : Thread nD τ).loc main_arg5) := by
  show StableHlo.after hostOps0 (W0 m ρ c) (Proc.devRef .tc main_v4) = _
  after_results
  rfl
theorem g_v8 (c : Dev nD) : W1 m ρ c (Proc.devRef .tc main_v8) = m ((c : Thread nD τ).loc main_arg11) := by
  show StableHlo.after hostOps0 (W0 m ρ c) (Proc.devRef .tc main_v8) = _
  after_results
  rfl
theorem g_v9 (c : Dev nD) : W1 m ρ c (Proc.devRef .tc main_v9) = m ((c : Thread nD τ).loc main_arg13) := by
  show StableHlo.after hostOps0 (W0 m ρ c) (Proc.devRef .tc main_v9) = _
  after_results
  rfl

/-- The self-attention's joined weight: columns 0–63, 64–127, 128–191 are the query, key and value weights. -/
theorem g_v1_0 (c : Dev nD) (k : Fin 512) (cc : Fin 64) :
    (W1 m ρ c (Proc.devRef .tc main_v1) : S512x192.Idx → EReal) (ix2 k (⟨cc.val, by omega⟩ : Fin 192))
      = (m ((c : Thread nD τ).loc main_arg2) : S512x64.Idx → EReal) (ix2 k cc) := by
  show StableHlo.after hostOps0 (W0 m ρ c) (Proc.devRef .tc main_v1) _ = _
  after_results
  rw [truncf_apply]
  refine concatenate_apply_piece (t := S512x192) 1 _ _ _ 0 ?_ S512x64 _ ?_ ?_ 0 ?_ (ix2 k cc) ?_ ?_
  · simp
  · rfl
  · rfl
  · rfl
  · intro b hb
    match b with
    | ⟨0, _⟩ => rfl
    | ⟨1, _⟩ => exact absurd rfl hb
  · show 0 + cc.val = cc.val; omega
theorem g_v1_1 (c : Dev nD) (k : Fin 512) (cc : Fin 64) :
    (W1 m ρ c (Proc.devRef .tc main_v1) : S512x192.Idx → EReal) (ix2 k (⟨64 + cc.val, by omega⟩ : Fin 192))
      = (m ((c : Thread nD τ).loc main_arg3) : S512x64.Idx → EReal) (ix2 k cc) := by
  show StableHlo.after hostOps0 (W0 m ρ c) (Proc.devRef .tc main_v1) _ = _
  after_results
  rw [truncf_apply]
  refine concatenate_apply_piece (t := S512x192) 1 _ _ _ 1 ?_ S512x64 _ ?_ ?_ 64 ?_ (ix2 k cc) ?_ ?_
  · simp
  · rfl
  · rfl
  · rfl
  · intro b hb
    match b with
    | ⟨0, _⟩ => rfl
    | ⟨1, _⟩ => exact absurd rfl hb
  · rfl
theorem g_v1_2 (c : Dev nD) (k : Fin 512) (cc : Fin 64) :
    (W1 m ρ c (Proc.devRef .tc main_v1) : S512x192.Idx → EReal) (ix2 k (⟨128 + cc.val, by omega⟩ : Fin 192))
      = (m ((c : Thread nD τ).loc main_arg4) : S512x64.Idx → EReal) (ix2 k cc) := by
  show StableHlo.after hostOps0 (W0 m ρ c) (Proc.devRef .tc main_v1) _ = _
  after_results
  rw [truncf_apply]
  refine concatenate_apply_piece (t := S512x192) 1 _ _ _ 2 ?_ S512x64 _ ?_ ?_ 128 ?_ (ix2 k cc) ?_ ?_
  · simp
  · rfl
  · rfl
  · rfl
  · intro b hb
    match b with
    | ⟨0, _⟩ => rfl
    | ⟨1, _⟩ => exact absurd rfl hb
  · rfl

/-- The cross-attention's joined weight: columns 0–63 and 64–127 are the key and value weights. -/
theorem g_v3_0 (c : Dev nD) (k : Fin 512) (cc : Fin 64) :
    (W1 m ρ c (Proc.devRef .tc main_v3) : S512x128.Idx → EReal) (ix2 k (⟨cc.val, by omega⟩ : Fin 128))
      = (m ((c : Thread nD τ).loc main_arg6) : S512x64.Idx → EReal) (ix2 k cc) := by
  show StableHlo.after hostOps0 (W0 m ρ c) (Proc.devRef .tc main_v3) _ = _
  after_results
  rw [truncf_apply]
  refine concatenate_apply_piece (t := S512x128) 1 _ _ _ 0 ?_ S512x64 _ ?_ ?_ 0 ?_ (ix2 k cc) ?_ ?_
  · simp
  · rfl
  · rfl
  · rfl
  · intro b hb
    match b with
    | ⟨0, _⟩ => rfl
    | ⟨1, _⟩ => exact absurd rfl hb
  · show 0 + cc.val = cc.val; omega
theorem g_v3_1 (c : Dev nD) (k : Fin 512) (cc : Fin 64) :
    (W1 m ρ c (Proc.devRef .tc main_v3) : S512x128.Idx → EReal) (ix2 k (⟨64 + cc.val, by omega⟩ : Fin 128))
      = (m ((c : Thread nD τ).loc main_arg7) : S512x64.Idx → EReal) (ix2 k cc) := by
  show StableHlo.after hostOps0 (W0 m ρ c) (Proc.devRef .tc main_v3) _ = _
  after_results
  rw [truncf_apply]
  refine concatenate_apply_piece (t := S512x128) 1 _ _ _ 1 ?_ S512x64 _ ?_ ?_ 64 ?_ (ix2 k cc) ?_ ?_
  · simp
  · rfl
  · rfl
  · rfl
  · intro b hb
    match b with
    | ⟨0, _⟩ => rfl
    | ⟨1, _⟩ => exact absurd rfl hb
  · rfl

end Cert.KernelIdeal.Hand

end
-- ==== Proof.KI.Glue2.lean ====
/-
  More of the host operations between the regions, read at an index: the zero biases, the sum of the output matrix's eight row
  blocks, the column slices of the two fused projections, and the vectors laid out as one-row matrices.
-/
import proofs.«172065_j32710470926956_2_alg».proof.Proof.KI.Glue
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A reshape of a broadcast of the zero constant is zero everywhere. -/
theorem reshape_bcast_zero {s t : Shape} (hb : (⟨0, ![]⟩ : Shape).BroadcastsInDim s ![]) (hc : s.ShapeCasts t) (i : t.Idx) :
    shapeCast t (broadcastInDim s ![] hb (constant (F := Ideal) S_ .f32 0x00000000#32)) hc i = 0 := by
  unfold shapeCast
  rw [broadcastInDim_scalar_apply, constant_apply, Ideal.ofBits_zero_f32]

/-- The first projection's bias row is zero. -/
theorem g_v14 (c : Dev nD) (i : S1x192.Idx) : (W1 m ρ c (Proc.devRef .tc main_v14) : S1x192.Idx → EReal) i = (0 : EReal) := by
  show (StableHlo.after hostOps0 (W0 m ρ c) (Proc.devRef .tc main_v14) : S1x192.Idx → EReal) i = (0 : EReal)
  after_results
  exact reshape_bcast_zero _ _ i

/-- The bias rows of the other three projections are zero. -/
theorem g_v20 (c : Dev nD) (i : S1x512.Idx) : (W5 m ρ c (Proc.devRef .tc main_v20) : S1x512.Idx → EReal) i = (0 : EReal) := by
  show (StableHlo.after hostOps2 (W4 m ρ c) (Proc.devRef .tc main_v20) : S1x512.Idx → EReal) i = (0 : EReal)
  after_results
  rw [show W4 m ρ c (Proc.devRef .tc main_v13) = W1 m ρ c (Proc.devRef .tc main_v13) from
    (keepR1 m ρ c main_v13 (by decide)).trans ((keepH1 m ρ c main_v13 (by decide)).trans (keepR0 m ρ c main_v13 (by decide)))]
  show shapeCast S1x512 (StableHlo.after hostOps0 (W0 m ρ c) (Proc.devRef .tc main_v13) : S512.Idx → EReal) shapeCasts_S512_S1x512 i = (0 : EReal)
  after_results
  exact reshape_bcast_zero _ _ i

theorem g_v22 (c : Dev nD) (i : S1x128.Idx) : (W7 m ρ c (Proc.devRef .tc main_v22) : S1x128.Idx → EReal) i = (0 : EReal) := by
  show (StableHlo.after hostOps3 (W6 m ρ c) (Proc.devRef .tc main_v22) : S1x128.Idx → EReal) i = (0 : EReal)
  after_results
  rw [show W6 m ρ c (Proc.devRef .tc main_v11) = W1 m ρ c (Proc.devRef .tc main_v11) from
    (keepR2 m ρ c main_v11 (by decide)).trans ((keepH2 m ρ c main_v11 (by decide)).trans ((keepR1 m ρ c main_v11 (by decide)).trans
      ((keepH1 m ρ c main_v11 (by decide)).trans (keepR0 m ρ c main_v11 (by decide)))))]
  show shapeCast S1x128 (StableHlo.after hostOps0 (W0 m ρ c) (Proc.devRef .tc main_v11) : S128.Idx → EReal) shapeCasts_S128_S1x128 i = (0 : EReal)
  after_results
  exact reshape_bcast_zero _ _ i

theorem g_v26 (c : Dev nD) (i : S1x64.Idx) : (W9 m ρ c (Proc.devRef .tc main_v26) : S1x64.Idx → EReal) i = (0 : EReal) := by
  show (StableHlo.after hostOps4 (W8 m ρ c) (Proc.devRef .tc main_v26) : S1x64.Idx → EReal) i = (0 : EReal)
  after_results
  rw [show W8 m ρ c (Proc.devRef .tc main_v12) = W1 m ρ c (Proc.devRef .tc main_v12) from
    (keepR3 m ρ c main_v12 (by decide)).trans ((keepH3 m ρ c main_v12 (by decide)).trans ((keepR2 m ρ c main_v12 (by decide)).trans
      ((keepH2 m ρ c main_v12 (by decide)).trans ((keepR1 m ρ c main_v12 (by decide)).trans
        ((keepH1 m ρ c main_v12 (by decide)).trans (keepR0 m ρ c main_v12 (by decide)))))))]
  show shapeCast S1x64 (StableHlo.after hostOps0 (W0 m ρ c) (Proc.devRef .tc main_v12) : S64.Idx → EReal) shapeCasts_S64_S1x64 i = (0 : EReal)
  after_results
  exact reshape_bcast_zero _ _ i

/-- The summed output matrix: entry (p, c) is the sum over the eight row blocks j of the output matrix at (64·j + p, c). -/
theorem g_v7 (c : Dev nD) (p : Fin 64) (cc : Fin 512) :
    (W1 m ρ c (Proc.devRef .tc main_v7) : S64x512.Idx → EReal) (ix2 p cc)
      = ∑ j : Fin 8, (id (m ((c : Thread nD τ).loc main_arg8)) : S512x512.Idx → EReal)
          (ix2 (⟨64 * j.val + p.val, by have := j.isLt; have := p.isLt; omega⟩ : Fin 512) cc) := by
  show (StableHlo.after hostOps0 (W0 m ρ c) (Proc.devRef .tc main_v7) : S64x512.Idx → EReal) (ix2 p cc)
    = ∑ j : Fin 8, (id (m ((c : Thread nD τ).loc main_arg8)) : S512x512.Idx → EReal)
        (ix2 (⟨64 * j.val + p.val, by have := j.isLt; have := p.isLt; omega⟩ : Fin 512) cc)
  after_results
  have h : S8x64x512.Reduces [0] S64x512 := by decide
  rw [truncf_apply, hostReduceAdd_apply, Ideal.hostReduceAdd_single reducesTo_S8x64x512_S64x512_d0 h, constant_apply,
    Ideal.ofBits_zero_f32]
  refine (zero_add (M := EReal) _).trans ?_
  refine Finset.sum_congr rfl fun j _ => ?_
  have hj : j.val < 8 := j.isLt
  have hp : p.val < 64 := p.isLt
  show shapeCast S8x64x512 (W0 m ρ c (Proc.devRef .tc main_arg8) : S512x512.Idx → EReal) shapeCasts_S512x512_S8x64x512 (h.lift (ix2 p cc) j)
    = (id (m ((c : Thread nD τ).loc main_arg8)) : S512x512.Idx → EReal) (ix2 (⟨64 * j.val + p.val, by omega⟩ : Fin 512) cc)
  refine shapeCast_apply (s := S512x512) (t := S8x64x512) _ _ _ (ix2 (⟨64 * j.val + p.val, by omega⟩ : Fin 512) cc) ?_
  rw [Shape.rowMajor_val_two, Shape.rowMajor_val_three]
  show (64 * j.val + p.val) * 512 + cc.val = ((j.val * 64 + p.val) * 512 + cc.val)
  ring

/-! ## The column slices of the two fused projections -/

theorem g_v16 (c : Dev nD) (r : Fin 8192) (cc : Fin 64) :
    (W3 m ρ c (Proc.devRef .tc main_v16) : S8192x64.Idx → EReal) (ix2 r cc)
      = (W2 m ρ c (Proc.devRef .tc main_v15) : S8192x192.Idx → EReal) (ix2 r (⟨cc.val, by omega⟩ : Fin 192)) := by
  show (StableHlo.after hostOps1 (W2 m ρ c) (Proc.devRef .tc main_v16) : S8192x64.Idx → EReal) _ = _
  after_results
  exact extractStridedSlice_apply _ _ _ _ _ fun a => by
    match a with
    | ⟨0, _⟩ => show r.val = 0 + r.val; omega
    | ⟨1, _⟩ => show cc.val = 0 + cc.val; omega
theorem g_v17 (c : Dev nD) (r : Fin 8192) (cc : Fin 64) :
    (W3 m ρ c (Proc.devRef .tc main_v17) : S8192x64.Idx → EReal) (ix2 r cc)
      = (W2 m ρ c (Proc.devRef .tc main_v15) : S8192x192.Idx → EReal) (ix2 r (⟨64 + cc.val, by omega⟩ : Fin 192)) := by
  show (StableHlo.after hostOps1 (W2 m ρ c) (Proc.devRef .tc main_v17) : S8192x64.Idx → EReal) _ = _
  after_results
  exact extractStridedSlice_apply _ _ _ _ _ fun a => by
    match a with
    | ⟨0, _⟩ => show r.val = 0 + r.val; omega
    | ⟨1, _⟩ => rfl
theorem g_v18 (c : Dev nD) (r : Fin 8192) (cc : Fin 64) :
    (W3 m ρ c (Proc.devRef .tc main_v18) : S8192x64.Idx → EReal) (ix2 r cc)
      = (W2 m ρ c (Proc.devRef .tc main_v15) : S8192x192.Idx → EReal) (ix2 r (⟨128 + cc.val, by omega⟩ : Fin 192)) := by
  show (StableHlo.after hostOps1 (W2 m ρ c) (Proc.devRef .tc main_v18) : S8192x64.Idx → EReal) _ = _
  after_results
  exact extractStridedSlice_apply _ _ _ _ _ fun a => by
    match a with
    | ⟨0, _⟩ => show r.val = 0 + r.val; omega
    | ⟨1, _⟩ => rfl
theorem g_v24 (c : Dev nD) (r : Fin 8192) (cc : Fin 64) :
    (W9 m ρ c (Proc.devRef .tc main_v24) : S8192x64.Idx → EReal) (ix2 r cc)
      = (W8 m ρ c (Proc.devRef .tc main_v23) : S8192x128.Idx → EReal) (ix2 r (⟨cc.val, by omega⟩ : Fin 128)) := by
  show (StableHlo.after hostOps4 (W8 m ρ c) (Proc.devRef .tc main_v24) : S8192x64.Idx → EReal) _ = _
  after_results
  exact extractStridedSlice_apply _ _ _ _ _ fun a => by
    match a with
    | ⟨0, _⟩ => show r.val = 0 + r.val; omega
    | ⟨1, _⟩ => show cc.val = 0 + cc.val; omega
theorem g_v25 (c : Dev nD) (r : Fin 8192) (cc : Fin 64) :
    (W9 m ρ c (Proc.devRef .tc main_v25) : S8192x64.Idx → EReal) (ix2 r cc)
      = (W8 m ρ c (Proc.devRef .tc main_v23) : S8192x128.Idx → EReal) (ix2 r (⟨64 + cc.val, by omega⟩ : Fin 128)) := by
  show (StableHlo.after hostOps4 (W8 m ρ c) (Proc.devRef .tc main_v25) : S8192x64.Idx → EReal) _ = _
  after_results
  exact extractStridedSlice_apply _ _ _ _ _ fun a => by
    match a with
    | ⟨0, _⟩ => show r.val = 0 + r.val; omega
    | ⟨1, _⟩ => rfl

/-! ## The vectors laid out as one-row matrices -/

/-- A vector reshaped to one row reads the vector at the column. -/
theorem reshape_row {N : ℕ} {α : Type} (x : (⟨1, ![N]⟩ : Shape).Idx → α) (h : (⟨1, ![N]⟩ : Shape).ShapeCasts ⟨2, ![1, N]⟩)
    (cc : Fin N) : shapeCast ⟨2, ![1, N]⟩ x h (ix2 (0 : Fin 1) cc) = x (ix1 cc) := by
  refine shapeCast_apply x h _ _ ?_
  rw [Shape.rowMajor_val_one, Shape.rowMajor_val_two]
  show cc.val = 0 * N + cc.val
  omega

theorem g_v29 (c : Dev nD) (cc : Fin 512) :
    (W12 m ρ c (Proc.devRef .tc main_v29) : S1x512.Idx → EReal) (ix2 (0 : Fin 1) cc)
      = (W11 m ρ c (Proc.devRef .tc main_arg9) : S512.Idx → EReal) (ix1 cc) := by
  show (StableHlo.after hostOps6 (W11 m ρ c) (Proc.devRef .tc main_v29) : S1x512.Idx → EReal) _ = _
  after_results
  exact reshape_row _ _ cc
theorem g_v30 (c : Dev nD) (cc : Fin 512) :
    (W12 m ρ c (Proc.devRef .tc main_v30) : S1x512.Idx → EReal) (ix2 (0 : Fin 1) cc)
      = (W11 m ρ c (Proc.devRef .tc main_arg10) : S512.Idx → EReal) (ix1 cc) := by
  show (StableHlo.after hostOps6 (W11 m ρ c) (Proc.devRef .tc main_v30) : S1x512.Idx → EReal) _ = _
  after_results
  exact reshape_row _ _ cc
theorem g_v32 (c : Dev nD) (cc : Fin 2048) :
    (W14 m ρ c (Proc.devRef .tc main_v32) : S1x2048.Idx → EReal) (ix2 (0 : Fin 1) cc)
      = (W13 m ρ c (Proc.devRef .tc main_arg12) : S2048.Idx → EReal) (ix1 cc) := by
  show (StableHlo.after hostOps7 (W13 m ρ c) (Proc.devRef .tc main_v32) : S1x2048.Idx → EReal) _ = _
  after_results
  exact reshape_row _ _ cc
theorem g_v33 (c : Dev nD) (cc : Fin 512) :
    (W14 m ρ c (Proc.devRef .tc main_v33) : S1x512.Idx → EReal) (ix2 (0 : Fin 1) cc)
      = (W13 m ρ c (Proc.devRef .tc main_arg14) : S512.Idx → EReal) (ix1 cc) := by
  show (StableHlo.after hostOps7 (W13 m ρ c) (Proc.devRef .tc main_v33) : S1x512.Idx → EReal) _ = _
  after_results
  exact reshape_row _ _ cc
theorem g_v34 (c : Dev nD) (cc : Fin 512) :
    (W14 m ρ c (Proc.devRef .tc main_v34) : S1x512.Idx → EReal) (ix2 (0 : Fin 1) cc)
      = (W13 m ρ c (Proc.devRef .tc main_arg9) : S512.Idx → EReal) (ix1 cc) := by
  show (StableHlo.after hostOps7 (W13 m ρ c) (Proc.devRef .tc main_v34) : S1x512.Idx → EReal) _ = _
  after_results
  exact reshape_row _ _ cc
theorem g_v35 (c : Dev nD) (cc : Fin 512) :
    (W14 m ρ c (Proc.devRef .tc main_v35) : S1x512.Idx → EReal) (ix2 (0 : Fin 1) cc)
      = (W13 m ρ c (Proc.devRef .tc main_arg10) : S512.Idx → EReal) (ix1 cc) := by
  show (StableHlo.after hostOps7 (W13 m ρ c) (Proc.devRef .tc main_v35) : S1x512.Idx → EReal) _ = _
  after_results
  exact reshape_row _ _ cc

end Cert.KernelIdeal.Hand

end
-- ==== Proof.KI.Val0Pay.lean ====
/-
  Region 0's arithmetic at one entry of the output block.

  The body computes, from the point's 1024 × 512 rows x, the 512 × 192 weight w and the 1 × 192 bias b,
  the matrix product of x and w accumulated into a zero matrix, and adds the bias broadcast down the rows. Over the
  extended reals a change of float format is the identity and the zero accumulator drops out, so entry (r, c) is

      (∑ k < 512, x(r, k) · w(k, c)) + b(0, c).

  The product's contraction runs over one axis (axis 1 of x against axis 0 of w); its abstract contraction index is
  re-indexed by its one coordinate k < 512, and the operand indices at output index (r, c) and position k are (r, k)
  and (k, c), coordinate by coordinate.
-/
import proofs.«172065_j32710470926956_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The product's dimension numbers: [1024, 512] × [512, 192] → [1024, 192], contracting axis 1 against axis 0. -/
abbrev D0 := dot_S1024x512_S512x192_S1024x192_1_0_0_1_n_n

/-- The left operand's row is the output's row. -/
theorem lhs0_0 (i : S1024x192.Idx) (q : D0.contr.Idx) : (D0.lhsIdx i q 0).val = (i 0).val := by
  unfold DotDims.lhsIdx
  rw [dif_neg (show ¬(0 : Fin S1024x512.rank) ∈ D0.lhsBatch by decide),
    dif_pos (show (0 : Fin S1024x512.rank) ∈ D0.lhsNonContracting by decide)]
  rfl

/-- The left operand's column is the contraction position. -/
theorem lhs0_1 (i : S1024x192.Idx) (q : D0.contr.Idx) : (D0.lhsIdx i q 1).val = (q ⟨0, by decide⟩).val :=
  D0.lhsIdx_val_of_single rfl i q

/-- The right operand's row is the contraction position. -/
theorem rhs0_0 (i : S1024x192.Idx) (q : D0.contr.Idx) : (D0.rhsIdx i q 0).val = (q ⟨0, by decide⟩).val :=
  D0.rhsIdx_val_of_single rfl i q

/-- The right operand's column is the output's column. -/
theorem rhs0_1 (i : S1024x192.Idx) (q : D0.contr.Idx) : (D0.rhsIdx i q 1).val = (i 1).val := by
  unfold DotDims.rhsIdx
  rw [dif_neg (show ¬(1 : Fin S512x192.rank) ∈ D0.rhsBatch by decide),
    dif_pos (show (1 : Fin S512x192.rank) ∈ D0.rhsNonContracting by decide)]
  rfl

/-- Entry (r, c) of what the body stores: row r of x against column c of w, plus the bias at column c. -/
theorem pay0_apply (x0 : FVec Ideal S1024x512 .f32) (x1 : FVec Ideal S512x192 .bf16) (x2 : FVec Ideal S1x192 .f32)
    (r : Fin 1024) (c : Fin 192) :
    k0_pay1 (F := Ideal) x0 x1 x2 (ix2 r c) = (∑ k : Fin 512, x0 (ix2 r k) * x1 (ix2 k c)) + x2 (ix2 (0 : Fin 1) c) := by
  unfold k0_pay1
  rw [shapeCast_self, shapeCast_self, addf_apply]
  refine congrArg₂ (· + ·) ?_ ?_
  · -- the product: the sum over the contraction index, re-indexed by its coordinate
    simp only [matmul]
    rw [Ideal.matmul_constant_zero_apply, ← Equiv.sum_comp (contrEquiv1 D0 512 rfl rfl).symm]
    refine Finset.sum_congr rfl fun k _ => ?_
    have hk := contrEquiv1_symm_val D0 512 rfl rfl k
    have el : D0.lhsIdx (ix2 r c) ((contrEquiv1 D0 512 rfl rfl).symm k) = ix2 r k := funext fun a => Fin.ext (by
      match a with
      | ⟨0, _⟩ => exact lhs0_0 _ _
      | ⟨1, _⟩ => exact (lhs0_1 _ _).trans hk)
    have er : D0.rhsIdx (ix2 r c) ((contrEquiv1 D0 512 rfl rfl).symm k) = ix2 k c := funext fun a => Fin.ext (by
      match a with
      | ⟨0, _⟩ => exact (rhs0_0 _ _).trans hk
      | ⟨1, _⟩ => exact rhs0_1 _ _)
    rw [el, er]
    rfl
  · -- the bias row, the same in every row
    exact broadcastTo_apply _ _ _ (ix2 (0 : Fin 1) c) (fun a => by
      match a with
      | ⟨0, _⟩ => rfl
      | ⟨1, _⟩ => rfl)

end Cert.KernelIdeal.Hand

end
-- ==== Proof.Spec.Proj.lean ====
/-
  A matrix product plus a bias row, as one function of its three operand arrays.

  x is an n × k array, w a k × m array and b a 1 × m row. Entry (r, c) of the result is the dot product of row r of x
  with column c of w, plus the bias b(0, c):

      projBias x w b (r, c) = (∑ j < k, x(r, j) · w(j, c)) + b(0, c).

  Everything is over the extended reals; nothing here needs finiteness (only sums and products, never a law that moves
  a factor across a sum).
-/
import Idealize.ShloMosaic.PureOps.Ideal
import Idealize.ShloMosaic.Lib.ValueIdx

noncomputable section

open scoped BigOperators

namespace Cert.Spec

open Idealize.ShloMosaic Idealize.ShloMosaic.ValueIdx

/-- The product of an n × k array with a k × m array, plus a 1 × m row added to every row. -/
def projBias {n k m : ℕ} (x : (⟨2, ![n, k]⟩ : Shape).Idx → EReal) (w : (⟨2, ![k, m]⟩ : Shape).Idx → EReal)
    (b : (⟨2, ![1, m]⟩ : Shape).Idx → EReal) : (⟨2, ![n, m]⟩ : Shape).Idx → EReal :=
  fun i => (∑ j : Fin k, x (ix2 (i 0 : Fin n) j) * w (ix2 j (i 1 : Fin m))) + b (ix2 (0 : Fin 1) (i 1 : Fin m))

/-- The same at an index given by its coordinates. -/
theorem projBias_ix2 {n k m : ℕ} (x : (⟨2, ![n, k]⟩ : Shape).Idx → EReal) (w : (⟨2, ![k, m]⟩ : Shape).Idx → EReal)
    (b : (⟨2, ![1, m]⟩ : Shape).Idx → EReal) (r : Fin n) (c : Fin m) :
    projBias x w b (ix2 r c) = (∑ j : Fin k, x (ix2 r j) * w (ix2 j c)) + b (ix2 (0 : Fin 1) c) := rfl

end Cert.Spec

end
-- ==== Proof.KI.Val0.lean ====
/-
  Region 0's output array after the run, as one function of its operand arrays.

  The grid has 8 points. Point t reads rows 1024·t … 1024·t + 1023 of the 8192 × 512 array x, the whole 512 × 192 weight
  w and the whole 1 × 192 bias b, and writes rows 1024·t … 1024·t + 1023 of the 8192 × 192 output. Entry (p, q) of the
  block it writes is (∑ k < 512, x_blk(p, k) · w(k, q)) + b(0, q), and x_blk(p, k) = x(1024·t + p, k): so the block is
  exactly the rows 1024·t … of the whole-array function

      projBias x w b (r, c) = (∑ k < 512, x(r, k) · w(k, c)) + b(0, c).

  Row r of the output is written by point r / 1024, so the 8 blocks cover the array and it ends holding projBias x w b.
-/
import proofs.«172065_j32710470926956_2_alg».proof.Proof.KI.R0
import proofs.«172065_j32710470926956_2_alg».proof.Proof.KI.Val0Pay
import proofs.«172065_j32710470926956_2_alg».proof.Proof.Spec.Proj
import Idealize.ShloMosaic.Lib.Pipeline.Value

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-buffer access. -/
theorem hz0 : (![0, 0] : Fin 2 → Nat) = fun _ => 0 := funext fun a => by fin_cases a <;> rfl

/-- The four index maps at every grid point: the rows' and the output's block index is (t, 0), the weight's and the
    bias's is (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Each input block as entries of its array

An entry of a block sits in the array, on each axis, at block index × block size + its coordinate inside the block. -/

section Blocks
variable {F : FTy → Type} [FloatOps F] [Named F]
variable (V : (c : Dev nD) → (b : Ref sig .tc) → Buf (Elt F) ((c : Thread nD τ).loc b))

/-- The rows' block at point t: entry (p, k) is x(1024·t + p, k). -/
theorem blk0_0_apply (c : Dev nD) (t : Fin cfg0.N) (y : S1024x512.Idx) (k : S8192x512.Idx)
    (hk0 : (k 0).val = 1024 * t.val + (y 0).val) (hk1 : (k 1).val = (y 1).val) :
    (iblk0 V c 0 t : FVec F S1024x512 .f32) y = (V c (Pipeline.arrRef spec0 0) : S8192x512.Idx → F .f32) k := by
  obtain ⟨e0, e1, -⟩ := idx_facts0 t
  unfold iblk0
  rw [View.read_apply]
  refine congrArg (V c (Pipeline.arrRef spec0 0)) (funext fun a => Fin.ext ?_)
  match a with
  | ⟨0, _⟩ => show win0_0.index t (0 : Fin 2) * 1024 + 1 * (y 0).val = (k 0).val; rw [e0, hk0]; omega
  | ⟨1, _⟩ => show win0_0.index t (1 : Fin 2) * 512 + 1 * (y 1).val = (k 1).val; rw [e1, hk1]; omega

/-- The weight's block at every point is the whole weight. -/
theorem blk0_1_apply (c : Dev nD) (t : Fin cfg0.N) (y : S512x192.Idx) (k : S512x192.Idx)
    (hk0 : (k 0).val = (y 0).val) (hk1 : (k 1).val = (y 1).val) :
    (iblk0 V c 1 t : FVec F S512x192 .bf16) y = (V c (Pipeline.arrRef spec0 1) : S512x192.Idx → F .bf16) k := by
  obtain ⟨-, -, e0, e1, -⟩ := idx_facts0 t
  unfold iblk0
  rw [View.read_apply]
  refine congrArg (V c (Pipeline.arrRef spec0 1)) (funext fun a => Fin.ext ?_)
  match a with
  | ⟨0, _⟩ => show win0_1.index t (0 : Fin 2) * 512 + 1 * (y 0).val = (k 0).val; rw [e0, hk0]; omega
  | ⟨1, _⟩ => show win0_1.index t (1 : Fin 2) * 192 + 1 * (y 1).val = (k 1).val; rw [e1, hk1]; omega

/-- The bias's block at every point is the whole bias row. -/
theorem blk0_2_apply (c : Dev nD) (t : Fin cfg0.N) (y : S1x192.Idx) (k : S1x192.Idx)
    (hk0 : (k 0).val = (y 0).val) (hk1 : (k 1).val = (y 1).val) :
    (iblk0 V c 2 t : FVec F S1x192 .f32) y = (V c (Pipeline.arrRef spec0 2) : S1x192.Idx → F .f32) k := by
  obtain ⟨-, -, -, -, e0, e1, -⟩ := idx_facts0 t
  unfold iblk0
  rw [View.read_apply]
  refine congrArg (V c (Pipeline.arrRef spec0 2)) (funext fun a => Fin.ext ?_)
  match a with
  | ⟨0, _⟩ => show win0_2.index t (0 : Fin 2) * 1 + 1 * (y 0).val = (k 0).val; rw [e0, hk0]; omega
  | ⟨1, _⟩ => show win0_2.index t (1 : Fin 2) * 192 + 1 * (y 1).val = (k 1).val; rw [e1, hk1]; omega

end Blocks

/-! ## The output, over the extended reals -/

variable (V : (c : Dev nD) → (b : Ref sig .tc) → Buf (Elt Ideal) ((c : Thread nD τ).loc b))

/-- What point t writes back is rows 1024·t … 1024·t + 1023 of projBias of the three operand arrays: the one store
    covers the output's buffer, its value at (p, q) is the block product plus the bias, and each input block's entry is
    its array's entry at the place the output's row 1024·t + p and column q name. -/
theorem flushed0_eq (c : Dev nD) (t : Fin cfg0.N) :
    (dat0 (F := Ideal) V c).flushed 3 t
      = ((cfg0.win 3).blk t).view.read (Elt Ideal)
          (projBias (n := 8192) (k := 512) (m := 192) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S1024x512) hz0, View.ld_unit_zero (S := S512x192) hz0, View.ld_unit_zero (S := S1x192) hz0]
  refine funext fun (j : S1024x192.Idx) => ?_
  obtain ⟨p, q, rfl⟩ : ∃ (p : Fin 1024) (q : Fin 192), j = ix2 p q := ⟨j 0, j 1, eq_ix2 j⟩
  obtain ⟨-, -, -, -, -, -, e0, e1⟩ := idx_facts0 t
  have ht : t.val < 8 := lt_of_lt_of_eq t.isLt N_0
  -- entry (p, q) of the output's block is entry (1024·t + p, q) of the output's array
  have he : ((cfg0.win 3).blk t).view.emb (ix2 p q) = ix2 (⟨1024 * t.val + p.val, by omega⟩ : Fin 8192) q :=
    funext fun a => Fin.ext (by
      match a with
      | ⟨0, _⟩ => show win0_3.index t (0 : Fin 2) * 1024 + 1 * p.val = 1024 * t.val + p.val; rw [e0]; omega
      | ⟨1, _⟩ => show win0_3.index t (1 : Fin 2) * 192 + 1 * q.val = q.val; rw [e1]; omega)
  rw [View.read_apply, he, projBias_ix2]
  show k0_pay1 (F := Ideal) (iblk0 V c 0 t) (iblk0 V c 1 t) (iblk0 V c 2 t) (ix2 p q) = _
  refine (pay0_apply _ _ _ p q).trans ?_
  refine congrArg₂ (· + ·) (Finset.sum_congr rfl fun k _ => congrArg₂ (· * ·) ?_ ?_) ?_
  · exact blk0_0_apply V c t (ix2 p k) _ rfl rfl
  · exact blk0_1_apply V c t (ix2 k q) _ rfl rfl
  · exact blk0_2_apply V c t (ix2 (0 : Fin 1) q) _ rfl rfl

/-- An index of the output array is in point t's block iff each coordinate is in the block's range on its axis. -/
theorem mem_blk0 (t : Fin cfg0.N) (i : S8192x192.Idx) :
    i ∈ ((cfg0.win 3).blk t).view.set ↔ ∀ a : Fin 2, win0_3.index t a * S1024x192.size a ≤ (i a).val
      ∧ (i a).val < win0_3.index t a * S1024x192.size a + S1024x192.size a := by
  show i ∈ ((View.whole main_v15).slice (win0_3.rect t)).set ↔ _
  rw [View.set_slice_whole, Rect.mem_set_unit]
  exact Iff.rfl

/-- Every index of the output array is in the block of the point its row divided by 1024 names. -/
theorem cover0 (i : S8192x192.Idx) :
    ∃ t : Fin cfg0.N, (cfg0.win 3).flush t = true ∧ i ∈ ((cfg0.win 3).blk t).view.set := by
  have hi0 : (i 0).val < 8192 := (i 0).isLt
  have hi1 : (i 1).val < 192 := (i 1).isLt
  obtain ⟨t, ht⟩ : ∃ t : Fin cfg0.N, t.val = (i 0).val / 1024 :=
    ⟨⟨(i 0).val / 1024, lt_of_lt_of_eq (show (i 0).val / 1024 < 8 by omega) N_0.symm⟩, rfl⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 192 ≤ (i 1).val ∧ (i 1).val < win0_3.index t (1 : Fin 2) * 192 + 192
    rw [e1]; omega

/-- The output array after the region: projBias of the three operand arrays as the region finds them. -/
theorem arr0 (c : Dev nD) :
    (dat0 (F := Ideal) V c).arrAt 3 cfg0.N
      = projBias (n := 8192) (k := 512) (m := 192) (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.Hand

end
-- ==== Proof.KI.R1.Pieces.lean ====
/-
  Region 1: what each case leaves, as the skeleton's payloads of the point's blocks and the state before — the carried state
  in closed form, one step at a time. The stores are of whole buffers, so what a buffer holds after a case is its last store's
  value, and a load after a store in the same body reads that value.
-/
import proofs.«172065_j32710470926956_2_alg».proof.Proof.Gen.KernelIdeal.Launch
import proofs.«172065_j32710470926956_2_alg».proof.Proof.Gen.KernelIdeal.Skeleton
import proofs.«172065_j32710470926956_2_alg».proof.Proof.Gen.KernelIdeal.Points
import proofs.«172065_j32710470926956_2_alg».proof.Proof.KI.R1.Body
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-buffer access. -/
theorem hz1 : (![0, 0] : Fin 2 → Nat) = fun _ => 0 := funext fun a => by fin_cases a <;> rfl

/-- The two grid coordinates of point t as the body's words. -/
abbrev a0 (t : Fin cfg1.N) : BitVec 32 := BitVec.ofNat 32 ((grid1.coords t) 0).val
abbrev a1 (t : Fin cfg1.N) : BitVec 32 := BitVec.ofNat 32 ((grid1.coords t) 1).val

theorem rd0 (x : Vec F S1024x1 .f32) (h : (scM1_0 : Memref sig .tc .vmem S1024x1 .f32).IsWhole) :
    View.read (Elt F) (View.whole cc1_scratch0) (h.unread x) = x := Memref.IsWhole.read_unread (m := scM1_0) h x
theorem rd1 (x : Vec F S1024x1 .f32) (h : (scM1_1 : Memref sig .tc .vmem S1024x1 .f32).IsWhole) :
    View.read (Elt F) (View.whole cc1_scratch1) (h.unread x) = x := Memref.IsWhole.read_unread (m := scM1_1) h x
theorem rd2 (x : Vec F S1024x64 .f32) (h : (scM1_2 : Memref sig .tc .vmem S1024x64 .f32).IsWhole) :
    View.read (Elt F) (View.whole cc1_scratch2) (h.unread x) = x := Memref.IsWhole.read_unread (m := scM1_2) h x

/-! ## 0 < j ≤ i, j < 7 -/

theorem stB_m (c : Dev nD) (t : Fin cfg1.N) (h0 : ¬t.val % 8 = 0) (h1 : t.val % 8 ≤ t.val / 8) (h2 : ¬t.val % 8 = 7) (p : St1 F) :
    (stB V c t h0 h1 h2 p).2.1 = k1_pay5 (k1_pay9 (a0 t) (a1 t) (iblk1 V c 0 t) (iblk1 V c 1 t) p.2.1) := by
  unfold stB; dsimp only
  rw [View.read_writes_eq_canon _ _ _ (scoverB_0 c t h0 h1 h2 _ _ _ _ _ _)]
  unfold runB kernelRun1_B; dsimp only
  sl_unfold_words
  rw [View.canon_unit_zero hz1]
  simp only [View.readAt_eq_ld, Memref.IsWhole.read_unread, View.ld_unit_zero (S := S1024x64) hz1, View.ld_unit_zero (S := S1024x1) hz1, rd0, rd1, rd2]
  try rfl

theorem stB_l (c : Dev nD) (t : Fin cfg1.N) (h0 : ¬t.val % 8 = 0) (h1 : t.val % 8 ≤ t.val / 8) (h2 : ¬t.val % 8 = 7) (p : St1 F) :
    (stB V c t h0 h1 h2 p).2.2.1 = k1_pay12 (a0 t) (a1 t) (iblk1 V c 0 t) (iblk1 V c 1 t) p.2.1 p.2.2.1 := by
  unfold stB; dsimp only
  rw [View.read_writes_eq_canon _ _ _ (scoverB_1 c t h0 h1 h2 _ _ _ _ _ _)]
  unfold runB kernelRun1_B; dsimp only
  sl_unfold_words
  rw [View.canon_unit_zero hz1]
  simp only [View.readAt_eq_ld, Memref.IsWhole.read_unread, View.ld_unit_zero (S := S1024x64) hz1, View.ld_unit_zero (S := S1024x1) hz1, rd0, rd1, rd2]
  try rfl

theorem stB_acc (c : Dev nD) (t : Fin cfg1.N) (h0 : ¬t.val % 8 = 0) (h1 : t.val % 8 ≤ t.val / 8) (h2 : ¬t.val % 8 = 7) (p : St1 F) :
    (stB V c t h0 h1 h2 p).2.2.2 = k1_pay4 (k1_pay7 (iblk1 V c 2 t)) (k1_pay10 (a0 t) (a1 t) (iblk1 V c 0 t) (iblk1 V c 1 t) p.2.1)
      (k1_pay11 (a0 t) (a1 t) (iblk1 V c 0 t) (iblk1 V c 1 t) p.2.1) p.2.2.2 := by
  unfold stB; dsimp only
  rw [View.read_writes_eq_canon _ _ _ (scoverB_2 c t h0 h1 h2 _ _ _ _ _ _)]
  unfold runB kernelRun1_B; dsimp only
  sl_unfold_words
  rw [View.canon_unit_zero hz1]
  simp only [View.readAt_eq_ld, Memref.IsWhole.read_unread, View.ld_unit_zero (S := S1024x64) hz1, View.ld_unit_zero (S := S1024x1) hz1, rd0, rd1, rd2]
  try rfl

/-! ## j = 0 -/

theorem stA_m (c : Dev nD) (t : Fin cfg1.N) (h0 : t.val % 8 = 0) :
    (stA V c t h0).2.1 = k1_pay5 (k1_pay9 (a0 t) (a1 t) (iblk1 V c 0 t) (iblk1 V c 1 t) (k1_pay1 (F := F))) := by
  unfold stA; dsimp only
  rw [View.read_writes_eq_canon _ _ _ (scoverA_0 c t h0 _ _ _)]
  unfold runA kernelRun1_A; dsimp only
  sl_unfold_words
  rw [View.canon_cons_unit_zero hz1]
  simp only [View.readAt_eq_ld, Memref.IsWhole.read_unread, View.ld_unit_zero (S := S1024x64) hz1, View.ld_unit_zero (S := S1024x1) hz1,
    View.readCov_unit_zero (S := S1024x1) _ hz1, View.readCov_unit_zero (S := S1024x64) _ hz1, rd0, rd1, rd2]
  try rfl

theorem stA_l (c : Dev nD) (t : Fin cfg1.N) (h0 : t.val % 8 = 0) :
    (stA V c t h0).2.2.1 = k1_pay12 (a0 t) (a1 t) (iblk1 V c 0 t) (iblk1 V c 1 t) (k1_pay1 (F := F)) (k1_pay2 (F := F)) := by
  unfold stA; dsimp only
  rw [View.read_writes_eq_canon _ _ _ (scoverA_1 c t h0 _ _ _)]
  unfold runA kernelRun1_A; dsimp only
  sl_unfold_words
  rw [View.canon_cons_unit_zero hz1]
  simp only [View.readAt_eq_ld, Memref.IsWhole.read_unread, View.ld_unit_zero (S := S1024x64) hz1, View.ld_unit_zero (S := S1024x1) hz1,
    View.readCov_unit_zero (S := S1024x1) _ hz1, View.readCov_unit_zero (S := S1024x64) _ hz1, rd0, rd1, rd2]
  try rfl

theorem stA_acc (c : Dev nD) (t : Fin cfg1.N) (h0 : t.val % 8 = 0) :
    (stA V c t h0).2.2.2 = k1_pay4 (k1_pay7 (iblk1 V c 2 t)) (k1_pay10 (a0 t) (a1 t) (iblk1 V c 0 t) (iblk1 V c 1 t) (k1_pay1 (F := F)))
      (k1_pay11 (a0 t) (a1 t) (iblk1 V c 0 t) (iblk1 V c 1 t) (k1_pay1 (F := F))) (k1_pay3 (F := F)) := by
  unfold stA; dsimp only
  rw [View.read_writes_eq_canon _ _ _ (scoverA_2 c t h0 _ _ _)]
  unfold runA kernelRun1_A; dsimp only
  sl_unfold_words
  rw [View.canon_cons_unit_zero hz1]
  simp only [View.readAt_eq_ld, Memref.IsWhole.read_unread, View.ld_unit_zero (S := S1024x64) hz1, View.ld_unit_zero (S := S1024x1) hz1,
    View.readCov_unit_zero (S := S1024x1) _ hz1, View.readCov_unit_zero (S := S1024x64) _ hz1, rd0, rd1, rd2]
  try rfl

/-! ## j = 7 -/

theorem stE_out (c : Dev nD) (t : Fin cfg1.N) (h0 : ¬t.val % 8 = 0) (h1 : ¬t.val % 8 ≤ t.val / 8) (h2 : t.val % 8 = 7) (p : St1 F) :
    (stE V c t h0 h1 h2 p).1 = k1_pay6 p.2.2.2 p.2.2.1 := by
  unfold stE; dsimp only
  rw [View.read_writes_eq_canon _ _ _ (coverE_3 c t h0 h1 h2 _ _ _ _ _ _)]
  unfold runE kernelRun1_E; dsimp only
  sl_unfold_words
  rw [View.canon_unit_zero hz1]
  simp only [View.readAt_eq_ld, Memref.IsWhole.read_unread, View.ld_unit_zero (S := S1024x64) hz1, View.ld_unit_zero (S := S1024x1) hz1, rd0, rd1, rd2]
  try rfl

theorem stD_m (c : Dev nD) (t : Fin cfg1.N) (h0 : ¬t.val % 8 = 0) (h1 : t.val % 8 ≤ t.val / 8) (h2 : t.val % 8 = 7) (p : St1 F) :
    (stD V c t h0 h1 h2 p).2.1 = k1_pay5 (k1_pay9 (a0 t) (a1 t) (iblk1 V c 0 t) (iblk1 V c 1 t) p.2.1) := by
  unfold stD; dsimp only
  rw [View.read_writes_eq_canon _ _ _ (scoverD_0 c t h0 h1 h2 _ _ _ _ _ _)]
  unfold runD kernelRun1_D; dsimp only
  sl_unfold_words
  rw [View.canon_unit_zero hz1]
  simp only [View.readAt_eq_ld, Memref.IsWhole.read_unread, View.ld_unit_zero (S := S1024x64) hz1, View.ld_unit_zero (S := S1024x1) hz1, rd0, rd1, rd2]
  try rfl

theorem stD_l (c : Dev nD) (t : Fin cfg1.N) (h0 : ¬t.val % 8 = 0) (h1 : t.val % 8 ≤ t.val / 8) (h2 : t.val % 8 = 7) (p : St1 F) :
    (stD V c t h0 h1 h2 p).2.2.1 = k1_pay12 (a0 t) (a1 t) (iblk1 V c 0 t) (iblk1 V c 1 t) p.2.1 p.2.2.1 := by
  unfold stD; dsimp only
  rw [View.read_writes_eq_canon _ _ _ (scoverD_1 c t h0 h1 h2 _ _ _ _ _ _)]
  unfold runD kernelRun1_D; dsimp only
  sl_unfold_words
  rw [View.canon_unit_zero hz1]
  simp only [View.readAt_eq_ld, Memref.IsWhole.read_unread, View.ld_unit_zero (S := S1024x64) hz1, View.ld_unit_zero (S := S1024x1) hz1, rd0, rd1, rd2]
  try rfl

theorem stD_acc (c : Dev nD) (t : Fin cfg1.N) (h0 : ¬t.val % 8 = 0) (h1 : t.val % 8 ≤ t.val / 8) (h2 : t.val % 8 = 7) (p : St1 F) :
    (stD V c t h0 h1 h2 p).2.2.2 = k1_pay4 (k1_pay7 (iblk1 V c 2 t)) (k1_pay10 (a0 t) (a1 t) (iblk1 V c 0 t) (iblk1 V c 1 t) p.2.1)
      (k1_pay11 (a0 t) (a1 t) (iblk1 V c 0 t) (iblk1 V c 1 t) p.2.1) p.2.2.2 := by
  unfold stD; dsimp only
  rw [View.read_writes_eq_canon _ _ _ (scoverD_2 c t h0 h1 h2 _ _ _ _ _ _)]
  unfold runD kernelRun1_D; dsimp only
  sl_unfold_words
  rw [View.canon_unit_zero hz1]
  simp only [View.readAt_eq_ld, Memref.IsWhole.read_unread, View.ld_unit_zero (S := S1024x64) hz1, View.ld_unit_zero (S := S1024x1) hz1, rd0, rd1, rd2]
  try rfl

/-- At (7, 7) the output block receives the NEW numerator over the NEW denominator. -/
theorem stD_out (c : Dev nD) (t : Fin cfg1.N) (h0 : ¬t.val % 8 = 0) (h1 : t.val % 8 ≤ t.val / 8) (h2 : t.val % 8 = 7) (p : St1 F) :
    (stD V c t h0 h1 h2 p).1 = k1_pay6 (stD V c t h0 h1 h2 p).2.2.2 (stD V c t h0 h1 h2 p).2.2.1 := by
  rw [stD_acc, stD_l]
  unfold stD; dsimp only
  rw [View.read_writes_eq_canon _ _ _ (coverD_3 c t h0 h1 h2 _ _ _ _ _ _)]
  unfold runD kernelRun1_D; dsimp only
  sl_unfold_words
  rw [View.canon_unit_zero hz1]
  simp only [View.readAt_eq_ld, Memref.IsWhole.read_unread, View.ld_unit_zero (S := S1024x64) hz1, View.ld_unit_zero (S := S1024x1) hz1,
    View.readCov_unit_zero (S := S1024x1) _ hz1, View.readCov_unit_zero (S := S1024x64) _ hz1, rd0, rd1, rd2]
  try rfl

end Cert.KernelIdeal.Hand

end
-- ==== Proof.KI.Val1Pay.lean ====
/-
  The causal attention kernel's arithmetic, read entry by entry.

  At one grid point (query block i, key block j) the body holds a 1024 × 64 block q of queries, 1024 × 64 blocks k, v of
  keys and values, and per query row a running maximum sm, a running sum sl and a running weighted sum sa. Over the
  extended reals:

    * the masked score of query row a against key row b is (∑ p < 64, q(a, p) · k(b, p)) · c where key 1024·j + b is not
      after query 1024·i + a, and −∞ elsewhere (the fill constant is named −∞);
    * the new maximum of row a is the larger of sm(a) and the largest masked score of the row;
    * the new sum is exp(sm(a) − new maximum) · sl(a) + ∑ b, exp(score(a, b) − new maximum);
    * the new weighted sum at (a, d) is exp(sm(a) − new maximum) · sa(a, d) + ∑ b, exp(score(a, b) − new maximum) · v(b, d);
    * the first key block starts from maximum −∞, sum 0 and weighted sum 0, and the last one stores sa(a, d) / sl(a).

  Changes of float format are the identity, the products accumulate into zero matrices (which drop out), and the
  row-wise maximum and sum are taken over the 1024 key positions of the block.
-/
import proofs.«172065_j32710470926956_2_alg».proof.Proof.Gen.KernelIdeal.Skeleton
import Idealize.ShloMosaic.Lib.Pipeline.Value
import Idealize.ShloMosaic.Lib.ValueIdx
import Idealize.ShloMosaic.Lib.Affine
import Idealize.ShloMosaic.PureOps.Ideal.Laws
import Idealize.ShloMosaic.PureOps.IdealRules

noncomputable section

open scoped BigOperators

namespace Cert.KernelIdeal.Hand

open Cert.KernelIdeal Cert.KernelIdeal.Gen
open Idealize.ShloMosaic Idealize.ShloMosaic.ValueIdx

/-! ## Constants -/

/-- The fill constant is named −∞. -/
theorem neg_big_eq : Named.named (F := Ideal) κ "neg_big" (φ := .f32) 0xF149F2CA#32 = ⊥ :=
  IdealRules.named_const.ideal_named_scalar _ _ _ _ rfl

/-- The word the row maximum starts from is −∞. -/
theorem ofBits_ninf : Ideal.ofBits .f32 0xFF800000#32 = ⊥ := by simp [Ideal.ofBits, Ideal.ieee]

/-! ## Layout: a column, and a column repeated along the rows -/

/-- A vector of 1024 entries as a 1024 × 1 column. -/
theorem col1_apply (x : FVec Ideal S1024 .f32) (a : Fin 1024) :
    shapeCast S1024x1 x shapeCasts_S1024_S1024x1 (ix2 a (0 : Fin 1)) = x (ix1 a) :=
  shapeCast_apply _ _ _ (ix1 a) (by
    rw [Shape.rowMajor_val_one, Shape.rowMajor_val_two]
    show a.val = a.val * 1 + 0
    omega)

/-- A column repeated along 1024 columns. -/
theorem bc1_sq_apply (x : FVec Ideal S1024x1 .f32) (a b : Fin 1024) :
    broadcastTo S1024x1024 x broadcasts_S1024x1_S1024x1024 (ix2 a b) = x (ix2 a (0 : Fin 1)) :=
  broadcastTo_apply _ _ _ (ix2 a (0 : Fin 1)) (fun c => by
    match c with
    | ⟨0, _⟩ => rfl
    | ⟨1, _⟩ => rfl)

/-- A column repeated along 64 columns. -/
theorem bc1_apply (x : FVec Ideal S1024x1 .f32) (a : Fin 1024) (d : Fin 64) :
    broadcastTo S1024x64 x broadcasts_S1024x1_S1024x64 (ix2 a d) = x (ix2 a (0 : Fin 1)) :=
  broadcastTo_apply _ _ _ (ix2 a (0 : Fin 1)) (fun c => by
    match c with
    | ⟨0, _⟩ => rfl
    | ⟨1, _⟩ => rfl)

/-- The transposed key block: entry (p, b) is k(b, p). -/
theorem tr1_apply (k : FVec Ideal S1024x64 .bf16) (p : Fin 64) (b : Fin 1024) :
    transpose S64x1024 [1, 0] k transposes_S1024x64_p1_0_S64x1024 (ix2 p b) = k (ix2 b p) :=
  transpose_apply _ _ _ _ (ix2 b p) (fun c => by
    match c with
    | ⟨0, _⟩ => rfl
    | ⟨1, _⟩ => rfl)

/-- The index over row a of the reduced vector with column b put back is (a, b). -/
theorem lift1 (a b : Fin 1024) : reduces_S1024x1024_S1024.lift (ix1 a) b = ix2 a b :=
  funext fun c => Fin.ext (by
    match c with
    | ⟨0, _⟩ => rfl
    | ⟨1, _⟩ => rfl)

/-- A row's maximum, from −∞. -/
theorem max1_apply (S : FVec Ideal S1024x1024 .f32) (a : Fin 1024) :
    multiReduction .maximumf [1] S1024 S 0xFF800000#32 reduces_S1024x1024_S1024 (.inl rfl) rfl (ix1 a)
      = (Finset.univ : Finset (Fin 1024)).fold max ⊥ (fun b => S (ix2 a b)) := by
  refine (Ideal.multiReduction_maximumf_single S 0xFF800000#32 reduces_S1024x1024_S1024 (.inl rfl) rfl (ix1 a)).trans ?_
  show (Finset.univ : Finset (Fin 1024)).fold max (Ideal.ofBits .f32 0xFF800000#32) _ = _
  rw [ofBits_ninf]
  refine congrArg (fun f => (Finset.univ : Finset (Fin 1024)).fold max ⊥ f) (funext fun b => ?_)
  exact congrArg S (lift1 a b)

/-- A row's sum. -/
theorem sum1_apply (E : FVec Ideal S1024x1024 .f32) (a : Fin 1024) :
    multiReduction .add [1] S1024 E 0x00000000#32 reduces_S1024x1024_S1024 (.inl rfl) rfl (ix1 a)
      = ∑ b : Fin 1024, E (ix2 a b) := by
  refine (Ideal.multiReduction_add_single E 0x00000000#32 reduces_S1024x1024_S1024 (.inl rfl) rfl (ix1 a)).trans ?_
  exact Finset.sum_congr rfl fun b _ => congrArg E (lift1 a b)

/-! ## The two products -/

/-- The scores' dimension numbers: [1024, 64] × [64, 1024] → [1024, 1024], contracting axis 1 against axis 0. -/
abbrev D1a := dot_S1024x64_S64x1024_S1024x1024_1_0_0_1_n_n

theorem D1a_lhs_0 (i : S1024x1024.Idx) (q : D1a.contr.Idx) : (D1a.lhsIdx i q 0).val = (i 0).val := by
  unfold DotDims.lhsIdx
  rw [dif_neg (show ¬(0 : Fin S1024x64.rank) ∈ D1a.lhsBatch by decide),
    dif_pos (show (0 : Fin S1024x64.rank) ∈ D1a.lhsNonContracting by decide)]
  rfl

theorem D1a_lhs_1 (i : S1024x1024.Idx) (q : D1a.contr.Idx) : (D1a.lhsIdx i q 1).val = (q ⟨0, by decide⟩).val :=
  D1a.lhsIdx_val_of_single rfl i q

theorem D1a_rhs_0 (i : S1024x1024.Idx) (q : D1a.contr.Idx) : (D1a.rhsIdx i q 0).val = (q ⟨0, by decide⟩).val :=
  D1a.rhsIdx_val_of_single rfl i q

theorem D1a_rhs_1 (i : S1024x1024.Idx) (q : D1a.contr.Idx) : (D1a.rhsIdx i q 1).val = (i 1).val := by
  unfold DotDims.rhsIdx
  rw [dif_neg (show ¬(1 : Fin S64x1024.rank) ∈ D1a.rhsBatch by decide),
    dif_pos (show (1 : Fin S64x1024.rank) ∈ D1a.rhsNonContracting by decide)]
  rfl

/-- The product into a zero matrix at entry (r, c): row r of the left operand against column c of the right. -/
theorem D1a_apply (x : FVec Ideal S1024x64 .bf16) (w : FVec Ideal S64x1024 .bf16) (r : Fin 1024) (c : Fin 1024) :
    matmul D1a none x w (constant S1024x1024 .f32 0x00000000#32) (ix2 r c) = ∑ k : Fin 64, x (ix2 r k) * w (ix2 k c) := by
  simp only [matmul]
  rw [Ideal.matmul_constant_zero_apply, ← Equiv.sum_comp (contrEquiv1 D1a 64 rfl rfl).symm]
  refine Finset.sum_congr rfl fun k _ => ?_
  have hk := contrEquiv1_symm_val D1a 64 rfl rfl k
  have el : D1a.lhsIdx (ix2 r c) ((contrEquiv1 D1a 64 rfl rfl).symm k) = ix2 r k := funext fun a => Fin.ext (by
    match a with
    | ⟨0, _⟩ => exact D1a_lhs_0 _ _
    | ⟨1, _⟩ => exact (D1a_lhs_1 _ _).trans hk)
  have er : D1a.rhsIdx (ix2 r c) ((contrEquiv1 D1a 64 rfl rfl).symm k) = ix2 k c := funext fun a => Fin.ext (by
    match a with
    | ⟨0, _⟩ => exact (D1a_rhs_0 _ _).trans hk
    | ⟨1, _⟩ => exact D1a_rhs_1 _ _)
  rw [el, er]

/-- The weighted sum's dimension numbers: [1024, 1024] × [1024, 64] → [1024, 64], contracting axis 1 against axis 0. -/
abbrev D1b := dot_S1024x1024_S1024x64_S1024x64_1_0_0_1_n_n

theorem D1b_lhs_0 (i : S1024x64.Idx) (q : D1b.contr.Idx) : (D1b.lhsIdx i q 0).val = (i 0).val := by
  unfold DotDims.lhsIdx
  rw [dif_neg (show ¬(0 : Fin S1024x1024.rank) ∈ D1b.lhsBatch by decide),
    dif_pos (show (0 : Fin S1024x1024.rank) ∈ D1b.lhsNonContracting by decide)]
  rfl

theorem D1b_lhs_1 (i : S1024x64.Idx) (q : D1b.contr.Idx) : (D1b.lhsIdx i q 1).val = (q ⟨0, by decide⟩).val :=
  D1b.lhsIdx_val_of_single rfl i q

theorem D1b_rhs_0 (i : S1024x64.Idx) (q : D1b.contr.Idx) : (D1b.rhsIdx i q 0).val = (q ⟨0, by decide⟩).val :=
  D1b.rhsIdx_val_of_single rfl i q

theorem D1b_rhs_1 (i : S1024x64.Idx) (q : D1b.contr.Idx) : (D1b.rhsIdx i q 1).val = (i 1).val := by
  unfold DotDims.rhsIdx
  rw [dif_neg (show ¬(1 : Fin S1024x64.rank) ∈ D1b.rhsBatch by decide),
    dif_pos (show (1 : Fin S1024x64.rank) ∈ D1b.rhsNonContracting by decide)]
  rfl

/-- The product into a zero matrix at entry (r, c): row r of the left operand against column c of the right. -/
theorem D1b_apply (x : FVec Ideal S1024x1024 .bf16) (w : FVec Ideal S1024x64 .bf16) (r : Fin 1024) (c : Fin 64) :
    matmul D1b none x w (constant S1024x64 .f32 0x00000000#32) (ix2 r c) = ∑ k : Fin 1024, x (ix2 r k) * w (ix2 k c) := by
  simp only [matmul]
  rw [Ideal.matmul_constant_zero_apply, ← Equiv.sum_comp (contrEquiv1 D1b 1024 rfl rfl).symm]
  refine Finset.sum_congr rfl fun k _ => ?_
  have hk := contrEquiv1_symm_val D1b 1024 rfl rfl k
  have el : D1b.lhsIdx (ix2 r c) ((contrEquiv1 D1b 1024 rfl rfl).symm k) = ix2 r k := funext fun a => Fin.ext (by
    match a with
    | ⟨0, _⟩ => exact D1b_lhs_0 _ _
    | ⟨1, _⟩ => exact (D1b_lhs_1 _ _).trans hk)
  have er : D1b.rhsIdx (ix2 r c) ((contrEquiv1 D1b 1024 rfl rfl).symm k) = ix2 k c := funext fun a => Fin.ext (by
    match a with
    | ⟨0, _⟩ => exact (D1b_rhs_0 _ _).trans hk
    | ⟨1, _⟩ => exact D1b_rhs_1 _ _)
  rw [el, er]

/-! ## The stored values -/

/-- The running maximum starts at −∞. -/
theorem k1_pay1_apply (a : Fin 1024) : k1_pay1 (F := Ideal) (ix2 a (0 : Fin 1)) = ⊥ := by
  unfold k1_pay1
  rw [shapeCast_self]
  exact neg_big_eq

/-- The running sum starts at 0. -/
theorem k1_pay2_apply (a : Fin 1024) : k1_pay2 (F := Ideal) (ix2 a (0 : Fin 1)) = 0 := by
  unfold k1_pay2
  rw [shapeCast_self]
  exact Ideal.ofBits_zero_f32

/-- The running weighted sum starts at 0. -/
theorem k1_pay3_apply (a : Fin 1024) (d : Fin 64) : k1_pay3 (F := Ideal) (ix2 a d) = 0 := by
  unfold k1_pay3
  rw [shapeCast_self]
  exact Ideal.ofBits_zero_f32

/-- The new maximum is stored as it is. -/
theorem k1_pay5_apply (x : FVec Ideal S1024x1 .f32) (a : Fin 1024) :
    k1_pay5 (F := Ideal) x (ix2 a (0 : Fin 1)) = x (ix2 a (0 : Fin 1)) := by
  unfold k1_pay5
  rw [shapeCast_self]

/-- The last key block stores the weighted sum over the sum. -/
theorem k1_pay6_apply (sa : FVec Ideal S1024x64 .f32) (sl : FVec Ideal S1024x1 .f32) (a : Fin 1024) (d : Fin 64) :
    k1_pay6 (F := Ideal) sa sl (ix2 a d) = Ideal.div (sa (ix2 a d)) (sl (ix2 a (0 : Fin 1))) := by
  unfold k1_pay6
  rw [divf_apply, bc1_apply]

/-- The value block enters the product as it is. -/
theorem k1_pay7_apply (v : FVec Ideal S1024x64 .f32) (b : Fin 1024) (d : Fin 64) :
    k1_pay7 (F := Ideal) v (ix2 b d) = v (ix2 b d) := by
  unfold k1_pay7
  rw [shapeCast_self]
  rfl

/-! ## One key block's step -/

/-- The masked score of query row a against key row b, at query block i and key block j: the scaled dot product where
    key 1024·j + b is not after query 1024·i + a, −∞ elsewhere. The two positions are below 8192, so the 32-bit words
    that carry them do not wrap and their signed comparison is the comparison of the numbers. -/
theorem k1_pay8_apply (i j : ℕ) (hi : i < 8) (hj : j < 8) (q k : FVec Ideal S1024x64 .f32) (a b : Fin 1024) :
    k1_pay8 (F := Ideal) (BitVec.ofNat 32 i) (BitVec.ofNat 32 j) q k (ix2 a b)
      = if 1024 * j + b.val ≤ 1024 * i + a.val then
          (∑ p : Fin 64, q (ix2 a p) * k (ix2 b p)) * Ideal.ofBits .f32 0x3E000000#32
        else ⊥ := by
  have ha : a.val < 1024 := a.isLt
  have hb : b.val < 1024 := b.isLt
  -- the two position words, read as integers
  have hK : Affine.IsInt (1024#32) (1024 : Int) := Affine.ofNat 1024 ⟨rfl, by norm_num⟩
  have hi' : Affine.IsInt (BitVec.ofNat 32 i) (i : Int) := Affine.ofNat i ⟨rfl, by omega⟩
  have hj' : Affine.IsInt (BitVec.ofNat 32 j) (j : Int) := Affine.ofNat j ⟨rfl, by omega⟩
  have hmi : Affine.IsInt (Scalar.muli (BitVec.ofNat 32 i) 1024#32) ((i : Int) * 1024) := Affine.muli hi' hK ⟨rfl, by omega, by omega⟩
  have hmj : Affine.IsInt (Scalar.muli (BitVec.ofNat 32 j) 1024#32) ((j : Int) * 1024) := Affine.muli hj' hK ⟨rfl, by omega, by omega⟩
  have hai : Affine.IsInt (BitVec.ofNat 32 a.val) (a.val : Int) := Affine.ofNat a.val ⟨rfl, by omega⟩
  have hbi : Affine.IsInt (BitVec.ofNat 32 b.val) (b.val : Int) := Affine.ofNat b.val ⟨rfl, by omega⟩
  have hx : Affine.IsInt (Scalar.addi (Scalar.muli (BitVec.ofNat 32 i) 1024#32) (BitVec.ofNat 32 a.val)) ((i : Int) * 1024 + a.val) :=
    Affine.addi hmi hai ⟨rfl, by omega, by omega⟩
  have hy : Affine.IsInt (Scalar.addi (Scalar.muli (BitVec.ofNat 32 j) 1024#32) (BitVec.ofNat 32 b.val)) ((j : Int) * 1024 + b.val) :=
    Affine.addi hmj hbi ⟨rfl, by omega, by omega⟩
  unfold k1_pay8
  simp only [shapeCast_self]
  rw [select_apply]
  -- the condition at (a, b) compares the two position words
  have hc : cmpi .sge (addi (broadcast S1024x1024 (Scalar.muli (BitVec.ofNat 32 i) 1024#32)) (iota .tc S1024x1024 32 [0] iota_S1024x1024_d0_w32))
        (addi (broadcast S1024x1024 (Scalar.muli (BitVec.ofNat 32 j) 1024#32)) (iota .tc S1024x1024 32 [1] iota_S1024x1024_d1_w32)) (ix2 a b)
      = Scalar.cmpi .sge (Scalar.addi (Scalar.muli (BitVec.ofNat 32 i) 1024#32) (BitVec.ofNat 32 a.val))
          (Scalar.addi (Scalar.muli (BitVec.ofNat 32 j) 1024#32) (BitVec.ofNat 32 b.val)) := by
    show IntOp.cmpi .sge (IntOp.addi _ (iota .tc S1024x1024 32 [0] iota_S1024x1024_d0_w32 (ix2 a b)))
        (IntOp.addi _ (iota .tc S1024x1024 32 [1] iota_S1024x1024_d1_w32 (ix2 a b))) = _
    rw [iota_single_apply, iota_single_apply]
    rfl
  rw [hc]
  by_cases h : 1024 * j + b.val ≤ 1024 * i + a.val
  · rw [if_pos h, (show _ = 1#1 from Affine.sge_holds hx hy (by omega)), select_one, mulf_apply, D1a_apply]
    refine congrArg₂ (· * ·) (Finset.sum_congr rfl fun p _ => ?_) rfl
    rw [tr1_apply]
    rfl
  · rw [if_neg h, eq_zero_of_ne_one (Affine.sge_fails hx hy (by omega)), select_zero]
    exact neg_big_eq

/-- The new maximum of row a: the larger of the running maximum and the row's largest masked score. -/
theorem k1_pay9_apply (a0 a1 : BitVec 32) (q k : FVec Ideal S1024x64 .f32) (sm : FVec Ideal S1024x1 .f32) (a : Fin 1024) :
    k1_pay9 (F := Ideal) a0 a1 q k sm (ix2 a (0 : Fin 1))
      = max (sm (ix2 a (0 : Fin 1)))
          ((Finset.univ : Finset (Fin 1024)).fold max ⊥ fun b => k1_pay8 (F := Ideal) a0 a1 q k (ix2 a b)) := by
  unfold k1_pay9
  rw [maximumf_apply, col1_apply, max1_apply]

/-- The factor that rescales what the earlier key blocks left. -/
theorem k1_pay10_apply (a0 a1 : BitVec 32) (q k : FVec Ideal S1024x64 .f32) (sm : FVec Ideal S1024x1 .f32) (a : Fin 1024) :
    k1_pay10 (F := Ideal) a0 a1 q k sm (ix2 a (0 : Fin 1))
      = Ideal.exp (sm (ix2 a (0 : Fin 1)) - k1_pay9 (F := Ideal) a0 a1 q k sm (ix2 a (0 : Fin 1))) := by
  unfold k1_pay10
  rfl

/-- The weight of key row b for query row a. -/
theorem k1_pay11_apply (a0 a1 : BitVec 32) (q k : FVec Ideal S1024x64 .f32) (sm : FVec Ideal S1024x1 .f32) (a b : Fin 1024) :
    k1_pay11 (F := Ideal) a0 a1 q k sm (ix2 a b)
      = Ideal.exp (k1_pay8 (F := Ideal) a0 a1 q k (ix2 a b) - k1_pay9 (F := Ideal) a0 a1 q k sm (ix2 a (0 : Fin 1))) := by
  unfold k1_pay11
  show Ideal.exp (k1_pay8 (F := Ideal) a0 a1 q k (ix2 a b)
      - broadcastTo S1024x1024 (k1_pay9 (F := Ideal) a0 a1 q k sm) broadcasts_S1024x1_S1024x1024 (ix2 a b)) = _
  rw [bc1_sq_apply]

/-- The new sum of row a: the rescaled running sum plus the row's weights. -/
theorem k1_pay12_apply (a0 a1 : BitVec 32) (q k : FVec Ideal S1024x64 .f32) (sm sl : FVec Ideal S1024x1 .f32) (a : Fin 1024) :
    k1_pay12 (F := Ideal) a0 a1 q k sm sl (ix2 a (0 : Fin 1))
      = Ideal.exp (sm (ix2 a (0 : Fin 1)) - k1_pay9 (F := Ideal) a0 a1 q k sm (ix2 a (0 : Fin 1))) * sl (ix2 a (0 : Fin 1))
        + ∑ b : Fin 1024, Ideal.exp (k1_pay8 (F := Ideal) a0 a1 q k (ix2 a b) - k1_pay9 (F := Ideal) a0 a1 q k sm (ix2 a (0 : Fin 1))) := by
  unfold k1_pay12
  rw [shapeCast_self, addf_apply, mulf_apply, k1_pay10_apply, col1_apply, sum1_apply]
  exact congrArg₂ (· + ·) rfl (Finset.sum_congr rfl fun b _ => k1_pay11_apply a0 a1 q k sm a b)

/-- The new weighted sum at (a, d): the rescaled running one plus the row's weights against column d of the values. -/
theorem k1_pay4_apply (a0 a1 : BitVec 32) (q k v : FVec Ideal S1024x64 .f32) (sm : FVec Ideal S1024x1 .f32)
    (sa : FVec Ideal S1024x64 .f32) (a : Fin 1024) (d : Fin 64) :
    k1_pay4 (F := Ideal) (k1_pay7 v) (k1_pay10 a0 a1 q k sm) (k1_pay11 a0 a1 q k sm) sa (ix2 a d)
      = Ideal.exp (sm (ix2 a (0 : Fin 1)) - k1_pay9 (F := Ideal) a0 a1 q k sm (ix2 a (0 : Fin 1))) * sa (ix2 a d)
        + ∑ b : Fin 1024, Ideal.exp (k1_pay8 (F := Ideal) a0 a1 q k (ix2 a b) - k1_pay9 (F := Ideal) a0 a1 q k sm (ix2 a (0 : Fin 1)))
            * v (ix2 b d) := by
  unfold k1_pay4
  rw [shapeCast_self, addf_apply, mulf_apply, bc1_apply, k1_pay10_apply, D1b_apply]
  refine congrArg₂ (· + ·) rfl (Finset.sum_congr rfl fun b _ => ?_)
  rw [k1_pay7_apply]
  exact congrArg (· * v (ix2 b d)) (k1_pay11_apply a0 a1 q k sm a b)

end Cert.KernelIdeal.Hand

end
-- ==== Proof.LibOnlineSoftmax.lean ====
/-
  The online-softmax recurrence of a flash-attention body, on the extended reals.

  A row of attention scores arrives block by block. The body keeps a running shift m, a running
  denominator l and a running numerator acc. At each block it takes a new shift m' = max m b
  (b the block's own maximum, or any other bound: nothing below depends on which), rescales what it has by
  exp (m - m'), and adds the block's terms exp (s k - m') and exp (s k - m') * v k. It starts from
  (⊥, 0, 0) and ends by dividing acc by l.

  For scores that are real numbers or ⊥ (a masked entry), real values, and a first block whose bound is a
  real number, the quotient is the softmax-weighted sum of the values, written with ANY real shift M:
  the sum over all processed keys of (exp (s k - M) / L) * v k, with L the sum of the exp (s k - M).
  This is the form a reference takes (softmax of the row against its maximum, then a product with the values).

  The law behind it: exp (m - m') * exp (x - m) = exp (x - m') for real m, m' and x real or ⊥, so that a sum of
  weights taken against one shift is a positive multiple of the sum taken against another, and the multiple
  cancels in the quotient.
-/
import Idealize.ShloMosaic.PureOps.Ideal
import Mathlib.Data.Finset.Fold

noncomputable section

namespace Cert.Lib.OnlineSoftmax

open Idealize.ShloMosaic

/-- The coercion of the reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The weight exp (x - m) of a score against a real shift, as a real number: zero at ⊥. -/
def wt (x : EReal) (m : ℝ) : ℝ := (Ideal.exp (x - (m : EReal))).toReal

theorem wt_bot (m : ℝ) : wt ⊥ m = 0 := by
  simp [wt, EReal.bot_sub]

theorem wt_coe (x m : ℝ) : wt (x : EReal) m = Real.exp (x - m) := by
  unfold wt
  rw [← EReal.coe_sub, Ideal.exp_coe, EReal.toReal_coe]

/-- For a score that is not +∞ the extended-real exponential of the shifted score is the real weight. -/
theorem exp_sub_coe {x : EReal} (hx : x ≠ ⊤) (m : ℝ) :
    Ideal.exp (x - (m : EReal)) = ((wt x m : ℝ) : EReal) := by
  induction x using EReal.rec with
  | bot => simp [wt_bot, EReal.bot_sub]
  | coe r => rw [wt_coe, ← EReal.coe_sub, Ideal.exp_coe]
  | top => exact absurd rfl hx

theorem wt_nonneg {x : EReal} (hx : x ≠ ⊤) (m : ℝ) : 0 ≤ wt x m := by
  induction x using EReal.rec with
  | bot => rw [wt_bot]
  | coe r => rw [wt_coe]; exact (Real.exp_pos _).le
  | top => exact absurd rfl hx

theorem wt_pos {x : EReal} (hx : x ≠ ⊤) (hx' : x ≠ ⊥) (m : ℝ) : 0 < wt x m := by
  induction x using EReal.rec with
  | bot => exact absurd rfl hx'
  | coe r => rw [wt_coe]; exact Real.exp_pos _
  | top => exact absurd rfl hx

/-- Changing the shift multiplies every weight by one positive factor. -/
theorem wt_shift {x : EReal} (hx : x ≠ ⊤) (m m' : ℝ) : Real.exp (m - m') * wt x m = wt x m' := by
  induction x using EReal.rec with
  | bot => simp [wt_bot]
  | coe r => rw [wt_coe, wt_coe, ← Real.exp_add]; congr 1; ring
  | top => exact absurd rfl hx

theorem exp_coe_sub_coe (m m' : ℝ) :
    Ideal.exp ((m : EReal) - (m' : EReal)) = ((Real.exp (m - m') : ℝ) : EReal) := by
  rw [← EReal.coe_sub, Ideal.exp_coe]

variable {κ : Type*} [Fintype κ]

/-- One block of the recurrence, as a flash-attention body spells it. -/
def step (s v : κ → EReal) (b : EReal) (st : EReal × EReal × EReal) : EReal × EReal × EReal :=
  (max st.1 b,
   Ideal.exp (st.1 - max st.1 b) * st.2.1 + ∑ k, Ideal.exp (s k - max st.1 b),
   Ideal.exp (st.1 - max st.1 b) * st.2.2 + ∑ k, Ideal.exp (s k - max st.1 b) * v k)

/-- The state after the first j blocks, from (⊥, 0, 0). -/
def run (s v : ℕ → κ → EReal) (b : ℕ → EReal) : ℕ → EReal × EReal × EReal
  | 0 => (⊥, 0, 0)
  | j + 1 => step (s j) (v j) (b j) (run s v b j)

/-- After at least one block the shift is a real number m, and the denominator and the numerator are the sums,
    over all keys processed so far, of the weights against m and of the weights times the values. -/
theorem run_spec (s v : ℕ → κ → EReal) (vr : ℕ → κ → ℝ) (b : ℕ → EReal)
    (hs : ∀ j k, s j k ≠ ⊤) (hv : ∀ j k, v j k = (vr j k : EReal))
    (hb : ∀ j, b j ≠ ⊤) (hb0 : b 0 ≠ ⊥) (n : ℕ) :
    ∃ mr : ℝ, (run s v b (n + 1)).1 = (mr : EReal)
      ∧ (run s v b (n + 1)).2.1 = ((∑ j ∈ Finset.range (n + 1), ∑ k, wt (s j k) mr : ℝ) : EReal)
      ∧ (run s v b (n + 1)).2.2
          = ((∑ j ∈ Finset.range (n + 1), ∑ k, wt (s j k) mr * vr j k : ℝ) : EReal) := by
  induction n with
  | zero =>
    obtain ⟨mr, hmr⟩ : ∃ mr : ℝ, b 0 = (mr : EReal) := ⟨(b 0).toReal, (EReal.coe_toReal (hb 0) hb0).symm⟩
    have hmax : max (⊥ : EReal) (b 0) = (mr : EReal) := by rw [max_eq_right bot_le, hmr]
    refine ⟨mr, hmax, ?_, ?_⟩
    · show Ideal.exp (⊥ - max ⊥ (b 0)) * 0 + ∑ k, Ideal.exp (s 0 k - max ⊥ (b 0)) = _
      rw [hmax, mul_zero, zero_add, Finset.sum_range_one, coe_sum]
      exact Finset.sum_congr rfl fun k _ => exp_sub_coe (hs 0 k) mr
    · show Ideal.exp (⊥ - max ⊥ (b 0)) * 0 + ∑ k, Ideal.exp (s 0 k - max ⊥ (b 0)) * v 0 k = _
      rw [hmax, mul_zero, zero_add, Finset.sum_range_one, coe_sum]
      exact Finset.sum_congr rfl fun k _ => by rw [exp_sub_coe (hs 0 k) mr, hv, EReal.coe_mul]
  | succ n ih =>
    obtain ⟨mr, h1, h2, h3⟩ := ih
    obtain ⟨m', hm'⟩ : ∃ m' : ℝ, max (mr : EReal) (b (n + 1)) = (m' : EReal) := by
      refine ⟨(max (mr : EReal) (b (n + 1))).toReal, (EReal.coe_toReal ?_ ?_).symm⟩
      · rcases max_choice (mr : EReal) (b (n + 1)) with h | h <;> rw [h]
        · exact EReal.coe_ne_top mr
        · exact hb (n + 1)
      · exact ne_of_gt (lt_of_lt_of_le (EReal.bot_lt_coe mr) (le_max_left _ _))
    refine ⟨m', ?_, ?_, ?_⟩
    · show max (run s v b (n + 1)).1 (b (n + 1)) = _
      rw [h1, hm']
    · show Ideal.exp ((run s v b (n + 1)).1 - max (run s v b (n + 1)).1 (b (n + 1))) * (run s v b (n + 1)).2.1
          + ∑ k, Ideal.exp (s (n + 1) k - max (run s v b (n + 1)).1 (b (n + 1))) = _
      rw [h1, hm', h2, exp_coe_sub_coe, ← EReal.coe_mul, Finset.sum_range_succ _ (n + 1), EReal.coe_add,
        Finset.mul_sum]
      congr 1
      · refine congrArg _ (Finset.sum_congr rfl fun j _ => ?_)
        rw [Finset.mul_sum]
        exact Finset.sum_congr rfl fun k _ => wt_shift (hs j k) mr m'
      · rw [coe_sum]
        exact Finset.sum_congr rfl fun k _ => exp_sub_coe (hs (n + 1) k) m'
    · show Ideal.exp ((run s v b (n + 1)).1 - max (run s v b (n + 1)).1 (b (n + 1))) * (run s v b (n + 1)).2.2
          + ∑ k, Ideal.exp (s (n + 1) k - max (run s v b (n + 1)).1 (b (n + 1))) * v (n + 1) k = _
      rw [h1, hm', h3, exp_coe_sub_coe, ← EReal.coe_mul, Finset.sum_range_succ _ (n + 1), EReal.coe_add,
        Finset.mul_sum]
      congr 1
      · refine congrArg _ (Finset.sum_congr rfl fun j _ => ?_)
        rw [Finset.mul_sum]
        exact Finset.sum_congr rfl fun k _ => by rw [← mul_assoc, wt_shift (hs j k) mr m']
      · rw [coe_sum]
        exact Finset.sum_congr rfl fun k _ => by rw [exp_sub_coe (hs (n + 1) k) m', hv, EReal.coe_mul]

/-- THE LAW. The recurrence's final quotient is the softmax-weighted sum of the values, the softmax written against
    any real shift M (a reference's row maximum): each weight exp (s k - M) divided by the sum of them all, times the
    value, summed over every processed key. It needs one score among them that is a real number (so that the
    denominator is not zero). -/
theorem run_div (s v : ℕ → κ → EReal) (vr : ℕ → κ → ℝ) (b : ℕ → EReal)
    (hs : ∀ j k, s j k ≠ ⊤) (hv : ∀ j k, v j k = (vr j k : EReal))
    (hb : ∀ j, b j ≠ ⊤) (hb0 : b 0 ≠ ⊥) (n : ℕ)
    (hreal : ∃ j ∈ Finset.range (n + 1), ∃ k, s j k ≠ ⊥) (M : ℝ) :
    Ideal.div (run s v b (n + 1)).2.2 (run s v b (n + 1)).2.1
      = ∑ j ∈ Finset.range (n + 1), ∑ k,
          Ideal.div (Ideal.exp (s j k - (M : EReal)))
            (∑ j ∈ Finset.range (n + 1), ∑ k, Ideal.exp (s j k - (M : EReal))) * v j k := by
  obtain ⟨mr, -, h2, h3⟩ := run_spec s v vr b hs hv hb hb0 n
  obtain ⟨j₀, hj₀, k₀, hk₀⟩ := hreal
  -- the two denominators, as real numbers, and their positivity
  have hpos : ∀ m : ℝ, 0 < ∑ j ∈ Finset.range (n + 1), ∑ k, wt (s j k) m := fun m =>
    Finset.sum_pos' (fun j _ => Finset.sum_nonneg fun k _ => wt_nonneg (hs j k) m)
      ⟨j₀, hj₀, Finset.sum_pos' (fun k _ => wt_nonneg (hs j₀ k) m) ⟨k₀, Finset.mem_univ _, wt_pos (hs j₀ k₀) hk₀ m⟩⟩
  have hLM : (∑ j ∈ Finset.range (n + 1), ∑ k, Ideal.exp (s j k - (M : EReal)))
      = ((∑ j ∈ Finset.range (n + 1), ∑ k, wt (s j k) M : ℝ) : EReal) := by
    rw [coe_sum]
    refine Finset.sum_congr rfl fun j _ => ?_
    rw [coe_sum]
    exact Finset.sum_congr rfl fun k _ => exp_sub_coe (hs j k) M
  rw [h2, h3, hLM, Ideal.div_coe (hpos mr).ne', ← EReal.coe_mul]
  -- the right side, term by term, as a real number
  have hterm : ∀ j k, Ideal.div (Ideal.exp (s j k - (M : EReal)))
        ((∑ j ∈ Finset.range (n + 1), ∑ k, wt (s j k) M : ℝ) : EReal) * v j k
      = ((wt (s j k) M * (1 / ∑ j ∈ Finset.range (n + 1), ∑ k, wt (s j k) M) * vr j k : ℝ) : EReal) := fun j k => by
    rw [Ideal.div_coe (hpos M).ne', exp_sub_coe (hs j k) M, hv, ← EReal.coe_mul, ← EReal.coe_mul]
  rw [Finset.sum_congr rfl fun j _ => Finset.sum_congr rfl fun k _ => hterm j k]
  rw [← Finset.sum_congr rfl fun j _ => coe_sum Finset.univ _, ← coe_sum]
  refine congrArg _ ?_
  -- the real identity: both shifts give one quotient
  have hshiftL : ∑ j ∈ Finset.range (n + 1), ∑ k, wt (s j k) M
      = Real.exp (mr - M) * ∑ j ∈ Finset.range (n + 1), ∑ k, wt (s j k) mr := by
    rw [Finset.mul_sum]
    refine Finset.sum_congr rfl fun j _ => ?_
    rw [Finset.mul_sum]
    exact Finset.sum_congr rfl fun k _ => (wt_shift (hs j k) mr M).symm
  have hc : Real.exp (mr - M) ≠ 0 := (Real.exp_pos _).ne'
  have hL : (∑ j ∈ Finset.range (n + 1), ∑ k, wt (s j k) mr) ≠ 0 := (hpos mr).ne'
  rw [hshiftL]
  have : ∀ j k, wt (s j k) M * (1 / (Real.exp (mr - M) * ∑ j ∈ Finset.range (n + 1), ∑ k, wt (s j k) mr)) * vr j k
      = (wt (s j k) mr * vr j k) * (1 / ∑ j ∈ Finset.range (n + 1), ∑ k, wt (s j k) mr) := fun j k => by
    rw [← wt_shift (hs j k) mr M]; field_simp
  rw [Finset.sum_congr rfl fun j _ => Finset.sum_congr rfl fun k _ => this j k]
  rw [Finset.sum_mul]
  refine Finset.sum_congr rfl fun j _ => ?_
  rw [Finset.sum_mul]

/-! ## One block: the softmax taken in a single pass

A body that sees the whole row at once computes the sum of exp (s k - m) * v k over the sum of exp (s k - m) for a
real shift m of its own; this is the recurrence's first block without the (vanishing) rescaled terms. -/

/-- The single-pass quotient against a real shift m is the softmax-weighted sum written against any real shift M. -/
theorem single_div (s v : κ → EReal) (vr : κ → ℝ) (hs : ∀ k, s k ≠ ⊤) (hv : ∀ k, v k = (vr k : EReal))
    (m : ℝ) (hreal : ∃ k, s k ≠ ⊥) (M : ℝ) :
    Ideal.div (∑ k, Ideal.exp (s k - (m : EReal)) * v k) (∑ k, Ideal.exp (s k - (m : EReal)))
      = ∑ k, Ideal.div (Ideal.exp (s k - (M : EReal))) (∑ k, Ideal.exp (s k - (M : EReal))) * v k := by
  have h := run_div (fun _ => s) (fun _ => v) (fun _ => vr) (fun _ => (m : EReal)) (fun _ k => hs k)
    (fun _ k => hv k) (fun _ => EReal.coe_ne_top m) (EReal.coe_ne_bot m) 0
    ⟨0, Finset.mem_range.mpr (Nat.zero_lt_succ 0), hreal⟩ M
  have e1 : (run (fun _ => s) (fun _ => v) (fun _ : ℕ => (m : EReal)) (0 + 1)).2.2
      = ∑ k, Ideal.exp (s k - (m : EReal)) * v k := by
    show Ideal.exp (⊥ - max ⊥ (m : EReal)) * 0 + ∑ k, Ideal.exp (s k - max ⊥ (m : EReal)) * v k = _
    rw [mul_zero, zero_add, max_eq_right bot_le]
  have e2 : (run (fun _ => s) (fun _ => v) (fun _ : ℕ => (m : EReal)) (0 + 1)).2.1
      = ∑ k, Ideal.exp (s k - (m : EReal)) := by
    show Ideal.exp (⊥ - max ⊥ (m : EReal)) * 0 + ∑ k, Ideal.exp (s k - max ⊥ (m : EReal)) = _
    rw [mul_zero, zero_add, max_eq_right bot_le]
  rw [e1, e2] at h
  simpa only [zero_add, Finset.sum_range_one] using h

/-! ## A block's bound, and masked keys -/

/-- The maximum of a block of scores taken from ⊥ is not +∞ when no score is. -/
theorem fold_max_ne_top {ι : Type*} (t : Finset ι) (f : ι → EReal) (hf : ∀ i ∈ t, f i ≠ ⊤) :
    t.fold max ⊥ f ≠ ⊤ :=
  ne_of_lt ((Finset.fold_max_lt _).mpr ⟨bot_lt_top, fun i hi => lt_top_iff_ne_top.mpr (hf i hi)⟩)

/-- The maximum of a block of scores taken from ⊥ is not ⊥ when one score is not. -/
theorem fold_max_ne_bot {ι : Type*} (t : Finset ι) (f : ι → EReal) {i : ι} (hi : i ∈ t) (hfi : f i ≠ ⊥) :
    t.fold max ⊥ f ≠ ⊥ :=
  ne_of_gt (lt_of_lt_of_le (bot_lt_iff_ne_bot.mpr hfi) ((Finset.le_fold_max _).mpr (Or.inr ⟨i, hi, le_rfl⟩)))

/-- A masked key (score ⊥) has weight zero against a real shift. -/
theorem exp_bot_sub_coe (M : ℝ) : Ideal.exp ((⊥ : EReal) - (M : EReal)) = 0 := by
  rw [EReal.bot_sub, Ideal.exp_bot]

/-- A masked key contributes nothing to the softmax-weighted sum, whatever the (nonzero) denominator and the value. -/
theorem masked_term (M : ℝ) {L : EReal} (hL : L ≠ 0) (v : EReal) :
    Ideal.div (Ideal.exp ((⊥ : EReal) - (M : EReal))) L * v = 0 := by
  rw [exp_bot_sub_coe, Ideal.div, if_neg hL, zero_mul, zero_mul]

/-! ## The quotient is a real number

What follows an attention (a projection of the head, a residual sum) distributes products over sums, which on the
extended reals needs real entries: the recurrence's quotient, and the single-pass one, are real numbers. -/

/-- The recurrence's final quotient is a real number. -/
theorem run_div_real (s v : ℕ → κ → EReal) (vr : ℕ → κ → ℝ) (b : ℕ → EReal)
    (hs : ∀ j k, s j k ≠ ⊤) (hv : ∀ j k, v j k = (vr j k : EReal))
    (hb : ∀ j, b j ≠ ⊤) (hb0 : b 0 ≠ ⊥) (n : ℕ)
    (hreal : ∃ j ∈ Finset.range (n + 1), ∃ k, s j k ≠ ⊥) :
    ∃ r : ℝ, Ideal.div (run s v b (n + 1)).2.2 (run s v b (n + 1)).2.1 = (r : EReal) := by
  obtain ⟨mr, -, h2, h3⟩ := run_spec s v vr b hs hv hb hb0 n
  obtain ⟨j₀, hj₀, k₀, hk₀⟩ := hreal
  have hpos : 0 < ∑ j ∈ Finset.range (n + 1), ∑ k, wt (s j k) mr :=
    Finset.sum_pos' (fun j _ => Finset.sum_nonneg fun k _ => wt_nonneg (hs j k) mr)
      ⟨j₀, hj₀, Finset.sum_pos' (fun k _ => wt_nonneg (hs j₀ k) mr) ⟨k₀, Finset.mem_univ _, wt_pos (hs j₀ k₀) hk₀ mr⟩⟩
  exact ⟨_, by rw [h2, h3, Ideal.div_coe hpos.ne', ← EReal.coe_mul]⟩

/-- The single-pass quotient is a real number. -/
theorem single_div_real (s v : κ → EReal) (vr : κ → ℝ) (hs : ∀ k, s k ≠ ⊤) (hv : ∀ k, v k = (vr k : EReal))
    (m : ℝ) (hreal : ∃ k, s k ≠ ⊥) :
    ∃ r : ℝ, Ideal.div (∑ k, Ideal.exp (s k - (m : EReal)) * v k) (∑ k, Ideal.exp (s k - (m : EReal))) = (r : EReal) := by
  obtain ⟨k₀, hk₀⟩ := hreal
  have hpos : 0 < ∑ k, wt (s k) m :=
    Finset.sum_pos' (fun k _ => wt_nonneg (hs k) m) ⟨k₀, Finset.mem_univ _, wt_pos (hs k₀) hk₀ m⟩
  have hden : (∑ k, Ideal.exp (s k - (m : EReal))) = ((∑ k, wt (s k) m : ℝ) : EReal) := by
    rw [coe_sum]; exact Finset.sum_congr rfl fun k _ => exp_sub_coe (hs k) m
  have hnum : (∑ k, Ideal.exp (s k - (m : EReal)) * v k) = ((∑ k, wt (s k) m * vr k : ℝ) : EReal) := by
    rw [coe_sum]; exact Finset.sum_congr rfl fun k _ => by rw [exp_sub_coe (hs k) m, hv, EReal.coe_mul]
  exact ⟨_, by rw [hden, hnum, Ideal.div_coe hpos.ne', ← EReal.coe_mul]⟩

end Cert.Lib.OnlineSoftmax

end
-- ==== Proof.Spec.Flash.lean ====
/-
  The causal attention as the kernel computes it, row by row, as a pure function of the three operand arrays.

  Query row R (one of 8192) meets the keys in blocks of 1024: block j holds keys 1024·j … 1024·j + 1023. The score of row R
  against key 1024·j + k is the dot product of the two rows times 1/8 when the key's position is at most the row's, and -∞
  otherwise; the block's bound is the maximum of its scores. The row's state after n blocks is the online-softmax recurrence
  (LibOnlineSoftmax) over those blocks from (-∞, 0, 0), column d of the values riding along; row R needs the blocks
  0 … R / 1024, and its output is the numerator over the denominator after them.
-/
import proofs.«172065_j32710470926956_2_alg».proof.Proof.LibOnlineSoftmax
import Idealize.ShloMosaic.Lib.ValueIdx

noncomputable section

open scoped BigOperators

namespace Cert.Spec

open Idealize.ShloMosaic Idealize.ShloMosaic.ValueIdx Cert.Lib

/-- The kernel's masked score of query row R against key k of block j. -/
def fScore (Q K : (⟨2, ![8192, 64]⟩ : Shape).Idx → EReal) (R : Fin 8192) (j : ℕ) (k : Fin 1024) : EReal :=
  if h : 1024 * j + k.val < 8192 then
    (if 1024 * j + k.val ≤ R.val then
      (∑ p : Fin 64, Q (ix2 R p) * K (ix2 (⟨1024 * j + k.val, h⟩ : Fin 8192) p)) * Ideal.ofBits .f32 0x3E000000#32
    else ⊥)
  else ⊥

/-- Column d of the value of key k of block j. -/
def fVal (Vv : (⟨2, ![8192, 64]⟩ : Shape).Idx → EReal) (d : Fin 64) (j : ℕ) (k : Fin 1024) : EReal :=
  if h : 1024 * j + k.val < 8192 then Vv (ix2 (⟨1024 * j + k.val, h⟩ : Fin 8192) d) else 0

/-- Block j's bound for row R: the maximum of its scores. -/
def fBound (Q K : (⟨2, ![8192, 64]⟩ : Shape).Idx → EReal) (R : Fin 8192) (j : ℕ) : EReal :=
  (Finset.univ : Finset (Fin 1024)).fold max ⊥ (fScore Q K R j)

/-- Row R's state (maximum, denominator, numerator of column d) after its first n blocks. -/
def flashRow (Q K Vv : (⟨2, ![8192, 64]⟩ : Shape).Idx → EReal) (R : Fin 8192) (d : Fin 64) (n : ℕ) : EReal × EReal × EReal :=
  OnlineSoftmax.run (fScore Q K R) (fVal Vv d) (fBound Q K R) n

/-- The attention head as the kernel leaves it: row R after its R / 1024 + 1 blocks, numerator over denominator. -/
def flashHead (Q K Vv : (⟨2, ![8192, 64]⟩ : Shape).Idx → EReal) : (⟨2, ![8192, 64]⟩ : Shape).Idx → EReal :=
  fun i => Ideal.div (flashRow Q K Vv (i 0 : Fin 8192) (i 1 : Fin 64) ((i 0 : Fin 8192).val / 1024 + 1)).2.2
    (flashRow Q K Vv (i 0 : Fin 8192) (i 1 : Fin 64) ((i 0 : Fin 8192).val / 1024 + 1)).2.1

theorem flashHead_ix2 (Q K Vv : (⟨2, ![8192, 64]⟩ : Shape).Idx → EReal) (R : Fin 8192) (d : Fin 64) :
    flashHead Q K Vv (ix2 R d) = Ideal.div (flashRow Q K Vv R d (R.val / 1024 + 1)).2.2 (flashRow Q K Vv R d (R.val / 1024 + 1)).2.1 := rfl

end Cert.Spec

end
-- ==== Proof.KI.Val1Step.lean ====
/-
  Region 1 at the extended reals, row by row: at a point (i, j) with j ≤ i the body folds key block j into the state of
  every query row 1024·i + a of block i — one step of the online-softmax recurrence over that row's masked scores against the
  block's keys, as Spec.flashRow has them.
-/
import proofs.«172065_j32710470926956_2_alg».proof.Proof.KI.R1.Pieces
import proofs.«172065_j32710470926956_2_alg».proof.Proof.KI.Val1Pay
import proofs.«172065_j32710470926956_2_alg».proof.Proof.Spec.Flash
import Idealize.ShloMosaic.Lib.Pipeline.Value

set_option maxRecDepth 16384

noncomputable section

open scoped BigOperators

namespace Cert.KernelIdeal.Hand

open Cert.KernelIdeal Cert.KernelIdeal.Gen Cert.Spec Cert.Lib
open Idealize.ShloMosaic Idealize.ShloMosaic.TcCoe Idealize.ShloMosaic.ValueIdx Idealize.SL.Sem
open Idealize.ShloMosaic.Pipeline (Dat)

/-- Point t of the 8 × 8 grid is (t / 8, t % 8). -/
theorem coords1 : ∀ t : Fin cfg1.N, ((grid1.coords t) 0).val = t.val / 8 ∧ ((grid1.coords t) 1).val = t.val % 8 :=
  (by decide +kernel : ∀ t : Fin grid1.N, _)

/-- The index maps: the queries' and the output's block is (i, 0); the keys' and the values' is (min i j, 0). -/
theorem idx_facts1 : ∀ t : Fin cfg1.N, win1_0.index t (0 : Fin 2) = t.val / 8 ∧ win1_0.index t (1 : Fin 2) = 0
    ∧ win1_1.index t (0 : Fin 2) = min (t.val / 8) (t.val % 8) ∧ win1_1.index t (1 : Fin 2) = 0
    ∧ win1_2.index t (0 : Fin 2) = min (t.val / 8) (t.val % 8) ∧ win1_2.index t (1 : Fin 2) = 0
    ∧ win1_3.index t (0 : Fin 2) = t.val / 8 ∧ win1_3.index t (1 : Fin 2) = 0 :=
  (by decide +kernel : ∀ t : Fin grid1.N, _)

section Blocks
variable {F : FTy → Type} [FloatOps F] [Named F]
variable (V : (c : Dev nD) → (b : Ref sig .tc) → Buf (Elt F) ((c : Thread nD τ).loc b))

theorem blk1_0_apply (c : Dev nD) (t : Fin cfg1.N) (y : S1024x64.Idx) (k : S8192x64.Idx)
    (hk0 : (k 0).val = 1024 * (t.val / 8) + (y 0).val) (hk1 : (k 1).val = (y 1).val) :
    (iblk1 V c 0 t : FVec F S1024x64 .f32) y = (V c (Pipeline.arrRef spec1 0) : S8192x64.Idx → F .f32) k := by
  obtain ⟨e0, e1, -⟩ := idx_facts1 t
  unfold iblk1
  rw [View.read_apply]
  refine congrArg (V c (Pipeline.arrRef spec1 0)) (funext fun a => Fin.ext ?_)
  match a with
  | ⟨0, _⟩ => show win1_0.index t (0 : Fin 2) * 1024 + 1 * (y 0).val = (k 0).val; rw [e0, hk0]; omega
  | ⟨1, _⟩ => show win1_0.index t (1 : Fin 2) * 64 + 1 * (y 1).val = (k 1).val; rw [e1, hk1]; omega

theorem blk1_1_apply (c : Dev nD) (t : Fin cfg1.N) (y : S1024x64.Idx) (k : S8192x64.Idx)
    (hk0 : (k 0).val = 1024 * min (t.val / 8) (t.val % 8) + (y 0).val) (hk1 : (k 1).val = (y 1).val) :
    (iblk1 V c 1 t : FVec F S1024x64 .f32) y = (V c (Pipeline.arrRef spec1 1) : S8192x64.Idx → F .f32) k := by
  obtain ⟨-, -, e0, e1, -⟩ := idx_facts1 t
  unfold iblk1
  rw [View.read_apply]
  refine congrArg (V c (Pipeline.arrRef spec1 1)) (funext fun a => Fin.ext ?_)
  match a with
  | ⟨0, _⟩ => show win1_1.index t (0 : Fin 2) * 1024 + 1 * (y 0).val = (k 0).val; rw [e0, hk0]; omega
  | ⟨1, _⟩ => show win1_1.index t (1 : Fin 2) * 64 + 1 * (y 1).val = (k 1).val; rw [e1, hk1]; omega

theorem blk1_2_apply (c : Dev nD) (t : Fin cfg1.N) (y : S1024x64.Idx) (k : S8192x64.Idx)
    (hk0 : (k 0).val = 1024 * min (t.val / 8) (t.val % 8) + (y 0).val) (hk1 : (k 1).val = (y 1).val) :
    (iblk1 V c 2 t : FVec F S1024x64 .f32) y = (V c (Pipeline.arrRef spec1 2) : S8192x64.Idx → F .f32) k := by
  obtain ⟨-, -, -, -, e0, e1, -⟩ := idx_facts1 t
  unfold iblk1
  rw [View.read_apply]
  refine congrArg (V c (Pipeline.arrRef spec1 2)) (funext fun a => Fin.ext ?_)
  match a with
  | ⟨0, _⟩ => show win1_2.index t (0 : Fin 2) * 1024 + 1 * (y 0).val = (k 0).val; rw [e0, hk0]; omega
  | ⟨1, _⟩ => show win1_2.index t (1 : Fin 2) * 64 + 1 * (y 1).val = (k 1).val; rw [e1, hk1]; omega

end Blocks

variable (V : (c : Dev nD) → (b : Ref sig .tc) → Buf (Elt Ideal) ((c : Thread nD τ).loc b))

/-- The three operand arrays as the region finds them. -/
abbrev Q1 (c : Dev nD) : S8192x64.Idx → EReal := V c (Pipeline.arrRef spec1 0)
abbrev K1 (c : Dev nD) : S8192x64.Idx → EReal := V c (Pipeline.arrRef spec1 1)
abbrev V1v (c : Dev nD) : S8192x64.Idx → EReal := V c (Pipeline.arrRef spec1 2)

/-- Query row a of block t / 8, as a row of the whole array. -/
def rowOf (t : Fin cfg1.N) (a : Fin 1024) : Fin 8192 :=
  ⟨1024 * (t.val / 8) + a.val, by have : t.val < 64 := lt_of_lt_of_eq t.isLt N_1; omega⟩

/-- At a point with j ≤ i the body's masked score of row a against key b of the point's key block is the spec's score of
    that row against key b of block j. -/
theorem score_eq (c : Dev nD) (t : Fin cfg1.N) (hle : t.val % 8 ≤ t.val / 8) (a b : Fin 1024) :
    k1_pay8 (F := Ideal) (a0 t) (a1 t) (iblk1 V c 0 t) (iblk1 V c 1 t) (ix2 a b)
      = fScore (Q1 V c) (K1 V c) (rowOf t a) (t.val % 8) b := by
  have hN : t.val < 64 := lt_of_lt_of_eq t.isLt N_1
  obtain ⟨hc0, hc1⟩ := coords1 t
  have hin : 1024 * (t.val % 8) + b.val < 8192 := by omega
  rw [show a0 t = BitVec.ofNat 32 (t.val / 8) from by unfold a0; rw [hc0],
    show a1 t = BitVec.ofNat 32 (t.val % 8) from by unfold a1; rw [hc1],
    k1_pay8_apply (t.val / 8) (t.val % 8) (by omega) (by omega)]
  unfold fScore
  rw [dif_pos hin]
  show (if 1024 * (t.val % 8) + b.val ≤ 1024 * (t.val / 8) + a.val then _ else ⊥) = if 1024 * (t.val % 8) + b.val ≤ (rowOf t a).val then _ else ⊥
  refine if_congr Iff.rfl ?_ rfl
  refine congrArg (· * _) (Finset.sum_congr rfl fun p _ => congrArg₂ (· * ·) ?_ ?_)
  · exact blk1_0_apply V c t (ix2 a p) _ rfl rfl
  · exact blk1_1_apply V c t (ix2 b p) _ (by show 1024 * (t.val % 8) + b.val = 1024 * min (t.val / 8) (t.val % 8) + b.val; rw [min_eq_right hle]) rfl

/-- … and the value block's entry is the spec's value. -/
theorem val_eq (c : Dev nD) (t : Fin cfg1.N) (hle : t.val % 8 ≤ t.val / 8) (b : Fin 1024) (d : Fin 64) :
    (iblk1 V c 2 t : FVec Ideal S1024x64 .f32) (ix2 b d) = fVal (V1v V c) d (t.val % 8) b := by
  have hN : t.val < 64 := lt_of_lt_of_eq t.isLt N_1
  have hin : 1024 * (t.val % 8) + b.val < 8192 := by omega
  unfold fVal
  rw [dif_pos hin]
  exact blk1_2_apply V c t (ix2 b d) _ (by show 1024 * (t.val % 8) + b.val = 1024 * min (t.val / 8) (t.val % 8) + b.val; rw [min_eq_right hle]) rfl

/-- ONE FOLD, row by row: the three new scratch values at row a (and column d) are one step of the recurrence over the row's
    scores against block j, from the three old values there. -/
theorem step_row (c : Dev nD) (t : Fin cfg1.N) (hle : t.val % 8 ≤ t.val / 8) (sm sl : FVec Ideal S1024x1 .f32)
    (sa : FVec Ideal S1024x64 .f32) (a : Fin 1024) (d : Fin 64) :
    (k1_pay5 (F := Ideal) (k1_pay9 (a0 t) (a1 t) (iblk1 V c 0 t) (iblk1 V c 1 t) sm) (ix2 a (0 : Fin 1)),
     k1_pay12 (F := Ideal) (a0 t) (a1 t) (iblk1 V c 0 t) (iblk1 V c 1 t) sm sl (ix2 a (0 : Fin 1)),
     k1_pay4 (F := Ideal) (k1_pay7 (iblk1 V c 2 t)) (k1_pay10 (a0 t) (a1 t) (iblk1 V c 0 t) (iblk1 V c 1 t) sm)
       (k1_pay11 (a0 t) (a1 t) (iblk1 V c 0 t) (iblk1 V c 1 t) sm) sa (ix2 a d))
      = OnlineSoftmax.step (fScore (Q1 V c) (K1 V c) (rowOf t a) (t.val % 8)) (fVal (V1v V c) d (t.val % 8))
          (fBound (Q1 V c) (K1 V c) (rowOf t a) (t.val % 8))
          (sm (ix2 a (0 : Fin 1)), sl (ix2 a (0 : Fin 1)), sa (ix2 a d)) := by
  have hb : ((Finset.univ : Finset (Fin 1024)).fold max ⊥ fun b => k1_pay8 (F := Ideal) (a0 t) (a1 t) (iblk1 V c 0 t) (iblk1 V c 1 t) (ix2 a b))
      = fBound (Q1 V c) (K1 V c) (rowOf t a) (t.val % 8) := by
    unfold fBound
    exact congrArg (fun f => Finset.fold max ⊥ f Finset.univ) (funext fun b => score_eq V c t hle a b)
  have h9 : k1_pay9 (F := Ideal) (a0 t) (a1 t) (iblk1 V c 0 t) (iblk1 V c 1 t) sm (ix2 a (0 : Fin 1))
      = max (sm (ix2 a (0 : Fin 1))) (fBound (Q1 V c) (K1 V c) (rowOf t a) (t.val % 8)) := by
    rw [k1_pay9_apply, hb]
  have hm : k1_pay5 (F := Ideal) (k1_pay9 (a0 t) (a1 t) (iblk1 V c 0 t) (iblk1 V c 1 t) sm) (ix2 a (0 : Fin 1))
      = max (sm (ix2 a (0 : Fin 1))) (fBound (Q1 V c) (K1 V c) (rowOf t a) (t.val % 8)) := by
    rw [k1_pay5_apply, h9]
  have hl : k1_pay12 (F := Ideal) (a0 t) (a1 t) (iblk1 V c 0 t) (iblk1 V c 1 t) sm sl (ix2 a (0 : Fin 1))
      = Ideal.exp (sm (ix2 a (0 : Fin 1)) - max (sm (ix2 a (0 : Fin 1))) (fBound (Q1 V c) (K1 V c) (rowOf t a) (t.val % 8))) * sl (ix2 a (0 : Fin 1))
        + ∑ b : Fin 1024, Ideal.exp (fScore (Q1 V c) (K1 V c) (rowOf t a) (t.val % 8) b
            - max (sm (ix2 a (0 : Fin 1))) (fBound (Q1 V c) (K1 V c) (rowOf t a) (t.val % 8))) := by
    rw [k1_pay12_apply, h9]
    refine congrArg₂ (· + ·) rfl (Finset.sum_congr rfl fun b _ => ?_)
    rw [score_eq V c t hle a b]
  have hacc : k1_pay4 (F := Ideal) (k1_pay7 (iblk1 V c 2 t)) (k1_pay10 (a0 t) (a1 t) (iblk1 V c 0 t) (iblk1 V c 1 t) sm)
        (k1_pay11 (a0 t) (a1 t) (iblk1 V c 0 t) (iblk1 V c 1 t) sm) sa (ix2 a d)
      = Ideal.exp (sm (ix2 a (0 : Fin 1)) - max (sm (ix2 a (0 : Fin 1))) (fBound (Q1 V c) (K1 V c) (rowOf t a) (t.val % 8))) * sa (ix2 a d)
        + ∑ b : Fin 1024, Ideal.exp (fScore (Q1 V c) (K1 V c) (rowOf t a) (t.val % 8) b
            - max (sm (ix2 a (0 : Fin 1))) (fBound (Q1 V c) (K1 V c) (rowOf t a) (t.val % 8))) * fVal (V1v V c) d (t.val % 8) b := by
    rw [k1_pay4_apply, h9]
    refine congrArg₂ (· + ·) rfl (Finset.sum_congr rfl fun b _ => ?_)
    rw [score_eq V c t hle a b, val_eq V c t hle b d]
  rw [hm, hl, hacc]
  rfl

end Cert.KernelIdeal.Hand

end
-- ==== Proof.KI.Val1.lean ====
/-
  Region 1 at the extended reals: the carried state, row by row, is the spec's recurrence — after point (i, j) row a of block i
  has folded key blocks 0 … min j i — and at j = 7 the output block receives each row's numerator over its denominator, which
  is Spec.flashHead at that row. The eight output blocks (one per i, written back at j = 7) cover the array.
-/
import proofs.«172065_j32710470926956_2_alg».proof.Proof.KI.Val1Step

set_option maxRecDepth 16384

noncomputable section

open scoped BigOperators

namespace Cert.KernelIdeal.Hand

open Cert.KernelIdeal Cert.KernelIdeal.Gen Cert.Spec Cert.Lib
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three scratch entries of row a (and column d). -/
def rowSt (p : St1 Ideal) (a : Fin 1024) (d : Fin 64) : EReal × EReal × EReal :=
  (p.2.1 (ix2 a (0 : Fin 1)), p.2.2.1 (ix2 a (0 : Fin 1)), p.2.2.2 (ix2 a d))

theorem rowOf_pred (t : Fin cfg1.N) (h0 : ¬t.val % 8 = 0) (a : Fin 1024) :
    rowOf ⟨t.val - 1, Nat.lt_of_le_of_lt (Nat.sub_le _ _) t.isLt⟩ a = rowOf t a := by
  apply Fin.ext
  show 1024 * ((t.val - 1) / 8) + a.val = 1024 * (t.val / 8) + a.val
  omega

/-- The seeded state at a row is the recurrence's start. -/
theorem seed_row (a : Fin 1024) (d : Fin 64) :
    (k1_pay1 (F := Ideal) (ix2 a (0 : Fin 1)), k1_pay2 (F := Ideal) (ix2 a (0 : Fin 1)), k1_pay3 (F := Ideal) (ix2 a d))
      = ((⊥ : EReal), (0 : EReal), (0 : EReal)) := by
  rw [k1_pay1_apply, k1_pay2_apply, k1_pay3_apply]

/-- THE INVARIANT. After point t = (i, j), row a of block i holds the recurrence after min j i + 1 blocks. -/
theorem inv (c : Dev nD) : ∀ (n : ℕ) (t : Fin cfg1.N), t.val = n → ∀ (a : Fin 1024) (d : Fin 64),
    rowSt (outsAt1 V c t.val t.isLt) a d
      = flashRow (Q1 V c) (K1 V c) (V1v V c) (rowOf t a) d (min (t.val % 8) (t.val / 8) + 1) := by
  intro n
  induction n with
  | zero =>
    intro t ht a d
    have h0 : t.val % 8 = 0 := by rw [ht]
    have hle : t.val % 8 ≤ t.val / 8 := by omega
    rw [outsAt1_A V c t h0]
    show ((stA V c t h0).2.1 (ix2 a (0 : Fin 1)), (stA V c t h0).2.2.1 (ix2 a (0 : Fin 1)), (stA V c t h0).2.2.2 (ix2 a d)) = _
    rw [stA_m, stA_l, stA_acc, step_row V c t hle, seed_row, h0, show min 0 (t.val / 8) + 1 = 1 from by rw [Nat.zero_min]]
    rfl
  | succ n ih =>
    intro t ht a d
    have hN : t.val < 64 := lt_of_lt_of_eq t.isLt N_1
    by_cases h0 : t.val % 8 = 0
    · have hle : t.val % 8 ≤ t.val / 8 := by omega
      rw [outsAt1_A V c t h0]
      show ((stA V c t h0).2.1 (ix2 a (0 : Fin 1)), (stA V c t h0).2.2.1 (ix2 a (0 : Fin 1)), (stA V c t h0).2.2.2 (ix2 a d)) = _
      rw [stA_m, stA_l, stA_acc, step_row V c t hle, seed_row, h0, show min 0 (t.val / 8) + 1 = 1 from by rw [Nat.zero_min]]
      rfl
    · -- the point before is in the same row of the grid
      have hprev := ih ⟨t.val - 1, Nat.lt_of_le_of_lt (Nat.sub_le _ _) t.isLt⟩ (by show t.val - 1 = n; omega) a d
      rw [rowOf_pred t h0 a] at hprev
      have hp : rowSt (prev1 V c t) a d
          = flashRow (Q1 V c) (K1 V c) (V1v V c) (rowOf t a) d (min ((t.val - 1) % 8) ((t.val - 1) / 8) + 1) := hprev
      by_cases h1 : t.val % 8 ≤ t.val / 8
      · -- the body folds block j: one more step
        have hcnt : min ((t.val - 1) % 8) ((t.val - 1) / 8) + 1 = t.val % 8 := by
          rw [Nat.min_eq_left (by omega)]; omega
        have hcnt' : min (t.val % 8) (t.val / 8) + 1 = t.val % 8 + 1 := by rw [Nat.min_eq_left h1]
        rw [hcnt] at hp
        rw [hcnt']
        by_cases h2 : t.val % 8 = 7
        · rw [outsAt1_D V c t h0 h1 h2]
          show ((stD V c t h0 h1 h2 (prev1 V c t)).2.1 (ix2 a (0 : Fin 1)), (stD V c t h0 h1 h2 (prev1 V c t)).2.2.1 (ix2 a (0 : Fin 1)),
            (stD V c t h0 h1 h2 (prev1 V c t)).2.2.2 (ix2 a d)) = _
          rw [stD_m, stD_l, stD_acc, step_row V c t h1]
          show OnlineSoftmax.step _ _ _ (rowSt (prev1 V c t) a d) = _
          rw [hp]; rfl
        · rw [outsAt1_B V c t h0 h1 h2]
          show ((stB V c t h0 h1 h2 (prev1 V c t)).2.1 (ix2 a (0 : Fin 1)), (stB V c t h0 h1 h2 (prev1 V c t)).2.2.1 (ix2 a (0 : Fin 1)),
            (stB V c t h0 h1 h2 (prev1 V c t)).2.2.2 (ix2 a d)) = _
          rw [stB_m, stB_l, stB_acc, step_row V c t h1]
          show OnlineSoftmax.step _ _ _ (rowSt (prev1 V c t) a d) = _
          rw [hp]; rfl
      · -- the body skips block j: the scratch is as the point before left it
        have hcnt : min ((t.val - 1) % 8) ((t.val - 1) / 8) + 1 = min (t.val % 8) (t.val / 8) + 1 := by
          rw [Nat.min_eq_right (by omega), Nat.min_eq_right (by omega)]; omega
        rw [hcnt] at hp
        by_cases h2 : t.val % 8 = 7
        · rw [outsAt1_E V c t h0 h1 h2]; exact hp
        · rw [outsAt1_C V c t h0 h1 h2]; exact hp

/-- At j = 7 > i the scratch is as the point before left it. -/
theorem stE_snd (c : Dev nD) (t : Fin cfg1.N) (h0 : ¬t.val % 8 = 0) (h1 : ¬t.val % 8 ≤ t.val / 8) (h2 : t.val % 8 = 7) (p : St1 Ideal) :
    (stE V c t h0 h1 h2 p).2 = p.2 := rfl

/-- At j = 7 the output block's entry is the row's numerator over its denominator. -/
theorem out_row (c : Dev nD) (t : Fin cfg1.N) (h2 : t.val % 8 = 7) (a : Fin 1024) (d : Fin 64) :
    (outsAt1 V c t.val t.isLt).1 (ix2 a d)
      = Ideal.div (rowSt (outsAt1 V c t.val t.isLt) a d).2.2 (rowSt (outsAt1 V c t.val t.isLt) a d).2.1 := by
  have h0 : ¬t.val % 8 = 0 := by omega
  unfold rowSt
  by_cases h1 : t.val % 8 ≤ t.val / 8
  · rw [outsAt1_D V c t h0 h1 h2, stD_out, k1_pay6_apply]
  · rw [outsAt1_E V c t h0 h1 h2, stE_out, k1_pay6_apply, stE_snd]

/-- … which is the spec's head at that row. -/
theorem out_head (c : Dev nD) (t : Fin cfg1.N) (h2 : t.val % 8 = 7) (a : Fin 1024) (d : Fin 64) :
    (outsAt1 V c t.val t.isLt).1 (ix2 a d) = flashHead (Q1 V c) (K1 V c) (V1v V c) (ix2 (rowOf t a) d) := by
  have hN : t.val < 64 := lt_of_lt_of_eq t.isLt N_1
  rw [out_row V c t h2, inv V c t.val t rfl a d, flashHead_ix2]
  have hcnt : min (t.val % 8) (t.val / 8) + 1 = (rowOf t a).val / 1024 + 1 := by
    rw [Nat.min_eq_right (by omega)]
    show t.val / 8 + 1 = (1024 * (t.val / 8) + a.val) / 1024 + 1
    have := a.isLt
    omega
  rw [hcnt]

/-! ## From the blocks to the array -/

theorem flushed1_eq (c : Dev nD) (t : Fin cfg1.N) (h2 : t.val % 8 = 7) :
    (dat1 (F := Ideal) V c).flushed 3 t
      = ((cfg1.win 3).blk t).view.read (Elt Ideal) (flashHead (Q1 V c) (K1 V c) (V1v V c)) := by
  show (cfg1.win 3).cut (grid1.coords t) ((dat1 V c).after 3 t) = _
  rw [after1_3]
  refine funext fun (j : S1024x64.Idx) => ?_
  obtain ⟨a, d, rfl⟩ : ∃ (a : Fin 1024) (d : Fin 64), j = ix2 a d := ⟨j 0, j 1, eq_ix2 j⟩
  obtain ⟨-, -, -, -, -, -, e0, e1⟩ := idx_facts1 t
  have hN : t.val < 64 := lt_of_lt_of_eq t.isLt N_1
  have he : ((cfg1.win 3).blk t).view.emb (ix2 a d) = ix2 (rowOf t a) d :=
    funext fun x => Fin.ext (by
      match x with
      | ⟨0, _⟩ => show win1_3.index t (0 : Fin 2) * 1024 + 1 * a.val = 1024 * (t.val / 8) + a.val; rw [e0]; omega
      | ⟨1, _⟩ => show win1_3.index t (1 : Fin 2) * 64 + 1 * d.val = d.val; rw [e1]; omega)
  rw [View.read_apply, he]
  exact out_head V c t h2 a d

theorem mem_blk1 (t : Fin cfg1.N) (i : S8192x64.Idx) :
    i ∈ ((cfg1.win 3).blk t).view.set ↔ ∀ a : Fin 2, win1_3.index t a * S1024x64.size a ≤ (i a).val
      ∧ (i a).val < win1_3.index t a * S1024x64.size a + S1024x64.size a := by
  show i ∈ ((View.whole main_v19).slice (win1_3.rect t)).set ↔ _
  rw [View.set_slice_whole, Rect.mem_set_unit]
  exact Iff.rfl

theorem cover1 (i : S8192x64.Idx) :
    ∃ t : Fin cfg1.N, (cfg1.win 3).flush t = true ∧ i ∈ ((cfg1.win 3).blk t).view.set := by
  have hi0 : (i 0).val < 8192 := (i 0).isLt
  have hi1 : (i 1).val < 64 := (i 1).isLt
  obtain ⟨t, ht⟩ : ∃ t : Fin cfg1.N, t.val = 8 * ((i 0).val / 1024) + 7 :=
    ⟨⟨8 * ((i 0).val / 1024) + 7, lt_of_lt_of_eq (show 8 * ((i 0).val / 1024) + 7 < 64 by omega) N_1.symm⟩, rfl⟩
  obtain ⟨-, -, -, -, -, -, e0, e1⟩ := idx_facts1 t
  refine ⟨t, (flush1_3 t).mpr (by rw [ht]; omega), ?_⟩
  rw [mem_blk1]
  intro x
  match x with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 64 ≤ (i 1).val ∧ (i 1).val < win1_3.index t (1 : Fin 2) * 64 + 64
    rw [e1]; omega

/-- The attention head's array after the region: the spec's flashHead of the three operand arrays as the region finds them. -/
theorem arr1 (c : Dev nD) :
    (dat1 (F := Ideal) V c).arrAt 3 cfg1.N = flashHead (Q1 V c) (K1 V c) (V1v V c) :=
  (dat1 V c).arrAt_eq_of_cover 3 _ (fun t hf => flushed1_eq V c t ((flush1_3 t).mp hf)) cover1

end Cert.KernelIdeal.Hand

end
-- ==== Proof.KI.Val2Pay.lean ====
/-
  Region 2's arithmetic at one entry of the output block.

  The body computes, from the point's 1024 × 64 rows x, the 64 × 512 weight w and the 1 × 512 bias b,
  the matrix product of x and w accumulated into a zero matrix, and adds the bias broadcast down the rows. Over the
  extended reals a change of float format is the identity and the zero accumulator drops out, so entry (r, c) is

      (∑ k < 64, x(r, k) · w(k, c)) + b(0, c).

  The product's contraction runs over one axis (axis 1 of x against axis 0 of w); its abstract contraction index is
  re-indexed by its one coordinate k < 64, and the operand indices at output index (r, c) and position k are (r, k)
  and (k, c), coordinate by coordinate.
-/
import proofs.«172065_j32710470926956_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The product's dimension numbers: [1024, 64] × [64, 512] → [1024, 512], contracting axis 1 against axis 0. -/
abbrev D2 := dot_S1024x64_S64x512_S1024x512_1_0_0_1_n_n

/-- The left operand's row is the output's row. -/
theorem lhs2_0 (i : S1024x512.Idx) (q : D2.contr.Idx) : (D2.lhsIdx i q 0).val = (i 0).val := by
  unfold DotDims.lhsIdx
  rw [dif_neg (show ¬(0 : Fin S1024x64.rank) ∈ D2.lhsBatch by decide),
    dif_pos (show (0 : Fin S1024x64.rank) ∈ D2.lhsNonContracting by decide)]
  rfl

/-- The left operand's column is the contraction position. -/
theorem lhs2_1 (i : S1024x512.Idx) (q : D2.contr.Idx) : (D2.lhsIdx i q 1).val = (q ⟨0, by decide⟩).val :=
  D2.lhsIdx_val_of_single rfl i q

/-- The right operand's row is the contraction position. -/
theorem rhs2_0 (i : S1024x512.Idx) (q : D2.contr.Idx) : (D2.rhsIdx i q 0).val = (q ⟨0, by decide⟩).val :=
  D2.rhsIdx_val_of_single rfl i q

/-- The right operand's column is the output's column. -/
theorem rhs2_1 (i : S1024x512.Idx) (q : D2.contr.Idx) : (D2.rhsIdx i q 1).val = (i 1).val := by
  unfold DotDims.rhsIdx
  rw [dif_neg (show ¬(1 : Fin S64x512.rank) ∈ D2.rhsBatch by decide),
    dif_pos (show (1 : Fin S64x512.rank) ∈ D2.rhsNonContracting by decide)]
  rfl

/-- Entry (r, c) of what the body stores: row r of x against column c of w, plus the bias at column c. -/
theorem pay2_apply (x0 : FVec Ideal S1024x64 .f32) (x1 : FVec Ideal S64x512 .bf16) (x2 : FVec Ideal S1x512 .f32)
    (r : Fin 1024) (c : Fin 512) :
    k2_pay1 (F := Ideal) x0 x1 x2 (ix2 r c) = (∑ k : Fin 64, x0 (ix2 r k) * x1 (ix2 k c)) + x2 (ix2 (0 : Fin 1) c) := by
  unfold k2_pay1
  rw [shapeCast_self, shapeCast_self, shapeCast_self, addf_apply]
  refine congrArg₂ (· + ·) ?_ ?_
  · -- the product: the sum over the contraction index, re-indexed by its coordinate
    simp only [matmul]
    rw [Ideal.matmul_constant_zero_apply, ← Equiv.sum_comp (contrEquiv1 D2 64 rfl rfl).symm]
    refine Finset.sum_congr rfl fun k _ => ?_
    have hk := contrEquiv1_symm_val D2 64 rfl rfl k
    have el : D2.lhsIdx (ix2 r c) ((contrEquiv1 D2 64 rfl rfl).symm k) = ix2 r k := funext fun a => Fin.ext (by
      match a with
      | ⟨0, _⟩ => exact lhs2_0 _ _
      | ⟨1, _⟩ => exact (lhs2_1 _ _).trans hk)
    have er : D2.rhsIdx (ix2 r c) ((contrEquiv1 D2 64 rfl rfl).symm k) = ix2 k c := funext fun a => Fin.ext (by
      match a with
      | ⟨0, _⟩ => exact (rhs2_0 _ _).trans hk
      | ⟨1, _⟩ => exact rhs2_1 _ _)
    rw [el, er]
    rfl
  · -- the bias row, the same in every row
    exact broadcastTo_apply _ _ _ (ix2 (0 : Fin 1) c) (fun a => by
      match a with
      | ⟨0, _⟩ => rfl
      | ⟨1, _⟩ => rfl)

end Cert.KernelIdeal.Hand

end
-- ==== Proof.KI.Val2.lean ====
/-
  Region 2's output array after the run, as one function of its operand arrays.

  The grid has 8 points. Point t reads rows 1024·t … 1024·t + 1023 of the 8192 × 64 array x, the whole 64 × 512 weight
  w and the whole 1 × 512 bias b, and writes rows 1024·t … 1024·t + 1023 of the 8192 × 512 output. Entry (p, q) of the
  block it writes is (∑ k < 64, x_blk(p, k) · w(k, q)) + b(0, q), and x_blk(p, k) = x(1024·t + p, k): so the block is
  exactly the rows 1024·t … of the whole-array function

      projBias x w b (r, c) = (∑ k < 64, x(r, k) · w(k, c)) + b(0, c).

  Row r of the output is written by point r / 1024, so the 8 blocks cover the array and it ends holding projBias x w b.
-/
import proofs.«172065_j32710470926956_2_alg».proof.Proof.KI.R2
import proofs.«172065_j32710470926956_2_alg».proof.Proof.KI.Val2Pay
import proofs.«172065_j32710470926956_2_alg».proof.Proof.Spec.Proj
import Idealize.ShloMosaic.Lib.Pipeline.Value

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-buffer access. -/
theorem hz2 : (![0, 0] : Fin 2 → Nat) = fun _ => 0 := funext fun a => by fin_cases a <;> rfl

/-- The four index maps at every grid point: the rows' and the output's block index is (t, 0), the weight's and the
    bias's is (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## Each input block as entries of its array

An entry of a block sits in the array, on each axis, at block index × block size + its coordinate inside the block. -/

section Blocks
variable {F : FTy → Type} [FloatOps F] [Named F]
variable (V : (c : Dev nD) → (b : Ref sig .tc) → Buf (Elt F) ((c : Thread nD τ).loc b))

/-- The rows' block at point t: entry (p, k) is x(1024·t + p, k). -/
theorem blk2_0_apply (c : Dev nD) (t : Fin cfg2.N) (y : S1024x64.Idx) (k : S8192x64.Idx)
    (hk0 : (k 0).val = 1024 * t.val + (y 0).val) (hk1 : (k 1).val = (y 1).val) :
    (iblk2 V c 0 t : FVec F S1024x64 .f32) y = (V c (Pipeline.arrRef spec2 0) : S8192x64.Idx → F .f32) k := by
  obtain ⟨e0, e1, -⟩ := idx_facts2 t
  unfold iblk2
  rw [View.read_apply]
  refine congrArg (V c (Pipeline.arrRef spec2 0)) (funext fun a => Fin.ext ?_)
  match a with
  | ⟨0, _⟩ => show win2_0.index t (0 : Fin 2) * 1024 + 1 * (y 0).val = (k 0).val; rw [e0, hk0]; omega
  | ⟨1, _⟩ => show win2_0.index t (1 : Fin 2) * 64 + 1 * (y 1).val = (k 1).val; rw [e1, hk1]; omega

/-- The weight's block at every point is the whole weight. -/
theorem blk2_1_apply (c : Dev nD) (t : Fin cfg2.N) (y : S64x512.Idx) (k : S64x512.Idx)
    (hk0 : (k 0).val = (y 0).val) (hk1 : (k 1).val = (y 1).val) :
    (iblk2 V c 1 t : FVec F S64x512 .bf16) y = (V c (Pipeline.arrRef spec2 1) : S64x512.Idx → F .bf16) k := by
  obtain ⟨-, -, e0, e1, -⟩ := idx_facts2 t
  unfold iblk2
  rw [View.read_apply]
  refine congrArg (V c (Pipeline.arrRef spec2 1)) (funext fun a => Fin.ext ?_)
  match a with
  | ⟨0, _⟩ => show win2_1.index t (0 : Fin 2) * 64 + 1 * (y 0).val = (k 0).val; rw [e0, hk0]; omega
  | ⟨1, _⟩ => show win2_1.index t (1 : Fin 2) * 512 + 1 * (y 1).val = (k 1).val; rw [e1, hk1]; omega

/-- The bias's block at every point is the whole bias row. -/
theorem blk2_2_apply (c : Dev nD) (t : Fin cfg2.N) (y : S1x512.Idx) (k : S1x512.Idx)
    (hk0 : (k 0).val = (y 0).val) (hk1 : (k 1).val = (y 1).val) :
    (iblk2 V c 2 t : FVec F S1x512 .f32) y = (V c (Pipeline.arrRef spec2 2) : S1x512.Idx → F .f32) k := by
  obtain ⟨-, -, -, -, e0, e1, -⟩ := idx_facts2 t
  unfold iblk2
  rw [View.read_apply]
  refine congrArg (V c (Pipeline.arrRef spec2 2)) (funext fun a => Fin.ext ?_)
  match a with
  | ⟨0, _⟩ => show win2_2.index t (0 : Fin 2) * 1 + 1 * (y 0).val = (k 0).val; rw [e0, hk0]; omega
  | ⟨1, _⟩ => show win2_2.index t (1 : Fin 2) * 512 + 1 * (y 1).val = (k 1).val; rw [e1, hk1]; omega

end Blocks

/-! ## The output, over the extended reals -/

variable (V : (c : Dev nD) → (b : Ref sig .tc) → Buf (Elt Ideal) ((c : Thread nD τ).loc b))

/-- What point t writes back is rows 1024·t … 1024·t + 1023 of projBias of the three operand arrays: the one store
    covers the output's buffer, its value at (p, q) is the block product plus the bias, and each input block's entry is
    its array's entry at the place the output's row 1024·t + p and column q name. -/
theorem flushed2_eq (c : Dev nD) (t : Fin cfg2.N) :
    (dat2 (F := Ideal) V c).flushed 3 t
      = ((cfg2.win 3).blk t).view.read (Elt Ideal)
          (projBias (n := 8192) (k := 64) (m := 512) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S1024x64) hz2, View.ld_unit_zero (S := S64x512) hz2, View.ld_unit_zero (S := S1x512) hz2]
  refine funext fun (j : S1024x512.Idx) => ?_
  obtain ⟨p, q, rfl⟩ : ∃ (p : Fin 1024) (q : Fin 512), j = ix2 p q := ⟨j 0, j 1, eq_ix2 j⟩
  obtain ⟨-, -, -, -, -, -, e0, e1⟩ := idx_facts2 t
  have ht : t.val < 8 := lt_of_lt_of_eq t.isLt N_2
  -- entry (p, q) of the output's block is entry (1024·t + p, q) of the output's array
  have he : ((cfg2.win 3).blk t).view.emb (ix2 p q) = ix2 (⟨1024 * t.val + p.val, by omega⟩ : Fin 8192) q :=
    funext fun a => Fin.ext (by
      match a with
      | ⟨0, _⟩ => show win2_3.index t (0 : Fin 2) * 1024 + 1 * p.val = 1024 * t.val + p.val; rw [e0]; omega
      | ⟨1, _⟩ => show win2_3.index t (1 : Fin 2) * 512 + 1 * q.val = q.val; rw [e1]; omega)
  rw [View.read_apply, he, projBias_ix2]
  show k2_pay1 (F := Ideal) (iblk2 V c 0 t) (iblk2 V c 1 t) (iblk2 V c 2 t) (ix2 p q) = _
  refine (pay2_apply _ _ _ p q).trans ?_
  refine congrArg₂ (· + ·) (Finset.sum_congr rfl fun k _ => congrArg₂ (· * ·) ?_ ?_) ?_
  · exact blk2_0_apply V c t (ix2 p k) _ rfl rfl
  · exact blk2_1_apply V c t (ix2 k q) _ rfl rfl
  · exact blk2_2_apply V c t (ix2 (0 : Fin 1) q) _ rfl rfl

/-- An index of the output array is in point t's block iff each coordinate is in the block's range on its axis. -/
theorem mem_blk2 (t : Fin cfg2.N) (i : S8192x512.Idx) :
    i ∈ ((cfg2.win 3).blk t).view.set ↔ ∀ a : Fin 2, win2_3.index t a * S1024x512.size a ≤ (i a).val
      ∧ (i a).val < win2_3.index t a * S1024x512.size a + S1024x512.size a := by
  show i ∈ ((View.whole main_v21).slice (win2_3.rect t)).set ↔ _
  rw [View.set_slice_whole, Rect.mem_set_unit]
  exact Iff.rfl

/-- Every index of the output array is in the block of the point its row divided by 1024 names. -/
theorem cover2 (i : S8192x512.Idx) :
    ∃ t : Fin cfg2.N, (cfg2.win 3).flush t = true ∧ i ∈ ((cfg2.win 3).blk t).view.set := by
  have hi0 : (i 0).val < 8192 := (i 0).isLt
  have hi1 : (i 1).val < 512 := (i 1).isLt
  obtain ⟨t, ht⟩ : ∃ t : Fin cfg2.N, t.val = (i 0).val / 1024 :=
    ⟨⟨(i 0).val / 1024, lt_of_lt_of_eq (show (i 0).val / 1024 < 8 by omega) N_2.symm⟩, rfl⟩
  obtain ⟨-, -, -, -, -, -, e0, e1⟩ := idx_facts2 t
  refine ⟨t, flush2_3 t, ?_⟩
  rw [mem_blk2]
  intro a
  match a with
  | ⟨0, _⟩ =>
    show win2_3.index t (0 : Fin 2) * 1024 ≤ (i 0).val ∧ (i 0).val < win2_3.index t (0 : Fin 2) * 1024 + 1024
    rw [e0, ht]; omega
  | ⟨1, _⟩ =>
    show win2_3.index t (1 : Fin 2) * 512 ≤ (i 1).val ∧ (i 1).val < win2_3.index t (1 : Fin 2) * 512 + 512
    rw [e1]; omega

/-- The output array after the region: projBias of the three operand arrays as the region finds them. -/
theorem arr2 (c : Dev nD) :
    (dat2 (F := Ideal) V c).arrAt 3 cfg2.N
      = projBias (n := 8192) (k := 64) (m := 512) (V c (Pipeline.arrRef spec2 0)) (V c (Pipeline.arrRef spec2 1)) (V c (Pipeline.arrRef spec2 2)) :=
  (dat2 V c).arrAt_eq_of_cover 3 _ (fun t _ => flushed2_eq V c t) cover2

end Cert.KernelIdeal.Hand

end
-- ==== Proof.KI.Val3Pay.lean ====
/-
  Region 3's arithmetic at one entry of the output block.

  The body computes, from the point's 1024 × 512 rows x, the 512 × 128 weight w and the 1 × 128 bias b,
  the matrix product of x and w accumulated into a zero matrix, and adds the bias broadcast down the rows. Over the
  extended reals a change of float format is the identity and the zero accumulator drops out, so entry (r, c) is

      (∑ k < 512, x(r, k) · w(k, c)) + b(0, c).

  The product's contraction runs over one axis (axis 1 of x against axis 0 of w); its abstract contraction index is
  re-indexed by its one coordinate k < 512, and the operand indices at output index (r, c) and position k are (r, k)
  and (k, c), coordinate by coordinate.
-/
import proofs.«172065_j32710470926956_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The product's dimension numbers: [1024, 512] × [512, 128] → [1024, 128], contracting axis 1 against axis 0. -/
abbrev D3 := dot_S1024x512_S512x128_S1024x128_1_0_0_1_n_n

/-- The left operand's row is the output's row. -/
theorem lhs3_0 (i : S1024x128.Idx) (q : D3.contr.Idx) : (D3.lhsIdx i q 0).val = (i 0).val := by
  unfold DotDims.lhsIdx
  rw [dif_neg (show ¬(0 : Fin S1024x512.rank) ∈ D3.lhsBatch by decide),
    dif_pos (show (0 : Fin S1024x512.rank) ∈ D3.lhsNonContracting by decide)]
  rfl

/-- The left operand's column is the contraction position. -/
theorem lhs3_1 (i : S1024x128.Idx) (q : D3.contr.Idx) : (D3.lhsIdx i q 1).val = (q ⟨0, by decide⟩).val :=
  D3.lhsIdx_val_of_single rfl i q

/-- The right operand's row is the contraction position. -/
theorem rhs3_0 (i : S1024x128.Idx) (q : D3.contr.Idx) : (D3.rhsIdx i q 0).val = (q ⟨0, by decide⟩).val :=
  D3.rhsIdx_val_of_single rfl i q

/-- The right operand's column is the output's column. -/
theorem rhs3_1 (i : S1024x128.Idx) (q : D3.contr.Idx) : (D3.rhsIdx i q 1).val = (i 1).val := by
  unfold DotDims.rhsIdx
  rw [dif_neg (show ¬(1 : Fin S512x128.rank) ∈ D3.rhsBatch by decide),
    dif_pos (show (1 : Fin S512x128.rank) ∈ D3.rhsNonContracting by decide)]
  rfl

/-- Entry (r, c) of what the body stores: row r of x against column c of w, plus the bias at column c. -/
theorem pay3_apply (x0 : FVec Ideal S1024x512 .f32) (x1 : FVec Ideal S512x128 .bf16) (x2 : FVec Ideal S1x128 .f32)
    (r : Fin 1024) (c : Fin 128) :
    k3_pay1 (F := Ideal) x0 x1 x2 (ix2 r c) = (∑ k : Fin 512, x0 (ix2 r k) * x1 (ix2 k c)) + x2 (ix2 (0 : Fin 1) c) := by
  unfold k3_pay1
  rw [shapeCast_self, shapeCast_self, addf_apply]
  refine congrArg₂ (· + ·) ?_ ?_
  · -- the product: the sum over the contraction index, re-indexed by its coordinate
    simp only [matmul]
    rw [Ideal.matmul_constant_zero_apply, ← Equiv.sum_comp (contrEquiv1 D3 512 rfl rfl).symm]
    refine Finset.sum_congr rfl fun k _ => ?_
    have hk := contrEquiv1_symm_val D3 512 rfl rfl k
    have el : D3.lhsIdx (ix2 r c) ((contrEquiv1 D3 512 rfl rfl).symm k) = ix2 r k := funext fun a => Fin.ext (by
      match a with
      | ⟨0, _⟩ => exact lhs3_0 _ _
      | ⟨1, _⟩ => exact (lhs3_1 _ _).trans hk)
    have er : D3.rhsIdx (ix2 r c) ((contrEquiv1 D3 512 rfl rfl).symm k) = ix2 k c := funext fun a => Fin.ext (by
      match a with
      | ⟨0, _⟩ => exact (rhs3_0 _ _).trans hk
      | ⟨1, _⟩ => exact rhs3_1 _ _)
    rw [el, er]
    rfl
  · -- the bias row, the same in every row
    exact broadcastTo_apply _ _ _ (ix2 (0 : Fin 1) c) (fun a => by
      match a with
      | ⟨0, _⟩ => rfl
      | ⟨1, _⟩ => rfl)

end Cert.KernelIdeal.Hand

end
-- ==== Proof.KI.Val3.lean ====
/-
  Region 3's output array after the run, as one function of its operand arrays.

  The grid has 8 points. Point t reads rows 1024·t … 1024·t + 1023 of the 8192 × 512 array x, the whole 512 × 128 weight
  w and the whole 1 × 128 bias b, and writes rows 1024·t … 1024·t + 1023 of the 8192 × 128 output. Entry (p, q) of the
  block it writes is (∑ k < 512, x_blk(p, k) · w(k, q)) + b(0, q), and x_blk(p, k) = x(1024·t + p, k): so the block is
  exactly the rows 1024·t … of the whole-array function

      projBias x w b (r, c) = (∑ k < 512, x(r, k) · w(k, c)) + b(0, c).

  Row r of the output is written by point r / 1024, so the 8 blocks cover the array and it ends holding projBias x w b.
-/
import proofs.«172065_j32710470926956_2_alg».proof.Proof.KI.R3
import proofs.«172065_j32710470926956_2_alg».proof.Proof.KI.Val3Pay
import proofs.«172065_j32710470926956_2_alg».proof.Proof.Spec.Proj
import Idealize.ShloMosaic.Lib.Pipeline.Value

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-buffer access. -/
theorem hz3 : (![0, 0] : Fin 2 → Nat) = fun _ => 0 := funext fun a => by fin_cases a <;> rfl

/-- The four index maps at every grid point: the rows' and the output's block index is (t, 0), the weight's and the
    bias's is (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-! ## Each input block as entries of its array

An entry of a block sits in the array, on each axis, at block index × block size + its coordinate inside the block. -/

section Blocks
variable {F : FTy → Type} [FloatOps F] [Named F]
variable (V : (c : Dev nD) → (b : Ref sig .tc) → Buf (Elt F) ((c : Thread nD τ).loc b))

/-- The rows' block at point t: entry (p, k) is x(1024·t + p, k). -/
theorem blk3_0_apply (c : Dev nD) (t : Fin cfg3.N) (y : S1024x512.Idx) (k : S8192x512.Idx)
    (hk0 : (k 0).val = 1024 * t.val + (y 0).val) (hk1 : (k 1).val = (y 1).val) :
    (iblk3 V c 0 t : FVec F S1024x512 .f32) y = (V c (Pipeline.arrRef spec3 0) : S8192x512.Idx → F .f32) k := by
  obtain ⟨e0, e1, -⟩ := idx_facts3 t
  unfold iblk3
  rw [View.read_apply]
  refine congrArg (V c (Pipeline.arrRef spec3 0)) (funext fun a => Fin.ext ?_)
  match a with
  | ⟨0, _⟩ => show win3_0.index t (0 : Fin 2) * 1024 + 1 * (y 0).val = (k 0).val; rw [e0, hk0]; omega
  | ⟨1, _⟩ => show win3_0.index t (1 : Fin 2) * 512 + 1 * (y 1).val = (k 1).val; rw [e1, hk1]; omega

/-- The weight's block at every point is the whole weight. -/
theorem blk3_1_apply (c : Dev nD) (t : Fin cfg3.N) (y : S512x128.Idx) (k : S512x128.Idx)
    (hk0 : (k 0).val = (y 0).val) (hk1 : (k 1).val = (y 1).val) :
    (iblk3 V c 1 t : FVec F S512x128 .bf16) y = (V c (Pipeline.arrRef spec3 1) : S512x128.Idx → F .bf16) k := by
  obtain ⟨-, -, e0, e1, -⟩ := idx_facts3 t
  unfold iblk3
  rw [View.read_apply]
  refine congrArg (V c (Pipeline.arrRef spec3 1)) (funext fun a => Fin.ext ?_)
  match a with
  | ⟨0, _⟩ => show win3_1.index t (0 : Fin 2) * 512 + 1 * (y 0).val = (k 0).val; rw [e0, hk0]; omega
  | ⟨1, _⟩ => show win3_1.index t (1 : Fin 2) * 128 + 1 * (y 1).val = (k 1).val; rw [e1, hk1]; omega

/-- The bias's block at every point is the whole bias row. -/
theorem blk3_2_apply (c : Dev nD) (t : Fin cfg3.N) (y : S1x128.Idx) (k : S1x128.Idx)
    (hk0 : (k 0).val = (y 0).val) (hk1 : (k 1).val = (y 1).val) :
    (iblk3 V c 2 t : FVec F S1x128 .f32) y = (V c (Pipeline.arrRef spec3 2) : S1x128.Idx → F .f32) k := by
  obtain ⟨-, -, -, -, e0, e1, -⟩ := idx_facts3 t
  unfold iblk3
  rw [View.read_apply]
  refine congrArg (V c (Pipeline.arrRef spec3 2)) (funext fun a => Fin.ext ?_)
  match a with
  | ⟨0, _⟩ => show win3_2.index t (0 : Fin 2) * 1 + 1 * (y 0).val = (k 0).val; rw [e0, hk0]; omega
  | ⟨1, _⟩ => show win3_2.index t (1 : Fin 2) * 128 + 1 * (y 1).val = (k 1).val; rw [e1, hk1]; omega

end Blocks

/-! ## The output, over the extended reals -/

variable (V : (c : Dev nD) → (b : Ref sig .tc) → Buf (Elt Ideal) ((c : Thread nD τ).loc b))

/-- What point t writes back is rows 1024·t … 1024·t + 1023 of projBias of the three operand arrays: the one store
    covers the output's buffer, its value at (p, q) is the block product plus the bias, and each input block's entry is
    its array's entry at the place the output's row 1024·t + p and column q name. -/
theorem flushed3_eq (c : Dev nD) (t : Fin cfg3.N) :
    (dat3 (F := Ideal) V c).flushed 3 t
      = ((cfg3.win 3).blk t).view.read (Elt Ideal)
          (projBias (n := 8192) (k := 512) (m := 128) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S1024x512) hz3, View.ld_unit_zero (S := S512x128) hz3, View.ld_unit_zero (S := S1x128) hz3]
  refine funext fun (j : S1024x128.Idx) => ?_
  obtain ⟨p, q, rfl⟩ : ∃ (p : Fin 1024) (q : Fin 128), j = ix2 p q := ⟨j 0, j 1, eq_ix2 j⟩
  obtain ⟨-, -, -, -, -, -, e0, e1⟩ := idx_facts3 t
  have ht : t.val < 8 := lt_of_lt_of_eq t.isLt N_3
  -- entry (p, q) of the output's block is entry (1024·t + p, q) of the output's array
  have he : ((cfg3.win 3).blk t).view.emb (ix2 p q) = ix2 (⟨1024 * t.val + p.val, by omega⟩ : Fin 8192) q :=
    funext fun a => Fin.ext (by
      match a with
      | ⟨0, _⟩ => show win3_3.index t (0 : Fin 2) * 1024 + 1 * p.val = 1024 * t.val + p.val; rw [e0]; omega
      | ⟨1, _⟩ => show win3_3.index t (1 : Fin 2) * 128 + 1 * q.val = q.val; rw [e1]; omega)
  rw [View.read_apply, he, projBias_ix2]
  show k3_pay1 (F := Ideal) (iblk3 V c 0 t) (iblk3 V c 1 t) (iblk3 V c 2 t) (ix2 p q) = _
  refine (pay3_apply _ _ _ p q).trans ?_
  refine congrArg₂ (· + ·) (Finset.sum_congr rfl fun k _ => congrArg₂ (· * ·) ?_ ?_) ?_
  · exact blk3_0_apply V c t (ix2 p k) _ rfl rfl
  · exact blk3_1_apply V c t (ix2 k q) _ rfl rfl
  · exact blk3_2_apply V c t (ix2 (0 : Fin 1) q) _ rfl rfl

/-- An index of the output array is in point t's block iff each coordinate is in the block's range on its axis. -/
theorem mem_blk3 (t : Fin cfg3.N) (i : S8192x128.Idx) :
    i ∈ ((cfg3.win 3).blk t).view.set ↔ ∀ a : Fin 2, win3_3.index t a * S1024x128.size a ≤ (i a).val
      ∧ (i a).val < win3_3.index t a * S1024x128.size a + S1024x128.size a := by
  show i ∈ ((View.whole main_v23).slice (win3_3.rect t)).set ↔ _
  rw [View.set_slice_whole, Rect.mem_set_unit]
  exact Iff.rfl

/-- Every index of the output array is in the block of the point its row divided by 1024 names. -/
theorem cover3 (i : S8192x128.Idx) :
    ∃ t : Fin cfg3.N, (cfg3.win 3).flush t = true ∧ i ∈ ((cfg3.win 3).blk t).view.set := by
  have hi0 : (i 0).val < 8192 := (i 0).isLt
  have hi1 : (i 1).val < 128 := (i 1).isLt
  obtain ⟨t, ht⟩ : ∃ t : Fin cfg3.N, t.val = (i 0).val / 1024 :=
    ⟨⟨(i 0).val / 1024, lt_of_lt_of_eq (show (i 0).val / 1024 < 8 by omega) N_3.symm⟩, rfl⟩
  obtain ⟨-, -, -, -, -, -, e0, e1⟩ := idx_facts3 t
  refine ⟨t, flush3_3 t, ?_⟩
  rw [mem_blk3]
  intro a
  match a with
  | ⟨0, _⟩ =>
    show win3_3.index t (0 : Fin 2) * 1024 ≤ (i 0).val ∧ (i 0).val < win3_3.index t (0 : Fin 2) * 1024 + 1024
    rw [e0, ht]; omega
  | ⟨1, _⟩ =>
    show win3_3.index t (1 : Fin 2) * 128 ≤ (i 1).val ∧ (i 1).val < win3_3.index t (1 : Fin 2) * 128 + 128
    rw [e1]; omega

/-- The output array after the region: projBias of the three operand arrays as the region finds them. -/
theorem arr3 (c : Dev nD) :
    (dat3 (F := Ideal) V c).arrAt 3 cfg3.N
      = projBias (n := 8192) (k := 512) (m := 128) (V c (Pipeline.arrRef spec3 0)) (V c (Pipeline.arrRef spec3 1)) (V c (Pipeline.arrRef spec3 2)) :=
  (dat3 V c).arrAt_eq_of_cover 3 _ (fun t _ => flushed3_eq V c t) cover3

end Cert.KernelIdeal.Hand

end
-- ==== Proof.KI.Val4Pay.lean ====
/-
  Region 4's arithmetic at one entry of the output block.

  The body computes, from the point's 1024 × 512 rows x, the 512 × 64 weight w and the 1 × 64 bias b,
  the matrix product of x and w accumulated into a zero matrix, and adds the bias broadcast down the rows. Over the
  extended reals a change of float format is the identity and the zero accumulator drops out, so entry (r, c) is

      (∑ k < 512, x(r, k) · w(k, c)) + b(0, c).

  The product's contraction runs over one axis (axis 1 of x against axis 0 of w); its abstract contraction index is
  re-indexed by its one coordinate k < 512, and the operand indices at output index (r, c) and position k are (r, k)
  and (k, c), coordinate by coordinate.
-/
import proofs.«172065_j32710470926956_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The product's dimension numbers: [1024, 512] × [512, 64] → [1024, 64], contracting axis 1 against axis 0. -/
abbrev D4 := dot_S1024x512_S512x64_S1024x64_1_0_0_1_n_n

/-- The left operand's row is the output's row. -/
theorem lhs4_0 (i : S1024x64.Idx) (q : D4.contr.Idx) : (D4.lhsIdx i q 0).val = (i 0).val := by
  unfold DotDims.lhsIdx
  rw [dif_neg (show ¬(0 : Fin S1024x512.rank) ∈ D4.lhsBatch by decide),
    dif_pos (show (0 : Fin S1024x512.rank) ∈ D4.lhsNonContracting by decide)]
  rfl

/-- The left operand's column is the contraction position. -/
theorem lhs4_1 (i : S1024x64.Idx) (q : D4.contr.Idx) : (D4.lhsIdx i q 1).val = (q ⟨0, by decide⟩).val :=
  D4.lhsIdx_val_of_single rfl i q

/-- The right operand's row is the contraction position. -/
theorem rhs4_0 (i : S1024x64.Idx) (q : D4.contr.Idx) : (D4.rhsIdx i q 0).val = (q ⟨0, by decide⟩).val :=
  D4.rhsIdx_val_of_single rfl i q

/-- The right operand's column is the output's column. -/
theorem rhs4_1 (i : S1024x64.Idx) (q : D4.contr.Idx) : (D4.rhsIdx i q 1).val = (i 1).val := by
  unfold DotDims.rhsIdx
  rw [dif_neg (show ¬(1 : Fin S512x64.rank) ∈ D4.rhsBatch by decide),
    dif_pos (show (1 : Fin S512x64.rank) ∈ D4.rhsNonContracting by decide)]
  rfl

/-- Entry (r, c) of what the body stores: row r of x against column c of w, plus the bias at column c. -/
theorem pay4_apply (x0 : FVec Ideal S1024x512 .f32) (x1 : FVec Ideal S512x64 .bf16) (x2 : FVec Ideal S1x64 .f32)
    (r : Fin 1024) (c : Fin 64) :
    k4_pay1 (F := Ideal) x0 x1 x2 (ix2 r c) = (∑ k : Fin 512, x0 (ix2 r k) * x1 (ix2 k c)) + x2 (ix2 (0 : Fin 1) c) := by
  unfold k4_pay1
  rw [shapeCast_self, shapeCast_self, shapeCast_self, addf_apply]
  refine congrArg₂ (· + ·) ?_ ?_
  · -- the product: the sum over the contraction index, re-indexed by its coordinate
    simp only [matmul]
    rw [Ideal.matmul_constant_zero_apply, ← Equiv.sum_comp (contrEquiv1 D4 512 rfl rfl).symm]
    refine Finset.sum_congr rfl fun k _ => ?_
    have hk := contrEquiv1_symm_val D4 512 rfl rfl k
    have el : D4.lhsIdx (ix2 r c) ((contrEquiv1 D4 512 rfl rfl).symm k) = ix2 r k := funext fun a => Fin.ext (by
      match a with
      | ⟨0, _⟩ => exact lhs4_0 _ _
      | ⟨1, _⟩ => exact (lhs4_1 _ _).trans hk)
    have er : D4.rhsIdx (ix2 r c) ((contrEquiv1 D4 512 rfl rfl).symm k) = ix2 k c := funext fun a => Fin.ext (by
      match a with
      | ⟨0, _⟩ => exact (rhs4_0 _ _).trans hk
      | ⟨1, _⟩ => exact rhs4_1 _ _)
    rw [el, er]
    rfl
  · -- the bias row, the same in every row
    exact broadcastTo_apply _ _ _ (ix2 (0 : Fin 1) c) (fun a => by
      match a with
      | ⟨0, _⟩ => rfl
      | ⟨1, _⟩ => rfl)

end Cert.KernelIdeal.Hand

end
-- ==== Proof.KI.Val4.lean ====
/-
  Region 4's output array after the run, as one function of its operand arrays.

  The grid has 8 points. Point t reads rows 1024·t … 1024·t + 1023 of the 8192 × 512 array x, the whole 512 × 64 weight
  w and the whole 1 × 64 bias b, and writes rows 1024·t … 1024·t + 1023 of the 8192 × 64 output. Entry (p, q) of the
  block it writes is (∑ k < 512, x_blk(p, k) · w(k, q)) + b(0, q), and x_blk(p, k) = x(1024·t + p, k): so the block is
  exactly the rows 1024·t … of the whole-array function

      projBias x w b (r, c) = (∑ k < 512, x(r, k) · w(k, c)) + b(0, c).

  Row r of the output is written by point r / 1024, so the 8 blocks cover the array and it ends holding projBias x w b.
-/
import proofs.«172065_j32710470926956_2_alg».proof.Proof.KI.R4
import proofs.«172065_j32710470926956_2_alg».proof.Proof.KI.Val4Pay
import proofs.«172065_j32710470926956_2_alg».proof.Proof.Spec.Proj
import Idealize.ShloMosaic.Lib.Pipeline.Value

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-buffer access. -/
theorem hz4 : (![0, 0] : Fin 2 → Nat) = fun _ => 0 := funext fun a => by fin_cases a <;> rfl

/-- The four index maps at every grid point: the rows' and the output's block index is (t, 0), the weight's and the
    bias's is (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-! ## Each input block as entries of its array

An entry of a block sits in the array, on each axis, at block index × block size + its coordinate inside the block. -/

section Blocks
variable {F : FTy → Type} [FloatOps F] [Named F]
variable (V : (c : Dev nD) → (b : Ref sig .tc) → Buf (Elt F) ((c : Thread nD τ).loc b))

/-- The rows' block at point t: entry (p, k) is x(1024·t + p, k). -/
theorem blk4_0_apply (c : Dev nD) (t : Fin cfg4.N) (y : S1024x512.Idx) (k : S8192x512.Idx)
    (hk0 : (k 0).val = 1024 * t.val + (y 0).val) (hk1 : (k 1).val = (y 1).val) :
    (iblk4 V c 0 t : FVec F S1024x512 .f32) y = (V c (Pipeline.arrRef spec4 0) : S8192x512.Idx → F .f32) k := by
  obtain ⟨e0, e1, -⟩ := idx_facts4 t
  unfold iblk4
  rw [View.read_apply]
  refine congrArg (V c (Pipeline.arrRef spec4 0)) (funext fun a => Fin.ext ?_)
  match a with
  | ⟨0, _⟩ => show win4_0.index t (0 : Fin 2) * 1024 + 1 * (y 0).val = (k 0).val; rw [e0, hk0]; omega
  | ⟨1, _⟩ => show win4_0.index t (1 : Fin 2) * 512 + 1 * (y 1).val = (k 1).val; rw [e1, hk1]; omega

/-- The weight's block at every point is the whole weight. -/
theorem blk4_1_apply (c : Dev nD) (t : Fin cfg4.N) (y : S512x64.Idx) (k : S512x64.Idx)
    (hk0 : (k 0).val = (y 0).val) (hk1 : (k 1).val = (y 1).val) :
    (iblk4 V c 1 t : FVec F S512x64 .bf16) y = (V c (Pipeline.arrRef spec4 1) : S512x64.Idx → F .bf16) k := by
  obtain ⟨-, -, e0, e1, -⟩ := idx_facts4 t
  unfold iblk4
  rw [View.read_apply]
  refine congrArg (V c (Pipeline.arrRef spec4 1)) (funext fun a => Fin.ext ?_)
  match a with
  | ⟨0, _⟩ => show win4_1.index t (0 : Fin 2) * 512 + 1 * (y 0).val = (k 0).val; rw [e0, hk0]; omega
  | ⟨1, _⟩ => show win4_1.index t (1 : Fin 2) * 64 + 1 * (y 1).val = (k 1).val; rw [e1, hk1]; omega

/-- The bias's block at every point is the whole bias row. -/
theorem blk4_2_apply (c : Dev nD) (t : Fin cfg4.N) (y : S1x64.Idx) (k : S1x64.Idx)
    (hk0 : (k 0).val = (y 0).val) (hk1 : (k 1).val = (y 1).val) :
    (iblk4 V c 2 t : FVec F S1x64 .f32) y = (V c (Pipeline.arrRef spec4 2) : S1x64.Idx → F .f32) k := by
  obtain ⟨-, -, -, -, e0, e1, -⟩ := idx_facts4 t
  unfold iblk4
  rw [View.read_apply]
  refine congrArg (V c (Pipeline.arrRef spec4 2)) (funext fun a => Fin.ext ?_)
  match a with
  | ⟨0, _⟩ => show win4_2.index t (0 : Fin 2) * 1 + 1 * (y 0).val = (k 0).val; rw [e0, hk0]; omega
  | ⟨1, _⟩ => show win4_2.index t (1 : Fin 2) * 64 + 1 * (y 1).val = (k 1).val; rw [e1, hk1]; omega

end Blocks

/-! ## The output, over the extended reals -/

variable (V : (c : Dev nD) → (b : Ref sig .tc) → Buf (Elt Ideal) ((c : Thread nD τ).loc b))

/-- What point t writes back is rows 1024·t … 1024·t + 1023 of projBias of the three operand arrays: the one store
    covers the output's buffer, its value at (p, q) is the block product plus the bias, and each input block's entry is
    its array's entry at the place the output's row 1024·t + p and column q name. -/
theorem flushed4_eq (c : Dev nD) (t : Fin cfg4.N) :
    (dat4 (F := Ideal) V c).flushed 3 t
      = ((cfg4.win 3).blk t).view.read (Elt Ideal)
          (projBias (n := 8192) (k := 512) (m := 64) (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz4]
  simp only [View.ld_unit_zero (S := S1024x512) hz4, View.ld_unit_zero (S := S512x64) hz4, View.ld_unit_zero (S := S1x64) hz4]
  refine funext fun (j : S1024x64.Idx) => ?_
  obtain ⟨p, q, rfl⟩ : ∃ (p : Fin 1024) (q : Fin 64), j = ix2 p q := ⟨j 0, j 1, eq_ix2 j⟩
  obtain ⟨-, -, -, -, -, -, e0, e1⟩ := idx_facts4 t
  have ht : t.val < 8 := lt_of_lt_of_eq t.isLt N_4
  -- entry (p, q) of the output's block is entry (1024·t + p, q) of the output's array
  have he : ((cfg4.win 3).blk t).view.emb (ix2 p q) = ix2 (⟨1024 * t.val + p.val, by omega⟩ : Fin 8192) q :=
    funext fun a => Fin.ext (by
      match a with
      | ⟨0, _⟩ => show win4_3.index t (0 : Fin 2) * 1024 + 1 * p.val = 1024 * t.val + p.val; rw [e0]; omega
      | ⟨1, _⟩ => show win4_3.index t (1 : Fin 2) * 64 + 1 * q.val = q.val; rw [e1]; omega)
  rw [View.read_apply, he, projBias_ix2]
  show k4_pay1 (F := Ideal) (iblk4 V c 0 t) (iblk4 V c 1 t) (iblk4 V c 2 t) (ix2 p q) = _
  refine (pay4_apply _ _ _ p q).trans ?_
  refine congrArg₂ (· + ·) (Finset.sum_congr rfl fun k _ => congrArg₂ (· * ·) ?_ ?_) ?_
  · exact blk4_0_apply V c t (ix2 p k) _ rfl rfl
  · exact blk4_1_apply V c t (ix2 k q) _ rfl rfl
  · exact blk4_2_apply V c t (ix2 (0 : Fin 1) q) _ rfl rfl

/-- An index of the output array is in point t's block iff each coordinate is in the block's range on its axis. -/
theorem mem_blk4 (t : Fin cfg4.N) (i : S8192x64.Idx) :
    i ∈ ((cfg4.win 3).blk t).view.set ↔ ∀ a : Fin 2, win4_3.index t a * S1024x64.size a ≤ (i a).val
      ∧ (i a).val < win4_3.index t a * S1024x64.size a + S1024x64.size a := by
  show i ∈ ((View.whole main_v27).slice (win4_3.rect t)).set ↔ _
  rw [View.set_slice_whole, Rect.mem_set_unit]
  exact Iff.rfl

/-- Every index of the output array is in the block of the point its row divided by 1024 names. -/
theorem cover4 (i : S8192x64.Idx) :
    ∃ t : Fin cfg4.N, (cfg4.win 3).flush t = true ∧ i ∈ ((cfg4.win 3).blk t).view.set := by
  have hi0 : (i 0).val < 8192 := (i 0).isLt
  have hi1 : (i 1).val < 64 := (i 1).isLt
  obtain ⟨t, ht⟩ : ∃ t : Fin cfg4.N, t.val = (i 0).val / 1024 :=
    ⟨⟨(i 0).val / 1024, lt_of_lt_of_eq (show (i 0).val / 1024 < 8 by omega) N_4.symm⟩, rfl⟩
  obtain ⟨-, -, -, -, -, -, e0, e1⟩ := idx_facts4 t
  refine ⟨t, flush4_3 t, ?_⟩
  rw [mem_blk4]
  intro a
  match a with
  | ⟨0, _⟩ =>
    show win4_3.index t (0 : Fin 2) * 1024 ≤ (i 0).val ∧ (i 0).val < win4_3.index t (0 : Fin 2) * 1024 + 1024
    rw [e0, ht]; omega
  | ⟨1, _⟩ =>
    show win4_3.index t (1 : Fin 2) * 64 ≤ (i 1).val ∧ (i 1).val < win4_3.index t (1 : Fin 2) * 64 + 64
    rw [e1]; omega

/-- The output array after the region: projBias of the three operand arrays as the region finds them. -/
theorem arr4 (c : Dev nD) :
    (dat4 (F := Ideal) V c).arrAt 3 cfg4.N
      = projBias (n := 8192) (k := 512) (m := 64) (V c (Pipeline.arrRef spec4 0)) (V c (Pipeline.arrRef spec4 1)) (V c (Pipeline.arrRef spec4 2)) :=
  (dat4 V c).arrAt_eq_of_cover 3 _ (fun t _ => flushed4_eq V c t) cover4

end Cert.KernelIdeal.Hand

end
-- ==== Proof.Spec.Ref.lean ====
/-
  The decoder block, stage by stage, as pure functions on the extended reals, index by index. No program is named here:
  these are the functions both programs are compared against.

  * mm: a matrix product, (x w)(r, c) = sum over p of x(r, p) * w(p, c).
  * scores: queries against keys, (sum over p of q(r, p) * k(t, p)) / 8 (8 is the square root of the head width 64).
  * attend: the softmax-weighted sum of the values along one row of scores s: with M the maximum of the row (taken from
    -∞), the sum over t of (exp (s t - M) / sum over u of exp (s u - M)) * v(t, c).
  * causalHead: attend over the scores with every key after the query's own position masked to -∞;
    crossHead: attend over all the scores.
  * tileProj: the head of width 64 repeated eight times along the columns, against a matrix with 512 rows: column cc of
    the repeated row is the head's column cc mod 64.
  * layerNorm: over rows of width 512, (x - mean) * rsqrt (variance + a small constant) * g + b, the mean the row sum
    over 512 and the variance the row sum of squared deviations over 512.
  * ffn: the feed-forward layer, (leaky (x w1 + b1)) w2 + b2, where leaky h is h when 0 ≤ h and 0.01 * h otherwise.

  Float constants stay bit patterns read as extended reals; the only ones evaluated are -∞ (the pattern 0xFF800000 is ⊥)
  and 512 (positive), each once, below.
-/
import Idealize.ShloMosaic.PureOps.Ideal.Laws
import Idealize.ShloMosaic.Lib.ValueIdx

noncomputable section

open scoped BigOperators

namespace Cert.Spec

open Idealize.ShloMosaic Idealize.ShloMosaic.ValueIdx

/-! ## Matrix product -/

/-- (x w)(r, c) = sum over p of x(r, p) * w(p, c). -/
def mm {n k m : ℕ} (x : (⟨2, ![n, k]⟩ : Shape).Idx → EReal) (w : (⟨2, ![k, m]⟩ : Shape).Idx → EReal) :
    (⟨2, ![n, m]⟩ : Shape).Idx → EReal :=
  fun i => ∑ p : Fin k, x (ix2 (i 0 : Fin n) p) * w (ix2 p (i 1 : Fin m))

theorem mm_ix2 {n k m : ℕ} (x : (⟨2, ![n, k]⟩ : Shape).Idx → EReal) (w : (⟨2, ![k, m]⟩ : Shape).Idx → EReal)
    (r : Fin n) (c : Fin m) : mm x w (ix2 r c) = ∑ p : Fin k, x (ix2 r p) * w (ix2 p c) := rfl

/-! ## Attention -/

/-- The scaled score of query row r against key row t: (sum over p of q(r, p) * k(t, p)) / 8. -/
def scores {n n' d : ℕ} (q : (⟨2, ![n, d]⟩ : Shape).Idx → EReal) (k : (⟨2, ![n', d]⟩ : Shape).Idx → EReal)
    (r : Fin n) (t : Fin n') : EReal :=
  Ideal.div (∑ p : Fin d, q (ix2 r p) * k (ix2 t p)) (Ideal.ofBits .f32 0x41000000#32)

/-- The maximum of a row, taken from -∞. -/
def rowMax {n : ℕ} (s : Fin n → EReal) : EReal := Finset.univ.fold max ⊥ s

/-- The softmax-weighted sum of column c of the values along a row of scores. -/
def attend {n d : ℕ} (s : Fin n → EReal) (v : (⟨2, ![n, d]⟩ : Shape).Idx → EReal) (c : Fin d) : EReal :=
  ∑ t : Fin n, Ideal.div (Ideal.exp (s t - rowMax s)) (∑ u : Fin n, Ideal.exp (s u - rowMax s)) * v (ix2 t c)

/-- Causal self-attention: query r sees keys t ≤ r, the others are masked to -∞. -/
def causalHead {n d : ℕ} (q k v : (⟨2, ![n, d]⟩ : Shape).Idx → EReal) : (⟨2, ![n, d]⟩ : Shape).Idx → EReal :=
  fun i => attend (fun t : Fin n => if (t : ℕ) ≤ ((i 0 : Fin n) : ℕ) then scores q k (i 0 : Fin n) t else ⊥) v (i 1 : Fin d)

theorem causalHead_ix2 {n d : ℕ} (q k v : (⟨2, ![n, d]⟩ : Shape).Idx → EReal) (r : Fin n) (c : Fin d) :
    causalHead q k v (ix2 r c) = attend (fun t : Fin n => if (t : ℕ) ≤ (r : ℕ) then scores q k r t else ⊥) v c := rfl

/-- Cross-attention: every query sees every key. -/
def crossHead {n n' d : ℕ} (q : (⟨2, ![n, d]⟩ : Shape).Idx → EReal) (k v : (⟨2, ![n', d]⟩ : Shape).Idx → EReal) :
    (⟨2, ![n, d]⟩ : Shape).Idx → EReal :=
  fun i => attend (fun t : Fin n' => scores q k (i 0 : Fin n) t) v (i 1 : Fin d)

theorem crossHead_ix2 {n n' d : ℕ} (q : (⟨2, ![n, d]⟩ : Shape).Idx → EReal) (k v : (⟨2, ![n', d]⟩ : Shape).Idx → EReal)
    (r : Fin n) (c : Fin d) : crossHead q k v (ix2 r c) = attend (fun t : Fin n' => scores q k r t) v c := rfl

/-! ## The shared head against the output matrix -/

/-- The head of width 64 repeated eight times along the columns, times a matrix with 512 rows. -/
def tileProj {n m : ℕ} (h : (⟨2, ![n, 64]⟩ : Shape).Idx → EReal) (wo : (⟨2, ![512, m]⟩ : Shape).Idx → EReal) :
    (⟨2, ![n, m]⟩ : Shape).Idx → EReal :=
  fun i => ∑ cc : Fin 512, h (ix2 (i 0 : Fin n) (⟨cc.val % 64, Nat.mod_lt _ (by norm_num)⟩ : Fin 64)) * wo (ix2 cc (i 1 : Fin m))

theorem tileProj_ix2 {n m : ℕ} (h : (⟨2, ![n, 64]⟩ : Shape).Idx → EReal) (wo : (⟨2, ![512, m]⟩ : Shape).Idx → EReal)
    (r : Fin n) (c : Fin m) :
    tileProj h wo (ix2 r c)
      = ∑ cc : Fin 512, h (ix2 r (⟨cc.val % 64, Nat.mod_lt _ (by norm_num)⟩ : Fin 64)) * wo (ix2 cc c) := rfl

/-! ## Layer norm over rows of width 512 -/

/-- The row mean: the row sum over 512. -/
def mean512 {n : ℕ} (x : (⟨2, ![n, 512]⟩ : Shape).Idx → EReal) (r : Fin n) : EReal :=
  Ideal.div (∑ c : Fin 512, x (ix2 r c)) (Ideal.ofBits .f32 0x44000000#32)

/-- The row variance: the row sum of squared deviations from the mean, over 512. -/
def var512 {n : ℕ} (x : (⟨2, ![n, 512]⟩ : Shape).Idx → EReal) (r : Fin n) : EReal :=
  Ideal.div (∑ c : Fin 512, (x (ix2 r c) - mean512 x r) * (x (ix2 r c) - mean512 x r)) (Ideal.ofBits .f32 0x44000000#32)

/-- (x - mean) * rsqrt (variance + a small constant) * g + b. -/
def layerNorm {n : ℕ} (x : (⟨2, ![n, 512]⟩ : Shape).Idx → EReal) (g b : (⟨1, ![512]⟩ : Shape).Idx → EReal) :
    (⟨2, ![n, 512]⟩ : Shape).Idx → EReal :=
  fun i => (x (ix2 (i 0 : Fin n) (i 1 : Fin 512)) - mean512 x (i 0 : Fin n))
      * Ideal.rsqrt (var512 x (i 0 : Fin n) + Ideal.ofBits .f32 0x3727C5AC#32) * g (ix1 (i 1 : Fin 512))
    + b (ix1 (i 1 : Fin 512))

theorem layerNorm_ix2 {n : ℕ} (x : (⟨2, ![n, 512]⟩ : Shape).Idx → EReal) (g b : (⟨1, ![512]⟩ : Shape).Idx → EReal)
    (r : Fin n) (c : Fin 512) :
    layerNorm x g b (ix2 r c)
      = (x (ix2 r c) - mean512 x r) * Ideal.rsqrt (var512 x r + Ideal.ofBits .f32 0x3727C5AC#32) * g (ix1 c) + b (ix1 c) := rfl

/-! ## The feed-forward layer -/

/-- The leaky rectifier: h where 0 ≤ h, 0.01 * h elsewhere. -/
def leaky (h : EReal) : EReal := if 0 ≤ h then h else Ideal.ofBits .f32 0x3C23D70A#32 * h

/-- The hidden layer: leaky (x w1 + b1), width 2048. -/
def hidden {n : ℕ} (x : (⟨2, ![n, 512]⟩ : Shape).Idx → EReal) (w1 : (⟨2, ![512, 2048]⟩ : Shape).Idx → EReal)
    (b1 : (⟨1, ![2048]⟩ : Shape).Idx → EReal) : (⟨2, ![n, 2048]⟩ : Shape).Idx → EReal :=
  fun j => leaky (mm x w1 j + b1 (ix1 (j 1 : Fin 2048)))

theorem hidden_ix2 {n : ℕ} (x : (⟨2, ![n, 512]⟩ : Shape).Idx → EReal) (w1 : (⟨2, ![512, 2048]⟩ : Shape).Idx → EReal)
    (b1 : (⟨1, ![2048]⟩ : Shape).Idx → EReal) (r : Fin n) (p : Fin 2048) :
    hidden x w1 b1 (ix2 r p) = leaky ((∑ u : Fin 512, x (ix2 r u) * w1 (ix2 u p)) + b1 (ix1 p)) := rfl

/-- (leaky (x w1 + b1)) w2 + b2. -/
def ffn {n : ℕ} (x : (⟨2, ![n, 512]⟩ : Shape).Idx → EReal) (w1 : (⟨2, ![512, 2048]⟩ : Shape).Idx → EReal)
    (b1 : (⟨1, ![2048]⟩ : Shape).Idx → EReal) (w2 : (⟨2, ![2048, 512]⟩ : Shape).Idx → EReal)
    (b2 : (⟨1, ![512]⟩ : Shape).Idx → EReal) : (⟨2, ![n, 512]⟩ : Shape).Idx → EReal :=
  fun i => mm (hidden x w1 b1) w2 i + b2 (ix1 (i 1 : Fin 512))

theorem ffn_ix2 {n : ℕ} (x : (⟨2, ![n, 512]⟩ : Shape).Idx → EReal) (w1 : (⟨2, ![512, 2048]⟩ : Shape).Idx → EReal)
    (b1 : (⟨1, ![2048]⟩ : Shape).Idx → EReal) (w2 : (⟨2, ![2048, 512]⟩ : Shape).Idx → EReal)
    (b2 : (⟨1, ![512]⟩ : Shape).Idx → EReal) (r : Fin n) (c : Fin 512) :
    ffn x w1 b1 w2 b2 (ix2 r c) = (∑ p : Fin 2048, hidden x w1 b1 (ix2 r p) * w2 (ix2 p c)) + b2 (ix1 c) := rfl

/-! ## The constants that are evaluated, and comparisons as conditions -/

/-- The pattern 0xFF800000 is -∞. -/
theorem ofBits_neg_inf : Ideal.ofBits .f32 0xFF800000#32 = ⊥ := by
  simp [Ideal.ofBits, Ideal.ieee]

/-- The pattern 0x44000000 is 512. -/
theorem ofBits_512 : Ideal.ofBits .f32 0x44000000#32 = ((512 : ℝ) : EReal) := by
  simp [Ideal.ofBits, Ideal.ieee]
  norm_num
  rw [← EReal.coe_mul]
  exact congrArg _ (by norm_num)

/-- 512 is positive. -/
theorem ofBits_512_pos : (0 : EReal) < Ideal.ofBits .f32 0x44000000#32 := by
  rw [ofBits_512]; exact_mod_cast (by norm_num : (0 : ℝ) < 512)

/-- A select on "a ≥ b" is the condition b ≤ a. -/
theorem select_cmp_oge {α : Type} (a b : EReal) (u v : α) :
    Scalar.select (Ideal.cmp .oge a b) u v = if b ≤ a then u else v := by
  unfold Scalar.select Ideal.cmp
  by_cases h : b ≤ a <;> simp [h]

/-- A select on "a > b" is the condition b < a. -/
theorem select_cmp_ogt {α : Type} (a b : EReal) (u v : α) :
    Scalar.select (Ideal.cmp .ogt a b) u v = if b < a then u else v := by
  unfold Scalar.select Ideal.cmp
  by_cases h : b < a <;> simp [h]

end Cert.Spec

end
-- ==== Proof.Spec.BridgeProj.lean ====
/-
  A matrix product plus a bias row against the plain matrix product.

  With the bias row zero the two are one function. When the matrix is a side-by-side join of narrower matrices, a column
  of the product against the join is the corresponding column of the product against the piece the column falls in:
  column c' of the join and column c of the piece need only agree down the rows.
-/
import proofs.«172065_j32710470926956_2_alg».proof.Proof.Spec.Ref
import proofs.«172065_j32710470926956_2_alg».proof.Proof.Spec.Proj

noncomputable section

open scoped BigOperators

namespace Cert.Spec

open Idealize.ShloMosaic Idealize.ShloMosaic.ValueIdx

/-- With no bias the product plus bias is the product. -/
theorem projBias_zero {n k m : ℕ} (x : (⟨2, ![n, k]⟩ : Shape).Idx → EReal) (w : (⟨2, ![k, m]⟩ : Shape).Idx → EReal) :
    projBias x w (fun _ => 0) = mm x w := by
  funext i
  show (∑ j : Fin k, x (ix2 (i 0 : Fin n) j) * w (ix2 j (i 1 : Fin m))) + 0 = _
  rw [add_zero]
  rfl

/-- The same for any bias row that is zero everywhere. -/
theorem projBias_of_bias_zero {n k m : ℕ} (x : (⟨2, ![n, k]⟩ : Shape).Idx → EReal)
    (w : (⟨2, ![k, m]⟩ : Shape).Idx → EReal) (b : (⟨2, ![1, m]⟩ : Shape).Idx → EReal) (hb : ∀ i, b i = 0) :
    projBias x w b = mm x w := by
  have : b = fun _ => 0 := funext hb
  rw [this, projBias_zero]

/-- A column of the product against a wide matrix, when that column of the wide matrix is a column of a narrower one. -/
theorem projBias_zero_col {n k m m' : ℕ} (x : (⟨2, ![n, k]⟩ : Shape).Idx → EReal)
    (wcat : (⟨2, ![k, m]⟩ : Shape).Idx → EReal) (wj : (⟨2, ![k, m']⟩ : Shape).Idx → EReal) (c' : Fin m) (c : Fin m')
    (h : ∀ p : Fin k, wcat (ix2 p c') = wj (ix2 p c)) (r : Fin n) :
    projBias x wcat (fun _ => 0) (ix2 r c') = mm x wj (ix2 r c) := by
  rw [projBias_ix2, mm_ix2, add_zero]
  exact Finset.sum_congr rfl fun p _ => by rw [h p]

/-- The matrix a side-by-side join of pieces 64 columns wide: column 64·j + c of the product against the join is
    column c of the product against piece j. -/
theorem projBias_zero_join {n k m : ℕ} (x : (⟨2, ![n, k]⟩ : Shape).Idx → EReal)
    (wcat : (⟨2, ![k, m]⟩ : Shape).Idx → EReal) (wj : (⟨2, ![k, 64]⟩ : Shape).Idx → EReal) (j : ℕ) (hj : 64 * j + 64 ≤ m)
    (h : ∀ (p : Fin k) (c : Fin 64), wcat (ix2 p (⟨64 * j + c.val, by have := c.isLt; omega⟩ : Fin m)) = wj (ix2 p c))
    (r : Fin n) (c : Fin 64) :
    projBias x wcat (fun _ => 0) (ix2 r (⟨64 * j + c.val, by have := c.isLt; omega⟩ : Fin m)) = mm x wj (ix2 r c) :=
  projBias_zero_col x wcat wj _ c (fun p => h p c) r

end Cert.Spec

end
-- ==== Proof.LibHeadTile.lean ====
/-
  Shared heads. When every head of a multi-head attention uses the same projected queries, keys and values, the
  concatenation of the heads is a tiling of one head, and the output projection of the tiled row collapses to a
  projection of the one head against the sum of the projection matrix's row blocks:

    sum over c of tile(h)(c) * w(c)  =  sum over p of h(p) * (sum over j of w(j, p)),

  where the contracted index c runs over pairs (head j, position p) and tile(h)(j, p) = h(p). It is distributivity
  and a change of the order of summation, so it needs the entries to be real numbers (on the extended reals a product
  does not distribute over a sum at the infinities).
-/
import Idealize.ShloMosaic.PureOps.Ideal

noncomputable section

namespace Cert.Lib.HeadTile

/-- The coercion of the reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The collapse over any pairing e of (head, position) with the contracted index: a is the tiled row (it reads the
    one head h at the position), w a column of the projection matrix. -/
theorem sum_tile_mul {ι α β : Type*} [Fintype ι] [Fintype α] [Fintype β] (e : α × β ≃ ι)
    (a w : ι → EReal) (h : β → EReal) (hr : β → ℝ) (wr : ι → ℝ)
    (ha : ∀ j p, a (e (j, p)) = h p) (hh : ∀ p, h p = (hr p : EReal)) (hw : ∀ c, w c = (wr c : EReal)) :
    ∑ c, a c * w c = ∑ p, h p * ∑ j, w (e (j, p)) := by
  rw [← Equiv.sum_comp e (fun c => a c * w c), Fintype.sum_prod_type, Finset.sum_comm]
  refine Finset.sum_congr rfl fun p _ => ?_
  have hsum : (∑ j, w (e (j, p))) = ((∑ j, wr (e (j, p)) : ℝ) : EReal) := by
    rw [coe_sum]; exact Finset.sum_congr rfl fun j _ => hw _
  rw [hsum, hh, ← EReal.coe_mul, Finset.mul_sum, coe_sum]
  exact Finset.sum_congr rfl fun j _ => by rw [ha, hh, hw, EReal.coe_mul]

/-- The same with the contracted index a number below H * P: position p of head j sits at p + P * j (the row-major
    flattening of [H, P]), so the tiled row reads the head at c mod P and block j of the matrix is its rows
    P * j, …, P * j + P - 1. -/
theorem sum_tile_mul_fin (H P : ℕ) (a w : Fin (H * P) → EReal) (h : Fin P → EReal) (hr : Fin P → ℝ)
    (wr : Fin (H * P) → ℝ) (ha : ∀ (j : Fin H) (p : Fin P), a (finProdFinEquiv (j, p)) = h p)
    (hh : ∀ p, h p = (hr p : EReal)) (hw : ∀ c, w c = (wr c : EReal)) :
    ∑ c, a c * w c = ∑ p, h p * ∑ j : Fin H, w (finProdFinEquiv (j, p)) :=
  sum_tile_mul finProdFinEquiv a w h hr wr ha hh hw

/-- Where the pairing puts (j, p): at p + P * j. -/
theorem pair_val (H P : ℕ) (j : Fin H) (p : Fin P) :
    (finProdFinEquiv (j, p) : Fin (H * P)).val = p.val + P * j.val := rfl

end Cert.Lib.HeadTile

end
-- ==== Proof.LibReal.lean ====
/-
  Real entries stay real.

  An extended real is REAL when it is the coercion of a real number (neither infinity). The exact operations on the
  extended reals keep real operands real: sums, differences, products, maxima, finite sums; the quotient by a nonzero real;
  the exponential and the logistic function (whose value lies strictly between 0 and 1); the reciprocal square root of a
  positive real. With these, finiteness of a program's inputs is carried through its stages.
-/
import Idealize.ShloMosaic.PureOps.Ideal

noncomputable section

namespace Cert.Lib.Real

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩
    induction x using EReal.rec with
    | bot => exact absurd rfl hb
    | coe r => exact ⟨r, rfl⟩
    | top => exact absurd rfl ht

variable {x y : EReal}

theorem IsReal.add (hx : IsReal x) (hy : IsReal y) : IsReal (x + y) := by
  obtain ⟨r, rfl⟩ := hx; obtain ⟨s, rfl⟩ := hy; exact ⟨r + s, (EReal.coe_add r s).symm⟩

theorem IsReal.sub (hx : IsReal x) (hy : IsReal y) : IsReal (x - y) := by
  obtain ⟨r, rfl⟩ := hx; obtain ⟨s, rfl⟩ := hy; exact ⟨r - s, (EReal.coe_sub r s).symm⟩

theorem IsReal.mul (hx : IsReal x) (hy : IsReal y) : IsReal (x * y) := by
  obtain ⟨r, rfl⟩ := hx; obtain ⟨s, rfl⟩ := hy; exact ⟨r * s, (EReal.coe_mul r s).symm⟩

theorem IsReal.neg (hx : IsReal x) : IsReal (-x) := by
  obtain ⟨r, rfl⟩ := hx; exact ⟨-r, (EReal.coe_neg r).symm⟩

theorem IsReal.max (hx : IsReal x) (hy : IsReal y) : IsReal (max x y) := by
  rcases max_choice x y with h | h <;> rw [h] <;> assumption

/-- The quotient of a real by a nonzero real is real. -/
theorem IsReal.div (hx : IsReal x) (hy : IsReal y) (h0 : y ≠ 0) : IsReal (Ideal.div x y) := by
  obtain ⟨r, rfl⟩ := hx; obtain ⟨s, rfl⟩ := hy
  have hs : s ≠ 0 := fun e => h0 (by rw [e]; rfl)
  rw [Ideal.div_coe hs]
  exact ⟨r * (1 / s), (EReal.coe_mul r (1 / s)).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsReal.exp (hx : IsReal x) : IsReal (Ideal.exp x) := by
  obtain ⟨r, rfl⟩ := hx; exact ⟨Real.exp r, Ideal.exp_coe r⟩

/-- The logistic function of a real is a real strictly between 0 and 1. -/
theorem IsReal.logistic (hx : IsReal x) : IsReal (Ideal.logistic x) := by
  obtain ⟨r, rfl⟩ := hx; exact ⟨_, Ideal.logistic_coe r⟩

theorem logistic_pos (hx : IsReal x) : 0 < Ideal.logistic x := by
  obtain ⟨r, rfl⟩ := hx
  rw [Ideal.logistic_coe]
  exact EReal.coe_pos.mpr (inv_pos.mpr (by positivity))

/-- The reciprocal square root of a positive real is a real. -/
theorem IsReal.rsqrt (hx : IsReal x) (hpos : 0 < x) : IsReal (Ideal.rsqrt x) := by
  obtain ⟨r, rfl⟩ := hx
  have hr : 0 < r := EReal.coe_pos.mp hpos
  rw [Ideal.rsqrt_coe, if_neg (not_lt.mpr hr.le), if_neg hr.ne']
  exact ⟨_, rfl⟩

/-- A sum of nonnegative terms is nonnegative. -/
theorem sum_nonneg {ι : Type} (s : Finset ι) (f : ι → EReal) (h : ∀ i ∈ s, 0 ≤ f i) : 0 ≤ ∑ i ∈ s, f i :=
  Finset.sum_nonneg h

/-- A nonnegative quantity plus a positive real is positive, hence nonzero. -/
theorem add_pos_ne_zero (hx : 0 ≤ x) (hy : 0 < y) : x + y ≠ 0 :=
  (lt_of_lt_of_le hy (le_add_of_nonneg_left hx)).ne'

end Cert.Lib.Real

end
-- ==== Proof.Spec.BridgeTile.lean ====
/-
  The shared head against the output matrix: one head of width 64, repeated eight times along the columns and multiplied
  by a matrix with 512 rows, is the head multiplied by the sum of the matrix's eight blocks of 64 rows:

      sum over p < 64 of h(r, p) * (sum over j < 8 of wo(64·j + p, c))  =  sum over cc < 512 of h(r, cc mod 64) * wo(cc, c).

  The contracted index cc is the pair (j, p) at cc = p + 64·j. It is distributivity and an exchange of two finite sums,
  so the entries are taken to be real numbers.
-/
import proofs.«172065_j32710470926956_2_alg».proof.Proof.Spec.Ref
import proofs.«172065_j32710470926956_2_alg».proof.Proof.LibHeadTile
import proofs.«172065_j32710470926956_2_alg».proof.Proof.LibReal

noncomputable section

open scoped BigOperators

namespace Cert.Spec

open Idealize.ShloMosaic Idealize.ShloMosaic.ValueIdx Cert.Lib Cert.Lib.Real

theorem tile_row_lt (j : Fin 8) (p : Fin 64) : 64 * j.val + p.val < 512 := by
  have := j.isLt; have := p.isLt; omega

/-- The head against the sum of the eight row blocks of the output matrix is the tiled head against the matrix. -/
theorem sum_blocks_eq_tileProj {n m : ℕ} (h : (⟨2, ![n, 64]⟩ : Shape).Idx → EReal)
    (wo : (⟨2, ![512, m]⟩ : Shape).Idx → EReal) (hh : ∀ i, IsReal (h i)) (hw : ∀ i, IsReal (wo i)) :
    (fun i : (⟨2, ![n, m]⟩ : Shape).Idx =>
        ∑ p : Fin 64, h (ix2 (i 0 : Fin n) p)
          * ∑ j : Fin 8, wo (ix2 (⟨64 * j.val + p.val, tile_row_lt j p⟩ : Fin 512) (i 1 : Fin m)))
      = tileProj h wo := by
  funext i
  choose hr hhr using hh
  choose wr hwr using hw
  have key := HeadTile.sum_tile_mul_fin 8 64
    (fun cc : Fin (8 * 64) => h (ix2 (i 0 : Fin n) (⟨cc.val % 64, Nat.mod_lt _ (by norm_num)⟩ : Fin 64)))
    (fun cc : Fin (8 * 64) => wo (ix2 (cc : Fin 512) (i 1 : Fin m)))
    (fun p : Fin 64 => h (ix2 (i 0 : Fin n) p))
    (fun p : Fin 64 => hr (ix2 (i 0 : Fin n) p))
    (fun cc : Fin (8 * 64) => wr (ix2 (cc : Fin 512) (i 1 : Fin m)))
    (fun j p => by
      show h (ix2 (i 0 : Fin n) (⟨(finProdFinEquiv (j, p) : Fin (8 * 64)).val % 64, _⟩ : Fin 64)) = h (ix2 (i 0 : Fin n) p)
      refine congrArg (fun q : Fin 64 => h (ix2 (i 0 : Fin n) q)) (Fin.ext ?_)
      show (finProdFinEquiv (j, p) : Fin (8 * 64)).val % 64 = p.val
      rw [HeadTile.pair_val, Nat.add_mul_mod_self_left, Nat.mod_eq_of_lt p.isLt])
    (fun p => hhr _) (fun cc => hwr _)
  show _ = ∑ cc : Fin 512, h (ix2 (i 0 : Fin n) (⟨cc.val % 64, Nat.mod_lt _ (by norm_num)⟩ : Fin 64)) * wo (ix2 cc (i 1 : Fin m))
  refine Eq.trans ?_ key.symm
  refine Finset.sum_congr rfl fun p _ => congrArg _ (Finset.sum_congr rfl fun j _ => ?_)
  refine congrArg (fun q : Fin 512 => wo (ix2 q (i 1 : Fin m))) (Fin.ext ?_)
  show 64 * j.val + p.val = (finProdFinEquiv (j, p) : Fin (8 * 64)).val
  rw [HeadTile.pair_val, Nat.add_comm]

end Cert.Spec

end
-- ==== Proof.Spec.BridgeLit.lean ====
/-
  The float constants of the decoder block that the comparison of the two spellings evaluates.

  * 0x41000000 is 8 and 0x3E000000 is 1/8: one spelling divides the query-key products by 8, the other multiplies them
    by 1/8. Over the extended reals these agree for every operand, the infinities included.
  * 0x3727C5AC, the constant added to the variance before the reciprocal square root, is a positive real number.
  * 0x3C23D70A, the slope of the leaky rectifier below zero, is a real number.
-/
import proofs.«172065_j32710470926956_2_alg».proof.Proof.Spec.Ref
import proofs.«172065_j32710470926956_2_alg».proof.Proof.LibReal

noncomputable section

namespace Cert.Spec

open Idealize.ShloMosaic Cert.Lib.Real

/-- The pattern 0x41000000 is 8. -/
theorem ofBits_8 : Ideal.ofBits .f32 0x41000000#32 = ((8 : ℝ) : EReal) := by
  simp [Ideal.ofBits, Ideal.ieee]
  norm_num
  rw [← EReal.coe_mul]
  exact congrArg _ (by norm_num)

/-- The pattern 0x3E000000 is 1/8. -/
theorem ofBits_eighth : Ideal.ofBits .f32 0x3E000000#32 = ((1 / 8 : ℝ) : EReal) := by
  simp [Ideal.ofBits, Ideal.ieee]
  norm_num
  rw [← EReal.coe_mul]
  exact congrArg _ (by norm_num)

/-- 8 is not zero. -/
theorem ofBits_8_ne_zero : Ideal.ofBits .f32 0x41000000#32 ≠ 0 := by
  rw [ofBits_8]; exact_mod_cast (by norm_num : (8 : ℝ) ≠ 0)

/-- Multiplying by 1/8 is dividing by 8, for every extended real. -/
theorem mul_eighth_eq_div_8 (x : EReal) :
    x * Ideal.ofBits .f32 0x3E000000#32 = Ideal.div x (Ideal.ofBits .f32 0x41000000#32) := by
  rw [ofBits_8, ofBits_eighth, Ideal.div_coe (by norm_num : (8 : ℝ) ≠ 0)]

/-- The pattern 0x3727C5AC is the real number 10995116 / 2 ^ 40 (about 0.00001). -/
theorem ofBits_eps : Ideal.ofBits .f32 0x3727C5AC#32 = ((10995116 / 1099511627776 : ℝ) : EReal) := by
  simp [Ideal.ofBits, Ideal.ieee]
  norm_num
  rw [← EReal.coe_mul]
  exact congrArg _ (by norm_num)

theorem ofBits_eps_isReal : IsReal (Ideal.ofBits .f32 0x3727C5AC#32) := ⟨_, ofBits_eps⟩

/-- The constant added to the variance is positive. -/
theorem ofBits_eps_pos : (0 : EReal) < Ideal.ofBits .f32 0x3727C5AC#32 := by
  rw [ofBits_eps]; exact_mod_cast (by norm_num : (0 : ℝ) < 10995116 / 1099511627776)

/-- The pattern 0x3C23D70A is the real number 10737418 / 2 ^ 30 (about 0.01). -/
theorem ofBits_slope : Ideal.ofBits .f32 0x3C23D70A#32 = ((10737418 / 1073741824 : ℝ) : EReal) := by
  simp [Ideal.ofBits, Ideal.ieee]
  norm_num
  rw [← EReal.coe_mul]
  exact congrArg _ (by norm_num)

theorem ofBits_slope_isReal : IsReal (Ideal.ofBits .f32 0x3C23D70A#32) := ⟨_, ofBits_slope⟩

/-- 8, 1/8 and 512 are real numbers. -/
theorem ofBits_8_isReal : IsReal (Ideal.ofBits .f32 0x41000000#32) := ⟨_, ofBits_8⟩

theorem ofBits_eighth_isReal : IsReal (Ideal.ofBits .f32 0x3E000000#32) := ⟨_, ofBits_eighth⟩

theorem ofBits_512_isReal : IsReal (Ideal.ofBits .f32 0x44000000#32) := ⟨_, ofBits_512⟩

theorem ofBits_512_ne_zero : Ideal.ofBits .f32 0x44000000#32 ≠ 0 := ofBits_512_pos.ne'

end Cert.Spec

end
-- ==== Proof.Spec.BridgeRow.lean ====
/-
  Rows of attention scores: what the softmax of a row needs in order to be a quotient of real numbers.

  A scaled score of real queries against real keys is a real number. A masked row (the causal one: the keys after the
  query's own position replaced by -∞) therefore has every entry a real number or -∞, never +∞, and the entry at the
  query's own position is a real number. For such a row the maximum taken from -∞ is a real number, and the sum of the
  exponentials of the row shifted by any real number is a positive real number: the softmax denominator is never zero.
-/
import proofs.«172065_j32710470926956_2_alg».proof.Proof.Spec.Ref
import proofs.«172065_j32710470926956_2_alg».proof.Proof.Spec.BridgeLit
import proofs.«172065_j32710470926956_2_alg».proof.Proof.LibReal
import proofs.«172065_j32710470926956_2_alg».proof.Proof.LibOnlineSoftmax

noncomputable section

open scoped BigOperators

namespace Cert.Spec

open Idealize.ShloMosaic Idealize.ShloMosaic.ValueIdx Cert.Lib Cert.Lib.Real

/-- A real number is not +∞. -/
theorem isReal_ne_top {x : EReal} (h : IsReal x) : x ≠ ⊤ := ((isReal_iff x).mp h).2

/-- A real number is not -∞. -/
theorem isReal_ne_bot {x : EReal} (h : IsReal x) : x ≠ ⊥ := ((isReal_iff x).mp h).1

/-- The scaled score of a real query row against a real key row is a real number. -/
theorem scores_isReal {n n' d : ℕ} (q : (⟨2, ![n, d]⟩ : Shape).Idx → EReal) (k : (⟨2, ![n', d]⟩ : Shape).Idx → EReal)
    (hq : ∀ i, IsReal (q i)) (hk : ∀ i, IsReal (k i)) (r : Fin n) (t : Fin n') : IsReal (scores q k r t) :=
  IsReal.div (IsReal.sum _ _ fun p _ => (hq (ix2 r p)).mul (hk (ix2 t p))) ofBits_8_isReal ofBits_8_ne_zero

/-! ## The causal row -/

/-- The row of scores of query r with every key after position r masked to -∞. -/
def causalRow {n d : ℕ} (q k : (⟨2, ![n, d]⟩ : Shape).Idx → EReal) (r : Fin n) : Fin n → EReal :=
  fun t => if (t : ℕ) ≤ (r : ℕ) then scores q k r t else ⊥

/-- The causal head is the softmax-weighted sum along the causal row. -/
theorem causalHead_eq_attend_causalRow {n d : ℕ} (q k v : (⟨2, ![n, d]⟩ : Shape).Idx → EReal) (r : Fin n) (c : Fin d) :
    causalHead q k v (ix2 r c) = attend (causalRow q k r) v c := rfl

theorem causalRow_of_le {n d : ℕ} (q k : (⟨2, ![n, d]⟩ : Shape).Idx → EReal) (r t : Fin n) (h : (t : ℕ) ≤ (r : ℕ)) :
    causalRow q k r t = scores q k r t := if_pos h

theorem causalRow_of_not_le {n d : ℕ} (q k : (⟨2, ![n, d]⟩ : Shape).Idx → EReal) (r t : Fin n) (h : ¬ (t : ℕ) ≤ (r : ℕ)) :
    causalRow q k r t = ⊥ := if_neg h

/-- No entry of the causal row is +∞. -/
theorem causalRow_ne_top {n d : ℕ} (q k : (⟨2, ![n, d]⟩ : Shape).Idx → EReal)
    (hq : ∀ i, IsReal (q i)) (hk : ∀ i, IsReal (k i)) (r t : Fin n) : causalRow q k r t ≠ ⊤ := by
  by_cases h : (t : ℕ) ≤ (r : ℕ)
  · rw [causalRow_of_le q k r t h]; exact isReal_ne_top (scores_isReal q k hq hk r t)
  · rw [causalRow_of_not_le q k r t h]; exact bot_ne_top

/-- An unmasked entry of the causal row is not -∞. -/
theorem causalRow_ne_bot {n d : ℕ} (q k : (⟨2, ![n, d]⟩ : Shape).Idx → EReal)
    (hq : ∀ i, IsReal (q i)) (hk : ∀ i, IsReal (k i)) (r t : Fin n) (h : (t : ℕ) ≤ (r : ℕ)) :
    causalRow q k r t ≠ ⊥ := by
  rw [causalRow_of_le q k r t h]; exact isReal_ne_bot (scores_isReal q k hq hk r t)

/-! ## The maximum and the denominator of a row -/

/-- The maximum of a row with no +∞ and one entry that is not -∞ is a real number. -/
theorem rowMax_isReal {n : ℕ} (s : Fin n → EReal) (hs : ∀ t, s t ≠ ⊤) (t₀ : Fin n) (h0 : s t₀ ≠ ⊥) :
    IsReal (rowMax s) :=
  (isReal_iff _).mpr ⟨OnlineSoftmax.fold_max_ne_bot _ s (Finset.mem_univ t₀) h0,
    OnlineSoftmax.fold_max_ne_top _ s fun i _ => hs i⟩

/-- The sum of the exponentials of such a row, shifted by a real number, is a real number. -/
theorem sum_exp_sub_eq_coe {n : ℕ} (s : Fin n → EReal) (hs : ∀ t, s t ≠ ⊤) (M : ℝ) :
    (∑ u, Ideal.exp (s u - (M : EReal))) = ((∑ u, OnlineSoftmax.wt (s u) M : ℝ) : EReal) := by
  rw [OnlineSoftmax.coe_sum]
  exact Finset.sum_congr rfl fun u _ => OnlineSoftmax.exp_sub_coe (hs u) M

/-- … and it is positive. -/
theorem sum_exp_sub_pos {n : ℕ} (s : Fin n → EReal) (hs : ∀ t, s t ≠ ⊤) (t₀ : Fin n) (h0 : s t₀ ≠ ⊥) (M : ℝ) :
    (0 : EReal) < ∑ u, Ideal.exp (s u - (M : EReal)) := by
  have hpos : 0 < ∑ u, OnlineSoftmax.wt (s u) M :=
    Finset.sum_pos' (fun u _ => OnlineSoftmax.wt_nonneg (hs u) M)
      ⟨t₀, Finset.mem_univ _, OnlineSoftmax.wt_pos (hs t₀) h0 M⟩
  rw [sum_exp_sub_eq_coe s hs M]
  exact EReal.coe_pos.mpr hpos

theorem sum_exp_sub_ne_zero {n : ℕ} (s : Fin n → EReal) (hs : ∀ t, s t ≠ ⊤) (t₀ : Fin n) (h0 : s t₀ ≠ ⊥) (M : ℝ) :
    (∑ u, Ideal.exp (s u - (M : EReal))) ≠ 0 := (sum_exp_sub_pos s hs t₀ h0 M).ne'

end Cert.Spec

end
-- ==== Proof.LibTileSum.lean ====
/-
  A sum over the rows of an array, taken tile by tile.

  The rows 0 … a·b − 1 split into `a` consecutive tiles of `b` rows; a sum over all rows (in any commutative monoid — the
  extended reals included, where no finiteness is needed) is the sum over the tiles of the sums within each tile. This is
  what a grid that accumulates a column statistic tile after tile computes, against one whole-array reduction.
-/
import Mathlib.Algebra.BigOperators.Fin
import Mathlib.Logic.Equiv.Fin.Basic
import Mathlib.Tactic.Ring

namespace Cert.Lib.TileSum

theorem tile_lt {a b : ℕ} (t : Fin a) (p : Fin b) : t.val * b + p.val < a * b := by
  have ht := t.isLt
  have hp := p.isLt
  calc t.val * b + p.val < t.val * b + b := by omega
    _ = (t.val + 1) * b := by ring
    _ ≤ a * b := Nat.mul_le_mul_right b ht

/-- The sum over all `a * b` rows is the sum over the `a` tiles of the sums over each tile's `b` rows. -/
theorem sum_tiles {M : Type*} [AddCommMonoid M] (a b : ℕ) (f : Fin (a * b) → M) :
    ∑ r, f r = ∑ t : Fin a, ∑ p : Fin b, f ⟨t.val * b + p.val, tile_lt t p⟩ := by
  rw [← Equiv.sum_comp finProdFinEquiv f, Fintype.sum_prod_type]
  refine Finset.sum_congr rfl fun t _ => Finset.sum_congr rfl fun p _ => congrArg f (Fin.ext ?_)
  simp only [finProdFinEquiv_apply_val]
  ring

/-- The same for a row count given as a literal `N = a * b`. -/
theorem sum_tiles' {M : Type*} [AddCommMonoid M] (a b N : ℕ) (hN : a * b = N) (f : Fin N → M) :
    ∑ r, f r = ∑ t : Fin a, ∑ p : Fin b, f ⟨t.val * b + p.val, hN ▸ tile_lt t p⟩ := by
  subst hN
  exact sum_tiles a b f

end Cert.Lib.TileSum
-- ==== Proof.Spec.BridgeFlash.lean ====
/-
  The blockwise causal attention is the reference's causal attention.

  Query row R meets its keys in blocks of 1024, blocks 0 … R / 1024, through the online-softmax recurrence. The
  recurrence's final quotient is the softmax-weighted sum of the values over the keys of those blocks, the softmax
  written against any real shift; we take the shift to be the maximum of the reference's masked row, which is a real
  number because the key at position 0 is never masked. Three things then identify the two sides:

  * a block's score of key 1024·j + k is the reference's masked score of that key: the products times 1/8 against
    the products divided by 8, and the same mask;
  * the blocks after R / 1024 hold masked keys only, which add exp (-∞ - M) = 0 to the denominator and a vanishing
    term to the numerator, so the sums over the first R / 1024 + 1 blocks are the sums over all eight;
  * a sum over eight blocks of 1024 keys is a sum over the 8192 keys.
-/
import proofs.«172065_j32710470926956_2_alg».proof.Proof.Spec.Flash
import proofs.«172065_j32710470926956_2_alg».proof.Proof.Spec.Ref
import proofs.«172065_j32710470926956_2_alg».proof.Proof.Spec.BridgeLit
import proofs.«172065_j32710470926956_2_alg».proof.Proof.Spec.BridgeRow
import proofs.«172065_j32710470926956_2_alg».proof.Proof.LibOnlineSoftmax
import proofs.«172065_j32710470926956_2_alg».proof.Proof.LibReal
import proofs.«172065_j32710470926956_2_alg».proof.Proof.LibTileSum

noncomputable section

open scoped BigOperators

namespace Cert.Spec

open Idealize.ShloMosaic Idealize.ShloMosaic.ValueIdx Cert.Lib Cert.Lib.Real

/-! ## Sums over blocks and sums over the row -/

/-- A sum over the first n + 1 of eight blocks of 1024 terms, the later blocks vanishing, is the sum over the 8192
    terms of the row, when term k of block j is the row's term 1024·j + k. -/
theorem sum_blocks_eq_sum_row (f : Fin 8192 → EReal) (F : ℕ → Fin 1024 → EReal) (n : ℕ) (hn : n + 1 ≤ 8)
    (h1 : ∀ (j : ℕ) (k : Fin 1024) (h : 1024 * j + k.val < 8192), F j k = f ⟨1024 * j + k.val, h⟩)
    (h0 : ∀ (j : ℕ) (k : Fin 1024), n + 1 ≤ j → F j k = 0) :
    ∑ j ∈ Finset.range (n + 1), ∑ k, F j k = ∑ t, f t := by
  calc ∑ j ∈ Finset.range (n + 1), ∑ k, F j k
      = ∑ j ∈ Finset.range 8, ∑ k, F j k := by
        refine Finset.sum_subset (Finset.range_mono hn) fun j _ hj => ?_
        rw [Finset.mem_range, not_lt] at hj
        exact Finset.sum_eq_zero fun k _ => h0 j k hj
    _ = ∑ j : Fin 8, ∑ k, F j.val k := Finset.sum_range fun j => ∑ k, F j k
    _ = ∑ t, f t := by
        rw [TileSum.sum_tiles' 8 1024 8192 rfl f]
        refine Finset.sum_congr rfl fun j _ => Finset.sum_congr rfl fun p _ => ?_
        have h : 1024 * j.val + p.val < 8192 := by
          have := j.isLt; have := p.isLt; omega
        rw [h1 j.val p h]
        exact congrArg f (Fin.ext (by show 1024 * j.val + p.val = j.val * 1024 + p.val; omega))

/-! ## The blocks' scores and values against the reference's row -/

section

variable (Q K Vv : (⟨2, ![8192, 64]⟩ : Shape).Idx → EReal)

/-- The score of key k of block j is the reference's masked score of key 1024·j + k. -/
theorem fScore_eq (R : Fin 8192) (j : ℕ) (k : Fin 1024) (h : 1024 * j + k.val < 8192) :
    fScore Q K R j k = causalRow Q K R ⟨1024 * j + k.val, h⟩ := by
  unfold fScore
  rw [dif_pos h]
  by_cases hle : 1024 * j + k.val ≤ R.val
  · rw [if_pos hle, causalRow_of_le Q K R ⟨1024 * j + k.val, h⟩ hle, mul_eighth_eq_div_8]
    rfl
  · rw [if_neg hle, causalRow_of_not_le Q K R ⟨1024 * j + k.val, h⟩ hle]

/-- A key after the query's position has score -∞. -/
theorem fScore_masked (R : Fin 8192) (j : ℕ) (k : Fin 1024) (h : ¬ 1024 * j + k.val ≤ R.val) :
    fScore Q K R j k = ⊥ := by
  unfold fScore
  by_cases h' : 1024 * j + k.val < 8192
  · rw [dif_pos h', if_neg h]
  · rw [dif_neg h']

/-- No score is +∞. -/
theorem fScore_ne_top (hQ : ∀ i, IsReal (Q i)) (hK : ∀ i, IsReal (K i)) (R : Fin 8192) (j : ℕ) (k : Fin 1024) :
    fScore Q K R j k ≠ ⊤ := by
  by_cases h : 1024 * j + k.val < 8192
  · rw [fScore_eq Q K R j k h]; exact causalRow_ne_top Q K hQ hK R _
  · unfold fScore; rw [dif_neg h]; exact bot_ne_top

/-- The key at position 0 is never masked: its score is not -∞. -/
theorem fScore_zero_ne_bot (hQ : ∀ i, IsReal (Q i)) (hK : ∀ i, IsReal (K i)) (R : Fin 8192) :
    fScore Q K R 0 (0 : Fin 1024) ≠ ⊥ := by
  have h : 1024 * 0 + (0 : Fin 1024).val < 8192 := by simp
  rw [fScore_eq Q K R 0 0 h]
  exact causalRow_ne_bot Q K hQ hK R _ (by simp)

/-- The value of key k of block j is the values' entry at key 1024·j + k. -/
theorem fVal_eq (d : Fin 64) (j : ℕ) (k : Fin 1024) (h : 1024 * j + k.val < 8192) :
    fVal Vv d j k = Vv (ix2 (⟨1024 * j + k.val, h⟩ : Fin 8192) d) := by
  unfold fVal; rw [dif_pos h]

theorem fVal_isReal (hV : ∀ i, IsReal (Vv i)) (d : Fin 64) (j : ℕ) (k : Fin 1024) : IsReal (fVal Vv d j k) := by
  unfold fVal
  by_cases h : 1024 * j + k.val < 8192
  · rw [dif_pos h]; exact hV _
  · rw [dif_neg h]; exact isReal_zero

/-- No block's bound is +∞. -/
theorem fBound_ne_top (hQ : ∀ i, IsReal (Q i)) (hK : ∀ i, IsReal (K i)) (R : Fin 8192) (j : ℕ) :
    fBound Q K R j ≠ ⊤ :=
  OnlineSoftmax.fold_max_ne_top _ _ fun k _ => fScore_ne_top Q K hQ hK R j k

/-- The first block's bound is not -∞. -/
theorem fBound_zero_ne_bot (hQ : ∀ i, IsReal (Q i)) (hK : ∀ i, IsReal (K i)) (R : Fin 8192) :
    fBound Q K R 0 ≠ ⊥ :=
  OnlineSoftmax.fold_max_ne_bot _ _ (Finset.mem_univ (0 : Fin 1024)) (fScore_zero_ne_bot Q K hQ hK R)

/-! ## The two attentions agree -/

/-- Row R of the blockwise attention, column d: the recurrence's quotient after blocks 0 … R / 1024 is the
    softmax-weighted sum of column d of the values along the reference's masked row. -/
theorem flashRow_div_eq_attend (hQ : ∀ i, IsReal (Q i)) (hK : ∀ i, IsReal (K i)) (hV : ∀ i, IsReal (Vv i))
    (R : Fin 8192) (d : Fin 64) :
    Ideal.div (flashRow Q K Vv R d (R.val / 1024 + 1)).2.2 (flashRow Q K Vv R d (R.val / 1024 + 1)).2.1
      = attend (causalRow Q K R) Vv d := by
  have hrow : ∀ t, causalRow Q K R t ≠ ⊤ := causalRow_ne_top Q K hQ hK R
  have hself : causalRow Q K R R ≠ ⊥ := causalRow_ne_bot Q K hQ hK R R le_rfl
  obtain ⟨M, hM⟩ := rowMax_isReal (causalRow Q K R) hrow R hself
  choose vr hvr using fun (j : ℕ) (k : Fin 1024) => fVal_isReal Vv hV d j k
  have hn : R.val / 1024 + 1 ≤ 8 := by have := R.isLt; omega
  have hrun := OnlineSoftmax.run_div (fScore Q K R) (fVal Vv d) vr (fBound Q K R)
    (fScore_ne_top Q K hQ hK R) hvr (fBound_ne_top Q K hQ hK R) (fBound_zero_ne_bot Q K hQ hK R) (R.val / 1024)
    ⟨0, Finset.mem_range.mpr (Nat.succ_pos _), 0, fScore_zero_ne_bot Q K hQ hK R⟩ M
  unfold flashRow
  rw [hrun]
  unfold attend
  rw [hM]
  -- the denominators
  have hden : (∑ j ∈ Finset.range (R.val / 1024 + 1), ∑ k, Ideal.exp (fScore Q K R j k - (M : EReal)))
      = ∑ u, Ideal.exp (causalRow Q K R u - (M : EReal)) :=
    sum_blocks_eq_sum_row (fun u => Ideal.exp (causalRow Q K R u - (M : EReal)))
      (fun j k => Ideal.exp (fScore Q K R j k - (M : EReal))) _ hn
      (fun j k h => by show Ideal.exp (fScore Q K R j k - (M : EReal)) = _; rw [fScore_eq Q K R j k h])
      (fun j k hj => by
        show Ideal.exp (fScore Q K R j k - (M : EReal)) = 0
        rw [fScore_masked Q K R j k (by omega)]; exact OnlineSoftmax.exp_bot_sub_coe M)
  rw [hden]
  have hD : (∑ u, Ideal.exp (causalRow Q K R u - (M : EReal))) ≠ 0 :=
    sum_exp_sub_ne_zero (causalRow Q K R) hrow R hself M
  -- the numerators, the denominator now the row's
  exact sum_blocks_eq_sum_row
    (fun t => Ideal.div (Ideal.exp (causalRow Q K R t - (M : EReal)))
      (∑ u, Ideal.exp (causalRow Q K R u - (M : EReal))) * Vv (ix2 t d))
    (fun j k => Ideal.div (Ideal.exp (fScore Q K R j k - (M : EReal)))
      (∑ u, Ideal.exp (causalRow Q K R u - (M : EReal))) * fVal Vv d j k) _ hn
    (fun j k h => by
      show Ideal.div (Ideal.exp (fScore Q K R j k - (M : EReal))) _ * fVal Vv d j k = _
      rw [fScore_eq Q K R j k h, fVal_eq Vv d j k h])
    (fun j k hj => by
      show Ideal.div (Ideal.exp (fScore Q K R j k - (M : EReal))) _ * fVal Vv d j k = 0
      rw [fScore_masked Q K R j k (by omega)]; exact OnlineSoftmax.masked_term M hD _)

/-- The blockwise causal attention is the reference's causal attention, for real queries, keys and values. -/
theorem flashHead_eq_causalHead (hQ : ∀ i, IsReal (Q i)) (hK : ∀ i, IsReal (K i)) (hV : ∀ i, IsReal (Vv i)) :
    flashHead Q K Vv = causalHead Q K Vv := by
  funext i
  obtain ⟨R, d, rfl⟩ : ∃ (R : Fin 8192) (d : Fin 64), i = ix2 R d := ⟨i 0, i 1, eq_ix2 i⟩
  rw [flashHead_ix2, causalHead_eq_attend_causalRow]
  exact flashRow_div_eq_attend Q K Vv hQ hK hV R d

/-- Every entry of the blockwise causal attention is a real number. -/
theorem flashHead_isReal (hQ : ∀ i, IsReal (Q i)) (hK : ∀ i, IsReal (K i)) (hV : ∀ i, IsReal (Vv i))
    (i : (⟨2, ![8192, 64]⟩ : Shape).Idx) : IsReal (flashHead Q K Vv i) := by
  obtain ⟨R, d, rfl⟩ : ∃ (R : Fin 8192) (d : Fin 64), i = ix2 R d := ⟨i 0, i 1, eq_ix2 i⟩
  rw [flashHead_ix2]
  choose vr hvr using fun (j : ℕ) (k : Fin 1024) => fVal_isReal Vv hV d j k
  exact OnlineSoftmax.run_div_real (fScore Q K R) (fVal Vv d) vr (fBound Q K R)
    (fScore_ne_top Q K hQ hK R) hvr (fBound_ne_top Q K hQ hK R) (fBound_zero_ne_bot Q K hQ hK R) (R.val / 1024)
    ⟨0, Finset.mem_range.mpr (Nat.succ_pos _), 0, fScore_zero_ne_bot Q K hQ hK R⟩

end

end Cert.Spec

end
-- ==== Proof.Spec.Block.lean ====
/-
  The whole decoder block as one function of its fifteen arguments, composed of the stage functions: the three self-attention
  projections of the previous stage's output, the causal head, its tiling against the output matrix, the cross-attention's query
  projection of that and key/value projections of the encoder's output, the cross head, its tiling plus the residual under the
  first layer norm, the feed-forward layer plus its input under the second.
-/
import proofs.«172065_j32710470926956_2_alg».proof.Proof.Spec.Ref

noncomputable section

open scoped BigOperators

namespace Cert.Spec

open Idealize.ShloMosaic Idealize.ShloMosaic.ValueIdx

section
variable (enc prev : (⟨2, ![8192, 512]⟩ : Shape).Idx → EReal)
  (wqm wkm wvm wqc wkc wvc : (⟨2, ![512, 64]⟩ : Shape).Idx → EReal) (wo : (⟨2, ![512, 512]⟩ : Shape).Idx → EReal)
  (g b : (⟨1, ![512]⟩ : Shape).Idx → EReal)
  (w1 : (⟨2, ![512, 2048]⟩ : Shape).Idx → EReal) (b1 : (⟨1, ![2048]⟩ : Shape).Idx → EReal)
  (w2 : (⟨2, ![2048, 512]⟩ : Shape).Idx → EReal) (b2 : (⟨1, ![512]⟩ : Shape).Idx → EReal)

/-- The masked multi-head output over the previous stage's output. -/
def maskedMh : (⟨2, ![8192, 512]⟩ : Shape).Idx → EReal :=
  tileProj (causalHead (mm prev wqm) (mm prev wkm) (mm prev wvm)) wo

/-- The cross head: queries from the masked output, keys and values from the encoder's output. -/
def crossH : (⟨2, ![8192, 64]⟩ : Shape).Idx → EReal :=
  crossHead (mm (maskedMh prev wqm wkm wvm wo) wqc) (mm enc wkc) (mm enc wvc)

/-- After the first residual layer norm. -/
def xNorm : (⟨2, ![8192, 512]⟩ : Shape).Idx → EReal :=
  layerNorm (fun i => tileProj (crossH enc prev wqm wkm wvm wqc wkc wvc wo) wo i + prev i) g b

/-- The block's output. -/
def block : (⟨2, ![8192, 512]⟩ : Shape).Idx → EReal :=
  layerNorm (fun i => ffn (xNorm enc prev wqm wkm wvm wqc wkc wvc wo g b) w1 b1 w2 b2 i
    + xNorm enc prev wqm wkm wvm wqc wkc wvc wo g b i) g b

end

end Cert.Spec

end
-- ==== Proof.Spec.BridgeAttend.lean ====
/-
  Attention taken in a single pass.

  A body that sees a whole row of scores at once shifts the row by a real number mx of its own choosing, sums the
  weights exp (s t - mx) and the weights times the values, and divides. The reference shifts by the row's maximum,
  divides each weight by the sum of the weights, and then sums against the values. For a row with no +∞ and at least one
  entry that is not -∞, and real values, the two agree (a change of shift multiplies every weight by one positive
  factor, which cancels), and the quotient is a real number.
-/
import proofs.«172065_j32710470926956_2_alg».proof.Proof.Spec.Ref
import proofs.«172065_j32710470926956_2_alg».proof.Proof.Spec.BridgeRow
import proofs.«172065_j32710470926956_2_alg».proof.Proof.LibOnlineSoftmax
import proofs.«172065_j32710470926956_2_alg».proof.Proof.LibReal

noncomputable section

open scoped BigOperators

namespace Cert.Spec

open Idealize.ShloMosaic Idealize.ShloMosaic.ValueIdx Cert.Lib Cert.Lib.Real

/-- The single-pass quotient against a real shift mx is the softmax of the row against its maximum, summed against the
    values. The row may hold masked entries (-∞), but not only those. -/
theorem single_pass_div {n : ℕ} (s v : Fin n → EReal) (hs : ∀ t, s t ≠ ⊤) (t₀ : Fin n) (h0 : s t₀ ≠ ⊥)
    (hv : ∀ t, IsReal (v t)) (mx : EReal) (hmx : IsReal mx) :
    Ideal.div (∑ t, Ideal.exp (s t - mx) * v t) (∑ t, Ideal.exp (s t - mx))
      = ∑ t, Ideal.div (Ideal.exp (s t - rowMax s)) (∑ u, Ideal.exp (s u - rowMax s)) * v t := by
  obtain ⟨m, rfl⟩ := hmx
  obtain ⟨M, hM⟩ := rowMax_isReal s hs t₀ h0
  choose vr hvr using hv
  rw [hM]
  exact OnlineSoftmax.single_div s v vr hs hvr m ⟨t₀, h0⟩ M

/-- The same for a row of real scores (no mask), which only needs the row not to be empty. -/
theorem single_pass_div_of_real {n : ℕ} (s v : Fin n → EReal) (hs : ∀ t, IsReal (s t)) (hn : 0 < n)
    (hv : ∀ t, IsReal (v t)) (mx : EReal) (hmx : IsReal mx) :
    Ideal.div (∑ t, Ideal.exp (s t - mx) * v t) (∑ t, Ideal.exp (s t - mx))
      = ∑ t, Ideal.div (Ideal.exp (s t - rowMax s)) (∑ u, Ideal.exp (s u - rowMax s)) * v t :=
  single_pass_div s v (fun t => isReal_ne_top (hs t)) ⟨0, hn⟩ (isReal_ne_bot (hs _)) hv mx hmx

/-- In the reference's spelling: the single-pass quotient of column c of the values is attend. -/
theorem single_pass_eq_attend {n d : ℕ} (s : Fin n → EReal) (v : (⟨2, ![n, d]⟩ : Shape).Idx → EReal) (c : Fin d)
    (hs : ∀ t, s t ≠ ⊤) (t₀ : Fin n) (h0 : s t₀ ≠ ⊥) (hv : ∀ i, IsReal (v i)) (mx : EReal) (hmx : IsReal mx) :
    Ideal.div (∑ t, Ideal.exp (s t - mx) * v (ix2 t c)) (∑ t, Ideal.exp (s t - mx)) = attend s v c :=
  single_pass_div s (fun t => v (ix2 t c)) hs t₀ h0 (fun t => hv _) mx hmx

theorem single_pass_eq_attend_of_real {n d : ℕ} (s : Fin n → EReal) (v : (⟨2, ![n, d]⟩ : Shape).Idx → EReal) (c : Fin d)
    (hs : ∀ t, IsReal (s t)) (hn : 0 < n) (hv : ∀ i, IsReal (v i)) (mx : EReal) (hmx : IsReal mx) :
    Ideal.div (∑ t, Ideal.exp (s t - mx) * v (ix2 t c)) (∑ t, Ideal.exp (s t - mx)) = attend s v c :=
  single_pass_eq_attend s v c (fun t => isReal_ne_top (hs t)) ⟨0, hn⟩ (isReal_ne_bot (hs _)) hv mx hmx

/-- The single-pass quotient is a real number. -/
theorem single_pass_isReal {n : ℕ} (s v : Fin n → EReal) (hs : ∀ t, s t ≠ ⊤) (t₀ : Fin n) (h0 : s t₀ ≠ ⊥)
    (hv : ∀ t, IsReal (v t)) (mx : EReal) (hmx : IsReal mx) :
    IsReal (Ideal.div (∑ t, Ideal.exp (s t - mx) * v t) (∑ t, Ideal.exp (s t - mx))) := by
  obtain ⟨m, rfl⟩ := hmx
  choose vr hvr using hv
  exact OnlineSoftmax.single_div_real s v vr hs hvr m ⟨t₀, h0⟩

/-- The reference's softmax-weighted sum along such a row is a real number. -/
theorem attend_isReal {n d : ℕ} (s : Fin n → EReal) (v : (⟨2, ![n, d]⟩ : Shape).Idx → EReal) (c : Fin d)
    (hs : ∀ t, s t ≠ ⊤) (t₀ : Fin n) (h0 : s t₀ ≠ ⊥) (hv : ∀ i, IsReal (v i)) : IsReal (attend s v c) := by
  rw [← single_pass_eq_attend s v c hs t₀ h0 hv 0 isReal_zero]
  exact single_pass_isReal s (fun t => v (ix2 t c)) hs t₀ h0 (fun t => hv _) 0 isReal_zero

end Cert.Spec

end
-- ==== Proof.Spec.BridgeReal.lean ====
/-
  Real operands give real results, stage by stage through the decoder block.

  Each stage of the block is built from sums, differences, products, a quotient by a nonzero constant, an exponential
  under a softmax whose denominator is positive, and a reciprocal square root of a variance plus a positive constant.
  The variance is a sum of squares of real numbers over 512, hence nonnegative, so the reciprocal square root is taken
  at a positive real. Every entry of every stage is therefore a real number when the inputs' entries are.
-/
import proofs.«172065_j32710470926956_2_alg».proof.Proof.Spec.Ref
import proofs.«172065_j32710470926956_2_alg».proof.Proof.Spec.BridgeLit
import proofs.«172065_j32710470926956_2_alg».proof.Proof.Spec.BridgeRow
import proofs.«172065_j32710470926956_2_alg».proof.Proof.Spec.BridgeAttend
import proofs.«172065_j32710470926956_2_alg».proof.Proof.LibOnlineSoftmax
import proofs.«172065_j32710470926956_2_alg».proof.Proof.LibReal

noncomputable section

open scoped BigOperators

namespace Cert.Spec

open Idealize.ShloMosaic Idealize.ShloMosaic.ValueIdx Cert.Lib Cert.Lib.Real

/-! ## Matrix product -/

theorem mm_isReal {n k m : ℕ} (x : (⟨2, ![n, k]⟩ : Shape).Idx → EReal) (w : (⟨2, ![k, m]⟩ : Shape).Idx → EReal)
    (hx : ∀ i, IsReal (x i)) (hw : ∀ i, IsReal (w i)) (i : (⟨2, ![n, m]⟩ : Shape).Idx) : IsReal (mm x w i) :=
  IsReal.sum _ _ fun p _ => (hx _).mul (hw _)

/-! ## Attention -/

/-- The causal head: the query's own position is never masked. -/
theorem causalHead_isReal {n d : ℕ} (q k v : (⟨2, ![n, d]⟩ : Shape).Idx → EReal)
    (hq : ∀ i, IsReal (q i)) (hk : ∀ i, IsReal (k i)) (hv : ∀ i, IsReal (v i))
    (i : (⟨2, ![n, d]⟩ : Shape).Idx) : IsReal (causalHead q k v i) := by
  obtain ⟨r, c, rfl⟩ : ∃ (r : Fin n) (c : Fin d), i = ix2 r c := ⟨i 0, i 1, eq_ix2 i⟩
  rw [causalHead_eq_attend_causalRow]
  exact attend_isReal (causalRow q k r) v c (causalRow_ne_top q k hq hk r) r (causalRow_ne_bot q k hq hk r r le_rfl) hv

/-- The cross head, over a key set that is not empty. -/
theorem crossHead_isReal {n n' d : ℕ} (q : (⟨2, ![n, d]⟩ : Shape).Idx → EReal)
    (k v : (⟨2, ![n', d]⟩ : Shape).Idx → EReal) (hn : 0 < n')
    (hq : ∀ i, IsReal (q i)) (hk : ∀ i, IsReal (k i)) (hv : ∀ i, IsReal (v i))
    (i : (⟨2, ![n, d]⟩ : Shape).Idx) : IsReal (crossHead q k v i) := by
  obtain ⟨r, c, rfl⟩ : ∃ (r : Fin n) (c : Fin d), i = ix2 r c := ⟨i 0, i 1, eq_ix2 i⟩
  rw [crossHead_ix2]
  exact attend_isReal (fun t : Fin n' => scores q k r t) v c (fun t => isReal_ne_top (scores_isReal q k hq hk r t))
    ⟨0, hn⟩ (isReal_ne_bot (scores_isReal q k hq hk r _)) hv

/-! ## The shared head against the output matrix -/

theorem tileProj_isReal {n m : ℕ} (h : (⟨2, ![n, 64]⟩ : Shape).Idx → EReal) (wo : (⟨2, ![512, m]⟩ : Shape).Idx → EReal)
    (hh : ∀ i, IsReal (h i)) (hw : ∀ i, IsReal (wo i)) (i : (⟨2, ![n, m]⟩ : Shape).Idx) : IsReal (tileProj h wo i) :=
  IsReal.sum _ _ fun cc _ => (hh _).mul (hw _)

/-! ## Layer norm -/

theorem mean512_isReal {n : ℕ} (x : (⟨2, ![n, 512]⟩ : Shape).Idx → EReal) (hx : ∀ i, IsReal (x i)) (r : Fin n) :
    IsReal (mean512 x r) :=
  IsReal.div (IsReal.sum _ _ fun c _ => hx _) ofBits_512_isReal ofBits_512_ne_zero

theorem var512_isReal {n : ℕ} (x : (⟨2, ![n, 512]⟩ : Shape).Idx → EReal) (hx : ∀ i, IsReal (x i)) (r : Fin n) :
    IsReal (var512 x r) :=
  IsReal.div (IsReal.sum _ _ fun c _ => ((hx _).sub (mean512_isReal x hx r)).mul ((hx _).sub (mean512_isReal x hx r)))
    ofBits_512_isReal ofBits_512_ne_zero

/-- The variance is a sum of squares of real numbers over 512: it is not negative. -/
theorem var512_nonneg {n : ℕ} (x : (⟨2, ![n, 512]⟩ : Shape).Idx → EReal) (hx : ∀ i, IsReal (x i)) (r : Fin n) :
    0 ≤ var512 x r := by
  have hd : ∀ c : Fin 512, IsReal (x (ix2 r c) - mean512 x r) := fun c => (hx _).sub (mean512_isReal x hx r)
  choose a ha using hd
  have hS : (∑ c : Fin 512, (x (ix2 r c) - mean512 x r) * (x (ix2 r c) - mean512 x r))
      = ((∑ c : Fin 512, a c * a c : ℝ) : EReal) := by
    rw [OnlineSoftmax.coe_sum]
    exact Finset.sum_congr rfl fun c _ => by rw [ha c, EReal.coe_mul]
  unfold var512
  rw [hS, ofBits_512, Ideal.div_coe (by norm_num : (512 : ℝ) ≠ 0), ← EReal.coe_mul]
  exact EReal.coe_nonneg.mpr (mul_nonneg (Finset.sum_nonneg fun c _ => mul_self_nonneg (a c)) (by norm_num))

/-- The variance plus the small constant is positive. -/
theorem var512_add_eps_pos {n : ℕ} (x : (⟨2, ![n, 512]⟩ : Shape).Idx → EReal) (hx : ∀ i, IsReal (x i)) (r : Fin n) :
    0 < var512 x r + Ideal.ofBits .f32 0x3727C5AC#32 :=
  lt_of_lt_of_le ofBits_eps_pos (le_add_of_nonneg_left (var512_nonneg x hx r))

theorem rsqrt_var512_isReal {n : ℕ} (x : (⟨2, ![n, 512]⟩ : Shape).Idx → EReal) (hx : ∀ i, IsReal (x i)) (r : Fin n) :
    IsReal (Ideal.rsqrt (var512 x r + Ideal.ofBits .f32 0x3727C5AC#32)) :=
  IsReal.rsqrt ((var512_isReal x hx r).add ofBits_eps_isReal) (var512_add_eps_pos x hx r)

theorem layerNorm_isReal {n : ℕ} (x : (⟨2, ![n, 512]⟩ : Shape).Idx → EReal) (g b : (⟨1, ![512]⟩ : Shape).Idx → EReal)
    (hx : ∀ i, IsReal (x i)) (hg : ∀ i, IsReal (g i)) (hb : ∀ i, IsReal (b i))
    (i : (⟨2, ![n, 512]⟩ : Shape).Idx) : IsReal (layerNorm x g b i) :=
  ((((hx _).sub (mean512_isReal x hx _)).mul (rsqrt_var512_isReal x hx _)).mul (hg _)).add (hb _)

/-! ## The feed-forward layer -/

theorem leaky_isReal {h : EReal} (hh : IsReal h) : IsReal (leaky h) := by
  unfold leaky
  by_cases h0 : 0 ≤ h
  · rw [if_pos h0]; exact hh
  · rw [if_neg h0]; exact ofBits_slope_isReal.mul hh

theorem hidden_isReal {n : ℕ} (x : (⟨2, ![n, 512]⟩ : Shape).Idx → EReal) (w1 : (⟨2, ![512, 2048]⟩ : Shape).Idx → EReal)
    (b1 : (⟨1, ![2048]⟩ : Shape).Idx → EReal) (hx : ∀ i, IsReal (x i)) (hw1 : ∀ i, IsReal (w1 i))
    (hb1 : ∀ i, IsReal (b1 i)) (j : (⟨2, ![n, 2048]⟩ : Shape).Idx) : IsReal (hidden x w1 b1 j) :=
  leaky_isReal ((mm_isReal x w1 hx hw1 j).add (hb1 _))

theorem ffn_isReal {n : ℕ} (x : (⟨2, ![n, 512]⟩ : Shape).Idx → EReal) (w1 : (⟨2, ![512, 2048]⟩ : Shape).Idx → EReal)
    (b1 : (⟨1, ![2048]⟩ : Shape).Idx → EReal) (w2 : (⟨2, ![2048, 512]⟩ : Shape).Idx → EReal)
    (b2 : (⟨1, ![512]⟩ : Shape).Idx → EReal) (hx : ∀ i, IsReal (x i)) (hw1 : ∀ i, IsReal (w1 i))
    (hb1 : ∀ i, IsReal (b1 i)) (hw2 : ∀ i, IsReal (w2 i)) (hb2 : ∀ i, IsReal (b2 i))
    (i : (⟨2, ![n, 512]⟩ : Shape).Idx) : IsReal (ffn x w1 b1 w2 b2 i) :=
  (mm_isReal (hidden x w1 b1) w2 (hidden_isReal x w1 b1 hx hw1 hb1) hw2 i).add (hb2 _)

end Cert.Spec

end
-- ==== Proof.Spec.XAttn.lean ====
/-
  Single-pass attention of every query row against all keys, as one function of the three operand arrays.

  q is an n × 64 array of queries, k and v are T × 64 arrays of keys and values. For query row r:

      score q k r t  = (∑ p < 64, q(r, p) · k(t, p)) · c          (c the literal scale, 1/8 as an f32 word)
      rowMax q k r   = the maximum over t < T of score q k r t, taken from the literal −∞ word
      xattn q k v (r, d) = (∑ t < T, exp(score q k r t − rowMax q k r) · v(t, d)) / (∑ t < T, exp(score q k r t − rowMax q k r)),

  over the extended reals, with the extended reals' exp and quotient. The two literals are kept as their words.
-/
import Idealize.ShloMosaic.PureOps.Ideal
import Idealize.ShloMosaic.Lib.ValueIdx

noncomputable section

open scoped BigOperators

namespace Cert.Spec

open Idealize.ShloMosaic Idealize.ShloMosaic.ValueIdx

variable {n T : ℕ}

/-- The scaled dot product of query row r with key row t. -/
def xScore (q : (⟨2, ![n, 64]⟩ : Shape).Idx → EReal) (k : (⟨2, ![T, 64]⟩ : Shape).Idx → EReal) (r : Fin n) (t : Fin T) : EReal :=
  (∑ p : Fin 64, q (ix2 r p) * k (ix2 t p)) * Ideal.ofBits .f32 0x3E000000#32

/-- The largest score of query row r, the maximum taken from the −∞ word. -/
def xRowMax (q : (⟨2, ![n, 64]⟩ : Shape).Idx → EReal) (k : (⟨2, ![T, 64]⟩ : Shape).Idx → EReal) (r : Fin n) : EReal :=
  (Finset.univ : Finset (Fin T)).fold max (Ideal.ofBits .f32 0xFF800000#32) (fun t => xScore q k r t)

/-- The weight of key t for query row r, before normalisation. -/
def xWeight (q : (⟨2, ![n, 64]⟩ : Shape).Idx → EReal) (k : (⟨2, ![T, 64]⟩ : Shape).Idx → EReal) (r : Fin n) (t : Fin T) : EReal :=
  Ideal.exp (xScore q k r t - xRowMax q k r)

/-- The weighted sum of the values over the sum of the weights. -/
def xattn (q : (⟨2, ![n, 64]⟩ : Shape).Idx → EReal) (k v : (⟨2, ![T, 64]⟩ : Shape).Idx → EReal) :
    (⟨2, ![n, 64]⟩ : Shape).Idx → EReal :=
  fun i => Ideal.div (∑ t : Fin T, xWeight q k (i 0 : Fin n) t * v (ix2 t (i 1 : Fin 64))) (∑ t : Fin T, xWeight q k (i 0 : Fin n) t)

/-- The same at an index given by its coordinates. -/
theorem xattn_ix2 (q : (⟨2, ![n, 64]⟩ : Shape).Idx → EReal) (k v : (⟨2, ![T, 64]⟩ : Shape).Idx → EReal) (r : Fin n) (d : Fin 64) :
    xattn q k v (ix2 r d) = Ideal.div (∑ t : Fin T, xWeight q k r t * v (ix2 t d)) (∑ t : Fin T, xWeight q k r t) := rfl

/-! ## A block of query rows

The functions of query row r read q only through that row, so a block of rows taken out of a larger array gives the
same scores, maxima and weights as the array at the rows it was taken from. -/

variable {n' : ℕ}

theorem xScore_congr {q : (⟨2, ![n, 64]⟩ : Shape).Idx → EReal} {q' : (⟨2, ![n', 64]⟩ : Shape).Idx → EReal}
    (k : (⟨2, ![T, 64]⟩ : Shape).Idx → EReal) {r : Fin n} {r' : Fin n'} (h : ∀ p : Fin 64, q (ix2 r p) = q' (ix2 r' p)) (t : Fin T) :
    xScore q k r t = xScore q' k r' t := by
  unfold xScore
  exact congrArg (· * Ideal.ofBits .f32 0x3E000000#32) (Finset.sum_congr rfl fun p _ => by rw [h p])

theorem xRowMax_congr {q : (⟨2, ![n, 64]⟩ : Shape).Idx → EReal} {q' : (⟨2, ![n', 64]⟩ : Shape).Idx → EReal}
    (k : (⟨2, ![T, 64]⟩ : Shape).Idx → EReal) {r : Fin n} {r' : Fin n'} (h : ∀ p : Fin 64, q (ix2 r p) = q' (ix2 r' p)) :
    xRowMax q k r = xRowMax q' k r' := by
  unfold xRowMax
  exact congrArg (fun f => (Finset.univ : Finset (Fin T)).fold max (Ideal.ofBits .f32 0xFF800000#32) f)
    (funext fun t => xScore_congr k h t)

theorem xWeight_congr {q : (⟨2, ![n, 64]⟩ : Shape).Idx → EReal} {q' : (⟨2, ![n', 64]⟩ : Shape).Idx → EReal}
    (k : (⟨2, ![T, 64]⟩ : Shape).Idx → EReal) {r : Fin n} {r' : Fin n'} (h : ∀ p : Fin 64, q (ix2 r p) = q' (ix2 r' p)) (t : Fin T) :
    xWeight q k r t = xWeight q' k r' t := by
  unfold xWeight
  rw [xScore_congr k h t, xRowMax_congr k h]

/-- A block of query rows, attended against the same keys and values, gives the array's result at the rows the block
    was taken from. -/
theorem xattn_of_block {q : (⟨2, ![n', 64]⟩ : Shape).Idx → EReal} {Q : (⟨2, ![n, 64]⟩ : Shape).Idx → EReal}
    {k K v W : (⟨2, ![T, 64]⟩ : Shape).Idx → EReal} (hk : k = K) (hv : v = W) (r : Fin n') (R : Fin n)
    (hq : ∀ p : Fin 64, q (ix2 r p) = Q (ix2 R p)) (d : Fin 64) :
    Ideal.div (∑ t : Fin T, xWeight q k r t * v (ix2 t d)) (∑ t : Fin T, xWeight q k r t) = xattn Q K W (ix2 R d) := by
  subst hk hv
  rw [xattn_ix2]
  exact congrArg₂ Ideal.div (Finset.sum_congr rfl fun t _ => by rw [xWeight_congr k hq t])
    (Finset.sum_congr rfl fun t _ => xWeight_congr k hq t)

end Cert.Spec

end
-- ==== Proof.KI.Val5Pay.lean ====
/-
  Region 5's arithmetic at one entry of the output block: single-pass attention of a block of query rows against all keys.

  The body holds a 512 × 64 block q of queries and the whole 8192 × 64 arrays k, v of keys and values. It forms the
  512 × 8192 scores (q against the transpose of k, times the literal scale), takes each row's maximum from −∞, the
  weights exp(score − maximum), each row's sum of weights, the product of the weights with v, and divides that product
  by the row's sum. Over the extended reals a change of float format is the identity and the zero accumulators of the
  two products drop out, so entry (r, d) is

      (∑ t < 8192, weight(r, t) · v(t, d)) / (∑ t < 8192, weight(r, t)),

  with score, rowMax and weight as the specification spells them.
-/
import proofs.«172065_j32710470926956_2_alg».proof.Proof.Gen.KernelIdeal.Skeleton
import proofs.«172065_j32710470926956_2_alg».proof.Proof.Spec.XAttn
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Cert.Spec
open Idealize.ShloMosaic Idealize.ShloMosaic.ValueIdx

/-! ## Layout -/

/-- The transposed keys: entry (p, t) is k(t, p). -/
theorem tr5_apply (k : FVec Ideal S8192x64 .bf16) (p : Fin 64) (t : Fin 8192) :
    transpose S64x8192 [1, 0] k transposes_S8192x64_p1_0_S64x8192 (ix2 p t) = k (ix2 t p) :=
  transpose_apply _ _ _ _ (ix2 t p) (fun b => by
    match b with
    | ⟨0, _⟩ => rfl
    | ⟨1, _⟩ => rfl)

/-- The index over row r of the reduced vector with column t put back is (r, t). -/
theorem lift5 (r : Fin 512) (t : Fin 8192) : reduces_S512x8192_S512.lift (ix1 r) t = ix2 r t :=
  funext fun a => Fin.ext (by
    match a with
    | ⟨0, _⟩ => rfl
    | ⟨1, _⟩ => rfl)

/-- A vector of 512 entries as a 512 × 1 column. -/
theorem col5_apply (x : FVec Ideal S512 .f32) (r : Fin 512) :
    shapeCast S512x1 x shapeCasts_S512_S512x1 (ix2 r (0 : Fin 1)) = x (ix1 r) :=
  shapeCast_apply _ _ _ (ix1 r) (by
    rw [Shape.rowMajor_val_one, Shape.rowMajor_val_two]
    show r.val = r.val * 1 + 0
    omega)

/-- A column repeated along 8192 columns. -/
theorem bc5a_apply (x : FVec Ideal S512x1 .f32) (r : Fin 512) (t : Fin 8192) :
    broadcastTo S512x8192 x broadcasts_S512x1_S512x8192 (ix2 r t) = x (ix2 r (0 : Fin 1)) :=
  broadcastTo_apply _ _ _ (ix2 r (0 : Fin 1)) (fun a => by
    match a with
    | ⟨0, _⟩ => rfl
    | ⟨1, _⟩ => rfl)

/-- A column repeated along 64 columns. -/
theorem bc5b_apply (x : FVec Ideal S512x1 .f32) (r : Fin 512) (d : Fin 64) :
    broadcastTo S512x64 x broadcasts_S512x1_S512x64 (ix2 r d) = x (ix2 r (0 : Fin 1)) :=
  broadcastTo_apply _ _ _ (ix2 r (0 : Fin 1)) (fun a => by
    match a with
    | ⟨0, _⟩ => rfl
    | ⟨1, _⟩ => rfl)

/-- A row's maximum, from the −∞ word. -/
theorem max5_apply (S : FVec Ideal S512x8192 .f32) (r : Fin 512) :
    multiReduction .maximumf [1] S512 S 0xFF800000#32 reduces_S512x8192_S512 (.inl rfl) rfl (ix1 r)
      = (Finset.univ : Finset (Fin 8192)).fold max (Ideal.ofBits .f32 0xFF800000#32) (fun t => S (ix2 r t)) := by
  refine (Ideal.multiReduction_maximumf_single S 0xFF800000#32 reduces_S512x8192_S512 (.inl rfl) rfl (ix1 r)).trans ?_
  refine congrArg (fun f => (Finset.univ : Finset (Fin 8192)).fold max (Ideal.ofBits .f32 0xFF800000#32) f) (funext fun t => ?_)
  exact congrArg S (lift5 r t)

/-- A row's sum. -/
theorem sum5_apply (E : FVec Ideal S512x8192 .f32) (r : Fin 512) :
    multiReduction .add [1] S512 E 0x00000000#32 reduces_S512x8192_S512 (.inl rfl) rfl (ix1 r)
      = ∑ t : Fin 8192, E (ix2 r t) := by
  refine (Ideal.multiReduction_add_single E 0x00000000#32 reduces_S512x8192_S512 (.inl rfl) rfl (ix1 r)).trans ?_
  exact Finset.sum_congr rfl fun t _ => congrArg E (lift5 r t)

/-! ## The two products -/

/-- The scores' dimension numbers: [512, 64] × [64, 8192] → [512, 8192], contracting axis 1 against axis 0. -/
abbrev D5a := dot_S512x64_S64x8192_S512x8192_1_0_0_1_n_n

theorem D5a_lhs_0 (i : S512x8192.Idx) (q : D5a.contr.Idx) : (D5a.lhsIdx i q 0).val = (i 0).val := by
  unfold DotDims.lhsIdx
  rw [dif_neg (show ¬(0 : Fin S512x64.rank) ∈ D5a.lhsBatch by decide),
    dif_pos (show (0 : Fin S512x64.rank) ∈ D5a.lhsNonContracting by decide)]
  rfl

theorem D5a_lhs_1 (i : S512x8192.Idx) (q : D5a.contr.Idx) : (D5a.lhsIdx i q 1).val = (q ⟨0, by decide⟩).val :=
  D5a.lhsIdx_val_of_single rfl i q

theorem D5a_rhs_0 (i : S512x8192.Idx) (q : D5a.contr.Idx) : (D5a.rhsIdx i q 0).val = (q ⟨0, by decide⟩).val :=
  D5a.rhsIdx_val_of_single rfl i q

theorem D5a_rhs_1 (i : S512x8192.Idx) (q : D5a.contr.Idx) : (D5a.rhsIdx i q 1).val = (i 1).val := by
  unfold DotDims.rhsIdx
  rw [dif_neg (show ¬(1 : Fin S64x8192.rank) ∈ D5a.rhsBatch by decide),
    dif_pos (show (1 : Fin S64x8192.rank) ∈ D5a.rhsNonContracting by decide)]
  rfl

/-- The product into a zero matrix at entry (r, c): row r of the left operand against column c of the right. -/
theorem D5a_apply (x : FVec Ideal S512x64 .bf16) (w : FVec Ideal S64x8192 .bf16) (r : Fin 512) (c : Fin 8192) :
    matmul D5a none x w (constant S512x8192 .f32 0x00000000#32) (ix2 r c) = ∑ k : Fin 64, x (ix2 r k) * w (ix2 k c) := by
  simp only [matmul]
  rw [Ideal.matmul_constant_zero_apply, ← Equiv.sum_comp (contrEquiv1 D5a 64 rfl rfl).symm]
  refine Finset.sum_congr rfl fun k _ => ?_
  have hk := contrEquiv1_symm_val D5a 64 rfl rfl k
  have el : D5a.lhsIdx (ix2 r c) ((contrEquiv1 D5a 64 rfl rfl).symm k) = ix2 r k := funext fun a => Fin.ext (by
    match a with
    | ⟨0, _⟩ => exact D5a_lhs_0 _ _
    | ⟨1, _⟩ => exact (D5a_lhs_1 _ _).trans hk)
  have er : D5a.rhsIdx (ix2 r c) ((contrEquiv1 D5a 64 rfl rfl).symm k) = ix2 k c := funext fun a => Fin.ext (by
    match a with
    | ⟨0, _⟩ => exact (D5a_rhs_0 _ _).trans hk
    | ⟨1, _⟩ => exact D5a_rhs_1 _ _)
  rw [el, er]

/-- The weighted sum's dimension numbers: [512, 8192] × [8192, 64] → [512, 64], contracting axis 1 against axis 0. -/
abbrev D5b := dot_S512x8192_S8192x64_S512x64_1_0_0_1_n_n

theorem D5b_lhs_0 (i : S512x64.Idx) (q : D5b.contr.Idx) : (D5b.lhsIdx i q 0).val = (i 0).val := by
  unfold DotDims.lhsIdx
  rw [dif_neg (show ¬(0 : Fin S512x8192.rank) ∈ D5b.lhsBatch by decide),
    dif_pos (show (0 : Fin S512x8192.rank) ∈ D5b.lhsNonContracting by decide)]
  rfl

theorem D5b_lhs_1 (i : S512x64.Idx) (q : D5b.contr.Idx) : (D5b.lhsIdx i q 1).val = (q ⟨0, by decide⟩).val :=
  D5b.lhsIdx_val_of_single rfl i q

theorem D5b_rhs_0 (i : S512x64.Idx) (q : D5b.contr.Idx) : (D5b.rhsIdx i q 0).val = (q ⟨0, by decide⟩).val :=
  D5b.rhsIdx_val_of_single rfl i q

theorem D5b_rhs_1 (i : S512x64.Idx) (q : D5b.contr.Idx) : (D5b.rhsIdx i q 1).val = (i 1).val := by
  unfold DotDims.rhsIdx
  rw [dif_neg (show ¬(1 : Fin S8192x64.rank) ∈ D5b.rhsBatch by decide),
    dif_pos (show (1 : Fin S8192x64.rank) ∈ D5b.rhsNonContracting by decide)]
  rfl

/-- The product into a zero matrix at entry (r, c): row r of the left operand against column c of the right. -/
theorem D5b_apply (x : FVec Ideal S512x8192 .bf16) (w : FVec Ideal S8192x64 .bf16) (r : Fin 512) (c : Fin 64) :
    matmul D5b none x w (constant S512x64 .f32 0x00000000#32) (ix2 r c) = ∑ k : Fin 8192, x (ix2 r k) * w (ix2 k c) := by
  simp only [matmul]
  rw [Ideal.matmul_constant_zero_apply, ← Equiv.sum_comp (contrEquiv1 D5b 8192 rfl rfl).symm]
  refine Finset.sum_congr rfl fun k _ => ?_
  have hk := contrEquiv1_symm_val D5b 8192 rfl rfl k
  have el : D5b.lhsIdx (ix2 r c) ((contrEquiv1 D5b 8192 rfl rfl).symm k) = ix2 r k := funext fun a => Fin.ext (by
    match a with
    | ⟨0, _⟩ => exact D5b_lhs_0 _ _
    | ⟨1, _⟩ => exact (D5b_lhs_1 _ _).trans hk)
  have er : D5b.rhsIdx (ix2 r c) ((contrEquiv1 D5b 8192 rfl rfl).symm k) = ix2 k c := funext fun a => Fin.ext (by
    match a with
    | ⟨0, _⟩ => exact (D5b_rhs_0 _ _).trans hk
    | ⟨1, _⟩ => exact D5b_rhs_1 _ _)
  rw [el, er]

/-! ## The stored value -/

/-- The scores: entry (r, t) is the scaled dot product of query row r with key row t. -/
theorem sc5_apply (q : FVec Ideal S512x64 .f32) (k : FVec Ideal S8192x64 .f32) (r : Fin 512) (t : Fin 8192) :
    mulf (matmul D5a none (truncf .bf16 q bitsLt_bf16_f32)
        (transpose S64x8192 [1, 0] (truncf .bf16 k bitsLt_bf16_f32) transposes_S8192x64_p1_0_S64x8192)
        (constant S512x8192 .f32 0x00000000#32)) (broadcast S512x8192 (Scalar.ofBits .f32 0x3E000000#32)) (ix2 r t)
      = xScore (n := 512) (T := 8192) q k r t := by
  rw [mulf_apply, D5a_apply]
  refine congrArg₂ (· * ·) (Finset.sum_congr rfl fun p _ => ?_) rfl
  rw [tr5_apply]
  rfl

/-- The weights of any score matrix: exp of the score less its row's maximum. -/
theorem soft5_apply (S : FVec Ideal S512x8192 .f32) (r : Fin 512) (t : Fin 8192) :
    exp (subf S (broadcastTo S512x8192 (shapeCast S512x1
        (multiReduction .maximumf [1] S512 S 0xFF800000#32 reduces_S512x8192_S512 (.inl rfl) rfl) shapeCasts_S512_S512x1)
        broadcasts_S512x1_S512x8192)) (ix2 r t)
      = Ideal.exp (S (ix2 r t)
          - (Finset.univ : Finset (Fin 8192)).fold max (Ideal.ofBits .f32 0xFF800000#32) (fun t' => S (ix2 r t'))) := by
  show Ideal.exp (S (ix2 r t) - broadcastTo S512x8192 _ broadcasts_S512x1_S512x8192 (ix2 r t)) = _
  rw [bc5a_apply, col5_apply, max5_apply]

/-- The same with the scores named: where row r of S is s, the weights of row r are exp(s − max s). -/
theorem soft5_eq (S : FVec Ideal S512x8192 .f32) (s : Fin 8192 → EReal) (r : Fin 512) (hS : ∀ t, S (ix2 r t) = s t) (t : Fin 8192) :
    exp (subf S (broadcastTo S512x8192 (shapeCast S512x1
        (multiReduction .maximumf [1] S512 S 0xFF800000#32 reduces_S512x8192_S512 (.inl rfl) rfl) shapeCasts_S512_S512x1)
        broadcasts_S512x1_S512x8192)) (ix2 r t)
      = Ideal.exp (s t - (Finset.univ : Finset (Fin 8192)).fold max (Ideal.ofBits .f32 0xFF800000#32) s) := by
  rw [soft5_apply, hS t, show (fun t' => S (ix2 r t')) = s from funext hS]

/-- Entry (r, d) of what the body stores. -/
theorem pay5_apply (q : FVec Ideal S512x64 .f32) (k v : FVec Ideal S8192x64 .f32) (r : Fin 512) (d : Fin 64) :
    k5_pay1 (F := Ideal) q k v (ix2 r d)
      = Ideal.div (∑ t : Fin 8192, xWeight (n := 512) (T := 8192) q k r t * v (ix2 t d))
          (∑ t : Fin 8192, xWeight (n := 512) (T := 8192) q k r t) := by
  unfold k5_pay1
  simp only [shapeCast_self]
  rw [divf_apply, D5b_apply, bc5b_apply, col5_apply, sum5_apply]
  refine congrArg₂ Ideal.div (Finset.sum_congr rfl fun t _ => congrArg₂ (· * ·) ?_ rfl) (Finset.sum_congr rfl fun t _ => ?_)
  · exact soft5_eq _ (fun t' => xScore (n := 512) (T := 8192) q k r t') r (fun t' => sc5_apply q k r t') t
  · exact soft5_eq _ (fun t' => xScore (n := 512) (T := 8192) q k r t') r (fun t' => sc5_apply q k r t') t

end Cert.KernelIdeal.Hand

end
-- ==== Proof.KI.Val5.lean ====
/-
  Region 5's output array after the run, as one function of its operand arrays.

  The grid has 16 points. Point t reads rows 512·t … 512·t + 511 of the 8192 × 64 queries and the whole 8192 × 64 keys
  and values, and writes rows 512·t … 512·t + 511 of the 8192 × 64 output: entry (p, d) of the block it writes is the
  attention of query row 512·t + p against all keys, at column d. The functions of a query row read the queries only
  through that row, so the block is exactly the rows 512·t … of the whole-array function xattn q k v. Row r of the
  output is written by point r / 512, so the 16 blocks cover the array and it ends holding xattn q k v.
-/
import proofs.«172065_j32710470926956_2_alg».proof.Proof.KI.R5
import proofs.«172065_j32710470926956_2_alg».proof.Proof.KI.Val5Pay
import proofs.«172065_j32710470926956_2_alg».proof.Proof.Spec.XAttn
import Idealize.ShloMosaic.Lib.Pipeline.Value

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-buffer access. -/
theorem hz5 : (![0, 0] : Fin 2 → Nat) = fun _ => 0 := funext fun a => by fin_cases a <;> rfl

/-- The four index maps at every grid point: the queries' and the output's block index is (t, 0), the keys' and the
    values' is (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-! ## Each input block as entries of its array

An entry of a block sits in the array, on each axis, at block index × block size + its coordinate inside the block. -/

section Blocks
variable {F : FTy → Type} [FloatOps F] [Named F]
variable (V : (c : Dev nD) → (b : Ref sig .tc) → Buf (Elt F) ((c : Thread nD τ).loc b))

/-- The queries' block at point t: entry (p, e) is q(512·t + p, e). -/
theorem blk5_0_apply (c : Dev nD) (t : Fin cfg5.N) (y : S512x64.Idx) (k : S8192x64.Idx)
    (hk0 : (k 0).val = 512 * t.val + (y 0).val) (hk1 : (k 1).val = (y 1).val) :
    (iblk5 V c 0 t : FVec F S512x64 .f32) y = (V c (Pipeline.arrRef spec5 0) : S8192x64.Idx → F .f32) k := by
  obtain ⟨e0, e1, -⟩ := idx_facts5 t
  unfold iblk5
  rw [View.read_apply]
  refine congrArg (V c (Pipeline.arrRef spec5 0)) (funext fun a => Fin.ext ?_)
  match a with
  | ⟨0, _⟩ => show win5_0.index t (0 : Fin 2) * 512 + 1 * (y 0).val = (k 0).val; rw [e0, hk0]; omega
  | ⟨1, _⟩ => show win5_0.index t (1 : Fin 2) * 64 + 1 * (y 1).val = (k 1).val; rw [e1, hk1]; omega

/-- The keys' block at every point is the whole array of keys. -/
theorem blk5_1_apply (c : Dev nD) (t : Fin cfg5.N) (y : S8192x64.Idx) (k : S8192x64.Idx)
    (hk0 : (k 0).val = (y 0).val) (hk1 : (k 1).val = (y 1).val) :
    (iblk5 V c 1 t : FVec F S8192x64 .f32) y = (V c (Pipeline.arrRef spec5 1) : S8192x64.Idx → F .f32) k := by
  obtain ⟨-, -, e0, e1, -⟩ := idx_facts5 t
  unfold iblk5
  rw [View.read_apply]
  refine congrArg (V c (Pipeline.arrRef spec5 1)) (funext fun a => Fin.ext ?_)
  match a with
  | ⟨0, _⟩ => show win5_1.index t (0 : Fin 2) * 8192 + 1 * (y 0).val = (k 0).val; rw [e0, hk0]; omega
  | ⟨1, _⟩ => show win5_1.index t (1 : Fin 2) * 64 + 1 * (y 1).val = (k 1).val; rw [e1, hk1]; omega

/-- The values' block at every point is the whole array of values. -/
theorem blk5_2_apply (c : Dev nD) (t : Fin cfg5.N) (y : S8192x64.Idx) (k : S8192x64.Idx)
    (hk0 : (k 0).val = (y 0).val) (hk1 : (k 1).val = (y 1).val) :
    (iblk5 V c 2 t : FVec F S8192x64 .f32) y = (V c (Pipeline.arrRef spec5 2) : S8192x64.Idx → F .f32) k := by
  obtain ⟨-, -, -, -, e0, e1, -⟩ := idx_facts5 t
  unfold iblk5
  rw [View.read_apply]
  refine congrArg (V c (Pipeline.arrRef spec5 2)) (funext fun a => Fin.ext ?_)
  match a with
  | ⟨0, _⟩ => show win5_2.index t (0 : Fin 2) * 8192 + 1 * (y 0).val = (k 0).val; rw [e0, hk0]; omega
  | ⟨1, _⟩ => show win5_2.index t (1 : Fin 2) * 64 + 1 * (y 1).val = (k 1).val; rw [e1, hk1]; omega

end Blocks

/-! ## The output, over the extended reals -/

variable (V : (c : Dev nD) → (b : Ref sig .tc) → Buf (Elt Ideal) ((c : Thread nD τ).loc b))

/-- What point t writes back is rows 512·t … 512·t + 511 of xattn of the three operand arrays. -/
theorem flushed5_eq (c : Dev nD) (t : Fin cfg5.N) :
    (dat5 (F := Ideal) V c).flushed 3 t
      = ((cfg5.win 3).blk t).view.read (Elt Ideal)
          (xattn (n := 8192) (T := 8192) (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S512x64) hz5, View.ld_unit_zero (S := S8192x64) hz5]
  refine funext fun (j : S512x64.Idx) => ?_
  obtain ⟨p, d, rfl⟩ : ∃ (p : Fin 512) (d : Fin 64), j = ix2 p d := ⟨j 0, j 1, eq_ix2 j⟩
  obtain ⟨-, -, -, -, -, -, e0, e1⟩ := idx_facts5 t
  have ht : t.val < 16 := lt_of_lt_of_eq t.isLt N_5
  -- entry (p, d) of the output's block is entry (512·t + p, d) of the output's array
  have he : ((cfg5.win 3).blk t).view.emb (ix2 p d) = ix2 (⟨512 * t.val + p.val, by omega⟩ : Fin 8192) d :=
    funext fun a => Fin.ext (by
      match a with
      | ⟨0, _⟩ => show win5_3.index t (0 : Fin 2) * 512 + 1 * p.val = 512 * t.val + p.val; rw [e0]; omega
      | ⟨1, _⟩ => show win5_3.index t (1 : Fin 2) * 64 + 1 * d.val = d.val; rw [e1]; omega)
  rw [View.read_apply, he]
  show k5_pay1 (F := Ideal) (iblk5 V c 0 t) (iblk5 V c 1 t) (iblk5 V c 2 t) (ix2 p d) = _
  refine (pay5_apply _ _ _ p d).trans ?_
  exact xattn_of_block (funext fun y => blk5_1_apply V c t y y rfl rfl) (funext fun y => blk5_2_apply V c t y y rfl rfl)
    p ⟨512 * t.val + p.val, by omega⟩ (fun e => blk5_0_apply V c t (ix2 p e) _ rfl rfl) d

/-- An index of the output array is in point t's block iff each coordinate is in the block's range on its axis. -/
theorem mem_blk5 (t : Fin cfg5.N) (i : S8192x64.Idx) :
    i ∈ ((cfg5.win 3).blk t).view.set ↔ ∀ a : Fin 2, win5_3.index t a * S512x64.size a ≤ (i a).val
      ∧ (i a).val < win5_3.index t a * S512x64.size a + S512x64.size a := by
  show i ∈ ((View.whole main_v28).slice (win5_3.rect t)).set ↔ _
  rw [View.set_slice_whole, Rect.mem_set_unit]
  exact Iff.rfl

/-- Every index of the output array is in the block of the point its row divided by 512 names. -/
theorem cover5 (i : S8192x64.Idx) :
    ∃ t : Fin cfg5.N, (cfg5.win 3).flush t = true ∧ i ∈ ((cfg5.win 3).blk t).view.set := by
  have hi0 : (i 0).val < 8192 := (i 0).isLt
  have hi1 : (i 1).val < 64 := (i 1).isLt
  obtain ⟨t, ht⟩ : ∃ t : Fin cfg5.N, t.val = (i 0).val / 512 :=
    ⟨⟨(i 0).val / 512, lt_of_lt_of_eq (show (i 0).val / 512 < 16 by omega) N_5.symm⟩, rfl⟩
  obtain ⟨-, -, -, -, -, -, e0, e1⟩ := idx_facts5 t
  refine ⟨t, flush5_3 t, ?_⟩
  rw [mem_blk5]
  intro a
  match a with
  | ⟨0, _⟩ =>
    show win5_3.index t (0 : Fin 2) * 512 ≤ (i 0).val ∧ (i 0).val < win5_3.index t (0 : Fin 2) * 512 + 512
    rw [e0, ht]; omega
  | ⟨1, _⟩ =>
    show win5_3.index t (1 : Fin 2) * 64 ≤ (i 1).val ∧ (i 1).val < win5_3.index t (1 : Fin 2) * 64 + 64
    rw [e1]; omega

/-- The output array after the region: xattn of the three operand arrays as the region finds them. -/
theorem arr5 (c : Dev nD) :
    (dat5 (F := Ideal) V c).arrAt 3 cfg5.N
      = xattn (n := 8192) (T := 8192) (V c (Pipeline.arrRef spec5 0)) (V c (Pipeline.arrRef spec5 1)) (V c (Pipeline.arrRef spec5 2)) :=
  (dat5 V c).arrAt_eq_of_cover 3 _ (fun t _ => flushed5_eq V c t) cover5

end Cert.KernelIdeal.Hand

end
-- ==== Proof.KI.Stages.lean ====
/-
  The kernel's intermediate arrays as the specification's stage functions of the arguments, region by region: the three
  self-attention projections (one fused product, sliced), the causal head, its projection against the summed output matrix (the
  tiling collapsed), the cross-attention's key and value projections (one fused product, sliced) and its query projection.
-/
import proofs.«172065_j32710470926956_2_alg».proof.Proof.KI.Glue2
import proofs.«172065_j32710470926956_2_alg».proof.Proof.KI.Val0
import proofs.«172065_j32710470926956_2_alg».proof.Proof.KI.Val1
import proofs.«172065_j32710470926956_2_alg».proof.Proof.KI.Val2
import proofs.«172065_j32710470926956_2_alg».proof.Proof.KI.Val3
import proofs.«172065_j32710470926956_2_alg».proof.Proof.KI.Val4
import proofs.«172065_j32710470926956_2_alg».proof.Proof.Spec.BridgeProj
import proofs.«172065_j32710470926956_2_alg».proof.Proof.Spec.BridgeTile
import proofs.«172065_j32710470926956_2_alg».proof.Proof.Spec.BridgeFlash
import proofs.«172065_j32710470926956_2_alg».proof.Proof.Spec.Block
import proofs.«172065_j32710470926956_2_alg».proof.Proof.Spec.BridgeReal
import proofs.«172065_j32710470926956_2_alg».proof.Proof.Spec.BridgeAttend
import proofs.«172065_j32710470926956_2_alg».proof.Proof.KI.Val5

set_option maxRecDepth 16384

noncomputable section

open scoped BigOperators

namespace Cert.KernelIdeal.Hand

open Cert.KernelIdeal Cert.KernelIdeal.Gen Cert.Spec Cert.Lib.Real
open Idealize.ShloMosaic Idealize.ShloMosaic.TcCoe Idealize.ShloMosaic.ValueIdx Idealize.SL.Sem

/-- A product read at a column of the wide right matrix that is a column of a narrower one. -/
theorem mm_col {n k w w' : ℕ} (x : (⟨2, ![n, k]⟩ : Shape).Idx → EReal) (wcat : (⟨2, ![k, w]⟩ : Shape).Idx → EReal)
    (wj : (⟨2, ![k, w']⟩ : Shape).Idx → EReal) (c' : Fin w) (c : Fin w') (h : ∀ p : Fin k, wcat (ix2 p c') = wj (ix2 p c)) (r : Fin n) :
    mm x wcat (ix2 r c') = mm x wj (ix2 r c) := by
  rw [mm_ix2, mm_ix2]
  exact Finset.sum_congr rfl fun p _ => by rw [h p]

variable (m : (ℓ : Loc nD τ sig) → Buf (Elt Ideal) ℓ) (ρ : Dev nD → PrngReg)

/-- The launch contents of an argument, as an index function. -/
abbrev arg (c : Dev nD) (b : Ref sig .tc) : Buf (Elt Ideal) ((c : Thread nD τ).loc b) := m ((c : Thread nD τ).loc b)

/-! ## Region 0 and its slices: the three self-attention projections -/

theorem fused0 (c : Dev nD) :
    (W2 m ρ c (Proc.devRef .tc main_v15) : S8192x192.Idx → EReal)
      = mm (n := 8192) (k := 512) (m := 192) (arg m c main_arg1) (W1 m ρ c (Proc.devRef .tc main_v1)) := by
  have h := (W2_arr m ρ c 3).trans (arr0 (Hand.V1 m ρ) c)
  have ha : Hand.V1 m ρ c (Pipeline.arrRef spec0 0) = arg m c main_arg1 := keepH0 m ρ c main_arg1 (by decide)
  rw [projBias_of_bias_zero _ _ _ (g_v14 m ρ c), ha] at h
  exact h

theorem s_q (c : Dev nD) : (W3 m ρ c (Proc.devRef .tc main_v16) : S8192x64.Idx → EReal)
    = mm (n := 8192) (k := 512) (m := 64) (arg m c main_arg1) (arg m c main_arg2) := by
  funext i
  obtain ⟨r, cc, rfl⟩ : ∃ (r : Fin 8192) (cc : Fin 64), i = ix2 r cc := ⟨i 0, i 1, eq_ix2 i⟩
  rw [g_v16, fused0]
  exact mm_col _ _ (arg m c main_arg2) _ cc (fun p => g_v1_0 m ρ c p cc) r
theorem s_k (c : Dev nD) : (W3 m ρ c (Proc.devRef .tc main_v17) : S8192x64.Idx → EReal)
    = mm (n := 8192) (k := 512) (m := 64) (arg m c main_arg1) (arg m c main_arg3) := by
  funext i
  obtain ⟨r, cc, rfl⟩ : ∃ (r : Fin 8192) (cc : Fin 64), i = ix2 r cc := ⟨i 0, i 1, eq_ix2 i⟩
  rw [g_v17, fused0]
  exact mm_col _ _ (arg m c main_arg3) _ cc (fun p => g_v1_1 m ρ c p cc) r
theorem s_v (c : Dev nD) : (W3 m ρ c (Proc.devRef .tc main_v18) : S8192x64.Idx → EReal)
    = mm (n := 8192) (k := 512) (m := 64) (arg m c main_arg1) (arg m c main_arg4) := by
  funext i
  obtain ⟨r, cc, rfl⟩ : ∃ (r : Fin 8192) (cc : Fin 64), i = ix2 r cc := ⟨i 0, i 1, eq_ix2 i⟩
  rw [g_v18, fused0]
  exact mm_col _ _ (arg m c main_arg4) _ cc (fun p => g_v1_2 m ρ c p cc) r

/-! ## Region 1: the causal head -/

theorem s_headM_flash (c : Dev nD) : (W4 m ρ c (Proc.devRef .tc main_v19) : S8192x64.Idx → EReal)
    = flashHead (mm (n := 8192) (k := 512) (m := 64) (arg m c main_arg1) (arg m c main_arg2))
        (mm (n := 8192) (k := 512) (m := 64) (arg m c main_arg1) (arg m c main_arg3))
        (mm (n := 8192) (k := 512) (m := 64) (arg m c main_arg1) (arg m c main_arg4)) := by
  have h := (W4_arr m ρ c 3).trans (arr1 (Hand.V3 m ρ) c)
  have hq : (Q1 (Hand.V3 m ρ) c) = mm (n := 8192) (k := 512) (m := 64) (arg m c main_arg1) (arg m c main_arg2) := s_q m ρ c
  have hk : (K1 (Hand.V3 m ρ) c) = mm (n := 8192) (k := 512) (m := 64) (arg m c main_arg1) (arg m c main_arg3) := s_k m ρ c
  have hv : (V1v (Hand.V3 m ρ) c) = mm (n := 8192) (k := 512) (m := 64) (arg m c main_arg1) (arg m c main_arg4) := s_v m ρ c
  rw [hq, hk, hv] at h
  exact h

/-! ## Every argument entry a real number -/

/-- The hypothesis the laws below need: each of the fifteen arguments is real entry by entry. -/
structure RealArgs (c : Dev nD) : Prop where
  h0 : ∀ i, IsReal ((arg m c main_arg0 : S8192x512.Idx → EReal) i)
  h1 : ∀ i, IsReal ((arg m c main_arg1 : S8192x512.Idx → EReal) i)
  h2 : ∀ i, IsReal ((arg m c main_arg2 : S512x64.Idx → EReal) i)
  h3 : ∀ i, IsReal ((arg m c main_arg3 : S512x64.Idx → EReal) i)
  h4 : ∀ i, IsReal ((arg m c main_arg4 : S512x64.Idx → EReal) i)
  h5 : ∀ i, IsReal ((arg m c main_arg5 : S512x64.Idx → EReal) i)
  h6 : ∀ i, IsReal ((arg m c main_arg6 : S512x64.Idx → EReal) i)
  h7 : ∀ i, IsReal ((arg m c main_arg7 : S512x64.Idx → EReal) i)
  h8 : ∀ i, IsReal ((arg m c main_arg8 : S512x512.Idx → EReal) i)
  h9 : ∀ i, IsReal ((arg m c main_arg9 : S512.Idx → EReal) i)
  h10 : ∀ i, IsReal ((arg m c main_arg10 : S512.Idx → EReal) i)
  h11 : ∀ i, IsReal ((arg m c main_arg11 : S512x2048.Idx → EReal) i)
  h12 : ∀ i, IsReal ((arg m c main_arg12 : S2048.Idx → EReal) i)
  h13 : ∀ i, IsReal ((arg m c main_arg13 : S2048x512.Idx → EReal) i)
  h14 : ∀ i, IsReal ((arg m c main_arg14 : S512.Idx → EReal) i)

/-- The three self-attention projections, as the specification has them. -/
abbrev qM (c : Dev nD) := mm (n := 8192) (k := 512) (m := 64) (arg m c main_arg1) (arg m c main_arg2)
abbrev kM (c : Dev nD) := mm (n := 8192) (k := 512) (m := 64) (arg m c main_arg1) (arg m c main_arg3)
abbrev vM (c : Dev nD) := mm (n := 8192) (k := 512) (m := 64) (arg m c main_arg1) (arg m c main_arg4)

theorem s_headM (c : Dev nD) (hr : RealArgs m c) : (W4 m ρ c (Proc.devRef .tc main_v19) : S8192x64.Idx → EReal)
    = causalHead (qM m c) (kM m c) (vM m c) := by
  rw [s_headM_flash]
  exact flashHead_eq_causalHead _ _ _ (mm_isReal _ _ hr.h1 hr.h2) (mm_isReal _ _ hr.h1 hr.h3) (mm_isReal _ _ hr.h1 hr.h4)

theorem headM_isReal (c : Dev nD) (hr : RealArgs m c) (i) : IsReal (causalHead (qM m c) (kM m c) (vM m c) i) :=
  causalHead_isReal _ _ _ (mm_isReal _ _ hr.h1 hr.h2) (mm_isReal _ _ hr.h1 hr.h3) (mm_isReal _ _ hr.h1 hr.h4) i

/-! ## Region 2: the head against the summed output matrix is the tiled head against the output matrix -/

/-- The summed output matrix reaches region 2 (and region 6) unchanged. -/
theorem wsum_at5 (c : Dev nD) : W5 m ρ c (Proc.devRef .tc main_v7) = W1 m ρ c (Proc.devRef .tc main_v7) :=
  (keepH2 m ρ c main_v7 (by decide)).trans ((keepR1 m ρ c main_v7 (by decide)).trans ((keepH1 m ρ c main_v7 (by decide)).trans
    (keepR0 m ρ c main_v7 (by decide))))

theorem proj_wsum (c : Dev nD) (h : S8192x64.Idx → EReal) (hh : ∀ i, IsReal (h i)) (hr : RealArgs m c) :
    mm (n := 8192) (k := 64) (m := 512) h (W1 m ρ c (Proc.devRef .tc main_v7)) = tileProj h (arg m c main_arg8) := by
  rw [← sum_blocks_eq_tileProj h (arg m c main_arg8) hh hr.h8]
  funext i
  show (∑ p : Fin 64, h (ix2 (i 0 : Fin 8192) p) * (W1 m ρ c (Proc.devRef .tc main_v7) : S64x512.Idx → EReal) (ix2 p (i 1 : Fin 512))) = _
  exact Finset.sum_congr rfl fun p _ => congrArg (h (ix2 (i 0 : Fin 8192) p) * ·) (g_v7 m ρ c p (i 1 : Fin 512))

theorem s_mmh (c : Dev nD) (hr : RealArgs m c) : (W6 m ρ c (Proc.devRef .tc main_v21) : S8192x512.Idx → EReal)
    = maskedMh (arg m c main_arg1) (arg m c main_arg2) (arg m c main_arg3) (arg m c main_arg4) (arg m c main_arg8) := by
  have h := (W6_arr m ρ c 3).trans (arr2 (Hand.V5 m ρ) c)
  have hw : Hand.V5 m ρ c (Pipeline.arrRef spec2 1) = W1 m ρ c (Proc.devRef .tc main_v7) := wsum_at5 m ρ c
  have hx : Hand.V5 m ρ c (Pipeline.arrRef spec2 0) = causalHead (qM m c) (kM m c) (vM m c) :=
    (keepH2 m ρ c main_v19 (by decide)).trans (s_headM m ρ c hr)
  rw [projBias_of_bias_zero _ _ _ (g_v20 m ρ c), hw, hx] at h
  exact h.trans (proj_wsum m ρ c _ (headM_isReal m c hr) hr)

theorem mmh_isReal (c : Dev nD) (hr : RealArgs m c) (i) :
    IsReal (maskedMh (arg m c main_arg1) (arg m c main_arg2) (arg m c main_arg3) (arg m c main_arg4) (arg m c main_arg8) i) :=
  tileProj_isReal _ _ (headM_isReal m c hr) hr.h8 i

/-! ## Region 3 and its slices: the cross-attention's key and value projections of the encoder's output -/

theorem fused3 (c : Dev nD) :
    (W8 m ρ c (Proc.devRef .tc main_v23) : S8192x128.Idx → EReal)
      = mm (n := 8192) (k := 512) (m := 128) (arg m c main_arg0) (W1 m ρ c (Proc.devRef .tc main_v3)) := by
  have h := (W8_arr m ρ c 3).trans (arr3 (Hand.V7 m ρ) c)
  have ha : Hand.V7 m ρ c (Pipeline.arrRef spec3 0) = arg m c main_arg0 :=
    (keepH3 m ρ c main_arg0 (by decide)).trans ((keepR2 m ρ c main_arg0 (by decide)).trans ((keepH2 m ρ c main_arg0 (by decide)).trans
      ((keepR1 m ρ c main_arg0 (by decide)).trans ((keepH1 m ρ c main_arg0 (by decide)).trans ((keepR0 m ρ c main_arg0 (by decide)).trans
        (keepH0 m ρ c main_arg0 (by decide)))))))
  have hw : Hand.V7 m ρ c (Pipeline.arrRef spec3 1) = W1 m ρ c (Proc.devRef .tc main_v3) :=
    (keepH3 m ρ c main_v3 (by decide)).trans ((keepR2 m ρ c main_v3 (by decide)).trans ((keepH2 m ρ c main_v3 (by decide)).trans
      ((keepR1 m ρ c main_v3 (by decide)).trans ((keepH1 m ρ c main_v3 (by decide)).trans (keepR0 m ρ c main_v3 (by decide))))))
  rw [projBias_of_bias_zero _ _ _ (g_v22 m ρ c), ha, hw] at h
  exact h

theorem s_kc (c : Dev nD) : (W9 m ρ c (Proc.devRef .tc main_v24) : S8192x64.Idx → EReal)
    = mm (n := 8192) (k := 512) (m := 64) (arg m c main_arg0) (arg m c main_arg6) := by
  funext i
  obtain ⟨r, cc, rfl⟩ : ∃ (r : Fin 8192) (cc : Fin 64), i = ix2 r cc := ⟨i 0, i 1, eq_ix2 i⟩
  rw [g_v24, fused3]
  exact mm_col _ _ (arg m c main_arg6) _ cc (fun p => g_v3_0 m ρ c p cc) r
theorem s_vc (c : Dev nD) : (W9 m ρ c (Proc.devRef .tc main_v25) : S8192x64.Idx → EReal)
    = mm (n := 8192) (k := 512) (m := 64) (arg m c main_arg0) (arg m c main_arg7) := by
  funext i
  obtain ⟨r, cc, rfl⟩ : ∃ (r : Fin 8192) (cc : Fin 64), i = ix2 r cc := ⟨i 0, i 1, eq_ix2 i⟩
  rw [g_v25, fused3]
  exact mm_col _ _ (arg m c main_arg7) _ cc (fun p => g_v3_1 m ρ c p cc) r

/-! ## Region 4: the cross-attention's query projection of the masked output -/

theorem s_qc (c : Dev nD) (hr : RealArgs m c) : (W10 m ρ c (Proc.devRef .tc main_v27) : S8192x64.Idx → EReal)
    = mm (n := 8192) (k := 512) (m := 64)
        (maskedMh (arg m c main_arg1) (arg m c main_arg2) (arg m c main_arg3) (arg m c main_arg4) (arg m c main_arg8)) (arg m c main_arg5) := by
  have h := (W10_arr m ρ c 3).trans (arr4 (Hand.V9 m ρ) c)
  have hw : Hand.V9 m ρ c (Pipeline.arrRef spec4 1) = arg m c main_arg5 :=
    (keepH4 m ρ c main_v4 (by decide)).trans ((keepR3 m ρ c main_v4 (by decide)).trans ((keepH3 m ρ c main_v4 (by decide)).trans
      ((keepR2 m ρ c main_v4 (by decide)).trans ((keepH2 m ρ c main_v4 (by decide)).trans ((keepR1 m ρ c main_v4 (by decide)).trans
        ((keepH1 m ρ c main_v4 (by decide)).trans ((keepR0 m ρ c main_v4 (by decide)).trans (g_v4 m ρ c))))))))
  have hx : Hand.V9 m ρ c (Pipeline.arrRef spec4 0)
      = maskedMh (arg m c main_arg1) (arg m c main_arg2) (arg m c main_arg3) (arg m c main_arg4) (arg m c main_arg8) :=
    (keepH4 m ρ c main_v21 (by decide)).trans ((keepR3 m ρ c main_v21 (by decide)).trans ((keepH3 m ρ c main_v21 (by decide)).trans
      (s_mmh m ρ c hr)))
  rw [projBias_of_bias_zero _ _ _ (g_v26 m ρ c), hw, hx] at h
  exact h

end Cert.KernelIdeal.Hand

end
-- ==== Proof.Spec.LayerNorm.lean ====
/-
  Row-wise normalisation of an n × 512 array, and the two arrays the last two stages normalise.

  For a row r of y, with the literal words kept as they are (512 as an f32 word, the small constant added under the
  root):

      lnMean y r = (∑ c < 512, y(r, c)) / 512
      lnVar y r  = (∑ c < 512, (y(r, c) − lnMean y r)²) / 512
      layerNorm y g b (r, c) = (y(r, c) − lnMean y r) · rsqrt(lnVar y r + ε) · g(0, c) + b(0, c),

  over the extended reals, with their quotient and reciprocal square root. The arrays normalised:

      projRes x w res (r, c) = (∑ j < k, x(r, j) · w(j, c)) + res(r, c)                       (a product plus a residual)
      ffnRes x w1 b1 w2 b2 (r, c) = ((∑ j < 2048, h(r, j) · w2(j, c)) + b2(0, c)) + x(r, c),
          h(r, j) = leaky((∑ k < 512, x(r, k) · w1(k, j)) + b1(0, j)),   leaky z = z where z ≥ 0, else the literal slope · z.

  Each of these reads its first operand only through row r, so a block of rows gives the array's rows.
-/
import Idealize.ShloMosaic.PureOps.Ideal
import Idealize.ShloMosaic.Lib.ValueIdx

noncomputable section

open scoped BigOperators

namespace Cert.Spec

open Idealize.ShloMosaic Idealize.ShloMosaic.ValueIdx

variable {n n' : ℕ}

/-! ## Normalisation -/

/-- The mean of row r. -/
def kMean (y : (⟨2, ![n, 512]⟩ : Shape).Idx → EReal) (r : Fin n) : EReal :=
  Ideal.div (∑ c : Fin 512, y (ix2 r c)) (Ideal.ofBits .f32 0x44000000#32)

/-- The variance of row r. -/
def kVar (y : (⟨2, ![n, 512]⟩ : Shape).Idx → EReal) (r : Fin n) : EReal :=
  Ideal.div (∑ c : Fin 512, (y (ix2 r c) - kMean y r) * (y (ix2 r c) - kMean y r)) (Ideal.ofBits .f32 0x44000000#32)

/-- The reciprocal standard deviation of row r. -/
def kRstd (y : (⟨2, ![n, 512]⟩ : Shape).Idx → EReal) (r : Fin n) : EReal :=
  Ideal.rsqrt (kVar y r + Ideal.ofBits .f32 0x3727C5AC#32)

/-- Each row centred, scaled to unit variance, then scaled by g and shifted by b column by column. -/
def kLayerNorm (y : (⟨2, ![n, 512]⟩ : Shape).Idx → EReal) (g b : (⟨2, ![1, 512]⟩ : Shape).Idx → EReal) :
    (⟨2, ![n, 512]⟩ : Shape).Idx → EReal :=
  fun i => (y (ix2 (i 0 : Fin n) (i 1 : Fin 512)) - kMean y (i 0 : Fin n)) * kRstd y (i 0 : Fin n) * g (ix2 (0 : Fin 1) (i 1 : Fin 512))
    + b (ix2 (0 : Fin 1) (i 1 : Fin 512))

theorem kLayerNorm_ix2 (y : (⟨2, ![n, 512]⟩ : Shape).Idx → EReal) (g b : (⟨2, ![1, 512]⟩ : Shape).Idx → EReal) (r : Fin n) (c : Fin 512) :
    kLayerNorm y g b (ix2 r c) = (y (ix2 r c) - kMean y r) * kRstd y r * g (ix2 (0 : Fin 1) c) + b (ix2 (0 : Fin 1) c) := rfl

theorem kMean_congr {y : (⟨2, ![n, 512]⟩ : Shape).Idx → EReal} {y' : (⟨2, ![n', 512]⟩ : Shape).Idx → EReal} {r : Fin n} {r' : Fin n'}
    (h : ∀ c : Fin 512, y (ix2 r c) = y' (ix2 r' c)) : kMean y r = kMean y' r' := by
  unfold kMean
  exact congrArg (Ideal.div · (Ideal.ofBits .f32 0x44000000#32)) (Finset.sum_congr rfl fun c _ => h c)

theorem kVar_congr {y : (⟨2, ![n, 512]⟩ : Shape).Idx → EReal} {y' : (⟨2, ![n', 512]⟩ : Shape).Idx → EReal} {r : Fin n} {r' : Fin n'}
    (h : ∀ c : Fin 512, y (ix2 r c) = y' (ix2 r' c)) : kVar y r = kVar y' r' := by
  unfold kVar
  exact congrArg (Ideal.div · (Ideal.ofBits .f32 0x44000000#32)) (Finset.sum_congr rfl fun c _ => by rw [h c, kMean_congr h])

/-- A block of rows, normalised, is the array's rows normalised. -/
theorem kLayerNorm_congr {y : (⟨2, ![n, 512]⟩ : Shape).Idx → EReal} {y' : (⟨2, ![n', 512]⟩ : Shape).Idx → EReal}
    {g g' b b' : (⟨2, ![1, 512]⟩ : Shape).Idx → EReal} (hg : g = g') (hb : b = b') {r : Fin n} {r' : Fin n'}
    (h : ∀ c : Fin 512, y (ix2 r c) = y' (ix2 r' c)) (c : Fin 512) :
    kLayerNorm y g b (ix2 r c) = kLayerNorm y' g' b' (ix2 r' c) := by
  subst hg hb
  rw [kLayerNorm_ix2, kLayerNorm_ix2, h c, kMean_congr h]
  unfold kRstd
  rw [kVar_congr h]

/-! ## A product plus a residual -/

/-- The product of an n × k array with a k × 512 array, plus an n × 512 residual. -/
def kProjRes {k : ℕ} (x : (⟨2, ![n, k]⟩ : Shape).Idx → EReal) (w : (⟨2, ![k, 512]⟩ : Shape).Idx → EReal)
    (res : (⟨2, ![n, 512]⟩ : Shape).Idx → EReal) : (⟨2, ![n, 512]⟩ : Shape).Idx → EReal :=
  fun i => (∑ j : Fin k, x (ix2 (i 0 : Fin n) j) * w (ix2 j (i 1 : Fin 512))) + res i

theorem kProjRes_ix2 {k : ℕ} (x : (⟨2, ![n, k]⟩ : Shape).Idx → EReal) (w : (⟨2, ![k, 512]⟩ : Shape).Idx → EReal)
    (res : (⟨2, ![n, 512]⟩ : Shape).Idx → EReal) (r : Fin n) (c : Fin 512) :
    kProjRes x w res (ix2 r c) = (∑ j : Fin k, x (ix2 r j) * w (ix2 j c)) + res (ix2 r c) := rfl

/-! ## The feed-forward block plus its input -/

/-- The activation: the identity on z ≥ 0, the literal slope times z below. -/
def kLeaky (z : EReal) : EReal :=
  Scalar.select (Ideal.cmp .oge z (Ideal.ofBits .f32 0x00000000#32)) z (Ideal.ofBits .f32 0x3C23D70A#32 * z)

/-- The hidden layer at row r, unit j. -/
def kHidden (x : (⟨2, ![n, 512]⟩ : Shape).Idx → EReal) (w1 : (⟨2, ![512, 2048]⟩ : Shape).Idx → EReal)
    (b1 : (⟨2, ![1, 2048]⟩ : Shape).Idx → EReal) (r : Fin n) (j : Fin 2048) : EReal :=
  kLeaky ((∑ k : Fin 512, x (ix2 r k) * w1 (ix2 k j)) + b1 (ix2 (0 : Fin 1) j))

/-- The second layer of the hidden units, plus its bias, plus the block's input. -/
def kFfnRes (x : (⟨2, ![n, 512]⟩ : Shape).Idx → EReal) (w1 : (⟨2, ![512, 2048]⟩ : Shape).Idx → EReal)
    (b1 : (⟨2, ![1, 2048]⟩ : Shape).Idx → EReal) (w2 : (⟨2, ![2048, 512]⟩ : Shape).Idx → EReal)
    (b2 : (⟨2, ![1, 512]⟩ : Shape).Idx → EReal) : (⟨2, ![n, 512]⟩ : Shape).Idx → EReal :=
  fun i => ((∑ j : Fin 2048, kHidden x w1 b1 (i 0 : Fin n) j * w2 (ix2 j (i 1 : Fin 512))) + b2 (ix2 (0 : Fin 1) (i 1 : Fin 512))) + x i

theorem kFfnRes_ix2 (x : (⟨2, ![n, 512]⟩ : Shape).Idx → EReal) (w1 : (⟨2, ![512, 2048]⟩ : Shape).Idx → EReal)
    (b1 : (⟨2, ![1, 2048]⟩ : Shape).Idx → EReal) (w2 : (⟨2, ![2048, 512]⟩ : Shape).Idx → EReal)
    (b2 : (⟨2, ![1, 512]⟩ : Shape).Idx → EReal) (r : Fin n) (c : Fin 512) :
    kFfnRes x w1 b1 w2 b2 (ix2 r c)
      = ((∑ j : Fin 2048, kHidden x w1 b1 r j * w2 (ix2 j c)) + b2 (ix2 (0 : Fin 1) c)) + x (ix2 r c) := rfl

theorem kHidden_congr {x : (⟨2, ![n, 512]⟩ : Shape).Idx → EReal} {x' : (⟨2, ![n', 512]⟩ : Shape).Idx → EReal}
    (w1 : (⟨2, ![512, 2048]⟩ : Shape).Idx → EReal) (b1 : (⟨2, ![1, 2048]⟩ : Shape).Idx → EReal) {r : Fin n} {r' : Fin n'}
    (h : ∀ k : Fin 512, x (ix2 r k) = x' (ix2 r' k)) (j : Fin 2048) : kHidden x w1 b1 r j = kHidden x' w1 b1 r' j := by
  unfold kHidden
  exact congrArg (fun s => kLeaky (s + b1 (ix2 (0 : Fin 1) j))) (Finset.sum_congr rfl fun k _ => by rw [h k])

/-- A block of rows through the feed-forward block is the array's rows through it. -/
theorem kFfnRes_congr {x : (⟨2, ![n, 512]⟩ : Shape).Idx → EReal} {x' : (⟨2, ![n', 512]⟩ : Shape).Idx → EReal}
    (w1 : (⟨2, ![512, 2048]⟩ : Shape).Idx → EReal) (b1 : (⟨2, ![1, 2048]⟩ : Shape).Idx → EReal)
    (w2 : (⟨2, ![2048, 512]⟩ : Shape).Idx → EReal) (b2 : (⟨2, ![1, 512]⟩ : Shape).Idx → EReal) {r : Fin n} {r' : Fin n'}
    (h : ∀ k : Fin 512, x (ix2 r k) = x' (ix2 r' k)) (c : Fin 512) :
    kFfnRes x w1 b1 w2 b2 (ix2 r c) = kFfnRes x' w1 b1 w2 b2 (ix2 r' c) := by
  rw [kFfnRes_ix2, kFfnRes_ix2, h c]
  exact congrArg (fun s => s + b2 (ix2 (0 : Fin 1) c) + x' (ix2 r' c))
    (Finset.sum_congr rfl fun j _ => by rw [kHidden_congr w1 b1 h j])

end Cert.Spec

end
-- ==== Proof.KI.ValLN.lean ====
/-
  The normalisation the last two bodies end with, read at one entry of a 1024 × 512 block.

  Both bodies hold a 1024 × 512 matrix Y, take each row's mean (the row's sum over the word 512), centre the rows,
  take each row's mean square of the centred entries, add the small constant, take the reciprocal square root, and
  store centred · reciprocal root · g + b with g and b 1 × 512 rows repeated down the rows. The pieces are named here
  as the bodies spell them, and each is read at an index as the specification's lnMean, lnRstd and layerNorm.
-/
import proofs.«172065_j32710470926956_2_alg».proof.Proof.KI.Val1Pay
import proofs.«172065_j32710470926956_2_alg».proof.Proof.Spec.LayerNorm

noncomputable section

open scoped BigOperators

namespace Cert.KernelIdeal.Hand

open Cert.KernelIdeal Cert.KernelIdeal.Gen Cert.Spec
open Idealize.ShloMosaic Idealize.ShloMosaic.ValueIdx

/-! ## Layout and row sums at the block's shape -/

/-- A column repeated along 512 columns. -/
theorem bcLN_apply (x : FVec Ideal S1024x1 .f32) (r : Fin 1024) (c : Fin 512) :
    broadcastTo S1024x512 x broadcasts_S1024x1_S1024x512 (ix2 r c) = x (ix2 r (0 : Fin 1)) :=
  broadcastTo_apply _ _ _ (ix2 r (0 : Fin 1)) (fun a => by
    match a with
    | ⟨0, _⟩ => rfl
    | ⟨1, _⟩ => rfl)

/-- A 1 × 512 row repeated down 1024 rows. -/
theorem rowLN_apply (x : FVec Ideal S1x512 .f32) (r : Fin 1024) (c : Fin 512) :
    broadcastTo S1024x512 x broadcasts_S1x512_S1024x512 (ix2 r c) = x (ix2 (0 : Fin 1) c) :=
  broadcastTo_apply _ _ _ (ix2 (0 : Fin 1) c) (fun a => by
    match a with
    | ⟨0, _⟩ => rfl
    | ⟨1, _⟩ => rfl)

/-- The index over row r of the reduced vector with column c put back is (r, c). -/
theorem liftLN (r : Fin 1024) (c : Fin 512) : reduces_S1024x512_S1024.lift (ix1 r) c = ix2 r c :=
  funext fun a => Fin.ext (by
    match a with
    | ⟨0, _⟩ => rfl
    | ⟨1, _⟩ => rfl)

/-- A row's sum. -/
theorem sumLN_apply (E : FVec Ideal S1024x512 .f32) (r : Fin 1024) :
    multiReduction .add [1] S1024 E 0x00000000#32 reduces_S1024x512_S1024 (.inl rfl) rfl (ix1 r)
      = ∑ c : Fin 512, E (ix2 r c) := by
  refine (Ideal.multiReduction_add_single E 0x00000000#32 reduces_S1024x512_S1024 (.inl rfl) rfl (ix1 r)).trans ?_
  exact Finset.sum_congr rfl fun c _ => congrArg E (liftLN r c)

/-- The reciprocal square root, entry by entry. -/
theorem rsqrt_apply {s : Shape} {φ : FTy} (x : FVec Ideal s φ) (i : s.Idx) : rsqrt x i = Ideal.rsqrt (x i) := rfl

/-! ## The pieces, as the bodies spell them -/

/-- Each row's mean, as a column. -/
def lnMeanV (Y : FVec Ideal S1024x512 .f32) : FVec Ideal S1024x1 .f32 :=
  divf (shapeCast S1024x1 (multiReduction .add [1] S1024 Y 0x00000000#32 reduces_S1024x512_S1024 (.inl rfl) rfl) shapeCasts_S1024_S1024x1)
    (broadcast S1024x1 (Scalar.ofBits .f32 0x44000000#32))

/-- The rows centred. -/
def lnCentV (Y : FVec Ideal S1024x512 .f32) : FVec Ideal S1024x512 .f32 :=
  subf Y (broadcastTo S1024x512 (lnMeanV Y) broadcasts_S1024x1_S1024x512)

/-- Each row's reciprocal standard deviation, as a column. -/
def lnRstdV (Y : FVec Ideal S1024x512 .f32) : FVec Ideal S1024x1 .f32 :=
  rsqrt (addf (divf (shapeCast S1024x1 (multiReduction .add [1] S1024 (mulf (lnCentV Y) (lnCentV Y)) 0x00000000#32
      reduces_S1024x512_S1024 (.inl rfl) rfl) shapeCasts_S1024_S1024x1) (broadcast S1024x1 (Scalar.ofBits .f32 0x44000000#32)))
    (broadcast S1024x1 (Scalar.ofBits .f32 0x3727C5AC#32)))

/-- Centred rows times the column of reciprocal roots, times g, plus b. -/
def lnOutV (cent : FVec Ideal S1024x512 .f32) (rstd : FVec Ideal S1024x1 .f32) (g b : FVec Ideal S1x512 .f32) : FVec Ideal S1024x512 .f32 :=
  addf (mulf (mulf cent (broadcastTo S1024x512 rstd broadcasts_S1024x1_S1024x512)) (broadcastTo S1024x512 g broadcasts_S1x512_S1024x512))
    (broadcastTo S1024x512 b broadcasts_S1x512_S1024x512)

theorem lnMeanV_apply (Y : FVec Ideal S1024x512 .f32) (r : Fin 1024) :
    lnMeanV Y (ix2 r (0 : Fin 1)) = kMean (n := 1024) Y r := by
  unfold lnMeanV
  rw [divf_apply, col1_apply, sumLN_apply]
  rfl

theorem lnCentV_apply (Y : FVec Ideal S1024x512 .f32) (r : Fin 1024) (c : Fin 512) :
    lnCentV Y (ix2 r c) = Y (ix2 r c) - kMean (n := 1024) Y r := by
  unfold lnCentV
  rw [subf_apply, bcLN_apply, lnMeanV_apply]

theorem lnRstdV_apply (Y : FVec Ideal S1024x512 .f32) (r : Fin 1024) :
    lnRstdV Y (ix2 r (0 : Fin 1)) = kRstd (n := 1024) Y r := by
  unfold lnRstdV
  rw [rsqrt_apply, addf_apply, divf_apply, col1_apply, sumLN_apply]
  unfold kRstd kVar
  refine congrArg Ideal.rsqrt (congrArg₂ (· + ·) (congrArg₂ Ideal.div (Finset.sum_congr rfl fun c _ => ?_) rfl) rfl)
  rw [mulf_apply, lnCentV_apply]

/-- The body's last value at (r, c) is the normalised row at column c. -/
theorem lnOutV_apply (Y : FVec Ideal S1024x512 .f32) (g b : FVec Ideal S1x512 .f32) (r : Fin 1024) (c : Fin 512) :
    lnOutV (lnCentV Y) (lnRstdV Y) g b (ix2 r c) = kLayerNorm (n := 1024) Y g b (ix2 r c) := by
  unfold lnOutV
  rw [addf_apply, mulf_apply, mulf_apply, rowLN_apply, rowLN_apply, bcLN_apply, lnCentV_apply, lnRstdV_apply, kLayerNorm_ix2]

end Cert.KernelIdeal.Hand

end
-- ==== Proof.KI.Val6Pay.lean ====
/-
  Region 6's arithmetic at one entry of the output block: a product plus a residual, normalised row by row.

  The body holds the point's 1024 × 64 rows x, the 64 × 512 weight w, the point's 1024 × 512 rows res of the residual
  and the 1 × 512 rows g and b. It forms Y = x · w + res (the product accumulated into a zero matrix, the float format
  changes the identity) and stores the row-wise normalisation of Y scaled by g and shifted by b. So entry (r, c) is
  layerNorm Y g b (r, c) with Y(r, c) = (∑ j < 64, x(r, j) · w(j, c)) + res(r, c).
-/
import proofs.«172065_j32710470926956_2_alg».proof.Proof.Gen.KernelIdeal.Skeleton
import proofs.«172065_j32710470926956_2_alg».proof.Proof.KI.ValLN

noncomputable section

open scoped BigOperators

namespace Cert.KernelIdeal.Hand

open Cert.KernelIdeal Cert.KernelIdeal.Gen Cert.Spec
open Idealize.ShloMosaic Idealize.ShloMosaic.ValueIdx

/-- The product's dimension numbers: [1024, 64] × [64, 512] → [1024, 512], contracting axis 1 against axis 0. -/
abbrev D6 := dot_S1024x64_S64x512_S1024x512_1_0_0_1_n_n

theorem D6_lhs_0 (i : S1024x512.Idx) (q : D6.contr.Idx) : (D6.lhsIdx i q 0).val = (i 0).val := by
  unfold DotDims.lhsIdx
  rw [dif_neg (show ¬(0 : Fin S1024x64.rank) ∈ D6.lhsBatch by decide),
    dif_pos (show (0 : Fin S1024x64.rank) ∈ D6.lhsNonContracting by decide)]
  rfl

theorem D6_lhs_1 (i : S1024x512.Idx) (q : D6.contr.Idx) : (D6.lhsIdx i q 1).val = (q ⟨0, by decide⟩).val :=
  D6.lhsIdx_val_of_single rfl i q

theorem D6_rhs_0 (i : S1024x512.Idx) (q : D6.contr.Idx) : (D6.rhsIdx i q 0).val = (q ⟨0, by decide⟩).val :=
  D6.rhsIdx_val_of_single rfl i q

theorem D6_rhs_1 (i : S1024x512.Idx) (q : D6.contr.Idx) : (D6.rhsIdx i q 1).val = (i 1).val := by
  unfold DotDims.rhsIdx
  rw [dif_neg (show ¬(1 : Fin S64x512.rank) ∈ D6.rhsBatch by decide),
    dif_pos (show (1 : Fin S64x512.rank) ∈ D6.rhsNonContracting by decide)]
  rfl

/-- The product into a zero matrix at entry (r, c): row r of the left operand against column c of the right. -/
theorem D6_apply (x : FVec Ideal S1024x64 .bf16) (w : FVec Ideal S64x512 .bf16) (r : Fin 1024) (c : Fin 512) :
    matmul D6 none x w (constant S1024x512 .f32 0x00000000#32) (ix2 r c) = ∑ k : Fin 64, x (ix2 r k) * w (ix2 k c) := by
  simp only [matmul]
  rw [Ideal.matmul_constant_zero_apply, ← Equiv.sum_comp (contrEquiv1 D6 64 rfl rfl).symm]
  refine Finset.sum_congr rfl fun k _ => ?_
  have hk := contrEquiv1_symm_val D6 64 rfl rfl k
  have el : D6.lhsIdx (ix2 r c) ((contrEquiv1 D6 64 rfl rfl).symm k) = ix2 r k := funext fun a => Fin.ext (by
    match a with
    | ⟨0, _⟩ => exact D6_lhs_0 _ _
    | ⟨1, _⟩ => exact (D6_lhs_1 _ _).trans hk)
  have er : D6.rhsIdx (ix2 r c) ((contrEquiv1 D6 64 rfl rfl).symm k) = ix2 k c := funext fun a => Fin.ext (by
    match a with
    | ⟨0, _⟩ => exact (D6_rhs_0 _ _).trans hk
    | ⟨1, _⟩ => exact D6_rhs_1 _ _)
  rw [el, er]

/-- The matrix the body normalises: the product plus the residual. -/
def y6 (x : FVec Ideal S1024x64 .f32) (w : FVec Ideal S64x512 .bf16) (res : FVec Ideal S1024x512 .f32) : FVec Ideal S1024x512 .f32 :=
  addf (matmul D6 none (truncf .bf16 x bitsLt_bf16_f32) w (constant S1024x512 .f32 0x00000000#32)) res

theorem y6_apply (x : FVec Ideal S1024x64 .f32) (w : FVec Ideal S64x512 .bf16) (res : FVec Ideal S1024x512 .f32)
    (r : Fin 1024) (c : Fin 512) :
    y6 x w res (ix2 r c) = (∑ j : Fin 64, x (ix2 r j) * w (ix2 j c)) + res (ix2 r c) := by
  unfold y6
  rw [addf_apply, D6_apply]
  rfl

/-- The body's stored value is the normalisation's pieces over that matrix. -/
theorem pay6_eq (x : FVec Ideal S1024x64 .f32) (w : FVec Ideal S64x512 .bf16) (res : FVec Ideal S1024x512 .f32)
    (g b : FVec Ideal S1x512 .f32) :
    k6_pay1 (F := Ideal) x w res g b = lnOutV (lnCentV (y6 x w res)) (lnRstdV (y6 x w res)) g b := by
  unfold k6_pay1 lnOutV lnRstdV lnCentV lnMeanV y6
  simp only [shapeCast_self]

/-- Entry (r, c) of what the body stores. -/
theorem pay6_apply (x : FVec Ideal S1024x64 .f32) (w : FVec Ideal S64x512 .bf16) (res : FVec Ideal S1024x512 .f32)
    (g b : FVec Ideal S1x512 .f32) (r : Fin 1024) (c : Fin 512) :
    k6_pay1 (F := Ideal) x w res g b (ix2 r c) = kLayerNorm (n := 1024) (y6 x w res) g b (ix2 r c) := by
  rw [pay6_eq, lnOutV_apply]

end Cert.KernelIdeal.Hand

end
-- ==== Proof.KI.Val6.lean ====
/-
  Region 6's output array after the run, as one function of its operand arrays.

  The grid has 8 points. Point t reads rows 1024·t … 1024·t + 1023 of the 8192 × 64 array x and of the 8192 × 512
  residual, the whole 64 × 512 weight and the whole 1 × 512 rows g and b, and writes rows 1024·t … of the 8192 × 512
  output: the row-wise normalisation of x · w + res, scaled by g and shifted by b. A row's normalisation reads the matrix
  only through that row, so the block is exactly the rows 1024·t … of layerNorm (projRes x w res) g b. Row r of the
  output is written by point r / 1024, so the 8 blocks cover the array.
-/
import proofs.«172065_j32710470926956_2_alg».proof.Proof.KI.R6
import proofs.«172065_j32710470926956_2_alg».proof.Proof.KI.Val6Pay
import proofs.«172065_j32710470926956_2_alg».proof.Proof.Spec.LayerNorm
import Idealize.ShloMosaic.Lib.Pipeline.Value

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-buffer access. -/
theorem hz6 : (![0, 0] : Fin 2 → Nat) = fun _ => 0 := funext fun a => by fin_cases a <;> rfl

/-- The six index maps at every grid point: the rows', the residual's and the output's block index is (t, 0), the
    weight's and the two rows' is (0, 0). -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0 :=
  (by decide +kernel : ∀ t : Fin grid6.N, _)

/-! ## Each input block as entries of its array

An entry of a block sits in the array, on each axis, at block index × block size + its coordinate inside the block. -/

section Blocks
variable {F : FTy → Type} [FloatOps F] [Named F]
variable (V : (c : Dev nD) → (b : Ref sig .tc) → Buf (Elt F) ((c : Thread nD τ).loc b))

/-- The rows' block at point t: entry (p, j) is x(1024·t + p, j). -/
theorem blk6_0_apply (c : Dev nD) (t : Fin cfg6.N) (y : S1024x64.Idx) (k : S8192x64.Idx)
    (hk0 : (k 0).val = 1024 * t.val + (y 0).val) (hk1 : (k 1).val = (y 1).val) :
    (iblk6 V c 0 t : FVec F S1024x64 .f32) y = (V c (Pipeline.arrRef spec6 0) : S8192x64.Idx → F .f32) k := by
  obtain ⟨e0, e1, -⟩ := idx_facts6 t
  unfold iblk6
  rw [View.read_apply]
  refine congrArg (V c (Pipeline.arrRef spec6 0)) (funext fun a => Fin.ext ?_)
  match a with
  | ⟨0, _⟩ => show win6_0.index t (0 : Fin 2) * 1024 + 1 * (y 0).val = (k 0).val; rw [e0, hk0]; omega
  | ⟨1, _⟩ => show win6_0.index t (1 : Fin 2) * 64 + 1 * (y 1).val = (k 1).val; rw [e1, hk1]; omega

/-- The weight's block at every point is the whole weight. -/
theorem blk6_1_apply (c : Dev nD) (t : Fin cfg6.N) (y : S64x512.Idx) (k : S64x512.Idx)
    (hk0 : (k 0).val = (y 0).val) (hk1 : (k 1).val = (y 1).val) :
    (iblk6 V c 1 t : FVec F S64x512 .bf16) y = (V c (Pipeline.arrRef spec6 1) : S64x512.Idx → F .bf16) k := by
  obtain ⟨-, -, e0, e1, -⟩ := idx_facts6 t
  unfold iblk6
  rw [View.read_apply]
  refine congrArg (V c (Pipeline.arrRef spec6 1)) (funext fun a => Fin.ext ?_)
  match a with
  | ⟨0, _⟩ => show win6_1.index t (0 : Fin 2) * 64 + 1 * (y 0).val = (k 0).val; rw [e0, hk0]; omega
  | ⟨1, _⟩ => show win6_1.index t (1 : Fin 2) * 512 + 1 * (y 1).val = (k 1).val; rw [e1, hk1]; omega

/-- The residual's block at point t: entry (p, c) is res(1024·t + p, c). -/
theorem blk6_2_apply (c : Dev nD) (t : Fin cfg6.N) (y : S1024x512.Idx) (k : S8192x512.Idx)
    (hk0 : (k 0).val = 1024 * t.val + (y 0).val) (hk1 : (k 1).val = (y 1).val) :
    (iblk6 V c 2 t : FVec F S1024x512 .f32) y = (V c (Pipeline.arrRef spec6 2) : S8192x512.Idx → F .f32) k := by
  obtain ⟨-, -, -, -, e0, e1, -⟩ := idx_facts6 t
  unfold iblk6
  rw [View.read_apply]
  refine congrArg (V c (Pipeline.arrRef spec6 2)) (funext fun a => Fin.ext ?_)
  match a with
  | ⟨0, _⟩ => show win6_2.index t (0 : Fin 2) * 1024 + 1 * (y 0).val = (k 0).val; rw [e0, hk0]; omega
  | ⟨1, _⟩ => show win6_2.index t (1 : Fin 2) * 512 + 1 * (y 1).val = (k 1).val; rw [e1, hk1]; omega

/-- The scale's block at every point is the whole row. -/
theorem blk6_3_apply (c : Dev nD) (t : Fin cfg6.N) (y : S1x512.Idx) (k : S1x512.Idx)
    (hk0 : (k 0).val = (y 0).val) (hk1 : (k 1).val = (y 1).val) :
    (iblk6 V c 3 t : FVec F S1x512 .f32) y = (V c (Pipeline.arrRef spec6 3) : S1x512.Idx → F .f32) k := by
  obtain ⟨-, -, -, -, -, -, e0, e1, -⟩ := idx_facts6 t
  unfold iblk6
  rw [View.read_apply]
  refine congrArg (V c (Pipeline.arrRef spec6 3)) (funext fun a => Fin.ext ?_)
  match a with
  | ⟨0, _⟩ => show win6_3.index t (0 : Fin 2) * 1 + 1 * (y 0).val = (k 0).val; rw [e0, hk0]; omega
  | ⟨1, _⟩ => show win6_3.index t (1 : Fin 2) * 512 + 1 * (y 1).val = (k 1).val; rw [e1, hk1]; omega

/-- The shift's block at every point is the whole row. -/
theorem blk6_4_apply (c : Dev nD) (t : Fin cfg6.N) (y : S1x512.Idx) (k : S1x512.Idx)
    (hk0 : (k 0).val = (y 0).val) (hk1 : (k 1).val = (y 1).val) :
    (iblk6 V c 4 t : FVec F S1x512 .f32) y = (V c (Pipeline.arrRef spec6 4) : S1x512.Idx → F .f32) k := by
  obtain ⟨-, -, -, -, -, -, -, -, e0, e1, -⟩ := idx_facts6 t
  unfold iblk6
  rw [View.read_apply]
  refine congrArg (V c (Pipeline.arrRef spec6 4)) (funext fun a => Fin.ext ?_)
  match a with
  | ⟨0, _⟩ => show win6_4.index t (0 : Fin 2) * 1 + 1 * (y 0).val = (k 0).val; rw [e0, hk0]; omega
  | ⟨1, _⟩ => show win6_4.index t (1 : Fin 2) * 512 + 1 * (y 1).val = (k 1).val; rw [e1, hk1]; omega

end Blocks

/-! ## The output, over the extended reals -/

variable (V : (c : Dev nD) → (b : Ref sig .tc) → Buf (Elt Ideal) ((c : Thread nD τ).loc b))

/-- What point t writes back is rows 1024·t … 1024·t + 1023 of the normalised product-plus-residual of the operand arrays. -/
theorem flushed6_eq (c : Dev nD) (t : Fin cfg6.N) :
    (dat6 (F := Ideal) V c).flushed 5 t
      = ((cfg6.win 5).blk t).view.read (Elt Ideal)
          (kLayerNorm (n := 8192) (kProjRes (n := 8192) (k := 64) (V c (Pipeline.arrRef spec6 0)) (V c (Pipeline.arrRef spec6 1))
              (V c (Pipeline.arrRef spec6 2))) (V c (Pipeline.arrRef spec6 3)) (V c (Pipeline.arrRef spec6 4))) := by
  show (cfg6.win 5).cut (grid6.coords t) ((dat6 V c).after 5 t) = _
  rw [after6_5]
  unfold out6_5
  rw [View.canon_unit_zero hz6]
  simp only [View.ld_unit_zero (S := S1024x64) hz6, View.ld_unit_zero (S := S64x512) hz6, View.ld_unit_zero (S := S1024x512) hz6,
    View.ld_unit_zero (S := S1x512) hz6]
  refine funext fun (j : S1024x512.Idx) => ?_
  obtain ⟨p, q, rfl⟩ : ∃ (p : Fin 1024) (q : Fin 512), j = ix2 p q := ⟨j 0, j 1, eq_ix2 j⟩
  obtain ⟨-, -, -, -, -, -, -, -, -, -, e0, e1⟩ := idx_facts6 t
  have ht : t.val < 8 := lt_of_lt_of_eq t.isLt N_6
  -- entry (p, q) of the output's block is entry (1024·t + p, q) of the output's array
  have he : ((cfg6.win 5).blk t).view.emb (ix2 p q) = ix2 (⟨1024 * t.val + p.val, by omega⟩ : Fin 8192) q :=
    funext fun a => Fin.ext (by
      match a with
      | ⟨0, _⟩ => show win6_5.index t (0 : Fin 2) * 1024 + 1 * p.val = 1024 * t.val + p.val; rw [e0]; omega
      | ⟨1, _⟩ => show win6_5.index t (1 : Fin 2) * 512 + 1 * q.val = q.val; rw [e1]; omega)
  rw [View.read_apply, he]
  show k6_pay1 (F := Ideal) (iblk6 V c 0 t) (iblk6 V c 1 t) (iblk6 V c 2 t) (iblk6 V c 3 t) (iblk6 V c 4 t) (ix2 p q) = _
  refine (pay6_apply _ _ _ _ _ p q).trans ?_
  refine kLayerNorm_congr (funext fun y => blk6_3_apply V c t y y rfl rfl) (funext fun y => blk6_4_apply V c t y y rfl rfl)
    (fun c' => ?_) q
  rw [y6_apply, kProjRes_ix2]
  refine congrArg₂ (· + ·) (Finset.sum_congr rfl fun j _ => congrArg₂ (· * ·) ?_ ?_) ?_
  · exact blk6_0_apply V c t (ix2 p j) _ rfl rfl
  · exact blk6_1_apply V c t (ix2 j c') _ rfl rfl
  · exact blk6_2_apply V c t (ix2 p c') _ rfl rfl

/-- An index of the output array is in point t's block iff each coordinate is in the block's range on its axis. -/
theorem mem_blk6 (t : Fin cfg6.N) (i : S8192x512.Idx) :
    i ∈ ((cfg6.win 5).blk t).view.set ↔ ∀ a : Fin 2, win6_5.index t a * S1024x512.size a ≤ (i a).val
      ∧ (i a).val < win6_5.index t a * S1024x512.size a + S1024x512.size a := by
  show i ∈ ((View.whole main_v31).slice (win6_5.rect t)).set ↔ _
  rw [View.set_slice_whole, Rect.mem_set_unit]
  exact Iff.rfl

/-- Every index of the output array is in the block of the point its row divided by 1024 names. -/
theorem cover6 (i : S8192x512.Idx) :
    ∃ t : Fin cfg6.N, (cfg6.win 5).flush t = true ∧ i ∈ ((cfg6.win 5).blk t).view.set := by
  have hi0 : (i 0).val < 8192 := (i 0).isLt
  have hi1 : (i 1).val < 512 := (i 1).isLt
  obtain ⟨t, ht⟩ : ∃ t : Fin cfg6.N, t.val = (i 0).val / 1024 :=
    ⟨⟨(i 0).val / 1024, lt_of_lt_of_eq (show (i 0).val / 1024 < 8 by omega) N_6.symm⟩, rfl⟩
  obtain ⟨-, -, -, -, -, -, -, -, -, -, e0, e1⟩ := idx_facts6 t
  refine ⟨t, flush6_5 t, ?_⟩
  rw [mem_blk6]
  intro a
  match a with
  | ⟨0, _⟩ =>
    show win6_5.index t (0 : Fin 2) * 1024 ≤ (i 0).val ∧ (i 0).val < win6_5.index t (0 : Fin 2) * 1024 + 1024
    rw [e0, ht]; omega
  | ⟨1, _⟩ =>
    show win6_5.index t (1 : Fin 2) * 512 ≤ (i 1).val ∧ (i 1).val < win6_5.index t (1 : Fin 2) * 512 + 512
    rw [e1]; omega

/-- The output array after the region: the normalised product-plus-residual of the operand arrays as the region finds them. -/
theorem arr6 (c : Dev nD) :
    (dat6 (F := Ideal) V c).arrAt 5 cfg6.N
      = kLayerNorm (n := 8192) (kProjRes (n := 8192) (k := 64) (V c (Pipeline.arrRef spec6 0)) (V c (Pipeline.arrRef spec6 1))
          (V c (Pipeline.arrRef spec6 2))) (V c (Pipeline.arrRef spec6 3)) (V c (Pipeline.arrRef spec6 4)) :=
  (dat6 V c).arrAt_eq_of_cover 5 _ (fun t _ => flushed6_eq V c t) cover6

end Cert.KernelIdeal.Hand

end
-- ==== Proof.KI.Val7Pay.lean ====
/-
  Region 7's arithmetic at one entry of the output block: the feed-forward block plus its input, normalised row by row.

  The body holds the point's 1024 × 512 rows x, the 512 × 2048 and 2048 × 512 weights w1, w2, their 1 × 2048 and
  1 × 512 biases b1, b2 and the 1 × 512 rows g and b. It forms the hidden layer leaky(x · w1 + b1) (each product
  accumulated into a zero matrix, float format changes the identity, the activation a comparison with zero and a
  select), then Y = hidden · w2 + b2 + x, and stores the row-wise normalisation of Y scaled by g and shifted by b.
-/
import proofs.«172065_j32710470926956_2_alg».proof.Proof.Gen.KernelIdeal.Skeleton
import proofs.«172065_j32710470926956_2_alg».proof.Proof.KI.ValLN

noncomputable section

open scoped BigOperators

namespace Cert.KernelIdeal.Hand

open Cert.KernelIdeal Cert.KernelIdeal.Gen Cert.Spec
open Idealize.ShloMosaic Idealize.ShloMosaic.ValueIdx

/-- The first layer's dimension numbers: [1024, 512] × [512, 2048] → [1024, 2048], contracting axis 1 against axis 0. -/
abbrev D7a := dot_S1024x512_S512x2048_S1024x2048_1_0_0_1_n_n

theorem D7a_lhs_0 (i : S1024x2048.Idx) (q : D7a.contr.Idx) : (D7a.lhsIdx i q 0).val = (i 0).val := by
  unfold DotDims.lhsIdx
  rw [dif_neg (show ¬(0 : Fin S1024x512.rank) ∈ D7a.lhsBatch by decide),
    dif_pos (show (0 : Fin S1024x512.rank) ∈ D7a.lhsNonContracting by decide)]
  rfl

theorem D7a_lhs_1 (i : S1024x2048.Idx) (q : D7a.contr.Idx) : (D7a.lhsIdx i q 1).val = (q ⟨0, by decide⟩).val :=
  D7a.lhsIdx_val_of_single rfl i q

theorem D7a_rhs_0 (i : S1024x2048.Idx) (q : D7a.contr.Idx) : (D7a.rhsIdx i q 0).val = (q ⟨0, by decide⟩).val :=
  D7a.rhsIdx_val_of_single rfl i q

theorem D7a_rhs_1 (i : S1024x2048.Idx) (q : D7a.contr.Idx) : (D7a.rhsIdx i q 1).val = (i 1).val := by
  unfold DotDims.rhsIdx
  rw [dif_neg (show ¬(1 : Fin S512x2048.rank) ∈ D7a.rhsBatch by decide),
    dif_pos (show (1 : Fin S512x2048.rank) ∈ D7a.rhsNonContracting by decide)]
  rfl

/-- The product into a zero matrix at entry (r, c): row r of the left operand against column c of the right. -/
theorem D7a_apply (x : FVec Ideal S1024x512 .bf16) (w : FVec Ideal S512x2048 .bf16) (r : Fin 1024) (c : Fin 2048) :
    matmul D7a none x w (constant S1024x2048 .f32 0x00000000#32) (ix2 r c) = ∑ k : Fin 512, x (ix2 r k) * w (ix2 k c) := by
  simp only [matmul]
  rw [Ideal.matmul_constant_zero_apply, ← Equiv.sum_comp (contrEquiv1 D7a 512 rfl rfl).symm]
  refine Finset.sum_congr rfl fun k _ => ?_
  have hk := contrEquiv1_symm_val D7a 512 rfl rfl k
  have el : D7a.lhsIdx (ix2 r c) ((contrEquiv1 D7a 512 rfl rfl).symm k) = ix2 r k := funext fun a => Fin.ext (by
    match a with
    | ⟨0, _⟩ => exact D7a_lhs_0 _ _
    | ⟨1, _⟩ => exact (D7a_lhs_1 _ _).trans hk)
  have er : D7a.rhsIdx (ix2 r c) ((contrEquiv1 D7a 512 rfl rfl).symm k) = ix2 k c := funext fun a => Fin.ext (by
    match a with
    | ⟨0, _⟩ => exact (D7a_rhs_0 _ _).trans hk
    | ⟨1, _⟩ => exact D7a_rhs_1 _ _)
  rw [el, er]

/-- The second layer's dimension numbers: [1024, 2048] × [2048, 512] → [1024, 512], contracting axis 1 against axis 0. -/
abbrev D7b := dot_S1024x2048_S2048x512_S1024x512_1_0_0_1_n_n

theorem D7b_lhs_0 (i : S1024x512.Idx) (q : D7b.contr.Idx) : (D7b.lhsIdx i q 0).val = (i 0).val := by
  unfold DotDims.lhsIdx
  rw [dif_neg (show ¬(0 : Fin S1024x2048.rank) ∈ D7b.lhsBatch by decide),
    dif_pos (show (0 : Fin S1024x2048.rank) ∈ D7b.lhsNonContracting by decide)]
  rfl

theorem D7b_lhs_1 (i : S1024x512.Idx) (q : D7b.contr.Idx) : (D7b.lhsIdx i q 1).val = (q ⟨0, by decide⟩).val :=
  D7b.lhsIdx_val_of_single rfl i q

theorem D7b_rhs_0 (i : S1024x512.Idx) (q : D7b.contr.Idx) : (D7b.rhsIdx i q 0).val = (q ⟨0, by decide⟩).val :=
  D7b.rhsIdx_val_of_single rfl i q

theorem D7b_rhs_1 (i : S1024x512.Idx) (q : D7b.contr.Idx) : (D7b.rhsIdx i q 1).val = (i 1).val := by
  unfold DotDims.rhsIdx
  rw [dif_neg (show ¬(1 : Fin S2048x512.rank) ∈ D7b.rhsBatch by decide),
    dif_pos (show (1 : Fin S2048x512.rank) ∈ D7b.rhsNonContracting by decide)]
  rfl

/-- The product into a zero matrix at entry (r, c): row r of the left operand against column c of the right. -/
theorem D7b_apply (x : FVec Ideal S1024x2048 .bf16) (w : FVec Ideal S2048x512 .bf16) (r : Fin 1024) (c : Fin 512) :
    matmul D7b none x w (constant S1024x512 .f32 0x00000000#32) (ix2 r c) = ∑ k : Fin 2048, x (ix2 r k) * w (ix2 k c) := by
  simp only [matmul]
  rw [Ideal.matmul_constant_zero_apply, ← Equiv.sum_comp (contrEquiv1 D7b 2048 rfl rfl).symm]
  refine Finset.sum_congr rfl fun k _ => ?_
  have hk := contrEquiv1_symm_val D7b 2048 rfl rfl k
  have el : D7b.lhsIdx (ix2 r c) ((contrEquiv1 D7b 2048 rfl rfl).symm k) = ix2 r k := funext fun a => Fin.ext (by
    match a with
    | ⟨0, _⟩ => exact D7b_lhs_0 _ _
    | ⟨1, _⟩ => exact (D7b_lhs_1 _ _).trans hk)
  have er : D7b.rhsIdx (ix2 r c) ((contrEquiv1 D7b 2048 rfl rfl).symm k) = ix2 k c := funext fun a => Fin.ext (by
    match a with
    | ⟨0, _⟩ => exact (D7b_rhs_0 _ _).trans hk
    | ⟨1, _⟩ => exact D7b_rhs_1 _ _)
  rw [el, er]

/-- A 1 × 2048 row repeated down 1024 rows. -/
theorem row7_apply (x : FVec Ideal S1x2048 .f32) (r : Fin 1024) (j : Fin 2048) :
    broadcastTo S1024x2048 x broadcasts_S1x2048_S1024x2048 (ix2 r j) = x (ix2 (0 : Fin 1) j) :=
  broadcastTo_apply _ _ _ (ix2 (0 : Fin 1) j) (fun a => by
    match a with
    | ⟨0, _⟩ => rfl
    | ⟨1, _⟩ => rfl)

/-- The first layer before the activation. -/
def h7 (x : FVec Ideal S1024x512 .f32) (w1 : FVec Ideal S512x2048 .bf16) (b1 : FVec Ideal S1x2048 .f32) : FVec Ideal S1024x2048 .f32 :=
  addf (matmul D7a none (truncf .bf16 x bitsLt_bf16_f32) w1 (constant S1024x2048 .f32 0x00000000#32))
    (broadcastTo S1024x2048 b1 broadcasts_S1x2048_S1024x2048)

theorem h7_apply (x : FVec Ideal S1024x512 .f32) (w1 : FVec Ideal S512x2048 .bf16) (b1 : FVec Ideal S1x2048 .f32)
    (r : Fin 1024) (j : Fin 2048) :
    h7 x w1 b1 (ix2 r j) = (∑ k : Fin 512, x (ix2 r k) * w1 (ix2 k j)) + b1 (ix2 (0 : Fin 1) j) := by
  unfold h7
  rw [addf_apply, D7a_apply, row7_apply]
  rfl

/-- The hidden layer: the activation of the first layer. -/
def a7 (x : FVec Ideal S1024x512 .f32) (w1 : FVec Ideal S512x2048 .bf16) (b1 : FVec Ideal S1x2048 .f32) : FVec Ideal S1024x2048 .f32 :=
  select (cmpf .oge (h7 x w1 b1) (broadcast S1024x2048 (Scalar.ofBits .f32 0x00000000#32))) (h7 x w1 b1)
    (mulf (broadcast S1024x2048 (Scalar.ofBits .f32 0x3C23D70A#32)) (h7 x w1 b1))

theorem a7_apply (x : FVec Ideal S1024x512 .f32) (w1 : FVec Ideal S512x2048 .bf16) (b1 : FVec Ideal S1x2048 .f32)
    (r : Fin 1024) (j : Fin 2048) : a7 x w1 b1 (ix2 r j) = kHidden (n := 1024) x w1 b1 r j := by
  unfold a7
  rw [select_apply]
  show Scalar.select (Ideal.cmp .oge (h7 x w1 b1 (ix2 r j)) (Ideal.ofBits .f32 0x00000000#32)) (h7 x w1 b1 (ix2 r j))
    (Ideal.ofBits .f32 0x3C23D70A#32 * h7 x w1 b1 (ix2 r j)) = _
  rw [h7_apply]
  rfl

/-- The matrix the body normalises: the second layer plus its bias plus the input. -/
def y7 (x : FVec Ideal S1024x512 .f32) (w1 : FVec Ideal S512x2048 .bf16) (b1 : FVec Ideal S1x2048 .f32)
    (w2 : FVec Ideal S2048x512 .bf16) (b2 : FVec Ideal S1x512 .f32) : FVec Ideal S1024x512 .f32 :=
  addf (addf (matmul D7b none (truncf .bf16 (a7 x w1 b1) bitsLt_bf16_f32) w2 (constant S1024x512 .f32 0x00000000#32))
    (broadcastTo S1024x512 b2 broadcasts_S1x512_S1024x512)) x

theorem y7_apply (x : FVec Ideal S1024x512 .f32) (w1 : FVec Ideal S512x2048 .bf16) (b1 : FVec Ideal S1x2048 .f32)
    (w2 : FVec Ideal S2048x512 .bf16) (b2 : FVec Ideal S1x512 .f32) (r : Fin 1024) (c : Fin 512) :
    y7 x w1 b1 w2 b2 (ix2 r c) = kFfnRes (n := 1024) x w1 b1 w2 b2 (ix2 r c) := by
  unfold y7
  rw [addf_apply, addf_apply, D7b_apply, rowLN_apply, kFfnRes_ix2]
  refine congrArg₂ (· + ·) (congrArg₂ (· + ·) (Finset.sum_congr rfl fun j _ => ?_) rfl) rfl
  show a7 x w1 b1 (ix2 r j) * w2 (ix2 j c) = _
  rw [a7_apply]

/-- The body's second value is that matrix. -/
theorem pay7_2_eq (x : FVec Ideal S1024x512 .f32) (w1 : FVec Ideal S512x2048 .bf16) (b1 : FVec Ideal S1x2048 .f32)
    (w2 : FVec Ideal S2048x512 .bf16) (b2 : FVec Ideal S1x512 .f32) :
    k7_pay2 (F := Ideal) x w1 b1 w2 b2 = y7 x w1 b1 w2 b2 := by
  unfold k7_pay2 y7 a7 h7
  simp only [shapeCast_self]

/-- The body's stored value is the normalisation's pieces over that matrix. -/
theorem pay7_eq (x : FVec Ideal S1024x512 .f32) (w1 : FVec Ideal S512x2048 .bf16) (b1 : FVec Ideal S1x2048 .f32)
    (w2 : FVec Ideal S2048x512 .bf16) (b2 : FVec Ideal S1x512 .f32) (g b : FVec Ideal S1x512 .f32) :
    k7_pay1 (F := Ideal) (k7_pay4 x w1 b1 w2 b2) (k7_pay5 x w1 b1 w2 b2) g b
      = lnOutV (lnCentV (y7 x w1 b1 w2 b2)) (lnRstdV (y7 x w1 b1 w2 b2)) g b := by
  have h4 : k7_pay4 (F := Ideal) x w1 b1 w2 b2 = lnCentV (y7 x w1 b1 w2 b2) := by
    rw [← pay7_2_eq]
    unfold k7_pay4 k7_pay3 lnCentV lnMeanV
    rfl
  have h5 : k7_pay5 (F := Ideal) x w1 b1 w2 b2 = lnRstdV (y7 x w1 b1 w2 b2) := by
    rw [← pay7_2_eq]
    unfold k7_pay5 k7_pay3 lnRstdV lnCentV lnMeanV
    rfl
  rw [h4, h5]
  unfold k7_pay1 lnOutV
  simp only [shapeCast_self]

/-- Entry (r, c) of what the body stores. -/
theorem pay7_apply (x : FVec Ideal S1024x512 .f32) (w1 : FVec Ideal S512x2048 .bf16) (b1 : FVec Ideal S1x2048 .f32)
    (w2 : FVec Ideal S2048x512 .bf16) (b2 : FVec Ideal S1x512 .f32) (g b : FVec Ideal S1x512 .f32) (r : Fin 1024) (c : Fin 512) :
    k7_pay1 (F := Ideal) (k7_pay4 x w1 b1 w2 b2) (k7_pay5 x w1 b1 w2 b2) g b (ix2 r c)
      = kLayerNorm (n := 1024) (y7 x w1 b1 w2 b2) g b (ix2 r c) := by
  rw [pay7_eq, lnOutV_apply]

end Cert.KernelIdeal.Hand

end
-- ==== Proof.KI.Val7.lean ====
/-
  Region 7's output array after the run, as one function of its operand arrays.

  The grid has 8 points. Point t reads rows 1024·t … 1024·t + 1023 of the 8192 × 512 array x and the whole of the two
  weights, their biases and the rows g and b, and writes rows 1024·t … of the 8192 × 512 output: the row-wise
  normalisation of the feed-forward block of x plus x, scaled by g and shifted by b. The feed-forward block and the
  normalisation read x only through the row they compute, so the block is exactly the rows 1024·t … of
  kLayerNorm (kFfnRes x w1 b1 w2 b2) g b. Row r of the output is written by point r / 1024, so the 8 blocks cover it.
-/
import proofs.«172065_j32710470926956_2_alg».proof.Proof.KI.R7
import proofs.«172065_j32710470926956_2_alg».proof.Proof.KI.Val7Pay
import proofs.«172065_j32710470926956_2_alg».proof.Proof.Spec.LayerNorm
import Idealize.ShloMosaic.Lib.Pipeline.Value

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-buffer access. -/
theorem hz7 : (![0, 0] : Fin 2 → Nat) = fun _ => 0 := funext fun a => by fin_cases a <;> rfl

/-- The eight index maps at every grid point: the rows' and the output's block index is (t, 0), every other operand's
    is (0, 0). -/
theorem idx_facts7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = t.val
    ∧ win7_7.index t (1 : Fin 2) = 0 :=
  (by decide +kernel : ∀ t : Fin grid7.N, _)

/-- A block of rows through the feed-forward block, with the same weights and biases, is the array's rows through it. -/
theorem ffn_block {n n' : ℕ} {x : (⟨2, ![n, 512]⟩ : Shape).Idx → EReal} {X : (⟨2, ![n', 512]⟩ : Shape).Idx → EReal}
    {w1 W1 : (⟨2, ![512, 2048]⟩ : Shape).Idx → EReal} {b1 B1 : (⟨2, ![1, 2048]⟩ : Shape).Idx → EReal}
    {w2 W2 : (⟨2, ![2048, 512]⟩ : Shape).Idx → EReal} {b2 B2 : (⟨2, ![1, 512]⟩ : Shape).Idx → EReal}
    (h1 : w1 = W1) (h2 : b1 = B1) (h3 : w2 = W2) (h4 : b2 = B2) {r : Fin n} {R : Fin n'}
    (h : ∀ k : Fin 512, x (ix2 r k) = X (ix2 R k)) (c : Fin 512) :
    kFfnRes x w1 b1 w2 b2 (ix2 r c) = kFfnRes X W1 B1 W2 B2 (ix2 R c) := by
  subst h1 h2 h3 h4
  exact kFfnRes_congr _ _ _ _ h c

/-! ## Each input block as entries of its array

An entry of a block sits in the array, on each axis, at block index × block size + its coordinate inside the block. -/

section Blocks
variable {F : FTy → Type} [FloatOps F] [Named F]
variable (V : (c : Dev nD) → (b : Ref sig .tc) → Buf (Elt F) ((c : Thread nD τ).loc b))

/-- The rows' block at point t: entry (p, k) is x(1024·t + p, k). -/
theorem blk7_0_apply (c : Dev nD) (t : Fin cfg7.N) (y : S1024x512.Idx) (k : S8192x512.Idx)
    (hk0 : (k 0).val = 1024 * t.val + (y 0).val) (hk1 : (k 1).val = (y 1).val) :
    (iblk7 V c 0 t : FVec F S1024x512 .f32) y = (V c (Pipeline.arrRef spec7 0) : S8192x512.Idx → F .f32) k := by
  obtain ⟨e0, e1, -⟩ := idx_facts7 t
  unfold iblk7
  rw [View.read_apply]
  refine congrArg (V c (Pipeline.arrRef spec7 0)) (funext fun a => Fin.ext ?_)
  match a with
  | ⟨0, _⟩ => show win7_0.index t (0 : Fin 2) * 1024 + 1 * (y 0).val = (k 0).val; rw [e0, hk0]; omega
  | ⟨1, _⟩ => show win7_0.index t (1 : Fin 2) * 512 + 1 * (y 1).val = (k 1).val; rw [e1, hk1]; omega

/-- The first weight's block at every point is the whole weight. -/
theorem blk7_1_apply (c : Dev nD) (t : Fin cfg7.N) (y : S512x2048.Idx) (k : S512x2048.Idx)
    (hk0 : (k 0).val = (y 0).val) (hk1 : (k 1).val = (y 1).val) :
    (iblk7 V c 1 t : FVec F S512x2048 .bf16) y = (V c (Pipeline.arrRef spec7 1) : S512x2048.Idx → F .bf16) k := by
  obtain ⟨-, -, e0, e1, -⟩ := idx_facts7 t
  unfold iblk7
  rw [View.read_apply]
  refine congrArg (V c (Pipeline.arrRef spec7 1)) (funext fun a => Fin.ext ?_)
  match a with
  | ⟨0, _⟩ => show win7_1.index t (0 : Fin 2) * 512 + 1 * (y 0).val = (k 0).val; rw [e0, hk0]; omega
  | ⟨1, _⟩ => show win7_1.index t (1 : Fin 2) * 2048 + 1 * (y 1).val = (k 1).val; rw [e1, hk1]; omega

/-- The first bias's block at every point is the whole row. -/
theorem blk7_2_apply (c : Dev nD) (t : Fin cfg7.N) (y : S1x2048.Idx) (k : S1x2048.Idx)
    (hk0 : (k 0).val = (y 0).val) (hk1 : (k 1).val = (y 1).val) :
    (iblk7 V c 2 t : FVec F S1x2048 .f32) y = (V c (Pipeline.arrRef spec7 2) : S1x2048.Idx → F .f32) k := by
  obtain ⟨-, -, -, -, e0, e1, -⟩ := idx_facts7 t
  unfold iblk7
  rw [View.read_apply]
  refine congrArg (V c (Pipeline.arrRef spec7 2)) (funext fun a => Fin.ext ?_)
  match a with
  | ⟨0, _⟩ => show win7_2.index t (0 : Fin 2) * 1 + 1 * (y 0).val = (k 0).val; rw [e0, hk0]; omega
  | ⟨1, _⟩ => show win7_2.index t (1 : Fin 2) * 2048 + 1 * (y 1).val = (k 1).val; rw [e1, hk1]; omega

/-- The second weight's block at every point is the whole weight. -/
theorem blk7_3_apply (c : Dev nD) (t : Fin cfg7.N) (y : S2048x512.Idx) (k : S2048x512.Idx)
    (hk0 : (k 0).val = (y 0).val) (hk1 : (k 1).val = (y 1).val) :
    (iblk7 V c 3 t : FVec F S2048x512 .bf16) y = (V c (Pipeline.arrRef spec7 3) : S2048x512.Idx → F .bf16) k := by
  obtain ⟨-, -, -, -, -, -, e0, e1, -⟩ := idx_facts7 t
  unfold iblk7
  rw [View.read_apply]
  refine congrArg (V c (Pipeline.arrRef spec7 3)) (funext fun a => Fin.ext ?_)
  match a with
  | ⟨0, _⟩ => show win7_3.index t (0 : Fin 2) * 2048 + 1 * (y 0).val = (k 0).val; rw [e0, hk0]; omega
  | ⟨1, _⟩ => show win7_3.index t (1 : Fin 2) * 512 + 1 * (y 1).val = (k 1).val; rw [e1, hk1]; omega

/-- The second bias's block at every point is the whole row. -/
theorem blk7_4_apply (c : Dev nD) (t : Fin cfg7.N) (y : S1x512.Idx) (k : S1x512.Idx)
    (hk0 : (k 0).val = (y 0).val) (hk1 : (k 1).val = (y 1).val) :
    (iblk7 V c 4 t : FVec F S1x512 .f32) y = (V c (Pipeline.arrRef spec7 4) : S1x512.Idx → F .f32) k := by
  obtain ⟨-, -, -, -, -, -, -, -, e0, e1, -⟩ := idx_facts7 t
  unfold iblk7
  rw [View.read_apply]
  refine congrArg (V c (Pipeline.arrRef spec7 4)) (funext fun a => Fin.ext ?_)
  match a with
  | ⟨0, _⟩ => show win7_4.index t (0 : Fin 2) * 1 + 1 * (y 0).val = (k 0).val; rw [e0, hk0]; omega
  | ⟨1, _⟩ => show win7_4.index t (1 : Fin 2) * 512 + 1 * (y 1).val = (k 1).val; rw [e1, hk1]; omega

/-- The scale's block at every point is the whole row. -/
theorem blk7_5_apply (c : Dev nD) (t : Fin cfg7.N) (y : S1x512.Idx) (k : S1x512.Idx)
    (hk0 : (k 0).val = (y 0).val) (hk1 : (k 1).val = (y 1).val) :
    (iblk7 V c 5 t : FVec F S1x512 .f32) y = (V c (Pipeline.arrRef spec7 5) : S1x512.Idx → F .f32) k := by
  obtain ⟨-, -, -, -, -, -, -, -, -, -, e0, e1, -⟩ := idx_facts7 t
  unfold iblk7
  rw [View.read_apply]
  refine congrArg (V c (Pipeline.arrRef spec7 5)) (funext fun a => Fin.ext ?_)
  match a with
  | ⟨0, _⟩ => show win7_5.index t (0 : Fin 2) * 1 + 1 * (y 0).val = (k 0).val; rw [e0, hk0]; omega
  | ⟨1, _⟩ => show win7_5.index t (1 : Fin 2) * 512 + 1 * (y 1).val = (k 1).val; rw [e1, hk1]; omega

/-- The shift's block at every point is the whole row. -/
theorem blk7_6_apply (c : Dev nD) (t : Fin cfg7.N) (y : S1x512.Idx) (k : S1x512.Idx)
    (hk0 : (k 0).val = (y 0).val) (hk1 : (k 1).val = (y 1).val) :
    (iblk7 V c 6 t : FVec F S1x512 .f32) y = (V c (Pipeline.arrRef spec7 6) : S1x512.Idx → F .f32) k := by
  obtain ⟨-, -, -, -, -, -, -, -, -, -, -, -, e0, e1, -⟩ := idx_facts7 t
  unfold iblk7
  rw [View.read_apply]
  refine congrArg (V c (Pipeline.arrRef spec7 6)) (funext fun a => Fin.ext ?_)
  match a with
  | ⟨0, _⟩ => show win7_6.index t (0 : Fin 2) * 1 + 1 * (y 0).val = (k 0).val; rw [e0, hk0]; omega
  | ⟨1, _⟩ => show win7_6.index t (1 : Fin 2) * 512 + 1 * (y 1).val = (k 1).val; rw [e1, hk1]; omega

end Blocks

/-! ## The output, over the extended reals -/

variable (V : (c : Dev nD) → (b : Ref sig .tc) → Buf (Elt Ideal) ((c : Thread nD τ).loc b))

/-- What point t writes back is rows 1024·t … 1024·t + 1023 of the normalised feed-forward-plus-input of the operand arrays. -/
theorem flushed7_eq (c : Dev nD) (t : Fin cfg7.N) :
    (dat7 (F := Ideal) V c).flushed 7 t
      = ((cfg7.win 7).blk t).view.read (Elt Ideal)
          (kLayerNorm (n := 8192) (kFfnRes (n := 8192) (V c (Pipeline.arrRef spec7 0)) (V c (Pipeline.arrRef spec7 1))
              (V c (Pipeline.arrRef spec7 2)) (V c (Pipeline.arrRef spec7 3)) (V c (Pipeline.arrRef spec7 4)))
            (V c (Pipeline.arrRef spec7 5)) (V c (Pipeline.arrRef spec7 6))) := by
  show (cfg7.win 7).cut (grid7.coords t) ((dat7 V c).after 7 t) = _
  rw [after7_7]
  unfold out7_7
  rw [View.canon_unit_zero hz7]
  simp only [View.ld_unit_zero (S := S1024x512) hz7, View.ld_unit_zero (S := S512x2048) hz7, View.ld_unit_zero (S := S1x2048) hz7,
    View.ld_unit_zero (S := S2048x512) hz7, View.ld_unit_zero (S := S1x512) hz7]
  refine funext fun (j : S1024x512.Idx) => ?_
  obtain ⟨p, q, rfl⟩ : ∃ (p : Fin 1024) (q : Fin 512), j = ix2 p q := ⟨j 0, j 1, eq_ix2 j⟩
  obtain ⟨-, -, -, -, -, -, -, -, -, -, -, -, -, -, e0, e1⟩ := idx_facts7 t
  have ht : t.val < 8 := lt_of_lt_of_eq t.isLt N_7
  -- entry (p, q) of the output's block is entry (1024·t + p, q) of the output's array
  have he : ((cfg7.win 7).blk t).view.emb (ix2 p q) = ix2 (⟨1024 * t.val + p.val, by omega⟩ : Fin 8192) q :=
    funext fun a => Fin.ext (by
      match a with
      | ⟨0, _⟩ => show win7_7.index t (0 : Fin 2) * 1024 + 1 * p.val = 1024 * t.val + p.val; rw [e0]; omega
      | ⟨1, _⟩ => show win7_7.index t (1 : Fin 2) * 512 + 1 * q.val = q.val; rw [e1]; omega)
  rw [View.read_apply, he]
  show k7_pay1 (F := Ideal) (k7_pay4 (iblk7 V c 0 t) (iblk7 V c 1 t) (iblk7 V c 2 t) (iblk7 V c 3 t) (iblk7 V c 4 t))
    (k7_pay5 (iblk7 V c 0 t) (iblk7 V c 1 t) (iblk7 V c 2 t) (iblk7 V c 3 t) (iblk7 V c 4 t)) (iblk7 V c 5 t) (iblk7 V c 6 t) (ix2 p q) = _
  refine (pay7_apply _ _ _ _ _ _ _ p q).trans ?_
  refine kLayerNorm_congr (funext fun y => blk7_5_apply V c t y y rfl rfl) (funext fun y => blk7_6_apply V c t y y rfl rfl)
    (fun c' => ?_) q
  rw [y7_apply]
  exact ffn_block (funext fun y => blk7_1_apply V c t y y rfl rfl) (funext fun y => blk7_2_apply V c t y y rfl rfl)
    (funext fun y => blk7_3_apply V c t y y rfl rfl) (funext fun y => blk7_4_apply V c t y y rfl rfl)
    (fun k => blk7_0_apply V c t (ix2 p k) _ rfl rfl) c'

/-- An index of the output array is in point t's block iff each coordinate is in the block's range on its axis. -/
theorem mem_blk7 (t : Fin cfg7.N) (i : S8192x512.Idx) :
    i ∈ ((cfg7.win 7).blk t).view.set ↔ ∀ a : Fin 2, win7_7.index t a * S1024x512.size a ≤ (i a).val
      ∧ (i a).val < win7_7.index t a * S1024x512.size a + S1024x512.size a := by
  show i ∈ ((View.whole main_v36).slice (win7_7.rect t)).set ↔ _
  rw [View.set_slice_whole, Rect.mem_set_unit]
  exact Iff.rfl

/-- Every index of the output array is in the block of the point its row divided by 1024 names. -/
theorem cover7 (i : S8192x512.Idx) :
    ∃ t : Fin cfg7.N, (cfg7.win 7).flush t = true ∧ i ∈ ((cfg7.win 7).blk t).view.set := by
  have hi0 : (i 0).val < 8192 := (i 0).isLt
  have hi1 : (i 1).val < 512 := (i 1).isLt
  obtain ⟨t, ht⟩ : ∃ t : Fin cfg7.N, t.val = (i 0).val / 1024 :=
    ⟨⟨(i 0).val / 1024, lt_of_lt_of_eq (show (i 0).val / 1024 < 8 by omega) N_7.symm⟩, rfl⟩
  obtain ⟨-, -, -, -, -, -, -, -, -, -, -, -, -, -, e0, e1⟩ := idx_facts7 t
  refine ⟨t, flush7_7 t, ?_⟩
  rw [mem_blk7]
  intro a
  match a with
  | ⟨0, _⟩ =>
    show win7_7.index t (0 : Fin 2) * 1024 ≤ (i 0).val ∧ (i 0).val < win7_7.index t (0 : Fin 2) * 1024 + 1024
    rw [e0, ht]; omega
  | ⟨1, _⟩ =>
    show win7_7.index t (1 : Fin 2) * 512 ≤ (i 1).val ∧ (i 1).val < win7_7.index t (1 : Fin 2) * 512 + 512
    rw [e1]; omega

/-- The output array after the region: the normalised feed-forward-plus-input of the operand arrays as the region finds them. -/
theorem arr7 (c : Dev nD) :
    (dat7 (F := Ideal) V c).arrAt 7 cfg7.N
      = kLayerNorm (n := 8192) (kFfnRes (n := 8192) (V c (Pipeline.arrRef spec7 0)) (V c (Pipeline.arrRef spec7 1))
          (V c (Pipeline.arrRef spec7 2)) (V c (Pipeline.arrRef spec7 3)) (V c (Pipeline.arrRef spec7 4)))
        (V c (Pipeline.arrRef spec7 5)) (V c (Pipeline.arrRef spec7 6)) :=
  (dat7 V c).arrAt_eq_of_cover 7 _ (fun t _ => flushed7_eq V c t) cover7

end Cert.KernelIdeal.Hand

end
-- ==== Proof.Spec.BridgeNorm.lean ====
/-
  The last two stages in the two spellings.

  One spelling takes the scale and shift of the normalisation, and the biases of the feed-forward layer, as arrays with
  one row; the other takes them as rows. One writes the leaky rectifier as a choice on the comparison z ≥ 0 against the
  float pattern of zero, the other as the condition 0 ≤ z. Where a one-row array and a row hold the same entries the
  functions agree entry by entry: the mean, the variance and the reciprocal standard deviation are the same expressions
  (the same quotients by the pattern of 512, the same constant under the root), a product plus a residual is the matrix
  product plus the residual, and the feed-forward block plus its input is the reference's feed-forward layer plus the
  input.
-/
import proofs.«172065_j32710470926956_2_alg».proof.Proof.Spec.Ref
import proofs.«172065_j32710470926956_2_alg».proof.Proof.Spec.LayerNorm

noncomputable section

open scoped BigOperators

namespace Cert.Spec

open Idealize.ShloMosaic Idealize.ShloMosaic.ValueIdx

/-! ## Normalisation -/

theorem kMean_eq {n : ℕ} (y : (⟨2, ![n, 512]⟩ : Shape).Idx → EReal) (r : Fin n) : kMean y r = mean512 y r := rfl

theorem kVar_eq {n : ℕ} (y : (⟨2, ![n, 512]⟩ : Shape).Idx → EReal) (r : Fin n) : kVar y r = var512 y r := rfl

theorem kRstd_eq {n : ℕ} (y : (⟨2, ![n, 512]⟩ : Shape).Idx → EReal) (r : Fin n) :
    kRstd y r = Ideal.rsqrt (var512 y r + Ideal.ofBits .f32 0x3727C5AC#32) := rfl

/-- The normalisation with one-row scale and shift is the reference's with the rows that hold the same entries. -/
theorem kLayerNorm_eq {n : ℕ} (y : (⟨2, ![n, 512]⟩ : Shape).Idx → EReal)
    (g' b' : (⟨2, ![1, 512]⟩ : Shape).Idx → EReal) (g b : (⟨1, ![512]⟩ : Shape).Idx → EReal)
    (hg : ∀ c : Fin 512, g' (ix2 (0 : Fin 1) c) = g (ix1 c)) (hb : ∀ c : Fin 512, b' (ix2 (0 : Fin 1) c) = b (ix1 c)) :
    kLayerNorm y g' b' = layerNorm y g b := by
  funext i
  obtain ⟨r, c, rfl⟩ : ∃ (r : Fin n) (c : Fin 512), i = ix2 r c := ⟨i 0, i 1, eq_ix2 i⟩
  rw [kLayerNorm_ix2, layerNorm_ix2, hg c, hb c, kMean_eq, kRstd_eq]

/-! ## A product plus a residual -/

/-- A product plus a residual is the matrix product plus the residual. -/
theorem kProjRes_eq {n k : ℕ} (x : (⟨2, ![n, k]⟩ : Shape).Idx → EReal) (w : (⟨2, ![k, 512]⟩ : Shape).Idx → EReal)
    (res : (⟨2, ![n, 512]⟩ : Shape).Idx → EReal) : kProjRes x w res = fun i => mm x w i + res i := rfl

/-! ## The feed-forward block -/

/-- The choice on z ≥ 0 against the pattern of zero is the condition 0 ≤ z. -/
theorem kLeaky_eq (z : EReal) : kLeaky z = leaky z := by
  unfold kLeaky leaky
  rw [select_cmp_oge, Ideal.ofBits_zero_f32]

/-- A hidden unit with a one-row bias is the reference's with the row that holds the same entries. -/
theorem kHidden_eq {n : ℕ} (x : (⟨2, ![n, 512]⟩ : Shape).Idx → EReal) (w1 : (⟨2, ![512, 2048]⟩ : Shape).Idx → EReal)
    (b1' : (⟨2, ![1, 2048]⟩ : Shape).Idx → EReal) (b1 : (⟨1, ![2048]⟩ : Shape).Idx → EReal)
    (h1 : ∀ j : Fin 2048, b1' (ix2 (0 : Fin 1) j) = b1 (ix1 j)) (r : Fin n) (j : Fin 2048) :
    kHidden x w1 b1' r j = hidden x w1 b1 (ix2 r j) := by
  unfold kHidden
  rw [kLeaky_eq, h1 j, hidden_ix2]

/-- The feed-forward block plus its input is the reference's feed-forward layer plus the input. -/
theorem kFfnRes_eq {n : ℕ} (x : (⟨2, ![n, 512]⟩ : Shape).Idx → EReal) (w1 : (⟨2, ![512, 2048]⟩ : Shape).Idx → EReal)
    (b1' : (⟨2, ![1, 2048]⟩ : Shape).Idx → EReal) (w2 : (⟨2, ![2048, 512]⟩ : Shape).Idx → EReal)
    (b2' : (⟨2, ![1, 512]⟩ : Shape).Idx → EReal) (b1 : (⟨1, ![2048]⟩ : Shape).Idx → EReal)
    (b2 : (⟨1, ![512]⟩ : Shape).Idx → EReal) (h1 : ∀ j : Fin 2048, b1' (ix2 (0 : Fin 1) j) = b1 (ix1 j))
    (h2 : ∀ c : Fin 512, b2' (ix2 (0 : Fin 1) c) = b2 (ix1 c)) :
    kFfnRes x w1 b1' w2 b2' = fun i => ffn x w1 b1 w2 b2 i + x i := by
  funext i
  obtain ⟨r, c, rfl⟩ : ∃ (r : Fin n) (c : Fin 512), i = ix2 r c := ⟨i 0, i 1, eq_ix2 i⟩
  rw [kFfnRes_ix2, ffn_ix2, h2 c]
  exact congrArg (fun s => s + b2 (ix1 c) + x (ix2 r c))
    (Finset.sum_congr rfl fun j _ => by rw [kHidden_eq x w1 b1' b1 h1 r j])

end Cert.Spec

end
-- ==== Proof.KI.Stages2.lean ====
/-
  The kernel's last three regions as the specification's stage functions of the arguments — the cross head (a single-pass
  softmax), the first residual layer norm over the tiled cross head, the feed-forward layer and the second residual layer norm —
  and so the kernel's result: the specification's block of the fifteen arguments.
-/
import proofs.«172065_j32710470926956_2_alg».proof.Proof.KI.Stages
import proofs.«172065_j32710470926956_2_alg».proof.Proof.KI.Val6
import proofs.«172065_j32710470926956_2_alg».proof.Proof.KI.Val7
import proofs.«172065_j32710470926956_2_alg».proof.Proof.Spec.BridgeNorm

set_option maxRecDepth 16384

noncomputable section

open scoped BigOperators

namespace Cert.KernelIdeal.Hand

open Cert.KernelIdeal Cert.KernelIdeal.Gen Cert.Spec Cert.Lib.Real
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## A buffer written before region 0 and never again reaches every later boundary unchanged -/

theorem keep_to7 (c : Dev nD) (b : Ref sig .tc) (h1 : b ≠ main_v15) (h2 : b ∉ Cert.KernelIdeal.Gen.hostOps1_W) (h3 : b ≠ main_v19)
    (h4 : b ∉ Cert.KernelIdeal.Gen.hostOps2_W) (h5 : b ≠ main_v21) (h6 : b ∉ Cert.KernelIdeal.Gen.hostOps3_W) :
    W7 m ρ c (Proc.devRef .tc b) = W1 m ρ c (Proc.devRef .tc b) :=
  (keepH3 m ρ c b h6).trans ((keepR2 m ρ c b h5).trans ((keepH2 m ρ c b h4).trans ((keepR1 m ρ c b h3).trans
    ((keepH1 m ρ c b h2).trans (keepR0 m ρ c b h1)))))
theorem keep_to12 (c : Dev nD) (b : Ref sig .tc) (h1 : b ≠ main_v15) (h2 : b ∉ Cert.KernelIdeal.Gen.hostOps1_W) (h3 : b ≠ main_v19)
    (h4 : b ∉ Cert.KernelIdeal.Gen.hostOps2_W) (h5 : b ≠ main_v21) (h6 : b ∉ Cert.KernelIdeal.Gen.hostOps3_W) (h7 : b ≠ main_v23)
    (h8 : b ∉ Cert.KernelIdeal.Gen.hostOps4_W) (h9 : b ≠ main_v27) (h10 : b ≠ main_v28) (h11 : b ∉ Cert.KernelIdeal.Gen.hostOps6_W) :
    W12 m ρ c (Proc.devRef .tc b) = W1 m ρ c (Proc.devRef .tc b) :=
  (keepH6 m ρ c b h11).trans ((keepR5 m ρ c b h10).trans ((keepR4 m ρ c b h9).trans ((keepH4 m ρ c b h8).trans ((keepR3 m ρ c b h7).trans
    (keep_to7 m ρ c b h1 h2 h3 h4 h5 h6)))))
theorem keep_to14 (c : Dev nD) (b : Ref sig .tc) (h1 : b ≠ main_v15) (h2 : b ∉ Cert.KernelIdeal.Gen.hostOps1_W) (h3 : b ≠ main_v19)
    (h4 : b ∉ Cert.KernelIdeal.Gen.hostOps2_W) (h5 : b ≠ main_v21) (h6 : b ∉ Cert.KernelIdeal.Gen.hostOps3_W) (h7 : b ≠ main_v23)
    (h8 : b ∉ Cert.KernelIdeal.Gen.hostOps4_W) (h9 : b ≠ main_v27) (h10 : b ≠ main_v28) (h11 : b ∉ Cert.KernelIdeal.Gen.hostOps6_W)
    (h12 : b ≠ main_v31) (h13 : b ∉ Cert.KernelIdeal.Gen.hostOps7_W) :
    W14 m ρ c (Proc.devRef .tc b) = W1 m ρ c (Proc.devRef .tc b) :=
  (keepH7 m ρ c b h13).trans ((keepR6 m ρ c b h12).trans (keep_to12 m ρ c b h1 h2 h3 h4 h5 h6 h7 h8 h9 h10 h11))

/-- An argument holds its launch contents at the boundary before region 0 … -/
theorem arg_at1 (c : Dev nD) (b : Ref sig .tc) (h0 : b ∉ Cert.KernelIdeal.Gen.hostOps0_W) :
    W1 m ρ c (Proc.devRef .tc b) = arg m c b := keepH0 m ρ c b h0

/-! ## Region 5: the cross head -/

abbrev mmhS (c : Dev nD) := maskedMh (arg m c main_arg1) (arg m c main_arg2) (arg m c main_arg3) (arg m c main_arg4) (arg m c main_arg8)
abbrev qC (c : Dev nD) := mm (n := 8192) (k := 512) (m := 64) (mmhS m c) (arg m c main_arg5)
abbrev kC (c : Dev nD) := mm (n := 8192) (k := 512) (m := 64) (arg m c main_arg0) (arg m c main_arg6)
abbrev vC (c : Dev nD) := mm (n := 8192) (k := 512) (m := 64) (arg m c main_arg0) (arg m c main_arg7)

/-- The single-pass attention in the kernel's spelling is the specification's cross head, for real operands. -/
theorem xattn_eq_crossHead (q k v : S8192x64.Idx → EReal) (hq : ∀ i, IsReal (q i)) (hk : ∀ i, IsReal (k i)) (hv : ∀ i, IsReal (v i)) :
    xattn (n := 8192) (T := 8192) q k v = crossHead q k v := by
  funext i
  obtain ⟨r, d, rfl⟩ : ∃ (r : Fin 8192) (d : Fin 64), i = ix2 r d := ⟨i 0, i 1, eq_ix2 i⟩
  have hsc : ∀ t : Fin 8192, xScore (n := 8192) (T := 8192) q k r t = scores q k r t := fun t => mul_eighth_eq_div_8 _
  have hs : ∀ t : Fin 8192, IsReal (scores q k r t) := fun t => scores_isReal q k hq hk r t
  have hmx : xRowMax (n := 8192) (T := 8192) q k r = rowMax (fun t : Fin 8192 => scores q k r t) := by
    unfold xRowMax rowMax
    rw [ofBits_neg_inf]
    exact congrArg (fun f => Finset.fold max ⊥ f Finset.univ) (funext hsc)
  rw [xattn_ix2]
  unfold xWeight
  simp only [hsc, hmx]
  exact single_pass_eq_attend_of_real (fun t : Fin 8192 => scores q k r t) v d hs (by norm_num) hv _
    (rowMax_isReal _ (fun t => isReal_ne_top (hs t)) ⟨0, by norm_num⟩ (isReal_ne_bot (hs _)))

theorem s_crossH (c : Dev nD) (hr : RealArgs m c) : (W11 m ρ c (Proc.devRef .tc main_v28) : S8192x64.Idx → EReal)
    = crossH (arg m c main_arg0) (arg m c main_arg1) (arg m c main_arg2) (arg m c main_arg3) (arg m c main_arg4) (arg m c main_arg5)
        (arg m c main_arg6) (arg m c main_arg7) (arg m c main_arg8) := by
  have h := (W11_arr m ρ c 3).trans (arr5 (Hand.V10 m ρ) c)
  have hq : Hand.V10 m ρ c (Pipeline.arrRef spec5 0) = qC m c := s_qc m ρ c hr
  have hk : Hand.V10 m ρ c (Pipeline.arrRef spec5 1) = kC m c := (keepR4 m ρ c main_v24 (by decide)).trans (s_kc m ρ c)
  have hv : Hand.V10 m ρ c (Pipeline.arrRef spec5 2) = vC m c := (keepR4 m ρ c main_v25 (by decide)).trans (s_vc m ρ c)
  rw [hq, hk, hv] at h
  exact h.trans <| xattn_eq_crossHead _ _ _ (mm_isReal _ _ (mmh_isReal m c hr) hr.h5) (mm_isReal _ _ hr.h0 hr.h6) (mm_isReal _ _ hr.h0 hr.h7)

theorem crossH_isReal (c : Dev nD) (hr : RealArgs m c) (i) :
    IsReal (crossH (arg m c main_arg0) (arg m c main_arg1) (arg m c main_arg2) (arg m c main_arg3) (arg m c main_arg4) (arg m c main_arg5)
        (arg m c main_arg6) (arg m c main_arg7) (arg m c main_arg8) i) :=
  crossHead_isReal _ _ _ (by norm_num) (mm_isReal _ _ (mmh_isReal m c hr) hr.h5) (mm_isReal _ _ hr.h0 hr.h6) (mm_isReal _ _ hr.h0 hr.h7) i

/-! ## Region 6: the tiled cross head plus the residual, under the first layer norm -/

abbrev crossS (c : Dev nD) := crossH (arg m c main_arg0) (arg m c main_arg1) (arg m c main_arg2) (arg m c main_arg3) (arg m c main_arg4)
  (arg m c main_arg5) (arg m c main_arg6) (arg m c main_arg7) (arg m c main_arg8)
abbrev xS (c : Dev nD) := xNorm (arg m c main_arg0) (arg m c main_arg1) (arg m c main_arg2) (arg m c main_arg3) (arg m c main_arg4)
  (arg m c main_arg5) (arg m c main_arg6) (arg m c main_arg7) (arg m c main_arg8) (arg m c main_arg9) (arg m c main_arg10)

theorem s_x (c : Dev nD) (hr : RealArgs m c) : (W13 m ρ c (Proc.devRef .tc main_v31) : S8192x512.Idx → EReal) = xS m c := by
  have h := (W13_arr m ρ c 5).trans (arr6 (Hand.V12 m ρ) c)
  have hx : Hand.V12 m ρ c (Pipeline.arrRef spec6 0) = crossS m c :=
    (keepH6 m ρ c main_v28 (by decide)).trans (s_crossH m ρ c hr)
  have hw : Hand.V12 m ρ c (Pipeline.arrRef spec6 1) = W1 m ρ c (Proc.devRef .tc main_v7) :=
    keep_to12 m ρ c main_v7 (by decide) (by decide) (by decide) (by decide) (by decide) (by decide) (by decide) (by decide) (by decide) (by decide) (by decide)
  have hres : Hand.V12 m ρ c (Pipeline.arrRef spec6 2) = arg m c main_arg1 :=
    (keep_to12 m ρ c main_arg1 (by decide) (by decide) (by decide) (by decide) (by decide) (by decide) (by decide) (by decide) (by decide) (by decide) (by decide)).trans
      (arg_at1 m ρ c main_arg1 (by decide))
  have hg : ∀ cc : Fin 512, (Hand.V12 m ρ c (Pipeline.arrRef spec6 3) : S1x512.Idx → EReal) (ix2 (0 : Fin 1) cc) = (arg m c main_arg9 : S512.Idx → EReal) (ix1 cc) := fun cc =>
    (g_v29 m ρ c cc).trans (congrFun ((keepR5 m ρ c main_arg9 (by decide)).trans ((keepR4 m ρ c main_arg9 (by decide)).trans ((keepH4 m ρ c main_arg9 (by decide)).trans
      ((keepR3 m ρ c main_arg9 (by decide)).trans ((keep_to7 m ρ c main_arg9 (by decide) (by decide) (by decide) (by decide) (by decide) (by decide)).trans
        (arg_at1 m ρ c main_arg9 (by decide))))))) (ix1 cc))
  have hb : ∀ cc : Fin 512, (Hand.V12 m ρ c (Pipeline.arrRef spec6 4) : S1x512.Idx → EReal) (ix2 (0 : Fin 1) cc) = (arg m c main_arg10 : S512.Idx → EReal) (ix1 cc) := fun cc =>
    (g_v30 m ρ c cc).trans (congrFun ((keepR5 m ρ c main_arg10 (by decide)).trans ((keepR4 m ρ c main_arg10 (by decide)).trans ((keepH4 m ρ c main_arg10 (by decide)).trans
      ((keepR3 m ρ c main_arg10 (by decide)).trans ((keep_to7 m ρ c main_arg10 (by decide) (by decide) (by decide) (by decide) (by decide) (by decide)).trans
        (arg_at1 m ρ c main_arg10 (by decide))))))) (ix1 cc))
  rw [hx, hw, hres] at h
  refine h.trans ?_
  rw [kLayerNorm_eq _ _ _ (arg m c main_arg9) (arg m c main_arg10) hg hb, kProjRes_eq, proj_wsum m ρ c _ (crossH_isReal m c hr) hr]
  rfl

theorem x_isReal (c : Dev nD) (hr : RealArgs m c) (i) : IsReal (xS m c i) :=
  layerNorm_isReal _ _ _ (fun j => (tileProj_isReal _ _ (crossH_isReal m c hr) hr.h8 j).add (hr.h1 j)) hr.h9 hr.h10 i

/-! ## Region 7: the feed-forward layer plus its input, under the second layer norm -/

set_option maxHeartbeats 4000000 in
theorem s_out (c : Dev nD) (hr : RealArgs m c) : (W15 m ρ c (Proc.devRef .tc main_v36) : S8192x512.Idx → EReal)
    = block (arg m c main_arg0) (arg m c main_arg1) (arg m c main_arg2) (arg m c main_arg3) (arg m c main_arg4) (arg m c main_arg5)
        (arg m c main_arg6) (arg m c main_arg7) (arg m c main_arg8) (arg m c main_arg9) (arg m c main_arg10) (arg m c main_arg11)
        (arg m c main_arg12) (arg m c main_arg13) (arg m c main_arg14) := by
  have h := (W15_arr m ρ c 7).trans (arr7 (Hand.V14 m ρ) c)
  have hx : Hand.V14 m ρ c (Pipeline.arrRef spec7 0) = xS m c := (keepH7 m ρ c main_v31 (by decide)).trans (s_x m ρ c hr)
  have hw1 : Hand.V14 m ρ c (Pipeline.arrRef spec7 1) = arg m c main_arg11 :=
    (keep_to14 m ρ c main_v8 (by decide) (by decide) (by decide) (by decide) (by decide) (by decide) (by decide) (by decide) (by decide) (by decide) (by decide) (by decide) (by decide)).trans (g_v8 m ρ c)
  have hw2 : Hand.V14 m ρ c (Pipeline.arrRef spec7 3) = arg m c main_arg13 :=
    (keep_to14 m ρ c main_v9 (by decide) (by decide) (by decide) (by decide) (by decide) (by decide) (by decide) (by decide) (by decide) (by decide) (by decide) (by decide) (by decide)).trans (g_v9 m ρ c)
  have at13 : ∀ b : Ref sig .tc, b ∉ Cert.KernelIdeal.Gen.hostOps0_W → b ≠ main_v15 → b ∉ Cert.KernelIdeal.Gen.hostOps1_W → b ≠ main_v19 →
      b ∉ Cert.KernelIdeal.Gen.hostOps2_W → b ≠ main_v21 → b ∉ Cert.KernelIdeal.Gen.hostOps3_W → b ≠ main_v23 → b ∉ Cert.KernelIdeal.Gen.hostOps4_W →
      b ≠ main_v27 → b ≠ main_v28 → b ∉ Cert.KernelIdeal.Gen.hostOps6_W → b ≠ main_v31 →
      W13 m ρ c (Proc.devRef .tc b) = arg m c b := fun b h0 h1 h2 h3 h4 h5 h6 h7 h8 h9 h10 h11 h12 =>
    (keepR6 m ρ c b h12).trans ((keep_to12 m ρ c b h1 h2 h3 h4 h5 h6 h7 h8 h9 h10 h11).trans (arg_at1 m ρ c b h0))
  have hb1 : ∀ j : Fin 2048, (Hand.V14 m ρ c (Pipeline.arrRef spec7 2) : S1x2048.Idx → EReal) (ix2 (0 : Fin 1) j) = (arg m c main_arg12 : S2048.Idx → EReal) (ix1 j) := fun j =>
    (g_v32 m ρ c j).trans (congrFun (at13 main_arg12 (by decide) (by decide) (by decide) (by decide) (by decide) (by decide) (by decide) (by decide) (by decide) (by decide) (by decide) (by decide) (by decide)) (ix1 j))
  have hb2 : ∀ cc : Fin 512, (Hand.V14 m ρ c (Pipeline.arrRef spec7 4) : S1x512.Idx → EReal) (ix2 (0 : Fin 1) cc) = (arg m c main_arg14 : S512.Idx → EReal) (ix1 cc) := fun cc =>
    (g_v33 m ρ c cc).trans (congrFun (at13 main_arg14 (by decide) (by decide) (by decide) (by decide) (by decide) (by decide) (by decide) (by decide) (by decide) (by decide) (by decide) (by decide) (by decide)) (ix1 cc))
  have hg : ∀ cc : Fin 512, (Hand.V14 m ρ c (Pipeline.arrRef spec7 5) : S1x512.Idx → EReal) (ix2 (0 : Fin 1) cc) = (arg m c main_arg9 : S512.Idx → EReal) (ix1 cc) := fun cc =>
    (g_v34 m ρ c cc).trans (congrFun (at13 main_arg9 (by decide) (by decide) (by decide) (by decide) (by decide) (by decide) (by decide) (by decide) (by decide) (by decide) (by decide) (by decide) (by decide)) (ix1 cc))
  have hb : ∀ cc : Fin 512, (Hand.V14 m ρ c (Pipeline.arrRef spec7 6) : S1x512.Idx → EReal) (ix2 (0 : Fin 1) cc) = (arg m c main_arg10 : S512.Idx → EReal) (ix1 cc) := fun cc =>
    (g_v35 m ρ c cc).trans (congrFun (at13 main_arg10 (by decide) (by decide) (by decide) (by decide) (by decide) (by decide) (by decide) (by decide) (by decide) (by decide) (by decide) (by decide) (by decide)) (ix1 cc))
  rw [hx, hw1, hw2] at h
  refine h.trans ?_
  rw [kLayerNorm_eq _ _ _ (arg m c main_arg9) (arg m c main_arg10) hg hb,
    kFfnRes_eq _ _ _ _ _ (arg m c main_arg12) (arg m c main_arg14) hb1 hb2]
  rfl

end Cert.KernelIdeal.Hand

end
-- ==== Proof.Ref.Steps.lean ====
/-
  Reading the fold of a straight line one operation at a time. In a line where operation k writes exactly one buffer,
  the k-th of a list of pairwise distinct references, every buffer is written once. So the buffer operation k writes
  ends at what that operation computed from the contents just before it ran (no later operation writes it again), and
  a buffer that is not written from position k on ends at what it held just before operation k (no later operation
  writes it at all). Together: if operation k computes f of the buffers a and b, neither of which is written from k on
  (they are arguments, or results of earlier operations), then at the end

      (the buffer it writes) = f (buffer a) (buffer b),

  an equation between final contents only. One such equation per operation, by the number of operands.
-/
import proofs.«172065_j32710470926956_2_alg».proof.Proof.Ref.Run
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo

variable {Val : EltTy → Type}

/-- Operation k of the line writes exactly the k-th reference of the list. -/
abbrev Aligned (l : List (HloOp τ sig Val)) (U : List (Ref sig .tc)) : Prop :=
  List.Forall₂ (fun op y => op.writes = {Proc.devRef (τ := τ) .tc y}) l U

/-- An aligned line writes inside its list. -/
theorem Aligned.writes {l : List (HloOp τ sig Val)} {U : List (Ref sig .tc)} (h : Aligned l U) :
    l.Forall fun op => op.writes ⊆ (U.map (Proc.devRef (τ := τ) .tc)).toFinset := by
  induction h with
  | nil => trivial
  | @cons op y l U hop _ ih =>
    rw [List.forall_cons]
    refine ⟨?_, ?_⟩
    · rw [hop, Finset.singleton_subset_iff, List.mem_toFinset]
      exact List.mem_map_of_mem List.mem_cons_self
    · rw [List.forall_iff_forall_mem] at ih ⊢
      intro o ho x hx
      obtain ⟨r, hr, rfl⟩ := List.mem_map.mp (List.mem_toFinset.mp (ih o ho hx))
      exact List.mem_toFinset.mpr (List.mem_map_of_mem (List.mem_cons_of_mem _ hr))

/-- A buffer not written from position k on holds at the end what it held just before operation k. -/
theorem after_take_eq {l : List (HloOp τ sig Val)} {U : List (Ref sig .tc)} (h : Aligned l U) (k : ℕ) {a : Ref sig .tc}
    (ha : a ∉ U.drop k) (V : Valuation τ sig Val) :
    after (l.take k) V (Proc.devRef .tc a) = after l V (Proc.devRef .tc a) := by
  conv_rhs => rw [← List.take_append_drop k l, StableHlo.after_append]
  exact (after_of_writes_sub (l.drop k) _ (Aligned.writes (List.forall₂_drop k h)) ha).symm

/-- The buffer operation k writes holds at the end what that operation computed from the contents just before it. -/
theorem after_at {l : List (HloOp τ sig Val)} {U : List (Ref sig .tc)} (h : Aligned l U) (hnd : U.Nodup) (k : ℕ)
    {op : HloOp τ sig Val} {y : Ref sig .tc} (hop : l[k]? = some op) (hy : U[k]? = some y) (V : Valuation τ sig Val) :
    after l V (Proc.devRef .tc y) = op.result (after (l.take k) V) (Proc.devRef .tc y) := by
  obtain ⟨hk, hlk⟩ := List.getElem?_eq_some_iff.mp hop
  obtain ⟨hkU, hUk⟩ := List.getElem?_eq_some_iff.mp hy
  have hdropU : U.drop k = y :: U.drop (k + 1) := by rw [List.drop_eq_getElem_cons hkU, hUk]
  have hy' : y ∉ U.drop (k + 1) := by
    have hnd' : (U.drop k).Nodup := hnd.sublist (List.drop_sublist k U)
    rw [hdropU] at hnd'
    exact (List.nodup_cons.mp hnd').1
  have hdrop : l.drop k = op :: l.drop (k + 1) := by rw [List.drop_eq_getElem_cons hk, hlk]
  conv_lhs => rw [← List.take_append_drop k l, StableHlo.after_append, hdrop, after_cons]
  exact after_of_writes_sub (l.drop (k + 1)) _ (Aligned.writes (List.forall₂_drop (k + 1) h)) hy'

/-! ## One step, by the number of operands -/

theorem step_nullary {l : List (HloOp τ sig Val)} {U : List (Ref sig .tc)} (h : Aligned l U) (hnd : U.Nodup) (k : ℕ)
    (y : Ref sig .tc) (v : y.ty.Contents Val) (hy)
    (hop : l[k]? = some (nullary (τ := τ) y v hy)) (hU : U[k]? = some y) (V : Valuation τ sig Val) :
    after l V (Proc.devRef .tc y) = v := by
  rw [after_at h hnd k hop hU, nullary_result]

theorem step_unary {l : List (HloOp τ sig Val)} {U : List (Ref sig .tc)} (h : Aligned l U) (hnd : U.Nodup) (k : ℕ)
    (x y : Ref sig .tc) (f : x.ty.Contents Val → y.ty.Contents Val) (hx hy)
    (hop : l[k]? = some (unary (τ := τ) x y f hx hy)) (hU : U[k]? = some y) (hnx : x ∉ U.drop k)
    (V : Valuation τ sig Val) :
    after l V (Proc.devRef .tc y) = f (after l V (Proc.devRef .tc x)) := by
  rw [after_at h hnd k hop hU, unary_result, after_take_eq h k hnx]

theorem step_binary {l : List (HloOp τ sig Val)} {U : List (Ref sig .tc)} (h : Aligned l U) (hnd : U.Nodup) (k : ℕ)
    (a b y : Ref sig .tc) (f : a.ty.Contents Val → b.ty.Contents Val → y.ty.Contents Val) (ha hb hy)
    (hop : l[k]? = some (binary (τ := τ) a b y f ha hb hy)) (hU : U[k]? = some y)
    (hna : a ∉ U.drop k) (hnb : b ∉ U.drop k) (V : Valuation τ sig Val) :
    after l V (Proc.devRef .tc y) = f (after l V (Proc.devRef .tc a)) (after l V (Proc.devRef .tc b)) := by
  rw [after_at h hnd k hop hU, binary_result, after_take_eq h k hna, after_take_eq h k hnb]

theorem step_ternary {l : List (HloOp τ sig Val)} {U : List (Ref sig .tc)} (h : Aligned l U) (hnd : U.Nodup) (k : ℕ)
    (c a b y : Ref sig .tc) (f : c.ty.Contents Val → a.ty.Contents Val → b.ty.Contents Val → y.ty.Contents Val) (hc ha hb hy)
    (hop : l[k]? = some (ternary (τ := τ) c a b y f hc ha hb hy)) (hU : U[k]? = some y)
    (hnc : c ∉ U.drop k) (hna : a ∉ U.drop k) (hnb : b ∉ U.drop k) (V : Valuation τ sig Val) :
    after l V (Proc.devRef .tc y)
      = f (after l V (Proc.devRef .tc c)) (after l V (Proc.devRef .tc a)) (after l V (Proc.devRef .tc b)) := by
  rw [after_at h hnd k hop hU, ternary_result, after_take_eq h k hnc, after_take_eq h k hna, after_take_eq h k hnb]

theorem step_reshape {l : List (HloOp τ sig Val)} {U : List (Ref sig .tc)} (h : Aligned l U) (hnd : U.Nodup) (k : ℕ)
    (x y : Ref sig .tc) (he hn hx hy)
    (hop : l[k]? = some (reshape (τ := τ) (Val := Val) x y he hn hx hy)) (hU : U[k]? = some y) (hnx : x ∉ U.drop k)
    (V : Valuation τ sig Val) :
    after l V (Proc.devRef .tc y) = fun i => he ▸ shapeCast y.ty.shape (after l V (Proc.devRef .tc x)) hn i := by
  rw [after_at h hnd k hop hU, reshape_result, after_take_eq h k hnx]

/-! ## The block's line -/

section Block

variable {F : FTy → Type} [FloatOps F] [Cert.ReferenceIdeal.Facts]

/-- Operation k of the block's line writes exactly the k-th written reference: the two windows' alignments, one after
    the other. -/
theorem ops_aligned : Aligned (ops : List (HloOp τ sig (Elt F))) W := List.rel_append ops0_aligned ops1_aligned

end Block

/-- The one hundred and seventy-four written references are pairwise distinct. -/
theorem W_nodup : (W : List (Ref sig .tc)).Nodup := by decide

end Cert.ReferenceIdeal.RefRun

end
-- ==== Proof.Ref.StepTable0.lean ====
/-
  The first window's operations as equations between final contents, one per operation: the buffer the operation writes
  holds, when the whole block has run, the operation's function of what its operand buffers hold then (each operand is an
  argument of the block or the result of an earlier operation, and no buffer is written twice).
-/
import proofs.«172065_j32710470926956_2_alg».proof.Proof.Ref.Steps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

-- the equations are between final contents: the fold itself is never opened here
attribute [local irreducible] StableHlo.after

theorem R_main_v0 (V : Valuation τ sig (Elt F)) :
    after ops V (main_v0 : DevRef τ sig) = ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)) (after ops V (main_arg1 : DevRef τ sig)) (after ops V (main_arg2 : DevRef τ sig)) :=
  step_binary ops_aligned W_nodup 0 main_arg1 main_arg2 main_v0 _ _ _ _ rfl rfl (by decide) (by decide) V
theorem R_main_v1 (V : Valuation τ sig (Elt F)) :
    after ops V (main_v1 : DevRef τ sig) = ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)) (after ops V (main_arg1 : DevRef τ sig)) (after ops V (main_arg3 : DevRef τ sig)) :=
  step_binary ops_aligned W_nodup 1 main_arg1 main_arg3 main_v1 _ _ _ _ rfl rfl (by decide) (by decide) V
theorem R_main_v2 (V : Valuation τ sig (Elt F)) :
    after ops V (main_v2 : DevRef τ sig) = ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)) (after ops V (main_arg1 : DevRef τ sig)) (after ops V (main_arg4 : DevRef τ sig)) :=
  step_binary ops_aligned W_nodup 2 main_arg1 main_arg4 main_v2 _ _ _ _ rfl rfl (by decide) (by decide) V
theorem R_main_v3 (V : Valuation τ sig (Elt F)) :
    after ops V (main_v3 : DevRef τ sig) = ((transpose S64x8192 [1, 0] · transposes_S8192x64_S64x8192_1_0) : (⟨S8192x64, .f32⟩ : BufTy).Contents (Elt F) → (⟨S64x8192, .f32⟩ : BufTy).Contents (Elt F)) (after ops V (main_v1 : DevRef τ sig)) :=
  step_unary ops_aligned W_nodup 3 main_v1 main_v3 _ _ _ rfl rfl (by decide) V
theorem R_main_v4 (V : Valuation τ sig (Elt F)) :
    after ops V (main_v4 : DevRef τ sig) = ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)) (after ops V (main_v0 : DevRef τ sig)) (after ops V (main_v3 : DevRef τ sig)) :=
  step_binary ops_aligned W_nodup 4 main_v0 main_v3 main_v4 _ _ _ _ rfl rfl (by decide) (by decide) V
theorem R_main_cst (V : Valuation τ sig (Elt F)) :
    after ops V (main_cst : DevRef τ sig) = (constant S_ .f32 0x41000000#32) :=
  step_nullary ops_aligned W_nodup 5 main_cst _ _ rfl rfl V
theorem R_main_v5 (V : Valuation τ sig (Elt F)) :
    after ops V (main_v5 : DevRef τ sig) = (broadcastInDim S8192x8192 ![] bcast_S_S8192x8192 : (⟨S_, .f32⟩ : BufTy).Contents (Elt F) → (⟨S8192x8192, .f32⟩ : BufTy).Contents (Elt F)) (after ops V (main_cst : DevRef τ sig)) :=
  step_unary ops_aligned W_nodup 6 main_cst main_v5 _ _ _ rfl rfl (by decide) V
theorem R_main_v6 (V : Valuation τ sig (Elt F)) :
    after ops V (main_v6 : DevRef τ sig) = (Host.divf : (⟨S8192x8192, .f32⟩ : BufTy).Contents (Elt F) → (⟨S8192x8192, .f32⟩ : BufTy).Contents (Elt F) → (⟨S8192x8192, .f32⟩ : BufTy).Contents (Elt F)) (after ops V (main_v4 : DevRef τ sig)) (after ops V (main_v5 : DevRef τ sig)) :=
  step_binary ops_aligned W_nodup 7 main_v4 main_v5 main_v6 _ _ _ _ rfl rfl (by decide) (by decide) V
theorem R_main_c (V : Valuation τ sig (Elt F)) :
    after ops V (main_c : DevRef τ sig) = (constantI S_ 1 1#1) :=
  step_nullary ops_aligned W_nodup 8 main_c _ _ rfl rfl V
theorem R_main_v7 (V : Valuation τ sig (Elt F)) :
    after ops V (main_v7 : DevRef τ sig) = (broadcastInDim S8192x8192 ![] bcast_S_S8192x8192 : (⟨S_, .i1⟩ : BufTy).Contents (Elt F) → (⟨S8192x8192, .i1⟩ : BufTy).Contents (Elt F)) (after ops V (main_c : DevRef τ sig)) :=
  step_unary ops_aligned W_nodup 9 main_c main_v7 _ _ _ rfl rfl (by decide) V
theorem R_main_call0_v0 (V : Valuation τ sig (Elt F)) :
    after ops V (main_call0_v0 : DevRef τ sig) = ((iotaInDim S8192x8192 32 0) : (⟨S8192x8192, .i32⟩ : BufTy).Contents (Elt F)) :=
  step_nullary ops_aligned W_nodup 10 main_call0_v0 _ _ rfl rfl V
theorem R_main_call0_c (V : Valuation τ sig (Elt F)) :
    after ops V (main_call0_c : DevRef τ sig) = ((constantI S_ 32 0#32) : (⟨S_, .i32⟩ : BufTy).Contents (Elt F)) :=
  step_nullary ops_aligned W_nodup 11 main_call0_c _ _ rfl rfl V
theorem R_main_call0_v1 (V : Valuation τ sig (Elt F)) :
    after ops V (main_call0_v1 : DevRef τ sig) = ((broadcastInDim S8192x8192 ![] bcast_S_S8192x8192) : (⟨S_, .i32⟩ : BufTy).Contents (Elt F) → (⟨S8192x8192, .i32⟩ : BufTy).Contents (Elt F)) (after ops V (main_call0_c : DevRef τ sig)) :=
  step_unary ops_aligned W_nodup 12 main_call0_c main_call0_v1 _ _ _ rfl rfl (by decide) V
theorem R_main_call0_v2 (V : Valuation τ sig (Elt F)) :
    after ops V (main_call0_v2 : DevRef τ sig) = (addi : (⟨S8192x8192, .i32⟩ : BufTy).Contents (Elt F) → (⟨S8192x8192, .i32⟩ : BufTy).Contents (Elt F) → (⟨S8192x8192, .i32⟩ : BufTy).Contents (Elt F)) (after ops V (main_call0_v0 : DevRef τ sig)) (after ops V (main_call0_v1 : DevRef τ sig)) :=
  step_binary ops_aligned W_nodup 13 main_call0_v0 main_call0_v1 main_call0_v2 _ _ _ _ rfl rfl (by decide) (by decide) V
theorem R_main_call0_v3 (V : Valuation τ sig (Elt F)) :
    after ops V (main_call0_v3 : DevRef τ sig) = ((iotaInDim S8192x8192 32 1) : (⟨S8192x8192, .i32⟩ : BufTy).Contents (Elt F)) :=
  step_nullary ops_aligned W_nodup 14 main_call0_v3 _ _ rfl rfl V
theorem R_main_call0_v4 (V : Valuation τ sig (Elt F)) :
    after ops V (main_call0_v4 : DevRef τ sig) = ((cmpi .sge) : (⟨S8192x8192, .i32⟩ : BufTy).Contents (Elt F) → (⟨S8192x8192, .i32⟩ : BufTy).Contents (Elt F) → (⟨S8192x8192, .i1⟩ : BufTy).Contents (Elt F)) (after ops V (main_call0_v2 : DevRef τ sig)) (after ops V (main_call0_v3 : DevRef τ sig)) :=
  step_binary ops_aligned W_nodup 15 main_call0_v2 main_call0_v3 main_call0_v4 _ _ _ _ rfl rfl (by decide) (by decide) V
theorem R_main_call0_c_0 (V : Valuation τ sig (Elt F)) :
    after ops V (main_call0_c_0 : DevRef τ sig) = ((constantI S_ 1 0#1) : (⟨S_, .i1⟩ : BufTy).Contents (Elt F)) :=
  step_nullary ops_aligned W_nodup 16 main_call0_c_0 _ _ rfl rfl V
theorem R_main_call0_v5 (V : Valuation τ sig (Elt F)) :
    after ops V (main_call0_v5 : DevRef τ sig) = ((broadcastInDim S8192x8192 ![] bcast_S_S8192x8192) : (⟨S_, .i1⟩ : BufTy).Contents (Elt F) → (⟨S8192x8192, .i1⟩ : BufTy).Contents (Elt F)) (after ops V (main_call0_c_0 : DevRef τ sig)) :=
  step_unary ops_aligned W_nodup 17 main_call0_c_0 main_call0_v5 _ _ _ rfl rfl (by decide) V
theorem R_main_v8 (V : Valuation τ sig (Elt F)) :
    after ops V (main_v8 : DevRef τ sig) = (select : (⟨S8192x8192, .i1⟩ : BufTy).Contents (Elt F) → (⟨S8192x8192, .i1⟩ : BufTy).Contents (Elt F) → (⟨S8192x8192, .i1⟩ : BufTy).Contents (Elt F) → (⟨S8192x8192, .i1⟩ : BufTy).Contents (Elt F)) (after ops V (main_call0_v4 : DevRef τ sig)) (after ops V (main_v7 : DevRef τ sig)) (after ops V (main_call0_v5 : DevRef τ sig)) :=
  step_ternary ops_aligned W_nodup 18 main_call0_v4 main_v7 main_call0_v5 main_v8 _ _ _ _ _ rfl rfl (by decide) (by decide) (by decide) V
theorem R_main_cst_0 (V : Valuation τ sig (Elt F)) :
    after ops V (main_cst_0 : DevRef τ sig) = (constant S_ .f32 0xFF800000#32) :=
  step_nullary ops_aligned W_nodup 19 main_cst_0 _ _ rfl rfl V
theorem R_main_call1_v0 (V : Valuation τ sig (Elt F)) :
    after ops V (main_call1_v0 : DevRef τ sig) = (id : (⟨S_, .f32⟩ : BufTy).Contents (Elt F) → (⟨S_, .f32⟩ : BufTy).Contents (Elt F)) (after ops V (main_cst_0 : DevRef τ sig)) :=
  step_unary ops_aligned W_nodup 20 main_cst_0 main_call1_v0 _ _ _ rfl rfl (by decide) V
theorem R_main_call1_v1 (V : Valuation τ sig (Elt F)) :
    after ops V (main_call1_v1 : DevRef τ sig) = ((broadcastInDim S8192x8192 ![] bcast_S_S8192x8192) : (⟨S_, .f32⟩ : BufTy).Contents (Elt F) → (⟨S8192x8192, .f32⟩ : BufTy).Contents (Elt F)) (after ops V (main_call1_v0 : DevRef τ sig)) :=
  step_unary ops_aligned W_nodup 21 main_call1_v0 main_call1_v1 _ _ _ rfl rfl (by decide) V
theorem R_main_v9 (V : Valuation τ sig (Elt F)) :
    after ops V (main_v9 : DevRef τ sig) = (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) (after ops V (main_v8 : DevRef τ sig)) (after ops V (main_v6 : DevRef τ sig)) (after ops V (main_call1_v1 : DevRef τ sig)) :=
  step_ternary ops_aligned W_nodup 22 main_v8 main_v6 main_call1_v1 main_v9 _ _ _ _ _ rfl rfl (by decide) (by decide) (by decide) V
theorem R_main_cst_1 (V : Valuation τ sig (Elt F)) :
    after ops V (main_cst_1 : DevRef τ sig) = (constant S_ .f32 0xFF800000#32) :=
  step_nullary ops_aligned W_nodup 23 main_cst_1 _ _ rfl rfl V
theorem R_main_v10 (V : Valuation τ sig (Elt F)) :
    after ops V (main_v10 : DevRef τ sig) = ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) (after ops V (main_v9 : DevRef τ sig)) (after ops V (main_cst_1 : DevRef τ sig)) :=
  step_binary ops_aligned W_nodup 24 main_v9 main_cst_1 main_v10 _ _ _ _ rfl rfl (by decide) (by decide) V
theorem R_main_cst_2 (V : Valuation τ sig (Elt F)) :
    after ops V (main_cst_2 : DevRef τ sig) = (constant S_ .f32 0xFF800000#32) :=
  step_nullary ops_aligned W_nodup 25 main_cst_2 _ _ rfl rfl V
theorem R_main_v11 (V : Valuation τ sig (Elt F)) :
    after ops V (main_v11 : DevRef τ sig) = (broadcastInDim S8192 ![] bcast_S_S8192 : (⟨S_, .f32⟩ : BufTy).Contents (Elt F) → (⟨S8192, .f32⟩ : BufTy).Contents (Elt F)) (after ops V (main_cst_2 : DevRef τ sig)) :=
  step_unary ops_aligned W_nodup 26 main_cst_2 main_v11 _ _ _ rfl rfl (by decide) V
theorem R_main_v12 (V : Valuation τ sig (Elt F)) :
    after ops V (main_v12 : DevRef τ sig) = (maximumf : (⟨S8192, .f32⟩ : BufTy).Contents (Elt F) → (⟨S8192, .f32⟩ : BufTy).Contents (Elt F) → (⟨S8192, .f32⟩ : BufTy).Contents (Elt F)) (after ops V (main_v11 : DevRef τ sig)) (after ops V (main_v10 : DevRef τ sig)) :=
  step_binary ops_aligned W_nodup 27 main_v11 main_v10 main_v12 _ _ _ _ rfl rfl (by decide) (by decide) V
theorem R_main_v13 (V : Valuation τ sig (Elt F)) :
    after ops V (main_v13 : DevRef τ sig) = (broadcastInDim S8192x1 ![0] bcast_S8192_S8192x1_0 : (⟨S8192, .f32⟩ : BufTy).Contents (Elt F) → (⟨S8192x1, .f32⟩ : BufTy).Contents (Elt F)) (after ops V (main_v12 : DevRef τ sig)) :=
  step_unary ops_aligned W_nodup 28 main_v12 main_v13 _ _ _ rfl rfl (by decide) V
theorem R_main_v14 (V : Valuation τ sig (Elt F)) :
    after ops V (main_v14 : DevRef τ sig) = (broadcastInDim S8192x8192 ![0, 1] bcast_S8192x1_S8192x8192_0_1 : (⟨S8192x1, .f32⟩ : BufTy).Contents (Elt F) → (⟨S8192x8192, .f32⟩ : BufTy).Contents (Elt F)) (after ops V (main_v13 : DevRef τ sig)) :=
  step_unary ops_aligned W_nodup 29 main_v13 main_v14 _ _ _ rfl rfl (by decide) V
theorem R_main_v15 (V : Valuation τ sig (Elt F)) :
    after ops V (main_v15 : DevRef τ sig) = (subf : (⟨S8192x8192, .f32⟩ : BufTy).Contents (Elt F) → (⟨S8192x8192, .f32⟩ : BufTy).Contents (Elt F) → (⟨S8192x8192, .f32⟩ : BufTy).Contents (Elt F)) (after ops V (main_v9 : DevRef τ sig)) (after ops V (main_v14 : DevRef τ sig)) :=
  step_binary ops_aligned W_nodup 30 main_v9 main_v14 main_v15 _ _ _ _ rfl rfl (by decide) (by decide) V
theorem R_main_v16 (V : Valuation τ sig (Elt F)) :
    after ops V (main_v16 : DevRef τ sig) = (Host.exp : (⟨S8192x8192, .f32⟩ : BufTy).Contents (Elt F) → (⟨S8192x8192, .f32⟩ : BufTy).Contents (Elt F)) (after ops V (main_v15 : DevRef τ sig)) :=
  step_unary ops_aligned W_nodup 31 main_v15 main_v16 _ _ _ rfl rfl (by decide) V
theorem R_main_cst_3 (V : Valuation τ sig (Elt F)) :
    after ops V (main_cst_3 : DevRef τ sig) = (constant S_ .f32 0x00000000#32) :=
  step_nullary ops_aligned W_nodup 32 main_cst_3 _ _ rfl rfl V
theorem R_main_v17 (V : Valuation τ sig (Elt F)) :
    after ops V (main_v17 : DevRef τ sig) = ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) (after ops V (main_v16 : DevRef τ sig)) (after ops V (main_cst_3 : DevRef τ sig)) :=
  step_binary ops_aligned W_nodup 33 main_v16 main_cst_3 main_v17 _ _ _ _ rfl rfl (by decide) (by decide) V
theorem R_main_v18 (V : Valuation τ sig (Elt F)) :
    after ops V (main_v18 : DevRef τ sig) = (broadcastInDim S8192x1 ![0] bcast_S8192_S8192x1_0 : (⟨S8192, .f32⟩ : BufTy).Contents (Elt F) → (⟨S8192x1, .f32⟩ : BufTy).Contents (Elt F)) (after ops V (main_v17 : DevRef τ sig)) :=
  step_unary ops_aligned W_nodup 34 main_v17 main_v18 _ _ _ rfl rfl (by decide) V
theorem R_main_v19 (V : Valuation τ sig (Elt F)) :
    after ops V (main_v19 : DevRef τ sig) = (broadcastInDim S8192x8192 ![0, 1] bcast_S8192x1_S8192x8192_0_1 : (⟨S8192x1, .f32⟩ : BufTy).Contents (Elt F) → (⟨S8192x8192, .f32⟩ : BufTy).Contents (Elt F)) (after ops V (main_v18 : DevRef τ sig)) :=
  step_unary ops_aligned W_nodup 35 main_v18 main_v19 _ _ _ rfl rfl (by decide) V
theorem R_main_v20 (V : Valuation τ sig (Elt F)) :
    after ops V (main_v20 : DevRef τ sig) = (Host.divf : (⟨S8192x8192, .f32⟩ : BufTy).Contents (Elt F) → (⟨S8192x8192, .f32⟩ : BufTy).Contents (Elt F) → (⟨S8192x8192, .f32⟩ : BufTy).Contents (Elt F)) (after ops V (main_v16 : DevRef τ sig)) (after ops V (main_v19 : DevRef τ sig)) :=
  step_binary ops_aligned W_nodup 36 main_v16 main_v19 main_v20 _ _ _ _ rfl rfl (by decide) (by decide) V
theorem R_main_v21 (V : Valuation τ sig (Elt F)) :
    after ops V (main_v21 : DevRef τ sig) = ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)) (after ops V (main_v20 : DevRef τ sig)) (after ops V (main_v2 : DevRef τ sig)) :=
  step_binary ops_aligned W_nodup 37 main_v20 main_v2 main_v21 _ _ _ _ rfl rfl (by decide) (by decide) V
theorem R_main_v22 (V : Valuation τ sig (Elt F)) :
    after ops V (main_v22 : DevRef τ sig) = shapeCast (main_v22 : Ref sig .tc).ty.shape (after ops V (main_v21 : DevRef τ sig)) shapeCasts_S8192x64_S1x8192x1x64 :=
  step_reshape ops_aligned W_nodup 38 main_v21 main_v22 _ _ _ _ rfl rfl (by decide) V
theorem R_main_v23 (V : Valuation τ sig (Elt F)) :
    after ops V (main_v23 : DevRef τ sig) = (broadcastInDim S1x8192x8x64 ![0, 1, 2, 3] bcast_S1x8192x1x64_S1x8192x8x64_0_1_2_3 : (⟨S1x8192x1x64, .f32⟩ : BufTy).Contents (Elt F) → (⟨S1x8192x8x64, .f32⟩ : BufTy).Contents (Elt F)) (after ops V (main_v22 : DevRef τ sig)) :=
  step_unary ops_aligned W_nodup 39 main_v22 main_v23 _ _ _ rfl rfl (by decide) V
theorem R_main_v24 (V : Valuation τ sig (Elt F)) :
    after ops V (main_v24 : DevRef τ sig) = shapeCast (main_v24 : Ref sig .tc).ty.shape (after ops V (main_v23 : DevRef τ sig)) shapeCasts_S1x8192x8x64_S8192x512 :=
  step_reshape ops_aligned W_nodup 40 main_v23 main_v24 _ _ _ _ rfl rfl (by decide) V
theorem R_main_v25 (V : Valuation τ sig (Elt F)) :
    after ops V (main_v25 : DevRef τ sig) = ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)) (after ops V (main_v24 : DevRef τ sig)) (after ops V (main_arg8 : DevRef τ sig)) :=
  step_binary ops_aligned W_nodup 41 main_v24 main_arg8 main_v25 _ _ _ _ rfl rfl (by decide) (by decide) V
theorem R_main_v26 (V : Valuation τ sig (Elt F)) :
    after ops V (main_v26 : DevRef τ sig) = ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)) (after ops V (main_v25 : DevRef τ sig)) (after ops V (main_arg5 : DevRef τ sig)) :=
  step_binary ops_aligned W_nodup 42 main_v25 main_arg5 main_v26 _ _ _ _ rfl rfl (by decide) (by decide) V
theorem R_main_v27 (V : Valuation τ sig (Elt F)) :
    after ops V (main_v27 : DevRef τ sig) = ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)) (after ops V (main_arg0 : DevRef τ sig)) (after ops V (main_arg6 : DevRef τ sig)) :=
  step_binary ops_aligned W_nodup 43 main_arg0 main_arg6 main_v27 _ _ _ _ rfl rfl (by decide) (by decide) V
theorem R_main_v28 (V : Valuation τ sig (Elt F)) :
    after ops V (main_v28 : DevRef τ sig) = ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)) (after ops V (main_arg0 : DevRef τ sig)) (after ops V (main_arg7 : DevRef τ sig)) :=
  step_binary ops_aligned W_nodup 44 main_arg0 main_arg7 main_v28 _ _ _ _ rfl rfl (by decide) (by decide) V
theorem R_main_v29 (V : Valuation τ sig (Elt F)) :
    after ops V (main_v29 : DevRef τ sig) = ((transpose S64x8192 [1, 0] · transposes_S8192x64_S64x8192_1_0) : (⟨S8192x64, .f32⟩ : BufTy).Contents (Elt F) → (⟨S64x8192, .f32⟩ : BufTy).Contents (Elt F)) (after ops V (main_v27 : DevRef τ sig)) :=
  step_unary ops_aligned W_nodup 45 main_v27 main_v29 _ _ _ rfl rfl (by decide) V
theorem R_main_v30 (V : Valuation τ sig (Elt F)) :
    after ops V (main_v30 : DevRef τ sig) = ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)) (after ops V (main_v26 : DevRef τ sig)) (after ops V (main_v29 : DevRef τ sig)) :=
  step_binary ops_aligned W_nodup 46 main_v26 main_v29 main_v30 _ _ _ _ rfl rfl (by decide) (by decide) V
theorem R_main_cst_4 (V : Valuation τ sig (Elt F)) :
    after ops V (main_cst_4 : DevRef τ sig) = (constant S_ .f32 0x41000000#32) :=
  step_nullary ops_aligned W_nodup 47 main_cst_4 _ _ rfl rfl V
theorem R_main_v31 (V : Valuation τ sig (Elt F)) :
    after ops V (main_v31 : DevRef τ sig) = (broadcastInDim S8192x8192 ![] bcast_S_S8192x8192 : (⟨S_, .f32⟩ : BufTy).Contents (Elt F) → (⟨S8192x8192, .f32⟩ : BufTy).Contents (Elt F)) (after ops V (main_cst_4 : DevRef τ sig)) :=
  step_unary ops_aligned W_nodup 48 main_cst_4 main_v31 _ _ _ rfl rfl (by decide) V
theorem R_main_v32 (V : Valuation τ sig (Elt F)) :
    after ops V (main_v32 : DevRef τ sig) = (Host.divf : (⟨S8192x8192, .f32⟩ : BufTy).Contents (Elt F) → (⟨S8192x8192, .f32⟩ : BufTy).Contents (Elt F) → (⟨S8192x8192, .f32⟩ : BufTy).Contents (Elt F)) (after ops V (main_v30 : DevRef τ sig)) (after ops V (main_v31 : DevRef τ sig)) :=
  step_binary ops_aligned W_nodup 49 main_v30 main_v31 main_v32 _ _ _ _ rfl rfl (by decide) (by decide) V
theorem R_main_cst_5 (V : Valuation τ sig (Elt F)) :
    after ops V (main_cst_5 : DevRef τ sig) = (constant S_ .f32 0xFF800000#32) :=
  step_nullary ops_aligned W_nodup 50 main_cst_5 _ _ rfl rfl V
theorem R_main_v33 (V : Valuation τ sig (Elt F)) :
    after ops V (main_v33 : DevRef τ sig) = ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) (after ops V (main_v32 : DevRef τ sig)) (after ops V (main_cst_5 : DevRef τ sig)) :=
  step_binary ops_aligned W_nodup 51 main_v32 main_cst_5 main_v33 _ _ _ _ rfl rfl (by decide) (by decide) V
theorem R_main_cst_6 (V : Valuation τ sig (Elt F)) :
    after ops V (main_cst_6 : DevRef τ sig) = (constant S_ .f32 0xFF800000#32) :=
  step_nullary ops_aligned W_nodup 52 main_cst_6 _ _ rfl rfl V
theorem R_main_v34 (V : Valuation τ sig (Elt F)) :
    after ops V (main_v34 : DevRef τ sig) = (broadcastInDim S8192 ![] bcast_S_S8192 : (⟨S_, .f32⟩ : BufTy).Contents (Elt F) → (⟨S8192, .f32⟩ : BufTy).Contents (Elt F)) (after ops V (main_cst_6 : DevRef τ sig)) :=
  step_unary ops_aligned W_nodup 53 main_cst_6 main_v34 _ _ _ rfl rfl (by decide) V
theorem R_main_v35 (V : Valuation τ sig (Elt F)) :
    after ops V (main_v35 : DevRef τ sig) = (maximumf : (⟨S8192, .f32⟩ : BufTy).Contents (Elt F) → (⟨S8192, .f32⟩ : BufTy).Contents (Elt F) → (⟨S8192, .f32⟩ : BufTy).Contents (Elt F)) (after ops V (main_v34 : DevRef τ sig)) (after ops V (main_v33 : DevRef τ sig)) :=
  step_binary ops_aligned W_nodup 54 main_v34 main_v33 main_v35 _ _ _ _ rfl rfl (by decide) (by decide) V
theorem R_main_v36 (V : Valuation τ sig (Elt F)) :
    after ops V (main_v36 : DevRef τ sig) = (broadcastInDim S8192x1 ![0] bcast_S8192_S8192x1_0 : (⟨S8192, .f32⟩ : BufTy).Contents (Elt F) → (⟨S8192x1, .f32⟩ : BufTy).Contents (Elt F)) (after ops V (main_v35 : DevRef τ sig)) :=
  step_unary ops_aligned W_nodup 55 main_v35 main_v36 _ _ _ rfl rfl (by decide) V
theorem R_main_v37 (V : Valuation τ sig (Elt F)) :
    after ops V (main_v37 : DevRef τ sig) = (broadcastInDim S8192x8192 ![0, 1] bcast_S8192x1_S8192x8192_0_1 : (⟨S8192x1, .f32⟩ : BufTy).Contents (Elt F) → (⟨S8192x8192, .f32⟩ : BufTy).Contents (Elt F)) (after ops V (main_v36 : DevRef τ sig)) :=
  step_unary ops_aligned W_nodup 56 main_v36 main_v37 _ _ _ rfl rfl (by decide) V
theorem R_main_v38 (V : Valuation τ sig (Elt F)) :
    after ops V (main_v38 : DevRef τ sig) = (subf : (⟨S8192x8192, .f32⟩ : BufTy).Contents (Elt F) → (⟨S8192x8192, .f32⟩ : BufTy).Contents (Elt F) → (⟨S8192x8192, .f32⟩ : BufTy).Contents (Elt F)) (after ops V (main_v32 : DevRef τ sig)) (after ops V (main_v37 : DevRef τ sig)) :=
  step_binary ops_aligned W_nodup 57 main_v32 main_v37 main_v38 _ _ _ _ rfl rfl (by decide) (by decide) V
theorem R_main_v39 (V : Valuation τ sig (Elt F)) :
    after ops V (main_v39 : DevRef τ sig) = (Host.exp : (⟨S8192x8192, .f32⟩ : BufTy).Contents (Elt F) → (⟨S8192x8192, .f32⟩ : BufTy).Contents (Elt F)) (after ops V (main_v38 : DevRef τ sig)) :=
  step_unary ops_aligned W_nodup 58 main_v38 main_v39 _ _ _ rfl rfl (by decide) V
theorem R_main_cst_7 (V : Valuation τ sig (Elt F)) :
    after ops V (main_cst_7 : DevRef τ sig) = (constant S_ .f32 0x00000000#32) :=
  step_nullary ops_aligned W_nodup 59 main_cst_7 _ _ rfl rfl V
theorem R_main_v40 (V : Valuation τ sig (Elt F)) :
    after ops V (main_v40 : DevRef τ sig) = ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) (after ops V (main_v39 : DevRef τ sig)) (after ops V (main_cst_7 : DevRef τ sig)) :=
  step_binary ops_aligned W_nodup 60 main_v39 main_cst_7 main_v40 _ _ _ _ rfl rfl (by decide) (by decide) V
theorem R_main_v41 (V : Valuation τ sig (Elt F)) :
    after ops V (main_v41 : DevRef τ sig) = (broadcastInDim S8192x1 ![0] bcast_S8192_S8192x1_0 : (⟨S8192, .f32⟩ : BufTy).Contents (Elt F) → (⟨S8192x1, .f32⟩ : BufTy).Contents (Elt F)) (after ops V (main_v40 : DevRef τ sig)) :=
  step_unary ops_aligned W_nodup 61 main_v40 main_v41 _ _ _ rfl rfl (by decide) V
theorem R_main_v42 (V : Valuation τ sig (Elt F)) :
    after ops V (main_v42 : DevRef τ sig) = (broadcastInDim S8192x8192 ![0, 1] bcast_S8192x1_S8192x8192_0_1 : (⟨S8192x1, .f32⟩ : BufTy).Contents (Elt F) → (⟨S8192x8192, .f32⟩ : BufTy).Contents (Elt F)) (after ops V (main_v41 : DevRef τ sig)) :=
  step_unary ops_aligned W_nodup 62 main_v41 main_v42 _ _ _ rfl rfl (by decide) V
theorem R_main_v43 (V : Valuation τ sig (Elt F)) :
    after ops V (main_v43 : DevRef τ sig) = (Host.divf : (⟨S8192x8192, .f32⟩ : BufTy).Contents (Elt F) → (⟨S8192x8192, .f32⟩ : BufTy).Contents (Elt F) → (⟨S8192x8192, .f32⟩ : BufTy).Contents (Elt F)) (after ops V (main_v39 : DevRef τ sig)) (after ops V (main_v42 : DevRef τ sig)) :=
  step_binary ops_aligned W_nodup 63 main_v39 main_v42 main_v43 _ _ _ _ rfl rfl (by decide) (by decide) V
theorem R_main_v44 (V : Valuation τ sig (Elt F)) :
    after ops V (main_v44 : DevRef τ sig) = ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)) (after ops V (main_v43 : DevRef τ sig)) (after ops V (main_v28 : DevRef τ sig)) :=
  step_binary ops_aligned W_nodup 64 main_v43 main_v28 main_v44 _ _ _ _ rfl rfl (by decide) (by decide) V
theorem R_main_v45 (V : Valuation τ sig (Elt F)) :
    after ops V (main_v45 : DevRef τ sig) = shapeCast (main_v45 : Ref sig .tc).ty.shape (after ops V (main_v44 : DevRef τ sig)) shapeCasts_S8192x64_S1x8192x1x64 :=
  step_reshape ops_aligned W_nodup 65 main_v44 main_v45 _ _ _ _ rfl rfl (by decide) V
theorem R_main_v46 (V : Valuation τ sig (Elt F)) :
    after ops V (main_v46 : DevRef τ sig) = (broadcastInDim S1x8192x8x64 ![0, 1, 2, 3] bcast_S1x8192x1x64_S1x8192x8x64_0_1_2_3 : (⟨S1x8192x1x64, .f32⟩ : BufTy).Contents (Elt F) → (⟨S1x8192x8x64, .f32⟩ : BufTy).Contents (Elt F)) (after ops V (main_v45 : DevRef τ sig)) :=
  step_unary ops_aligned W_nodup 66 main_v45 main_v46 _ _ _ rfl rfl (by decide) V
theorem R_main_v47 (V : Valuation τ sig (Elt F)) :
    after ops V (main_v47 : DevRef τ sig) = shapeCast (main_v47 : Ref sig .tc).ty.shape (after ops V (main_v46 : DevRef τ sig)) shapeCasts_S1x8192x8x64_S8192x512 :=
  step_reshape ops_aligned W_nodup 67 main_v46 main_v47 _ _ _ _ rfl rfl (by decide) V
theorem R_main_v48 (V : Valuation τ sig (Elt F)) :
    after ops V (main_v48 : DevRef τ sig) = ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)) (after ops V (main_v47 : DevRef τ sig)) (after ops V (main_arg8 : DevRef τ sig)) :=
  step_binary ops_aligned W_nodup 68 main_v47 main_arg8 main_v48 _ _ _ _ rfl rfl (by decide) (by decide) V
theorem R_main_v49 (V : Valuation τ sig (Elt F)) :
    after ops V (main_v49 : DevRef τ sig) = (addf : (⟨S8192x512, .f32⟩ : BufTy).Contents (Elt F) → (⟨S8192x512, .f32⟩ : BufTy).Contents (Elt F) → (⟨S8192x512, .f32⟩ : BufTy).Contents (Elt F)) (after ops V (main_v48 : DevRef τ sig)) (after ops V (main_arg1 : DevRef τ sig)) :=
  step_binary ops_aligned W_nodup 69 main_v48 main_arg1 main_v49 _ _ _ _ rfl rfl (by decide) (by decide) V

end Cert.ReferenceIdeal.RefRun

end
-- ==== Proof.Ref.Read.lean ====
/-
  Whole-array operations read at one index, on the extended reals. Each lemma says what one operation's result holds at
  an index, in terms of its operand at the indices it reads:
  * a matrix product with one contracted axis (the left operand's columns against the right operand's rows) is the
    sum over that axis of the products: the specification's matrix product;
  * a sum, or a maximum, along the rows of a matrix is the initial value combined with the row's entries;
  * a broadcast reads its operand at the coordinates it keeps (a scalar everywhere; a vector as a column; a column
    along the rows; a vector as a row; a row down the columns; one head along a new axis of eight);
  * a transpose swaps the two coordinates;
  * the two reshapes around the tiling keep the row-major position: [8192, 64] is [1, 8192, 1, 64] coordinate for
    coordinate, and [1, 8192, 8, 64] read at column c of [8192, 512] is head c / 64, column c mod 64.
-/
import proofs.«172065_j32710470926956_2_alg».proof.Proof.Spec.Ref
import Idealize.ShloMosaic.Lib.IdealHost
import Idealize.ShloMosaic.Lib.Pipeline.Value
import Idealize.ShloMosaic.PureOps.Reduce

noncomputable section

open scoped BigOperators

namespace Cert.Read

open Idealize.ShloMosaic Idealize.ShloMosaic.ValueIdx Cert.Spec

/-! ## A matrix product -/

/-- A product contracting the left operand's second axis against the right operand's first is the specification's
    matrix product. The four facts about the dimension record are computations on a literal record. -/
theorem dot_read {n k m : ℕ} (D : DotDims ⟨2, ![n, k]⟩ ⟨2, ![k, m]⟩ ⟨2, ![n, m]⟩)
    (hl : D.lhsContracting = [1]) (hr : D.rhsContracting = [0])
    (hrank : D.contr.rank = 1) (hsize : D.contr.size ⟨0, by omega⟩ = k)
    (hL : ∀ (j : (⟨2, ![n, m]⟩ : Shape).Idx) (q : D.contr.Idx), (D.lhsIdx j q 0).val = (j 0).val)
    (hR : ∀ (j : (⟨2, ![n, m]⟩ : Shape).Idx) (q : D.contr.Idx), (D.rhsIdx j q 1).val = (j 1).val)
    (prec : Option ContractPrecision) (x : FVec Ideal ⟨2, ![n, k]⟩ .f32) (w : FVec Ideal ⟨2, ![k, m]⟩ .f32) :
    Host.dotGeneral D prec x w = mm x w := by
  funext j
  show FloatOps.dotGeneral D prec .single x w j = ∑ p : Fin k, x (ix2 (j 0 : Fin n) p) * w (ix2 p (j 1 : Fin m))
  rw [Ideal.dotGeneral_apply, ← Equiv.sum_comp (contrEquiv1 D k hrank hsize).symm]
  refine Finset.sum_congr rfl fun p _ => ?_
  have e1 : D.lhsIdx j ((contrEquiv1 D k hrank hsize).symm p) = ix2 (j 0 : Fin n) p := by
    funext a
    refine Fin.ext ?_
    match a with
    | ⟨0, _⟩ => exact hL j _
    | ⟨1, _⟩ => exact (D.lhsIdx_val_of_single hl j _).trans (contrEquiv1_symm_val D k hrank hsize p)
  have e2 : D.rhsIdx j ((contrEquiv1 D k hrank hsize).symm p) = ix2 p (j 1 : Fin m) := by
    funext a
    refine Fin.ext ?_
    match a with
    | ⟨0, _⟩ => exact (D.rhsIdx_val_of_single hr j _).trans (contrEquiv1_symm_val D k hrank hsize p)
    | ⟨1, _⟩ => exact hR j _
  rw [e1, e2]
  rfl

/-! ## Reductions along the rows -/

/-- The index a row reduction reads: the row, with the column inserted. -/
theorem lift_eq_ix2 {n m : ℕ} (h : (⟨2, ![n, m]⟩ : Shape).Reduces [1] ⟨1, ![n]⟩)
    (hl0 : ∀ (j : (⟨1, ![n]⟩ : Shape).Idx) (c : Fin m), (h.lift j c 0).val = (j 0).val)
    (hl1 : ∀ (j : (⟨1, ![n]⟩ : Shape).Idx) (c : Fin m), (h.lift j c 1).val = c.val)
    (j : (⟨1, ![n]⟩ : Shape).Idx) (c : Fin m) : h.lift j c = ix2 (j 0 : Fin n) c := by
  funext a
  refine Fin.ext ?_
  match a with
  | ⟨0, _⟩ => exact hl0 j c
  | ⟨1, _⟩ => exact hl1 j c

/-- A sum along the rows: the initial value plus the row's entries. -/
theorem reduceAdd_rows {n m : ℕ} (h' : (⟨2, ![n, m]⟩ : Shape).ReducesTo [1] ⟨1, ![n]⟩)
    (h : (⟨2, ![n, m]⟩ : Shape).Reduces [1] ⟨1, ![n]⟩)
    (hl0 : ∀ (j : (⟨1, ![n]⟩ : Shape).Idx) (c : Fin m), (h.lift j c 0).val = (j 0).val)
    (hl1 : ∀ (j : (⟨1, ![n]⟩ : Shape).Idx) (c : Fin m), (h.lift j c 1).val = c.val)
    (x : FVec Ideal ⟨2, ![n, m]⟩ .f32) (init : (⟨0, ![]⟩ : Shape).Idx → Ideal .f32) (hu : 0 < (⟨0, ![]⟩ : Shape).numel)
    (j : (⟨1, ![n]⟩ : Shape).Idx) :
    Host.reduceAdd x init h' hu j = init (Shape.Idx.first hu) + ∑ c : Fin m, x (ix2 (j 0 : Fin n) c) := by
  rw [hostReduceAdd_apply, Ideal.hostReduceAdd_single h' h]
  exact congrArg (init (Shape.Idx.first hu) + ·) (Finset.sum_congr rfl fun c _ => congrArg x (lift_eq_ix2 h hl0 hl1 j c))

/-- A maximum along the rows: the fold of max from the initial value over the row's entries. -/
theorem reduceMax_rows {n m : ℕ} (h' : (⟨2, ![n, m]⟩ : Shape).ReducesTo [1] ⟨1, ![n]⟩)
    (h : (⟨2, ![n, m]⟩ : Shape).Reduces [1] ⟨1, ![n]⟩)
    (hl0 : ∀ (j : (⟨1, ![n]⟩ : Shape).Idx) (c : Fin m), (h.lift j c 0).val = (j 0).val)
    (hl1 : ∀ (j : (⟨1, ![n]⟩ : Shape).Idx) (c : Fin m), (h.lift j c 1).val = c.val)
    (x : FVec Ideal ⟨2, ![n, m]⟩ .f32) (init : (⟨0, ![]⟩ : Shape).Idx → Ideal .f32) (hu : 0 < (⟨0, ![]⟩ : Shape).numel)
    (j : (⟨1, ![n]⟩ : Shape).Idx) :
    Host.reduce (FloatOps.maximumf (F := Ideal) (φ := .f32)) x init h' hu j
      = Finset.univ.fold max (init (Shape.Idx.first hu)) (fun c : Fin m => x (ix2 (j 0 : Fin n) c)) := by
  rw [Host.reduce_eq_fold_single (FloatOps.maximumf (F := Ideal) (φ := .f32)) x init h' h hu j]
  have e : (x ∘ h.lift j) = fun c : Fin m => x (ix2 (j 0 : Fin n) c) :=
    funext fun c => congrArg x (lift_eq_ix2 h hl0 hl1 j c)
  rw [e]
  rfl

/-! ## Broadcasts -/

/-- A vector as a column. -/
theorem bcast_col {α : Type} {n : ℕ} (h : (⟨1, ![n]⟩ : Shape).BroadcastsInDim ⟨2, ![n, 1]⟩ ![0])
    (x : (⟨1, ![n]⟩ : Shape).Idx → α) (j : (⟨2, ![n, 1]⟩ : Shape).Idx) :
    broadcastInDim ⟨2, ![n, 1]⟩ ![0] h x j = x (ix1 (j 0 : Fin n)) := by
  refine broadcastInDim_apply _ h x j _ fun a => ?_
  match a with
  | ⟨0, _⟩ =>
    show (j 0 : Fin n).val = if n = 1 then 0 else (j 0 : Fin n).val
    have hlt : (j 0 : Fin n).val < n := (j 0 : Fin n).isLt
    split
    · omega
    · rfl

/-- A column along the rows. -/
theorem bcast_col_mat {α : Type} {n m : ℕ} (h : (⟨2, ![n, 1]⟩ : Shape).BroadcastsInDim ⟨2, ![n, m]⟩ ![0, 1])
    (x : (⟨2, ![n, 1]⟩ : Shape).Idx → α) (j : (⟨2, ![n, m]⟩ : Shape).Idx) :
    broadcastInDim ⟨2, ![n, m]⟩ ![0, 1] h x j = x (ix2 (j 0 : Fin n) (0 : Fin 1)) := by
  refine broadcastInDim_apply _ h x j _ fun a => ?_
  match a with
  | ⟨0, _⟩ =>
    show (j 0 : Fin n).val = if n = 1 then 0 else (j 0 : Fin n).val
    have hlt : (j 0 : Fin n).val < n := (j 0 : Fin n).isLt
    split
    · omega
    · rfl
  | ⟨1, _⟩ => rfl

/-- A vector as a row. -/
theorem bcast_row {α : Type} {m : ℕ} (h : (⟨1, ![m]⟩ : Shape).BroadcastsInDim ⟨2, ![1, m]⟩ ![1])
    (x : (⟨1, ![m]⟩ : Shape).Idx → α) (j : (⟨2, ![1, m]⟩ : Shape).Idx) :
    broadcastInDim ⟨2, ![1, m]⟩ ![1] h x j = x (ix1 (j 1 : Fin m)) := by
  refine broadcastInDim_apply _ h x j _ fun a => ?_
  match a with
  | ⟨0, _⟩ =>
    show (j 1 : Fin m).val = if m = 1 then 0 else (j 1 : Fin m).val
    have hlt : (j 1 : Fin m).val < m := (j 1 : Fin m).isLt
    split
    · omega
    · rfl

/-- A row down the columns. -/
theorem bcast_row_mat {α : Type} {n m : ℕ} (h : (⟨2, ![1, m]⟩ : Shape).BroadcastsInDim ⟨2, ![n, m]⟩ ![0, 1])
    (x : (⟨2, ![1, m]⟩ : Shape).Idx → α) (j : (⟨2, ![n, m]⟩ : Shape).Idx) :
    broadcastInDim ⟨2, ![n, m]⟩ ![0, 1] h x j = x (ix2 (0 : Fin 1) (j 1 : Fin m)) := by
  refine broadcastInDim_apply _ h x j _ fun a => ?_
  match a with
  | ⟨0, _⟩ => rfl
  | ⟨1, _⟩ =>
    show (j 1 : Fin m).val = if m = 1 then 0 else (j 1 : Fin m).val
    have hlt : (j 1 : Fin m).val < m := (j 1 : Fin m).isLt
    split
    · omega
    · rfl

/-- One head along a new axis of eight. -/
theorem bcast_tile {α : Type}
    (h : (⟨4, ![1, 8192, 1, 64]⟩ : Shape).BroadcastsInDim ⟨4, ![1, 8192, 8, 64]⟩ ![0, 1, 2, 3])
    (x : (⟨4, ![1, 8192, 1, 64]⟩ : Shape).Idx → α) (j : (⟨4, ![1, 8192, 8, 64]⟩ : Shape).Idx) :
    broadcastInDim ⟨4, ![1, 8192, 8, 64]⟩ ![0, 1, 2, 3] h x j
      = x (ix4 (0 : Fin 1) (j 1 : Fin 8192) (0 : Fin 1) (j 3 : Fin 64)) := by
  refine broadcastInDim_apply _ h x j _ fun a => ?_
  match a with
  | ⟨0, _⟩ => rfl
  | ⟨1, _⟩ => rfl
  | ⟨2, _⟩ => rfl
  | ⟨3, _⟩ => rfl

/-! ## A transpose and the two reshapes -/

/-- A transpose swaps the coordinates. -/
theorem transpose_read {α : Type} {n d : ℕ} (h : (⟨2, ![n, d]⟩ : Shape).Transposes [1, 0] ⟨2, ![d, n]⟩)
    (x : (⟨2, ![n, d]⟩ : Shape).Idx → α) (j : (⟨2, ![d, n]⟩ : Shape).Idx) :
    transpose ⟨2, ![d, n]⟩ [1, 0] x h j = x (ix2 (j 1 : Fin n) (j 0 : Fin d)) := by
  refine transpose_apply _ x h j _ fun b => ?_
  match b with
  | ⟨0, _⟩ => rfl
  | ⟨1, _⟩ => rfl

/-- [8192, 64] as [1, 8192, 1, 64]: coordinate for coordinate. -/
theorem reshape_head {α : Type} (h : (⟨2, ![8192, 64]⟩ : Shape).ShapeCasts ⟨4, ![1, 8192, 1, 64]⟩)
    (x : (⟨2, ![8192, 64]⟩ : Shape).Idx → α) (j : (⟨4, ![1, 8192, 1, 64]⟩ : Shape).Idx) :
    shapeCast ⟨4, ![1, 8192, 1, 64]⟩ x h j = x (ix2 (j 1 : Fin 8192) (j 3 : Fin 64)) := by
  refine shapeCast_apply x h j _ ?_
  rw [Shape.rowMajor_val_two, Shape.rowMajor_val_four]
  show (j 1 : Fin 8192).val * 64 + (j 3 : Fin 64).val
    = (((j 0 : Fin 1).val * 8192 + (j 1 : Fin 8192).val) * 1 + (j 2 : Fin 1).val) * 64 + (j 3 : Fin 64).val
  have h0 : (j 0 : Fin 1).val < 1 := (j 0 : Fin 1).isLt
  have h2 : (j 2 : Fin 1).val < 1 := (j 2 : Fin 1).isLt
  omega

/-- [1, 8192, 8, 64] as [8192, 512]: column c is head c / 64, column c mod 64. -/
theorem reshape_tiled {α : Type} (h : (⟨4, ![1, 8192, 8, 64]⟩ : Shape).ShapeCasts ⟨2, ![8192, 512]⟩)
    (x : (⟨4, ![1, 8192, 8, 64]⟩ : Shape).Idx → α) (j : (⟨2, ![8192, 512]⟩ : Shape).Idx) :
    shapeCast ⟨2, ![8192, 512]⟩ x h j
      = x (ix4 (0 : Fin 1) (j 0 : Fin 8192)
            (⟨(j 1 : Fin 512).val / 64, by have hlt : (j 1 : Fin 512).val < 512 := (j 1 : Fin 512).isLt; omega⟩ : Fin 8)
            (⟨(j 1 : Fin 512).val % 64, Nat.mod_lt _ (by norm_num)⟩ : Fin 64)) := by
  refine shapeCast_apply x h j _ ?_
  rw [Shape.rowMajor_val_four, Shape.rowMajor_val_two]
  show (((0 : Fin 1).val * 8192 + (j 0 : Fin 8192).val) * 8 + (j 1 : Fin 512).val / 64) * 64 + (j 1 : Fin 512).val % 64
    = (j 0 : Fin 8192).val * 512 + (j 1 : Fin 512).val
  have h1 : (j 1 : Fin 512).val < 512 := (j 1 : Fin 512).isLt
  show ((0 * 8192 + (j 0 : Fin 8192).val) * 8 + (j 1 : Fin 512).val / 64) * 64 + (j 1 : Fin 512).val % 64
    = (j 0 : Fin 8192).val * 512 + (j 1 : Fin 512).val
  omega

end Cert.Read

end
-- ==== Proof.Ref.StageMM.lean ====
/-
  The five projections of the reference block, at the extended reals: the queries, keys and values of the self-attention
  are the previous stage's output times three of the weight matrices, and the keys and values of the cross-attention are
  the encoder's output times two more. Each is one whole-array product contracting the 512 columns against the weight's
  512 rows, which read at an index is the sum over that axis of the products: the specification's matrix product of the
  two arguments, which no operation of the block writes.
-/
import proofs.«172065_j32710470926956_2_alg».proof.Proof.Ref.StepTable0
import proofs.«172065_j32710470926956_2_alg».proof.Proof.Ref.Read

noncomputable section

open scoped BigOperators

namespace Cert.ReferenceIdeal.RefRun

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

-- equations between final contents: the fold itself is never opened
attribute [local irreducible] StableHlo.after

/-- The self-attention queries: the previous stage's output times the first weight matrix. -/
theorem v0_eq (V : Valuation τ sig (Elt Ideal)) :
    after ops V (main_v0 : DevRef τ sig)
      = Cert.Spec.mm (n := 8192) (k := 512) (m := 64) (V (main_arg1 : DevRef τ sig)) (V (main_arg2 : DevRef τ sig)) := by
  rw [R_main_v0 V, arg1_kept V, arg2_kept V]
  exact Cert.Read.dot_read dot_S8192x512_S512x64_S8192x64_1_0_0_1_n_n rfl rfl rfl rfl (fun _ _ => rfl) (fun _ _ => rfl) none _ _

/-- The self-attention keys. -/
theorem v1_eq (V : Valuation τ sig (Elt Ideal)) :
    after ops V (main_v1 : DevRef τ sig)
      = Cert.Spec.mm (n := 8192) (k := 512) (m := 64) (V (main_arg1 : DevRef τ sig)) (V (main_arg3 : DevRef τ sig)) := by
  rw [R_main_v1 V, arg1_kept V, arg3_kept V]
  exact Cert.Read.dot_read dot_S8192x512_S512x64_S8192x64_1_0_0_1_n_n rfl rfl rfl rfl (fun _ _ => rfl) (fun _ _ => rfl) none _ _

/-- The self-attention values. -/
theorem v2_eq (V : Valuation τ sig (Elt Ideal)) :
    after ops V (main_v2 : DevRef τ sig)
      = Cert.Spec.mm (n := 8192) (k := 512) (m := 64) (V (main_arg1 : DevRef τ sig)) (V (main_arg4 : DevRef τ sig)) := by
  rw [R_main_v2 V, arg1_kept V, arg4_kept V]
  exact Cert.Read.dot_read dot_S8192x512_S512x64_S8192x64_1_0_0_1_n_n rfl rfl rfl rfl (fun _ _ => rfl) (fun _ _ => rfl) none _ _

/-- The cross-attention keys: the encoder's output times its key matrix. -/
theorem v27_eq (V : Valuation τ sig (Elt Ideal)) :
    after ops V (main_v27 : DevRef τ sig)
      = Cert.Spec.mm (n := 8192) (k := 512) (m := 64) (V (main_arg0 : DevRef τ sig)) (V (main_arg6 : DevRef τ sig)) := by
  rw [R_main_v27 V, arg0_kept V, arg6_kept V]
  exact Cert.Read.dot_read dot_S8192x512_S512x64_S8192x64_1_0_0_1_n_n rfl rfl rfl rfl (fun _ _ => rfl) (fun _ _ => rfl) none _ _

/-- The cross-attention values. -/
theorem v28_eq (V : Valuation τ sig (Elt Ideal)) :
    after ops V (main_v28 : DevRef τ sig)
      = Cert.Spec.mm (n := 8192) (k := 512) (m := 64) (V (main_arg0 : DevRef τ sig)) (V (main_arg7 : DevRef τ sig)) := by
  rw [R_main_v28 V, arg0_kept V, arg7_kept V]
  exact Cert.Read.dot_read dot_S8192x512_S512x64_S8192x64_1_0_0_1_n_n rfl rfl rfl rfl (fun _ _ => rfl) (fun _ _ => rfl) none _ _

end Cert.ReferenceIdeal.RefRun

end
-- ==== Proof.Ref.ChainScores.lean ====
/-
  Scores and the causal mask, once.
  * Scores: the keys transposed, the product of the queries with them, divided by 8 (a scalar 8.0 broadcast). Read at
    (r, t): the specification's score of query row r against key row t.
  * The mask: the row index (an iota along the rows, plus a broadcast zero) compared signed-greater-or-equal with the
    column index (an iota along the columns), then a select between the constants true and false. Positions are below
    8192, far below 2^31, so the signed comparison of the 32-bit encodings is the comparison of the numbers: the bit at
    (r, t) is 1 exactly when t ≤ r.
  * The masked scores: a select on that bit between the score and a broadcast -∞.
-/
import proofs.«172065_j32710470926956_2_alg».proof.Proof.Ref.Read

noncomputable section

open scoped BigOperators

namespace Cert.Read

open Idealize.ShloMosaic Idealize.ShloMosaic.ValueIdx Cert.Spec

/-! ## Positions as 32-bit integers -/

/-- A position below 8192, encoded in 32 bits and read back signed, is itself. -/
theorem toInt_small (a : ℕ) (ha : a < 8192) : (BitVec.ofNat 32 a).toInt = (a : Int) := by
  first
  | (rw [BitVec.toInt_eq_toNat_of_lt (by rw [BitVec.toNat_ofNat]; omega), BitVec.toNat_ofNat]; omega)
  | (rw [BitVec.toInt_ofNat]; omega)
  | (simp [BitVec.toInt_ofNat]; omega)
  | (simp only [BitVec.toInt, BitVec.toNat_ofNat]; omega)

/-- The signed comparison of two encoded positions (the row's plus zero) is the comparison of the positions. -/
theorem sle_small (r t : ℕ) (hr : r < 8192) (ht : t < 8192) :
    (BitVec.ofNat 32 t).sle (BitVec.ofNat 32 r + 0#32) = decide (t ≤ r) := by
  rw [BitVec.add_zero]
  first
  | (simp only [BitVec.sle, toInt_small _ hr, toInt_small _ ht]; simp)
  | (rw [Bool.eq_iff_iff, BitVec.sle_iff_toInt_le, toInt_small _ hr, toInt_small _ ht]; simp)
  | (unfold BitVec.sle; rw [toInt_small _ hr, toInt_small _ ht]; simp)

/-! ## Scores -/

theorem scores_chain
    {x0 x1 : FVec Ideal ⟨2, ![8192, 64]⟩ .f32} {x3 : FVec Ideal ⟨2, ![64, 8192]⟩ .f32}
    {x4 x5 x6 : FVec Ideal ⟨2, ![8192, 8192]⟩ .f32} {c8 : FVec Ideal ⟨0, ![]⟩ .f32}
    (ht : (⟨2, ![8192, 64]⟩ : Shape).Transposes [1, 0] ⟨2, ![64, 8192]⟩)
    (hb : (⟨0, ![]⟩ : Shape).BroadcastsInDim ⟨2, ![8192, 8192]⟩ ![])
    (D : DotDims ⟨2, ![8192, 64]⟩ ⟨2, ![64, 8192]⟩ ⟨2, ![8192, 8192]⟩)
    (hDl : D.lhsContracting = [1]) (hDr : D.rhsContracting = [0])
    (hDrank : D.contr.rank = 1) (hDsize : D.contr.size ⟨0, by omega⟩ = 64)
    (hDL : ∀ (j : (⟨2, ![8192, 8192]⟩ : Shape).Idx) (q : D.contr.Idx), (D.lhsIdx j q 0).val = (j 0).val)
    (hDR : ∀ (j : (⟨2, ![8192, 8192]⟩ : Shape).Idx) (q : D.contr.Idx), (D.rhsIdx j q 1).val = (j 1).val)
    (h3 : x3 = transpose ⟨2, ![64, 8192]⟩ [1, 0] x1 ht)
    (h4 : x4 = Host.dotGeneral D none x0 x3)
    (hc8 : c8 = constant ⟨0, ![]⟩ .f32 0x41000000#32)
    (h5 : x5 = broadcastInDim ⟨2, ![8192, 8192]⟩ ![] hb c8)
    (h6 : x6 = Host.divf x4 x5) :
    ∀ (r t : Fin 8192), x6 (ix2 r t) = scores x0 x1 r t := fun r t => by
  have e3 : ∀ p : Fin 64, x3 (ix2 p t) = x1 (ix2 t p) := fun p => by
    rw [h3, transpose_read]
  rw [h6]
  show Ideal.div (x4 (ix2 r t)) (x5 (ix2 r t)) = _
  rw [h5, broadcastInDim_scalar_apply, hc8, h4, dot_read D hDl hDr hDrank hDsize hDL hDR]
  show Ideal.div (∑ p : Fin 64, x0 (ix2 r p) * x3 (ix2 p t)) (Ideal.ofBits .f32 0x41000000#32)
    = Ideal.div (∑ p : Fin 64, x0 (ix2 r p) * x1 (ix2 t p)) (Ideal.ofBits .f32 0x41000000#32)
  rw [Finset.sum_congr rfl fun p _ => by rw [e3 p]]

/-! ## The causal mask -/

theorem mask_chain
    {i0 z1 a2 i3 : IVec ⟨2, ![8192, 8192]⟩ 32} {c0 : IVec ⟨0, ![]⟩ 32}
    {m4 m5 m7 m8 : IVec ⟨2, ![8192, 8192]⟩ 1} {cF cT : IVec ⟨0, ![]⟩ 1}
    (hb : (⟨0, ![]⟩ : Shape).BroadcastsInDim ⟨2, ![8192, 8192]⟩ ![])
    (hi0 : i0 = iotaInDim ⟨2, ![8192, 8192]⟩ 32 0)
    (hc0 : c0 = constantI ⟨0, ![]⟩ 32 0#32)
    (hz1 : z1 = broadcastInDim ⟨2, ![8192, 8192]⟩ ![] hb c0)
    (ha2 : a2 = addi i0 z1)
    (hi3 : i3 = iotaInDim ⟨2, ![8192, 8192]⟩ 32 1)
    (hm4 : m4 = cmpi .sge a2 i3)
    (hcF : cF = constantI ⟨0, ![]⟩ 1 0#1)
    (hm5 : m5 = broadcastInDim ⟨2, ![8192, 8192]⟩ ![] hb cF)
    (hcT : cT = constantI ⟨0, ![]⟩ 1 1#1)
    (hm7 : m7 = broadcastInDim ⟨2, ![8192, 8192]⟩ ![] hb cT)
    (hm8 : m8 = select m4 m7 m5) :
    ∀ (r t : Fin 8192), m8 (ix2 r t) = if t.val ≤ r.val then 1#1 else 0#1 := fun r t => by
  rw [hm8]
  show Scalar.select (m4 (ix2 r t)) (m7 (ix2 r t)) (m5 (ix2 r t)) = _
  rw [hm7, broadcastInDim_scalar_apply, hcT, hm5, broadcastInDim_scalar_apply, hcF, hm4]
  show Scalar.select (IntOp.cmpi .sge (a2 (ix2 r t)) (i3 (ix2 r t))) 1#1 0#1 = _
  rw [ha2, hi3]
  show Scalar.select (IntOp.cmpi .sge (IntOp.addi (i0 (ix2 r t)) (z1 (ix2 r t))) (BitVec.ofNat 32 t.val)) 1#1 0#1 = _
  rw [hi0, hz1, broadcastInDim_scalar_apply, hc0]
  show Scalar.select (BitVec.ofBool ((BitVec.ofNat 32 t.val).sle (BitVec.ofNat 32 r.val + 0#32))) 1#1 0#1 = _
  rw [sle_small r.val t.val r.isLt t.isLt]
  by_cases h : t.val ≤ r.val <;> simp [h, Scalar.select]

/-! ## The masked scores -/

theorem masked_chain
    {m8 : IVec ⟨2, ![8192, 8192]⟩ 1} {x6 x9 f1 : FVec Ideal ⟨2, ![8192, 8192]⟩ .f32} {cinf f0 : FVec Ideal ⟨0, ![]⟩ .f32}
    (hb : (⟨0, ![]⟩ : Shape).BroadcastsInDim ⟨2, ![8192, 8192]⟩ ![])
    (hcinf : cinf = constant ⟨0, ![]⟩ .f32 0xFF800000#32)
    (hf0 : f0 = id cinf)
    (hf1 : f1 = broadcastInDim ⟨2, ![8192, 8192]⟩ ![] hb f0)
    (h9 : x9 = select m8 x6 f1)
    (hm : ∀ (r t : Fin 8192), m8 (ix2 r t) = if t.val ≤ r.val then 1#1 else 0#1) :
    ∀ (r t : Fin 8192), x9 (ix2 r t) = if t.val ≤ r.val then x6 (ix2 r t) else ⊥ := fun r t => by
  rw [h9]
  show Scalar.select (m8 (ix2 r t)) (x6 (ix2 r t)) (f1 (ix2 r t)) = _
  rw [hm r t, hf1, broadcastInDim_scalar_apply, hf0, hcinf]
  show Scalar.select _ _ (Ideal.ofBits .f32 0xFF800000#32) = _
  rw [ofBits_neg_inf]
  by_cases h : t.val ≤ r.val <;> simp [h, Scalar.select]

end Cert.Read

end
-- ==== Proof.Ref.ChainSoftmax.lean ====
/-
  The softmax chain, once. Given a matrix of scores x9 (8192 rows, 8192 keys) and values x2, the reference computes, with
  whole-array operations: the row maximum from -∞ (and its maximum with -∞ again), the scores minus it, the exponential,
  the row sum from 0, the quotient, and the product of the quotients with the values. Read at an index (r, c) the result
  is the specification's softmax-weighted sum of column c of the values along row r of the scores. The hypotheses name
  each intermediate array by the operation that produces it, so that both attentions of the block instantiate the lemma
  with their own arrays.
-/
import proofs.«172065_j32710470926956_2_alg».proof.Proof.Ref.Read

noncomputable section

open scoped BigOperators

namespace Cert.Read

open Idealize.ShloMosaic Idealize.ShloMosaic.ValueIdx Cert.Spec

theorem softmax_chain
    {x9 x14 x15 x16 x19 x20 : FVec Ideal ⟨2, ![8192, 8192]⟩ .f32}
    {x10 x11 x12 x17 : FVec Ideal ⟨1, ![8192]⟩ .f32}
    {x13 x18 : FVec Ideal ⟨2, ![8192, 1]⟩ .f32}
    {c1 c2 c3 : FVec Ideal ⟨0, ![]⟩ .f32}
    {x2 x21 : FVec Ideal ⟨2, ![8192, 64]⟩ .f32}
    (hr : (⟨2, ![8192, 8192]⟩ : Shape).ReducesTo [1] ⟨1, ![8192]⟩) (hS : 0 < (⟨0, ![]⟩ : Shape).numel)
    (hb0 : (⟨0, ![]⟩ : Shape).BroadcastsInDim ⟨1, ![8192]⟩ ![])
    (hb1 : (⟨1, ![8192]⟩ : Shape).BroadcastsInDim ⟨2, ![8192, 1]⟩ ![0])
    (hb2 : (⟨2, ![8192, 1]⟩ : Shape).BroadcastsInDim ⟨2, ![8192, 8192]⟩ ![0, 1])
    (D : DotDims ⟨2, ![8192, 8192]⟩ ⟨2, ![8192, 64]⟩ ⟨2, ![8192, 64]⟩)
    (hDl : D.lhsContracting = [1]) (hDr : D.rhsContracting = [0])
    (hDrank : D.contr.rank = 1) (hDsize : D.contr.size ⟨0, by omega⟩ = 8192)
    (hDL : ∀ (j : (⟨2, ![8192, 64]⟩ : Shape).Idx) (q : D.contr.Idx), (D.lhsIdx j q 0).val = (j 0).val)
    (hDR : ∀ (j : (⟨2, ![8192, 64]⟩ : Shape).Idx) (q : D.contr.Idx), (D.rhsIdx j q 1).val = (j 1).val)
    (hc1 : c1 = constant ⟨0, ![]⟩ .f32 0xFF800000#32)
    (h10 : x10 = Host.reduce (FloatOps.maximumf (F := Ideal) (φ := .f32)) x9 c1 hr hS)
    (hc2 : c2 = constant ⟨0, ![]⟩ .f32 0xFF800000#32)
    (h11 : x11 = broadcastInDim ⟨1, ![8192]⟩ ![] hb0 c2)
    (h12 : x12 = maximumf x11 x10)
    (h13 : x13 = broadcastInDim ⟨2, ![8192, 1]⟩ ![0] hb1 x12)
    (h14 : x14 = broadcastInDim ⟨2, ![8192, 8192]⟩ ![0, 1] hb2 x13)
    (h15 : x15 = subf x9 x14)
    (h16 : x16 = Host.exp x15)
    (hc3 : c3 = constant ⟨0, ![]⟩ .f32 0x00000000#32)
    (h17 : x17 = Host.reduceAdd x16 c3 hr hS)
    (h18 : x18 = broadcastInDim ⟨2, ![8192, 1]⟩ ![0] hb1 x17)
    (h19 : x19 = broadcastInDim ⟨2, ![8192, 8192]⟩ ![0, 1] hb2 x18)
    (h20 : x20 = Host.divf x16 x19)
    (h21 : x21 = Host.dotGeneral D none x20 x2) :
    x21 = fun i => attend (fun t : Fin 8192 => x9 (ix2 (i 0 : Fin 8192) t)) x2 (i 1 : Fin 64) := by
  have hred : (⟨2, ![8192, 8192]⟩ : Shape).Reduces [1] ⟨1, ![8192]⟩ := by decide
  -- the row maximum
  have e10 : ∀ r : Fin 8192, x10 (ix1 r) = Finset.univ.fold max ⊥ (fun t : Fin 8192 => x9 (ix2 r t)) := fun r => by
    rw [h10, reduceMax_rows hr hred (fun _ _ => rfl) (fun _ _ => rfl), hc1]
    show Finset.univ.fold max (Ideal.ofBits .f32 0xFF800000#32) (fun t : Fin 8192 => x9 (ix2 r t)) = _
    rw [ofBits_neg_inf]
  have e12 : ∀ r : Fin 8192, x12 (ix1 r) = rowMax (fun t : Fin 8192 => x9 (ix2 r t)) := fun r => by
    rw [h12]
    show max (x11 (ix1 r)) (x10 (ix1 r)) = _
    rw [h11, broadcastInDim_scalar_apply, hc2, e10 r]
    show max (Ideal.ofBits .f32 0xFF800000#32) _ = _
    rw [ofBits_neg_inf]
    exact max_eq_right bot_le
  have e14 : ∀ (r t : Fin 8192), x14 (ix2 r t) = rowMax (fun u : Fin 8192 => x9 (ix2 r u)) := fun r t => by
    rw [h14, bcast_col_mat, h13, bcast_col]
    exact e12 r
  -- the exponentials and their row sum
  have e16 : ∀ (r t : Fin 8192), x16 (ix2 r t) = Ideal.exp (x9 (ix2 r t) - rowMax (fun u : Fin 8192 => x9 (ix2 r u))) :=
    fun r t => by
    rw [h16]
    show Ideal.exp (x15 (ix2 r t)) = _
    rw [h15]
    show Ideal.exp (x9 (ix2 r t) - x14 (ix2 r t)) = _
    rw [e14 r t]
  have e17 : ∀ r : Fin 8192, x17 (ix1 r) = ∑ t : Fin 8192, x16 (ix2 r t) := fun r => by
    rw [h17, reduceAdd_rows hr hred (fun _ _ => rfl) (fun _ _ => rfl), hc3]
    show Ideal.ofBits .f32 0x00000000#32 + ∑ t : Fin 8192, x16 (ix2 r t) = _
    rw [Ideal.ofBits_zero_f32, zero_add]
  have e19 : ∀ (r t : Fin 8192), x19 (ix2 r t) = ∑ u : Fin 8192, x16 (ix2 r u) := fun r t => by
    rw [h19, bcast_col_mat, h18, bcast_col]
    exact e17 r
  have e20 : ∀ (r t : Fin 8192), x20 (ix2 r t) = Ideal.div (x16 (ix2 r t)) (∑ u : Fin 8192, x16 (ix2 r u)) := fun r t => by
    rw [h20]
    show Ideal.div (x16 (ix2 r t)) (x19 (ix2 r t)) = _
    rw [e19 r t]
  -- the product with the values
  rw [h21, dot_read D hDl hDr hDrank hDsize hDL hDR]
  funext i
  obtain ⟨r, c, rfl⟩ : ∃ (r : Fin 8192) (c : Fin 64), i = ix2 r c := ⟨i 0, i 1, eq_ix2 i⟩
  show ∑ t : Fin 8192, x20 (ix2 r t) * x2 (ix2 t c)
    = ∑ t : Fin 8192, Ideal.div (Ideal.exp (x9 (ix2 r t) - rowMax (fun u : Fin 8192 => x9 (ix2 r u))))
        (∑ u : Fin 8192, Ideal.exp (x9 (ix2 r u) - rowMax (fun u : Fin 8192 => x9 (ix2 r u)))) * x2 (ix2 t c)
  refine Finset.sum_congr rfl fun t _ => ?_
  rw [e20 r t, e16 r t, Finset.sum_congr rfl fun u _ => e16 r u]

end Cert.Read

end
-- ==== Proof.Ref.StageCausal.lean ====
/-
  The causal self-attention head of the reference block, at the extended reals. From the queries, keys and values
  (the three projections) the reference forms the scores, masks every key after the query's own position to -∞, takes
  the softmax by rows and multiplies by the values: thirty-five whole-array operations. Read index by index they are the
  specification's causal head of the three projections: the scores chain gives each score, the mask chain gives the bit
  "key ≤ query", the select between the score and -∞ on that bit gives the masked score, and the softmax chain gives the
  weighted sum of the values along the masked row.
-/
import proofs.«172065_j32710470926956_2_alg».proof.Proof.Ref.StepTable0
import proofs.«172065_j32710470926956_2_alg».proof.Proof.Ref.ChainScores
import proofs.«172065_j32710470926956_2_alg».proof.Proof.Ref.ChainSoftmax

noncomputable section

open scoped BigOperators

namespace Cert.ReferenceIdeal.RefRun

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

-- equations between final contents: the fold itself is never opened
attribute [local irreducible] StableHlo.after

/-- The causal head is the specification's, of the three self-attention projections. -/
theorem v21_eq (V : Valuation τ sig (Elt Ideal)) :
    after ops V (main_v21 : DevRef τ sig)
      = Cert.Spec.causalHead (n := 8192) (d := 64) (after ops V (main_v0 : DevRef τ sig))
          (after ops V (main_v1 : DevRef τ sig)) (after ops V (main_v2 : DevRef τ sig)) := by
  have hs := Cert.Read.scores_chain transposes_S8192x64_S64x8192_1_0 bcast_S_S8192x8192
    dot_S8192x64_S64x8192_S8192x8192_1_0_0_1_n_n rfl rfl rfl rfl (fun _ _ => rfl) (fun _ _ => rfl)
    (R_main_v3 V) (R_main_v4 V) (R_main_cst V) (R_main_v5 V) (R_main_v6 V)
  have hm := Cert.Read.mask_chain bcast_S_S8192x8192 (R_main_call0_v0 V) (R_main_call0_c V) (R_main_call0_v1 V)
    (R_main_call0_v2 V) (R_main_call0_v3 V) (R_main_call0_v4 V) (R_main_call0_c_0 V) (R_main_call0_v5 V)
    (R_main_c V) (R_main_v7 V) (R_main_v8 V)
  have h9 := Cert.Read.masked_chain bcast_S_S8192x8192 (R_main_cst_0 V) (R_main_call1_v0 V) (R_main_call1_v1 V)
    (R_main_v9 V) hm
  have h21 := Cert.Read.softmax_chain reducesTo_S8192x8192_S8192_d1 h_S_ bcast_S_S8192 bcast_S8192_S8192x1_0
    bcast_S8192x1_S8192x8192_0_1 dot_S8192x8192_S8192x64_S8192x64_1_0_0_1_n_n rfl rfl rfl rfl (fun _ _ => rfl)
    (fun _ _ => rfl) (R_main_cst_1 V) (R_main_v10 V) (R_main_cst_2 V) (R_main_v11 V) (R_main_v12 V) (R_main_v13 V)
    (R_main_v14 V) (R_main_v15 V) (R_main_v16 V) (R_main_cst_3 V) (R_main_v17 V) (R_main_v18 V) (R_main_v19 V)
    (R_main_v20 V) (R_main_v21 V)
  rw [h21]
  funext i
  refine congrArg (fun s => Cert.Spec.attend s (after ops V (main_v2 : DevRef τ sig)) (i 1 : Fin 64)) (funext fun t => ?_)
  rw [h9 (i 0 : Fin 8192) t]
  split
  · exact hs (i 0 : Fin 8192) t
  · rfl

end Cert.ReferenceIdeal.RefRun

end
-- ==== Proof.Ref.ChainTile.lean ====
/-
  The shared head against the output matrix, once. The reference repeats the one head of width 64 eight times along
  the columns with three whole-array operations (a reshape to [1, 8192, 1, 64], a broadcast along the new axis of eight,
  a reshape back to [8192, 512]) and multiplies by a matrix with 512 rows. Column cc of the repeated row is the head's
  column cc mod 64, so the product at (r, c) is the sum over cc of head(r, cc mod 64) * w(cc, c): the specification's
  tiled projection. The hypotheses name each intermediate array by the operation that produces it.
-/
import proofs.«172065_j32710470926956_2_alg».proof.Proof.Ref.Read

noncomputable section

open scoped BigOperators

namespace Cert.Read

open Idealize.ShloMosaic Idealize.ShloMosaic.ValueIdx Cert.Spec

theorem tile_chain {m : ℕ}
    {x21 : FVec Ideal ⟨2, ![8192, 64]⟩ .f32} {x22 : FVec Ideal ⟨4, ![1, 8192, 1, 64]⟩ .f32}
    {x23 : FVec Ideal ⟨4, ![1, 8192, 8, 64]⟩ .f32} {x24 : FVec Ideal ⟨2, ![8192, 512]⟩ .f32}
    {w : FVec Ideal ⟨2, ![512, m]⟩ .f32} {x25 : FVec Ideal ⟨2, ![8192, m]⟩ .f32}
    (hc1 : (⟨2, ![8192, 64]⟩ : Shape).ShapeCasts ⟨4, ![1, 8192, 1, 64]⟩)
    (hb : (⟨4, ![1, 8192, 1, 64]⟩ : Shape).BroadcastsInDim ⟨4, ![1, 8192, 8, 64]⟩ ![0, 1, 2, 3])
    (hc2 : (⟨4, ![1, 8192, 8, 64]⟩ : Shape).ShapeCasts ⟨2, ![8192, 512]⟩)
    (D : DotDims ⟨2, ![8192, 512]⟩ ⟨2, ![512, m]⟩ ⟨2, ![8192, m]⟩)
    (hDl : D.lhsContracting = [1]) (hDr : D.rhsContracting = [0])
    (hDrank : D.contr.rank = 1) (hDsize : D.contr.size ⟨0, by omega⟩ = 512)
    (hDL : ∀ (j : (⟨2, ![8192, m]⟩ : Shape).Idx) (q : D.contr.Idx), (D.lhsIdx j q 0).val = (j 0).val)
    (hDR : ∀ (j : (⟨2, ![8192, m]⟩ : Shape).Idx) (q : D.contr.Idx), (D.rhsIdx j q 1).val = (j 1).val)
    (h22 : x22 = shapeCast ⟨4, ![1, 8192, 1, 64]⟩ x21 hc1)
    (h23 : x23 = broadcastInDim ⟨4, ![1, 8192, 8, 64]⟩ ![0, 1, 2, 3] hb x22)
    (h24 : x24 = shapeCast ⟨2, ![8192, 512]⟩ x23 hc2)
    (h25 : x25 = Host.dotGeneral D none x24 w) :
    x25 = tileProj x21 w := by
  have e24 : ∀ (r : Fin 8192) (cc : Fin 512),
      x24 (ix2 r cc) = x21 (ix2 r (⟨cc.val % 64, Nat.mod_lt _ (by norm_num)⟩ : Fin 64)) := fun r cc => by
    rw [h24, reshape_tiled, h23, bcast_tile, h22, reshape_head]
  rw [h25, dot_read D hDl hDr hDrank hDsize hDL hDR]
  funext i
  obtain ⟨r, c, rfl⟩ : ∃ (r : Fin 8192) (c : Fin m), i = ix2 r c := ⟨i 0, i 1, eq_ix2 i⟩
  show ∑ cc : Fin 512, x24 (ix2 r cc) * w (ix2 cc c)
    = ∑ cc : Fin 512, x21 (ix2 r (⟨cc.val % 64, Nat.mod_lt _ (by norm_num)⟩ : Fin 64)) * w (ix2 cc c)
  exact Finset.sum_congr rfl fun cc _ => by rw [e24 r cc]

end Cert.Read

end
-- ==== Proof.Ref.StageTile.lean ====
/-
  The causal head against the output matrix, and the cross-attention queries, at the extended reals. The reference
  repeats the head eight times along the columns and multiplies by the output matrix: the specification's tiled
  projection of the head. The cross-attention queries are that result times their weight matrix: a matrix product.
-/
import proofs.«172065_j32710470926956_2_alg».proof.Proof.Ref.StepTable0
import proofs.«172065_j32710470926956_2_alg».proof.Proof.Ref.ChainTile

noncomputable section

open scoped BigOperators

namespace Cert.ReferenceIdeal.RefRun

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

-- equations between final contents: the fold itself is never opened
attribute [local irreducible] StableHlo.after

/-- The self-attention block's output: the tiled projection of the causal head by the output matrix. -/
theorem v25_eq (V : Valuation τ sig (Elt Ideal)) :
    after ops V (main_v25 : DevRef τ sig)
      = Cert.Spec.tileProj (n := 8192) (m := 512) (after ops V (main_v21 : DevRef τ sig)) (V (main_arg8 : DevRef τ sig)) := by
  have h := Cert.Read.tile_chain shapeCasts_S8192x64_S1x8192x1x64 bcast_S1x8192x1x64_S1x8192x8x64_0_1_2_3
    shapeCasts_S1x8192x8x64_S8192x512 dot_S8192x512_S512x512_S8192x512_1_0_0_1_n_n rfl rfl rfl rfl (fun _ _ => rfl)
    (fun _ _ => rfl) (R_main_v22 V) (R_main_v23 V) (R_main_v24 V) (R_main_v25 V)
  rw [h, arg8_kept V]

/-- The cross-attention queries: that output times the query matrix. -/
theorem v26_eq (V : Valuation τ sig (Elt Ideal)) :
    after ops V (main_v26 : DevRef τ sig)
      = Cert.Spec.mm (n := 8192) (k := 512) (m := 64) (after ops V (main_v25 : DevRef τ sig)) (V (main_arg5 : DevRef τ sig)) := by
  rw [R_main_v26 V, arg5_kept V]
  exact Cert.Read.dot_read dot_S8192x512_S512x64_S8192x64_1_0_0_1_n_n rfl rfl rfl rfl (fun _ _ => rfl) (fun _ _ => rfl) none _ _

end Cert.ReferenceIdeal.RefRun

end
-- ==== Proof.Ref.StageCross.lean ====
/-
  The cross-attention of the reference block, at the extended reals: the scores of its queries (from the
  self-attention's output) against the keys (from the encoder's output), the softmax by rows with no mask, the product
  with the values: the specification's cross head. Then the head against the output matrix (the tiled projection again)
  and the first residual sum with the previous stage's output.
-/
import proofs.«172065_j32710470926956_2_alg».proof.Proof.Ref.StepTable0
import proofs.«172065_j32710470926956_2_alg».proof.Proof.Ref.ChainScores
import proofs.«172065_j32710470926956_2_alg».proof.Proof.Ref.ChainSoftmax
import proofs.«172065_j32710470926956_2_alg».proof.Proof.Ref.ChainTile

noncomputable section

open scoped BigOperators

namespace Cert.ReferenceIdeal.RefRun

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

-- equations between final contents: the fold itself is never opened
attribute [local irreducible] StableHlo.after

/-- The cross head is the specification's, of its queries, keys and values. -/
theorem v44_eq (V : Valuation τ sig (Elt Ideal)) :
    after ops V (main_v44 : DevRef τ sig)
      = Cert.Spec.crossHead (n := 8192) (n' := 8192) (d := 64) (after ops V (main_v26 : DevRef τ sig))
          (after ops V (main_v27 : DevRef τ sig)) (after ops V (main_v28 : DevRef τ sig)) := by
  have hs := Cert.Read.scores_chain transposes_S8192x64_S64x8192_1_0 bcast_S_S8192x8192
    dot_S8192x64_S64x8192_S8192x8192_1_0_0_1_n_n rfl rfl rfl rfl (fun _ _ => rfl) (fun _ _ => rfl)
    (R_main_v29 V) (R_main_v30 V) (R_main_cst_4 V) (R_main_v31 V) (R_main_v32 V)
  have h44 := Cert.Read.softmax_chain reducesTo_S8192x8192_S8192_d1 h_S_ bcast_S_S8192 bcast_S8192_S8192x1_0
    bcast_S8192x1_S8192x8192_0_1 dot_S8192x8192_S8192x64_S8192x64_1_0_0_1_n_n rfl rfl rfl rfl (fun _ _ => rfl)
    (fun _ _ => rfl) (R_main_cst_5 V) (R_main_v33 V) (R_main_cst_6 V) (R_main_v34 V) (R_main_v35 V) (R_main_v36 V)
    (R_main_v37 V) (R_main_v38 V) (R_main_v39 V) (R_main_cst_7 V) (R_main_v40 V) (R_main_v41 V) (R_main_v42 V)
    (R_main_v43 V) (R_main_v44 V)
  rw [h44]
  funext i
  exact congrArg (fun s => Cert.Spec.attend s (after ops V (main_v28 : DevRef τ sig)) (i 1 : Fin 64))
    (funext fun t => hs (i 0 : Fin 8192) t)

/-- The cross-attention block's output: the tiled projection of the cross head by the output matrix. -/
theorem v48_eq (V : Valuation τ sig (Elt Ideal)) :
    after ops V (main_v48 : DevRef τ sig)
      = Cert.Spec.tileProj (n := 8192) (m := 512) (after ops V (main_v44 : DevRef τ sig)) (V (main_arg8 : DevRef τ sig)) := by
  have h := Cert.Read.tile_chain shapeCasts_S8192x64_S1x8192x1x64 bcast_S1x8192x1x64_S1x8192x8x64_0_1_2_3
    shapeCasts_S1x8192x8x64_S8192x512 dot_S8192x512_S512x512_S8192x512_1_0_0_1_n_n rfl rfl rfl rfl (fun _ _ => rfl)
    (fun _ _ => rfl) (R_main_v45 V) (R_main_v46 V) (R_main_v47 V) (R_main_v48 V)
  rw [h, arg8_kept V]

/-- The first residual sum: that output plus the previous stage's. -/
theorem v49_eq (V : Valuation τ sig (Elt Ideal)) :
    after ops V (main_v49 : DevRef τ sig)
      = fun i : (⟨2, ![8192, 512]⟩ : Shape).Idx =>
          Cert.Spec.tileProj (n := 8192) (m := 512) (after ops V (main_v44 : DevRef τ sig)) (V (main_arg8 : DevRef τ sig)) i
            + V (main_arg1 : DevRef τ sig) i := by
  rw [R_main_v49 V, v48_eq V, arg1_kept V]
  rfl

end Cert.ReferenceIdeal.RefRun

end
-- ==== Proof.Ref.StepTable1.lean ====
/-
  The second window's operations as equations between final contents, one per operation: the buffer the operation writes
  holds, when the whole block has run, the operation's function of what its operand buffers hold then (each operand is an
  argument of the block or the result of an earlier operation, and no buffer is written twice).
-/
import proofs.«172065_j32710470926956_2_alg».proof.Proof.Ref.Steps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

-- the equations are between final contents: the fold itself is never opened here
attribute [local irreducible] StableHlo.after

theorem R_main_cst_8 (V : Valuation τ sig (Elt F)) :
    after ops V (main_cst_8 : DevRef τ sig) = (constant S_ .f32 0x00000000#32) :=
  step_nullary ops_aligned W_nodup 70 main_cst_8 _ _ rfl rfl V
theorem R_main_v50 (V : Valuation τ sig (Elt F)) :
    after ops V (main_v50 : DevRef τ sig) = ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)) (after ops V (main_v49 : DevRef τ sig)) (after ops V (main_cst_8 : DevRef τ sig)) :=
  step_binary ops_aligned W_nodup 71 main_v49 main_cst_8 main_v50 _ _ _ _ rfl rfl (by decide) (by decide) V
theorem R_main_v51 (V : Valuation τ sig (Elt F)) :
    after ops V (main_v51 : DevRef τ sig) = (broadcastInDim S8192x1 ![0] bcast_S8192_S8192x1_0 : (⟨S8192, .f32⟩ : BufTy).Contents (Elt F) → (⟨S8192x1, .f32⟩ : BufTy).Contents (Elt F)) (after ops V (main_v50 : DevRef τ sig)) :=
  step_unary ops_aligned W_nodup 72 main_v50 main_v51 _ _ _ rfl rfl (by decide) V
theorem R_main_cst_9 (V : Valuation τ sig (Elt F)) :
    after ops V (main_cst_9 : DevRef τ sig) = (constant S_ .f32 0x44000000#32) :=
  step_nullary ops_aligned W_nodup 73 main_cst_9 _ _ rfl rfl V
theorem R_main_v52 (V : Valuation τ sig (Elt F)) :
    after ops V (main_v52 : DevRef τ sig) = (broadcastInDim S8192x1 ![] bcast_S_S8192x1 : (⟨S_, .f32⟩ : BufTy).Contents (Elt F) → (⟨S8192x1, .f32⟩ : BufTy).Contents (Elt F)) (after ops V (main_cst_9 : DevRef τ sig)) :=
  step_unary ops_aligned W_nodup 74 main_cst_9 main_v52 _ _ _ rfl rfl (by decide) V
theorem R_main_v53 (V : Valuation τ sig (Elt F)) :
    after ops V (main_v53 : DevRef τ sig) = (Host.divf : (⟨S8192x1, .f32⟩ : BufTy).Contents (Elt F) → (⟨S8192x1, .f32⟩ : BufTy).Contents (Elt F) → (⟨S8192x1, .f32⟩ : BufTy).Contents (Elt F)) (after ops V (main_v51 : DevRef τ sig)) (after ops V (main_v52 : DevRef τ sig)) :=
  step_binary ops_aligned W_nodup 75 main_v51 main_v52 main_v53 _ _ _ _ rfl rfl (by decide) (by decide) V
theorem R_main_c_10 (V : Valuation τ sig (Elt F)) :
    after ops V (main_c_10 : DevRef τ sig) = (constantI S_ 32 0#32) :=
  step_nullary ops_aligned W_nodup 76 main_c_10 _ _ rfl rfl V
theorem R_main_call2_cst (V : Valuation τ sig (Elt F)) :
    after ops V (main_call2_cst : DevRef τ sig) = ((constant S_ .f32 0x00000000#32) : (⟨S_, .f32⟩ : BufTy).Contents (Elt F)) :=
  step_nullary ops_aligned W_nodup 77 main_call2_cst _ _ rfl rfl V
theorem R_main_call2_v0 (V : Valuation τ sig (Elt F)) :
    after ops V (main_call2_v0 : DevRef τ sig) = ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)) (after ops V (main_v49 : DevRef τ sig)) (after ops V (main_call2_cst : DevRef τ sig)) :=
  step_binary ops_aligned W_nodup 78 main_v49 main_call2_cst main_call2_v0 _ _ _ _ rfl rfl (by decide) (by decide) V
theorem R_main_call2_v1 (V : Valuation τ sig (Elt F)) :
    after ops V (main_call2_v1 : DevRef τ sig) = ((broadcastInDim S8192x1 ![0] bcast_S8192_S8192x1_0) : (⟨S8192, .f32⟩ : BufTy).Contents (Elt F) → (⟨S8192x1, .f32⟩ : BufTy).Contents (Elt F)) (after ops V (main_call2_v0 : DevRef τ sig)) :=
  step_unary ops_aligned W_nodup 79 main_call2_v0 main_call2_v1 _ _ _ rfl rfl (by decide) V
theorem R_main_call2_cst_0 (V : Valuation τ sig (Elt F)) :
    after ops V (main_call2_cst_0 : DevRef τ sig) = ((constant S_ .f32 0x44000000#32) : (⟨S_, .f32⟩ : BufTy).Contents (Elt F)) :=
  step_nullary ops_aligned W_nodup 80 main_call2_cst_0 _ _ rfl rfl V
theorem R_main_call2_v2 (V : Valuation τ sig (Elt F)) :
    after ops V (main_call2_v2 : DevRef τ sig) = ((broadcastInDim S8192x1 ![] bcast_S_S8192x1) : (⟨S_, .f32⟩ : BufTy).Contents (Elt F) → (⟨S8192x1, .f32⟩ : BufTy).Contents (Elt F)) (after ops V (main_call2_cst_0 : DevRef τ sig)) :=
  step_unary ops_aligned W_nodup 81 main_call2_cst_0 main_call2_v2 _ _ _ rfl rfl (by decide) V
theorem R_main_call2_v3 (V : Valuation τ sig (Elt F)) :
    after ops V (main_call2_v3 : DevRef τ sig) = (Host.divf : (⟨S8192x1, .f32⟩ : BufTy).Contents (Elt F) → (⟨S8192x1, .f32⟩ : BufTy).Contents (Elt F) → (⟨S8192x1, .f32⟩ : BufTy).Contents (Elt F)) (after ops V (main_call2_v1 : DevRef τ sig)) (after ops V (main_call2_v2 : DevRef τ sig)) :=
  step_binary ops_aligned W_nodup 82 main_call2_v1 main_call2_v2 main_call2_v3 _ _ _ _ rfl rfl (by decide) (by decide) V
theorem R_main_call2_v4 (V : Valuation τ sig (Elt F)) :
    after ops V (main_call2_v4 : DevRef τ sig) = ((broadcastInDim S8192x512 ![0, 1] bcast_S8192x1_S8192x512_0_1) : (⟨S8192x1, .f32⟩ : BufTy).Contents (Elt F) → (⟨S8192x512, .f32⟩ : BufTy).Contents (Elt F)) (after ops V (main_call2_v3 : DevRef τ sig)) :=
  step_unary ops_aligned W_nodup 83 main_call2_v3 main_call2_v4 _ _ _ rfl rfl (by decide) V
theorem R_main_call2_v5 (V : Valuation τ sig (Elt F)) :
    after ops V (main_call2_v5 : DevRef τ sig) = (subf : (⟨S8192x512, .f32⟩ : BufTy).Contents (Elt F) → (⟨S8192x512, .f32⟩ : BufTy).Contents (Elt F) → (⟨S8192x512, .f32⟩ : BufTy).Contents (Elt F)) (after ops V (main_v49 : DevRef τ sig)) (after ops V (main_call2_v4 : DevRef τ sig)) :=
  step_binary ops_aligned W_nodup 84 main_v49 main_call2_v4 main_call2_v5 _ _ _ _ rfl rfl (by decide) (by decide) V
theorem R_main_call2_v6 (V : Valuation τ sig (Elt F)) :
    after ops V (main_call2_v6 : DevRef τ sig) = (mulf : (⟨S8192x512, .f32⟩ : BufTy).Contents (Elt F) → (⟨S8192x512, .f32⟩ : BufTy).Contents (Elt F) → (⟨S8192x512, .f32⟩ : BufTy).Contents (Elt F)) (after ops V (main_call2_v5 : DevRef τ sig)) (after ops V (main_call2_v5 : DevRef τ sig)) :=
  step_binary ops_aligned W_nodup 85 main_call2_v5 main_call2_v5 main_call2_v6 _ _ _ _ rfl rfl (by decide) (by decide) V
theorem R_main_call2_v7 (V : Valuation τ sig (Elt F)) :
    after ops V (main_call2_v7 : DevRef τ sig) = ((sitofp .f32) : (⟨S_, .i32⟩ : BufTy).Contents (Elt F) → (⟨S_, .f32⟩ : BufTy).Contents (Elt F)) (after ops V (main_c_10 : DevRef τ sig)) :=
  step_unary ops_aligned W_nodup 86 main_c_10 main_call2_v7 _ _ _ rfl rfl (by decide) V
theorem R_main_call2_cst_1 (V : Valuation τ sig (Elt F)) :
    after ops V (main_call2_cst_1 : DevRef τ sig) = ((constant S_ .f32 0x44000000#32) : (⟨S_, .f32⟩ : BufTy).Contents (Elt F)) :=
  step_nullary ops_aligned W_nodup 87 main_call2_cst_1 _ _ rfl rfl V
theorem R_main_call2_v8 (V : Valuation τ sig (Elt F)) :
    after ops V (main_call2_v8 : DevRef τ sig) = (subf : (⟨S_, .f32⟩ : BufTy).Contents (Elt F) → (⟨S_, .f32⟩ : BufTy).Contents (Elt F) → (⟨S_, .f32⟩ : BufTy).Contents (Elt F)) (after ops V (main_call2_cst_1 : DevRef τ sig)) (after ops V (main_call2_v7 : DevRef τ sig)) :=
  step_binary ops_aligned W_nodup 88 main_call2_cst_1 main_call2_v7 main_call2_v8 _ _ _ _ rfl rfl (by decide) (by decide) V
theorem R_main_call2_cst_2 (V : Valuation τ sig (Elt F)) :
    after ops V (main_call2_cst_2 : DevRef τ sig) = ((constant S_ .f32 0x00000000#32) : (⟨S_, .f32⟩ : BufTy).Contents (Elt F)) :=
  step_nullary ops_aligned W_nodup 89 main_call2_cst_2 _ _ rfl rfl V
theorem R_main_call2_v9 (V : Valuation τ sig (Elt F)) :
    after ops V (main_call2_v9 : DevRef τ sig) = ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)) (after ops V (main_call2_v6 : DevRef τ sig)) (after ops V (main_call2_cst_2 : DevRef τ sig)) :=
  step_binary ops_aligned W_nodup 90 main_call2_v6 main_call2_cst_2 main_call2_v9 _ _ _ _ rfl rfl (by decide) (by decide) V
theorem R_main_call2_v10 (V : Valuation τ sig (Elt F)) :
    after ops V (main_call2_v10 : DevRef τ sig) = ((broadcastInDim S8192x1 ![0] bcast_S8192_S8192x1_0) : (⟨S8192, .f32⟩ : BufTy).Contents (Elt F) → (⟨S8192x1, .f32⟩ : BufTy).Contents (Elt F)) (after ops V (main_call2_v9 : DevRef τ sig)) :=
  step_unary ops_aligned W_nodup 91 main_call2_v9 main_call2_v10 _ _ _ rfl rfl (by decide) V
theorem R_main_call2_v11 (V : Valuation τ sig (Elt F)) :
    after ops V (main_call2_v11 : DevRef τ sig) = ((broadcastInDim S8192x1 ![] bcast_S_S8192x1) : (⟨S_, .f32⟩ : BufTy).Contents (Elt F) → (⟨S8192x1, .f32⟩ : BufTy).Contents (Elt F)) (after ops V (main_call2_v8 : DevRef τ sig)) :=
  step_unary ops_aligned W_nodup 92 main_call2_v8 main_call2_v11 _ _ _ rfl rfl (by decide) V
theorem R_main_call2_v12 (V : Valuation τ sig (Elt F)) :
    after ops V (main_call2_v12 : DevRef τ sig) = (Host.divf : (⟨S8192x1, .f32⟩ : BufTy).Contents (Elt F) → (⟨S8192x1, .f32⟩ : BufTy).Contents (Elt F) → (⟨S8192x1, .f32⟩ : BufTy).Contents (Elt F)) (after ops V (main_call2_v10 : DevRef τ sig)) (after ops V (main_call2_v11 : DevRef τ sig)) :=
  step_binary ops_aligned W_nodup 93 main_call2_v10 main_call2_v11 main_call2_v12 _ _ _ _ rfl rfl (by decide) (by decide) V
theorem R_main_call2_cst_3 (V : Valuation τ sig (Elt F)) :
    after ops V (main_call2_cst_3 : DevRef τ sig) = ((constant S_ .f32 0x00000000#32) : (⟨S_, .f32⟩ : BufTy).Contents (Elt F)) :=
  step_nullary ops_aligned W_nodup 94 main_call2_cst_3 _ _ rfl rfl V
theorem R_main_call2_v13 (V : Valuation τ sig (Elt F)) :
    after ops V (main_call2_v13 : DevRef τ sig) = ((cmpf .ogt) : (⟨S_, .f32⟩ : BufTy).Contents (Elt F) → (⟨S_, .f32⟩ : BufTy).Contents (Elt F) → (⟨S_, .i1⟩ : BufTy).Contents (Elt F)) (after ops V (main_call2_v8 : DevRef τ sig)) (after ops V (main_call2_cst_3 : DevRef τ sig)) :=
  step_binary ops_aligned W_nodup 95 main_call2_v8 main_call2_cst_3 main_call2_v13 _ _ _ _ rfl rfl (by decide) (by decide) V
theorem R_main_call2_cst_4 (V : Valuation τ sig (Elt F)) :
    after ops V (main_call2_cst_4 : DevRef τ sig) = ((constant S_ .f32 0x7FC00000#32) : (⟨S_, .f32⟩ : BufTy).Contents (Elt F)) :=
  step_nullary ops_aligned W_nodup 96 main_call2_cst_4 _ _ rfl rfl V
theorem R_main_call2_call0_v0 (V : Valuation τ sig (Elt F)) :
    after ops V (main_call2_call0_v0 : DevRef τ sig) = (id : (⟨S_, .f32⟩ : BufTy).Contents (Elt F) → (⟨S_, .f32⟩ : BufTy).Contents (Elt F)) (after ops V (main_call2_cst_4 : DevRef τ sig)) :=
  step_unary ops_aligned W_nodup 97 main_call2_cst_4 main_call2_call0_v0 _ _ _ rfl rfl (by decide) V
theorem R_main_call2_call0_v1 (V : Valuation τ sig (Elt F)) :
    after ops V (main_call2_call0_v1 : DevRef τ sig) = ((broadcastInDim S8192x1 ![] bcast_S_S8192x1) : (⟨S_, .f32⟩ : BufTy).Contents (Elt F) → (⟨S8192x1, .f32⟩ : BufTy).Contents (Elt F)) (after ops V (main_call2_call0_v0 : DevRef τ sig)) :=
  step_unary ops_aligned W_nodup 98 main_call2_call0_v0 main_call2_call0_v1 _ _ _ rfl rfl (by decide) V
theorem R_main_v54 (V : Valuation τ sig (Elt F)) :
    after ops V (main_v54 : DevRef τ sig) = ((fun p a b => select (broadcastInDim S8192x1 ![] bcast_S_S8192x1 p) a b) : (⟨S_, .i1⟩ : BufTy).Contents (Elt F) → (⟨S8192x1, .f32⟩ : BufTy).Contents (Elt F) → (⟨S8192x1, .f32⟩ : BufTy).Contents (Elt F) → (⟨S8192x1, .f32⟩ : BufTy).Contents (Elt F)) (after ops V (main_call2_v13 : DevRef τ sig)) (after ops V (main_call2_v12 : DevRef τ sig)) (after ops V (main_call2_call0_v1 : DevRef τ sig)) :=
  step_ternary ops_aligned W_nodup 99 main_call2_v13 main_call2_v12 main_call2_call0_v1 main_v54 _ _ _ _ _ rfl rfl (by decide) (by decide) (by decide) V
theorem R_main_v55 (V : Valuation τ sig (Elt F)) :
    after ops V (main_v55 : DevRef τ sig) = (broadcastInDim S8192x512 ![0, 1] bcast_S8192x1_S8192x512_0_1 : (⟨S8192x1, .f32⟩ : BufTy).Contents (Elt F) → (⟨S8192x512, .f32⟩ : BufTy).Contents (Elt F)) (after ops V (main_v53 : DevRef τ sig)) :=
  step_unary ops_aligned W_nodup 100 main_v53 main_v55 _ _ _ rfl rfl (by decide) V
theorem R_main_v56 (V : Valuation τ sig (Elt F)) :
    after ops V (main_v56 : DevRef τ sig) = (subf : (⟨S8192x512, .f32⟩ : BufTy).Contents (Elt F) → (⟨S8192x512, .f32⟩ : BufTy).Contents (Elt F) → (⟨S8192x512, .f32⟩ : BufTy).Contents (Elt F)) (after ops V (main_v49 : DevRef τ sig)) (after ops V (main_v55 : DevRef τ sig)) :=
  step_binary ops_aligned W_nodup 101 main_v49 main_v55 main_v56 _ _ _ _ rfl rfl (by decide) (by decide) V
theorem R_main_cst_11 (V : Valuation τ sig (Elt F)) :
    after ops V (main_cst_11 : DevRef τ sig) = (constant S_ .f32 0x3727C5AC#32) :=
  step_nullary ops_aligned W_nodup 102 main_cst_11 _ _ rfl rfl V
theorem R_main_v57 (V : Valuation τ sig (Elt F)) :
    after ops V (main_v57 : DevRef τ sig) = (broadcastInDim S8192x1 ![] bcast_S_S8192x1 : (⟨S_, .f32⟩ : BufTy).Contents (Elt F) → (⟨S8192x1, .f32⟩ : BufTy).Contents (Elt F)) (after ops V (main_cst_11 : DevRef τ sig)) :=
  step_unary ops_aligned W_nodup 103 main_cst_11 main_v57 _ _ _ rfl rfl (by decide) V
theorem R_main_v58 (V : Valuation τ sig (Elt F)) :
    after ops V (main_v58 : DevRef τ sig) = (addf : (⟨S8192x1, .f32⟩ : BufTy).Contents (Elt F) → (⟨S8192x1, .f32⟩ : BufTy).Contents (Elt F) → (⟨S8192x1, .f32⟩ : BufTy).Contents (Elt F)) (after ops V (main_v54 : DevRef τ sig)) (after ops V (main_v57 : DevRef τ sig)) :=
  step_binary ops_aligned W_nodup 104 main_v54 main_v57 main_v58 _ _ _ _ rfl rfl (by decide) (by decide) V
theorem R_main_v59 (V : Valuation τ sig (Elt F)) :
    after ops V (main_v59 : DevRef τ sig) = (Host.rsqrt : (⟨S8192x1, .f32⟩ : BufTy).Contents (Elt F) → (⟨S8192x1, .f32⟩ : BufTy).Contents (Elt F)) (after ops V (main_v58 : DevRef τ sig)) :=
  step_unary ops_aligned W_nodup 105 main_v58 main_v59 _ _ _ rfl rfl (by decide) V
theorem R_main_v60 (V : Valuation τ sig (Elt F)) :
    after ops V (main_v60 : DevRef τ sig) = (broadcastInDim S8192x512 ![0, 1] bcast_S8192x1_S8192x512_0_1 : (⟨S8192x1, .f32⟩ : BufTy).Contents (Elt F) → (⟨S8192x512, .f32⟩ : BufTy).Contents (Elt F)) (after ops V (main_v59 : DevRef τ sig)) :=
  step_unary ops_aligned W_nodup 106 main_v59 main_v60 _ _ _ rfl rfl (by decide) V
theorem R_main_v61 (V : Valuation τ sig (Elt F)) :
    after ops V (main_v61 : DevRef τ sig) = (mulf : (⟨S8192x512, .f32⟩ : BufTy).Contents (Elt F) → (⟨S8192x512, .f32⟩ : BufTy).Contents (Elt F) → (⟨S8192x512, .f32⟩ : BufTy).Contents (Elt F)) (after ops V (main_v56 : DevRef τ sig)) (after ops V (main_v60 : DevRef τ sig)) :=
  step_binary ops_aligned W_nodup 107 main_v56 main_v60 main_v61 _ _ _ _ rfl rfl (by decide) (by decide) V
theorem R_main_v62 (V : Valuation τ sig (Elt F)) :
    after ops V (main_v62 : DevRef τ sig) = (broadcastInDim S1x512 ![1] bcast_S512_S1x512_1 : (⟨S512, .f32⟩ : BufTy).Contents (Elt F) → (⟨S1x512, .f32⟩ : BufTy).Contents (Elt F)) (after ops V (main_arg9 : DevRef τ sig)) :=
  step_unary ops_aligned W_nodup 108 main_arg9 main_v62 _ _ _ rfl rfl (by decide) V
theorem R_main_v63 (V : Valuation τ sig (Elt F)) :
    after ops V (main_v63 : DevRef τ sig) = (broadcastInDim S8192x512 ![0, 1] bcast_S1x512_S8192x512_0_1 : (⟨S1x512, .f32⟩ : BufTy).Contents (Elt F) → (⟨S8192x512, .f32⟩ : BufTy).Contents (Elt F)) (after ops V (main_v62 : DevRef τ sig)) :=
  step_unary ops_aligned W_nodup 109 main_v62 main_v63 _ _ _ rfl rfl (by decide) V
theorem R_main_v64 (V : Valuation τ sig (Elt F)) :
    after ops V (main_v64 : DevRef τ sig) = (mulf : (⟨S8192x512, .f32⟩ : BufTy).Contents (Elt F) → (⟨S8192x512, .f32⟩ : BufTy).Contents (Elt F) → (⟨S8192x512, .f32⟩ : BufTy).Contents (Elt F)) (after ops V (main_v61 : DevRef τ sig)) (after ops V (main_v63 : DevRef τ sig)) :=
  step_binary ops_aligned W_nodup 110 main_v61 main_v63 main_v64 _ _ _ _ rfl rfl (by decide) (by decide) V
theorem R_main_v65 (V : Valuation τ sig (Elt F)) :
    after ops V (main_v65 : DevRef τ sig) = (broadcastInDim S1x512 ![1] bcast_S512_S1x512_1 : (⟨S512, .f32⟩ : BufTy).Contents (Elt F) → (⟨S1x512, .f32⟩ : BufTy).Contents (Elt F)) (after ops V (main_arg10 : DevRef τ sig)) :=
  step_unary ops_aligned W_nodup 111 main_arg10 main_v65 _ _ _ rfl rfl (by decide) V
theorem R_main_v66 (V : Valuation τ sig (Elt F)) :
    after ops V (main_v66 : DevRef τ sig) = (broadcastInDim S8192x512 ![0, 1] bcast_S1x512_S8192x512_0_1 : (⟨S1x512, .f32⟩ : BufTy).Contents (Elt F) → (⟨S8192x512, .f32⟩ : BufTy).Contents (Elt F)) (after ops V (main_v65 : DevRef τ sig)) :=
  step_unary ops_aligned W_nodup 112 main_v65 main_v66 _ _ _ rfl rfl (by decide) V
theorem R_main_v67 (V : Valuation τ sig (Elt F)) :
    after ops V (main_v67 : DevRef τ sig) = (addf : (⟨S8192x512, .f32⟩ : BufTy).Contents (Elt F) → (⟨S8192x512, .f32⟩ : BufTy).Contents (Elt F) → (⟨S8192x512, .f32⟩ : BufTy).Contents (Elt F)) (after ops V (main_v64 : DevRef τ sig)) (after ops V (main_v66 : DevRef τ sig)) :=
  step_binary ops_aligned W_nodup 113 main_v64 main_v66 main_v67 _ _ _ _ rfl rfl (by decide) (by decide) V
theorem R_main_v68 (V : Valuation τ sig (Elt F)) :
    after ops V (main_v68 : DevRef τ sig) = ((fun l r => Host.dotGeneral dot_S8192x512_S512x2048_S8192x2048_1_0_0_1_n_n none l r) : (⟨S8192x512, .f32⟩ : BufTy).Contents (Elt F) → (⟨S512x2048, .f32⟩ : BufTy).Contents (Elt F) → (⟨S8192x2048, .f32⟩ : BufTy).Contents (Elt F)) (after ops V (main_v67 : DevRef τ sig)) (after ops V (main_arg11 : DevRef τ sig)) :=
  step_binary ops_aligned W_nodup 114 main_v67 main_arg11 main_v68 _ _ _ _ rfl rfl (by decide) (by decide) V
theorem R_main_v69 (V : Valuation τ sig (Elt F)) :
    after ops V (main_v69 : DevRef τ sig) = (broadcastInDim S1x2048 ![1] bcast_S2048_S1x2048_1 : (⟨S2048, .f32⟩ : BufTy).Contents (Elt F) → (⟨S1x2048, .f32⟩ : BufTy).Contents (Elt F)) (after ops V (main_arg12 : DevRef τ sig)) :=
  step_unary ops_aligned W_nodup 115 main_arg12 main_v69 _ _ _ rfl rfl (by decide) V
theorem R_main_v70 (V : Valuation τ sig (Elt F)) :
    after ops V (main_v70 : DevRef τ sig) = (broadcastInDim S8192x2048 ![0, 1] bcast_S1x2048_S8192x2048_0_1 : (⟨S1x2048, .f32⟩ : BufTy).Contents (Elt F) → (⟨S8192x2048, .f32⟩ : BufTy).Contents (Elt F)) (after ops V (main_v69 : DevRef τ sig)) :=
  step_unary ops_aligned W_nodup 116 main_v69 main_v70 _ _ _ rfl rfl (by decide) V
theorem R_main_v71 (V : Valuation τ sig (Elt F)) :
    after ops V (main_v71 : DevRef τ sig) = (addf : (⟨S8192x2048, .f32⟩ : BufTy).Contents (Elt F) → (⟨S8192x2048, .f32⟩ : BufTy).Contents (Elt F) → (⟨S8192x2048, .f32⟩ : BufTy).Contents (Elt F)) (after ops V (main_v68 : DevRef τ sig)) (after ops V (main_v70 : DevRef τ sig)) :=
  step_binary ops_aligned W_nodup 117 main_v68 main_v70 main_v71 _ _ _ _ rfl rfl (by decide) (by decide) V
theorem R_main_cst_12 (V : Valuation τ sig (Elt F)) :
    after ops V (main_cst_12 : DevRef τ sig) = (constant S_ .f32 0x00000000#32) :=
  step_nullary ops_aligned W_nodup 118 main_cst_12 _ _ rfl rfl V
theorem R_main_v72 (V : Valuation τ sig (Elt F)) :
    after ops V (main_v72 : DevRef τ sig) = (broadcastInDim S8192x2048 ![] bcast_S_S8192x2048 : (⟨S_, .f32⟩ : BufTy).Contents (Elt F) → (⟨S8192x2048, .f32⟩ : BufTy).Contents (Elt F)) (after ops V (main_cst_12 : DevRef τ sig)) :=
  step_unary ops_aligned W_nodup 119 main_cst_12 main_v72 _ _ _ rfl rfl (by decide) V
theorem R_main_v73 (V : Valuation τ sig (Elt F)) :
    after ops V (main_v73 : DevRef τ sig) = (cmpf .oge : (⟨S8192x2048, .f32⟩ : BufTy).Contents (Elt F) → (⟨S8192x2048, .f32⟩ : BufTy).Contents (Elt F) → (⟨S8192x2048, .i1⟩ : BufTy).Contents (Elt F)) (after ops V (main_v71 : DevRef τ sig)) (after ops V (main_v72 : DevRef τ sig)) :=
  step_binary ops_aligned W_nodup 120 main_v71 main_v72 main_v73 _ _ _ _ rfl rfl (by decide) (by decide) V
theorem R_main_cst_13 (V : Valuation τ sig (Elt F)) :
    after ops V (main_cst_13 : DevRef τ sig) = (constant S_ .f32 0x3C23D70A#32) :=
  step_nullary ops_aligned W_nodup 121 main_cst_13 _ _ rfl rfl V
theorem R_main_v74 (V : Valuation τ sig (Elt F)) :
    after ops V (main_v74 : DevRef τ sig) = (broadcastInDim S8192x2048 ![] bcast_S_S8192x2048 : (⟨S_, .f32⟩ : BufTy).Contents (Elt F) → (⟨S8192x2048, .f32⟩ : BufTy).Contents (Elt F)) (after ops V (main_cst_13 : DevRef τ sig)) :=
  step_unary ops_aligned W_nodup 122 main_cst_13 main_v74 _ _ _ rfl rfl (by decide) V
theorem R_main_v75 (V : Valuation τ sig (Elt F)) :
    after ops V (main_v75 : DevRef τ sig) = (mulf : (⟨S8192x2048, .f32⟩ : BufTy).Contents (Elt F) → (⟨S8192x2048, .f32⟩ : BufTy).Contents (Elt F) → (⟨S8192x2048, .f32⟩ : BufTy).Contents (Elt F)) (after ops V (main_v74 : DevRef τ sig)) (after ops V (main_v71 : DevRef τ sig)) :=
  step_binary ops_aligned W_nodup 123 main_v74 main_v71 main_v75 _ _ _ _ rfl rfl (by decide) (by decide) V
theorem R_main_v76 (V : Valuation τ sig (Elt F)) :
    after ops V (main_v76 : DevRef τ sig) = (select : (⟨S8192x2048, .i1⟩ : BufTy).Contents (Elt F) → (⟨S8192x2048, .f32⟩ : BufTy).Contents (Elt F) → (⟨S8192x2048, .f32⟩ : BufTy).Contents (Elt F) → (⟨S8192x2048, .f32⟩ : BufTy).Contents (Elt F)) (after ops V (main_v73 : DevRef τ sig)) (after ops V (main_v71 : DevRef τ sig)) (after ops V (main_v75 : DevRef τ sig)) :=
  step_ternary ops_aligned W_nodup 124 main_v73 main_v71 main_v75 main_v76 _ _ _ _ _ rfl rfl (by decide) (by decide) (by decide) V
theorem R_main_v77 (V : Valuation τ sig (Elt F)) :
    after ops V (main_v77 : DevRef τ sig) = ((fun l r => Host.dotGeneral dot_S8192x2048_S2048x512_S8192x512_1_0_0_1_n_n none l r) : (⟨S8192x2048, .f32⟩ : BufTy).Contents (Elt F) → (⟨S2048x512, .f32⟩ : BufTy).Contents (Elt F) → (⟨S8192x512, .f32⟩ : BufTy).Contents (Elt F)) (after ops V (main_v76 : DevRef τ sig)) (after ops V (main_arg13 : DevRef τ sig)) :=
  step_binary ops_aligned W_nodup 125 main_v76 main_arg13 main_v77 _ _ _ _ rfl rfl (by decide) (by decide) V
theorem R_main_v78 (V : Valuation τ sig (Elt F)) :
    after ops V (main_v78 : DevRef τ sig) = (broadcastInDim S1x512 ![1] bcast_S512_S1x512_1 : (⟨S512, .f32⟩ : BufTy).Contents (Elt F) → (⟨S1x512, .f32⟩ : BufTy).Contents (Elt F)) (after ops V (main_arg14 : DevRef τ sig)) :=
  step_unary ops_aligned W_nodup 126 main_arg14 main_v78 _ _ _ rfl rfl (by decide) V
theorem R_main_v79 (V : Valuation τ sig (Elt F)) :
    after ops V (main_v79 : DevRef τ sig) = (broadcastInDim S8192x512 ![0, 1] bcast_S1x512_S8192x512_0_1 : (⟨S1x512, .f32⟩ : BufTy).Contents (Elt F) → (⟨S8192x512, .f32⟩ : BufTy).Contents (Elt F)) (after ops V (main_v78 : DevRef τ sig)) :=
  step_unary ops_aligned W_nodup 127 main_v78 main_v79 _ _ _ rfl rfl (by decide) V
theorem R_main_v80 (V : Valuation τ sig (Elt F)) :
    after ops V (main_v80 : DevRef τ sig) = (addf : (⟨S8192x512, .f32⟩ : BufTy).Contents (Elt F) → (⟨S8192x512, .f32⟩ : BufTy).Contents (Elt F) → (⟨S8192x512, .f32⟩ : BufTy).Contents (Elt F)) (after ops V (main_v77 : DevRef τ sig)) (after ops V (main_v79 : DevRef τ sig)) :=
  step_binary ops_aligned W_nodup 128 main_v77 main_v79 main_v80 _ _ _ _ rfl rfl (by decide) (by decide) V
theorem R_main_v81 (V : Valuation τ sig (Elt F)) :
    after ops V (main_v81 : DevRef τ sig) = (addf : (⟨S8192x512, .f32⟩ : BufTy).Contents (Elt F) → (⟨S8192x512, .f32⟩ : BufTy).Contents (Elt F) → (⟨S8192x512, .f32⟩ : BufTy).Contents (Elt F)) (after ops V (main_v80 : DevRef τ sig)) (after ops V (main_v67 : DevRef τ sig)) :=
  step_binary ops_aligned W_nodup 129 main_v80 main_v67 main_v81 _ _ _ _ rfl rfl (by decide) (by decide) V
theorem R_main_cst_14 (V : Valuation τ sig (Elt F)) :
    after ops V (main_cst_14 : DevRef τ sig) = (constant S_ .f32 0x00000000#32) :=
  step_nullary ops_aligned W_nodup 130 main_cst_14 _ _ rfl rfl V
theorem R_main_v82 (V : Valuation τ sig (Elt F)) :
    after ops V (main_v82 : DevRef τ sig) = ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)) (after ops V (main_v81 : DevRef τ sig)) (after ops V (main_cst_14 : DevRef τ sig)) :=
  step_binary ops_aligned W_nodup 131 main_v81 main_cst_14 main_v82 _ _ _ _ rfl rfl (by decide) (by decide) V
theorem R_main_v83 (V : Valuation τ sig (Elt F)) :
    after ops V (main_v83 : DevRef τ sig) = (broadcastInDim S8192x1 ![0] bcast_S8192_S8192x1_0 : (⟨S8192, .f32⟩ : BufTy).Contents (Elt F) → (⟨S8192x1, .f32⟩ : BufTy).Contents (Elt F)) (after ops V (main_v82 : DevRef τ sig)) :=
  step_unary ops_aligned W_nodup 132 main_v82 main_v83 _ _ _ rfl rfl (by decide) V
theorem R_main_cst_15 (V : Valuation τ sig (Elt F)) :
    after ops V (main_cst_15 : DevRef τ sig) = (constant S_ .f32 0x44000000#32) :=
  step_nullary ops_aligned W_nodup 133 main_cst_15 _ _ rfl rfl V
theorem R_main_v84 (V : Valuation τ sig (Elt F)) :
    after ops V (main_v84 : DevRef τ sig) = (broadcastInDim S8192x1 ![] bcast_S_S8192x1 : (⟨S_, .f32⟩ : BufTy).Contents (Elt F) → (⟨S8192x1, .f32⟩ : BufTy).Contents (Elt F)) (after ops V (main_cst_15 : DevRef τ sig)) :=
  step_unary ops_aligned W_nodup 134 main_cst_15 main_v84 _ _ _ rfl rfl (by decide) V
theorem R_main_v85 (V : Valuation τ sig (Elt F)) :
    after ops V (main_v85 : DevRef τ sig) = (Host.divf : (⟨S8192x1, .f32⟩ : BufTy).Contents (Elt F) → (⟨S8192x1, .f32⟩ : BufTy).Contents (Elt F) → (⟨S8192x1, .f32⟩ : BufTy).Contents (Elt F)) (after ops V (main_v83 : DevRef τ sig)) (after ops V (main_v84 : DevRef τ sig)) :=
  step_binary ops_aligned W_nodup 135 main_v83 main_v84 main_v85 _ _ _ _ rfl rfl (by decide) (by decide) V
theorem R_main_c_16 (V : Valuation τ sig (Elt F)) :
    after ops V (main_c_16 : DevRef τ sig) = (constantI S_ 32 0#32) :=
  step_nullary ops_aligned W_nodup 136 main_c_16 _ _ rfl rfl V
theorem R_main_call4_cst (V : Valuation τ sig (Elt F)) :
    after ops V (main_call4_cst : DevRef τ sig) = ((constant S_ .f32 0x00000000#32) : (⟨S_, .f32⟩ : BufTy).Contents (Elt F)) :=
  step_nullary ops_aligned W_nodup 137 main_call4_cst _ _ rfl rfl V
theorem R_main_call4_v0 (V : Valuation τ sig (Elt F)) :
    after ops V (main_call4_v0 : DevRef τ sig) = ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)) (after ops V (main_v81 : DevRef τ sig)) (after ops V (main_call4_cst : DevRef τ sig)) :=
  step_binary ops_aligned W_nodup 138 main_v81 main_call4_cst main_call4_v0 _ _ _ _ rfl rfl (by decide) (by decide) V
theorem R_main_call4_v1 (V : Valuation τ sig (Elt F)) :
    after ops V (main_call4_v1 : DevRef τ sig) = ((broadcastInDim S8192x1 ![0] bcast_S8192_S8192x1_0) : (⟨S8192, .f32⟩ : BufTy).Contents (Elt F) → (⟨S8192x1, .f32⟩ : BufTy).Contents (Elt F)) (after ops V (main_call4_v0 : DevRef τ sig)) :=
  step_unary ops_aligned W_nodup 139 main_call4_v0 main_call4_v1 _ _ _ rfl rfl (by decide) V
theorem R_main_call4_cst_0 (V : Valuation τ sig (Elt F)) :
    after ops V (main_call4_cst_0 : DevRef τ sig) = ((constant S_ .f32 0x44000000#32) : (⟨S_, .f32⟩ : BufTy).Contents (Elt F)) :=
  step_nullary ops_aligned W_nodup 140 main_call4_cst_0 _ _ rfl rfl V
theorem R_main_call4_v2 (V : Valuation τ sig (Elt F)) :
    after ops V (main_call4_v2 : DevRef τ sig) = ((broadcastInDim S8192x1 ![] bcast_S_S8192x1) : (⟨S_, .f32⟩ : BufTy).Contents (Elt F) → (⟨S8192x1, .f32⟩ : BufTy).Contents (Elt F)) (after ops V (main_call4_cst_0 : DevRef τ sig)) :=
  step_unary ops_aligned W_nodup 141 main_call4_cst_0 main_call4_v2 _ _ _ rfl rfl (by decide) V
theorem R_main_call4_v3 (V : Valuation τ sig (Elt F)) :
    after ops V (main_call4_v3 : DevRef τ sig) = (Host.divf : (⟨S8192x1, .f32⟩ : BufTy).Contents (Elt F) → (⟨S8192x1, .f32⟩ : BufTy).Contents (Elt F) → (⟨S8192x1, .f32⟩ : BufTy).Contents (Elt F)) (after ops V (main_call4_v1 : DevRef τ sig)) (after ops V (main_call4_v2 : DevRef τ sig)) :=
  step_binary ops_aligned W_nodup 142 main_call4_v1 main_call4_v2 main_call4_v3 _ _ _ _ rfl rfl (by decide) (by decide) V
theorem R_main_call4_v4 (V : Valuation τ sig (Elt F)) :
    after ops V (main_call4_v4 : DevRef τ sig) = ((broadcastInDim S8192x512 ![0, 1] bcast_S8192x1_S8192x512_0_1) : (⟨S8192x1, .f32⟩ : BufTy).Contents (Elt F) → (⟨S8192x512, .f32⟩ : BufTy).Contents (Elt F)) (after ops V (main_call4_v3 : DevRef τ sig)) :=
  step_unary ops_aligned W_nodup 143 main_call4_v3 main_call4_v4 _ _ _ rfl rfl (by decide) V
theorem R_main_call4_v5 (V : Valuation τ sig (Elt F)) :
    after ops V (main_call4_v5 : DevRef τ sig) = (subf : (⟨S8192x512, .f32⟩ : BufTy).Contents (Elt F) → (⟨S8192x512, .f32⟩ : BufTy).Contents (Elt F) → (⟨S8192x512, .f32⟩ : BufTy).Contents (Elt F)) (after ops V (main_v81 : DevRef τ sig)) (after ops V (main_call4_v4 : DevRef τ sig)) :=
  step_binary ops_aligned W_nodup 144 main_v81 main_call4_v4 main_call4_v5 _ _ _ _ rfl rfl (by decide) (by decide) V
theorem R_main_call4_v6 (V : Valuation τ sig (Elt F)) :
    after ops V (main_call4_v6 : DevRef τ sig) = (mulf : (⟨S8192x512, .f32⟩ : BufTy).Contents (Elt F) → (⟨S8192x512, .f32⟩ : BufTy).Contents (Elt F) → (⟨S8192x512, .f32⟩ : BufTy).Contents (Elt F)) (after ops V (main_call4_v5 : DevRef τ sig)) (after ops V (main_call4_v5 : DevRef τ sig)) :=
  step_binary ops_aligned W_nodup 145 main_call4_v5 main_call4_v5 main_call4_v6 _ _ _ _ rfl rfl (by decide) (by decide) V
theorem R_main_call4_v7 (V : Valuation τ sig (Elt F)) :
    after ops V (main_call4_v7 : DevRef τ sig) = ((sitofp .f32) : (⟨S_, .i32⟩ : BufTy).Contents (Elt F) → (⟨S_, .f32⟩ : BufTy).Contents (Elt F)) (after ops V (main_c_16 : DevRef τ sig)) :=
  step_unary ops_aligned W_nodup 146 main_c_16 main_call4_v7 _ _ _ rfl rfl (by decide) V
theorem R_main_call4_cst_1 (V : Valuation τ sig (Elt F)) :
    after ops V (main_call4_cst_1 : DevRef τ sig) = ((constant S_ .f32 0x44000000#32) : (⟨S_, .f32⟩ : BufTy).Contents (Elt F)) :=
  step_nullary ops_aligned W_nodup 147 main_call4_cst_1 _ _ rfl rfl V
theorem R_main_call4_v8 (V : Valuation τ sig (Elt F)) :
    after ops V (main_call4_v8 : DevRef τ sig) = (subf : (⟨S_, .f32⟩ : BufTy).Contents (Elt F) → (⟨S_, .f32⟩ : BufTy).Contents (Elt F) → (⟨S_, .f32⟩ : BufTy).Contents (Elt F)) (after ops V (main_call4_cst_1 : DevRef τ sig)) (after ops V (main_call4_v7 : DevRef τ sig)) :=
  step_binary ops_aligned W_nodup 148 main_call4_cst_1 main_call4_v7 main_call4_v8 _ _ _ _ rfl rfl (by decide) (by decide) V
theorem R_main_call4_cst_2 (V : Valuation τ sig (Elt F)) :
    after ops V (main_call4_cst_2 : DevRef τ sig) = ((constant S_ .f32 0x00000000#32) : (⟨S_, .f32⟩ : BufTy).Contents (Elt F)) :=
  step_nullary ops_aligned W_nodup 149 main_call4_cst_2 _ _ rfl rfl V
theorem R_main_call4_v9 (V : Valuation τ sig (Elt F)) :
    after ops V (main_call4_v9 : DevRef τ sig) = ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)) (after ops V (main_call4_v6 : DevRef τ sig)) (after ops V (main_call4_cst_2 : DevRef τ sig)) :=
  step_binary ops_aligned W_nodup 150 main_call4_v6 main_call4_cst_2 main_call4_v9 _ _ _ _ rfl rfl (by decide) (by decide) V
theorem R_main_call4_v10 (V : Valuation τ sig (Elt F)) :
    after ops V (main_call4_v10 : DevRef τ sig) = ((broadcastInDim S8192x1 ![0] bcast_S8192_S8192x1_0) : (⟨S8192, .f32⟩ : BufTy).Contents (Elt F) → (⟨S8192x1, .f32⟩ : BufTy).Contents (Elt F)) (after ops V (main_call4_v9 : DevRef τ sig)) :=
  step_unary ops_aligned W_nodup 151 main_call4_v9 main_call4_v10 _ _ _ rfl rfl (by decide) V
theorem R_main_call4_v11 (V : Valuation τ sig (Elt F)) :
    after ops V (main_call4_v11 : DevRef τ sig) = ((broadcastInDim S8192x1 ![] bcast_S_S8192x1) : (⟨S_, .f32⟩ : BufTy).Contents (Elt F) → (⟨S8192x1, .f32⟩ : BufTy).Contents (Elt F)) (after ops V (main_call4_v8 : DevRef τ sig)) :=
  step_unary ops_aligned W_nodup 152 main_call4_v8 main_call4_v11 _ _ _ rfl rfl (by decide) V
theorem R_main_call4_v12 (V : Valuation τ sig (Elt F)) :
    after ops V (main_call4_v12 : DevRef τ sig) = (Host.divf : (⟨S8192x1, .f32⟩ : BufTy).Contents (Elt F) → (⟨S8192x1, .f32⟩ : BufTy).Contents (Elt F) → (⟨S8192x1, .f32⟩ : BufTy).Contents (Elt F)) (after ops V (main_call4_v10 : DevRef τ sig)) (after ops V (main_call4_v11 : DevRef τ sig)) :=
  step_binary ops_aligned W_nodup 153 main_call4_v10 main_call4_v11 main_call4_v12 _ _ _ _ rfl rfl (by decide) (by decide) V
theorem R_main_call4_cst_3 (V : Valuation τ sig (Elt F)) :
    after ops V (main_call4_cst_3 : DevRef τ sig) = ((constant S_ .f32 0x00000000#32) : (⟨S_, .f32⟩ : BufTy).Contents (Elt F)) :=
  step_nullary ops_aligned W_nodup 154 main_call4_cst_3 _ _ rfl rfl V
theorem R_main_call4_v13 (V : Valuation τ sig (Elt F)) :
    after ops V (main_call4_v13 : DevRef τ sig) = ((cmpf .ogt) : (⟨S_, .f32⟩ : BufTy).Contents (Elt F) → (⟨S_, .f32⟩ : BufTy).Contents (Elt F) → (⟨S_, .i1⟩ : BufTy).Contents (Elt F)) (after ops V (main_call4_v8 : DevRef τ sig)) (after ops V (main_call4_cst_3 : DevRef τ sig)) :=
  step_binary ops_aligned W_nodup 155 main_call4_v8 main_call4_cst_3 main_call4_v13 _ _ _ _ rfl rfl (by decide) (by decide) V
theorem R_main_call4_cst_4 (V : Valuation τ sig (Elt F)) :
    after ops V (main_call4_cst_4 : DevRef τ sig) = ((constant S_ .f32 0x7FC00000#32) : (⟨S_, .f32⟩ : BufTy).Contents (Elt F)) :=
  step_nullary ops_aligned W_nodup 156 main_call4_cst_4 _ _ rfl rfl V
theorem R_main_call4_call0_v0 (V : Valuation τ sig (Elt F)) :
    after ops V (main_call4_call0_v0 : DevRef τ sig) = (id : (⟨S_, .f32⟩ : BufTy).Contents (Elt F) → (⟨S_, .f32⟩ : BufTy).Contents (Elt F)) (after ops V (main_call4_cst_4 : DevRef τ sig)) :=
  step_unary ops_aligned W_nodup 157 main_call4_cst_4 main_call4_call0_v0 _ _ _ rfl rfl (by decide) V
theorem R_main_call4_call0_v1 (V : Valuation τ sig (Elt F)) :
    after ops V (main_call4_call0_v1 : DevRef τ sig) = ((broadcastInDim S8192x1 ![] bcast_S_S8192x1) : (⟨S_, .f32⟩ : BufTy).Contents (Elt F) → (⟨S8192x1, .f32⟩ : BufTy).Contents (Elt F)) (after ops V (main_call4_call0_v0 : DevRef τ sig)) :=
  step_unary ops_aligned W_nodup 158 main_call4_call0_v0 main_call4_call0_v1 _ _ _ rfl rfl (by decide) V
theorem R_main_v86 (V : Valuation τ sig (Elt F)) :
    after ops V (main_v86 : DevRef τ sig) = ((fun p a b => select (broadcastInDim S8192x1 ![] bcast_S_S8192x1 p) a b) : (⟨S_, .i1⟩ : BufTy).Contents (Elt F) → (⟨S8192x1, .f32⟩ : BufTy).Contents (Elt F) → (⟨S8192x1, .f32⟩ : BufTy).Contents (Elt F) → (⟨S8192x1, .f32⟩ : BufTy).Contents (Elt F)) (after ops V (main_call4_v13 : DevRef τ sig)) (after ops V (main_call4_v12 : DevRef τ sig)) (after ops V (main_call4_call0_v1 : DevRef τ sig)) :=
  step_ternary ops_aligned W_nodup 159 main_call4_v13 main_call4_v12 main_call4_call0_v1 main_v86 _ _ _ _ _ rfl rfl (by decide) (by decide) (by decide) V
theorem R_main_v87 (V : Valuation τ sig (Elt F)) :
    after ops V (main_v87 : DevRef τ sig) = (broadcastInDim S8192x512 ![0, 1] bcast_S8192x1_S8192x512_0_1 : (⟨S8192x1, .f32⟩ : BufTy).Contents (Elt F) → (⟨S8192x512, .f32⟩ : BufTy).Contents (Elt F)) (after ops V (main_v85 : DevRef τ sig)) :=
  step_unary ops_aligned W_nodup 160 main_v85 main_v87 _ _ _ rfl rfl (by decide) V
theorem R_main_v88 (V : Valuation τ sig (Elt F)) :
    after ops V (main_v88 : DevRef τ sig) = (subf : (⟨S8192x512, .f32⟩ : BufTy).Contents (Elt F) → (⟨S8192x512, .f32⟩ : BufTy).Contents (Elt F) → (⟨S8192x512, .f32⟩ : BufTy).Contents (Elt F)) (after ops V (main_v81 : DevRef τ sig)) (after ops V (main_v87 : DevRef τ sig)) :=
  step_binary ops_aligned W_nodup 161 main_v81 main_v87 main_v88 _ _ _ _ rfl rfl (by decide) (by decide) V
theorem R_main_cst_17 (V : Valuation τ sig (Elt F)) :
    after ops V (main_cst_17 : DevRef τ sig) = (constant S_ .f32 0x3727C5AC#32) :=
  step_nullary ops_aligned W_nodup 162 main_cst_17 _ _ rfl rfl V
theorem R_main_v89 (V : Valuation τ sig (Elt F)) :
    after ops V (main_v89 : DevRef τ sig) = (broadcastInDim S8192x1 ![] bcast_S_S8192x1 : (⟨S_, .f32⟩ : BufTy).Contents (Elt F) → (⟨S8192x1, .f32⟩ : BufTy).Contents (Elt F)) (after ops V (main_cst_17 : DevRef τ sig)) :=
  step_unary ops_aligned W_nodup 163 main_cst_17 main_v89 _ _ _ rfl rfl (by decide) V
theorem R_main_v90 (V : Valuation τ sig (Elt F)) :
    after ops V (main_v90 : DevRef τ sig) = (addf : (⟨S8192x1, .f32⟩ : BufTy).Contents (Elt F) → (⟨S8192x1, .f32⟩ : BufTy).Contents (Elt F) → (⟨S8192x1, .f32⟩ : BufTy).Contents (Elt F)) (after ops V (main_v86 : DevRef τ sig)) (after ops V (main_v89 : DevRef τ sig)) :=
  step_binary ops_aligned W_nodup 164 main_v86 main_v89 main_v90 _ _ _ _ rfl rfl (by decide) (by decide) V
theorem R_main_v91 (V : Valuation τ sig (Elt F)) :
    after ops V (main_v91 : DevRef τ sig) = (Host.rsqrt : (⟨S8192x1, .f32⟩ : BufTy).Contents (Elt F) → (⟨S8192x1, .f32⟩ : BufTy).Contents (Elt F)) (after ops V (main_v90 : DevRef τ sig)) :=
  step_unary ops_aligned W_nodup 165 main_v90 main_v91 _ _ _ rfl rfl (by decide) V
theorem R_main_v92 (V : Valuation τ sig (Elt F)) :
    after ops V (main_v92 : DevRef τ sig) = (broadcastInDim S8192x512 ![0, 1] bcast_S8192x1_S8192x512_0_1 : (⟨S8192x1, .f32⟩ : BufTy).Contents (Elt F) → (⟨S8192x512, .f32⟩ : BufTy).Contents (Elt F)) (after ops V (main_v91 : DevRef τ sig)) :=
  step_unary ops_aligned W_nodup 166 main_v91 main_v92 _ _ _ rfl rfl (by decide) V
theorem R_main_v93 (V : Valuation τ sig (Elt F)) :
    after ops V (main_v93 : DevRef τ sig) = (mulf : (⟨S8192x512, .f32⟩ : BufTy).Contents (Elt F) → (⟨S8192x512, .f32⟩ : BufTy).Contents (Elt F) → (⟨S8192x512, .f32⟩ : BufTy).Contents (Elt F)) (after ops V (main_v88 : DevRef τ sig)) (after ops V (main_v92 : DevRef τ sig)) :=
  step_binary ops_aligned W_nodup 167 main_v88 main_v92 main_v93 _ _ _ _ rfl rfl (by decide) (by decide) V
theorem R_main_v94 (V : Valuation τ sig (Elt F)) :
    after ops V (main_v94 : DevRef τ sig) = (broadcastInDim S1x512 ![1] bcast_S512_S1x512_1 : (⟨S512, .f32⟩ : BufTy).Contents (Elt F) → (⟨S1x512, .f32⟩ : BufTy).Contents (Elt F)) (after ops V (main_arg9 : DevRef τ sig)) :=
  step_unary ops_aligned W_nodup 168 main_arg9 main_v94 _ _ _ rfl rfl (by decide) V
theorem R_main_v95 (V : Valuation τ sig (Elt F)) :
    after ops V (main_v95 : DevRef τ sig) = (broadcastInDim S8192x512 ![0, 1] bcast_S1x512_S8192x512_0_1 : (⟨S1x512, .f32⟩ : BufTy).Contents (Elt F) → (⟨S8192x512, .f32⟩ : BufTy).Contents (Elt F)) (after ops V (main_v94 : DevRef τ sig)) :=
  step_unary ops_aligned W_nodup 169 main_v94 main_v95 _ _ _ rfl rfl (by decide) V
theorem R_main_v96 (V : Valuation τ sig (Elt F)) :
    after ops V (main_v96 : DevRef τ sig) = (mulf : (⟨S8192x512, .f32⟩ : BufTy).Contents (Elt F) → (⟨S8192x512, .f32⟩ : BufTy).Contents (Elt F) → (⟨S8192x512, .f32⟩ : BufTy).Contents (Elt F)) (after ops V (main_v93 : DevRef τ sig)) (after ops V (main_v95 : DevRef τ sig)) :=
  step_binary ops_aligned W_nodup 170 main_v93 main_v95 main_v96 _ _ _ _ rfl rfl (by decide) (by decide) V
theorem R_main_v97 (V : Valuation τ sig (Elt F)) :
    after ops V (main_v97 : DevRef τ sig) = (broadcastInDim S1x512 ![1] bcast_S512_S1x512_1 : (⟨S512, .f32⟩ : BufTy).Contents (Elt F) → (⟨S1x512, .f32⟩ : BufTy).Contents (Elt F)) (after ops V (main_arg10 : DevRef τ sig)) :=
  step_unary ops_aligned W_nodup 171 main_arg10 main_v97 _ _ _ rfl rfl (by decide) V
theorem R_main_v98 (V : Valuation τ sig (Elt F)) :
    after ops V (main_v98 : DevRef τ sig) = (broadcastInDim S8192x512 ![0, 1] bcast_S1x512_S8192x512_0_1 : (⟨S1x512, .f32⟩ : BufTy).Contents (Elt F) → (⟨S8192x512, .f32⟩ : BufTy).Contents (Elt F)) (after ops V (main_v97 : DevRef τ sig)) :=
  step_unary ops_aligned W_nodup 172 main_v97 main_v98 _ _ _ rfl rfl (by decide) V
theorem R_main_v99 (V : Valuation τ sig (Elt F)) :
    after ops V (main_v99 : DevRef τ sig) = (addf : (⟨S8192x512, .f32⟩ : BufTy).Contents (Elt F) → (⟨S8192x512, .f32⟩ : BufTy).Contents (Elt F) → (⟨S8192x512, .f32⟩ : BufTy).Contents (Elt F)) (after ops V (main_v96 : DevRef τ sig)) (after ops V (main_v98 : DevRef τ sig)) :=
  step_binary ops_aligned W_nodup 173 main_v96 main_v98 main_v99 _ _ _ _ rfl rfl (by decide) (by decide) V

end Cert.ReferenceIdeal.RefRun

end
-- ==== Proof.Ref.ChainNorm.lean ====
/-
  The layer norm chain, once. Over rows of width 512 the reference computes, with whole-array operations: the row mean
  (row sum from 0, over a broadcast 512); the variance function's value — the mean again, the deviations, their squares,
  the row sum of the squares over the scalar 512 - (0 converted to a float), and a select that keeps this quotient when
  that scalar is > 0 and takes a broadcast not-a-number otherwise —; then (x - mean) * rsqrt (variance + a broadcast
  small constant), times the scale vector, plus the shift vector (each broadcast as a row, then down the columns).
  The scalar is 512 - 0 = 512 > 0, so the select keeps the quotient and the divisor is 512. Read at (r, c) the result is
  the specification's layer norm. The hypotheses name each intermediate array by the operation that produces it.
-/
import proofs.«172065_j32710470926956_2_alg».proof.Proof.Ref.Read

noncomputable section

open scoped BigOperators

namespace Cert.Read

open Idealize.ShloMosaic Idealize.ShloMosaic.ValueIdx Cert.Spec

theorem norm_chain
    {x mub dev sq mub2 dev2 rsb y1 gb y2 bb out : FVec Ideal ⟨2, ![8192, 512]⟩ .f32}
    {s s' ss : FVec Ideal ⟨1, ![8192]⟩ .f32}
    {sc d512 mu sc' d' mu' ssc denb q nb var epsb ve rs : FVec Ideal ⟨2, ![8192, 1]⟩ .f32}
    {c0 c512 k0 k512 cf k512b den k0b k0c knan n0 ceps : FVec Ideal ⟨0, ![]⟩ .f32}
    {ci : IVec ⟨0, ![]⟩ 32} {gt : IVec ⟨0, ![]⟩ 1}
    {g b : FVec Ideal ⟨1, ![512]⟩ .f32} {g1 b1 : FVec Ideal ⟨2, ![1, 512]⟩ .f32}
    (hr : (⟨2, ![8192, 512]⟩ : Shape).ReducesTo [1] ⟨1, ![8192]⟩) (hS : 0 < (⟨0, ![]⟩ : Shape).numel)
    (hbcol : (⟨1, ![8192]⟩ : Shape).BroadcastsInDim ⟨2, ![8192, 1]⟩ ![0])
    (hbs1 : (⟨0, ![]⟩ : Shape).BroadcastsInDim ⟨2, ![8192, 1]⟩ ![])
    (hbcm : (⟨2, ![8192, 1]⟩ : Shape).BroadcastsInDim ⟨2, ![8192, 512]⟩ ![0, 1])
    (hbrow : (⟨1, ![512]⟩ : Shape).BroadcastsInDim ⟨2, ![1, 512]⟩ ![1])
    (hbrm : (⟨2, ![1, 512]⟩ : Shape).BroadcastsInDim ⟨2, ![8192, 512]⟩ ![0, 1])
    -- the mean
    (hc0 : c0 = constant ⟨0, ![]⟩ .f32 0x00000000#32)
    (hs : s = Host.reduceAdd x c0 hr hS)
    (hsc : sc = broadcastInDim ⟨2, ![8192, 1]⟩ ![0] hbcol s)
    (hc512 : c512 = constant ⟨0, ![]⟩ .f32 0x44000000#32)
    (hd512 : d512 = broadcastInDim ⟨2, ![8192, 1]⟩ ![] hbs1 c512)
    (hmu : mu = Host.divf sc d512)
    (hci : ci = constantI ⟨0, ![]⟩ 32 0#32)
    -- the variance function
    (hk0 : k0 = constant ⟨0, ![]⟩ .f32 0x00000000#32)
    (hs' : s' = Host.reduceAdd x k0 hr hS)
    (hsc' : sc' = broadcastInDim ⟨2, ![8192, 1]⟩ ![0] hbcol s')
    (hk512 : k512 = constant ⟨0, ![]⟩ .f32 0x44000000#32)
    (hd' : d' = broadcastInDim ⟨2, ![8192, 1]⟩ ![] hbs1 k512)
    (hmu' : mu' = Host.divf sc' d')
    (hmub : mub = broadcastInDim ⟨2, ![8192, 512]⟩ ![0, 1] hbcm mu')
    (hdev : dev = subf x mub)
    (hsq : sq = mulf dev dev)
    (hcf : cf = sitofp .f32 ci)
    (hk512b : k512b = constant ⟨0, ![]⟩ .f32 0x44000000#32)
    (hden : den = subf k512b cf)
    (hk0b : k0b = constant ⟨0, ![]⟩ .f32 0x00000000#32)
    (hss : ss = Host.reduceAdd sq k0b hr hS)
    (hssc : ssc = broadcastInDim ⟨2, ![8192, 1]⟩ ![0] hbcol ss)
    (hdenb : denb = broadcastInDim ⟨2, ![8192, 1]⟩ ![] hbs1 den)
    (hq : q = Host.divf ssc denb)
    (hk0c : k0c = constant ⟨0, ![]⟩ .f32 0x00000000#32)
    (hgt : gt = cmpf .ogt den k0c)
    (hknan : knan = constant ⟨0, ![]⟩ .f32 0x7FC00000#32)
    (hn0 : n0 = id knan)
    (hnb : nb = broadcastInDim ⟨2, ![8192, 1]⟩ ![] hbs1 n0)
    (hvar : var = select (broadcastInDim ⟨2, ![8192, 1]⟩ ![] hbs1 gt) q nb)
    -- the norm
    (hmub2 : mub2 = broadcastInDim ⟨2, ![8192, 512]⟩ ![0, 1] hbcm mu)
    (hdev2 : dev2 = subf x mub2)
    (hceps : ceps = constant ⟨0, ![]⟩ .f32 0x3727C5AC#32)
    (hepsb : epsb = broadcastInDim ⟨2, ![8192, 1]⟩ ![] hbs1 ceps)
    (hve : ve = addf var epsb)
    (hrs : rs = Host.rsqrt ve)
    (hrsb : rsb = broadcastInDim ⟨2, ![8192, 512]⟩ ![0, 1] hbcm rs)
    (hy1 : y1 = mulf dev2 rsb)
    (hg1 : g1 = broadcastInDim ⟨2, ![1, 512]⟩ ![1] hbrow g)
    (hgb : gb = broadcastInDim ⟨2, ![8192, 512]⟩ ![0, 1] hbrm g1)
    (hy2 : y2 = mulf y1 gb)
    (hb1 : b1 = broadcastInDim ⟨2, ![1, 512]⟩ ![1] hbrow b)
    (hbb : bb = broadcastInDim ⟨2, ![8192, 512]⟩ ![0, 1] hbrm b1)
    (hout : out = addf y2 bb) :
    out = layerNorm x g b := by
  have hred : (⟨2, ![8192, 512]⟩ : Shape).Reduces [1] ⟨1, ![8192]⟩ := by decide
  -- the two means
  have e_mu : ∀ r : Fin 8192, mu (ix2 r (0 : Fin 1)) = mean512 x r := fun r => by
    rw [hmu]
    show Ideal.div (sc (ix2 r (0 : Fin 1))) (d512 (ix2 r (0 : Fin 1))) = _
    rw [hsc, bcast_col, hs, reduceAdd_rows hr hred (fun _ _ => rfl) (fun _ _ => rfl), hc0, hd512,
      broadcastInDim_scalar_apply, hc512]
    show Ideal.div (Ideal.ofBits .f32 0x00000000#32 + ∑ c : Fin 512, x (ix2 r c)) (Ideal.ofBits .f32 0x44000000#32)
      = Ideal.div (∑ c : Fin 512, x (ix2 r c)) (Ideal.ofBits .f32 0x44000000#32)
    rw [Ideal.ofBits_zero_f32, zero_add]
  have e_mu' : ∀ r : Fin 8192, mu' (ix2 r (0 : Fin 1)) = mean512 x r := fun r => by
    rw [hmu']
    show Ideal.div (sc' (ix2 r (0 : Fin 1))) (d' (ix2 r (0 : Fin 1))) = _
    rw [hsc', bcast_col, hs', reduceAdd_rows hr hred (fun _ _ => rfl) (fun _ _ => rfl), hk0, hd',
      broadcastInDim_scalar_apply, hk512]
    show Ideal.div (Ideal.ofBits .f32 0x00000000#32 + ∑ c : Fin 512, x (ix2 r c)) (Ideal.ofBits .f32 0x44000000#32)
      = Ideal.div (∑ c : Fin 512, x (ix2 r c)) (Ideal.ofBits .f32 0x44000000#32)
    rw [Ideal.ofBits_zero_f32, zero_add]
  -- the squared deviations
  have e_dev : ∀ (r : Fin 8192) (c : Fin 512), dev (ix2 r c) = x (ix2 r c) - mean512 x r := fun r c => by
    rw [hdev]
    show x (ix2 r c) - mub (ix2 r c) = _
    rw [hmub, bcast_col_mat]
    exact congrArg (x (ix2 r c) - ·) (e_mu' r)
  have e_sq : ∀ (r : Fin 8192) (c : Fin 512),
      sq (ix2 r c) = (x (ix2 r c) - mean512 x r) * (x (ix2 r c) - mean512 x r) := fun r c => by
    rw [hsq]
    show dev (ix2 r c) * dev (ix2 r c) = _
    rw [e_dev r c]
  -- the scalar 512 - 0
  have e_den : den ix0 = Ideal.ofBits .f32 0x44000000#32 := by
    rw [hden]
    show k512b ix0 - cf ix0 = _
    rw [hk512b, hcf, hci]
    show Ideal.ofBits .f32 0x44000000#32 - (((0#32 : BitVec 32).toInt : ℝ) : EReal) = _
    rw [BitVec.toInt_zero, Int.cast_zero, EReal.coe_zero, sub_zero]
  have e_gt : gt ix0 = 1#1 := by
    rw [hgt]
    show Ideal.cmp .ogt (den ix0) (k0c ix0) = 1#1
    rw [e_den, hk0c]
    show Ideal.cmp .ogt (Ideal.ofBits .f32 0x44000000#32) (Ideal.ofBits .f32 0x00000000#32) = 1#1
    rw [Ideal.ofBits_zero_f32]
    unfold Ideal.cmp
    simp [ofBits_512_pos]
  -- the variance
  have e_q : ∀ r : Fin 8192, q (ix2 r (0 : Fin 1)) = var512 x r := fun r => by
    rw [hq]
    show Ideal.div (ssc (ix2 r (0 : Fin 1))) (denb (ix2 r (0 : Fin 1))) = _
    rw [hssc, bcast_col, hss, reduceAdd_rows hr hred (fun _ _ => rfl) (fun _ _ => rfl), hk0b, hdenb,
      broadcastInDim_scalar_apply, e_den]
    show Ideal.div (Ideal.ofBits .f32 0x00000000#32 + ∑ c : Fin 512, sq (ix2 r c)) (Ideal.ofBits .f32 0x44000000#32)
      = Ideal.div (∑ c : Fin 512, (x (ix2 r c) - mean512 x r) * (x (ix2 r c) - mean512 x r)) (Ideal.ofBits .f32 0x44000000#32)
    rw [Ideal.ofBits_zero_f32, zero_add, Finset.sum_congr rfl fun c _ => e_sq r c]
  have e_var : ∀ r : Fin 8192, var (ix2 r (0 : Fin 1)) = var512 x r := fun r => by
    rw [hvar]
    show Scalar.select (broadcastInDim ⟨2, ![8192, 1]⟩ ![] hbs1 gt (ix2 r (0 : Fin 1))) (q (ix2 r (0 : Fin 1)))
      (nb (ix2 r (0 : Fin 1))) = _
    rw [broadcastInDim_scalar_apply, e_gt, select_one, e_q r]
  -- the norm
  rw [hout]
  funext i
  obtain ⟨r, c, rfl⟩ : ∃ (r : Fin 8192) (c : Fin 512), i = ix2 r c := ⟨i 0, i 1, eq_ix2 i⟩
  show y2 (ix2 r c) + bb (ix2 r c)
    = (x (ix2 r c) - mean512 x r) * Ideal.rsqrt (var512 x r + Ideal.ofBits .f32 0x3727C5AC#32) * g (ix1 c) + b (ix1 c)
  have e_bb : bb (ix2 r c) = b (ix1 c) := by
    rw [hbb, bcast_row_mat, hb1, bcast_row]
  have e_gb : gb (ix2 r c) = g (ix1 c) := by
    rw [hgb, bcast_row_mat, hg1, bcast_row]
  have e_rsb : rsb (ix2 r c) = Ideal.rsqrt (var512 x r + Ideal.ofBits .f32 0x3727C5AC#32) := by
    rw [hrsb, bcast_col_mat, hrs]
    show Ideal.rsqrt (ve (ix2 r (0 : Fin 1))) = _
    rw [hve]
    show Ideal.rsqrt (var (ix2 r (0 : Fin 1)) + epsb (ix2 r (0 : Fin 1))) = _
    rw [e_var r, hepsb, broadcastInDim_scalar_apply, hceps]
    rfl
  have e_dev2 : dev2 (ix2 r c) = x (ix2 r c) - mean512 x r := by
    rw [hdev2]
    show x (ix2 r c) - mub2 (ix2 r c) = _
    rw [hmub2, bcast_col_mat]
    exact congrArg (x (ix2 r c) - ·) (e_mu r)
  rw [e_bb, hy2]
  show y1 (ix2 r c) * gb (ix2 r c) + b (ix1 c) = _
  rw [e_gb, hy1]
  show dev2 (ix2 r c) * rsb (ix2 r c) * g (ix1 c) + b (ix1 c) = _
  rw [e_dev2, e_rsb]

end Cert.Read

end
-- ==== Proof.Ref.StageNorm1.lean ====
/-
  The first layer norm of the reference block, at the extended reals: of the first residual sum, with the norm's scale and
  shift vectors (two arguments no operation writes). Forty-four whole-array operations, twenty-three of them the
  variance function's; read index by index they are the specification's layer norm.
-/
import proofs.«172065_j32710470926956_2_alg».proof.Proof.Ref.StepTable1
import proofs.«172065_j32710470926956_2_alg».proof.Proof.Ref.ChainNorm

noncomputable section

open scoped BigOperators

namespace Cert.ReferenceIdeal.RefRun

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

-- equations between final contents: the fold itself is never opened
attribute [local irreducible] StableHlo.after

/-- After the first residual layer norm. -/
theorem v67_eq (V : Valuation τ sig (Elt Ideal)) :
    after ops V (main_v67 : DevRef τ sig)
      = Cert.Spec.layerNorm (n := 8192) (after ops V (main_v49 : DevRef τ sig)) (V (main_arg9 : DevRef τ sig))
          (V (main_arg10 : DevRef τ sig)) := by
  have h := Cert.Read.norm_chain reducesTo_S8192x512_S8192_d1 h_S_ bcast_S8192_S8192x1_0 bcast_S_S8192x1
    bcast_S8192x1_S8192x512_0_1 bcast_S512_S1x512_1 bcast_S1x512_S8192x512_0_1
    (R_main_cst_8 V) (R_main_v50 V) (R_main_v51 V) (R_main_cst_9 V) (R_main_v52 V) (R_main_v53 V) (R_main_c_10 V)
    (R_main_call2_cst V) (R_main_call2_v0 V) (R_main_call2_v1 V) (R_main_call2_cst_0 V) (R_main_call2_v2 V) (R_main_call2_v3 V) (R_main_call2_v4 V)
    (R_main_call2_v5 V) (R_main_call2_v6 V) (R_main_call2_v7 V) (R_main_call2_cst_1 V) (R_main_call2_v8 V) (R_main_call2_cst_2 V) (R_main_call2_v9 V)
    (R_main_call2_v10 V) (R_main_call2_v11 V) (R_main_call2_v12 V) (R_main_call2_cst_3 V) (R_main_call2_v13 V) (R_main_call2_cst_4 V) (R_main_call2_call0_v0 V)
    (R_main_call2_call0_v1 V) (R_main_v54 V) (R_main_v55 V) (R_main_v56 V) (R_main_cst_11 V) (R_main_v57 V) (R_main_v58 V)
    (R_main_v59 V) (R_main_v60 V) (R_main_v61 V) (R_main_v62 V) (R_main_v63 V) (R_main_v64 V) (R_main_v65 V)
    (R_main_v66 V) (R_main_v67 V)
  rw [h, arg9_kept V, arg10_kept V]

end Cert.ReferenceIdeal.RefRun

end
-- ==== Proof.Ref.ChainFfn.lean ====
/-
  The feed-forward chain, once. The reference computes, with whole-array operations: the product with the first matrix
  plus its bias (broadcast as a row, then down the columns); the leaky rectifier as a select on the comparison "≥ 0"
  (against a broadcast zero) between the value and 0.01 (broadcast) times the value; the product with the second matrix
  plus its bias. Read at an index: the specification's feed-forward layer. The hypotheses name each intermediate array
  by the operation that produces it.
-/
import proofs.«172065_j32710470926956_2_alg».proof.Proof.Ref.Read

noncomputable section

open scoped BigOperators

namespace Cert.Read

open Idealize.ShloMosaic Idealize.ShloMosaic.ValueIdx Cert.Spec

theorem ffn_chain
    {x x77 x79 x80 : FVec Ideal ⟨2, ![8192, 512]⟩ .f32}
    {x68 x70 x71 x72 x74 x75 x76 : FVec Ideal ⟨2, ![8192, 2048]⟩ .f32} {x73 : IVec ⟨2, ![8192, 2048]⟩ 1}
    {w1 : FVec Ideal ⟨2, ![512, 2048]⟩ .f32} {b1 : FVec Ideal ⟨1, ![2048]⟩ .f32} {x69 : FVec Ideal ⟨2, ![1, 2048]⟩ .f32}
    {w2 : FVec Ideal ⟨2, ![2048, 512]⟩ .f32} {b2 : FVec Ideal ⟨1, ![512]⟩ .f32} {x78 : FVec Ideal ⟨2, ![1, 512]⟩ .f32}
    {c12 c13 : FVec Ideal ⟨0, ![]⟩ .f32}
    (hbrow1 : (⟨1, ![2048]⟩ : Shape).BroadcastsInDim ⟨2, ![1, 2048]⟩ ![1])
    (hbrm1 : (⟨2, ![1, 2048]⟩ : Shape).BroadcastsInDim ⟨2, ![8192, 2048]⟩ ![0, 1])
    (hbs : (⟨0, ![]⟩ : Shape).BroadcastsInDim ⟨2, ![8192, 2048]⟩ ![])
    (hbrow2 : (⟨1, ![512]⟩ : Shape).BroadcastsInDim ⟨2, ![1, 512]⟩ ![1])
    (hbrm2 : (⟨2, ![1, 512]⟩ : Shape).BroadcastsInDim ⟨2, ![8192, 512]⟩ ![0, 1])
    (D1 : DotDims ⟨2, ![8192, 512]⟩ ⟨2, ![512, 2048]⟩ ⟨2, ![8192, 2048]⟩)
    (h1l : D1.lhsContracting = [1]) (h1r : D1.rhsContracting = [0])
    (h1rank : D1.contr.rank = 1) (h1size : D1.contr.size ⟨0, by omega⟩ = 512)
    (h1L : ∀ (j : (⟨2, ![8192, 2048]⟩ : Shape).Idx) (q : D1.contr.Idx), (D1.lhsIdx j q 0).val = (j 0).val)
    (h1R : ∀ (j : (⟨2, ![8192, 2048]⟩ : Shape).Idx) (q : D1.contr.Idx), (D1.rhsIdx j q 1).val = (j 1).val)
    (D2 : DotDims ⟨2, ![8192, 2048]⟩ ⟨2, ![2048, 512]⟩ ⟨2, ![8192, 512]⟩)
    (h2l : D2.lhsContracting = [1]) (h2r : D2.rhsContracting = [0])
    (h2rank : D2.contr.rank = 1) (h2size : D2.contr.size ⟨0, by omega⟩ = 2048)
    (h2L : ∀ (j : (⟨2, ![8192, 512]⟩ : Shape).Idx) (q : D2.contr.Idx), (D2.lhsIdx j q 0).val = (j 0).val)
    (h2R : ∀ (j : (⟨2, ![8192, 512]⟩ : Shape).Idx) (q : D2.contr.Idx), (D2.rhsIdx j q 1).val = (j 1).val)
    (h68 : x68 = Host.dotGeneral D1 none x w1)
    (h69 : x69 = broadcastInDim ⟨2, ![1, 2048]⟩ ![1] hbrow1 b1)
    (h70 : x70 = broadcastInDim ⟨2, ![8192, 2048]⟩ ![0, 1] hbrm1 x69)
    (h71 : x71 = addf x68 x70)
    (hc12 : c12 = constant ⟨0, ![]⟩ .f32 0x00000000#32)
    (h72 : x72 = broadcastInDim ⟨2, ![8192, 2048]⟩ ![] hbs c12)
    (h73 : x73 = cmpf .oge x71 x72)
    (hc13 : c13 = constant ⟨0, ![]⟩ .f32 0x3C23D70A#32)
    (h74 : x74 = broadcastInDim ⟨2, ![8192, 2048]⟩ ![] hbs c13)
    (h75 : x75 = mulf x74 x71)
    (h76 : x76 = select x73 x71 x75)
    (h77 : x77 = Host.dotGeneral D2 none x76 w2)
    (h78 : x78 = broadcastInDim ⟨2, ![1, 512]⟩ ![1] hbrow2 b2)
    (h79 : x79 = broadcastInDim ⟨2, ![8192, 512]⟩ ![0, 1] hbrm2 x78)
    (h80 : x80 = addf x77 x79) :
    x80 = ffn x w1 b1 w2 b2 := by
  have e71 : ∀ (r : Fin 8192) (p : Fin 2048), x71 (ix2 r p) = mm x w1 (ix2 r p) + b1 (ix1 p) := fun r p => by
    rw [h71]
    show x68 (ix2 r p) + x70 (ix2 r p) = _
    rw [h70, bcast_row_mat, h69, bcast_row, h68, dot_read D1 h1l h1r h1rank h1size h1L h1R]
  have e76 : x76 = hidden x w1 b1 := by
    funext j
    obtain ⟨r, p, rfl⟩ : ∃ (r : Fin 8192) (p : Fin 2048), j = ix2 r p := ⟨j 0, j 1, eq_ix2 j⟩
    rw [h76]
    show Scalar.select (x73 (ix2 r p)) (x71 (ix2 r p)) (x75 (ix2 r p)) = _
    rw [h73]
    show Scalar.select (Ideal.cmp .oge (x71 (ix2 r p)) (x72 (ix2 r p))) (x71 (ix2 r p)) (x75 (ix2 r p)) = _
    rw [select_cmp_oge, h72, broadcastInDim_scalar_apply, hc12, h75]
    show (if Ideal.ofBits .f32 0x00000000#32 ≤ x71 (ix2 r p) then x71 (ix2 r p) else x74 (ix2 r p) * x71 (ix2 r p)) = _
    rw [h74, broadcastInDim_scalar_apply, hc13, Ideal.ofBits_zero_f32, e71 r p]
    rfl
  rw [h80]
  funext i
  obtain ⟨r, c, rfl⟩ : ∃ (r : Fin 8192) (c : Fin 512), i = ix2 r c := ⟨i 0, i 1, eq_ix2 i⟩
  show x77 (ix2 r c) + x79 (ix2 r c) = mm (hidden x w1 b1) w2 (ix2 r c) + b2 (ix1 c)
  rw [h79, bcast_row_mat, h78, bcast_row, h77, dot_read D2 h2l h2r h2rank h2size h2L h2R, e76]

end Cert.Read

end
-- ==== Proof.Ref.StageFfn.lean ====
/-
  The feed-forward layer of the reference block and the second residual sum, at the extended reals: the normed
  activations through the two matrices with the leaky rectifier between them (the specification's feed-forward layer of
  four arguments no operation writes), plus the normed activations again.
-/
import proofs.«172065_j32710470926956_2_alg».proof.Proof.Ref.StepTable1
import proofs.«172065_j32710470926956_2_alg».proof.Proof.Ref.ChainFfn

noncomputable section

open scoped BigOperators

namespace Cert.ReferenceIdeal.RefRun

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

-- equations between final contents: the fold itself is never opened
attribute [local irreducible] StableHlo.after

/-- The feed-forward layer of the normed activations. -/
theorem v80_eq (V : Valuation τ sig (Elt Ideal)) :
    after ops V (main_v80 : DevRef τ sig)
      = Cert.Spec.ffn (n := 8192) (after ops V (main_v67 : DevRef τ sig)) (V (main_arg11 : DevRef τ sig))
          (V (main_arg12 : DevRef τ sig)) (V (main_arg13 : DevRef τ sig)) (V (main_arg14 : DevRef τ sig)) := by
  have h := Cert.Read.ffn_chain bcast_S2048_S1x2048_1 bcast_S1x2048_S8192x2048_0_1 bcast_S_S8192x2048
    bcast_S512_S1x512_1 bcast_S1x512_S8192x512_0_1
    dot_S8192x512_S512x2048_S8192x2048_1_0_0_1_n_n rfl rfl rfl rfl (fun _ _ => rfl) (fun _ _ => rfl)
    dot_S8192x2048_S2048x512_S8192x512_1_0_0_1_n_n rfl rfl rfl rfl (fun _ _ => rfl) (fun _ _ => rfl)
    (R_main_v68 V) (R_main_v69 V) (R_main_v70 V) (R_main_v71 V) (R_main_cst_12 V) (R_main_v72 V) (R_main_v73 V)
    (R_main_cst_13 V) (R_main_v74 V) (R_main_v75 V) (R_main_v76 V) (R_main_v77 V) (R_main_v78 V) (R_main_v79 V)
    (R_main_v80 V)
  rw [h, arg11_kept V, arg12_kept V, arg13_kept V, arg14_kept V]

/-- The second residual sum: the feed-forward layer's output plus its input. -/
theorem v81_eq (V : Valuation τ sig (Elt Ideal)) :
    after ops V (main_v81 : DevRef τ sig)
      = fun i : (⟨2, ![8192, 512]⟩ : Shape).Idx =>
          Cert.Spec.ffn (n := 8192) (after ops V (main_v67 : DevRef τ sig)) (V (main_arg11 : DevRef τ sig))
            (V (main_arg12 : DevRef τ sig)) (V (main_arg13 : DevRef τ sig)) (V (main_arg14 : DevRef τ sig)) i
            + after ops V (main_v67 : DevRef τ sig) i := by
  rw [R_main_v81 V, v80_eq V]
  rfl

end Cert.ReferenceIdeal.RefRun

end
-- ==== Proof.Ref.StageOut.lean ====
/-
  The second layer norm of the reference block, at the extended reals: of the second residual sum, with the same scale
  and shift vectors; its result is the block's output. The same forty-four operations as the first norm, on the second
  call's buffers.
-/
import proofs.«172065_j32710470926956_2_alg».proof.Proof.Ref.StepTable1
import proofs.«172065_j32710470926956_2_alg».proof.Proof.Ref.ChainNorm

noncomputable section

open scoped BigOperators

namespace Cert.ReferenceIdeal.RefRun

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

-- equations between final contents: the fold itself is never opened
attribute [local irreducible] StableHlo.after

/-- The block's output: the layer norm of the second residual sum. -/
theorem v99_eq (V : Valuation τ sig (Elt Ideal)) :
    after ops V (main_v99 : DevRef τ sig)
      = Cert.Spec.layerNorm (n := 8192) (after ops V (main_v81 : DevRef τ sig)) (V (main_arg9 : DevRef τ sig))
          (V (main_arg10 : DevRef τ sig)) := by
  have h := Cert.Read.norm_chain reducesTo_S8192x512_S8192_d1 h_S_ bcast_S8192_S8192x1_0 bcast_S_S8192x1
    bcast_S8192x1_S8192x512_0_1 bcast_S512_S1x512_1 bcast_S1x512_S8192x512_0_1
    (R_main_cst_14 V) (R_main_v82 V) (R_main_v83 V) (R_main_cst_15 V) (R_main_v84 V) (R_main_v85 V) (R_main_c_16 V)
    (R_main_call4_cst V) (R_main_call4_v0 V) (R_main_call4_v1 V) (R_main_call4_cst_0 V) (R_main_call4_v2 V) (R_main_call4_v3 V) (R_main_call4_v4 V)
    (R_main_call4_v5 V) (R_main_call4_v6 V) (R_main_call4_v7 V) (R_main_call4_cst_1 V) (R_main_call4_v8 V) (R_main_call4_cst_2 V) (R_main_call4_v9 V)
    (R_main_call4_v10 V) (R_main_call4_v11 V) (R_main_call4_v12 V) (R_main_call4_cst_3 V) (R_main_call4_v13 V) (R_main_call4_cst_4 V) (R_main_call4_call0_v0 V)
    (R_main_call4_call0_v1 V) (R_main_v86 V) (R_main_v87 V) (R_main_v88 V) (R_main_cst_17 V) (R_main_v89 V) (R_main_v90 V)
    (R_main_v91 V) (R_main_v92 V) (R_main_v93 V) (R_main_v94 V) (R_main_v95 V) (R_main_v96 V) (R_main_v97 V)
    (R_main_v98 V) (R_main_v99 V)
  rw [h, arg9_kept V, arg10_kept V]

end Cert.ReferenceIdeal.RefRun

end
-- ==== Proof.Ref.Stages.lean ====
/-
  The reference block's result, at the extended reals, as the specification's block of its fifteen arguments. Stage by
  stage the final contents are: the three self-attention projections of the previous stage's output; the causal head of
  them; its tiling against the output matrix; the cross-attention queries from that and the keys and values from the
  encoder's output; the cross head; its tiling plus the previous stage's output, under the layer norm; the feed-forward
  layer of that plus its input, under the layer norm again. Substituting each stage into the next gives the block.
-/
import proofs.«172065_j32710470926956_2_alg».proof.Proof.Spec.Block
import proofs.«172065_j32710470926956_2_alg».proof.Proof.Ref.StageMM
import proofs.«172065_j32710470926956_2_alg».proof.Proof.Ref.StageCausal
import proofs.«172065_j32710470926956_2_alg».proof.Proof.Ref.StageTile
import proofs.«172065_j32710470926956_2_alg».proof.Proof.Ref.StageCross
import proofs.«172065_j32710470926956_2_alg».proof.Proof.Ref.StageNorm1
import proofs.«172065_j32710470926956_2_alg».proof.Proof.Ref.StageFfn
import proofs.«172065_j32710470926956_2_alg».proof.Proof.Ref.StageOut

noncomputable section

open scoped BigOperators

namespace Cert.ReferenceIdeal.RefRun

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

-- equations between final contents: the fold itself is never opened
attribute [local irreducible] StableHlo.after

/-- The reference's output buffer holds, when it has run, the specification's block of the launch contents of its
    fifteen arguments: the encoder's output, the previous stage's output, the three self-attention and the three
    cross-attention projection matrices, the output matrix, the norm's scale and shift, the feed-forward layer's two
    matrices and two biases. -/
theorem ref_block (V : Valuation τ sig (Elt Ideal)) :
    after ops V (main_v99 : DevRef τ sig)
      = Cert.Spec.block (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig)) := by
  rw [v99_eq V, v81_eq V, v67_eq V, v49_eq V, v44_eq V, v26_eq V, v25_eq V, v21_eq V, v0_eq V, v1_eq V, v2_eq V,
    v27_eq V, v28_eq V]
  rfl

end Cert.ReferenceIdeal.RefRun

end
-- ==== Proof.LibFinite.lean ====
/-
  From "every entry is finite" as a program states it to "every entry is a real number".

  A precondition `jnp.all(jnp.isfinite(x))` prints as the reduction by `and`, from the constant 1, of the entrywise comparison
  |x| < +∞ (the infinity spelt as the float pattern 0x7F800000), and the claim gives that the result is 1. At the exact values
  |x| is max x (−x) and the pattern is the top element, so the comparison holds exactly when x is neither infinity: a real.
-/
import Idealize.ShloMosaic.PureOps.Ideal
import Idealize.ShloMosaic.Lib.ReduceAll
import proofs.«172065_j32710470926956_2_alg».proof.Proof.LibReal

noncomputable section

namespace Cert.Lib.Finite

open Idealize.ShloMosaic Cert.Lib.Real

/-- The float pattern of +∞ is the top element. -/
theorem ofBits_inf : Ideal.ofBits .f32 0x7F800000#32 = ⊤ := by
  simp [Ideal.ofBits, Ideal.ieee]

/-- |x| < +∞ says that x is a real number. -/
theorem isReal_of_abs_lt_top (x : EReal) (h : Ideal.cmp .olt (max x (-x)) ⊤ = 1#1) : IsReal x := by
  have hlt : max x (-x) < ⊤ := by
    by_contra hn
    have : Ideal.cmp .olt (max x (-x)) ⊤ = 0#1 := by
      unfold Ideal.cmp
      simp only [decide_eq_false hn]
      rfl
    rw [this] at h
    exact absurd h (by decide)
  rw [isReal_iff]
  refine ⟨fun hb => ?_, fun ht => ?_⟩
  · rw [hb, EReal.neg_bot] at hlt
    exact absurd hlt (by simp)
  · rw [ht] at hlt
    exact absurd hlt (by simp)

instance : Subsingleton (⟨0, ![]⟩ : Shape).Idx := ⟨fun a b => funext fun d => d.elim0⟩

/-- `jnp.all(jnp.isfinite(x)) = true`, as printed, gives that every entry of `x` is real. -/
theorem isReal_of_all {s : Shape} {axes : List (Fin s.rank)} (x : FVec Ideal s .f32)
    (hbc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
          (cmpf (F := Ideal) .olt (Host.absf x) (broadcastInDim s ![] hbc (constant (F := Ideal) ⟨0, ![]⟩ .f32 0x7F800000#32)))
          (constantI ⟨0, ![]⟩ 1 1#1) h hu j = 1#1) (i : s.Idx) : IsReal (x i) := by
  have hi := Host.reduce_andi_all _ _ h hu j e i
  refine isReal_of_abs_lt_top (x i) ?_
  rw [← ofBits_inf]
  exact hi

end Cert.Lib.Finite

end
-- ==== Proof.Spec.Finite.lean ====
/-
  The precondition "every input is finite", read back: every entry of each of the fifteen input arrays is a real number.

  The precondition is the conjunction, by `and` on one-bit words, of fifteen terms, one per input array x: the
  reduction by `and`, from 1, of the entrywise comparison |x| < +∞. The claim gives that the conjunction is 1. A
  conjunction that is 1 has both its operands 1, so each of the fifteen reductions is 1, and a reduction by `and` that is
  1 met only 1s: |x i| < +∞ at every index i, which says that x i is neither infinity.
-/
import proofs.«172065_j32710470926956_2_alg».proof.Pre_finite_inputs
import proofs.«172065_j32710470926956_2_alg».proof.Proof.LibFinite
import proofs.«172065_j32710470926956_2_alg».proof.Proof.LibReal
import Idealize.ShloMosaic.Lib.Affine
import Idealize.ShloMosaic.Lib.ValueIdx

noncomputable section

namespace Cert.Spec

open Idealize.ShloMosaic Cert.Lib.Real Cert.Lib.Finite Cert.Pre_finite_inputs

/-- From the precondition as printed to real entries, array by array. -/
theorem real_of_pre [Cert.Pre_finite_inputs.Facts]
    (x0 x1 : FVec Ideal S8192x512 .f32) (x2 x3 x4 x5 x6 x7 : FVec Ideal S512x64 .f32)
    (x8 : FVec Ideal S512x512 .f32) (x9 x10 : FVec Ideal S512 .f32) (x11 : FVec Ideal S512x2048 .f32)
    (x12 : FVec Ideal S2048 .f32) (x13 : FVec Ideal S2048x512 .f32) (x14 : FVec Ideal S512 .f32)
    (h : Cert.Pre_finite_inputs.fn (F := Ideal) x0 x1 x2 x3 x4 x5 x6 x7 x8 x9 x10 x11 x12 x13 x14 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) ∧ (∀ i, IsReal (x12 i)) ∧ (∀ i, IsReal (x13 i))
      ∧ (∀ i, IsReal (x14 i)) := by
  have h0 := congrFun h ValueIdx.ix0
  dsimp only [fn, fn_part1, fn_part2, fn_part3, fn_part4, andi] at h0
  -- the conjunction is nested to the left: peel the last term off, fourteen times
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all x0 _ _ _ _ e0, isReal_of_all x1 _ _ _ _ e1, isReal_of_all x2 _ _ _ _ e2,
    isReal_of_all x3 _ _ _ _ e3, isReal_of_all x4 _ _ _ _ e4, isReal_of_all x5 _ _ _ _ e5,
    isReal_of_all x6 _ _ _ _ e6, isReal_of_all x7 _ _ _ _ e7, isReal_of_all x8 _ _ _ _ e8,
    isReal_of_all x9 _ _ _ _ e9, isReal_of_all x10 _ _ _ _ e10, isReal_of_all x11 _ _ _ _ e11,
    isReal_of_all x12 _ _ _ _ e12, isReal_of_all x13 _ _ _ _ e13, isReal_of_all x14 _ _ _ _ e14⟩

end Cert.Spec

end
-- ==== Proof.Alg.lean ====
/-
  The two idealized programs end with equal results. Under the precondition every entry of every argument is a real number.
  The idealized kernel's run leaves every unscoped buffer at the last boundary's contents, whose result buffer is the
  specification's block of the fifteen arguments (region by region); the idealized reference's run leaves its result buffer at
  the same block of its own arguments (operation by operation); and the two programs' arguments agree.
-/
import proofs.«172065_j32710470926956_2_alg».proof.Defs
import proofs.«172065_j32710470926956_2_alg».proof.Proof.KI.Stages2
import proofs.«172065_j32710470926956_2_alg».proof.Proof.Ref.Stages
import proofs.«172065_j32710470926956_2_alg».proof.Proof.Spec.Finite

set_option maxRecDepth 16384

noncomputable section

namespace Cert.Proof.Parts

open Idealize.ShloMosaic Idealize.ShloMosaic.TcCoe Idealize.SL.Sem Cert.Lib.Real

set_option maxHeartbeats 4000000 in
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m g m' g' hpre hagree
  have hr : ∀ c : Dev Cert.KernelIdeal.nD, Cert.KernelIdeal.Hand.RealArgs m c := fun c => by
    obtain ⟨r0, r1, r2, r3, r4, r5, r6, r7, r8, r9, r10, r11, r12, r13, r14⟩ := Cert.Spec.real_of_pre _ _ _ _ _ _ _ _ _ _ _ _ _ _ _ (hpre c)
    exact ⟨r0, r1, r2, r3, r4, r5, r6, r7, r8, r9, r10, r11, r12, r13, r14⟩
  refine ⟨fun c => m ((c.tc : Thread Cert.KernelIdeal.nD Cert.KernelIdeal.τ).loc Cert.KernelIdeal.main_arg0),
    fun c => Cert.Spec.block (Cert.KernelIdeal.Hand.arg m c Cert.KernelIdeal.main_arg0) (Cert.KernelIdeal.Hand.arg m c Cert.KernelIdeal.main_arg1)
      (Cert.KernelIdeal.Hand.arg m c Cert.KernelIdeal.main_arg2) (Cert.KernelIdeal.Hand.arg m c Cert.KernelIdeal.main_arg3)
      (Cert.KernelIdeal.Hand.arg m c Cert.KernelIdeal.main_arg4) (Cert.KernelIdeal.Hand.arg m c Cert.KernelIdeal.main_arg5)
      (Cert.KernelIdeal.Hand.arg m c Cert.KernelIdeal.main_arg6) (Cert.KernelIdeal.Hand.arg m c Cert.KernelIdeal.main_arg7)
      (Cert.KernelIdeal.Hand.arg m c Cert.KernelIdeal.main_arg8) (Cert.KernelIdeal.Hand.arg m c Cert.KernelIdeal.main_arg9)
      (Cert.KernelIdeal.Hand.arg m c Cert.KernelIdeal.main_arg10) (Cert.KernelIdeal.Hand.arg m c Cert.KernelIdeal.main_arg11)
      (Cert.KernelIdeal.Hand.arg m c Cert.KernelIdeal.main_arg12) (Cert.KernelIdeal.Hand.arg m c Cert.KernelIdeal.main_arg13)
      (Cert.KernelIdeal.Hand.arg m c Cert.KernelIdeal.main_arg14), ?_, ?_⟩
  · -- the idealized kernel
    refine (θ_run (Cert.KernelIdeal.defs (F := Ideal)) _ _).mono (fun r h c => ⟨
      (h c _ (Cert.KernelIdeal.Hand.mem_uc Cert.KernelIdeal.main_arg0 (by decide))).trans (Cert.KernelIdeal.Hand.kept m g c Cert.KernelIdeal.main_arg0 (by decide) (by decide) (by decide) (by decide) (by decide) (by decide) (by decide) (by decide) (by decide) (by decide) (by decide) (by decide) (by decide) (by decide) (by decide)),
      (h c _ (Cert.KernelIdeal.Hand.mem_uc Cert.KernelIdeal.main_v36 (by decide))).trans (Cert.KernelIdeal.Hand.s_out m g c (hr c)),
      (h c _ (Cert.KernelIdeal.Hand.mem_uc Cert.KernelIdeal.main_arg0 (by decide))).trans (Cert.KernelIdeal.Hand.kept m g c Cert.KernelIdeal.main_arg0 (by decide) (by decide) (by decide) (by decide) (by decide) (by decide) (by decide) (by decide) (by decide) (by decide) (by decide) (by decide) (by decide) (by decide) (by decide)),
      (h c _ (Cert.KernelIdeal.Hand.mem_uc Cert.KernelIdeal.main_arg1 (by decide))).trans (Cert.KernelIdeal.Hand.kept m g c Cert.KernelIdeal.main_arg1 (by decide) (by decide) (by decide) (by decide) (by decide) (by decide) (by decide) (by decide) (by decide) (by decide) (by decide) (by decide) (by decide) (by decide) (by decide)),
      (h c _ (Cert.KernelIdeal.Hand.mem_uc Cert.KernelIdeal.main_arg2 (by decide))).trans (Cert.KernelIdeal.Hand.kept m g c Cert.KernelIdeal.main_arg2 (by decide) (by decide) (by decide) (by decide) (by decide) (by decide) (by decide) (by decide) (by decide) (by decide) (by decide) (by decide) (by decide) (by decide) (by decide)),
      (h c _ (Cert.KernelIdeal.Hand.mem_uc Cert.KernelIdeal.main_arg3 (by decide))).trans (Cert.KernelIdeal.Hand.kept m g c Cert.KernelIdeal.main_arg3 (by decide) (by decide) (by decide) (by decide) (by decide) (by decide) (by decide) (by decide) (by decide) (by decide) (by decide) (by decide) (by decide) (by decide) (by decide)),
      (h c _ (Cert.KernelIdeal.Hand.mem_uc Cert.KernelIdeal.main_arg4 (by decide))).trans (Cert.KernelIdeal.Hand.kept m g c Cert.KernelIdeal.main_arg4 (by decide) (by decide) (by decide) (by decide) (by decide) (by decide) (by decide) (by decide) (by decide) (by decide) (by decide) (by decide) (by decide) (by decide) (by decide)),
      (h c _ (Cert.KernelIdeal.Hand.mem_uc Cert.KernelIdeal.main_arg5 (by decide))).trans (Cert.KernelIdeal.Hand.kept m g c Cert.KernelIdeal.main_arg5 (by decide) (by decide) (by decide) (by decide) (by decide) (by decide) (by decide) (by decide) (by decide) (by decide) (by decide) (by decide) (by decide) (by decide) (by decide)),
      (h c _ (Cert.KernelIdeal.Hand.mem_uc Cert.KernelIdeal.main_arg6 (by decide))).trans (Cert.KernelIdeal.Hand.kept m g c Cert.KernelIdeal.main_arg6 (by decide) (by decide) (by decide) (by decide) (by decide) (by decide) (by decide) (by decide) (by decide) (by decide) (by decide) (by decide) (by decide) (by decide) (by decide)),
      (h c _ (Cert.KernelIdeal.Hand.mem_uc Cert.KernelIdeal.main_arg7 (by decide))).trans (Cert.KernelIdeal.Hand.kept m g c Cert.KernelIdeal.main_arg7 (by decide) (by decide) (by decide) (by decide) (by decide) (by decide) (by decide) (by decide) (by decide) (by decide) (by decide) (by decide) (by decide) (by decide) (by decide)),
      (h c _ (Cert.KernelIdeal.Hand.mem_uc Cert.KernelIdeal.main_arg8 (by decide))).trans (Cert.KernelIdeal.Hand.kept m g c Cert.KernelIdeal.main_arg8 (by decide) (by decide) (by decide) (by decide) (by decide) (by decide) (by decide) (by decide) (by decide) (by decide) (by decide) (by decide) (by decide) (by decide) (by decide)),
      (h c _ (Cert.KernelIdeal.Hand.mem_uc Cert.KernelIdeal.main_arg9 (by decide))).trans (Cert.KernelIdeal.Hand.kept m g c Cert.KernelIdeal.main_arg9 (by decide) (by decide) (by decide) (by decide) (by decide) (by decide) (by decide) (by decide) (by decide) (by decide) (by decide) (by decide) (by decide) (by decide) (by decide)),
      (h c _ (Cert.KernelIdeal.Hand.mem_uc Cert.KernelIdeal.main_arg10 (by decide))).trans (Cert.KernelIdeal.Hand.kept m g c Cert.KernelIdeal.main_arg10 (by decide) (by decide) (by decide) (by decide) (by decide) (by decide) (by decide) (by decide) (by decide) (by decide) (by decide) (by decide) (by decide) (by decide) (by decide)),
      (h c _ (Cert.KernelIdeal.Hand.mem_uc Cert.KernelIdeal.main_arg11 (by decide))).trans (Cert.KernelIdeal.Hand.kept m g c Cert.KernelIdeal.main_arg11 (by decide) (by decide) (by decide) (by decide) (by decide) (by decide) (by decide) (by decide) (by decide) (by decide) (by decide) (by decide) (by decide) (by decide) (by decide)),
      (h c _ (Cert.KernelIdeal.Hand.mem_uc Cert.KernelIdeal.main_arg12 (by decide))).trans (Cert.KernelIdeal.Hand.kept m g c Cert.KernelIdeal.main_arg12 (by decide) (by decide) (by decide) (by decide) (by decide) (by decide) (by decide) (by decide) (by decide) (by decide) (by decide) (by decide) (by decide) (by decide) (by decide)),
      (h c _ (Cert.KernelIdeal.Hand.mem_uc Cert.KernelIdeal.main_arg13 (by decide))).trans (Cert.KernelIdeal.Hand.kept m g c Cert.KernelIdeal.main_arg13 (by decide) (by decide) (by decide) (by decide) (by decide) (by decide) (by decide) (by decide) (by decide) (by decide) (by decide) (by decide) (by decide) (by decide) (by decide)),
      (h c _ (Cert.KernelIdeal.Hand.mem_uc Cert.KernelIdeal.main_arg14 (by decide))).trans (Cert.KernelIdeal.Hand.kept m g c Cert.KernelIdeal.main_arg14 (by decide) (by decide) (by decide) (by decide) (by decide) (by decide) (by decide) (by decide) (by decide) (by decide) (by decide) (by decide) (by decide) (by decide) (by decide))⟩) (Cert.KernelIdeal.Hand.run_all (F := Ideal) m g)
  · -- the idealized reference
    refine (θ_run (Cert.ReferenceIdeal.defs (F := Ideal)) _ _).mono (fun r h c => ?_) (Cert.ReferenceIdeal.RefRun.run_main (F := Ideal) m' g')
    obtain ⟨e0, e1, e2, e3, e4, e5, e6, e7, e8, e9, e10, e11, e12, e13, e14⟩ := hagree c
    refine ⟨((h c Cert.ReferenceIdeal.main_arg0).trans (Cert.ReferenceIdeal.RefRun.arg0_kept _)).trans e0, ?_,
      (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _),
      (h c Cert.ReferenceIdeal.main_arg12).trans (Cert.ReferenceIdeal.RefRun.arg12_kept _),
      (h c Cert.ReferenceIdeal.main_arg13).trans (Cert.ReferenceIdeal.RefRun.arg13_kept _),
      (h c Cert.ReferenceIdeal.main_arg14).trans (Cert.ReferenceIdeal.RefRun.arg14_kept _)⟩
    have hR := Cert.ReferenceIdeal.RefRun.ref_block (Idealize.ShloMosaic.StableHlo.launchContents m' c)
    rw [
      show Idealize.ShloMosaic.StableHlo.launchContents m' c (Cert.ReferenceIdeal.main_arg0 : DevRef Cert.ReferenceIdeal.τ Cert.ReferenceIdeal.sig)
        = Cert.KernelIdeal.Hand.arg m c Cert.KernelIdeal.main_arg0 from e0,
      show Idealize.ShloMosaic.StableHlo.launchContents m' c (Cert.ReferenceIdeal.main_arg1 : DevRef Cert.ReferenceIdeal.τ Cert.ReferenceIdeal.sig)
        = Cert.KernelIdeal.Hand.arg m c Cert.KernelIdeal.main_arg1 from e1,
      show Idealize.ShloMosaic.StableHlo.launchContents m' c (Cert.ReferenceIdeal.main_arg2 : DevRef Cert.ReferenceIdeal.τ Cert.ReferenceIdeal.sig)
        = Cert.KernelIdeal.Hand.arg m c Cert.KernelIdeal.main_arg2 from e2,
      show Idealize.ShloMosaic.StableHlo.launchContents m' c (Cert.ReferenceIdeal.main_arg3 : DevRef Cert.ReferenceIdeal.τ Cert.ReferenceIdeal.sig)
        = Cert.KernelIdeal.Hand.arg m c Cert.KernelIdeal.main_arg3 from e3,
      show Idealize.ShloMosaic.StableHlo.launchContents m' c (Cert.ReferenceIdeal.main_arg4 : DevRef Cert.ReferenceIdeal.τ Cert.ReferenceIdeal.sig)
        = Cert.KernelIdeal.Hand.arg m c Cert.KernelIdeal.main_arg4 from e4,
      show Idealize.ShloMosaic.StableHlo.launchContents m' c (Cert.ReferenceIdeal.main_arg5 : DevRef Cert.ReferenceIdeal.τ Cert.ReferenceIdeal.sig)
        = Cert.KernelIdeal.Hand.arg m c Cert.KernelIdeal.main_arg5 from e5,
      show Idealize.ShloMosaic.StableHlo.launchContents m' c (Cert.ReferenceIdeal.main_arg6 : DevRef Cert.ReferenceIdeal.τ Cert.ReferenceIdeal.sig)
        = Cert.KernelIdeal.Hand.arg m c Cert.KernelIdeal.main_arg6 from e6,
      show Idealize.ShloMosaic.StableHlo.launchContents m' c (Cert.ReferenceIdeal.main_arg7 : DevRef Cert.ReferenceIdeal.τ Cert.ReferenceIdeal.sig)
        = Cert.KernelIdeal.Hand.arg m c Cert.KernelIdeal.main_arg7 from e7,
      show Idealize.ShloMosaic.StableHlo.launchContents m' c (Cert.ReferenceIdeal.main_arg8 : DevRef Cert.ReferenceIdeal.τ Cert.ReferenceIdeal.sig)
        = Cert.KernelIdeal.Hand.arg m c Cert.KernelIdeal.main_arg8 from e8,
      show Idealize.ShloMosaic.StableHlo.launchContents m' c (Cert.ReferenceIdeal.main_arg9 : DevRef Cert.ReferenceIdeal.τ Cert.ReferenceIdeal.sig)
        = Cert.KernelIdeal.Hand.arg m c Cert.KernelIdeal.main_arg9 from e9,
      show Idealize.ShloMosaic.StableHlo.launchContents m' c (Cert.ReferenceIdeal.main_arg10 : DevRef Cert.ReferenceIdeal.τ Cert.ReferenceIdeal.sig)
        = Cert.KernelIdeal.Hand.arg m c Cert.KernelIdeal.main_arg10 from e10,
      show Idealize.ShloMosaic.StableHlo.launchContents m' c (Cert.ReferenceIdeal.main_arg11 : DevRef Cert.ReferenceIdeal.τ Cert.ReferenceIdeal.sig)
        = Cert.KernelIdeal.Hand.arg m c Cert.KernelIdeal.main_arg11 from e11,
      show Idealize.ShloMosaic.StableHlo.launchContents m' c (Cert.ReferenceIdeal.main_arg12 : DevRef Cert.ReferenceIdeal.τ Cert.ReferenceIdeal.sig)
        = Cert.KernelIdeal.Hand.arg m c Cert.KernelIdeal.main_arg12 from e12,
      show Idealize.ShloMosaic.StableHlo.launchContents m' c (Cert.ReferenceIdeal.main_arg13 : DevRef Cert.ReferenceIdeal.τ Cert.ReferenceIdeal.sig)
        = Cert.KernelIdeal.Hand.arg m c Cert.KernelIdeal.main_arg13 from e13,
      show Idealize.ShloMosaic.StableHlo.launchContents m' c (Cert.ReferenceIdeal.main_arg14 : DevRef Cert.ReferenceIdeal.τ Cert.ReferenceIdeal.sig)
        = Cert.KernelIdeal.Hand.arg m c Cert.KernelIdeal.main_arg14 from e14] at hR
    exact (h c Cert.ReferenceIdeal.main_v99).trans hR

end Cert.Proof.Parts

end
-- ==== Proof.lean ====
/-
  A transformer decoder block over 8192 positions of width 512, one projected head of width 64 shared by all eight heads:
  causal self-attention over the previous stage's output, cross-attention of the result against the encoder's output,
  a residual layer norm, a feed-forward layer of width 2048 with a leaky rectifier, and a second residual layer norm.

  The kernel computes it in eight grid regions — the three self-attention projections as ONE product against the
  column-wise join of their weights, sliced apart again; the causal attention block by block with a running maximum,
  denominator and numerator; each head projection against the SUM of the output matrix's eight row blocks; the two
  cross-attention projections of the encoder as one product; the cross-attention row by row in a single pass; and the
  two layer norms fused with the product before them — and the reference computes the same block with whole-array
  operations: full score matrices, a masked softmax, the head tiled eight times before the output projection.

  At the extended reals every change of float format is the identity, and what joins the two sides is:
  * a product against a join of weight columns, read at a column, is the product against that weight (both are one sum);
  * x * (1/8) = x / 8, and the stand-in the kernel fills masked scores and seeds the running maximum with is read as -∞,
    which is what the reference writes;
  * the block-by-block recurrence ends at the softmax-weighted sum of the values (OnlineSoftmax.run_div), and the
    single-pass quotient at the same sum (OnlineSoftmax.single_div): a change of the shift multiplies numerator and
    denominator by one positive factor; masked keys and skipped blocks have weight zero (OnlineSoftmax.masked_term);
  * the tiled head against the output matrix is the head against the sum of its row blocks (HeadTile.sum_tile_mul):
    distributivity, for real entries — and an attention's output is a real number (OnlineSoftmax.run_div_real);
  * a zero bias added to a product changes nothing; the layer norms and the feed-forward layer are the same
    expressions of equal arguments on both sides.
  Finiteness of the inputs is used wherever a product is distributed over a sum or a factor is cancelled.

  How the proof goes. The runs first: the reference's is its operations in order, none of which writes an argument; the
  kernel's (at any float values, so at the word level and at the extended reals alike) is fifteen segments — seven stretches
  of host operations and eight regions — each region's body run symbolically at a generic grid point (the causal attention's
  in its five control cases, its three scratch buffers named point by point), ending with every unscoped buffer at contents
  named boundary by boundary: an argument at its launch contents, the result at the last region's output array.
  Then the values, at the extended reals: each region's output array is ONE function of its operand arrays (its blocks cover
  the array; the body's stored value read at an index); the host operations between regions are read at an index (joins,
  slices, one-row layouts, the row-block sum); so, region by region, the kernel's arrays are the specification's stage
  functions of the fifteen arguments, and its result is the specification's block of them (Spec.block). The reference's result
  is the same block of its own arguments, operation by operation; and the two programs' arguments agree.
  The two rewrites of the idealized kernel (the named -∞ at its two sites) are as stated.
-/
import proofs.«172065_j32710470926956_2_alg».proof.Defs
import proofs.«172065_j32710470926956_2_alg».proof.Proof.Gen.Kernel
import proofs.«172065_j32710470926956_2_alg».proof.Proof.Gen.Kernel.Skeleton
import proofs.«172065_j32710470926956_2_alg».proof.Proof.Gen.Kernel.Launch
import proofs.«172065_j32710470926956_2_alg».proof.Proof.Gen.Kernel.Regions
import proofs.«172065_j32710470926956_2_alg».proof.Proof.Gen.Kernel.Points
import proofs.«172065_j32710470926956_2_alg».proof.Proof.Gen.KernelIdeal
import proofs.«172065_j32710470926956_2_alg».proof.Proof.Gen.KernelIdeal.Skeleton
import proofs.«172065_j32710470926956_2_alg».proof.Proof.Gen.KernelIdeal.Launch
import proofs.«172065_j32710470926956_2_alg».proof.Proof.Gen.KernelIdeal.Regions
import proofs.«172065_j32710470926956_2_alg».proof.Proof.Gen.KernelIdeal.Points
import proofs.«172065_j32710470926956_2_alg».proof.Proof.Gen.ReferenceIdeal
import proofs.«172065_j32710470926956_2_alg».proof.Proof.Gen.Pre_finite_inputs
import proofs.«172065_j32710470926956_2_alg».proof.Proof.Preserves
import proofs.«172065_j32710470926956_2_alg».proof.Proof.Ref.Run
import proofs.«172065_j32710470926956_2_alg».proof.Proof.KI.Frame
import proofs.«172065_j32710470926956_2_alg».proof.Proof.K.Frame
import proofs.«172065_j32710470926956_2_alg».proof.Proof.Alg
import proofs.«172065_j32710470926956_2_alg».proof.Proof.LibOnlineSoftmax
import proofs.«172065_j32710470926956_2_alg».proof.Proof.LibHeadTile
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨?frame_kernel, ?frame_kernel_ideal, ?frame_reference_ideal, Cert.Proof.Parts.preserves, ?algebraic⟩
  case frame_kernel => exact fun m ρ _ => Cert.Kernel.Hand.frame (F := Bits) m ρ
  case frame_kernel_ideal => exact fun m ρ _ => Cert.KernelIdeal.Hand.frame (F := Ideal) m ρ
  case frame_reference_ideal => exact Cert.ReferenceIdeal.RefRun.frame
  case algebraic => exact Cert.Proof.Parts.algebraic⟩

end Cert.Proof

end
